-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S26x4096x20 : Shape := ⟨3, ![26, 4096, 20]⟩
abbrev S26x100001x32 : Shape := ⟨3, ![26, 100001, 32]⟩
abbrev S_ : Shape := ⟨0, ![]⟩

class Facts : Prop where
  bcast_S_S26x100001x32 : S_.BroadcastsInDim S26x100001x32 (![] : Fin 0 → Fin S26x100001x32.rank)
  reducesTo_S26x100001x32_S_d0_1_2 : S26x100001x32.ReducesTo [0, 1, 2] S_
  h_S_ : 0 < S_.numel
  bcast_S_S26x4096x20 : S_.BroadcastsInDim S26x4096x20 (![] : Fin 0 → Fin S26x4096x20.rank)
  reducesTo_S26x4096x20_S_d0_1_2 : S26x4096x20.ReducesTo [0, 1, 2] S_

variable [Facts]

def fn {F : FTy → Type} [FloatOps F] (main_arg0 : IVec S26x4096x20 32) (main_arg1 : FVec F S26x100001x32 .f32) : IVec S_ 1 :=
  let main_v0 : FVec F S26x100001x32 .f32 := Host.absf main_arg1
  let main_cst : FVec F S_ .f32 := constant S_ .f32 0x7F800000#32
  let main_v1 : FVec F S26x100001x32 .f32 := broadcastInDim S26x100001x32 ![] bcast_S_S26x100001x32 main_cst
  let main_v2 : IVec S26x100001x32 1 := cmpf .olt main_v0 main_v1
  let main_c : IVec S_ 1 := constantI S_ 1 1#1
  let main_v3 : IVec S_ 1 := (fun x v => Host.reduce IntOp.andi x v reducesTo_S26x100001x32_S_d0_1_2 h_S_) main_v2 main_c
  let main_c_0 : IVec S_ 32 := constantI S_ 32 0#32
  let main_v4 : IVec S26x4096x20 32 := broadcastInDim S26x4096x20 ![] bcast_S_S26x4096x20 main_c_0
  let main_v5 : IVec S26x4096x20 1 := cmpi .sge main_arg0 main_v4
  let main_c_1 : IVec S_ 32 := constantI S_ 32 99999#32
  let main_v6 : IVec S26x4096x20 32 := broadcastInDim S26x4096x20 ![] bcast_S_S26x4096x20 main_c_1
  let main_v7 : IVec S26x4096x20 1 := cmpi .sle main_arg0 main_v6
  let main_v8 : IVec S26x4096x20 1 := andi main_v5 main_v7
  let main_c_2 : IVec S_ 1 := constantI S_ 1 1#1
  let main_v9 : IVec S_ 1 := (fun x v => Host.reduce IntOp.andi x v reducesTo_S26x4096x20_S_d0_1_2 h_S_) main_v8 main_c_2
  let main_v10 : IVec S_ 1 := andi main_v3 main_v9
  main_v10
-- ==== Kernel.lean ====
abbrev S26x4096x20 : Shape := ⟨3, ![26, 4096, 20]⟩
abbrev S26x100001x32 : Shape := ⟨3, ![26, 100001, 32]⟩
abbrev S26x81920 : Shape := ⟨2, ![26, 81920]⟩
abbrev S81920x26 : Shape := ⟨2, ![81920, 26]⟩
abbrev S2129920 : Shape := ⟨1, ![2129920]⟩
abbrev S26 : Shape := ⟨1, ![26]⟩
abbrev S_ : Shape := ⟨0, ![]⟩
abbrev S1x26 : Shape := ⟨2, ![1, 26]⟩
abbrev S16x26 : Shape := ⟨2, ![16, 26]⟩
abbrev S416 : Shape := ⟨1, ![416]⟩
abbrev S83200832 : Shape := ⟨1, ![83200832]⟩
abbrev S64 : Shape := ⟨1, ![64]⟩
abbrev S83200896 : Shape := ⟨1, ![83200896]⟩
abbrev S650007x128 : Shape := ⟨2, ![650007, 128]⟩
abbrev S532480x128 : Shape := ⟨2, ![532480, 128]⟩
abbrev S416x128 : Shape := ⟨2, ![416, 128]⟩
abbrev S104x128 : Shape := ⟨2, ![104, 128]⟩
abbrev S16 : Shape := ⟨1, ![16]⟩
abbrev S4096x20x832 : Shape := ⟨3, ![4096, 20, 832]⟩

abbrev nBuf : Table → Nat
  | .hbm => 19
  | .local .scVector .vmem => 7
  | _ => 0

abbrev bufTy : (tb : Table) → Fin (nBuf tb) → BufTy
  | .hbm, ⟨0, _⟩ => ⟨S26x4096x20, .i32⟩
  | .hbm, ⟨1, _⟩ => ⟨S26x100001x32, .f32⟩
  | .hbm, ⟨2, _⟩ => ⟨S26x81920, .i32⟩
  | .hbm, ⟨3, _⟩ => ⟨S81920x26, .i32⟩
  | .hbm, ⟨4, _⟩ => ⟨S2129920, .i32⟩
  | .hbm, ⟨5, _⟩ => ⟨S26, .i32⟩
  | .hbm, ⟨6, _⟩ => ⟨S_, .i32⟩
  | .hbm, ⟨7, _⟩ => ⟨S26, .i32⟩
  | .hbm, ⟨8, _⟩ => ⟨S26, .i32⟩
  | .hbm, ⟨9, _⟩ => ⟨S1x26, .i32⟩
  | .hbm, ⟨10, _⟩ => ⟨S16x26, .i32⟩
  | .hbm, ⟨11, _⟩ => ⟨S416, .i32⟩
  | .hbm, ⟨12, _⟩ => ⟨S83200832, .f32⟩
  | .hbm, ⟨13, _⟩ => ⟨S_, .f32⟩
  | .hbm, ⟨14, _⟩ => ⟨S64, .f32⟩
  | .hbm, ⟨15, _⟩ => ⟨S83200896, .f32⟩
  | .hbm, ⟨16, _⟩ => ⟨S650007x128, .f32⟩
  | .hbm, ⟨17, _⟩ => ⟨S532480x128, .f32⟩
  | .hbm, ⟨18, _⟩ => ⟨S4096x20x832, .f32⟩
  | .local .scVector .vmem, ⟨0, _⟩ => ⟨S416, .i32⟩
  | .local .scVector .vmem, ⟨1, _⟩ => ⟨S416, .i32⟩
  | .local .scVector .vmem, ⟨2, _⟩ => ⟨S416, .i32⟩
  | .local .scVector .vmem, ⟨3, _⟩ => ⟨S416, .i32⟩
  | .local .scVector .vmem, ⟨4, _⟩ => ⟨S416, .i32⟩
  | .local .scVector .vmem, ⟨5, _⟩ => ⟨S416x128, .f32⟩
  | .local .scVector .vmem, ⟨6, _⟩ => ⟨S416x128, .f32⟩
  | _, _ => ⟨S26x4096x20, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v2_scv : Ref sig .scVector := ⟨.hbm, 4, rfl⟩
abbrev main_v8_scv : Ref sig .scVector := ⟨.hbm, 11, rfl⟩
abbrev main_v12_scv : Ref sig .scVector := ⟨.hbm, 16, rfl⟩
abbrev main_v13_scv : Ref sig .scVector := ⟨.hbm, 17, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c66560_i32 : BitVec 32 := 66560#32
  let v2 : BitVec 32 := Scalar.muli v1 c66560_i32
  let v4 : BitVec 32 := Scalar.addi v2 c0_i32
  ![v4.toNat]
@[reducible] def k0_t1_loop : Scf.Loop 32 :=
  let c0_i32_1 : BitVec 32 := 0#32
  let c80_i32 : BitVec 32 := 80#32
  let v10 : BitVec 32 := Scalar.addi c0_i32_1 c80_i32
  let c1_i32 : BitVec 32 := 1#32
  ⟨c0_i32_1, v10, c1_i32⟩
def k0_cond1 (k0_t1 : Fin k0_t1_loop.trips) : BitVec 1 :=
  let c0_i32_1 : BitVec 32 := 0#32
  let c1_i32 : BitVec 32 := 1#32
  let arg19 : BitVec 32 := Scf.iv c0_i32_1 c1_i32 k0_t1
  let c2_i32_28 : BitVec 32 := 2#32
  let v29 : BitVec 32 := Scalar.muli arg19 c2_i32_28
  let c0_i32_29 : BitVec 32 := 0#32
  let v30 : BitVec 32 := Scalar.addi v29 c0_i32_29
  let c2_i32_30 : BitVec 32 := 2#32
  let v31 : BitVec 1 := Scalar.cmpi .sge v30 c2_i32_30
  let v32 : BitVec 32 := Scalar.extui v31
  let c0_i32_31 : BitVec 32 := 0#32
  let v33 : BitVec 1 := Scalar.cmpi .ne v32 c0_i32_31
  v33

def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16640_i32 : BitVec 32 := 16640#32
  let v3 : BitVec 32 := Scalar.muli v1 c16640_i32
  let c0_i32_1 : BitVec 32 := 0#32
  let c1_i32 : BitVec 32 := 1#32
  let arg19 : BitVec 32 := Scf.iv c0_i32_1 c1_i32 k0_t1
  let c2_i32_28 : BitVec 32 := 2#32
  let v29 : BitVec 32 := Scalar.muli arg19 c2_i32_28
  let c0_i32_29 : BitVec 32 := 0#32
  let v30 : BitVec 32 := Scalar.addi v29 c0_i32_29
  let c2_i32_56 : BitVec 32 := 2#32
  let v57 : BitVec 32 := Scalar.subi v30 c2_i32_56
  let c104_i32 : BitVec 32 := 104#32
  let v58 : BitVec 32 := Scalar.muli v57 c104_i32
  let v59 : BitVec 32 := Scalar.addi v3 v58
  let c0_i32_59 : BitVec 32 := 0#32
  ![v59.toNat, 0]
def k0_off3 (i : grid0.Coords) (k0_t1 : Fin k0_t1_loop.trips) (c0_i32_29 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c66560_i32 : BitVec 32 := 66560#32
  let v2 : BitVec 32 := Scalar.muli v1 c66560_i32
  let c0_i32_1 : BitVec 32 := 0#32
  let c1_i32 : BitVec 32 := 1#32
  let arg19 : BitVec 32 := Scf.iv c0_i32_1 c1_i32 k0_t1
  let c2_i32_28 : BitVec 32 := 2#32
  let v29 : BitVec 32 := Scalar.muli arg19 c2_i32_28
  let v30 : BitVec 32 := Scalar.addi v29 c0_i32_29
  let c416_i32_32 : BitVec 32 := 416#32
  let v34 : BitVec 32 := Scalar.muli v30 c416_i32_32
  let v35 : BitVec 32 := Scalar.addi v2 v34
  ![v35.toNat]
@[reducible] def k0_t2_loop : Scf.Loop 32 :=
  let c0_i32_34 : BitVec 32 := 0#32
  let c26_i32_35 : BitVec 32 := 26#32
  let v38 : BitVec 32 := Scalar.addi c0_i32_34 c26_i32_35
  let c1_i32_36 : BitVec 32 := 1#32
  ⟨c0_i32_34, v38, c1_i32_36⟩
def k0_off4 (k0_t2 : Fin k0_t2_loop.trips) : Fin 1 → Nat :=
  let c0_i32_34 : BitVec 32 := 0#32
  let c1_i32_36 : BitVec 32 := 1#32
  let arg20 : BitVec 32 := Scf.iv c0_i32_34 c1_i32_36 k0_t2
  let c16_i32 : BitVec 32 := 16#32
  let v57 : BitVec 32 := Scalar.muli arg20 c16_i32
  let v58 : Index := Scalar.indexCast v57
  ![v58.toNat]
def k0_cond2 (k0_t1 : Fin k0_t1_loop.trips) : BitVec 1 :=
  let c0_i32_1 : BitVec 32 := 0#32
  let c1_i32 : BitVec 32 := 1#32
  let arg19 : BitVec 32 := Scf.iv c0_i32_1 c1_i32 k0_t1
  let c2_i32_28 : BitVec 32 := 2#32
  let v29 : BitVec 32 := Scalar.muli arg19 c2_i32_28
  let c0_i32_29 : BitVec 32 := 0#32
  let v30 : BitVec 32 := Scalar.addi v29 c0_i32_29
  let c1_i32_40 : BitVec 32 := 1#32
  let v40 : BitVec 1 := Scalar.cmpi .sge v30 c1_i32_40
  let v41 : BitVec 32 := Scalar.extui v40
  let c0_i32_41 : BitVec 32 := 0#32
  let v42 : BitVec 1 := Scalar.cmpi .ne v41 c0_i32_41
  v42

def k0_cond3 (k0_t1 : Fin k0_t1_loop.trips) : BitVec 1 :=
  let c0_i32_1 : BitVec 32 := 0#32
  let c1_i32 : BitVec 32 := 1#32
  let arg19 : BitVec 32 := Scf.iv c0_i32_1 c1_i32 k0_t1
  let c2_i32_28 : BitVec 32 := 2#32
  let v29 : BitVec 32 := Scalar.muli arg19 c2_i32_28
  let c0_i32_29 : BitVec 32 := 0#32
  let v30 : BitVec 32 := Scalar.addi v29 c0_i32_29
  let c1_i32_58 : BitVec 32 := 1#32
  let v58 : BitVec 32 := Scalar.addi v30 c1_i32_58
  let c160_i32 : BitVec 32 := 160#32
  let v59 : BitVec 1 := Scalar.cmpi .slt v58 c160_i32
  let v60 : BitVec 32 := Scalar.extui v59
  let c0_i32_59 : BitVec 32 := 0#32
  let v61 : BitVec 1 := Scalar.cmpi .ne v60 c0_i32_59
  v61

def k0_off5 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c66560_i32 : BitVec 32 := 66560#32
  let v2 : BitVec 32 := Scalar.muli v1 c66560_i32
  let c0_i32_1 : BitVec 32 := 0#32
  let c1_i32 : BitVec 32 := 1#32
  let arg19 : BitVec 32 := Scf.iv c0_i32_1 c1_i32 k0_t1
  let c2_i32_28 : BitVec 32 := 2#32
  let v29 : BitVec 32 := Scalar.muli arg19 c2_i32_28
  let c0_i32_29 : BitVec 32 := 0#32
  let v30 : BitVec 32 := Scalar.addi v29 c0_i32_29
  let c1_i32_72 : BitVec 32 := 1#32
  let v71 : BitVec 32 := Scalar.addi v30 c1_i32_72
  let c416_i32_73 : BitVec 32 := 416#32
  let v72 : BitVec 32 := Scalar.muli v71 c416_i32_73
  let v73 : BitVec 32 := Scalar.addi v2 v72
  ![v73.toNat]
@[reducible] def k0_t3_loop : Scf.Loop 32 :=
  let c0_i32_61 : BitVec 32 := 0#32
  let c26_i32_62 : BitVec 32 := 26#32
  let v63 : BitVec 32 := Scalar.addi c0_i32_61 c26_i32_62
  let c1_i32_63 : BitVec 32 := 1#32
  ⟨c0_i32_61, v63, c1_i32_63⟩
def k0_off6 (k0_t3 : Fin k0_t3_loop.trips) : Fin 1 → Nat :=
  let c0_i32_61 : BitVec 32 := 0#32
  let c1_i32_63 : BitVec 32 := 1#32
  let arg20 : BitVec 32 := Scf.iv c0_i32_61 c1_i32_63 k0_t3
  let c16_i32 : BitVec 32 := 16#32
  let v71 : BitVec 32 := Scalar.muli arg20 c16_i32
  let v72 : Index := Scalar.indexCast v71
  ![v72.toNat]

def k0_chk1 (k0_t1 : Fin k0_t1_loop.trips) (v75 : IVec S16 32) (v83 : IVec S16 32) : Prop :=
  (∀ (k0_h2 : k0_cond2 k0_t1 = 1#1), ∀ a x, ((![v75, v83] : Fin 2 → IVec S16 32) a x).toNat < S416x128.size a)
instance k0_chk1.dec : ∀ (k0_t1 : Fin k0_t1_loop.trips) (v75 : IVec S16 32) (v83 : IVec S16 32), Decidable (k0_chk1 k0_t1 v75 v83) := fun k0_t1 v75 v83 => decidable_of_iff' _ (Iff.of_eq (k0_chk1.eq_1 k0_t1 v75 v83))
theorem k0_idx1_inb : ∀ (k0_t1 : Fin k0_t1_loop.trips) (v75 : IVec S16 32) (v83 : IVec S16 32) (k0_hw1 : k0_chk1 k0_t1 v75 v83), ∀ (k0_h2 : k0_cond2 k0_t1 = 1#1), ∀ a x, ((![v75, v83] : Fin 2 → IVec S16 32) a x).toNat < S416x128.size a := fun k0_t1 v75 v83 k0_hw1 k0_h2 => k0_hw1 k0_h2

def k0_chk2 (k0_t1 : Fin k0_t1_loop.trips) (v88 : IVec S16 32) (v90 : IVec S16 32) : Prop :=
  (∀ (k0_h2 : k0_cond2 k0_t1 = 1#1), ∀ a x, ((![v88, v90] : Fin 2 → IVec S16 32) a x).toNat < S416x128.size a)
instance k0_chk2.dec : ∀ (k0_t1 : Fin k0_t1_loop.trips) (v88 : IVec S16 32) (v90 : IVec S16 32), Decidable (k0_chk2 k0_t1 v88 v90) := fun k0_t1 v88 v90 => decidable_of_iff' _ (Iff.of_eq (k0_chk2.eq_1 k0_t1 v88 v90))
theorem k0_idx2_inb : ∀ (k0_t1 : Fin k0_t1_loop.trips) (v88 : IVec S16 32) (v90 : IVec S16 32) (k0_hw2 : k0_chk2 k0_t1 v88 v90), ∀ (k0_h2 : k0_cond2 k0_t1 = 1#1), ∀ a x, ((![v88, v90] : Fin 2 → IVec S16 32) a x).toNat < S416x128.size a := fun k0_t1 v88 v90 k0_hw2 k0_h2 => k0_hw2 k0_h2

def k0_chk3 (k0_t1 : Fin k0_t1_loop.trips) (v75 : IVec S16 32) (v92 : IVec S16 32) : Prop :=
  (∀ (k0_h2 : k0_cond2 k0_t1 = 1#1), ∀ a x, ((![v75, v92] : Fin 2 → IVec S16 32) a x).toNat < S416x128.size a)
instance k0_chk3.dec : ∀ (k0_t1 : Fin k0_t1_loop.trips) (v75 : IVec S16 32) (v92 : IVec S16 32), Decidable (k0_chk3 k0_t1 v75 v92) := fun k0_t1 v75 v92 => decidable_of_iff' _ (Iff.of_eq (k0_chk3.eq_1 k0_t1 v75 v92))
theorem k0_idx3_inb : ∀ (k0_t1 : Fin k0_t1_loop.trips) (v75 : IVec S16 32) (v92 : IVec S16 32) (k0_hw3 : k0_chk3 k0_t1 v75 v92), ∀ (k0_h2 : k0_cond2 k0_t1 = 1#1), ∀ a x, ((![v75, v92] : Fin 2 → IVec S16 32) a x).toNat < S416x128.size a := fun k0_t1 v75 v92 k0_hw3 k0_h2 => k0_hw3 k0_h2

def k0_chk4 (k0_t1 : Fin k0_t1_loop.trips) (v97 : IVec S16 32) (v99 : IVec S16 32) : Prop :=
  (∀ (k0_h2 : k0_cond2 k0_t1 = 1#1), ∀ a x, ((![v97, v99] : Fin 2 → IVec S16 32) a x).toNat < S416x128.size a)
instance k0_chk4.dec : ∀ (k0_t1 : Fin k0_t1_loop.trips) (v97 : IVec S16 32) (v99 : IVec S16 32), Decidable (k0_chk4 k0_t1 v97 v99) := fun k0_t1 v97 v99 => decidable_of_iff' _ (Iff.of_eq (k0_chk4.eq_1 k0_t1 v97 v99))
theorem k0_idx4_inb : ∀ (k0_t1 : Fin k0_t1_loop.trips) (v97 : IVec S16 32) (v99 : IVec S16 32) (k0_hw4 : k0_chk4 k0_t1 v97 v99), ∀ (k0_h2 : k0_cond2 k0_t1 = 1#1), ∀ a x, ((![v97, v99] : Fin 2 → IVec S16 32) a x).toNat < S416x128.size a := fun k0_t1 v97 v99 k0_hw4 k0_h2 => k0_hw4 k0_h2

def k0_chk5 (k0_t1 : Fin k0_t1_loop.trips) (v75 : IVec S16 32) (v101 : IVec S16 32) : Prop :=
  (∀ (k0_h2 : k0_cond2 k0_t1 = 1#1), ∀ a x, ((![v75, v101] : Fin 2 → IVec S16 32) a x).toNat < S416x128.size a)
instance k0_chk5.dec : ∀ (k0_t1 : Fin k0_t1_loop.trips) (v75 : IVec S16 32) (v101 : IVec S16 32), Decidable (k0_chk5 k0_t1 v75 v101) := fun k0_t1 v75 v101 => decidable_of_iff' _ (Iff.of_eq (k0_chk5.eq_1 k0_t1 v75 v101))
theorem k0_idx5_inb : ∀ (k0_t1 : Fin k0_t1_loop.trips) (v75 : IVec S16 32) (v101 : IVec S16 32) (k0_hw5 : k0_chk5 k0_t1 v75 v101), ∀ (k0_h2 : k0_cond2 k0_t1 = 1#1), ∀ a x, ((![v75, v101] : Fin 2 → IVec S16 32) a x).toNat < S416x128.size a := fun k0_t1 v75 v101 k0_hw5 k0_h2 => k0_hw5 k0_h2

def k0_chk6 (k0_t1 : Fin k0_t1_loop.trips) (v106 : IVec S16 32) (v108 : IVec S16 32) : Prop :=
  (∀ (k0_h2 : k0_cond2 k0_t1 = 1#1), ∀ a x, ((![v106, v108] : Fin 2 → IVec S16 32) a x).toNat < S416x128.size a)
instance k0_chk6.dec : ∀ (k0_t1 : Fin k0_t1_loop.trips) (v106 : IVec S16 32) (v108 : IVec S16 32), Decidable (k0_chk6 k0_t1 v106 v108) := fun k0_t1 v106 v108 => decidable_of_iff' _ (Iff.of_eq (k0_chk6.eq_1 k0_t1 v106 v108))
theorem k0_idx6_inb : ∀ (k0_t1 : Fin k0_t1_loop.trips) (v106 : IVec S16 32) (v108 : IVec S16 32) (k0_hw6 : k0_chk6 k0_t1 v106 v108), ∀ (k0_h2 : k0_cond2 k0_t1 = 1#1), ∀ a x, ((![v106, v108] : Fin 2 → IVec S16 32) a x).toNat < S416x128.size a := fun k0_t1 v106 v108 k0_hw6 k0_h2 => k0_hw6 k0_h2

def k0_chk7 (k0_t1 : Fin k0_t1_loop.trips) (v75 : IVec S16 32) (v110 : IVec S16 32) : Prop :=
  (∀ (k0_h2 : k0_cond2 k0_t1 = 1#1), ∀ a x, ((![v75, v110] : Fin 2 → IVec S16 32) a x).toNat < S416x128.size a)
instance k0_chk7.dec : ∀ (k0_t1 : Fin k0_t1_loop.trips) (v75 : IVec S16 32) (v110 : IVec S16 32), Decidable (k0_chk7 k0_t1 v75 v110) := fun k0_t1 v75 v110 => decidable_of_iff' _ (Iff.of_eq (k0_chk7.eq_1 k0_t1 v75 v110))
theorem k0_idx7_inb : ∀ (k0_t1 : Fin k0_t1_loop.trips) (v75 : IVec S16 32) (v110 : IVec S16 32) (k0_hw7 : k0_chk7 k0_t1 v75 v110), ∀ (k0_h2 : k0_cond2 k0_t1 = 1#1), ∀ a x, ((![v75, v110] : Fin 2 → IVec S16 32) a x).toNat < S416x128.size a := fun k0_t1 v75 v110 k0_hw7 k0_h2 => k0_hw7 k0_h2

def k0_chk8 (k0_t1 : Fin k0_t1_loop.trips) (v115 : IVec S16 32) (v117 : IVec S16 32) : Prop :=
  (∀ (k0_h2 : k0_cond2 k0_t1 = 1#1), ∀ a x, ((![v115, v117] : Fin 2 → IVec S16 32) a x).toNat < S416x128.size a)
instance k0_chk8.dec : ∀ (k0_t1 : Fin k0_t1_loop.trips) (v115 : IVec S16 32) (v117 : IVec S16 32), Decidable (k0_chk8 k0_t1 v115 v117) := fun k0_t1 v115 v117 => decidable_of_iff' _ (Iff.of_eq (k0_chk8.eq_1 k0_t1 v115 v117))
theorem k0_idx8_inb : ∀ (k0_t1 : Fin k0_t1_loop.trips) (v115 : IVec S16 32) (v117 : IVec S16 32) (k0_hw8 : k0_chk8 k0_t1 v115 v117), ∀ (k0_h2 : k0_cond2 k0_t1 = 1#1), ∀ a x, ((![v115, v117] : Fin 2 → IVec S16 32) a x).toNat < S416x128.size a := fun k0_t1 v115 v117 k0_hw8 k0_h2 => k0_hw8 k0_h2

def k0_chk9 (k0_t1 : Fin k0_t1_loop.trips) (v75 : IVec S16 32) (v119 : IVec S16 32) : Prop :=
  (∀ (k0_h2 : k0_cond2 k0_t1 = 1#1), ∀ a x, ((![v75, v119] : Fin 2 → IVec S16 32) a x).toNat < S416x128.size a)
instance k0_chk9.dec : ∀ (k0_t1 : Fin k0_t1_loop.trips) (v75 : IVec S16 32) (v119 : IVec S16 32), Decidable (k0_chk9 k0_t1 v75 v119) := fun k0_t1 v75 v119 => decidable_of_iff' _ (Iff.of_eq (k0_chk9.eq_1 k0_t1 v75 v119))
theorem k0_idx9_inb : ∀ (k0_t1 : Fin k0_t1_loop.trips) (v75 : IVec S16 32) (v119 : IVec S16 32) (k0_hw9 : k0_chk9 k0_t1 v75 v119), ∀ (k0_h2 : k0_cond2 k0_t1 = 1#1), ∀ a x, ((![v75, v119] : Fin 2 → IVec S16 32) a x).toNat < S416x128.size a := fun k0_t1 v75 v119 k0_hw9 k0_h2 => k0_hw9 k0_h2

def k0_chk10 (k0_t1 : Fin k0_t1_loop.trips) (v124 : IVec S16 32) (v126 : IVec S16 32) : Prop :=
  (∀ (k0_h2 : k0_cond2 k0_t1 = 1#1), ∀ a x, ((![v124, v126] : Fin 2 → IVec S16 32) a x).toNat < S416x128.size a)
instance k0_chk10.dec : ∀ (k0_t1 : Fin k0_t1_loop.trips) (v124 : IVec S16 32) (v126 : IVec S16 32), Decidable (k0_chk10 k0_t1 v124 v126) := fun k0_t1 v124 v126 => decidable_of_iff' _ (Iff.of_eq (k0_chk10.eq_1 k0_t1 v124 v126))
theorem k0_idx10_inb : ∀ (k0_t1 : Fin k0_t1_loop.trips) (v124 : IVec S16 32) (v126 : IVec S16 32) (k0_hw10 : k0_chk10 k0_t1 v124 v126), ∀ (k0_h2 : k0_cond2 k0_t1 = 1#1), ∀ a x, ((![v124, v126] : Fin 2 → IVec S16 32) a x).toNat < S416x128.size a := fun k0_t1 v124 v126 k0_hw10 k0_h2 => k0_hw10 k0_h2

def k0_chk11 (k0_t1 : Fin k0_t1_loop.trips) (v75 : IVec S16 32) (v128 : IVec S16 32) : Prop :=
  (∀ (k0_h2 : k0_cond2 k0_t1 = 1#1), ∀ a x, ((![v75, v128] : Fin 2 → IVec S16 32) a x).toNat < S416x128.size a)
instance k0_chk11.dec : ∀ (k0_t1 : Fin k0_t1_loop.trips) (v75 : IVec S16 32) (v128 : IVec S16 32), Decidable (k0_chk11 k0_t1 v75 v128) := fun k0_t1 v75 v128 => decidable_of_iff' _ (Iff.of_eq (k0_chk11.eq_1 k0_t1 v75 v128))
theorem k0_idx11_inb : ∀ (k0_t1 : Fin k0_t1_loop.trips) (v75 : IVec S16 32) (v128 : IVec S16 32) (k0_hw11 : k0_chk11 k0_t1 v75 v128), ∀ (k0_h2 : k0_cond2 k0_t1 = 1#1), ∀ a x, ((![v75, v128] : Fin 2 → IVec S16 32) a x).toNat < S416x128.size a := fun k0_t1 v75 v128 k0_hw11 k0_h2 => k0_hw11 k0_h2

def k0_chk12 (k0_t1 : Fin k0_t1_loop.trips) (v133 : IVec S16 32) (v135 : IVec S16 32) : Prop :=
  (∀ (k0_h2 : k0_cond2 k0_t1 = 1#1), ∀ a x, ((![v133, v135] : Fin 2 → IVec S16 32) a x).toNat < S416x128.size a)
instance k0_chk12.dec : ∀ (k0_t1 : Fin k0_t1_loop.trips) (v133 : IVec S16 32) (v135 : IVec S16 32), Decidable (k0_chk12 k0_t1 v133 v135) := fun k0_t1 v133 v135 => decidable_of_iff' _ (Iff.of_eq (k0_chk12.eq_1 k0_t1 v133 v135))
theorem k0_idx12_inb : ∀ (k0_t1 : Fin k0_t1_loop.trips) (v133 : IVec S16 32) (v135 : IVec S16 32) (k0_hw12 : k0_chk12 k0_t1 v133 v135), ∀ (k0_h2 : k0_cond2 k0_t1 = 1#1), ∀ a x, ((![v133, v135] : Fin 2 → IVec S16 32) a x).toNat < S416x128.size a := fun k0_t1 v133 v135 k0_hw12 k0_h2 => k0_hw12 k0_h2

def k0_chk13 (k0_t1 : Fin k0_t1_loop.trips) (v75 : IVec S16 32) (v137 : IVec S16 32) : Prop :=
  (∀ (k0_h2 : k0_cond2 k0_t1 = 1#1), ∀ a x, ((![v75, v137] : Fin 2 → IVec S16 32) a x).toNat < S416x128.size a)
instance k0_chk13.dec : ∀ (k0_t1 : Fin k0_t1_loop.trips) (v75 : IVec S16 32) (v137 : IVec S16 32), Decidable (k0_chk13 k0_t1 v75 v137) := fun k0_t1 v75 v137 => decidable_of_iff' _ (Iff.of_eq (k0_chk13.eq_1 k0_t1 v75 v137))
theorem k0_idx13_inb : ∀ (k0_t1 : Fin k0_t1_loop.trips) (v75 : IVec S16 32) (v137 : IVec S16 32) (k0_hw13 : k0_chk13 k0_t1 v75 v137), ∀ (k0_h2 : k0_cond2 k0_t1 = 1#1), ∀ a x, ((![v75, v137] : Fin 2 → IVec S16 32) a x).toNat < S416x128.size a := fun k0_t1 v75 v137 k0_hw13 k0_h2 => k0_hw13 k0_h2

def k0_chk14 (k0_t1 : Fin k0_t1_loop.trips) (v142 : IVec S16 32) (v144 : IVec S16 32) : Prop :=
  (∀ (k0_h2 : k0_cond2 k0_t1 = 1#1), ∀ a x, ((![v142, v144] : Fin 2 → IVec S16 32) a x).toNat < S416x128.size a)
instance k0_chk14.dec : ∀ (k0_t1 : Fin k0_t1_loop.trips) (v142 : IVec S16 32) (v144 : IVec S16 32), Decidable (k0_chk14 k0_t1 v142 v144) := fun k0_t1 v142 v144 => decidable_of_iff' _ (Iff.of_eq (k0_chk14.eq_1 k0_t1 v142 v144))
theorem k0_idx14_inb : ∀ (k0_t1 : Fin k0_t1_loop.trips) (v142 : IVec S16 32) (v144 : IVec S16 32) (k0_hw14 : k0_chk14 k0_t1 v142 v144), ∀ (k0_h2 : k0_cond2 k0_t1 = 1#1), ∀ a x, ((![v142, v144] : Fin 2 → IVec S16 32) a x).toNat < S416x128.size a := fun k0_t1 v142 v144 k0_hw14 k0_h2 => k0_hw14 k0_h2

def k0_chk15 (k0_t1 : Fin k0_t1_loop.trips) (v75 : IVec S16 32) (v146 : IVec S16 32) : Prop :=
  (∀ (k0_h2 : k0_cond2 k0_t1 = 1#1), ∀ a x, ((![v75, v146] : Fin 2 → IVec S16 32) a x).toNat < S416x128.size a)
instance k0_chk15.dec : ∀ (k0_t1 : Fin k0_t1_loop.trips) (v75 : IVec S16 32) (v146 : IVec S16 32), Decidable (k0_chk15 k0_t1 v75 v146) := fun k0_t1 v75 v146 => decidable_of_iff' _ (Iff.of_eq (k0_chk15.eq_1 k0_t1 v75 v146))
theorem k0_idx15_inb : ∀ (k0_t1 : Fin k0_t1_loop.trips) (v75 : IVec S16 32) (v146 : IVec S16 32) (k0_hw15 : k0_chk15 k0_t1 v75 v146), ∀ (k0_h2 : k0_cond2 k0_t1 = 1#1), ∀ a x, ((![v75, v146] : Fin 2 → IVec S16 32) a x).toNat < S416x128.size a := fun k0_t1 v75 v146 k0_hw15 k0_h2 => k0_hw15 k0_h2

def k0_chk16 (k0_t1 : Fin k0_t1_loop.trips) (v151 : IVec S16 32) (v153 : IVec S16 32) : Prop :=
  (∀ (k0_h2 : k0_cond2 k0_t1 = 1#1), ∀ a x, ((![v151, v153] : Fin 2 → IVec S16 32) a x).toNat < S416x128.size a)
instance k0_chk16.dec : ∀ (k0_t1 : Fin k0_t1_loop.trips) (v151 : IVec S16 32) (v153 : IVec S16 32), Decidable (k0_chk16 k0_t1 v151 v153) := fun k0_t1 v151 v153 => decidable_of_iff' _ (Iff.of_eq (k0_chk16.eq_1 k0_t1 v151 v153))
theorem k0_idx16_inb : ∀ (k0_t1 : Fin k0_t1_loop.trips) (v151 : IVec S16 32) (v153 : IVec S16 32) (k0_hw16 : k0_chk16 k0_t1 v151 v153), ∀ (k0_h2 : k0_cond2 k0_t1 = 1#1), ∀ a x, ((![v151, v153] : Fin 2 → IVec S16 32) a x).toNat < S416x128.size a := fun k0_t1 v151 v153 k0_hw16 k0_h2 => k0_hw16 k0_h2

def k0_chk17 (k0_t1 : Fin k0_t1_loop.trips) (v75 : IVec S16 32) (v155 : IVec S16 32) : Prop :=
  (∀ (k0_h2 : k0_cond2 k0_t1 = 1#1), ∀ a x, ((![v75, v155] : Fin 2 → IVec S16 32) a x).toNat < S416x128.size a)
instance k0_chk17.dec : ∀ (k0_t1 : Fin k0_t1_loop.trips) (v75 : IVec S16 32) (v155 : IVec S16 32), Decidable (k0_chk17 k0_t1 v75 v155) := fun k0_t1 v75 v155 => decidable_of_iff' _ (Iff.of_eq (k0_chk17.eq_1 k0_t1 v75 v155))
theorem k0_idx17_inb : ∀ (k0_t1 : Fin k0_t1_loop.trips) (v75 : IVec S16 32) (v155 : IVec S16 32) (k0_hw17 : k0_chk17 k0_t1 v75 v155), ∀ (k0_h2 : k0_cond2 k0_t1 = 1#1), ∀ a x, ((![v75, v155] : Fin 2 → IVec S16 32) a x).toNat < S416x128.size a := fun k0_t1 v75 v155 k0_hw17 k0_h2 => k0_hw17 k0_h2

def k0_chk18 (k0_t1 : Fin k0_t1_loop.trips) (v160 : IVec S16 32) (v162 : IVec S16 32) : Prop :=
  (∀ (k0_h2 : k0_cond2 k0_t1 = 1#1), ∀ a x, ((![v160, v162] : Fin 2 → IVec S16 32) a x).toNat < S416x128.size a)
instance k0_chk18.dec : ∀ (k0_t1 : Fin k0_t1_loop.trips) (v160 : IVec S16 32) (v162 : IVec S16 32), Decidable (k0_chk18 k0_t1 v160 v162) := fun k0_t1 v160 v162 => decidable_of_iff' _ (Iff.of_eq (k0_chk18.eq_1 k0_t1 v160 v162))
theorem k0_idx18_inb : ∀ (k0_t1 : Fin k0_t1_loop.trips) (v160 : IVec S16 32) (v162 : IVec S16 32) (k0_hw18 : k0_chk18 k0_t1 v160 v162), ∀ (k0_h2 : k0_cond2 k0_t1 = 1#1), ∀ a x, ((![v160, v162] : Fin 2 → IVec S16 32) a x).toNat < S416x128.size a := fun k0_t1 v160 v162 k0_hw18 k0_h2 => k0_hw18 k0_h2

def k0_chk19 (k0_t1 : Fin k0_t1_loop.trips) (v75 : IVec S16 32) (v164 : IVec S16 32) : Prop :=
  (∀ (k0_h2 : k0_cond2 k0_t1 = 1#1), ∀ a x, ((![v75, v164] : Fin 2 → IVec S16 32) a x).toNat < S416x128.size a)
instance k0_chk19.dec : ∀ (k0_t1 : Fin k0_t1_loop.trips) (v75 : IVec S16 32) (v164 : IVec S16 32), Decidable (k0_chk19 k0_t1 v75 v164) := fun k0_t1 v75 v164 => decidable_of_iff' _ (Iff.of_eq (k0_chk19.eq_1 k0_t1 v75 v164))
theorem k0_idx19_inb : ∀ (k0_t1 : Fin k0_t1_loop.trips) (v75 : IVec S16 32) (v164 : IVec S16 32) (k0_hw19 : k0_chk19 k0_t1 v75 v164), ∀ (k0_h2 : k0_cond2 k0_t1 = 1#1), ∀ a x, ((![v75, v164] : Fin 2 → IVec S16 32) a x).toNat < S416x128.size a := fun k0_t1 v75 v164 k0_hw19 k0_h2 => k0_hw19 k0_h2

def k0_chk20 (k0_t1 : Fin k0_t1_loop.trips) (v169 : IVec S16 32) (v171 : IVec S16 32) : Prop :=
  (∀ (k0_h2 : k0_cond2 k0_t1 = 1#1), ∀ a x, ((![v169, v171] : Fin 2 → IVec S16 32) a x).toNat < S416x128.size a)
instance k0_chk20.dec : ∀ (k0_t1 : Fin k0_t1_loop.trips) (v169 : IVec S16 32) (v171 : IVec S16 32), Decidable (k0_chk20 k0_t1 v169 v171) := fun k0_t1 v169 v171 => decidable_of_iff' _ (Iff.of_eq (k0_chk20.eq_1 k0_t1 v169 v171))
theorem k0_idx20_inb : ∀ (k0_t1 : Fin k0_t1_loop.trips) (v169 : IVec S16 32) (v171 : IVec S16 32) (k0_hw20 : k0_chk20 k0_t1 v169 v171), ∀ (k0_h2 : k0_cond2 k0_t1 = 1#1), ∀ a x, ((![v169, v171] : Fin 2 → IVec S16 32) a x).toNat < S416x128.size a := fun k0_t1 v169 v171 k0_hw20 k0_h2 => k0_hw20 k0_h2

def k0_chk21 (k0_t1 : Fin k0_t1_loop.trips) (v75 : IVec S16 32) (v173 : IVec S16 32) : Prop :=
  (∀ (k0_h2 : k0_cond2 k0_t1 = 1#1), ∀ a x, ((![v75, v173] : Fin 2 → IVec S16 32) a x).toNat < S416x128.size a)
instance k0_chk21.dec : ∀ (k0_t1 : Fin k0_t1_loop.trips) (v75 : IVec S16 32) (v173 : IVec S16 32), Decidable (k0_chk21 k0_t1 v75 v173) := fun k0_t1 v75 v173 => decidable_of_iff' _ (Iff.of_eq (k0_chk21.eq_1 k0_t1 v75 v173))
theorem k0_idx21_inb : ∀ (k0_t1 : Fin k0_t1_loop.trips) (v75 : IVec S16 32) (v173 : IVec S16 32) (k0_hw21 : k0_chk21 k0_t1 v75 v173), ∀ (k0_h2 : k0_cond2 k0_t1 = 1#1), ∀ a x, ((![v75, v173] : Fin 2 → IVec S16 32) a x).toNat < S416x128.size a := fun k0_t1 v75 v173 k0_hw21 k0_h2 => k0_hw21 k0_h2

def k0_chk22 (k0_t1 : Fin k0_t1_loop.trips) (v178 : IVec S16 32) (v180 : IVec S16 32) : Prop :=
  (∀ (k0_h2 : k0_cond2 k0_t1 = 1#1), ∀ a x, ((![v178, v180] : Fin 2 → IVec S16 32) a x).toNat < S416x128.size a)
instance k0_chk22.dec : ∀ (k0_t1 : Fin k0_t1_loop.trips) (v178 : IVec S16 32) (v180 : IVec S16 32), Decidable (k0_chk22 k0_t1 v178 v180) := fun k0_t1 v178 v180 => decidable_of_iff' _ (Iff.of_eq (k0_chk22.eq_1 k0_t1 v178 v180))
theorem k0_idx22_inb : ∀ (k0_t1 : Fin k0_t1_loop.trips) (v178 : IVec S16 32) (v180 : IVec S16 32) (k0_hw22 : k0_chk22 k0_t1 v178 v180), ∀ (k0_h2 : k0_cond2 k0_t1 = 1#1), ∀ a x, ((![v178, v180] : Fin 2 → IVec S16 32) a x).toNat < S416x128.size a := fun k0_t1 v178 v180 k0_hw22 k0_h2 => k0_hw22 k0_h2

def k0_chk23 (k0_t1 : Fin k0_t1_loop.trips) (v75 : IVec S16 32) (v182 : IVec S16 32) : Prop :=
  (∀ (k0_h2 : k0_cond2 k0_t1 = 1#1), ∀ a x, ((![v75, v182] : Fin 2 → IVec S16 32) a x).toNat < S416x128.size a)
instance k0_chk23.dec : ∀ (k0_t1 : Fin k0_t1_loop.trips) (v75 : IVec S16 32) (v182 : IVec S16 32), Decidable (k0_chk23 k0_t1 v75 v182) := fun k0_t1 v75 v182 => decidable_of_iff' _ (Iff.of_eq (k0_chk23.eq_1 k0_t1 v75 v182))
theorem k0_idx23_inb : ∀ (k0_t1 : Fin k0_t1_loop.trips) (v75 : IVec S16 32) (v182 : IVec S16 32) (k0_hw23 : k0_chk23 k0_t1 v75 v182), ∀ (k0_h2 : k0_cond2 k0_t1 = 1#1), ∀ a x, ((![v75, v182] : Fin 2 → IVec S16 32) a x).toNat < S416x128.size a := fun k0_t1 v75 v182 k0_hw23 k0_h2 => k0_hw23 k0_h2

def k0_chk24 (k0_t1 : Fin k0_t1_loop.trips) (v187 : IVec S16 32) (v189 : IVec S16 32) : Prop :=
  (∀ (k0_h2 : k0_cond2 k0_t1 = 1#1), ∀ a x, ((![v187, v189] : Fin 2 → IVec S16 32) a x).toNat < S416x128.size a)
instance k0_chk24.dec : ∀ (k0_t1 : Fin k0_t1_loop.trips) (v187 : IVec S16 32) (v189 : IVec S16 32), Decidable (k0_chk24 k0_t1 v187 v189) := fun k0_t1 v187 v189 => decidable_of_iff' _ (Iff.of_eq (k0_chk24.eq_1 k0_t1 v187 v189))
theorem k0_idx24_inb : ∀ (k0_t1 : Fin k0_t1_loop.trips) (v187 : IVec S16 32) (v189 : IVec S16 32) (k0_hw24 : k0_chk24 k0_t1 v187 v189), ∀ (k0_h2 : k0_cond2 k0_t1 = 1#1), ∀ a x, ((![v187, v189] : Fin 2 → IVec S16 32) a x).toNat < S416x128.size a := fun k0_t1 v187 v189 k0_hw24 k0_h2 => k0_hw24 k0_h2

def k0_chk25 (k0_t1 : Fin k0_t1_loop.trips) (v75 : IVec S16 32) (v191 : IVec S16 32) : Prop :=
  (∀ (k0_h2 : k0_cond2 k0_t1 = 1#1), ∀ a x, ((![v75, v191] : Fin 2 → IVec S16 32) a x).toNat < S416x128.size a)
instance k0_chk25.dec : ∀ (k0_t1 : Fin k0_t1_loop.trips) (v75 : IVec S16 32) (v191 : IVec S16 32), Decidable (k0_chk25 k0_t1 v75 v191) := fun k0_t1 v75 v191 => decidable_of_iff' _ (Iff.of_eq (k0_chk25.eq_1 k0_t1 v75 v191))
theorem k0_idx25_inb : ∀ (k0_t1 : Fin k0_t1_loop.trips) (v75 : IVec S16 32) (v191 : IVec S16 32) (k0_hw25 : k0_chk25 k0_t1 v75 v191), ∀ (k0_h2 : k0_cond2 k0_t1 = 1#1), ∀ a x, ((![v75, v191] : Fin 2 → IVec S16 32) a x).toNat < S416x128.size a := fun k0_t1 v75 v191 k0_hw25 k0_h2 => k0_hw25 k0_h2

def k0_chk26 (k0_t1 : Fin k0_t1_loop.trips) (v196 : IVec S16 32) (v198 : IVec S16 32) : Prop :=
  (∀ (k0_h2 : k0_cond2 k0_t1 = 1#1), ∀ a x, ((![v196, v198] : Fin 2 → IVec S16 32) a x).toNat < S416x128.size a)
instance k0_chk26.dec : ∀ (k0_t1 : Fin k0_t1_loop.trips) (v196 : IVec S16 32) (v198 : IVec S16 32), Decidable (k0_chk26 k0_t1 v196 v198) := fun k0_t1 v196 v198 => decidable_of_iff' _ (Iff.of_eq (k0_chk26.eq_1 k0_t1 v196 v198))
theorem k0_idx26_inb : ∀ (k0_t1 : Fin k0_t1_loop.trips) (v196 : IVec S16 32) (v198 : IVec S16 32) (k0_hw26 : k0_chk26 k0_t1 v196 v198), ∀ (k0_h2 : k0_cond2 k0_t1 = 1#1), ∀ a x, ((![v196, v198] : Fin 2 → IVec S16 32) a x).toNat < S416x128.size a := fun k0_t1 v196 v198 k0_hw26 k0_h2 => k0_hw26 k0_h2

def k0_chk27 (k0_t1 : Fin k0_t1_loop.trips) (v75 : IVec S16 32) (v200 : IVec S16 32) : Prop :=
  (∀ (k0_h2 : k0_cond2 k0_t1 = 1#1), ∀ a x, ((![v75, v200] : Fin 2 → IVec S16 32) a x).toNat < S416x128.size a)
instance k0_chk27.dec : ∀ (k0_t1 : Fin k0_t1_loop.trips) (v75 : IVec S16 32) (v200 : IVec S16 32), Decidable (k0_chk27 k0_t1 v75 v200) := fun k0_t1 v75 v200 => decidable_of_iff' _ (Iff.of_eq (k0_chk27.eq_1 k0_t1 v75 v200))
theorem k0_idx27_inb : ∀ (k0_t1 : Fin k0_t1_loop.trips) (v75 : IVec S16 32) (v200 : IVec S16 32) (k0_hw27 : k0_chk27 k0_t1 v75 v200), ∀ (k0_h2 : k0_cond2 k0_t1 = 1#1), ∀ a x, ((![v75, v200] : Fin 2 → IVec S16 32) a x).toNat < S416x128.size a := fun k0_t1 v75 v200 k0_hw27 k0_h2 => k0_hw27 k0_h2

def k0_chk28 (k0_t1 : Fin k0_t1_loop.trips) (v205 : IVec S16 32) (v207 : IVec S16 32) : Prop :=
  (∀ (k0_h2 : k0_cond2 k0_t1 = 1#1), ∀ a x, ((![v205, v207] : Fin 2 → IVec S16 32) a x).toNat < S416x128.size a)
instance k0_chk28.dec : ∀ (k0_t1 : Fin k0_t1_loop.trips) (v205 : IVec S16 32) (v207 : IVec S16 32), Decidable (k0_chk28 k0_t1 v205 v207) := fun k0_t1 v205 v207 => decidable_of_iff' _ (Iff.of_eq (k0_chk28.eq_1 k0_t1 v205 v207))
theorem k0_idx28_inb : ∀ (k0_t1 : Fin k0_t1_loop.trips) (v205 : IVec S16 32) (v207 : IVec S16 32) (k0_hw28 : k0_chk28 k0_t1 v205 v207), ∀ (k0_h2 : k0_cond2 k0_t1 = 1#1), ∀ a x, ((![v205, v207] : Fin 2 → IVec S16 32) a x).toNat < S416x128.size a := fun k0_t1 v205 v207 k0_hw28 k0_h2 => k0_hw28 k0_h2

def k0_chk29 (k0_t1 : Fin k0_t1_loop.trips) (v75 : IVec S16 32) (v209 : IVec S16 32) : Prop :=
  (∀ (k0_h2 : k0_cond2 k0_t1 = 1#1), ∀ a x, ((![v75, v209] : Fin 2 → IVec S16 32) a x).toNat < S416x128.size a)
instance k0_chk29.dec : ∀ (k0_t1 : Fin k0_t1_loop.trips) (v75 : IVec S16 32) (v209 : IVec S16 32), Decidable (k0_chk29 k0_t1 v75 v209) := fun k0_t1 v75 v209 => decidable_of_iff' _ (Iff.of_eq (k0_chk29.eq_1 k0_t1 v75 v209))
theorem k0_idx29_inb : ∀ (k0_t1 : Fin k0_t1_loop.trips) (v75 : IVec S16 32) (v209 : IVec S16 32) (k0_hw29 : k0_chk29 k0_t1 v75 v209), ∀ (k0_h2 : k0_cond2 k0_t1 = 1#1), ∀ a x, ((![v75, v209] : Fin 2 → IVec S16 32) a x).toNat < S416x128.size a := fun k0_t1 v75 v209 k0_hw29 k0_h2 => k0_hw29 k0_h2

def k0_chk30 (k0_t1 : Fin k0_t1_loop.trips) (v214 : IVec S16 32) (v216 : IVec S16 32) : Prop :=
  (∀ (k0_h2 : k0_cond2 k0_t1 = 1#1), ∀ a x, ((![v214, v216] : Fin 2 → IVec S16 32) a x).toNat < S416x128.size a)
instance k0_chk30.dec : ∀ (k0_t1 : Fin k0_t1_loop.trips) (v214 : IVec S16 32) (v216 : IVec S16 32), Decidable (k0_chk30 k0_t1 v214 v216) := fun k0_t1 v214 v216 => decidable_of_iff' _ (Iff.of_eq (k0_chk30.eq_1 k0_t1 v214 v216))
theorem k0_idx30_inb : ∀ (k0_t1 : Fin k0_t1_loop.trips) (v214 : IVec S16 32) (v216 : IVec S16 32) (k0_hw30 : k0_chk30 k0_t1 v214 v216), ∀ (k0_h2 : k0_cond2 k0_t1 = 1#1), ∀ a x, ((![v214, v216] : Fin 2 → IVec S16 32) a x).toNat < S416x128.size a := fun k0_t1 v214 v216 k0_hw30 k0_h2 => k0_hw30 k0_h2

def k0_chk31 (k0_t1 : Fin k0_t1_loop.trips) (v75 : IVec S16 32) (v218 : IVec S16 32) : Prop :=
  (∀ (k0_h2 : k0_cond2 k0_t1 = 1#1), ∀ a x, ((![v75, v218] : Fin 2 → IVec S16 32) a x).toNat < S416x128.size a)
instance k0_chk31.dec : ∀ (k0_t1 : Fin k0_t1_loop.trips) (v75 : IVec S16 32) (v218 : IVec S16 32), Decidable (k0_chk31 k0_t1 v75 v218) := fun k0_t1 v75 v218 => decidable_of_iff' _ (Iff.of_eq (k0_chk31.eq_1 k0_t1 v75 v218))
theorem k0_idx31_inb : ∀ (k0_t1 : Fin k0_t1_loop.trips) (v75 : IVec S16 32) (v218 : IVec S16 32) (k0_hw31 : k0_chk31 k0_t1 v75 v218), ∀ (k0_h2 : k0_cond2 k0_t1 = 1#1), ∀ a x, ((![v75, v218] : Fin 2 → IVec S16 32) a x).toNat < S416x128.size a := fun k0_t1 v75 v218 k0_hw31 k0_h2 => k0_hw31 k0_h2

def k0_chk32 (k0_t1 : Fin k0_t1_loop.trips) (v223 : IVec S16 32) (v225 : IVec S16 32) : Prop :=
  (∀ (k0_h2 : k0_cond2 k0_t1 = 1#1), ∀ a x, ((![v223, v225] : Fin 2 → IVec S16 32) a x).toNat < S416x128.size a)
instance k0_chk32.dec : ∀ (k0_t1 : Fin k0_t1_loop.trips) (v223 : IVec S16 32) (v225 : IVec S16 32), Decidable (k0_chk32 k0_t1 v223 v225) := fun k0_t1 v223 v225 => decidable_of_iff' _ (Iff.of_eq (k0_chk32.eq_1 k0_t1 v223 v225))
theorem k0_idx32_inb : ∀ (k0_t1 : Fin k0_t1_loop.trips) (v223 : IVec S16 32) (v225 : IVec S16 32) (k0_hw32 : k0_chk32 k0_t1 v223 v225), ∀ (k0_h2 : k0_cond2 k0_t1 = 1#1), ∀ a x, ((![v223, v225] : Fin 2 → IVec S16 32) a x).toNat < S416x128.size a := fun k0_t1 v223 v225 k0_hw32 k0_h2 => k0_hw32 k0_h2

def k0_chk33 (k0_t1 : Fin k0_t1_loop.trips) (v75 : IVec S16 32) (v227 : IVec S16 32) : Prop :=
  (∀ (k0_h2 : k0_cond2 k0_t1 = 1#1), ∀ a x, ((![v75, v227] : Fin 2 → IVec S16 32) a x).toNat < S416x128.size a)
instance k0_chk33.dec : ∀ (k0_t1 : Fin k0_t1_loop.trips) (v75 : IVec S16 32) (v227 : IVec S16 32), Decidable (k0_chk33 k0_t1 v75 v227) := fun k0_t1 v75 v227 => decidable_of_iff' _ (Iff.of_eq (k0_chk33.eq_1 k0_t1 v75 v227))
theorem k0_idx33_inb : ∀ (k0_t1 : Fin k0_t1_loop.trips) (v75 : IVec S16 32) (v227 : IVec S16 32) (k0_hw33 : k0_chk33 k0_t1 v75 v227), ∀ (k0_h2 : k0_cond2 k0_t1 = 1#1), ∀ a x, ((![v75, v227] : Fin 2 → IVec S16 32) a x).toNat < S416x128.size a := fun k0_t1 v75 v227 k0_hw33 k0_h2 => k0_hw33 k0_h2

def k0_chk34 (k0_t1 : Fin k0_t1_loop.trips) (v232 : IVec S16 32) (v234 : IVec S16 32) : Prop :=
  (∀ (k0_h2 : k0_cond2 k0_t1 = 1#1), ∀ a x, ((![v232, v234] : Fin 2 → IVec S16 32) a x).toNat < S416x128.size a)
instance k0_chk34.dec : ∀ (k0_t1 : Fin k0_t1_loop.trips) (v232 : IVec S16 32) (v234 : IVec S16 32), Decidable (k0_chk34 k0_t1 v232 v234) := fun k0_t1 v232 v234 => decidable_of_iff' _ (Iff.of_eq (k0_chk34.eq_1 k0_t1 v232 v234))
theorem k0_idx34_inb : ∀ (k0_t1 : Fin k0_t1_loop.trips) (v232 : IVec S16 32) (v234 : IVec S16 32) (k0_hw34 : k0_chk34 k0_t1 v232 v234), ∀ (k0_h2 : k0_cond2 k0_t1 = 1#1), ∀ a x, ((![v232, v234] : Fin 2 → IVec S16 32) a x).toNat < S416x128.size a := fun k0_t1 v232 v234 k0_hw34 k0_h2 => k0_hw34 k0_h2

def k0_chk35 (k0_t1 : Fin k0_t1_loop.trips) (v75 : IVec S16 32) (v236 : IVec S16 32) : Prop :=
  (∀ (k0_h2 : k0_cond2 k0_t1 = 1#1), ∀ a x, ((![v75, v236] : Fin 2 → IVec S16 32) a x).toNat < S416x128.size a)
instance k0_chk35.dec : ∀ (k0_t1 : Fin k0_t1_loop.trips) (v75 : IVec S16 32) (v236 : IVec S16 32), Decidable (k0_chk35 k0_t1 v75 v236) := fun k0_t1 v75 v236 => decidable_of_iff' _ (Iff.of_eq (k0_chk35.eq_1 k0_t1 v75 v236))
theorem k0_idx35_inb : ∀ (k0_t1 : Fin k0_t1_loop.trips) (v75 : IVec S16 32) (v236 : IVec S16 32) (k0_hw35 : k0_chk35 k0_t1 v75 v236), ∀ (k0_h2 : k0_cond2 k0_t1 = 1#1), ∀ a x, ((![v75, v236] : Fin 2 → IVec S16 32) a x).toNat < S416x128.size a := fun k0_t1 v75 v236 k0_hw35 k0_h2 => k0_hw35 k0_h2

def k0_chk36 (k0_t1 : Fin k0_t1_loop.trips) (v241 : IVec S16 32) (v243 : IVec S16 32) : Prop :=
  (∀ (k0_h2 : k0_cond2 k0_t1 = 1#1), ∀ a x, ((![v241, v243] : Fin 2 → IVec S16 32) a x).toNat < S416x128.size a)
instance k0_chk36.dec : ∀ (k0_t1 : Fin k0_t1_loop.trips) (v241 : IVec S16 32) (v243 : IVec S16 32), Decidable (k0_chk36 k0_t1 v241 v243) := fun k0_t1 v241 v243 => decidable_of_iff' _ (Iff.of_eq (k0_chk36.eq_1 k0_t1 v241 v243))
theorem k0_idx36_inb : ∀ (k0_t1 : Fin k0_t1_loop.trips) (v241 : IVec S16 32) (v243 : IVec S16 32) (k0_hw36 : k0_chk36 k0_t1 v241 v243), ∀ (k0_h2 : k0_cond2 k0_t1 = 1#1), ∀ a x, ((![v241, v243] : Fin 2 → IVec S16 32) a x).toNat < S416x128.size a := fun k0_t1 v241 v243 k0_hw36 k0_h2 => k0_hw36 k0_h2

def k0_chk37 (k0_t1 : Fin k0_t1_loop.trips) (v75 : IVec S16 32) (v245 : IVec S16 32) : Prop :=
  (∀ (k0_h2 : k0_cond2 k0_t1 = 1#1), ∀ a x, ((![v75, v245] : Fin 2 → IVec S16 32) a x).toNat < S416x128.size a)
instance k0_chk37.dec : ∀ (k0_t1 : Fin k0_t1_loop.trips) (v75 : IVec S16 32) (v245 : IVec S16 32), Decidable (k0_chk37 k0_t1 v75 v245) := fun k0_t1 v75 v245 => decidable_of_iff' _ (Iff.of_eq (k0_chk37.eq_1 k0_t1 v75 v245))
theorem k0_idx37_inb : ∀ (k0_t1 : Fin k0_t1_loop.trips) (v75 : IVec S16 32) (v245 : IVec S16 32) (k0_hw37 : k0_chk37 k0_t1 v75 v245), ∀ (k0_h2 : k0_cond2 k0_t1 = 1#1), ∀ a x, ((![v75, v245] : Fin 2 → IVec S16 32) a x).toNat < S416x128.size a := fun k0_t1 v75 v245 k0_hw37 k0_h2 => k0_hw37 k0_h2

def k0_chk38 (k0_t1 : Fin k0_t1_loop.trips) (v250 : IVec S16 32) (v252 : IVec S16 32) : Prop :=
  (∀ (k0_h2 : k0_cond2 k0_t1 = 1#1), ∀ a x, ((![v250, v252] : Fin 2 → IVec S16 32) a x).toNat < S416x128.size a)
instance k0_chk38.dec : ∀ (k0_t1 : Fin k0_t1_loop.trips) (v250 : IVec S16 32) (v252 : IVec S16 32), Decidable (k0_chk38 k0_t1 v250 v252) := fun k0_t1 v250 v252 => decidable_of_iff' _ (Iff.of_eq (k0_chk38.eq_1 k0_t1 v250 v252))
theorem k0_idx38_inb : ∀ (k0_t1 : Fin k0_t1_loop.trips) (v250 : IVec S16 32) (v252 : IVec S16 32) (k0_hw38 : k0_chk38 k0_t1 v250 v252), ∀ (k0_h2 : k0_cond2 k0_t1 = 1#1), ∀ a x, ((![v250, v252] : Fin 2 → IVec S16 32) a x).toNat < S416x128.size a := fun k0_t1 v250 v252 k0_hw38 k0_h2 => k0_hw38 k0_h2

def k0_chk39 (k0_t1 : Fin k0_t1_loop.trips) (v75 : IVec S16 32) (v254 : IVec S16 32) : Prop :=
  (∀ (k0_h2 : k0_cond2 k0_t1 = 1#1), ∀ a x, ((![v75, v254] : Fin 2 → IVec S16 32) a x).toNat < S416x128.size a)
instance k0_chk39.dec : ∀ (k0_t1 : Fin k0_t1_loop.trips) (v75 : IVec S16 32) (v254 : IVec S16 32), Decidable (k0_chk39 k0_t1 v75 v254) := fun k0_t1 v75 v254 => decidable_of_iff' _ (Iff.of_eq (k0_chk39.eq_1 k0_t1 v75 v254))
theorem k0_idx39_inb : ∀ (k0_t1 : Fin k0_t1_loop.trips) (v75 : IVec S16 32) (v254 : IVec S16 32) (k0_hw39 : k0_chk39 k0_t1 v75 v254), ∀ (k0_h2 : k0_cond2 k0_t1 = 1#1), ∀ a x, ((![v75, v254] : Fin 2 → IVec S16 32) a x).toNat < S416x128.size a := fun k0_t1 v75 v254 k0_hw39 k0_h2 => k0_hw39 k0_h2

def k0_chk40 (k0_t1 : Fin k0_t1_loop.trips) (v259 : IVec S16 32) (v261 : IVec S16 32) : Prop :=
  (∀ (k0_h2 : k0_cond2 k0_t1 = 1#1), ∀ a x, ((![v259, v261] : Fin 2 → IVec S16 32) a x).toNat < S416x128.size a)
instance k0_chk40.dec : ∀ (k0_t1 : Fin k0_t1_loop.trips) (v259 : IVec S16 32) (v261 : IVec S16 32), Decidable (k0_chk40 k0_t1 v259 v261) := fun k0_t1 v259 v261 => decidable_of_iff' _ (Iff.of_eq (k0_chk40.eq_1 k0_t1 v259 v261))
theorem k0_idx40_inb : ∀ (k0_t1 : Fin k0_t1_loop.trips) (v259 : IVec S16 32) (v261 : IVec S16 32) (k0_hw40 : k0_chk40 k0_t1 v259 v261), ∀ (k0_h2 : k0_cond2 k0_t1 = 1#1), ∀ a x, ((![v259, v261] : Fin 2 → IVec S16 32) a x).toNat < S416x128.size a := fun k0_t1 v259 v261 k0_hw40 k0_h2 => k0_hw40 k0_h2

def k0_chk41 (k0_t1 : Fin k0_t1_loop.trips) (v75 : IVec S16 32) (v263 : IVec S16 32) : Prop :=
  (∀ (k0_h2 : k0_cond2 k0_t1 = 1#1), ∀ a x, ((![v75, v263] : Fin 2 → IVec S16 32) a x).toNat < S416x128.size a)
instance k0_chk41.dec : ∀ (k0_t1 : Fin k0_t1_loop.trips) (v75 : IVec S16 32) (v263 : IVec S16 32), Decidable (k0_chk41 k0_t1 v75 v263) := fun k0_t1 v75 v263 => decidable_of_iff' _ (Iff.of_eq (k0_chk41.eq_1 k0_t1 v75 v263))
theorem k0_idx41_inb : ∀ (k0_t1 : Fin k0_t1_loop.trips) (v75 : IVec S16 32) (v263 : IVec S16 32) (k0_hw41 : k0_chk41 k0_t1 v75 v263), ∀ (k0_h2 : k0_cond2 k0_t1 = 1#1), ∀ a x, ((![v75, v263] : Fin 2 → IVec S16 32) a x).toNat < S416x128.size a := fun k0_t1 v75 v263 k0_hw41 k0_h2 => k0_hw41 k0_h2

def k0_chk42 (k0_t1 : Fin k0_t1_loop.trips) (v268 : IVec S16 32) (v270 : IVec S16 32) : Prop :=
  (∀ (k0_h2 : k0_cond2 k0_t1 = 1#1), ∀ a x, ((![v268, v270] : Fin 2 → IVec S16 32) a x).toNat < S416x128.size a)
instance k0_chk42.dec : ∀ (k0_t1 : Fin k0_t1_loop.trips) (v268 : IVec S16 32) (v270 : IVec S16 32), Decidable (k0_chk42 k0_t1 v268 v270) := fun k0_t1 v268 v270 => decidable_of_iff' _ (Iff.of_eq (k0_chk42.eq_1 k0_t1 v268 v270))
theorem k0_idx42_inb : ∀ (k0_t1 : Fin k0_t1_loop.trips) (v268 : IVec S16 32) (v270 : IVec S16 32) (k0_hw42 : k0_chk42 k0_t1 v268 v270), ∀ (k0_h2 : k0_cond2 k0_t1 = 1#1), ∀ a x, ((![v268, v270] : Fin 2 → IVec S16 32) a x).toNat < S416x128.size a := fun k0_t1 v268 v270 k0_hw42 k0_h2 => k0_hw42 k0_h2

def k0_chk43 (k0_t1 : Fin k0_t1_loop.trips) (v75 : IVec S16 32) (v272 : IVec S16 32) : Prop :=
  (∀ (k0_h2 : k0_cond2 k0_t1 = 1#1), ∀ a x, ((![v75, v272] : Fin 2 → IVec S16 32) a x).toNat < S416x128.size a)
instance k0_chk43.dec : ∀ (k0_t1 : Fin k0_t1_loop.trips) (v75 : IVec S16 32) (v272 : IVec S16 32), Decidable (k0_chk43 k0_t1 v75 v272) := fun k0_t1 v75 v272 => decidable_of_iff' _ (Iff.of_eq (k0_chk43.eq_1 k0_t1 v75 v272))
theorem k0_idx43_inb : ∀ (k0_t1 : Fin k0_t1_loop.trips) (v75 : IVec S16 32) (v272 : IVec S16 32) (k0_hw43 : k0_chk43 k0_t1 v75 v272), ∀ (k0_h2 : k0_cond2 k0_t1 = 1#1), ∀ a x, ((![v75, v272] : Fin 2 → IVec S16 32) a x).toNat < S416x128.size a := fun k0_t1 v75 v272 k0_hw43 k0_h2 => k0_hw43 k0_h2

def k0_chk44 (k0_t1 : Fin k0_t1_loop.trips) (v277 : IVec S16 32) (v279 : IVec S16 32) : Prop :=
  (∀ (k0_h2 : k0_cond2 k0_t1 = 1#1), ∀ a x, ((![v277, v279] : Fin 2 → IVec S16 32) a x).toNat < S416x128.size a)
instance k0_chk44.dec : ∀ (k0_t1 : Fin k0_t1_loop.trips) (v277 : IVec S16 32) (v279 : IVec S16 32), Decidable (k0_chk44 k0_t1 v277 v279) := fun k0_t1 v277 v279 => decidable_of_iff' _ (Iff.of_eq (k0_chk44.eq_1 k0_t1 v277 v279))
theorem k0_idx44_inb : ∀ (k0_t1 : Fin k0_t1_loop.trips) (v277 : IVec S16 32) (v279 : IVec S16 32) (k0_hw44 : k0_chk44 k0_t1 v277 v279), ∀ (k0_h2 : k0_cond2 k0_t1 = 1#1), ∀ a x, ((![v277, v279] : Fin 2 → IVec S16 32) a x).toNat < S416x128.size a := fun k0_t1 v277 v279 k0_hw44 k0_h2 => k0_hw44 k0_h2

def k0_chk45 (k0_t1 : Fin k0_t1_loop.trips) (v75 : IVec S16 32) (v281 : IVec S16 32) : Prop :=
  (∀ (k0_h2 : k0_cond2 k0_t1 = 1#1), ∀ a x, ((![v75, v281] : Fin 2 → IVec S16 32) a x).toNat < S416x128.size a)
instance k0_chk45.dec : ∀ (k0_t1 : Fin k0_t1_loop.trips) (v75 : IVec S16 32) (v281 : IVec S16 32), Decidable (k0_chk45 k0_t1 v75 v281) := fun k0_t1 v75 v281 => decidable_of_iff' _ (Iff.of_eq (k0_chk45.eq_1 k0_t1 v75 v281))
theorem k0_idx45_inb : ∀ (k0_t1 : Fin k0_t1_loop.trips) (v75 : IVec S16 32) (v281 : IVec S16 32) (k0_hw45 : k0_chk45 k0_t1 v75 v281), ∀ (k0_h2 : k0_cond2 k0_t1 = 1#1), ∀ a x, ((![v75, v281] : Fin 2 → IVec S16 32) a x).toNat < S416x128.size a := fun k0_t1 v75 v281 k0_hw45 k0_h2 => k0_hw45 k0_h2

def k0_chk46 (k0_t1 : Fin k0_t1_loop.trips) (v286 : IVec S16 32) (v288 : IVec S16 32) : Prop :=
  (∀ (k0_h2 : k0_cond2 k0_t1 = 1#1), ∀ a x, ((![v286, v288] : Fin 2 → IVec S16 32) a x).toNat < S416x128.size a)
instance k0_chk46.dec : ∀ (k0_t1 : Fin k0_t1_loop.trips) (v286 : IVec S16 32) (v288 : IVec S16 32), Decidable (k0_chk46 k0_t1 v286 v288) := fun k0_t1 v286 v288 => decidable_of_iff' _ (Iff.of_eq (k0_chk46.eq_1 k0_t1 v286 v288))
theorem k0_idx46_inb : ∀ (k0_t1 : Fin k0_t1_loop.trips) (v286 : IVec S16 32) (v288 : IVec S16 32) (k0_hw46 : k0_chk46 k0_t1 v286 v288), ∀ (k0_h2 : k0_cond2 k0_t1 = 1#1), ∀ a x, ((![v286, v288] : Fin 2 → IVec S16 32) a x).toNat < S416x128.size a := fun k0_t1 v286 v288 k0_hw46 k0_h2 => k0_hw46 k0_h2

def k0_chk47 (k0_t1 : Fin k0_t1_loop.trips) (v75 : IVec S16 32) (v290 : IVec S16 32) : Prop :=
  (∀ (k0_h2 : k0_cond2 k0_t1 = 1#1), ∀ a x, ((![v75, v290] : Fin 2 → IVec S16 32) a x).toNat < S416x128.size a)
instance k0_chk47.dec : ∀ (k0_t1 : Fin k0_t1_loop.trips) (v75 : IVec S16 32) (v290 : IVec S16 32), Decidable (k0_chk47 k0_t1 v75 v290) := fun k0_t1 v75 v290 => decidable_of_iff' _ (Iff.of_eq (k0_chk47.eq_1 k0_t1 v75 v290))
theorem k0_idx47_inb : ∀ (k0_t1 : Fin k0_t1_loop.trips) (v75 : IVec S16 32) (v290 : IVec S16 32) (k0_hw47 : k0_chk47 k0_t1 v75 v290), ∀ (k0_h2 : k0_cond2 k0_t1 = 1#1), ∀ a x, ((![v75, v290] : Fin 2 → IVec S16 32) a x).toNat < S416x128.size a := fun k0_t1 v75 v290 k0_hw47 k0_h2 => k0_hw47 k0_h2

def k0_chk48 (k0_t1 : Fin k0_t1_loop.trips) (v295 : IVec S16 32) (v297 : IVec S16 32) : Prop :=
  (∀ (k0_h2 : k0_cond2 k0_t1 = 1#1), ∀ a x, ((![v295, v297] : Fin 2 → IVec S16 32) a x).toNat < S416x128.size a)
instance k0_chk48.dec : ∀ (k0_t1 : Fin k0_t1_loop.trips) (v295 : IVec S16 32) (v297 : IVec S16 32), Decidable (k0_chk48 k0_t1 v295 v297) := fun k0_t1 v295 v297 => decidable_of_iff' _ (Iff.of_eq (k0_chk48.eq_1 k0_t1 v295 v297))
theorem k0_idx48_inb : ∀ (k0_t1 : Fin k0_t1_loop.trips) (v295 : IVec S16 32) (v297 : IVec S16 32) (k0_hw48 : k0_chk48 k0_t1 v295 v297), ∀ (k0_h2 : k0_cond2 k0_t1 = 1#1), ∀ a x, ((![v295, v297] : Fin 2 → IVec S16 32) a x).toNat < S416x128.size a := fun k0_t1 v295 v297 k0_hw48 k0_h2 => k0_hw48 k0_h2

def k0_chk49 (k0_t1 : Fin k0_t1_loop.trips) (v75 : IVec S16 32) (v299 : IVec S16 32) : Prop :=
  (∀ (k0_h2 : k0_cond2 k0_t1 = 1#1), ∀ a x, ((![v75, v299] : Fin 2 → IVec S16 32) a x).toNat < S416x128.size a)
instance k0_chk49.dec : ∀ (k0_t1 : Fin k0_t1_loop.trips) (v75 : IVec S16 32) (v299 : IVec S16 32), Decidable (k0_chk49 k0_t1 v75 v299) := fun k0_t1 v75 v299 => decidable_of_iff' _ (Iff.of_eq (k0_chk49.eq_1 k0_t1 v75 v299))
theorem k0_idx49_inb : ∀ (k0_t1 : Fin k0_t1_loop.trips) (v75 : IVec S16 32) (v299 : IVec S16 32) (k0_hw49 : k0_chk49 k0_t1 v75 v299), ∀ (k0_h2 : k0_cond2 k0_t1 = 1#1), ∀ a x, ((![v75, v299] : Fin 2 → IVec S16 32) a x).toNat < S416x128.size a := fun k0_t1 v75 v299 k0_hw49 k0_h2 => k0_hw49 k0_h2

def k0_chk50 (k0_t1 : Fin k0_t1_loop.trips) (v304 : IVec S16 32) (v306 : IVec S16 32) : Prop :=
  (∀ (k0_h2 : k0_cond2 k0_t1 = 1#1), ∀ a x, ((![v304, v306] : Fin 2 → IVec S16 32) a x).toNat < S416x128.size a)
instance k0_chk50.dec : ∀ (k0_t1 : Fin k0_t1_loop.trips) (v304 : IVec S16 32) (v306 : IVec S16 32), Decidable (k0_chk50 k0_t1 v304 v306) := fun k0_t1 v304 v306 => decidable_of_iff' _ (Iff.of_eq (k0_chk50.eq_1 k0_t1 v304 v306))
theorem k0_idx50_inb : ∀ (k0_t1 : Fin k0_t1_loop.trips) (v304 : IVec S16 32) (v306 : IVec S16 32) (k0_hw50 : k0_chk50 k0_t1 v304 v306), ∀ (k0_h2 : k0_cond2 k0_t1 = 1#1), ∀ a x, ((![v304, v306] : Fin 2 → IVec S16 32) a x).toNat < S416x128.size a := fun k0_t1 v304 v306 k0_hw50 k0_h2 => k0_hw50 k0_h2

def k0_chk51 (k0_t1 : Fin k0_t1_loop.trips) (v75 : IVec S16 32) (v308 : IVec S16 32) : Prop :=
  (∀ (k0_h2 : k0_cond2 k0_t1 = 1#1), ∀ a x, ((![v75, v308] : Fin 2 → IVec S16 32) a x).toNat < S416x128.size a)
instance k0_chk51.dec : ∀ (k0_t1 : Fin k0_t1_loop.trips) (v75 : IVec S16 32) (v308 : IVec S16 32), Decidable (k0_chk51 k0_t1 v75 v308) := fun k0_t1 v75 v308 => decidable_of_iff' _ (Iff.of_eq (k0_chk51.eq_1 k0_t1 v75 v308))
theorem k0_idx51_inb : ∀ (k0_t1 : Fin k0_t1_loop.trips) (v75 : IVec S16 32) (v308 : IVec S16 32) (k0_hw51 : k0_chk51 k0_t1 v75 v308), ∀ (k0_h2 : k0_cond2 k0_t1 = 1#1), ∀ a x, ((![v75, v308] : Fin 2 → IVec S16 32) a x).toNat < S416x128.size a := fun k0_t1 v75 v308 k0_hw51 k0_h2 => k0_hw51 k0_h2

def k0_chk52 (k0_t1 : Fin k0_t1_loop.trips) (v313 : IVec S16 32) (v315 : IVec S16 32) : Prop :=
  (∀ (k0_h2 : k0_cond2 k0_t1 = 1#1), ∀ a x, ((![v313, v315] : Fin 2 → IVec S16 32) a x).toNat < S416x128.size a)
instance k0_chk52.dec : ∀ (k0_t1 : Fin k0_t1_loop.trips) (v313 : IVec S16 32) (v315 : IVec S16 32), Decidable (k0_chk52 k0_t1 v313 v315) := fun k0_t1 v313 v315 => decidable_of_iff' _ (Iff.of_eq (k0_chk52.eq_1 k0_t1 v313 v315))
theorem k0_idx52_inb : ∀ (k0_t1 : Fin k0_t1_loop.trips) (v313 : IVec S16 32) (v315 : IVec S16 32) (k0_hw52 : k0_chk52 k0_t1 v313 v315), ∀ (k0_h2 : k0_cond2 k0_t1 = 1#1), ∀ a x, ((![v313, v315] : Fin 2 → IVec S16 32) a x).toNat < S416x128.size a := fun k0_t1 v313 v315 k0_hw52 k0_h2 => k0_hw52 k0_h2

def k0_chk53 (k0_t1 : Fin k0_t1_loop.trips) (v75 : IVec S16 32) (v317 : IVec S16 32) : Prop :=
  (∀ (k0_h2 : k0_cond2 k0_t1 = 1#1), ∀ a x, ((![v75, v317] : Fin 2 → IVec S16 32) a x).toNat < S416x128.size a)
instance k0_chk53.dec : ∀ (k0_t1 : Fin k0_t1_loop.trips) (v75 : IVec S16 32) (v317 : IVec S16 32), Decidable (k0_chk53 k0_t1 v75 v317) := fun k0_t1 v75 v317 => decidable_of_iff' _ (Iff.of_eq (k0_chk53.eq_1 k0_t1 v75 v317))
theorem k0_idx53_inb : ∀ (k0_t1 : Fin k0_t1_loop.trips) (v75 : IVec S16 32) (v317 : IVec S16 32) (k0_hw53 : k0_chk53 k0_t1 v75 v317), ∀ (k0_h2 : k0_cond2 k0_t1 = 1#1), ∀ a x, ((![v75, v317] : Fin 2 → IVec S16 32) a x).toNat < S416x128.size a := fun k0_t1 v75 v317 k0_hw53 k0_h2 => k0_hw53 k0_h2

def k0_chk54 (k0_t1 : Fin k0_t1_loop.trips) (v322 : IVec S16 32) (v324 : IVec S16 32) : Prop :=
  (∀ (k0_h2 : k0_cond2 k0_t1 = 1#1), ∀ a x, ((![v322, v324] : Fin 2 → IVec S16 32) a x).toNat < S416x128.size a)
instance k0_chk54.dec : ∀ (k0_t1 : Fin k0_t1_loop.trips) (v322 : IVec S16 32) (v324 : IVec S16 32), Decidable (k0_chk54 k0_t1 v322 v324) := fun k0_t1 v322 v324 => decidable_of_iff' _ (Iff.of_eq (k0_chk54.eq_1 k0_t1 v322 v324))
theorem k0_idx54_inb : ∀ (k0_t1 : Fin k0_t1_loop.trips) (v322 : IVec S16 32) (v324 : IVec S16 32) (k0_hw54 : k0_chk54 k0_t1 v322 v324), ∀ (k0_h2 : k0_cond2 k0_t1 = 1#1), ∀ a x, ((![v322, v324] : Fin 2 → IVec S16 32) a x).toNat < S416x128.size a := fun k0_t1 v322 v324 k0_hw54 k0_h2 => k0_hw54 k0_h2

def k0_chk55 (k0_t1 : Fin k0_t1_loop.trips) (v75 : IVec S16 32) (v326 : IVec S16 32) : Prop :=
  (∀ (k0_h2 : k0_cond2 k0_t1 = 1#1), ∀ a x, ((![v75, v326] : Fin 2 → IVec S16 32) a x).toNat < S416x128.size a)
instance k0_chk55.dec : ∀ (k0_t1 : Fin k0_t1_loop.trips) (v75 : IVec S16 32) (v326 : IVec S16 32), Decidable (k0_chk55 k0_t1 v75 v326) := fun k0_t1 v75 v326 => decidable_of_iff' _ (Iff.of_eq (k0_chk55.eq_1 k0_t1 v75 v326))
theorem k0_idx55_inb : ∀ (k0_t1 : Fin k0_t1_loop.trips) (v75 : IVec S16 32) (v326 : IVec S16 32) (k0_hw55 : k0_chk55 k0_t1 v75 v326), ∀ (k0_h2 : k0_cond2 k0_t1 = 1#1), ∀ a x, ((![v75, v326] : Fin 2 → IVec S16 32) a x).toNat < S416x128.size a := fun k0_t1 v75 v326 k0_hw55 k0_h2 => k0_hw55 k0_h2

def k0_chk56 (k0_t1 : Fin k0_t1_loop.trips) (v331 : IVec S16 32) (v333 : IVec S16 32) : Prop :=
  (∀ (k0_h2 : k0_cond2 k0_t1 = 1#1), ∀ a x, ((![v331, v333] : Fin 2 → IVec S16 32) a x).toNat < S416x128.size a)
instance k0_chk56.dec : ∀ (k0_t1 : Fin k0_t1_loop.trips) (v331 : IVec S16 32) (v333 : IVec S16 32), Decidable (k0_chk56 k0_t1 v331 v333) := fun k0_t1 v331 v333 => decidable_of_iff' _ (Iff.of_eq (k0_chk56.eq_1 k0_t1 v331 v333))
theorem k0_idx56_inb : ∀ (k0_t1 : Fin k0_t1_loop.trips) (v331 : IVec S16 32) (v333 : IVec S16 32) (k0_hw56 : k0_chk56 k0_t1 v331 v333), ∀ (k0_h2 : k0_cond2 k0_t1 = 1#1), ∀ a x, ((![v331, v333] : Fin 2 → IVec S16 32) a x).toNat < S416x128.size a := fun k0_t1 v331 v333 k0_hw56 k0_h2 => k0_hw56 k0_h2

def k0_chk57 (k0_t1 : Fin k0_t1_loop.trips) (v75 : IVec S16 32) (v335 : IVec S16 32) : Prop :=
  (∀ (k0_h2 : k0_cond2 k0_t1 = 1#1), ∀ a x, ((![v75, v335] : Fin 2 → IVec S16 32) a x).toNat < S416x128.size a)
instance k0_chk57.dec : ∀ (k0_t1 : Fin k0_t1_loop.trips) (v75 : IVec S16 32) (v335 : IVec S16 32), Decidable (k0_chk57 k0_t1 v75 v335) := fun k0_t1 v75 v335 => decidable_of_iff' _ (Iff.of_eq (k0_chk57.eq_1 k0_t1 v75 v335))
theorem k0_idx57_inb : ∀ (k0_t1 : Fin k0_t1_loop.trips) (v75 : IVec S16 32) (v335 : IVec S16 32) (k0_hw57 : k0_chk57 k0_t1 v75 v335), ∀ (k0_h2 : k0_cond2 k0_t1 = 1#1), ∀ a x, ((![v75, v335] : Fin 2 → IVec S16 32) a x).toNat < S416x128.size a := fun k0_t1 v75 v335 k0_hw57 k0_h2 => k0_hw57 k0_h2

def k0_chk58 (k0_t1 : Fin k0_t1_loop.trips) (v340 : IVec S16 32) (v342 : IVec S16 32) : Prop :=
  (∀ (k0_h2 : k0_cond2 k0_t1 = 1#1), ∀ a x, ((![v340, v342] : Fin 2 → IVec S16 32) a x).toNat < S416x128.size a)
instance k0_chk58.dec : ∀ (k0_t1 : Fin k0_t1_loop.trips) (v340 : IVec S16 32) (v342 : IVec S16 32), Decidable (k0_chk58 k0_t1 v340 v342) := fun k0_t1 v340 v342 => decidable_of_iff' _ (Iff.of_eq (k0_chk58.eq_1 k0_t1 v340 v342))
theorem k0_idx58_inb : ∀ (k0_t1 : Fin k0_t1_loop.trips) (v340 : IVec S16 32) (v342 : IVec S16 32) (k0_hw58 : k0_chk58 k0_t1 v340 v342), ∀ (k0_h2 : k0_cond2 k0_t1 = 1#1), ∀ a x, ((![v340, v342] : Fin 2 → IVec S16 32) a x).toNat < S416x128.size a := fun k0_t1 v340 v342 k0_hw58 k0_h2 => k0_hw58 k0_h2

def k0_chk59 (k0_t1 : Fin k0_t1_loop.trips) (v75 : IVec S16 32) (v344 : IVec S16 32) : Prop :=
  (∀ (k0_h2 : k0_cond2 k0_t1 = 1#1), ∀ a x, ((![v75, v344] : Fin 2 → IVec S16 32) a x).toNat < S416x128.size a)
instance k0_chk59.dec : ∀ (k0_t1 : Fin k0_t1_loop.trips) (v75 : IVec S16 32) (v344 : IVec S16 32), Decidable (k0_chk59 k0_t1 v75 v344) := fun k0_t1 v75 v344 => decidable_of_iff' _ (Iff.of_eq (k0_chk59.eq_1 k0_t1 v75 v344))
theorem k0_idx59_inb : ∀ (k0_t1 : Fin k0_t1_loop.trips) (v75 : IVec S16 32) (v344 : IVec S16 32) (k0_hw59 : k0_chk59 k0_t1 v75 v344), ∀ (k0_h2 : k0_cond2 k0_t1 = 1#1), ∀ a x, ((![v75, v344] : Fin 2 → IVec S16 32) a x).toNat < S416x128.size a := fun k0_t1 v75 v344 k0_hw59 k0_h2 => k0_hw59 k0_h2

def k0_chk60 (k0_t1 : Fin k0_t1_loop.trips) (v349 : IVec S16 32) (v351 : IVec S16 32) : Prop :=
  (∀ (k0_h2 : k0_cond2 k0_t1 = 1#1), ∀ a x, ((![v349, v351] : Fin 2 → IVec S16 32) a x).toNat < S416x128.size a)
instance k0_chk60.dec : ∀ (k0_t1 : Fin k0_t1_loop.trips) (v349 : IVec S16 32) (v351 : IVec S16 32), Decidable (k0_chk60 k0_t1 v349 v351) := fun k0_t1 v349 v351 => decidable_of_iff' _ (Iff.of_eq (k0_chk60.eq_1 k0_t1 v349 v351))
theorem k0_idx60_inb : ∀ (k0_t1 : Fin k0_t1_loop.trips) (v349 : IVec S16 32) (v351 : IVec S16 32) (k0_hw60 : k0_chk60 k0_t1 v349 v351), ∀ (k0_h2 : k0_cond2 k0_t1 = 1#1), ∀ a x, ((![v349, v351] : Fin 2 → IVec S16 32) a x).toNat < S416x128.size a := fun k0_t1 v349 v351 k0_hw60 k0_h2 => k0_hw60 k0_h2

def k0_chk61 (k0_t1 : Fin k0_t1_loop.trips) (v75 : IVec S16 32) (v353 : IVec S16 32) : Prop :=
  (∀ (k0_h2 : k0_cond2 k0_t1 = 1#1), ∀ a x, ((![v75, v353] : Fin 2 → IVec S16 32) a x).toNat < S416x128.size a)
instance k0_chk61.dec : ∀ (k0_t1 : Fin k0_t1_loop.trips) (v75 : IVec S16 32) (v353 : IVec S16 32), Decidable (k0_chk61 k0_t1 v75 v353) := fun k0_t1 v75 v353 => decidable_of_iff' _ (Iff.of_eq (k0_chk61.eq_1 k0_t1 v75 v353))
theorem k0_idx61_inb : ∀ (k0_t1 : Fin k0_t1_loop.trips) (v75 : IVec S16 32) (v353 : IVec S16 32) (k0_hw61 : k0_chk61 k0_t1 v75 v353), ∀ (k0_h2 : k0_cond2 k0_t1 = 1#1), ∀ a x, ((![v75, v353] : Fin 2 → IVec S16 32) a x).toNat < S416x128.size a := fun k0_t1 v75 v353 k0_hw61 k0_h2 => k0_hw61 k0_h2

def k0_chk62 (k0_t1 : Fin k0_t1_loop.trips) (v358 : IVec S16 32) (v360 : IVec S16 32) : Prop :=
  (∀ (k0_h2 : k0_cond2 k0_t1 = 1#1), ∀ a x, ((![v358, v360] : Fin 2 → IVec S16 32) a x).toNat < S416x128.size a)
instance k0_chk62.dec : ∀ (k0_t1 : Fin k0_t1_loop.trips) (v358 : IVec S16 32) (v360 : IVec S16 32), Decidable (k0_chk62 k0_t1 v358 v360) := fun k0_t1 v358 v360 => decidable_of_iff' _ (Iff.of_eq (k0_chk62.eq_1 k0_t1 v358 v360))
theorem k0_idx62_inb : ∀ (k0_t1 : Fin k0_t1_loop.trips) (v358 : IVec S16 32) (v360 : IVec S16 32) (k0_hw62 : k0_chk62 k0_t1 v358 v360), ∀ (k0_h2 : k0_cond2 k0_t1 = 1#1), ∀ a x, ((![v358, v360] : Fin 2 → IVec S16 32) a x).toNat < S416x128.size a := fun k0_t1 v358 v360 k0_hw62 k0_h2 => k0_hw62 k0_h2

def k0_chk63 (k0_t1 : Fin k0_t1_loop.trips) (v75 : IVec S16 32) (v362 : IVec S16 32) : Prop :=
  (∀ (k0_h2 : k0_cond2 k0_t1 = 1#1), ∀ a x, ((![v75, v362] : Fin 2 → IVec S16 32) a x).toNat < S416x128.size a)
instance k0_chk63.dec : ∀ (k0_t1 : Fin k0_t1_loop.trips) (v75 : IVec S16 32) (v362 : IVec S16 32), Decidable (k0_chk63 k0_t1 v75 v362) := fun k0_t1 v75 v362 => decidable_of_iff' _ (Iff.of_eq (k0_chk63.eq_1 k0_t1 v75 v362))
theorem k0_idx63_inb : ∀ (k0_t1 : Fin k0_t1_loop.trips) (v75 : IVec S16 32) (v362 : IVec S16 32) (k0_hw63 : k0_chk63 k0_t1 v75 v362), ∀ (k0_h2 : k0_cond2 k0_t1 = 1#1), ∀ a x, ((![v75, v362] : Fin 2 → IVec S16 32) a x).toNat < S416x128.size a := fun k0_t1 v75 v362 k0_hw63 k0_h2 => k0_hw63 k0_h2

def k0_chk64 (k0_t1 : Fin k0_t1_loop.trips) (v367 : IVec S16 32) (v369 : IVec S16 32) : Prop :=
  (∀ (k0_h2 : k0_cond2 k0_t1 = 1#1), ∀ a x, ((![v367, v369] : Fin 2 → IVec S16 32) a x).toNat < S416x128.size a)
instance k0_chk64.dec : ∀ (k0_t1 : Fin k0_t1_loop.trips) (v367 : IVec S16 32) (v369 : IVec S16 32), Decidable (k0_chk64 k0_t1 v367 v369) := fun k0_t1 v367 v369 => decidable_of_iff' _ (Iff.of_eq (k0_chk64.eq_1 k0_t1 v367 v369))
theorem k0_idx64_inb : ∀ (k0_t1 : Fin k0_t1_loop.trips) (v367 : IVec S16 32) (v369 : IVec S16 32) (k0_hw64 : k0_chk64 k0_t1 v367 v369), ∀ (k0_h2 : k0_cond2 k0_t1 = 1#1), ∀ a x, ((![v367, v369] : Fin 2 → IVec S16 32) a x).toNat < S416x128.size a := fun k0_t1 v367 v369 k0_hw64 k0_h2 => k0_hw64 k0_h2
def k0_off7 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16640_i32 : BitVec 32 := 16640#32
  let v3 : BitVec 32 := Scalar.muli v1 c16640_i32
  let c0_i32_1 : BitVec 32 := 0#32
  let c1_i32 : BitVec 32 := 1#32
  let arg19 : BitVec 32 := Scf.iv c0_i32_1 c1_i32 k0_t1
  let c2_i32_28 : BitVec 32 := 2#32
  let v29 : BitVec 32 := Scalar.muli arg19 c2_i32_28
  let c0_i32_29 : BitVec 32 := 0#32
  let v30 : BitVec 32 := Scalar.addi v29 c0_i32_29
  let c1_i32_65 : BitVec 32 := 1#32
  let v64 : BitVec 32 := Scalar.subi v30 c1_i32_65
  let c104_i32 : BitVec 32 := 104#32
  let v65 : BitVec 32 := Scalar.muli v64 c104_i32
  let v66 : BitVec 32 := Scalar.addi v3 v65
  let c0_i32_68 : BitVec 32 := 0#32
  ![v66.toNat, 0]
def k0_cond4 (k0_t1 : Fin k0_t1_loop.trips) : BitVec 1 :=
  let c0_i32_1 : BitVec 32 := 0#32
  let c1_i32 : BitVec 32 := 1#32
  let arg19 : BitVec 32 := Scf.iv c0_i32_1 c1_i32 k0_t1
  let c2_i32_42 : BitVec 32 := 2#32
  let v43 : BitVec 32 := Scalar.muli arg19 c2_i32_42
  let c1_i32_43 : BitVec 32 := 1#32
  let v44 : BitVec 32 := Scalar.addi v43 c1_i32_43
  let c2_i32_44 : BitVec 32 := 2#32
  let v45 : BitVec 1 := Scalar.cmpi .sge v44 c2_i32_44
  let v46 : BitVec 32 := Scalar.extui v45
  let c0_i32_45 : BitVec 32 := 0#32
  let v47 : BitVec 1 := Scalar.cmpi .ne v46 c0_i32_45
  v47

def k0_off8 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16640_i32 : BitVec 32 := 16640#32
  let v3 : BitVec 32 := Scalar.muli v1 c16640_i32
  let c0_i32_1 : BitVec 32 := 0#32
  let c1_i32 : BitVec 32 := 1#32
  let arg19 : BitVec 32 := Scf.iv c0_i32_1 c1_i32 k0_t1
  let c2_i32_42 : BitVec 32 := 2#32
  let v43 : BitVec 32 := Scalar.muli arg19 c2_i32_42
  let c1_i32_43 : BitVec 32 := 1#32
  let v44 : BitVec 32 := Scalar.addi v43 c1_i32_43
  let c2_i32_56 : BitVec 32 := 2#32
  let v57 : BitVec 32 := Scalar.subi v44 c2_i32_56
  let c104_i32 : BitVec 32 := 104#32
  let v58 : BitVec 32 := Scalar.muli v57 c104_i32
  let v59 : BitVec 32 := Scalar.addi v3 v58
  let c0_i32_59 : BitVec 32 := 0#32
  ![v59.toNat, 0]
@[reducible] def k0_t4_loop : Scf.Loop 32 :=
  let c0_i32_48 : BitVec 32 := 0#32
  let c26_i32_49 : BitVec 32 := 26#32
  let v52 : BitVec 32 := Scalar.addi c0_i32_48 c26_i32_49
  let c1_i32_50 : BitVec 32 := 1#32
  ⟨c0_i32_48, v52, c1_i32_50⟩
def k0_off9 (k0_t4 : Fin k0_t4_loop.trips) : Fin 1 → Nat :=
  let c0_i32_48 : BitVec 32 := 0#32
  let c1_i32_50 : BitVec 32 := 1#32
  let arg20 : BitVec 32 := Scf.iv c0_i32_48 c1_i32_50 k0_t4
  let c16_i32 : BitVec 32 := 16#32
  let v57 : BitVec 32 := Scalar.muli arg20 c16_i32
  let v58 : Index := Scalar.indexCast v57
  ![v58.toNat]
def k0_cond5 (k0_t1 : Fin k0_t1_loop.trips) : BitVec 1 :=
  let c0_i32_1 : BitVec 32 := 0#32
  let c1_i32 : BitVec 32 := 1#32
  let arg19 : BitVec 32 := Scf.iv c0_i32_1 c1_i32 k0_t1
  let c2_i32_42 : BitVec 32 := 2#32
  let v43 : BitVec 32 := Scalar.muli arg19 c2_i32_42
  let c1_i32_43 : BitVec 32 := 1#32
  let v44 : BitVec 32 := Scalar.addi v43 c1_i32_43
  let c1_i32_54 : BitVec 32 := 1#32
  let v54 : BitVec 1 := Scalar.cmpi .sge v44 c1_i32_54
  let v55 : BitVec 32 := Scalar.extui v54
  let c0_i32_55 : BitVec 32 := 0#32
  let v56 : BitVec 1 := Scalar.cmpi .ne v55 c0_i32_55
  v56

def k0_cond6 (k0_t1 : Fin k0_t1_loop.trips) : BitVec 1 :=
  let c0_i32_1 : BitVec 32 := 0#32
  let c1_i32 : BitVec 32 := 1#32
  let arg19 : BitVec 32 := Scf.iv c0_i32_1 c1_i32 k0_t1
  let c2_i32_42 : BitVec 32 := 2#32
  let v43 : BitVec 32 := Scalar.muli arg19 c2_i32_42
  let c1_i32_43 : BitVec 32 := 1#32
  let v44 : BitVec 32 := Scalar.addi v43 c1_i32_43
  let c1_i32_58 : BitVec 32 := 1#32
  let v58 : BitVec 32 := Scalar.addi v44 c1_i32_58
  let c160_i32 : BitVec 32 := 160#32
  let v59 : BitVec 1 := Scalar.cmpi .slt v58 c160_i32
  let v60 : BitVec 32 := Scalar.extui v59
  let c0_i32_59 : BitVec 32 := 0#32
  let v61 : BitVec 1 := Scalar.cmpi .ne v60 c0_i32_59
  v61

def k0_off10 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c66560_i32 : BitVec 32 := 66560#32
  let v2 : BitVec 32 := Scalar.muli v1 c66560_i32
  let c0_i32_1 : BitVec 32 := 0#32
  let c1_i32 : BitVec 32 := 1#32
  let arg19 : BitVec 32 := Scf.iv c0_i32_1 c1_i32 k0_t1
  let c2_i32_42 : BitVec 32 := 2#32
  let v43 : BitVec 32 := Scalar.muli arg19 c2_i32_42
  let c1_i32_43 : BitVec 32 := 1#32
  let v44 : BitVec 32 := Scalar.addi v43 c1_i32_43
  let c1_i32_72 : BitVec 32 := 1#32
  let v71 : BitVec 32 := Scalar.addi v44 c1_i32_72
  let c416_i32_73 : BitVec 32 := 416#32
  let v72 : BitVec 32 := Scalar.muli v71 c416_i32_73
  let v73 : BitVec 32 := Scalar.addi v2 v72
  ![v73.toNat]
@[reducible] def k0_t5_loop : Scf.Loop 32 :=
  let c0_i32_61 : BitVec 32 := 0#32
  let c26_i32_62 : BitVec 32 := 26#32
  let v63 : BitVec 32 := Scalar.addi c0_i32_61 c26_i32_62
  let c1_i32_63 : BitVec 32 := 1#32
  ⟨c0_i32_61, v63, c1_i32_63⟩
def k0_off11 (k0_t5 : Fin k0_t5_loop.trips) : Fin 1 → Nat :=
  let c0_i32_61 : BitVec 32 := 0#32
  let c1_i32_63 : BitVec 32 := 1#32
  let arg20 : BitVec 32 := Scf.iv c0_i32_61 c1_i32_63 k0_t5
  let c16_i32 : BitVec 32 := 16#32
  let v71 : BitVec 32 := Scalar.muli arg20 c16_i32
  let v72 : Index := Scalar.indexCast v71
  ![v72.toNat]

def k0_chk65 (k0_t1 : Fin k0_t1_loop.trips) (v75 : IVec S16 32) (v83 : IVec S16 32) : Prop :=
  (∀ (k0_h5 : k0_cond5 k0_t1 = 1#1), ∀ a x, ((![v75, v83] : Fin 2 → IVec S16 32) a x).toNat < S416x128.size a)
instance k0_chk65.dec : ∀ (k0_t1 : Fin k0_t1_loop.trips) (v75 : IVec S16 32) (v83 : IVec S16 32), Decidable (k0_chk65 k0_t1 v75 v83) := fun k0_t1 v75 v83 => decidable_of_iff' _ (Iff.of_eq (k0_chk65.eq_1 k0_t1 v75 v83))
theorem k0_idx65_inb : ∀ (k0_t1 : Fin k0_t1_loop.trips) (v75 : IVec S16 32) (v83 : IVec S16 32) (k0_hw65 : k0_chk65 k0_t1 v75 v83), ∀ (k0_h5 : k0_cond5 k0_t1 = 1#1), ∀ a x, ((![v75, v83] : Fin 2 → IVec S16 32) a x).toNat < S416x128.size a := fun k0_t1 v75 v83 k0_hw65 k0_h5 => k0_hw65 k0_h5

def k0_chk66 (k0_t1 : Fin k0_t1_loop.trips) (v88 : IVec S16 32) (v90 : IVec S16 32) : Prop :=
  (∀ (k0_h5 : k0_cond5 k0_t1 = 1#1), ∀ a x, ((![v88, v90] : Fin 2 → IVec S16 32) a x).toNat < S416x128.size a)
instance k0_chk66.dec : ∀ (k0_t1 : Fin k0_t1_loop.trips) (v88 : IVec S16 32) (v90 : IVec S16 32), Decidable (k0_chk66 k0_t1 v88 v90) := fun k0_t1 v88 v90 => decidable_of_iff' _ (Iff.of_eq (k0_chk66.eq_1 k0_t1 v88 v90))
theorem k0_idx66_inb : ∀ (k0_t1 : Fin k0_t1_loop.trips) (v88 : IVec S16 32) (v90 : IVec S16 32) (k0_hw66 : k0_chk66 k0_t1 v88 v90), ∀ (k0_h5 : k0_cond5 k0_t1 = 1#1), ∀ a x, ((![v88, v90] : Fin 2 → IVec S16 32) a x).toNat < S416x128.size a := fun k0_t1 v88 v90 k0_hw66 k0_h5 => k0_hw66 k0_h5

def k0_chk67 (k0_t1 : Fin k0_t1_loop.trips) (v75 : IVec S16 32) (v92 : IVec S16 32) : Prop :=
  (∀ (k0_h5 : k0_cond5 k0_t1 = 1#1), ∀ a x, ((![v75, v92] : Fin 2 → IVec S16 32) a x).toNat < S416x128.size a)
instance k0_chk67.dec : ∀ (k0_t1 : Fin k0_t1_loop.trips) (v75 : IVec S16 32) (v92 : IVec S16 32), Decidable (k0_chk67 k0_t1 v75 v92) := fun k0_t1 v75 v92 => decidable_of_iff' _ (Iff.of_eq (k0_chk67.eq_1 k0_t1 v75 v92))
theorem k0_idx67_inb : ∀ (k0_t1 : Fin k0_t1_loop.trips) (v75 : IVec S16 32) (v92 : IVec S16 32) (k0_hw67 : k0_chk67 k0_t1 v75 v92), ∀ (k0_h5 : k0_cond5 k0_t1 = 1#1), ∀ a x, ((![v75, v92] : Fin 2 → IVec S16 32) a x).toNat < S416x128.size a := fun k0_t1 v75 v92 k0_hw67 k0_h5 => k0_hw67 k0_h5

def k0_chk68 (k0_t1 : Fin k0_t1_loop.trips) (v97 : IVec S16 32) (v99 : IVec S16 32) : Prop :=
  (∀ (k0_h5 : k0_cond5 k0_t1 = 1#1), ∀ a x, ((![v97, v99] : Fin 2 → IVec S16 32) a x).toNat < S416x128.size a)
instance k0_chk68.dec : ∀ (k0_t1 : Fin k0_t1_loop.trips) (v97 : IVec S16 32) (v99 : IVec S16 32), Decidable (k0_chk68 k0_t1 v97 v99) := fun k0_t1 v97 v99 => decidable_of_iff' _ (Iff.of_eq (k0_chk68.eq_1 k0_t1 v97 v99))
theorem k0_idx68_inb : ∀ (k0_t1 : Fin k0_t1_loop.trips) (v97 : IVec S16 32) (v99 : IVec S16 32) (k0_hw68 : k0_chk68 k0_t1 v97 v99), ∀ (k0_h5 : k0_cond5 k0_t1 = 1#1), ∀ a x, ((![v97, v99] : Fin 2 → IVec S16 32) a x).toNat < S416x128.size a := fun k0_t1 v97 v99 k0_hw68 k0_h5 => k0_hw68 k0_h5

def k0_chk69 (k0_t1 : Fin k0_t1_loop.trips) (v75 : IVec S16 32) (v101 : IVec S16 32) : Prop :=
  (∀ (k0_h5 : k0_cond5 k0_t1 = 1#1), ∀ a x, ((![v75, v101] : Fin 2 → IVec S16 32) a x).toNat < S416x128.size a)
instance k0_chk69.dec : ∀ (k0_t1 : Fin k0_t1_loop.trips) (v75 : IVec S16 32) (v101 : IVec S16 32), Decidable (k0_chk69 k0_t1 v75 v101) := fun k0_t1 v75 v101 => decidable_of_iff' _ (Iff.of_eq (k0_chk69.eq_1 k0_t1 v75 v101))
theorem k0_idx69_inb : ∀ (k0_t1 : Fin k0_t1_loop.trips) (v75 : IVec S16 32) (v101 : IVec S16 32) (k0_hw69 : k0_chk69 k0_t1 v75 v101), ∀ (k0_h5 : k0_cond5 k0_t1 = 1#1), ∀ a x, ((![v75, v101] : Fin 2 → IVec S16 32) a x).toNat < S416x128.size a := fun k0_t1 v75 v101 k0_hw69 k0_h5 => k0_hw69 k0_h5

def k0_chk70 (k0_t1 : Fin k0_t1_loop.trips) (v106 : IVec S16 32) (v108 : IVec S16 32) : Prop :=
  (∀ (k0_h5 : k0_cond5 k0_t1 = 1#1), ∀ a x, ((![v106, v108] : Fin 2 → IVec S16 32) a x).toNat < S416x128.size a)
instance k0_chk70.dec : ∀ (k0_t1 : Fin k0_t1_loop.trips) (v106 : IVec S16 32) (v108 : IVec S16 32), Decidable (k0_chk70 k0_t1 v106 v108) := fun k0_t1 v106 v108 => decidable_of_iff' _ (Iff.of_eq (k0_chk70.eq_1 k0_t1 v106 v108))
theorem k0_idx70_inb : ∀ (k0_t1 : Fin k0_t1_loop.trips) (v106 : IVec S16 32) (v108 : IVec S16 32) (k0_hw70 : k0_chk70 k0_t1 v106 v108), ∀ (k0_h5 : k0_cond5 k0_t1 = 1#1), ∀ a x, ((![v106, v108] : Fin 2 → IVec S16 32) a x).toNat < S416x128.size a := fun k0_t1 v106 v108 k0_hw70 k0_h5 => k0_hw70 k0_h5

def k0_chk71 (k0_t1 : Fin k0_t1_loop.trips) (v75 : IVec S16 32) (v110 : IVec S16 32) : Prop :=
  (∀ (k0_h5 : k0_cond5 k0_t1 = 1#1), ∀ a x, ((![v75, v110] : Fin 2 → IVec S16 32) a x).toNat < S416x128.size a)
instance k0_chk71.dec : ∀ (k0_t1 : Fin k0_t1_loop.trips) (v75 : IVec S16 32) (v110 : IVec S16 32), Decidable (k0_chk71 k0_t1 v75 v110) := fun k0_t1 v75 v110 => decidable_of_iff' _ (Iff.of_eq (k0_chk71.eq_1 k0_t1 v75 v110))
theorem k0_idx71_inb : ∀ (k0_t1 : Fin k0_t1_loop.trips) (v75 : IVec S16 32) (v110 : IVec S16 32) (k0_hw71 : k0_chk71 k0_t1 v75 v110), ∀ (k0_h5 : k0_cond5 k0_t1 = 1#1), ∀ a x, ((![v75, v110] : Fin 2 → IVec S16 32) a x).toNat < S416x128.size a := fun k0_t1 v75 v110 k0_hw71 k0_h5 => k0_hw71 k0_h5

def k0_chk72 (k0_t1 : Fin k0_t1_loop.trips) (v115 : IVec S16 32) (v117 : IVec S16 32) : Prop :=
  (∀ (k0_h5 : k0_cond5 k0_t1 = 1#1), ∀ a x, ((![v115, v117] : Fin 2 → IVec S16 32) a x).toNat < S416x128.size a)
instance k0_chk72.dec : ∀ (k0_t1 : Fin k0_t1_loop.trips) (v115 : IVec S16 32) (v117 : IVec S16 32), Decidable (k0_chk72 k0_t1 v115 v117) := fun k0_t1 v115 v117 => decidable_of_iff' _ (Iff.of_eq (k0_chk72.eq_1 k0_t1 v115 v117))
theorem k0_idx72_inb : ∀ (k0_t1 : Fin k0_t1_loop.trips) (v115 : IVec S16 32) (v117 : IVec S16 32) (k0_hw72 : k0_chk72 k0_t1 v115 v117), ∀ (k0_h5 : k0_cond5 k0_t1 = 1#1), ∀ a x, ((![v115, v117] : Fin 2 → IVec S16 32) a x).toNat < S416x128.size a := fun k0_t1 v115 v117 k0_hw72 k0_h5 => k0_hw72 k0_h5

def k0_chk73 (k0_t1 : Fin k0_t1_loop.trips) (v75 : IVec S16 32) (v119 : IVec S16 32) : Prop :=
  (∀ (k0_h5 : k0_cond5 k0_t1 = 1#1), ∀ a x, ((![v75, v119] : Fin 2 → IVec S16 32) a x).toNat < S416x128.size a)
instance k0_chk73.dec : ∀ (k0_t1 : Fin k0_t1_loop.trips) (v75 : IVec S16 32) (v119 : IVec S16 32), Decidable (k0_chk73 k0_t1 v75 v119) := fun k0_t1 v75 v119 => decidable_of_iff' _ (Iff.of_eq (k0_chk73.eq_1 k0_t1 v75 v119))
theorem k0_idx73_inb : ∀ (k0_t1 : Fin k0_t1_loop.trips) (v75 : IVec S16 32) (v119 : IVec S16 32) (k0_hw73 : k0_chk73 k0_t1 v75 v119), ∀ (k0_h5 : k0_cond5 k0_t1 = 1#1), ∀ a x, ((![v75, v119] : Fin 2 → IVec S16 32) a x).toNat < S416x128.size a := fun k0_t1 v75 v119 k0_hw73 k0_h5 => k0_hw73 k0_h5

def k0_chk74 (k0_t1 : Fin k0_t1_loop.trips) (v124 : IVec S16 32) (v126 : IVec S16 32) : Prop :=
  (∀ (k0_h5 : k0_cond5 k0_t1 = 1#1), ∀ a x, ((![v124, v126] : Fin 2 → IVec S16 32) a x).toNat < S416x128.size a)
instance k0_chk74.dec : ∀ (k0_t1 : Fin k0_t1_loop.trips) (v124 : IVec S16 32) (v126 : IVec S16 32), Decidable (k0_chk74 k0_t1 v124 v126) := fun k0_t1 v124 v126 => decidable_of_iff' _ (Iff.of_eq (k0_chk74.eq_1 k0_t1 v124 v126))
theorem k0_idx74_inb : ∀ (k0_t1 : Fin k0_t1_loop.trips) (v124 : IVec S16 32) (v126 : IVec S16 32) (k0_hw74 : k0_chk74 k0_t1 v124 v126), ∀ (k0_h5 : k0_cond5 k0_t1 = 1#1), ∀ a x, ((![v124, v126] : Fin 2 → IVec S16 32) a x).toNat < S416x128.size a := fun k0_t1 v124 v126 k0_hw74 k0_h5 => k0_hw74 k0_h5

def k0_chk75 (k0_t1 : Fin k0_t1_loop.trips) (v75 : IVec S16 32) (v128 : IVec S16 32) : Prop :=
  (∀ (k0_h5 : k0_cond5 k0_t1 = 1#1), ∀ a x, ((![v75, v128] : Fin 2 → IVec S16 32) a x).toNat < S416x128.size a)
instance k0_chk75.dec : ∀ (k0_t1 : Fin k0_t1_loop.trips) (v75 : IVec S16 32) (v128 : IVec S16 32), Decidable (k0_chk75 k0_t1 v75 v128) := fun k0_t1 v75 v128 => decidable_of_iff' _ (Iff.of_eq (k0_chk75.eq_1 k0_t1 v75 v128))
theorem k0_idx75_inb : ∀ (k0_t1 : Fin k0_t1_loop.trips) (v75 : IVec S16 32) (v128 : IVec S16 32) (k0_hw75 : k0_chk75 k0_t1 v75 v128), ∀ (k0_h5 : k0_cond5 k0_t1 = 1#1), ∀ a x, ((![v75, v128] : Fin 2 → IVec S16 32) a x).toNat < S416x128.size a := fun k0_t1 v75 v128 k0_hw75 k0_h5 => k0_hw75 k0_h5

def k0_chk76 (k0_t1 : Fin k0_t1_loop.trips) (v133 : IVec S16 32) (v135 : IVec S16 32) : Prop :=
  (∀ (k0_h5 : k0_cond5 k0_t1 = 1#1), ∀ a x, ((![v133, v135] : Fin 2 → IVec S16 32) a x).toNat < S416x128.size a)
instance k0_chk76.dec : ∀ (k0_t1 : Fin k0_t1_loop.trips) (v133 : IVec S16 32) (v135 : IVec S16 32), Decidable (k0_chk76 k0_t1 v133 v135) := fun k0_t1 v133 v135 => decidable_of_iff' _ (Iff.of_eq (k0_chk76.eq_1 k0_t1 v133 v135))
theorem k0_idx76_inb : ∀ (k0_t1 : Fin k0_t1_loop.trips) (v133 : IVec S16 32) (v135 : IVec S16 32) (k0_hw76 : k0_chk76 k0_t1 v133 v135), ∀ (k0_h5 : k0_cond5 k0_t1 = 1#1), ∀ a x, ((![v133, v135] : Fin 2 → IVec S16 32) a x).toNat < S416x128.size a := fun k0_t1 v133 v135 k0_hw76 k0_h5 => k0_hw76 k0_h5

def k0_chk77 (k0_t1 : Fin k0_t1_loop.trips) (v75 : IVec S16 32) (v137 : IVec S16 32) : Prop :=
  (∀ (k0_h5 : k0_cond5 k0_t1 = 1#1), ∀ a x, ((![v75, v137] : Fin 2 → IVec S16 32) a x).toNat < S416x128.size a)
instance k0_chk77.dec : ∀ (k0_t1 : Fin k0_t1_loop.trips) (v75 : IVec S16 32) (v137 : IVec S16 32), Decidable (k0_chk77 k0_t1 v75 v137) := fun k0_t1 v75 v137 => decidable_of_iff' _ (Iff.of_eq (k0_chk77.eq_1 k0_t1 v75 v137))
theorem k0_idx77_inb : ∀ (k0_t1 : Fin k0_t1_loop.trips) (v75 : IVec S16 32) (v137 : IVec S16 32) (k0_hw77 : k0_chk77 k0_t1 v75 v137), ∀ (k0_h5 : k0_cond5 k0_t1 = 1#1), ∀ a x, ((![v75, v137] : Fin 2 → IVec S16 32) a x).toNat < S416x128.size a := fun k0_t1 v75 v137 k0_hw77 k0_h5 => k0_hw77 k0_h5

def k0_chk78 (k0_t1 : Fin k0_t1_loop.trips) (v142 : IVec S16 32) (v144 : IVec S16 32) : Prop :=
  (∀ (k0_h5 : k0_cond5 k0_t1 = 1#1), ∀ a x, ((![v142, v144] : Fin 2 → IVec S16 32) a x).toNat < S416x128.size a)
instance k0_chk78.dec : ∀ (k0_t1 : Fin k0_t1_loop.trips) (v142 : IVec S16 32) (v144 : IVec S16 32), Decidable (k0_chk78 k0_t1 v142 v144) := fun k0_t1 v142 v144 => decidable_of_iff' _ (Iff.of_eq (k0_chk78.eq_1 k0_t1 v142 v144))
theorem k0_idx78_inb : ∀ (k0_t1 : Fin k0_t1_loop.trips) (v142 : IVec S16 32) (v144 : IVec S16 32) (k0_hw78 : k0_chk78 k0_t1 v142 v144), ∀ (k0_h5 : k0_cond5 k0_t1 = 1#1), ∀ a x, ((![v142, v144] : Fin 2 → IVec S16 32) a x).toNat < S416x128.size a := fun k0_t1 v142 v144 k0_hw78 k0_h5 => k0_hw78 k0_h5

def k0_chk79 (k0_t1 : Fin k0_t1_loop.trips) (v75 : IVec S16 32) (v146 : IVec S16 32) : Prop :=
  (∀ (k0_h5 : k0_cond5 k0_t1 = 1#1), ∀ a x, ((![v75, v146] : Fin 2 → IVec S16 32) a x).toNat < S416x128.size a)
instance k0_chk79.dec : ∀ (k0_t1 : Fin k0_t1_loop.trips) (v75 : IVec S16 32) (v146 : IVec S16 32), Decidable (k0_chk79 k0_t1 v75 v146) := fun k0_t1 v75 v146 => decidable_of_iff' _ (Iff.of_eq (k0_chk79.eq_1 k0_t1 v75 v146))
theorem k0_idx79_inb : ∀ (k0_t1 : Fin k0_t1_loop.trips) (v75 : IVec S16 32) (v146 : IVec S16 32) (k0_hw79 : k0_chk79 k0_t1 v75 v146), ∀ (k0_h5 : k0_cond5 k0_t1 = 1#1), ∀ a x, ((![v75, v146] : Fin 2 → IVec S16 32) a x).toNat < S416x128.size a := fun k0_t1 v75 v146 k0_hw79 k0_h5 => k0_hw79 k0_h5

def k0_chk80 (k0_t1 : Fin k0_t1_loop.trips) (v151 : IVec S16 32) (v153 : IVec S16 32) : Prop :=
  (∀ (k0_h5 : k0_cond5 k0_t1 = 1#1), ∀ a x, ((![v151, v153] : Fin 2 → IVec S16 32) a x).toNat < S416x128.size a)
instance k0_chk80.dec : ∀ (k0_t1 : Fin k0_t1_loop.trips) (v151 : IVec S16 32) (v153 : IVec S16 32), Decidable (k0_chk80 k0_t1 v151 v153) := fun k0_t1 v151 v153 => decidable_of_iff' _ (Iff.of_eq (k0_chk80.eq_1 k0_t1 v151 v153))
theorem k0_idx80_inb : ∀ (k0_t1 : Fin k0_t1_loop.trips) (v151 : IVec S16 32) (v153 : IVec S16 32) (k0_hw80 : k0_chk80 k0_t1 v151 v153), ∀ (k0_h5 : k0_cond5 k0_t1 = 1#1), ∀ a x, ((![v151, v153] : Fin 2 → IVec S16 32) a x).toNat < S416x128.size a := fun k0_t1 v151 v153 k0_hw80 k0_h5 => k0_hw80 k0_h5

def k0_chk81 (k0_t1 : Fin k0_t1_loop.trips) (v75 : IVec S16 32) (v155 : IVec S16 32) : Prop :=
  (∀ (k0_h5 : k0_cond5 k0_t1 = 1#1), ∀ a x, ((![v75, v155] : Fin 2 → IVec S16 32) a x).toNat < S416x128.size a)
instance k0_chk81.dec : ∀ (k0_t1 : Fin k0_t1_loop.trips) (v75 : IVec S16 32) (v155 : IVec S16 32), Decidable (k0_chk81 k0_t1 v75 v155) := fun k0_t1 v75 v155 => decidable_of_iff' _ (Iff.of_eq (k0_chk81.eq_1 k0_t1 v75 v155))
theorem k0_idx81_inb : ∀ (k0_t1 : Fin k0_t1_loop.trips) (v75 : IVec S16 32) (v155 : IVec S16 32) (k0_hw81 : k0_chk81 k0_t1 v75 v155), ∀ (k0_h5 : k0_cond5 k0_t1 = 1#1), ∀ a x, ((![v75, v155] : Fin 2 → IVec S16 32) a x).toNat < S416x128.size a := fun k0_t1 v75 v155 k0_hw81 k0_h5 => k0_hw81 k0_h5

def k0_chk82 (k0_t1 : Fin k0_t1_loop.trips) (v160 : IVec S16 32) (v162 : IVec S16 32) : Prop :=
  (∀ (k0_h5 : k0_cond5 k0_t1 = 1#1), ∀ a x, ((![v160, v162] : Fin 2 → IVec S16 32) a x).toNat < S416x128.size a)
instance k0_chk82.dec : ∀ (k0_t1 : Fin k0_t1_loop.trips) (v160 : IVec S16 32) (v162 : IVec S16 32), Decidable (k0_chk82 k0_t1 v160 v162) := fun k0_t1 v160 v162 => decidable_of_iff' _ (Iff.of_eq (k0_chk82.eq_1 k0_t1 v160 v162))
theorem k0_idx82_inb : ∀ (k0_t1 : Fin k0_t1_loop.trips) (v160 : IVec S16 32) (v162 : IVec S16 32) (k0_hw82 : k0_chk82 k0_t1 v160 v162), ∀ (k0_h5 : k0_cond5 k0_t1 = 1#1), ∀ a x, ((![v160, v162] : Fin 2 → IVec S16 32) a x).toNat < S416x128.size a := fun k0_t1 v160 v162 k0_hw82 k0_h5 => k0_hw82 k0_h5

def k0_chk83 (k0_t1 : Fin k0_t1_loop.trips) (v75 : IVec S16 32) (v164 : IVec S16 32) : Prop :=
  (∀ (k0_h5 : k0_cond5 k0_t1 = 1#1), ∀ a x, ((![v75, v164] : Fin 2 → IVec S16 32) a x).toNat < S416x128.size a)
instance k0_chk83.dec : ∀ (k0_t1 : Fin k0_t1_loop.trips) (v75 : IVec S16 32) (v164 : IVec S16 32), Decidable (k0_chk83 k0_t1 v75 v164) := fun k0_t1 v75 v164 => decidable_of_iff' _ (Iff.of_eq (k0_chk83.eq_1 k0_t1 v75 v164))
theorem k0_idx83_inb : ∀ (k0_t1 : Fin k0_t1_loop.trips) (v75 : IVec S16 32) (v164 : IVec S16 32) (k0_hw83 : k0_chk83 k0_t1 v75 v164), ∀ (k0_h5 : k0_cond5 k0_t1 = 1#1), ∀ a x, ((![v75, v164] : Fin 2 → IVec S16 32) a x).toNat < S416x128.size a := fun k0_t1 v75 v164 k0_hw83 k0_h5 => k0_hw83 k0_h5

def k0_chk84 (k0_t1 : Fin k0_t1_loop.trips) (v169 : IVec S16 32) (v171 : IVec S16 32) : Prop :=
  (∀ (k0_h5 : k0_cond5 k0_t1 = 1#1), ∀ a x, ((![v169, v171] : Fin 2 → IVec S16 32) a x).toNat < S416x128.size a)
instance k0_chk84.dec : ∀ (k0_t1 : Fin k0_t1_loop.trips) (v169 : IVec S16 32) (v171 : IVec S16 32), Decidable (k0_chk84 k0_t1 v169 v171) := fun k0_t1 v169 v171 => decidable_of_iff' _ (Iff.of_eq (k0_chk84.eq_1 k0_t1 v169 v171))
theorem k0_idx84_inb : ∀ (k0_t1 : Fin k0_t1_loop.trips) (v169 : IVec S16 32) (v171 : IVec S16 32) (k0_hw84 : k0_chk84 k0_t1 v169 v171), ∀ (k0_h5 : k0_cond5 k0_t1 = 1#1), ∀ a x, ((![v169, v171] : Fin 2 → IVec S16 32) a x).toNat < S416x128.size a := fun k0_t1 v169 v171 k0_hw84 k0_h5 => k0_hw84 k0_h5

def k0_chk85 (k0_t1 : Fin k0_t1_loop.trips) (v75 : IVec S16 32) (v173 : IVec S16 32) : Prop :=
  (∀ (k0_h5 : k0_cond5 k0_t1 = 1#1), ∀ a x, ((![v75, v173] : Fin 2 → IVec S16 32) a x).toNat < S416x128.size a)
instance k0_chk85.dec : ∀ (k0_t1 : Fin k0_t1_loop.trips) (v75 : IVec S16 32) (v173 : IVec S16 32), Decidable (k0_chk85 k0_t1 v75 v173) := fun k0_t1 v75 v173 => decidable_of_iff' _ (Iff.of_eq (k0_chk85.eq_1 k0_t1 v75 v173))
theorem k0_idx85_inb : ∀ (k0_t1 : Fin k0_t1_loop.trips) (v75 : IVec S16 32) (v173 : IVec S16 32) (k0_hw85 : k0_chk85 k0_t1 v75 v173), ∀ (k0_h5 : k0_cond5 k0_t1 = 1#1), ∀ a x, ((![v75, v173] : Fin 2 → IVec S16 32) a x).toNat < S416x128.size a := fun k0_t1 v75 v173 k0_hw85 k0_h5 => k0_hw85 k0_h5

def k0_chk86 (k0_t1 : Fin k0_t1_loop.trips) (v178 : IVec S16 32) (v180 : IVec S16 32) : Prop :=
  (∀ (k0_h5 : k0_cond5 k0_t1 = 1#1), ∀ a x, ((![v178, v180] : Fin 2 → IVec S16 32) a x).toNat < S416x128.size a)
instance k0_chk86.dec : ∀ (k0_t1 : Fin k0_t1_loop.trips) (v178 : IVec S16 32) (v180 : IVec S16 32), Decidable (k0_chk86 k0_t1 v178 v180) := fun k0_t1 v178 v180 => decidable_of_iff' _ (Iff.of_eq (k0_chk86.eq_1 k0_t1 v178 v180))
theorem k0_idx86_inb : ∀ (k0_t1 : Fin k0_t1_loop.trips) (v178 : IVec S16 32) (v180 : IVec S16 32) (k0_hw86 : k0_chk86 k0_t1 v178 v180), ∀ (k0_h5 : k0_cond5 k0_t1 = 1#1), ∀ a x, ((![v178, v180] : Fin 2 → IVec S16 32) a x).toNat < S416x128.size a := fun k0_t1 v178 v180 k0_hw86 k0_h5 => k0_hw86 k0_h5

def k0_chk87 (k0_t1 : Fin k0_t1_loop.trips) (v75 : IVec S16 32) (v182 : IVec S16 32) : Prop :=
  (∀ (k0_h5 : k0_cond5 k0_t1 = 1#1), ∀ a x, ((![v75, v182] : Fin 2 → IVec S16 32) a x).toNat < S416x128.size a)
instance k0_chk87.dec : ∀ (k0_t1 : Fin k0_t1_loop.trips) (v75 : IVec S16 32) (v182 : IVec S16 32), Decidable (k0_chk87 k0_t1 v75 v182) := fun k0_t1 v75 v182 => decidable_of_iff' _ (Iff.of_eq (k0_chk87.eq_1 k0_t1 v75 v182))
theorem k0_idx87_inb : ∀ (k0_t1 : Fin k0_t1_loop.trips) (v75 : IVec S16 32) (v182 : IVec S16 32) (k0_hw87 : k0_chk87 k0_t1 v75 v182), ∀ (k0_h5 : k0_cond5 k0_t1 = 1#1), ∀ a x, ((![v75, v182] : Fin 2 → IVec S16 32) a x).toNat < S416x128.size a := fun k0_t1 v75 v182 k0_hw87 k0_h5 => k0_hw87 k0_h5

def k0_chk88 (k0_t1 : Fin k0_t1_loop.trips) (v187 : IVec S16 32) (v189 : IVec S16 32) : Prop :=
  (∀ (k0_h5 : k0_cond5 k0_t1 = 1#1), ∀ a x, ((![v187, v189] : Fin 2 → IVec S16 32) a x).toNat < S416x128.size a)
instance k0_chk88.dec : ∀ (k0_t1 : Fin k0_t1_loop.trips) (v187 : IVec S16 32) (v189 : IVec S16 32), Decidable (k0_chk88 k0_t1 v187 v189) := fun k0_t1 v187 v189 => decidable_of_iff' _ (Iff.of_eq (k0_chk88.eq_1 k0_t1 v187 v189))
theorem k0_idx88_inb : ∀ (k0_t1 : Fin k0_t1_loop.trips) (v187 : IVec S16 32) (v189 : IVec S16 32) (k0_hw88 : k0_chk88 k0_t1 v187 v189), ∀ (k0_h5 : k0_cond5 k0_t1 = 1#1), ∀ a x, ((![v187, v189] : Fin 2 → IVec S16 32) a x).toNat < S416x128.size a := fun k0_t1 v187 v189 k0_hw88 k0_h5 => k0_hw88 k0_h5

def k0_chk89 (k0_t1 : Fin k0_t1_loop.trips) (v75 : IVec S16 32) (v191 : IVec S16 32) : Prop :=
  (∀ (k0_h5 : k0_cond5 k0_t1 = 1#1), ∀ a x, ((![v75, v191] : Fin 2 → IVec S16 32) a x).toNat < S416x128.size a)
instance k0_chk89.dec : ∀ (k0_t1 : Fin k0_t1_loop.trips) (v75 : IVec S16 32) (v191 : IVec S16 32), Decidable (k0_chk89 k0_t1 v75 v191) := fun k0_t1 v75 v191 => decidable_of_iff' _ (Iff.of_eq (k0_chk89.eq_1 k0_t1 v75 v191))
theorem k0_idx89_inb : ∀ (k0_t1 : Fin k0_t1_loop.trips) (v75 : IVec S16 32) (v191 : IVec S16 32) (k0_hw89 : k0_chk89 k0_t1 v75 v191), ∀ (k0_h5 : k0_cond5 k0_t1 = 1#1), ∀ a x, ((![v75, v191] : Fin 2 → IVec S16 32) a x).toNat < S416x128.size a := fun k0_t1 v75 v191 k0_hw89 k0_h5 => k0_hw89 k0_h5

def k0_chk90 (k0_t1 : Fin k0_t1_loop.trips) (v196 : IVec S16 32) (v198 : IVec S16 32) : Prop :=
  (∀ (k0_h5 : k0_cond5 k0_t1 = 1#1), ∀ a x, ((![v196, v198] : Fin 2 → IVec S16 32) a x).toNat < S416x128.size a)
instance k0_chk90.dec : ∀ (k0_t1 : Fin k0_t1_loop.trips) (v196 : IVec S16 32) (v198 : IVec S16 32), Decidable (k0_chk90 k0_t1 v196 v198) := fun k0_t1 v196 v198 => decidable_of_iff' _ (Iff.of_eq (k0_chk90.eq_1 k0_t1 v196 v198))
theorem k0_idx90_inb : ∀ (k0_t1 : Fin k0_t1_loop.trips) (v196 : IVec S16 32) (v198 : IVec S16 32) (k0_hw90 : k0_chk90 k0_t1 v196 v198), ∀ (k0_h5 : k0_cond5 k0_t1 = 1#1), ∀ a x, ((![v196, v198] : Fin 2 → IVec S16 32) a x).toNat < S416x128.size a := fun k0_t1 v196 v198 k0_hw90 k0_h5 => k0_hw90 k0_h5

def k0_chk91 (k0_t1 : Fin k0_t1_loop.trips) (v75 : IVec S16 32) (v200 : IVec S16 32) : Prop :=
  (∀ (k0_h5 : k0_cond5 k0_t1 = 1#1), ∀ a x, ((![v75, v200] : Fin 2 → IVec S16 32) a x).toNat < S416x128.size a)
instance k0_chk91.dec : ∀ (k0_t1 : Fin k0_t1_loop.trips) (v75 : IVec S16 32) (v200 : IVec S16 32), Decidable (k0_chk91 k0_t1 v75 v200) := fun k0_t1 v75 v200 => decidable_of_iff' _ (Iff.of_eq (k0_chk91.eq_1 k0_t1 v75 v200))
theorem k0_idx91_inb : ∀ (k0_t1 : Fin k0_t1_loop.trips) (v75 : IVec S16 32) (v200 : IVec S16 32) (k0_hw91 : k0_chk91 k0_t1 v75 v200), ∀ (k0_h5 : k0_cond5 k0_t1 = 1#1), ∀ a x, ((![v75, v200] : Fin 2 → IVec S16 32) a x).toNat < S416x128.size a := fun k0_t1 v75 v200 k0_hw91 k0_h5 => k0_hw91 k0_h5

def k0_chk92 (k0_t1 : Fin k0_t1_loop.trips) (v205 : IVec S16 32) (v207 : IVec S16 32) : Prop :=
  (∀ (k0_h5 : k0_cond5 k0_t1 = 1#1), ∀ a x, ((![v205, v207] : Fin 2 → IVec S16 32) a x).toNat < S416x128.size a)
instance k0_chk92.dec : ∀ (k0_t1 : Fin k0_t1_loop.trips) (v205 : IVec S16 32) (v207 : IVec S16 32), Decidable (k0_chk92 k0_t1 v205 v207) := fun k0_t1 v205 v207 => decidable_of_iff' _ (Iff.of_eq (k0_chk92.eq_1 k0_t1 v205 v207))
theorem k0_idx92_inb : ∀ (k0_t1 : Fin k0_t1_loop.trips) (v205 : IVec S16 32) (v207 : IVec S16 32) (k0_hw92 : k0_chk92 k0_t1 v205 v207), ∀ (k0_h5 : k0_cond5 k0_t1 = 1#1), ∀ a x, ((![v205, v207] : Fin 2 → IVec S16 32) a x).toNat < S416x128.size a := fun k0_t1 v205 v207 k0_hw92 k0_h5 => k0_hw92 k0_h5

def k0_chk93 (k0_t1 : Fin k0_t1_loop.trips) (v75 : IVec S16 32) (v209 : IVec S16 32) : Prop :=
  (∀ (k0_h5 : k0_cond5 k0_t1 = 1#1), ∀ a x, ((![v75, v209] : Fin 2 → IVec S16 32) a x).toNat < S416x128.size a)
instance k0_chk93.dec : ∀ (k0_t1 : Fin k0_t1_loop.trips) (v75 : IVec S16 32) (v209 : IVec S16 32), Decidable (k0_chk93 k0_t1 v75 v209) := fun k0_t1 v75 v209 => decidable_of_iff' _ (Iff.of_eq (k0_chk93.eq_1 k0_t1 v75 v209))
theorem k0_idx93_inb : ∀ (k0_t1 : Fin k0_t1_loop.trips) (v75 : IVec S16 32) (v209 : IVec S16 32) (k0_hw93 : k0_chk93 k0_t1 v75 v209), ∀ (k0_h5 : k0_cond5 k0_t1 = 1#1), ∀ a x, ((![v75, v209] : Fin 2 → IVec S16 32) a x).toNat < S416x128.size a := fun k0_t1 v75 v209 k0_hw93 k0_h5 => k0_hw93 k0_h5

def k0_chk94 (k0_t1 : Fin k0_t1_loop.trips) (v214 : IVec S16 32) (v216 : IVec S16 32) : Prop :=
  (∀ (k0_h5 : k0_cond5 k0_t1 = 1#1), ∀ a x, ((![v214, v216] : Fin 2 → IVec S16 32) a x).toNat < S416x128.size a)
instance k0_chk94.dec : ∀ (k0_t1 : Fin k0_t1_loop.trips) (v214 : IVec S16 32) (v216 : IVec S16 32), Decidable (k0_chk94 k0_t1 v214 v216) := fun k0_t1 v214 v216 => decidable_of_iff' _ (Iff.of_eq (k0_chk94.eq_1 k0_t1 v214 v216))
theorem k0_idx94_inb : ∀ (k0_t1 : Fin k0_t1_loop.trips) (v214 : IVec S16 32) (v216 : IVec S16 32) (k0_hw94 : k0_chk94 k0_t1 v214 v216), ∀ (k0_h5 : k0_cond5 k0_t1 = 1#1), ∀ a x, ((![v214, v216] : Fin 2 → IVec S16 32) a x).toNat < S416x128.size a := fun k0_t1 v214 v216 k0_hw94 k0_h5 => k0_hw94 k0_h5

def k0_chk95 (k0_t1 : Fin k0_t1_loop.trips) (v75 : IVec S16 32) (v218 : IVec S16 32) : Prop :=
  (∀ (k0_h5 : k0_cond5 k0_t1 = 1#1), ∀ a x, ((![v75, v218] : Fin 2 → IVec S16 32) a x).toNat < S416x128.size a)
instance k0_chk95.dec : ∀ (k0_t1 : Fin k0_t1_loop.trips) (v75 : IVec S16 32) (v218 : IVec S16 32), Decidable (k0_chk95 k0_t1 v75 v218) := fun k0_t1 v75 v218 => decidable_of_iff' _ (Iff.of_eq (k0_chk95.eq_1 k0_t1 v75 v218))
theorem k0_idx95_inb : ∀ (k0_t1 : Fin k0_t1_loop.trips) (v75 : IVec S16 32) (v218 : IVec S16 32) (k0_hw95 : k0_chk95 k0_t1 v75 v218), ∀ (k0_h5 : k0_cond5 k0_t1 = 1#1), ∀ a x, ((![v75, v218] : Fin 2 → IVec S16 32) a x).toNat < S416x128.size a := fun k0_t1 v75 v218 k0_hw95 k0_h5 => k0_hw95 k0_h5

def k0_chk96 (k0_t1 : Fin k0_t1_loop.trips) (v223 : IVec S16 32) (v225 : IVec S16 32) : Prop :=
  (∀ (k0_h5 : k0_cond5 k0_t1 = 1#1), ∀ a x, ((![v223, v225] : Fin 2 → IVec S16 32) a x).toNat < S416x128.size a)
instance k0_chk96.dec : ∀ (k0_t1 : Fin k0_t1_loop.trips) (v223 : IVec S16 32) (v225 : IVec S16 32), Decidable (k0_chk96 k0_t1 v223 v225) := fun k0_t1 v223 v225 => decidable_of_iff' _ (Iff.of_eq (k0_chk96.eq_1 k0_t1 v223 v225))
theorem k0_idx96_inb : ∀ (k0_t1 : Fin k0_t1_loop.trips) (v223 : IVec S16 32) (v225 : IVec S16 32) (k0_hw96 : k0_chk96 k0_t1 v223 v225), ∀ (k0_h5 : k0_cond5 k0_t1 = 1#1), ∀ a x, ((![v223, v225] : Fin 2 → IVec S16 32) a x).toNat < S416x128.size a := fun k0_t1 v223 v225 k0_hw96 k0_h5 => k0_hw96 k0_h5

def k0_chk97 (k0_t1 : Fin k0_t1_loop.trips) (v75 : IVec S16 32) (v227 : IVec S16 32) : Prop :=
  (∀ (k0_h5 : k0_cond5 k0_t1 = 1#1), ∀ a x, ((![v75, v227] : Fin 2 → IVec S16 32) a x).toNat < S416x128.size a)
instance k0_chk97.dec : ∀ (k0_t1 : Fin k0_t1_loop.trips) (v75 : IVec S16 32) (v227 : IVec S16 32), Decidable (k0_chk97 k0_t1 v75 v227) := fun k0_t1 v75 v227 => decidable_of_iff' _ (Iff.of_eq (k0_chk97.eq_1 k0_t1 v75 v227))
theorem k0_idx97_inb : ∀ (k0_t1 : Fin k0_t1_loop.trips) (v75 : IVec S16 32) (v227 : IVec S16 32) (k0_hw97 : k0_chk97 k0_t1 v75 v227), ∀ (k0_h5 : k0_cond5 k0_t1 = 1#1), ∀ a x, ((![v75, v227] : Fin 2 → IVec S16 32) a x).toNat < S416x128.size a := fun k0_t1 v75 v227 k0_hw97 k0_h5 => k0_hw97 k0_h5

def k0_chk98 (k0_t1 : Fin k0_t1_loop.trips) (v232 : IVec S16 32) (v234 : IVec S16 32) : Prop :=
  (∀ (k0_h5 : k0_cond5 k0_t1 = 1#1), ∀ a x, ((![v232, v234] : Fin 2 → IVec S16 32) a x).toNat < S416x128.size a)
instance k0_chk98.dec : ∀ (k0_t1 : Fin k0_t1_loop.trips) (v232 : IVec S16 32) (v234 : IVec S16 32), Decidable (k0_chk98 k0_t1 v232 v234) := fun k0_t1 v232 v234 => decidable_of_iff' _ (Iff.of_eq (k0_chk98.eq_1 k0_t1 v232 v234))
theorem k0_idx98_inb : ∀ (k0_t1 : Fin k0_t1_loop.trips) (v232 : IVec S16 32) (v234 : IVec S16 32) (k0_hw98 : k0_chk98 k0_t1 v232 v234), ∀ (k0_h5 : k0_cond5 k0_t1 = 1#1), ∀ a x, ((![v232, v234] : Fin 2 → IVec S16 32) a x).toNat < S416x128.size a := fun k0_t1 v232 v234 k0_hw98 k0_h5 => k0_hw98 k0_h5

def k0_chk99 (k0_t1 : Fin k0_t1_loop.trips) (v75 : IVec S16 32) (v236 : IVec S16 32) : Prop :=
  (∀ (k0_h5 : k0_cond5 k0_t1 = 1#1), ∀ a x, ((![v75, v236] : Fin 2 → IVec S16 32) a x).toNat < S416x128.size a)
instance k0_chk99.dec : ∀ (k0_t1 : Fin k0_t1_loop.trips) (v75 : IVec S16 32) (v236 : IVec S16 32), Decidable (k0_chk99 k0_t1 v75 v236) := fun k0_t1 v75 v236 => decidable_of_iff' _ (Iff.of_eq (k0_chk99.eq_1 k0_t1 v75 v236))
theorem k0_idx99_inb : ∀ (k0_t1 : Fin k0_t1_loop.trips) (v75 : IVec S16 32) (v236 : IVec S16 32) (k0_hw99 : k0_chk99 k0_t1 v75 v236), ∀ (k0_h5 : k0_cond5 k0_t1 = 1#1), ∀ a x, ((![v75, v236] : Fin 2 → IVec S16 32) a x).toNat < S416x128.size a := fun k0_t1 v75 v236 k0_hw99 k0_h5 => k0_hw99 k0_h5

def k0_chk100 (k0_t1 : Fin k0_t1_loop.trips) (v241 : IVec S16 32) (v243 : IVec S16 32) : Prop :=
  (∀ (k0_h5 : k0_cond5 k0_t1 = 1#1), ∀ a x, ((![v241, v243] : Fin 2 → IVec S16 32) a x).toNat < S416x128.size a)
instance k0_chk100.dec : ∀ (k0_t1 : Fin k0_t1_loop.trips) (v241 : IVec S16 32) (v243 : IVec S16 32), Decidable (k0_chk100 k0_t1 v241 v243) := fun k0_t1 v241 v243 => decidable_of_iff' _ (Iff.of_eq (k0_chk100.eq_1 k0_t1 v241 v243))
theorem k0_idx100_inb : ∀ (k0_t1 : Fin k0_t1_loop.trips) (v241 : IVec S16 32) (v243 : IVec S16 32) (k0_hw100 : k0_chk100 k0_t1 v241 v243), ∀ (k0_h5 : k0_cond5 k0_t1 = 1#1), ∀ a x, ((![v241, v243] : Fin 2 → IVec S16 32) a x).toNat < S416x128.size a := fun k0_t1 v241 v243 k0_hw100 k0_h5 => k0_hw100 k0_h5

def k0_chk101 (k0_t1 : Fin k0_t1_loop.trips) (v75 : IVec S16 32) (v245 : IVec S16 32) : Prop :=
  (∀ (k0_h5 : k0_cond5 k0_t1 = 1#1), ∀ a x, ((![v75, v245] : Fin 2 → IVec S16 32) a x).toNat < S416x128.size a)
instance k0_chk101.dec : ∀ (k0_t1 : Fin k0_t1_loop.trips) (v75 : IVec S16 32) (v245 : IVec S16 32), Decidable (k0_chk101 k0_t1 v75 v245) := fun k0_t1 v75 v245 => decidable_of_iff' _ (Iff.of_eq (k0_chk101.eq_1 k0_t1 v75 v245))
theorem k0_idx101_inb : ∀ (k0_t1 : Fin k0_t1_loop.trips) (v75 : IVec S16 32) (v245 : IVec S16 32) (k0_hw101 : k0_chk101 k0_t1 v75 v245), ∀ (k0_h5 : k0_cond5 k0_t1 = 1#1), ∀ a x, ((![v75, v245] : Fin 2 → IVec S16 32) a x).toNat < S416x128.size a := fun k0_t1 v75 v245 k0_hw101 k0_h5 => k0_hw101 k0_h5

def k0_chk102 (k0_t1 : Fin k0_t1_loop.trips) (v250 : IVec S16 32) (v252 : IVec S16 32) : Prop :=
  (∀ (k0_h5 : k0_cond5 k0_t1 = 1#1), ∀ a x, ((![v250, v252] : Fin 2 → IVec S16 32) a x).toNat < S416x128.size a)
instance k0_chk102.dec : ∀ (k0_t1 : Fin k0_t1_loop.trips) (v250 : IVec S16 32) (v252 : IVec S16 32), Decidable (k0_chk102 k0_t1 v250 v252) := fun k0_t1 v250 v252 => decidable_of_iff' _ (Iff.of_eq (k0_chk102.eq_1 k0_t1 v250 v252))
theorem k0_idx102_inb : ∀ (k0_t1 : Fin k0_t1_loop.trips) (v250 : IVec S16 32) (v252 : IVec S16 32) (k0_hw102 : k0_chk102 k0_t1 v250 v252), ∀ (k0_h5 : k0_cond5 k0_t1 = 1#1), ∀ a x, ((![v250, v252] : Fin 2 → IVec S16 32) a x).toNat < S416x128.size a := fun k0_t1 v250 v252 k0_hw102 k0_h5 => k0_hw102 k0_h5

def k0_chk103 (k0_t1 : Fin k0_t1_loop.trips) (v75 : IVec S16 32) (v254 : IVec S16 32) : Prop :=
  (∀ (k0_h5 : k0_cond5 k0_t1 = 1#1), ∀ a x, ((![v75, v254] : Fin 2 → IVec S16 32) a x).toNat < S416x128.size a)
instance k0_chk103.dec : ∀ (k0_t1 : Fin k0_t1_loop.trips) (v75 : IVec S16 32) (v254 : IVec S16 32), Decidable (k0_chk103 k0_t1 v75 v254) := fun k0_t1 v75 v254 => decidable_of_iff' _ (Iff.of_eq (k0_chk103.eq_1 k0_t1 v75 v254))
theorem k0_idx103_inb : ∀ (k0_t1 : Fin k0_t1_loop.trips) (v75 : IVec S16 32) (v254 : IVec S16 32) (k0_hw103 : k0_chk103 k0_t1 v75 v254), ∀ (k0_h5 : k0_cond5 k0_t1 = 1#1), ∀ a x, ((![v75, v254] : Fin 2 → IVec S16 32) a x).toNat < S416x128.size a := fun k0_t1 v75 v254 k0_hw103 k0_h5 => k0_hw103 k0_h5

def k0_chk104 (k0_t1 : Fin k0_t1_loop.trips) (v259 : IVec S16 32) (v261 : IVec S16 32) : Prop :=
  (∀ (k0_h5 : k0_cond5 k0_t1 = 1#1), ∀ a x, ((![v259, v261] : Fin 2 → IVec S16 32) a x).toNat < S416x128.size a)
instance k0_chk104.dec : ∀ (k0_t1 : Fin k0_t1_loop.trips) (v259 : IVec S16 32) (v261 : IVec S16 32), Decidable (k0_chk104 k0_t1 v259 v261) := fun k0_t1 v259 v261 => decidable_of_iff' _ (Iff.of_eq (k0_chk104.eq_1 k0_t1 v259 v261))
theorem k0_idx104_inb : ∀ (k0_t1 : Fin k0_t1_loop.trips) (v259 : IVec S16 32) (v261 : IVec S16 32) (k0_hw104 : k0_chk104 k0_t1 v259 v261), ∀ (k0_h5 : k0_cond5 k0_t1 = 1#1), ∀ a x, ((![v259, v261] : Fin 2 → IVec S16 32) a x).toNat < S416x128.size a := fun k0_t1 v259 v261 k0_hw104 k0_h5 => k0_hw104 k0_h5

def k0_chk105 (k0_t1 : Fin k0_t1_loop.trips) (v75 : IVec S16 32) (v263 : IVec S16 32) : Prop :=
  (∀ (k0_h5 : k0_cond5 k0_t1 = 1#1), ∀ a x, ((![v75, v263] : Fin 2 → IVec S16 32) a x).toNat < S416x128.size a)
instance k0_chk105.dec : ∀ (k0_t1 : Fin k0_t1_loop.trips) (v75 : IVec S16 32) (v263 : IVec S16 32), Decidable (k0_chk105 k0_t1 v75 v263) := fun k0_t1 v75 v263 => decidable_of_iff' _ (Iff.of_eq (k0_chk105.eq_1 k0_t1 v75 v263))
theorem k0_idx105_inb : ∀ (k0_t1 : Fin k0_t1_loop.trips) (v75 : IVec S16 32) (v263 : IVec S16 32) (k0_hw105 : k0_chk105 k0_t1 v75 v263), ∀ (k0_h5 : k0_cond5 k0_t1 = 1#1), ∀ a x, ((![v75, v263] : Fin 2 → IVec S16 32) a x).toNat < S416x128.size a := fun k0_t1 v75 v263 k0_hw105 k0_h5 => k0_hw105 k0_h5

def k0_chk106 (k0_t1 : Fin k0_t1_loop.trips) (v268 : IVec S16 32) (v270 : IVec S16 32) : Prop :=
  (∀ (k0_h5 : k0_cond5 k0_t1 = 1#1), ∀ a x, ((![v268, v270] : Fin 2 → IVec S16 32) a x).toNat < S416x128.size a)
instance k0_chk106.dec : ∀ (k0_t1 : Fin k0_t1_loop.trips) (v268 : IVec S16 32) (v270 : IVec S16 32), Decidable (k0_chk106 k0_t1 v268 v270) := fun k0_t1 v268 v270 => decidable_of_iff' _ (Iff.of_eq (k0_chk106.eq_1 k0_t1 v268 v270))
theorem k0_idx106_inb : ∀ (k0_t1 : Fin k0_t1_loop.trips) (v268 : IVec S16 32) (v270 : IVec S16 32) (k0_hw106 : k0_chk106 k0_t1 v268 v270), ∀ (k0_h5 : k0_cond5 k0_t1 = 1#1), ∀ a x, ((![v268, v270] : Fin 2 → IVec S16 32) a x).toNat < S416x128.size a := fun k0_t1 v268 v270 k0_hw106 k0_h5 => k0_hw106 k0_h5

def k0_chk107 (k0_t1 : Fin k0_t1_loop.trips) (v75 : IVec S16 32) (v272 : IVec S16 32) : Prop :=
  (∀ (k0_h5 : k0_cond5 k0_t1 = 1#1), ∀ a x, ((![v75, v272] : Fin 2 → IVec S16 32) a x).toNat < S416x128.size a)
instance k0_chk107.dec : ∀ (k0_t1 : Fin k0_t1_loop.trips) (v75 : IVec S16 32) (v272 : IVec S16 32), Decidable (k0_chk107 k0_t1 v75 v272) := fun k0_t1 v75 v272 => decidable_of_iff' _ (Iff.of_eq (k0_chk107.eq_1 k0_t1 v75 v272))
theorem k0_idx107_inb : ∀ (k0_t1 : Fin k0_t1_loop.trips) (v75 : IVec S16 32) (v272 : IVec S16 32) (k0_hw107 : k0_chk107 k0_t1 v75 v272), ∀ (k0_h5 : k0_cond5 k0_t1 = 1#1), ∀ a x, ((![v75, v272] : Fin 2 → IVec S16 32) a x).toNat < S416x128.size a := fun k0_t1 v75 v272 k0_hw107 k0_h5 => k0_hw107 k0_h5

def k0_chk108 (k0_t1 : Fin k0_t1_loop.trips) (v277 : IVec S16 32) (v279 : IVec S16 32) : Prop :=
  (∀ (k0_h5 : k0_cond5 k0_t1 = 1#1), ∀ a x, ((![v277, v279] : Fin 2 → IVec S16 32) a x).toNat < S416x128.size a)
instance k0_chk108.dec : ∀ (k0_t1 : Fin k0_t1_loop.trips) (v277 : IVec S16 32) (v279 : IVec S16 32), Decidable (k0_chk108 k0_t1 v277 v279) := fun k0_t1 v277 v279 => decidable_of_iff' _ (Iff.of_eq (k0_chk108.eq_1 k0_t1 v277 v279))
theorem k0_idx108_inb : ∀ (k0_t1 : Fin k0_t1_loop.trips) (v277 : IVec S16 32) (v279 : IVec S16 32) (k0_hw108 : k0_chk108 k0_t1 v277 v279), ∀ (k0_h5 : k0_cond5 k0_t1 = 1#1), ∀ a x, ((![v277, v279] : Fin 2 → IVec S16 32) a x).toNat < S416x128.size a := fun k0_t1 v277 v279 k0_hw108 k0_h5 => k0_hw108 k0_h5

def k0_chk109 (k0_t1 : Fin k0_t1_loop.trips) (v75 : IVec S16 32) (v281 : IVec S16 32) : Prop :=
  (∀ (k0_h5 : k0_cond5 k0_t1 = 1#1), ∀ a x, ((![v75, v281] : Fin 2 → IVec S16 32) a x).toNat < S416x128.size a)
instance k0_chk109.dec : ∀ (k0_t1 : Fin k0_t1_loop.trips) (v75 : IVec S16 32) (v281 : IVec S16 32), Decidable (k0_chk109 k0_t1 v75 v281) := fun k0_t1 v75 v281 => decidable_of_iff' _ (Iff.of_eq (k0_chk109.eq_1 k0_t1 v75 v281))
theorem k0_idx109_inb : ∀ (k0_t1 : Fin k0_t1_loop.trips) (v75 : IVec S16 32) (v281 : IVec S16 32) (k0_hw109 : k0_chk109 k0_t1 v75 v281), ∀ (k0_h5 : k0_cond5 k0_t1 = 1#1), ∀ a x, ((![v75, v281] : Fin 2 → IVec S16 32) a x).toNat < S416x128.size a := fun k0_t1 v75 v281 k0_hw109 k0_h5 => k0_hw109 k0_h5

def k0_chk110 (k0_t1 : Fin k0_t1_loop.trips) (v286 : IVec S16 32) (v288 : IVec S16 32) : Prop :=
  (∀ (k0_h5 : k0_cond5 k0_t1 = 1#1), ∀ a x, ((![v286, v288] : Fin 2 → IVec S16 32) a x).toNat < S416x128.size a)
instance k0_chk110.dec : ∀ (k0_t1 : Fin k0_t1_loop.trips) (v286 : IVec S16 32) (v288 : IVec S16 32), Decidable (k0_chk110 k0_t1 v286 v288) := fun k0_t1 v286 v288 => decidable_of_iff' _ (Iff.of_eq (k0_chk110.eq_1 k0_t1 v286 v288))
theorem k0_idx110_inb : ∀ (k0_t1 : Fin k0_t1_loop.trips) (v286 : IVec S16 32) (v288 : IVec S16 32) (k0_hw110 : k0_chk110 k0_t1 v286 v288), ∀ (k0_h5 : k0_cond5 k0_t1 = 1#1), ∀ a x, ((![v286, v288] : Fin 2 → IVec S16 32) a x).toNat < S416x128.size a := fun k0_t1 v286 v288 k0_hw110 k0_h5 => k0_hw110 k0_h5

def k0_chk111 (k0_t1 : Fin k0_t1_loop.trips) (v75 : IVec S16 32) (v290 : IVec S16 32) : Prop :=
  (∀ (k0_h5 : k0_cond5 k0_t1 = 1#1), ∀ a x, ((![v75, v290] : Fin 2 → IVec S16 32) a x).toNat < S416x128.size a)
instance k0_chk111.dec : ∀ (k0_t1 : Fin k0_t1_loop.trips) (v75 : IVec S16 32) (v290 : IVec S16 32), Decidable (k0_chk111 k0_t1 v75 v290) := fun k0_t1 v75 v290 => decidable_of_iff' _ (Iff.of_eq (k0_chk111.eq_1 k0_t1 v75 v290))
theorem k0_idx111_inb : ∀ (k0_t1 : Fin k0_t1_loop.trips) (v75 : IVec S16 32) (v290 : IVec S16 32) (k0_hw111 : k0_chk111 k0_t1 v75 v290), ∀ (k0_h5 : k0_cond5 k0_t1 = 1#1), ∀ a x, ((![v75, v290] : Fin 2 → IVec S16 32) a x).toNat < S416x128.size a := fun k0_t1 v75 v290 k0_hw111 k0_h5 => k0_hw111 k0_h5

def k0_chk112 (k0_t1 : Fin k0_t1_loop.trips) (v295 : IVec S16 32) (v297 : IVec S16 32) : Prop :=
  (∀ (k0_h5 : k0_cond5 k0_t1 = 1#1), ∀ a x, ((![v295, v297] : Fin 2 → IVec S16 32) a x).toNat < S416x128.size a)
instance k0_chk112.dec : ∀ (k0_t1 : Fin k0_t1_loop.trips) (v295 : IVec S16 32) (v297 : IVec S16 32), Decidable (k0_chk112 k0_t1 v295 v297) := fun k0_t1 v295 v297 => decidable_of_iff' _ (Iff.of_eq (k0_chk112.eq_1 k0_t1 v295 v297))
theorem k0_idx112_inb : ∀ (k0_t1 : Fin k0_t1_loop.trips) (v295 : IVec S16 32) (v297 : IVec S16 32) (k0_hw112 : k0_chk112 k0_t1 v295 v297), ∀ (k0_h5 : k0_cond5 k0_t1 = 1#1), ∀ a x, ((![v295, v297] : Fin 2 → IVec S16 32) a x).toNat < S416x128.size a := fun k0_t1 v295 v297 k0_hw112 k0_h5 => k0_hw112 k0_h5

def k0_chk113 (k0_t1 : Fin k0_t1_loop.trips) (v75 : IVec S16 32) (v299 : IVec S16 32) : Prop :=
  (∀ (k0_h5 : k0_cond5 k0_t1 = 1#1), ∀ a x, ((![v75, v299] : Fin 2 → IVec S16 32) a x).toNat < S416x128.size a)
instance k0_chk113.dec : ∀ (k0_t1 : Fin k0_t1_loop.trips) (v75 : IVec S16 32) (v299 : IVec S16 32), Decidable (k0_chk113 k0_t1 v75 v299) := fun k0_t1 v75 v299 => decidable_of_iff' _ (Iff.of_eq (k0_chk113.eq_1 k0_t1 v75 v299))
theorem k0_idx113_inb : ∀ (k0_t1 : Fin k0_t1_loop.trips) (v75 : IVec S16 32) (v299 : IVec S16 32) (k0_hw113 : k0_chk113 k0_t1 v75 v299), ∀ (k0_h5 : k0_cond5 k0_t1 = 1#1), ∀ a x, ((![v75, v299] : Fin 2 → IVec S16 32) a x).toNat < S416x128.size a := fun k0_t1 v75 v299 k0_hw113 k0_h5 => k0_hw113 k0_h5

def k0_chk114 (k0_t1 : Fin k0_t1_loop.trips) (v304 : IVec S16 32) (v306 : IVec S16 32) : Prop :=
  (∀ (k0_h5 : k0_cond5 k0_t1 = 1#1), ∀ a x, ((![v304, v306] : Fin 2 → IVec S16 32) a x).toNat < S416x128.size a)
instance k0_chk114.dec : ∀ (k0_t1 : Fin k0_t1_loop.trips) (v304 : IVec S16 32) (v306 : IVec S16 32), Decidable (k0_chk114 k0_t1 v304 v306) := fun k0_t1 v304 v306 => decidable_of_iff' _ (Iff.of_eq (k0_chk114.eq_1 k0_t1 v304 v306))
theorem k0_idx114_inb : ∀ (k0_t1 : Fin k0_t1_loop.trips) (v304 : IVec S16 32) (v306 : IVec S16 32) (k0_hw114 : k0_chk114 k0_t1 v304 v306), ∀ (k0_h5 : k0_cond5 k0_t1 = 1#1), ∀ a x, ((![v304, v306] : Fin 2 → IVec S16 32) a x).toNat < S416x128.size a := fun k0_t1 v304 v306 k0_hw114 k0_h5 => k0_hw114 k0_h5

def k0_chk115 (k0_t1 : Fin k0_t1_loop.trips) (v75 : IVec S16 32) (v308 : IVec S16 32) : Prop :=
  (∀ (k0_h5 : k0_cond5 k0_t1 = 1#1), ∀ a x, ((![v75, v308] : Fin 2 → IVec S16 32) a x).toNat < S416x128.size a)
instance k0_chk115.dec : ∀ (k0_t1 : Fin k0_t1_loop.trips) (v75 : IVec S16 32) (v308 : IVec S16 32), Decidable (k0_chk115 k0_t1 v75 v308) := fun k0_t1 v75 v308 => decidable_of_iff' _ (Iff.of_eq (k0_chk115.eq_1 k0_t1 v75 v308))
theorem k0_idx115_inb : ∀ (k0_t1 : Fin k0_t1_loop.trips) (v75 : IVec S16 32) (v308 : IVec S16 32) (k0_hw115 : k0_chk115 k0_t1 v75 v308), ∀ (k0_h5 : k0_cond5 k0_t1 = 1#1), ∀ a x, ((![v75, v308] : Fin 2 → IVec S16 32) a x).toNat < S416x128.size a := fun k0_t1 v75 v308 k0_hw115 k0_h5 => k0_hw115 k0_h5

def k0_chk116 (k0_t1 : Fin k0_t1_loop.trips) (v313 : IVec S16 32) (v315 : IVec S16 32) : Prop :=
  (∀ (k0_h5 : k0_cond5 k0_t1 = 1#1), ∀ a x, ((![v313, v315] : Fin 2 → IVec S16 32) a x).toNat < S416x128.size a)
instance k0_chk116.dec : ∀ (k0_t1 : Fin k0_t1_loop.trips) (v313 : IVec S16 32) (v315 : IVec S16 32), Decidable (k0_chk116 k0_t1 v313 v315) := fun k0_t1 v313 v315 => decidable_of_iff' _ (Iff.of_eq (k0_chk116.eq_1 k0_t1 v313 v315))
theorem k0_idx116_inb : ∀ (k0_t1 : Fin k0_t1_loop.trips) (v313 : IVec S16 32) (v315 : IVec S16 32) (k0_hw116 : k0_chk116 k0_t1 v313 v315), ∀ (k0_h5 : k0_cond5 k0_t1 = 1#1), ∀ a x, ((![v313, v315] : Fin 2 → IVec S16 32) a x).toNat < S416x128.size a := fun k0_t1 v313 v315 k0_hw116 k0_h5 => k0_hw116 k0_h5

def k0_chk117 (k0_t1 : Fin k0_t1_loop.trips) (v75 : IVec S16 32) (v317 : IVec S16 32) : Prop :=
  (∀ (k0_h5 : k0_cond5 k0_t1 = 1#1), ∀ a x, ((![v75, v317] : Fin 2 → IVec S16 32) a x).toNat < S416x128.size a)
instance k0_chk117.dec : ∀ (k0_t1 : Fin k0_t1_loop.trips) (v75 : IVec S16 32) (v317 : IVec S16 32), Decidable (k0_chk117 k0_t1 v75 v317) := fun k0_t1 v75 v317 => decidable_of_iff' _ (Iff.of_eq (k0_chk117.eq_1 k0_t1 v75 v317))
theorem k0_idx117_inb : ∀ (k0_t1 : Fin k0_t1_loop.trips) (v75 : IVec S16 32) (v317 : IVec S16 32) (k0_hw117 : k0_chk117 k0_t1 v75 v317), ∀ (k0_h5 : k0_cond5 k0_t1 = 1#1), ∀ a x, ((![v75, v317] : Fin 2 → IVec S16 32) a x).toNat < S416x128.size a := fun k0_t1 v75 v317 k0_hw117 k0_h5 => k0_hw117 k0_h5

def k0_chk118 (k0_t1 : Fin k0_t1_loop.trips) (v322 : IVec S16 32) (v324 : IVec S16 32) : Prop :=
  (∀ (k0_h5 : k0_cond5 k0_t1 = 1#1), ∀ a x, ((![v322, v324] : Fin 2 → IVec S16 32) a x).toNat < S416x128.size a)
instance k0_chk118.dec : ∀ (k0_t1 : Fin k0_t1_loop.trips) (v322 : IVec S16 32) (v324 : IVec S16 32), Decidable (k0_chk118 k0_t1 v322 v324) := fun k0_t1 v322 v324 => decidable_of_iff' _ (Iff.of_eq (k0_chk118.eq_1 k0_t1 v322 v324))
theorem k0_idx118_inb : ∀ (k0_t1 : Fin k0_t1_loop.trips) (v322 : IVec S16 32) (v324 : IVec S16 32) (k0_hw118 : k0_chk118 k0_t1 v322 v324), ∀ (k0_h5 : k0_cond5 k0_t1 = 1#1), ∀ a x, ((![v322, v324] : Fin 2 → IVec S16 32) a x).toNat < S416x128.size a := fun k0_t1 v322 v324 k0_hw118 k0_h5 => k0_hw118 k0_h5

def k0_chk119 (k0_t1 : Fin k0_t1_loop.trips) (v75 : IVec S16 32) (v326 : IVec S16 32) : Prop :=
  (∀ (k0_h5 : k0_cond5 k0_t1 = 1#1), ∀ a x, ((![v75, v326] : Fin 2 → IVec S16 32) a x).toNat < S416x128.size a)
instance k0_chk119.dec : ∀ (k0_t1 : Fin k0_t1_loop.trips) (v75 : IVec S16 32) (v326 : IVec S16 32), Decidable (k0_chk119 k0_t1 v75 v326) := fun k0_t1 v75 v326 => decidable_of_iff' _ (Iff.of_eq (k0_chk119.eq_1 k0_t1 v75 v326))
theorem k0_idx119_inb : ∀ (k0_t1 : Fin k0_t1_loop.trips) (v75 : IVec S16 32) (v326 : IVec S16 32) (k0_hw119 : k0_chk119 k0_t1 v75 v326), ∀ (k0_h5 : k0_cond5 k0_t1 = 1#1), ∀ a x, ((![v75, v326] : Fin 2 → IVec S16 32) a x).toNat < S416x128.size a := fun k0_t1 v75 v326 k0_hw119 k0_h5 => k0_hw119 k0_h5

def k0_chk120 (k0_t1 : Fin k0_t1_loop.trips) (v331 : IVec S16 32) (v333 : IVec S16 32) : Prop :=
  (∀ (k0_h5 : k0_cond5 k0_t1 = 1#1), ∀ a x, ((![v331, v333] : Fin 2 → IVec S16 32) a x).toNat < S416x128.size a)
instance k0_chk120.dec : ∀ (k0_t1 : Fin k0_t1_loop.trips) (v331 : IVec S16 32) (v333 : IVec S16 32), Decidable (k0_chk120 k0_t1 v331 v333) := fun k0_t1 v331 v333 => decidable_of_iff' _ (Iff.of_eq (k0_chk120.eq_1 k0_t1 v331 v333))
theorem k0_idx120_inb : ∀ (k0_t1 : Fin k0_t1_loop.trips) (v331 : IVec S16 32) (v333 : IVec S16 32) (k0_hw120 : k0_chk120 k0_t1 v331 v333), ∀ (k0_h5 : k0_cond5 k0_t1 = 1#1), ∀ a x, ((![v331, v333] : Fin 2 → IVec S16 32) a x).toNat < S416x128.size a := fun k0_t1 v331 v333 k0_hw120 k0_h5 => k0_hw120 k0_h5

def k0_chk121 (k0_t1 : Fin k0_t1_loop.trips) (v75 : IVec S16 32) (v335 : IVec S16 32) : Prop :=
  (∀ (k0_h5 : k0_cond5 k0_t1 = 1#1), ∀ a x, ((![v75, v335] : Fin 2 → IVec S16 32) a x).toNat < S416x128.size a)
instance k0_chk121.dec : ∀ (k0_t1 : Fin k0_t1_loop.trips) (v75 : IVec S16 32) (v335 : IVec S16 32), Decidable (k0_chk121 k0_t1 v75 v335) := fun k0_t1 v75 v335 => decidable_of_iff' _ (Iff.of_eq (k0_chk121.eq_1 k0_t1 v75 v335))
theorem k0_idx121_inb : ∀ (k0_t1 : Fin k0_t1_loop.trips) (v75 : IVec S16 32) (v335 : IVec S16 32) (k0_hw121 : k0_chk121 k0_t1 v75 v335), ∀ (k0_h5 : k0_cond5 k0_t1 = 1#1), ∀ a x, ((![v75, v335] : Fin 2 → IVec S16 32) a x).toNat < S416x128.size a := fun k0_t1 v75 v335 k0_hw121 k0_h5 => k0_hw121 k0_h5

def k0_chk122 (k0_t1 : Fin k0_t1_loop.trips) (v340 : IVec S16 32) (v342 : IVec S16 32) : Prop :=
  (∀ (k0_h5 : k0_cond5 k0_t1 = 1#1), ∀ a x, ((![v340, v342] : Fin 2 → IVec S16 32) a x).toNat < S416x128.size a)
instance k0_chk122.dec : ∀ (k0_t1 : Fin k0_t1_loop.trips) (v340 : IVec S16 32) (v342 : IVec S16 32), Decidable (k0_chk122 k0_t1 v340 v342) := fun k0_t1 v340 v342 => decidable_of_iff' _ (Iff.of_eq (k0_chk122.eq_1 k0_t1 v340 v342))
theorem k0_idx122_inb : ∀ (k0_t1 : Fin k0_t1_loop.trips) (v340 : IVec S16 32) (v342 : IVec S16 32) (k0_hw122 : k0_chk122 k0_t1 v340 v342), ∀ (k0_h5 : k0_cond5 k0_t1 = 1#1), ∀ a x, ((![v340, v342] : Fin 2 → IVec S16 32) a x).toNat < S416x128.size a := fun k0_t1 v340 v342 k0_hw122 k0_h5 => k0_hw122 k0_h5

def k0_chk123 (k0_t1 : Fin k0_t1_loop.trips) (v75 : IVec S16 32) (v344 : IVec S16 32) : Prop :=
  (∀ (k0_h5 : k0_cond5 k0_t1 = 1#1), ∀ a x, ((![v75, v344] : Fin 2 → IVec S16 32) a x).toNat < S416x128.size a)
instance k0_chk123.dec : ∀ (k0_t1 : Fin k0_t1_loop.trips) (v75 : IVec S16 32) (v344 : IVec S16 32), Decidable (k0_chk123 k0_t1 v75 v344) := fun k0_t1 v75 v344 => decidable_of_iff' _ (Iff.of_eq (k0_chk123.eq_1 k0_t1 v75 v344))
theorem k0_idx123_inb : ∀ (k0_t1 : Fin k0_t1_loop.trips) (v75 : IVec S16 32) (v344 : IVec S16 32) (k0_hw123 : k0_chk123 k0_t1 v75 v344), ∀ (k0_h5 : k0_cond5 k0_t1 = 1#1), ∀ a x, ((![v75, v344] : Fin 2 → IVec S16 32) a x).toNat < S416x128.size a := fun k0_t1 v75 v344 k0_hw123 k0_h5 => k0_hw123 k0_h5

def k0_chk124 (k0_t1 : Fin k0_t1_loop.trips) (v349 : IVec S16 32) (v351 : IVec S16 32) : Prop :=
  (∀ (k0_h5 : k0_cond5 k0_t1 = 1#1), ∀ a x, ((![v349, v351] : Fin 2 → IVec S16 32) a x).toNat < S416x128.size a)
instance k0_chk124.dec : ∀ (k0_t1 : Fin k0_t1_loop.trips) (v349 : IVec S16 32) (v351 : IVec S16 32), Decidable (k0_chk124 k0_t1 v349 v351) := fun k0_t1 v349 v351 => decidable_of_iff' _ (Iff.of_eq (k0_chk124.eq_1 k0_t1 v349 v351))
theorem k0_idx124_inb : ∀ (k0_t1 : Fin k0_t1_loop.trips) (v349 : IVec S16 32) (v351 : IVec S16 32) (k0_hw124 : k0_chk124 k0_t1 v349 v351), ∀ (k0_h5 : k0_cond5 k0_t1 = 1#1), ∀ a x, ((![v349, v351] : Fin 2 → IVec S16 32) a x).toNat < S416x128.size a := fun k0_t1 v349 v351 k0_hw124 k0_h5 => k0_hw124 k0_h5

def k0_chk125 (k0_t1 : Fin k0_t1_loop.trips) (v75 : IVec S16 32) (v353 : IVec S16 32) : Prop :=
  (∀ (k0_h5 : k0_cond5 k0_t1 = 1#1), ∀ a x, ((![v75, v353] : Fin 2 → IVec S16 32) a x).toNat < S416x128.size a)
instance k0_chk125.dec : ∀ (k0_t1 : Fin k0_t1_loop.trips) (v75 : IVec S16 32) (v353 : IVec S16 32), Decidable (k0_chk125 k0_t1 v75 v353) := fun k0_t1 v75 v353 => decidable_of_iff' _ (Iff.of_eq (k0_chk125.eq_1 k0_t1 v75 v353))
theorem k0_idx125_inb : ∀ (k0_t1 : Fin k0_t1_loop.trips) (v75 : IVec S16 32) (v353 : IVec S16 32) (k0_hw125 : k0_chk125 k0_t1 v75 v353), ∀ (k0_h5 : k0_cond5 k0_t1 = 1#1), ∀ a x, ((![v75, v353] : Fin 2 → IVec S16 32) a x).toNat < S416x128.size a := fun k0_t1 v75 v353 k0_hw125 k0_h5 => k0_hw125 k0_h5

def k0_chk126 (k0_t1 : Fin k0_t1_loop.trips) (v358 : IVec S16 32) (v360 : IVec S16 32) : Prop :=
  (∀ (k0_h5 : k0_cond5 k0_t1 = 1#1), ∀ a x, ((![v358, v360] : Fin 2 → IVec S16 32) a x).toNat < S416x128.size a)
instance k0_chk126.dec : ∀ (k0_t1 : Fin k0_t1_loop.trips) (v358 : IVec S16 32) (v360 : IVec S16 32), Decidable (k0_chk126 k0_t1 v358 v360) := fun k0_t1 v358 v360 => decidable_of_iff' _ (Iff.of_eq (k0_chk126.eq_1 k0_t1 v358 v360))
theorem k0_idx126_inb : ∀ (k0_t1 : Fin k0_t1_loop.trips) (v358 : IVec S16 32) (v360 : IVec S16 32) (k0_hw126 : k0_chk126 k0_t1 v358 v360), ∀ (k0_h5 : k0_cond5 k0_t1 = 1#1), ∀ a x, ((![v358, v360] : Fin 2 → IVec S16 32) a x).toNat < S416x128.size a := fun k0_t1 v358 v360 k0_hw126 k0_h5 => k0_hw126 k0_h5

def k0_chk127 (k0_t1 : Fin k0_t1_loop.trips) (v75 : IVec S16 32) (v362 : IVec S16 32) : Prop :=
  (∀ (k0_h5 : k0_cond5 k0_t1 = 1#1), ∀ a x, ((![v75, v362] : Fin 2 → IVec S16 32) a x).toNat < S416x128.size a)
instance k0_chk127.dec : ∀ (k0_t1 : Fin k0_t1_loop.trips) (v75 : IVec S16 32) (v362 : IVec S16 32), Decidable (k0_chk127 k0_t1 v75 v362) := fun k0_t1 v75 v362 => decidable_of_iff' _ (Iff.of_eq (k0_chk127.eq_1 k0_t1 v75 v362))
theorem k0_idx127_inb : ∀ (k0_t1 : Fin k0_t1_loop.trips) (v75 : IVec S16 32) (v362 : IVec S16 32) (k0_hw127 : k0_chk127 k0_t1 v75 v362), ∀ (k0_h5 : k0_cond5 k0_t1 = 1#1), ∀ a x, ((![v75, v362] : Fin 2 → IVec S16 32) a x).toNat < S416x128.size a := fun k0_t1 v75 v362 k0_hw127 k0_h5 => k0_hw127 k0_h5

def k0_chk128 (k0_t1 : Fin k0_t1_loop.trips) (v367 : IVec S16 32) (v369 : IVec S16 32) : Prop :=
  (∀ (k0_h5 : k0_cond5 k0_t1 = 1#1), ∀ a x, ((![v367, v369] : Fin 2 → IVec S16 32) a x).toNat < S416x128.size a)
instance k0_chk128.dec : ∀ (k0_t1 : Fin k0_t1_loop.trips) (v367 : IVec S16 32) (v369 : IVec S16 32), Decidable (k0_chk128 k0_t1 v367 v369) := fun k0_t1 v367 v369 => decidable_of_iff' _ (Iff.of_eq (k0_chk128.eq_1 k0_t1 v367 v369))
theorem k0_idx128_inb : ∀ (k0_t1 : Fin k0_t1_loop.trips) (v367 : IVec S16 32) (v369 : IVec S16 32) (k0_hw128 : k0_chk128 k0_t1 v367 v369), ∀ (k0_h5 : k0_cond5 k0_t1 = 1#1), ∀ a x, ((![v367, v369] : Fin 2 → IVec S16 32) a x).toNat < S416x128.size a := fun k0_t1 v367 v369 k0_hw128 k0_h5 => k0_hw128 k0_h5
def k0_off12 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16640_i32 : BitVec 32 := 16640#32
  let v3 : BitVec 32 := Scalar.muli v1 c16640_i32
  let c0_i32_1 : BitVec 32 := 0#32
  let c1_i32 : BitVec 32 := 1#32
  let arg19 : BitVec 32 := Scf.iv c0_i32_1 c1_i32 k0_t1
  let c2_i32_42 : BitVec 32 := 2#32
  let v43 : BitVec 32 := Scalar.muli arg19 c2_i32_42
  let c1_i32_43 : BitVec 32 := 1#32
  let v44 : BitVec 32 := Scalar.addi v43 c1_i32_43
  let c1_i32_65 : BitVec 32 := 1#32
  let v64 : BitVec 32 := Scalar.subi v44 c1_i32_65
  let c104_i32 : BitVec 32 := 104#32
  let v65 : BitVec 32 := Scalar.muli v64 c104_i32
  let v66 : BitVec 32 := Scalar.addi v3 v65
  let c0_i32_68 : BitVec 32 := 0#32
  ![v66.toNat, 0]
@[reducible] def k0_t6_loop : Scf.Loop 32 :=
  let c0_i32_6 : BitVec 32 := 0#32
  let c26_i32 : BitVec 32 := 26#32
  let v13 : BitVec 32 := Scalar.addi c0_i32_6 c26_i32
  let c1_i32_7 : BitVec 32 := 1#32
  ⟨c0_i32_6, v13, c1_i32_7⟩
def k0_off13 (k0_t6 : Fin k0_t6_loop.trips) : Fin 1 → Nat :=
  let c0_i32_6 : BitVec 32 := 0#32
  let c1_i32_7 : BitVec 32 := 1#32
  let arg19 : BitVec 32 := Scf.iv c0_i32_6 c1_i32_7 k0_t6
  let c16_i32 : BitVec 32 := 16#32
  let v29 : BitVec 32 := Scalar.muli arg19 c16_i32
  let v30 : Index := Scalar.indexCast v29
  ![v30.toNat]

def k0_chk129 (v33 : IVec S16 32) (v41 : IVec S16 32) : Prop :=
  (∀ a x, ((![v33, v41] : Fin 2 → IVec S16 32) a x).toNat < S416x128.size a)
instance k0_chk129.dec : ∀ (v33 : IVec S16 32) (v41 : IVec S16 32), Decidable (k0_chk129 v33 v41) := fun v33 v41 => decidable_of_iff' _ (Iff.of_eq (k0_chk129.eq_1 v33 v41))
theorem k0_idx129_inb : ∀ (v33 : IVec S16 32) (v41 : IVec S16 32) (k0_hw129 : k0_chk129 v33 v41), ∀ a x, ((![v33, v41] : Fin 2 → IVec S16 32) a x).toNat < S416x128.size a := fun v33 v41 k0_hw129 => k0_hw129

def k0_chk130 (v46 : IVec S16 32) (v48 : IVec S16 32) : Prop :=
  (∀ a x, ((![v46, v48] : Fin 2 → IVec S16 32) a x).toNat < S416x128.size a)
instance k0_chk130.dec : ∀ (v46 : IVec S16 32) (v48 : IVec S16 32), Decidable (k0_chk130 v46 v48) := fun v46 v48 => decidable_of_iff' _ (Iff.of_eq (k0_chk130.eq_1 v46 v48))
theorem k0_idx130_inb : ∀ (v46 : IVec S16 32) (v48 : IVec S16 32) (k0_hw130 : k0_chk130 v46 v48), ∀ a x, ((![v46, v48] : Fin 2 → IVec S16 32) a x).toNat < S416x128.size a := fun v46 v48 k0_hw130 => k0_hw130

def k0_chk131 (v33 : IVec S16 32) (v50 : IVec S16 32) : Prop :=
  (∀ a x, ((![v33, v50] : Fin 2 → IVec S16 32) a x).toNat < S416x128.size a)
instance k0_chk131.dec : ∀ (v33 : IVec S16 32) (v50 : IVec S16 32), Decidable (k0_chk131 v33 v50) := fun v33 v50 => decidable_of_iff' _ (Iff.of_eq (k0_chk131.eq_1 v33 v50))
theorem k0_idx131_inb : ∀ (v33 : IVec S16 32) (v50 : IVec S16 32) (k0_hw131 : k0_chk131 v33 v50), ∀ a x, ((![v33, v50] : Fin 2 → IVec S16 32) a x).toNat < S416x128.size a := fun v33 v50 k0_hw131 => k0_hw131

def k0_chk132 (v55 : IVec S16 32) (v57 : IVec S16 32) : Prop :=
  (∀ a x, ((![v55, v57] : Fin 2 → IVec S16 32) a x).toNat < S416x128.size a)
instance k0_chk132.dec : ∀ (v55 : IVec S16 32) (v57 : IVec S16 32), Decidable (k0_chk132 v55 v57) := fun v55 v57 => decidable_of_iff' _ (Iff.of_eq (k0_chk132.eq_1 v55 v57))
theorem k0_idx132_inb : ∀ (v55 : IVec S16 32) (v57 : IVec S16 32) (k0_hw132 : k0_chk132 v55 v57), ∀ a x, ((![v55, v57] : Fin 2 → IVec S16 32) a x).toNat < S416x128.size a := fun v55 v57 k0_hw132 => k0_hw132

def k0_chk133 (v33 : IVec S16 32) (v59 : IVec S16 32) : Prop :=
  (∀ a x, ((![v33, v59] : Fin 2 → IVec S16 32) a x).toNat < S416x128.size a)
instance k0_chk133.dec : ∀ (v33 : IVec S16 32) (v59 : IVec S16 32), Decidable (k0_chk133 v33 v59) := fun v33 v59 => decidable_of_iff' _ (Iff.of_eq (k0_chk133.eq_1 v33 v59))
theorem k0_idx133_inb : ∀ (v33 : IVec S16 32) (v59 : IVec S16 32) (k0_hw133 : k0_chk133 v33 v59), ∀ a x, ((![v33, v59] : Fin 2 → IVec S16 32) a x).toNat < S416x128.size a := fun v33 v59 k0_hw133 => k0_hw133

def k0_chk134 (v64 : IVec S16 32) (v66 : IVec S16 32) : Prop :=
  (∀ a x, ((![v64, v66] : Fin 2 → IVec S16 32) a x).toNat < S416x128.size a)
instance k0_chk134.dec : ∀ (v64 : IVec S16 32) (v66 : IVec S16 32), Decidable (k0_chk134 v64 v66) := fun v64 v66 => decidable_of_iff' _ (Iff.of_eq (k0_chk134.eq_1 v64 v66))
theorem k0_idx134_inb : ∀ (v64 : IVec S16 32) (v66 : IVec S16 32) (k0_hw134 : k0_chk134 v64 v66), ∀ a x, ((![v64, v66] : Fin 2 → IVec S16 32) a x).toNat < S416x128.size a := fun v64 v66 k0_hw134 => k0_hw134

def k0_chk135 (v33 : IVec S16 32) (v68 : IVec S16 32) : Prop :=
  (∀ a x, ((![v33, v68] : Fin 2 → IVec S16 32) a x).toNat < S416x128.size a)
instance k0_chk135.dec : ∀ (v33 : IVec S16 32) (v68 : IVec S16 32), Decidable (k0_chk135 v33 v68) := fun v33 v68 => decidable_of_iff' _ (Iff.of_eq (k0_chk135.eq_1 v33 v68))
theorem k0_idx135_inb : ∀ (v33 : IVec S16 32) (v68 : IVec S16 32) (k0_hw135 : k0_chk135 v33 v68), ∀ a x, ((![v33, v68] : Fin 2 → IVec S16 32) a x).toNat < S416x128.size a := fun v33 v68 k0_hw135 => k0_hw135

def k0_chk136 (v73 : IVec S16 32) (v75 : IVec S16 32) : Prop :=
  (∀ a x, ((![v73, v75] : Fin 2 → IVec S16 32) a x).toNat < S416x128.size a)
instance k0_chk136.dec : ∀ (v73 : IVec S16 32) (v75 : IVec S16 32), Decidable (k0_chk136 v73 v75) := fun v73 v75 => decidable_of_iff' _ (Iff.of_eq (k0_chk136.eq_1 v73 v75))
theorem k0_idx136_inb : ∀ (v73 : IVec S16 32) (v75 : IVec S16 32) (k0_hw136 : k0_chk136 v73 v75), ∀ a x, ((![v73, v75] : Fin 2 → IVec S16 32) a x).toNat < S416x128.size a := fun v73 v75 k0_hw136 => k0_hw136

def k0_chk137 (v33 : IVec S16 32) (v77 : IVec S16 32) : Prop :=
  (∀ a x, ((![v33, v77] : Fin 2 → IVec S16 32) a x).toNat < S416x128.size a)
instance k0_chk137.dec : ∀ (v33 : IVec S16 32) (v77 : IVec S16 32), Decidable (k0_chk137 v33 v77) := fun v33 v77 => decidable_of_iff' _ (Iff.of_eq (k0_chk137.eq_1 v33 v77))
theorem k0_idx137_inb : ∀ (v33 : IVec S16 32) (v77 : IVec S16 32) (k0_hw137 : k0_chk137 v33 v77), ∀ a x, ((![v33, v77] : Fin 2 → IVec S16 32) a x).toNat < S416x128.size a := fun v33 v77 k0_hw137 => k0_hw137

def k0_chk138 (v82 : IVec S16 32) (v84 : IVec S16 32) : Prop :=
  (∀ a x, ((![v82, v84] : Fin 2 → IVec S16 32) a x).toNat < S416x128.size a)
instance k0_chk138.dec : ∀ (v82 : IVec S16 32) (v84 : IVec S16 32), Decidable (k0_chk138 v82 v84) := fun v82 v84 => decidable_of_iff' _ (Iff.of_eq (k0_chk138.eq_1 v82 v84))
theorem k0_idx138_inb : ∀ (v82 : IVec S16 32) (v84 : IVec S16 32) (k0_hw138 : k0_chk138 v82 v84), ∀ a x, ((![v82, v84] : Fin 2 → IVec S16 32) a x).toNat < S416x128.size a := fun v82 v84 k0_hw138 => k0_hw138

def k0_chk139 (v33 : IVec S16 32) (v86 : IVec S16 32) : Prop :=
  (∀ a x, ((![v33, v86] : Fin 2 → IVec S16 32) a x).toNat < S416x128.size a)
instance k0_chk139.dec : ∀ (v33 : IVec S16 32) (v86 : IVec S16 32), Decidable (k0_chk139 v33 v86) := fun v33 v86 => decidable_of_iff' _ (Iff.of_eq (k0_chk139.eq_1 v33 v86))
theorem k0_idx139_inb : ∀ (v33 : IVec S16 32) (v86 : IVec S16 32) (k0_hw139 : k0_chk139 v33 v86), ∀ a x, ((![v33, v86] : Fin 2 → IVec S16 32) a x).toNat < S416x128.size a := fun v33 v86 k0_hw139 => k0_hw139

def k0_chk140 (v91 : IVec S16 32) (v93 : IVec S16 32) : Prop :=
  (∀ a x, ((![v91, v93] : Fin 2 → IVec S16 32) a x).toNat < S416x128.size a)
instance k0_chk140.dec : ∀ (v91 : IVec S16 32) (v93 : IVec S16 32), Decidable (k0_chk140 v91 v93) := fun v91 v93 => decidable_of_iff' _ (Iff.of_eq (k0_chk140.eq_1 v91 v93))
theorem k0_idx140_inb : ∀ (v91 : IVec S16 32) (v93 : IVec S16 32) (k0_hw140 : k0_chk140 v91 v93), ∀ a x, ((![v91, v93] : Fin 2 → IVec S16 32) a x).toNat < S416x128.size a := fun v91 v93 k0_hw140 => k0_hw140

def k0_chk141 (v33 : IVec S16 32) (v95 : IVec S16 32) : Prop :=
  (∀ a x, ((![v33, v95] : Fin 2 → IVec S16 32) a x).toNat < S416x128.size a)
instance k0_chk141.dec : ∀ (v33 : IVec S16 32) (v95 : IVec S16 32), Decidable (k0_chk141 v33 v95) := fun v33 v95 => decidable_of_iff' _ (Iff.of_eq (k0_chk141.eq_1 v33 v95))
theorem k0_idx141_inb : ∀ (v33 : IVec S16 32) (v95 : IVec S16 32) (k0_hw141 : k0_chk141 v33 v95), ∀ a x, ((![v33, v95] : Fin 2 → IVec S16 32) a x).toNat < S416x128.size a := fun v33 v95 k0_hw141 => k0_hw141

def k0_chk142 (v100 : IVec S16 32) (v102 : IVec S16 32) : Prop :=
  (∀ a x, ((![v100, v102] : Fin 2 → IVec S16 32) a x).toNat < S416x128.size a)
instance k0_chk142.dec : ∀ (v100 : IVec S16 32) (v102 : IVec S16 32), Decidable (k0_chk142 v100 v102) := fun v100 v102 => decidable_of_iff' _ (Iff.of_eq (k0_chk142.eq_1 v100 v102))
theorem k0_idx142_inb : ∀ (v100 : IVec S16 32) (v102 : IVec S16 32) (k0_hw142 : k0_chk142 v100 v102), ∀ a x, ((![v100, v102] : Fin 2 → IVec S16 32) a x).toNat < S416x128.size a := fun v100 v102 k0_hw142 => k0_hw142

def k0_chk143 (v33 : IVec S16 32) (v104 : IVec S16 32) : Prop :=
  (∀ a x, ((![v33, v104] : Fin 2 → IVec S16 32) a x).toNat < S416x128.size a)
instance k0_chk143.dec : ∀ (v33 : IVec S16 32) (v104 : IVec S16 32), Decidable (k0_chk143 v33 v104) := fun v33 v104 => decidable_of_iff' _ (Iff.of_eq (k0_chk143.eq_1 v33 v104))
theorem k0_idx143_inb : ∀ (v33 : IVec S16 32) (v104 : IVec S16 32) (k0_hw143 : k0_chk143 v33 v104), ∀ a x, ((![v33, v104] : Fin 2 → IVec S16 32) a x).toNat < S416x128.size a := fun v33 v104 k0_hw143 => k0_hw143

def k0_chk144 (v109 : IVec S16 32) (v111 : IVec S16 32) : Prop :=
  (∀ a x, ((![v109, v111] : Fin 2 → IVec S16 32) a x).toNat < S416x128.size a)
instance k0_chk144.dec : ∀ (v109 : IVec S16 32) (v111 : IVec S16 32), Decidable (k0_chk144 v109 v111) := fun v109 v111 => decidable_of_iff' _ (Iff.of_eq (k0_chk144.eq_1 v109 v111))
theorem k0_idx144_inb : ∀ (v109 : IVec S16 32) (v111 : IVec S16 32) (k0_hw144 : k0_chk144 v109 v111), ∀ a x, ((![v109, v111] : Fin 2 → IVec S16 32) a x).toNat < S416x128.size a := fun v109 v111 k0_hw144 => k0_hw144

def k0_chk145 (v33 : IVec S16 32) (v113 : IVec S16 32) : Prop :=
  (∀ a x, ((![v33, v113] : Fin 2 → IVec S16 32) a x).toNat < S416x128.size a)
instance k0_chk145.dec : ∀ (v33 : IVec S16 32) (v113 : IVec S16 32), Decidable (k0_chk145 v33 v113) := fun v33 v113 => decidable_of_iff' _ (Iff.of_eq (k0_chk145.eq_1 v33 v113))
theorem k0_idx145_inb : ∀ (v33 : IVec S16 32) (v113 : IVec S16 32) (k0_hw145 : k0_chk145 v33 v113), ∀ a x, ((![v33, v113] : Fin 2 → IVec S16 32) a x).toNat < S416x128.size a := fun v33 v113 k0_hw145 => k0_hw145

def k0_chk146 (v118 : IVec S16 32) (v120 : IVec S16 32) : Prop :=
  (∀ a x, ((![v118, v120] : Fin 2 → IVec S16 32) a x).toNat < S416x128.size a)
instance k0_chk146.dec : ∀ (v118 : IVec S16 32) (v120 : IVec S16 32), Decidable (k0_chk146 v118 v120) := fun v118 v120 => decidable_of_iff' _ (Iff.of_eq (k0_chk146.eq_1 v118 v120))
theorem k0_idx146_inb : ∀ (v118 : IVec S16 32) (v120 : IVec S16 32) (k0_hw146 : k0_chk146 v118 v120), ∀ a x, ((![v118, v120] : Fin 2 → IVec S16 32) a x).toNat < S416x128.size a := fun v118 v120 k0_hw146 => k0_hw146

def k0_chk147 (v33 : IVec S16 32) (v122 : IVec S16 32) : Prop :=
  (∀ a x, ((![v33, v122] : Fin 2 → IVec S16 32) a x).toNat < S416x128.size a)
instance k0_chk147.dec : ∀ (v33 : IVec S16 32) (v122 : IVec S16 32), Decidable (k0_chk147 v33 v122) := fun v33 v122 => decidable_of_iff' _ (Iff.of_eq (k0_chk147.eq_1 v33 v122))
theorem k0_idx147_inb : ∀ (v33 : IVec S16 32) (v122 : IVec S16 32) (k0_hw147 : k0_chk147 v33 v122), ∀ a x, ((![v33, v122] : Fin 2 → IVec S16 32) a x).toNat < S416x128.size a := fun v33 v122 k0_hw147 => k0_hw147

def k0_chk148 (v127 : IVec S16 32) (v129 : IVec S16 32) : Prop :=
  (∀ a x, ((![v127, v129] : Fin 2 → IVec S16 32) a x).toNat < S416x128.size a)
instance k0_chk148.dec : ∀ (v127 : IVec S16 32) (v129 : IVec S16 32), Decidable (k0_chk148 v127 v129) := fun v127 v129 => decidable_of_iff' _ (Iff.of_eq (k0_chk148.eq_1 v127 v129))
theorem k0_idx148_inb : ∀ (v127 : IVec S16 32) (v129 : IVec S16 32) (k0_hw148 : k0_chk148 v127 v129), ∀ a x, ((![v127, v129] : Fin 2 → IVec S16 32) a x).toNat < S416x128.size a := fun v127 v129 k0_hw148 => k0_hw148

def k0_chk149 (v33 : IVec S16 32) (v131 : IVec S16 32) : Prop :=
  (∀ a x, ((![v33, v131] : Fin 2 → IVec S16 32) a x).toNat < S416x128.size a)
instance k0_chk149.dec : ∀ (v33 : IVec S16 32) (v131 : IVec S16 32), Decidable (k0_chk149 v33 v131) := fun v33 v131 => decidable_of_iff' _ (Iff.of_eq (k0_chk149.eq_1 v33 v131))
theorem k0_idx149_inb : ∀ (v33 : IVec S16 32) (v131 : IVec S16 32) (k0_hw149 : k0_chk149 v33 v131), ∀ a x, ((![v33, v131] : Fin 2 → IVec S16 32) a x).toNat < S416x128.size a := fun v33 v131 k0_hw149 => k0_hw149

def k0_chk150 (v136 : IVec S16 32) (v138 : IVec S16 32) : Prop :=
  (∀ a x, ((![v136, v138] : Fin 2 → IVec S16 32) a x).toNat < S416x128.size a)
instance k0_chk150.dec : ∀ (v136 : IVec S16 32) (v138 : IVec S16 32), Decidable (k0_chk150 v136 v138) := fun v136 v138 => decidable_of_iff' _ (Iff.of_eq (k0_chk150.eq_1 v136 v138))
theorem k0_idx150_inb : ∀ (v136 : IVec S16 32) (v138 : IVec S16 32) (k0_hw150 : k0_chk150 v136 v138), ∀ a x, ((![v136, v138] : Fin 2 → IVec S16 32) a x).toNat < S416x128.size a := fun v136 v138 k0_hw150 => k0_hw150

def k0_chk151 (v33 : IVec S16 32) (v140 : IVec S16 32) : Prop :=
  (∀ a x, ((![v33, v140] : Fin 2 → IVec S16 32) a x).toNat < S416x128.size a)
instance k0_chk151.dec : ∀ (v33 : IVec S16 32) (v140 : IVec S16 32), Decidable (k0_chk151 v33 v140) := fun v33 v140 => decidable_of_iff' _ (Iff.of_eq (k0_chk151.eq_1 v33 v140))
theorem k0_idx151_inb : ∀ (v33 : IVec S16 32) (v140 : IVec S16 32) (k0_hw151 : k0_chk151 v33 v140), ∀ a x, ((![v33, v140] : Fin 2 → IVec S16 32) a x).toNat < S416x128.size a := fun v33 v140 k0_hw151 => k0_hw151

def k0_chk152 (v145 : IVec S16 32) (v147 : IVec S16 32) : Prop :=
  (∀ a x, ((![v145, v147] : Fin 2 → IVec S16 32) a x).toNat < S416x128.size a)
instance k0_chk152.dec : ∀ (v145 : IVec S16 32) (v147 : IVec S16 32), Decidable (k0_chk152 v145 v147) := fun v145 v147 => decidable_of_iff' _ (Iff.of_eq (k0_chk152.eq_1 v145 v147))
theorem k0_idx152_inb : ∀ (v145 : IVec S16 32) (v147 : IVec S16 32) (k0_hw152 : k0_chk152 v145 v147), ∀ a x, ((![v145, v147] : Fin 2 → IVec S16 32) a x).toNat < S416x128.size a := fun v145 v147 k0_hw152 => k0_hw152

def k0_chk153 (v33 : IVec S16 32) (v149 : IVec S16 32) : Prop :=
  (∀ a x, ((![v33, v149] : Fin 2 → IVec S16 32) a x).toNat < S416x128.size a)
instance k0_chk153.dec : ∀ (v33 : IVec S16 32) (v149 : IVec S16 32), Decidable (k0_chk153 v33 v149) := fun v33 v149 => decidable_of_iff' _ (Iff.of_eq (k0_chk153.eq_1 v33 v149))
theorem k0_idx153_inb : ∀ (v33 : IVec S16 32) (v149 : IVec S16 32) (k0_hw153 : k0_chk153 v33 v149), ∀ a x, ((![v33, v149] : Fin 2 → IVec S16 32) a x).toNat < S416x128.size a := fun v33 v149 k0_hw153 => k0_hw153

def k0_chk154 (v154 : IVec S16 32) (v156 : IVec S16 32) : Prop :=
  (∀ a x, ((![v154, v156] : Fin 2 → IVec S16 32) a x).toNat < S416x128.size a)
instance k0_chk154.dec : ∀ (v154 : IVec S16 32) (v156 : IVec S16 32), Decidable (k0_chk154 v154 v156) := fun v154 v156 => decidable_of_iff' _ (Iff.of_eq (k0_chk154.eq_1 v154 v156))
theorem k0_idx154_inb : ∀ (v154 : IVec S16 32) (v156 : IVec S16 32) (k0_hw154 : k0_chk154 v154 v156), ∀ a x, ((![v154, v156] : Fin 2 → IVec S16 32) a x).toNat < S416x128.size a := fun v154 v156 k0_hw154 => k0_hw154

def k0_chk155 (v33 : IVec S16 32) (v158 : IVec S16 32) : Prop :=
  (∀ a x, ((![v33, v158] : Fin 2 → IVec S16 32) a x).toNat < S416x128.size a)
instance k0_chk155.dec : ∀ (v33 : IVec S16 32) (v158 : IVec S16 32), Decidable (k0_chk155 v33 v158) := fun v33 v158 => decidable_of_iff' _ (Iff.of_eq (k0_chk155.eq_1 v33 v158))
theorem k0_idx155_inb : ∀ (v33 : IVec S16 32) (v158 : IVec S16 32) (k0_hw155 : k0_chk155 v33 v158), ∀ a x, ((![v33, v158] : Fin 2 → IVec S16 32) a x).toNat < S416x128.size a := fun v33 v158 k0_hw155 => k0_hw155

def k0_chk156 (v163 : IVec S16 32) (v165 : IVec S16 32) : Prop :=
  (∀ a x, ((![v163, v165] : Fin 2 → IVec S16 32) a x).toNat < S416x128.size a)
instance k0_chk156.dec : ∀ (v163 : IVec S16 32) (v165 : IVec S16 32), Decidable (k0_chk156 v163 v165) := fun v163 v165 => decidable_of_iff' _ (Iff.of_eq (k0_chk156.eq_1 v163 v165))
theorem k0_idx156_inb : ∀ (v163 : IVec S16 32) (v165 : IVec S16 32) (k0_hw156 : k0_chk156 v163 v165), ∀ a x, ((![v163, v165] : Fin 2 → IVec S16 32) a x).toNat < S416x128.size a := fun v163 v165 k0_hw156 => k0_hw156

def k0_chk157 (v33 : IVec S16 32) (v167 : IVec S16 32) : Prop :=
  (∀ a x, ((![v33, v167] : Fin 2 → IVec S16 32) a x).toNat < S416x128.size a)
instance k0_chk157.dec : ∀ (v33 : IVec S16 32) (v167 : IVec S16 32), Decidable (k0_chk157 v33 v167) := fun v33 v167 => decidable_of_iff' _ (Iff.of_eq (k0_chk157.eq_1 v33 v167))
theorem k0_idx157_inb : ∀ (v33 : IVec S16 32) (v167 : IVec S16 32) (k0_hw157 : k0_chk157 v33 v167), ∀ a x, ((![v33, v167] : Fin 2 → IVec S16 32) a x).toNat < S416x128.size a := fun v33 v167 k0_hw157 => k0_hw157

def k0_chk158 (v172 : IVec S16 32) (v174 : IVec S16 32) : Prop :=
  (∀ a x, ((![v172, v174] : Fin 2 → IVec S16 32) a x).toNat < S416x128.size a)
instance k0_chk158.dec : ∀ (v172 : IVec S16 32) (v174 : IVec S16 32), Decidable (k0_chk158 v172 v174) := fun v172 v174 => decidable_of_iff' _ (Iff.of_eq (k0_chk158.eq_1 v172 v174))
theorem k0_idx158_inb : ∀ (v172 : IVec S16 32) (v174 : IVec S16 32) (k0_hw158 : k0_chk158 v172 v174), ∀ a x, ((![v172, v174] : Fin 2 → IVec S16 32) a x).toNat < S416x128.size a := fun v172 v174 k0_hw158 => k0_hw158

def k0_chk159 (v33 : IVec S16 32) (v176 : IVec S16 32) : Prop :=
  (∀ a x, ((![v33, v176] : Fin 2 → IVec S16 32) a x).toNat < S416x128.size a)
instance k0_chk159.dec : ∀ (v33 : IVec S16 32) (v176 : IVec S16 32), Decidable (k0_chk159 v33 v176) := fun v33 v176 => decidable_of_iff' _ (Iff.of_eq (k0_chk159.eq_1 v33 v176))
theorem k0_idx159_inb : ∀ (v33 : IVec S16 32) (v176 : IVec S16 32) (k0_hw159 : k0_chk159 v33 v176), ∀ a x, ((![v33, v176] : Fin 2 → IVec S16 32) a x).toNat < S416x128.size a := fun v33 v176 k0_hw159 => k0_hw159

def k0_chk160 (v181 : IVec S16 32) (v183 : IVec S16 32) : Prop :=
  (∀ a x, ((![v181, v183] : Fin 2 → IVec S16 32) a x).toNat < S416x128.size a)
instance k0_chk160.dec : ∀ (v181 : IVec S16 32) (v183 : IVec S16 32), Decidable (k0_chk160 v181 v183) := fun v181 v183 => decidable_of_iff' _ (Iff.of_eq (k0_chk160.eq_1 v181 v183))
theorem k0_idx160_inb : ∀ (v181 : IVec S16 32) (v183 : IVec S16 32) (k0_hw160 : k0_chk160 v181 v183), ∀ a x, ((![v181, v183] : Fin 2 → IVec S16 32) a x).toNat < S416x128.size a := fun v181 v183 k0_hw160 => k0_hw160

def k0_chk161 (v33 : IVec S16 32) (v185 : IVec S16 32) : Prop :=
  (∀ a x, ((![v33, v185] : Fin 2 → IVec S16 32) a x).toNat < S416x128.size a)
instance k0_chk161.dec : ∀ (v33 : IVec S16 32) (v185 : IVec S16 32), Decidable (k0_chk161 v33 v185) := fun v33 v185 => decidable_of_iff' _ (Iff.of_eq (k0_chk161.eq_1 v33 v185))
theorem k0_idx161_inb : ∀ (v33 : IVec S16 32) (v185 : IVec S16 32) (k0_hw161 : k0_chk161 v33 v185), ∀ a x, ((![v33, v185] : Fin 2 → IVec S16 32) a x).toNat < S416x128.size a := fun v33 v185 k0_hw161 => k0_hw161

def k0_chk162 (v190 : IVec S16 32) (v192 : IVec S16 32) : Prop :=
  (∀ a x, ((![v190, v192] : Fin 2 → IVec S16 32) a x).toNat < S416x128.size a)
instance k0_chk162.dec : ∀ (v190 : IVec S16 32) (v192 : IVec S16 32), Decidable (k0_chk162 v190 v192) := fun v190 v192 => decidable_of_iff' _ (Iff.of_eq (k0_chk162.eq_1 v190 v192))
theorem k0_idx162_inb : ∀ (v190 : IVec S16 32) (v192 : IVec S16 32) (k0_hw162 : k0_chk162 v190 v192), ∀ a x, ((![v190, v192] : Fin 2 → IVec S16 32) a x).toNat < S416x128.size a := fun v190 v192 k0_hw162 => k0_hw162

def k0_chk163 (v33 : IVec S16 32) (v194 : IVec S16 32) : Prop :=
  (∀ a x, ((![v33, v194] : Fin 2 → IVec S16 32) a x).toNat < S416x128.size a)
instance k0_chk163.dec : ∀ (v33 : IVec S16 32) (v194 : IVec S16 32), Decidable (k0_chk163 v33 v194) := fun v33 v194 => decidable_of_iff' _ (Iff.of_eq (k0_chk163.eq_1 v33 v194))
theorem k0_idx163_inb : ∀ (v33 : IVec S16 32) (v194 : IVec S16 32) (k0_hw163 : k0_chk163 v33 v194), ∀ a x, ((![v33, v194] : Fin 2 → IVec S16 32) a x).toNat < S416x128.size a := fun v33 v194 k0_hw163 => k0_hw163

def k0_chk164 (v199 : IVec S16 32) (v201 : IVec S16 32) : Prop :=
  (∀ a x, ((![v199, v201] : Fin 2 → IVec S16 32) a x).toNat < S416x128.size a)
instance k0_chk164.dec : ∀ (v199 : IVec S16 32) (v201 : IVec S16 32), Decidable (k0_chk164 v199 v201) := fun v199 v201 => decidable_of_iff' _ (Iff.of_eq (k0_chk164.eq_1 v199 v201))
theorem k0_idx164_inb : ∀ (v199 : IVec S16 32) (v201 : IVec S16 32) (k0_hw164 : k0_chk164 v199 v201), ∀ a x, ((![v199, v201] : Fin 2 → IVec S16 32) a x).toNat < S416x128.size a := fun v199 v201 k0_hw164 => k0_hw164

def k0_chk165 (v33 : IVec S16 32) (v203 : IVec S16 32) : Prop :=
  (∀ a x, ((![v33, v203] : Fin 2 → IVec S16 32) a x).toNat < S416x128.size a)
instance k0_chk165.dec : ∀ (v33 : IVec S16 32) (v203 : IVec S16 32), Decidable (k0_chk165 v33 v203) := fun v33 v203 => decidable_of_iff' _ (Iff.of_eq (k0_chk165.eq_1 v33 v203))
theorem k0_idx165_inb : ∀ (v33 : IVec S16 32) (v203 : IVec S16 32) (k0_hw165 : k0_chk165 v33 v203), ∀ a x, ((![v33, v203] : Fin 2 → IVec S16 32) a x).toNat < S416x128.size a := fun v33 v203 k0_hw165 => k0_hw165

def k0_chk166 (v208 : IVec S16 32) (v210 : IVec S16 32) : Prop :=
  (∀ a x, ((![v208, v210] : Fin 2 → IVec S16 32) a x).toNat < S416x128.size a)
instance k0_chk166.dec : ∀ (v208 : IVec S16 32) (v210 : IVec S16 32), Decidable (k0_chk166 v208 v210) := fun v208 v210 => decidable_of_iff' _ (Iff.of_eq (k0_chk166.eq_1 v208 v210))
theorem k0_idx166_inb : ∀ (v208 : IVec S16 32) (v210 : IVec S16 32) (k0_hw166 : k0_chk166 v208 v210), ∀ a x, ((![v208, v210] : Fin 2 → IVec S16 32) a x).toNat < S416x128.size a := fun v208 v210 k0_hw166 => k0_hw166

def k0_chk167 (v33 : IVec S16 32) (v212 : IVec S16 32) : Prop :=
  (∀ a x, ((![v33, v212] : Fin 2 → IVec S16 32) a x).toNat < S416x128.size a)
instance k0_chk167.dec : ∀ (v33 : IVec S16 32) (v212 : IVec S16 32), Decidable (k0_chk167 v33 v212) := fun v33 v212 => decidable_of_iff' _ (Iff.of_eq (k0_chk167.eq_1 v33 v212))
theorem k0_idx167_inb : ∀ (v33 : IVec S16 32) (v212 : IVec S16 32) (k0_hw167 : k0_chk167 v33 v212), ∀ a x, ((![v33, v212] : Fin 2 → IVec S16 32) a x).toNat < S416x128.size a := fun v33 v212 k0_hw167 => k0_hw167

def k0_chk168 (v217 : IVec S16 32) (v219 : IVec S16 32) : Prop :=
  (∀ a x, ((![v217, v219] : Fin 2 → IVec S16 32) a x).toNat < S416x128.size a)
instance k0_chk168.dec : ∀ (v217 : IVec S16 32) (v219 : IVec S16 32), Decidable (k0_chk168 v217 v219) := fun v217 v219 => decidable_of_iff' _ (Iff.of_eq (k0_chk168.eq_1 v217 v219))
theorem k0_idx168_inb : ∀ (v217 : IVec S16 32) (v219 : IVec S16 32) (k0_hw168 : k0_chk168 v217 v219), ∀ a x, ((![v217, v219] : Fin 2 → IVec S16 32) a x).toNat < S416x128.size a := fun v217 v219 k0_hw168 => k0_hw168

def k0_chk169 (v33 : IVec S16 32) (v221 : IVec S16 32) : Prop :=
  (∀ a x, ((![v33, v221] : Fin 2 → IVec S16 32) a x).toNat < S416x128.size a)
instance k0_chk169.dec : ∀ (v33 : IVec S16 32) (v221 : IVec S16 32), Decidable (k0_chk169 v33 v221) := fun v33 v221 => decidable_of_iff' _ (Iff.of_eq (k0_chk169.eq_1 v33 v221))
theorem k0_idx169_inb : ∀ (v33 : IVec S16 32) (v221 : IVec S16 32) (k0_hw169 : k0_chk169 v33 v221), ∀ a x, ((![v33, v221] : Fin 2 → IVec S16 32) a x).toNat < S416x128.size a := fun v33 v221 k0_hw169 => k0_hw169

def k0_chk170 (v226 : IVec S16 32) (v228 : IVec S16 32) : Prop :=
  (∀ a x, ((![v226, v228] : Fin 2 → IVec S16 32) a x).toNat < S416x128.size a)
instance k0_chk170.dec : ∀ (v226 : IVec S16 32) (v228 : IVec S16 32), Decidable (k0_chk170 v226 v228) := fun v226 v228 => decidable_of_iff' _ (Iff.of_eq (k0_chk170.eq_1 v226 v228))
theorem k0_idx170_inb : ∀ (v226 : IVec S16 32) (v228 : IVec S16 32) (k0_hw170 : k0_chk170 v226 v228), ∀ a x, ((![v226, v228] : Fin 2 → IVec S16 32) a x).toNat < S416x128.size a := fun v226 v228 k0_hw170 => k0_hw170

def k0_chk171 (v33 : IVec S16 32) (v230 : IVec S16 32) : Prop :=
  (∀ a x, ((![v33, v230] : Fin 2 → IVec S16 32) a x).toNat < S416x128.size a)
instance k0_chk171.dec : ∀ (v33 : IVec S16 32) (v230 : IVec S16 32), Decidable (k0_chk171 v33 v230) := fun v33 v230 => decidable_of_iff' _ (Iff.of_eq (k0_chk171.eq_1 v33 v230))
theorem k0_idx171_inb : ∀ (v33 : IVec S16 32) (v230 : IVec S16 32) (k0_hw171 : k0_chk171 v33 v230), ∀ a x, ((![v33, v230] : Fin 2 → IVec S16 32) a x).toNat < S416x128.size a := fun v33 v230 k0_hw171 => k0_hw171

def k0_chk172 (v235 : IVec S16 32) (v237 : IVec S16 32) : Prop :=
  (∀ a x, ((![v235, v237] : Fin 2 → IVec S16 32) a x).toNat < S416x128.size a)
instance k0_chk172.dec : ∀ (v235 : IVec S16 32) (v237 : IVec S16 32), Decidable (k0_chk172 v235 v237) := fun v235 v237 => decidable_of_iff' _ (Iff.of_eq (k0_chk172.eq_1 v235 v237))
theorem k0_idx172_inb : ∀ (v235 : IVec S16 32) (v237 : IVec S16 32) (k0_hw172 : k0_chk172 v235 v237), ∀ a x, ((![v235, v237] : Fin 2 → IVec S16 32) a x).toNat < S416x128.size a := fun v235 v237 k0_hw172 => k0_hw172

def k0_chk173 (v33 : IVec S16 32) (v239 : IVec S16 32) : Prop :=
  (∀ a x, ((![v33, v239] : Fin 2 → IVec S16 32) a x).toNat < S416x128.size a)
instance k0_chk173.dec : ∀ (v33 : IVec S16 32) (v239 : IVec S16 32), Decidable (k0_chk173 v33 v239) := fun v33 v239 => decidable_of_iff' _ (Iff.of_eq (k0_chk173.eq_1 v33 v239))
theorem k0_idx173_inb : ∀ (v33 : IVec S16 32) (v239 : IVec S16 32) (k0_hw173 : k0_chk173 v33 v239), ∀ a x, ((![v33, v239] : Fin 2 → IVec S16 32) a x).toNat < S416x128.size a := fun v33 v239 k0_hw173 => k0_hw173

def k0_chk174 (v244 : IVec S16 32) (v246 : IVec S16 32) : Prop :=
  (∀ a x, ((![v244, v246] : Fin 2 → IVec S16 32) a x).toNat < S416x128.size a)
instance k0_chk174.dec : ∀ (v244 : IVec S16 32) (v246 : IVec S16 32), Decidable (k0_chk174 v244 v246) := fun v244 v246 => decidable_of_iff' _ (Iff.of_eq (k0_chk174.eq_1 v244 v246))
theorem k0_idx174_inb : ∀ (v244 : IVec S16 32) (v246 : IVec S16 32) (k0_hw174 : k0_chk174 v244 v246), ∀ a x, ((![v244, v246] : Fin 2 → IVec S16 32) a x).toNat < S416x128.size a := fun v244 v246 k0_hw174 => k0_hw174

def k0_chk175 (v33 : IVec S16 32) (v248 : IVec S16 32) : Prop :=
  (∀ a x, ((![v33, v248] : Fin 2 → IVec S16 32) a x).toNat < S416x128.size a)
instance k0_chk175.dec : ∀ (v33 : IVec S16 32) (v248 : IVec S16 32), Decidable (k0_chk175 v33 v248) := fun v33 v248 => decidable_of_iff' _ (Iff.of_eq (k0_chk175.eq_1 v33 v248))
theorem k0_idx175_inb : ∀ (v33 : IVec S16 32) (v248 : IVec S16 32) (k0_hw175 : k0_chk175 v33 v248), ∀ a x, ((![v33, v248] : Fin 2 → IVec S16 32) a x).toNat < S416x128.size a := fun v33 v248 k0_hw175 => k0_hw175

def k0_chk176 (v253 : IVec S16 32) (v255 : IVec S16 32) : Prop :=
  (∀ a x, ((![v253, v255] : Fin 2 → IVec S16 32) a x).toNat < S416x128.size a)
instance k0_chk176.dec : ∀ (v253 : IVec S16 32) (v255 : IVec S16 32), Decidable (k0_chk176 v253 v255) := fun v253 v255 => decidable_of_iff' _ (Iff.of_eq (k0_chk176.eq_1 v253 v255))
theorem k0_idx176_inb : ∀ (v253 : IVec S16 32) (v255 : IVec S16 32) (k0_hw176 : k0_chk176 v253 v255), ∀ a x, ((![v253, v255] : Fin 2 → IVec S16 32) a x).toNat < S416x128.size a := fun v253 v255 k0_hw176 => k0_hw176

def k0_chk177 (v33 : IVec S16 32) (v257 : IVec S16 32) : Prop :=
  (∀ a x, ((![v33, v257] : Fin 2 → IVec S16 32) a x).toNat < S416x128.size a)
instance k0_chk177.dec : ∀ (v33 : IVec S16 32) (v257 : IVec S16 32), Decidable (k0_chk177 v33 v257) := fun v33 v257 => decidable_of_iff' _ (Iff.of_eq (k0_chk177.eq_1 v33 v257))
theorem k0_idx177_inb : ∀ (v33 : IVec S16 32) (v257 : IVec S16 32) (k0_hw177 : k0_chk177 v33 v257), ∀ a x, ((![v33, v257] : Fin 2 → IVec S16 32) a x).toNat < S416x128.size a := fun v33 v257 k0_hw177 => k0_hw177

def k0_chk178 (v262 : IVec S16 32) (v264 : IVec S16 32) : Prop :=
  (∀ a x, ((![v262, v264] : Fin 2 → IVec S16 32) a x).toNat < S416x128.size a)
instance k0_chk178.dec : ∀ (v262 : IVec S16 32) (v264 : IVec S16 32), Decidable (k0_chk178 v262 v264) := fun v262 v264 => decidable_of_iff' _ (Iff.of_eq (k0_chk178.eq_1 v262 v264))
theorem k0_idx178_inb : ∀ (v262 : IVec S16 32) (v264 : IVec S16 32) (k0_hw178 : k0_chk178 v262 v264), ∀ a x, ((![v262, v264] : Fin 2 → IVec S16 32) a x).toNat < S416x128.size a := fun v262 v264 k0_hw178 => k0_hw178

def k0_chk179 (v33 : IVec S16 32) (v266 : IVec S16 32) : Prop :=
  (∀ a x, ((![v33, v266] : Fin 2 → IVec S16 32) a x).toNat < S416x128.size a)
instance k0_chk179.dec : ∀ (v33 : IVec S16 32) (v266 : IVec S16 32), Decidable (k0_chk179 v33 v266) := fun v33 v266 => decidable_of_iff' _ (Iff.of_eq (k0_chk179.eq_1 v33 v266))
theorem k0_idx179_inb : ∀ (v33 : IVec S16 32) (v266 : IVec S16 32) (k0_hw179 : k0_chk179 v33 v266), ∀ a x, ((![v33, v266] : Fin 2 → IVec S16 32) a x).toNat < S416x128.size a := fun v33 v266 k0_hw179 => k0_hw179

def k0_chk180 (v271 : IVec S16 32) (v273 : IVec S16 32) : Prop :=
  (∀ a x, ((![v271, v273] : Fin 2 → IVec S16 32) a x).toNat < S416x128.size a)
instance k0_chk180.dec : ∀ (v271 : IVec S16 32) (v273 : IVec S16 32), Decidable (k0_chk180 v271 v273) := fun v271 v273 => decidable_of_iff' _ (Iff.of_eq (k0_chk180.eq_1 v271 v273))
theorem k0_idx180_inb : ∀ (v271 : IVec S16 32) (v273 : IVec S16 32) (k0_hw180 : k0_chk180 v271 v273), ∀ a x, ((![v271, v273] : Fin 2 → IVec S16 32) a x).toNat < S416x128.size a := fun v271 v273 k0_hw180 => k0_hw180

def k0_chk181 (v33 : IVec S16 32) (v275 : IVec S16 32) : Prop :=
  (∀ a x, ((![v33, v275] : Fin 2 → IVec S16 32) a x).toNat < S416x128.size a)
instance k0_chk181.dec : ∀ (v33 : IVec S16 32) (v275 : IVec S16 32), Decidable (k0_chk181 v33 v275) := fun v33 v275 => decidable_of_iff' _ (Iff.of_eq (k0_chk181.eq_1 v33 v275))
theorem k0_idx181_inb : ∀ (v33 : IVec S16 32) (v275 : IVec S16 32) (k0_hw181 : k0_chk181 v33 v275), ∀ a x, ((![v33, v275] : Fin 2 → IVec S16 32) a x).toNat < S416x128.size a := fun v33 v275 k0_hw181 => k0_hw181

def k0_chk182 (v280 : IVec S16 32) (v282 : IVec S16 32) : Prop :=
  (∀ a x, ((![v280, v282] : Fin 2 → IVec S16 32) a x).toNat < S416x128.size a)
instance k0_chk182.dec : ∀ (v280 : IVec S16 32) (v282 : IVec S16 32), Decidable (k0_chk182 v280 v282) := fun v280 v282 => decidable_of_iff' _ (Iff.of_eq (k0_chk182.eq_1 v280 v282))
theorem k0_idx182_inb : ∀ (v280 : IVec S16 32) (v282 : IVec S16 32) (k0_hw182 : k0_chk182 v280 v282), ∀ a x, ((![v280, v282] : Fin 2 → IVec S16 32) a x).toNat < S416x128.size a := fun v280 v282 k0_hw182 => k0_hw182

def k0_chk183 (v33 : IVec S16 32) (v284 : IVec S16 32) : Prop :=
  (∀ a x, ((![v33, v284] : Fin 2 → IVec S16 32) a x).toNat < S416x128.size a)
instance k0_chk183.dec : ∀ (v33 : IVec S16 32) (v284 : IVec S16 32), Decidable (k0_chk183 v33 v284) := fun v33 v284 => decidable_of_iff' _ (Iff.of_eq (k0_chk183.eq_1 v33 v284))
theorem k0_idx183_inb : ∀ (v33 : IVec S16 32) (v284 : IVec S16 32) (k0_hw183 : k0_chk183 v33 v284), ∀ a x, ((![v33, v284] : Fin 2 → IVec S16 32) a x).toNat < S416x128.size a := fun v33 v284 k0_hw183 => k0_hw183

def k0_chk184 (v289 : IVec S16 32) (v291 : IVec S16 32) : Prop :=
  (∀ a x, ((![v289, v291] : Fin 2 → IVec S16 32) a x).toNat < S416x128.size a)
instance k0_chk184.dec : ∀ (v289 : IVec S16 32) (v291 : IVec S16 32), Decidable (k0_chk184 v289 v291) := fun v289 v291 => decidable_of_iff' _ (Iff.of_eq (k0_chk184.eq_1 v289 v291))
theorem k0_idx184_inb : ∀ (v289 : IVec S16 32) (v291 : IVec S16 32) (k0_hw184 : k0_chk184 v289 v291), ∀ a x, ((![v289, v291] : Fin 2 → IVec S16 32) a x).toNat < S416x128.size a := fun v289 v291 k0_hw184 => k0_hw184

def k0_chk185 (v33 : IVec S16 32) (v293 : IVec S16 32) : Prop :=
  (∀ a x, ((![v33, v293] : Fin 2 → IVec S16 32) a x).toNat < S416x128.size a)
instance k0_chk185.dec : ∀ (v33 : IVec S16 32) (v293 : IVec S16 32), Decidable (k0_chk185 v33 v293) := fun v33 v293 => decidable_of_iff' _ (Iff.of_eq (k0_chk185.eq_1 v33 v293))
theorem k0_idx185_inb : ∀ (v33 : IVec S16 32) (v293 : IVec S16 32) (k0_hw185 : k0_chk185 v33 v293), ∀ a x, ((![v33, v293] : Fin 2 → IVec S16 32) a x).toNat < S416x128.size a := fun v33 v293 k0_hw185 => k0_hw185

def k0_chk186 (v298 : IVec S16 32) (v300 : IVec S16 32) : Prop :=
  (∀ a x, ((![v298, v300] : Fin 2 → IVec S16 32) a x).toNat < S416x128.size a)
instance k0_chk186.dec : ∀ (v298 : IVec S16 32) (v300 : IVec S16 32), Decidable (k0_chk186 v298 v300) := fun v298 v300 => decidable_of_iff' _ (Iff.of_eq (k0_chk186.eq_1 v298 v300))
theorem k0_idx186_inb : ∀ (v298 : IVec S16 32) (v300 : IVec S16 32) (k0_hw186 : k0_chk186 v298 v300), ∀ a x, ((![v298, v300] : Fin 2 → IVec S16 32) a x).toNat < S416x128.size a := fun v298 v300 k0_hw186 => k0_hw186

def k0_chk187 (v33 : IVec S16 32) (v302 : IVec S16 32) : Prop :=
  (∀ a x, ((![v33, v302] : Fin 2 → IVec S16 32) a x).toNat < S416x128.size a)
instance k0_chk187.dec : ∀ (v33 : IVec S16 32) (v302 : IVec S16 32), Decidable (k0_chk187 v33 v302) := fun v33 v302 => decidable_of_iff' _ (Iff.of_eq (k0_chk187.eq_1 v33 v302))
theorem k0_idx187_inb : ∀ (v33 : IVec S16 32) (v302 : IVec S16 32) (k0_hw187 : k0_chk187 v33 v302), ∀ a x, ((![v33, v302] : Fin 2 → IVec S16 32) a x).toNat < S416x128.size a := fun v33 v302 k0_hw187 => k0_hw187

def k0_chk188 (v307 : IVec S16 32) (v309 : IVec S16 32) : Prop :=
  (∀ a x, ((![v307, v309] : Fin 2 → IVec S16 32) a x).toNat < S416x128.size a)
instance k0_chk188.dec : ∀ (v307 : IVec S16 32) (v309 : IVec S16 32), Decidable (k0_chk188 v307 v309) := fun v307 v309 => decidable_of_iff' _ (Iff.of_eq (k0_chk188.eq_1 v307 v309))
theorem k0_idx188_inb : ∀ (v307 : IVec S16 32) (v309 : IVec S16 32) (k0_hw188 : k0_chk188 v307 v309), ∀ a x, ((![v307, v309] : Fin 2 → IVec S16 32) a x).toNat < S416x128.size a := fun v307 v309 k0_hw188 => k0_hw188

def k0_chk189 (v33 : IVec S16 32) (v311 : IVec S16 32) : Prop :=
  (∀ a x, ((![v33, v311] : Fin 2 → IVec S16 32) a x).toNat < S416x128.size a)
instance k0_chk189.dec : ∀ (v33 : IVec S16 32) (v311 : IVec S16 32), Decidable (k0_chk189 v33 v311) := fun v33 v311 => decidable_of_iff' _ (Iff.of_eq (k0_chk189.eq_1 v33 v311))
theorem k0_idx189_inb : ∀ (v33 : IVec S16 32) (v311 : IVec S16 32) (k0_hw189 : k0_chk189 v33 v311), ∀ a x, ((![v33, v311] : Fin 2 → IVec S16 32) a x).toNat < S416x128.size a := fun v33 v311 k0_hw189 => k0_hw189

def k0_chk190 (v316 : IVec S16 32) (v318 : IVec S16 32) : Prop :=
  (∀ a x, ((![v316, v318] : Fin 2 → IVec S16 32) a x).toNat < S416x128.size a)
instance k0_chk190.dec : ∀ (v316 : IVec S16 32) (v318 : IVec S16 32), Decidable (k0_chk190 v316 v318) := fun v316 v318 => decidable_of_iff' _ (Iff.of_eq (k0_chk190.eq_1 v316 v318))
theorem k0_idx190_inb : ∀ (v316 : IVec S16 32) (v318 : IVec S16 32) (k0_hw190 : k0_chk190 v316 v318), ∀ a x, ((![v316, v318] : Fin 2 → IVec S16 32) a x).toNat < S416x128.size a := fun v316 v318 k0_hw190 => k0_hw190

def k0_chk191 (v33 : IVec S16 32) (v320 : IVec S16 32) : Prop :=
  (∀ a x, ((![v33, v320] : Fin 2 → IVec S16 32) a x).toNat < S416x128.size a)
instance k0_chk191.dec : ∀ (v33 : IVec S16 32) (v320 : IVec S16 32), Decidable (k0_chk191 v33 v320) := fun v33 v320 => decidable_of_iff' _ (Iff.of_eq (k0_chk191.eq_1 v33 v320))
theorem k0_idx191_inb : ∀ (v33 : IVec S16 32) (v320 : IVec S16 32) (k0_hw191 : k0_chk191 v33 v320), ∀ a x, ((![v33, v320] : Fin 2 → IVec S16 32) a x).toNat < S416x128.size a := fun v33 v320 k0_hw191 => k0_hw191

def k0_chk192 (v325 : IVec S16 32) (v327 : IVec S16 32) : Prop :=
  (∀ a x, ((![v325, v327] : Fin 2 → IVec S16 32) a x).toNat < S416x128.size a)
instance k0_chk192.dec : ∀ (v325 : IVec S16 32) (v327 : IVec S16 32), Decidable (k0_chk192 v325 v327) := fun v325 v327 => decidable_of_iff' _ (Iff.of_eq (k0_chk192.eq_1 v325 v327))
theorem k0_idx192_inb : ∀ (v325 : IVec S16 32) (v327 : IVec S16 32) (k0_hw192 : k0_chk192 v325 v327), ∀ a x, ((![v325, v327] : Fin 2 → IVec S16 32) a x).toNat < S416x128.size a := fun v325 v327 k0_hw192 => k0_hw192
def k0_off14 (i : grid0.Coords) (c16536_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16640_i32 : BitVec 32 := 16640#32
  let v3 : BitVec 32 := Scalar.muli v1 c16640_i32
  let v14 : BitVec 32 := Scalar.addi v3 c16536_i32
  let c0_i32_11 : BitVec 32 := 0#32
  ![v14.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S26x4096x20_S26x81920 : S26x4096x20.ShapeCasts S26x81920
  transposes_S26x81920_S81920x26_1_0 : S26x81920.Transposes [1, 0] S81920x26
  shapeCasts_S81920x26_S2129920 : S81920x26.ShapeCasts S2129920
  bcast_S_S26 : S_.BroadcastsInDim S26 (![] : Fin 0 → Fin S26.rank)
  shapeCasts_S26_S1x26 : S26.ShapeCasts S1x26
  bcast_S1x26_S16x26_0_1 : S1x26.BroadcastsInDim S16x26 (![0, 1] : Fin 2 → Fin S16x26.rank)
  shapeCasts_S16x26_S416 : S16x26.ShapeCasts S416
  shapeCasts_S26x100001x32_S83200832 : S26x100001x32.ShapeCasts S83200832
  bcast_S_S64 : S_.BroadcastsInDim S64 (![] : Fin 0 → Fin S64.rank)
  concatenates_S83200832_S64_S83200896_d0 : Shape.Concatenates [S83200832, S64] S83200896 0
  shapeCasts_S83200896_S650007x128 : S83200896.ShapeCasts S650007x128
  inb_S416x128_S104x128_0_0 : ∀ a, (![0, 0] : Fin 2 → Nat) a + S104x128.size a ≤ S416x128.size a
  h_S16 : 0 < S16.numel
  inb_S650007x128_S650007x128_0_0 : ∀ a, (![0, 0] : Fin 2 → Nat) a + S650007x128.size a ≤ S650007x128.size a
  gathers_S650007x128_S416x128 : S650007x128.Gathers 0 S416x128
  iota_S16_d0_w32_scVector : S16.Iotas .scVector 32 [0]
  h_S416x128 : 0 < S416x128.numel
  shapeCasts_S532480x128_S4096x20x832 : S532480x128.ShapeCasts S4096x20x832
  hcc0_scratch7 : 0 + S_.numel ≤ 7
  hcc0_scratch8 : 1 + S_.numel ≤ 7
  hcc0_scratch9 : 2 + S_.numel ≤ 7
  hcc0_scratch10 : 3 + S_.numel ≤ 7
  hcc0_scratch11 : 4 + S_.numel ≤ 7
  hcc0_scratch12 : 5 + S_.numel ≤ 7
  hcc0_scoped0 : 6 + S_.numel ≤ 7
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 2), ∀ a, (k0_off1 i (BitVec.ofNat 32 (416 * r.val))) a + S416.size a ≤ S2129920.size a
  k0_t1_ok : k0_t1_loop.OK
  k0_off2_inb : ∀ (i : grid0.Coords) (k0_t1 : Fin k0_t1_loop.trips), ∀ (k0_h1 : k0_cond1 k0_t1 = 1#1), ∀ a, (k0_off2 i k0_t1) a + S104x128.size a ≤ S532480x128.size a
  k0_off3_inb : ∀ (i : grid0.Coords) (k0_t1 : Fin k0_t1_loop.trips), ∀ (r : Fin 2), ∀ a, (k0_off3 i k0_t1 (BitVec.ofNat 32 r.val)) a + S416.size a ≤ S2129920.size a
  k0_t2_ok : k0_t2_loop.OK
  k0_off4_inb : ∀ k0_t2 : Fin k0_t2_loop.trips, ∀ a, (k0_off4 k0_t2) a + S16.size a ≤ S416.size a
  k0_off5_inb : ∀ (i : grid0.Coords) (k0_t1 : Fin k0_t1_loop.trips), ∀ (k0_h2 : k0_cond2 k0_t1 = 1#1), ∀ (k0_h3 : k0_cond3 k0_t1 = 1#1), ∀ a, (k0_off5 i k0_t1) a + S416.size a ≤ S2129920.size a
  k0_t3_ok : ∀ k0_t1 : Fin k0_t1_loop.trips, ∀ (k0_h2 : k0_cond2 k0_t1 = 1#1), k0_t3_loop.OK
  k0_off6_inb : ∀ (k0_t1 : Fin k0_t1_loop.trips) (k0_t3 : Fin k0_t3_loop.trips), ∀ (k0_h2 : k0_cond2 k0_t1 = 1#1), ∀ a, (k0_off6 k0_t3) a + S16.size a ≤ S416.size a
  k0_off7_inb : ∀ (i : grid0.Coords) (k0_t1 : Fin k0_t1_loop.trips), ∀ (k0_h2 : k0_cond2 k0_t1 = 1#1), ∀ a, (k0_off7 i k0_t1) a + S104x128.size a ≤ S532480x128.size a
  k0_off8_inb : ∀ (i : grid0.Coords) (k0_t1 : Fin k0_t1_loop.trips), ∀ (k0_h4 : k0_cond4 k0_t1 = 1#1), ∀ a, (k0_off8 i k0_t1) a + S104x128.size a ≤ S532480x128.size a
  k0_t4_ok : k0_t4_loop.OK
  k0_off9_inb : ∀ k0_t4 : Fin k0_t4_loop.trips, ∀ a, (k0_off9 k0_t4) a + S16.size a ≤ S416.size a
  k0_off10_inb : ∀ (i : grid0.Coords) (k0_t1 : Fin k0_t1_loop.trips), ∀ (k0_h5 : k0_cond5 k0_t1 = 1#1), ∀ (k0_h6 : k0_cond6 k0_t1 = 1#1), ∀ a, (k0_off10 i k0_t1) a + S416.size a ≤ S2129920.size a
  k0_t5_ok : ∀ k0_t1 : Fin k0_t1_loop.trips, ∀ (k0_h5 : k0_cond5 k0_t1 = 1#1), k0_t5_loop.OK
  k0_off11_inb : ∀ (k0_t1 : Fin k0_t1_loop.trips) (k0_t5 : Fin k0_t5_loop.trips), ∀ (k0_h5 : k0_cond5 k0_t1 = 1#1), ∀ a, (k0_off11 k0_t5) a + S16.size a ≤ S416.size a
  k0_off12_inb : ∀ (i : grid0.Coords) (k0_t1 : Fin k0_t1_loop.trips), ∀ (k0_h5 : k0_cond5 k0_t1 = 1#1), ∀ a, (k0_off12 i k0_t1) a + S104x128.size a ≤ S532480x128.size a
  k0_t6_ok : k0_t6_loop.OK
  k0_off13_inb : ∀ k0_t6 : Fin k0_t6_loop.trips, ∀ a, (k0_off13 k0_t6) a + S16.size a ≤ S416.size a
  k0_off14_inb : ∀ i : grid0.Coords, ∀ (r : Fin 2), ∀ a, (k0_off14 i (BitVec.ofNat 32 (16432 + 104 * r.val))) a + S104x128.size a ≤ S532480x128.size a

variable [Facts₀]

abbrev cc0_scratch7 : DmaSems sig S_ := SemArray.consecutive 0 S_ hcc0_scratch7
abbrev cc0_scratch8 : DmaSems sig S_ := SemArray.consecutive 1 S_ hcc0_scratch8
abbrev cc0_scratch9 : DmaSems sig S_ := SemArray.consecutive 2 S_ hcc0_scratch9
abbrev cc0_scratch10 : DmaSems sig S_ := SemArray.consecutive 3 S_ hcc0_scratch10
abbrev cc0_scratch11 : DmaSems sig S_ := SemArray.consecutive 4 S_ hcc0_scratch11
abbrev cc0_scratch12 : DmaSems sig S_ := SemArray.consecutive 5 S_ hcc0_scratch12
abbrev cc0_scoped0 : DmaSems sig S_ := SemArray.consecutive 6 S_ hcc0_scoped0

class Facts : Prop extends Facts₀ where

variable [Facts]
-- ==== ReferenceIdeal.lean ====
abbrev S26x4096x20 : Shape := ⟨3, ![26, 4096, 20]⟩
abbrev S26x100001x32 : Shape := ⟨3, ![26, 100001, 32]⟩
abbrev S1x100001x32 : Shape := ⟨3, ![1, 100001, 32]⟩
abbrev S100001x32 : Shape := ⟨2, ![100001, 32]⟩
abbrev S1x4096x20 : Shape := ⟨3, ![1, 4096, 20]⟩
abbrev S4096x20 : Shape := ⟨2, ![4096, 20]⟩
abbrev S_ : Shape := ⟨0, ![]⟩
abbrev S4096x20x1 : Shape := ⟨3, ![4096, 20, 1]⟩
abbrev S1 : Shape := ⟨1, ![1]⟩
abbrev S1x1x1 : Shape := ⟨3, ![1, 1, 1]⟩
abbrev S4096x20x32 : Shape := ⟨3, ![4096, 20, 32]⟩
abbrev S4096x20x512 : Shape := ⟨3, ![4096, 20, 512]⟩
abbrev S4096x20x320 : Shape := ⟨3, ![4096, 20, 320]⟩
abbrev S4096x20x832 : Shape := ⟨3, ![4096, 20, 832]⟩

abbrev nBuf : Space → Nat
  | .hbm => 707
  | .vmem => 0
  | .smem => 0
  | _ => 0

abbrev hbmTy0_0 (i : Nat) : BufTy := match i % 128 with
  | 0 => ⟨S26x4096x20, .i32⟩
  | 1 => ⟨S26x100001x32, .f32⟩
  | 2 => ⟨S1x100001x32, .f32⟩
  | 3 => ⟨S100001x32, .f32⟩
  | 4 => ⟨S1x4096x20, .i32⟩
  | 5 => ⟨S4096x20, .i32⟩
  | 6 => ⟨S_, .i32⟩
  | 7 => ⟨S4096x20, .i32⟩
  | 8 => ⟨S4096x20, .i1⟩
  | 9 => ⟨S_, .i32⟩
  | 10 => ⟨S4096x20, .i32⟩
  | 11 => ⟨S4096x20, .i32⟩
  | 12 => ⟨S4096x20, .i32⟩
  | 13 => ⟨S4096x20x1, .i32⟩
  | 14 => ⟨S1, .i32⟩
  | 15 => ⟨S_, .i32⟩
  | 16 => ⟨S4096x20x1, .i32⟩
  | 17 => ⟨S4096x20x1, .i1⟩
  | 18 => ⟨S1x1x1, .i32⟩
  | 19 => ⟨S4096x20x1, .i32⟩
  | 20 => ⟨S4096x20x1, .i1⟩
  | 21 => ⟨S4096x20x1, .i1⟩
  | 22 => ⟨S_, .i1⟩
  | 23 => ⟨S4096x20, .i1⟩
  | 24 => ⟨S4096x20x32, .f32⟩
  | 25 => ⟨S4096x20x32, .i1⟩
  | 26 => ⟨S_, .f32⟩
  | 27 => ⟨S4096x20x32, .f32⟩
  | 28 => ⟨S4096x20x32, .f32⟩
  | 29 => ⟨S1x100001x32, .f32⟩
  | 30 => ⟨S100001x32, .f32⟩
  | 31 => ⟨S1x4096x20, .i32⟩
  | 32 => ⟨S4096x20, .i32⟩
  | 33 => ⟨S_, .i32⟩
  | 34 => ⟨S4096x20, .i32⟩
  | 35 => ⟨S4096x20, .i1⟩
  | 36 => ⟨S_, .i32⟩
  | 37 => ⟨S4096x20, .i32⟩
  | 38 => ⟨S4096x20, .i32⟩
  | 39 => ⟨S4096x20, .i32⟩
  | 40 => ⟨S4096x20x1, .i32⟩
  | 41 => ⟨S1, .i32⟩
  | 42 => ⟨S_, .i32⟩
  | 43 => ⟨S4096x20x1, .i32⟩
  | 44 => ⟨S4096x20x1, .i1⟩
  | 45 => ⟨S1x1x1, .i32⟩
  | 46 => ⟨S4096x20x1, .i32⟩
  | 47 => ⟨S4096x20x1, .i1⟩
  | 48 => ⟨S4096x20x1, .i1⟩
  | 49 => ⟨S_, .i1⟩
  | 50 => ⟨S4096x20, .i1⟩
  | 51 => ⟨S4096x20x32, .f32⟩
  | 52 => ⟨S4096x20x32, .i1⟩
  | 53 => ⟨S_, .f32⟩
  | 54 => ⟨S4096x20x32, .f32⟩
  | 55 => ⟨S4096x20x32, .f32⟩
  | 56 => ⟨S1x100001x32, .f32⟩
  | 57 => ⟨S100001x32, .f32⟩
  | 58 => ⟨S1x4096x20, .i32⟩
  | 59 => ⟨S4096x20, .i32⟩
  | 60 => ⟨S_, .i32⟩
  | 61 => ⟨S4096x20, .i32⟩
  | 62 => ⟨S4096x20, .i1⟩
  | 63 => ⟨S_, .i32⟩
  | 64 => ⟨S4096x20, .i32⟩
  | 65 => ⟨S4096x20, .i32⟩
  | 66 => ⟨S4096x20, .i32⟩
  | 67 => ⟨S4096x20x1, .i32⟩
  | 68 => ⟨S1, .i32⟩
  | 69 => ⟨S_, .i32⟩
  | 70 => ⟨S4096x20x1, .i32⟩
  | 71 => ⟨S4096x20x1, .i1⟩
  | 72 => ⟨S1x1x1, .i32⟩
  | 73 => ⟨S4096x20x1, .i32⟩
  | 74 => ⟨S4096x20x1, .i1⟩
  | 75 => ⟨S4096x20x1, .i1⟩
  | 76 => ⟨S_, .i1⟩
  | 77 => ⟨S4096x20, .i1⟩
  | 78 => ⟨S4096x20x32, .f32⟩
  | 79 => ⟨S4096x20x32, .i1⟩
  | 80 => ⟨S_, .f32⟩
  | 81 => ⟨S4096x20x32, .f32⟩
  | 82 => ⟨S4096x20x32, .f32⟩
  | 83 => ⟨S1x100001x32, .f32⟩
  | 84 => ⟨S100001x32, .f32⟩
  | 85 => ⟨S1x4096x20, .i32⟩
  | 86 => ⟨S4096x20, .i32⟩
  | 87 => ⟨S_, .i32⟩
  | 88 => ⟨S4096x20, .i32⟩
  | 89 => ⟨S4096x20, .i1⟩
  | 90 => ⟨S_, .i32⟩
  | 91 => ⟨S4096x20, .i32⟩
  | 92 => ⟨S4096x20, .i32⟩
  | 93 => ⟨S4096x20, .i32⟩
  | 94 => ⟨S4096x20x1, .i32⟩
  | 95 => ⟨S1, .i32⟩
  | 96 => ⟨S_, .i32⟩
  | 97 => ⟨S4096x20x1, .i32⟩
  | 98 => ⟨S4096x20x1, .i1⟩
  | 99 => ⟨S1x1x1, .i32⟩
  | 100 => ⟨S4096x20x1, .i32⟩
  | 101 => ⟨S4096x20x1, .i1⟩
  | 102 => ⟨S4096x20x1, .i1⟩
  | 103 => ⟨S_, .i1⟩
  | 104 => ⟨S4096x20, .i1⟩
  | 105 => ⟨S4096x20x32, .f32⟩
  | 106 => ⟨S4096x20x32, .i1⟩
  | 107 => ⟨S_, .f32⟩
  | 108 => ⟨S4096x20x32, .f32⟩
  | 109 => ⟨S4096x20x32, .f32⟩
  | 110 => ⟨S1x100001x32, .f32⟩
  | 111 => ⟨S100001x32, .f32⟩
  | 112 => ⟨S1x4096x20, .i32⟩
  | 113 => ⟨S4096x20, .i32⟩
  | 114 => ⟨S_, .i32⟩
  | 115 => ⟨S4096x20, .i32⟩
  | 116 => ⟨S4096x20, .i1⟩
  | 117 => ⟨S_, .i32⟩
  | 118 => ⟨S4096x20, .i32⟩
  | 119 => ⟨S4096x20, .i32⟩
  | 120 => ⟨S4096x20, .i32⟩
  | 121 => ⟨S4096x20x1, .i32⟩
  | 122 => ⟨S1, .i32⟩
  | 123 => ⟨S_, .i32⟩
  | 124 => ⟨S4096x20x1, .i32⟩
  | 125 => ⟨S4096x20x1, .i1⟩
  | 126 => ⟨S1x1x1, .i32⟩
  | 127 => ⟨S4096x20x1, .i32⟩
  | _ => ⟨S26x4096x20, .i32⟩

abbrev hbmTy0_1 (i : Nat) : BufTy := match i % 128 with
  | 0 => ⟨S4096x20x1, .i1⟩
  | 1 => ⟨S4096x20x1, .i1⟩
  | 2 => ⟨S_, .i1⟩
  | 3 => ⟨S4096x20, .i1⟩
  | 4 => ⟨S4096x20x32, .f32⟩
  | 5 => ⟨S4096x20x32, .i1⟩
  | 6 => ⟨S_, .f32⟩
  | 7 => ⟨S4096x20x32, .f32⟩
  | 8 => ⟨S4096x20x32, .f32⟩
  | 9 => ⟨S1x100001x32, .f32⟩
  | 10 => ⟨S100001x32, .f32⟩
  | 11 => ⟨S1x4096x20, .i32⟩
  | 12 => ⟨S4096x20, .i32⟩
  | 13 => ⟨S_, .i32⟩
  | 14 => ⟨S4096x20, .i32⟩
  | 15 => ⟨S4096x20, .i1⟩
  | 16 => ⟨S_, .i32⟩
  | 17 => ⟨S4096x20, .i32⟩
  | 18 => ⟨S4096x20, .i32⟩
  | 19 => ⟨S4096x20, .i32⟩
  | 20 => ⟨S4096x20x1, .i32⟩
  | 21 => ⟨S1, .i32⟩
  | 22 => ⟨S_, .i32⟩
  | 23 => ⟨S4096x20x1, .i32⟩
  | 24 => ⟨S4096x20x1, .i1⟩
  | 25 => ⟨S1x1x1, .i32⟩
  | 26 => ⟨S4096x20x1, .i32⟩
  | 27 => ⟨S4096x20x1, .i1⟩
  | 28 => ⟨S4096x20x1, .i1⟩
  | 29 => ⟨S_, .i1⟩
  | 30 => ⟨S4096x20, .i1⟩
  | 31 => ⟨S4096x20x32, .f32⟩
  | 32 => ⟨S4096x20x32, .i1⟩
  | 33 => ⟨S_, .f32⟩
  | 34 => ⟨S4096x20x32, .f32⟩
  | 35 => ⟨S4096x20x32, .f32⟩
  | 36 => ⟨S1x100001x32, .f32⟩
  | 37 => ⟨S100001x32, .f32⟩
  | 38 => ⟨S1x4096x20, .i32⟩
  | 39 => ⟨S4096x20, .i32⟩
  | 40 => ⟨S_, .i32⟩
  | 41 => ⟨S4096x20, .i32⟩
  | 42 => ⟨S4096x20, .i1⟩
  | 43 => ⟨S_, .i32⟩
  | 44 => ⟨S4096x20, .i32⟩
  | 45 => ⟨S4096x20, .i32⟩
  | 46 => ⟨S4096x20, .i32⟩
  | 47 => ⟨S4096x20x1, .i32⟩
  | 48 => ⟨S1, .i32⟩
  | 49 => ⟨S_, .i32⟩
  | 50 => ⟨S4096x20x1, .i32⟩
  | 51 => ⟨S4096x20x1, .i1⟩
  | 52 => ⟨S1x1x1, .i32⟩
  | 53 => ⟨S4096x20x1, .i32⟩
  | 54 => ⟨S4096x20x1, .i1⟩
  | 55 => ⟨S4096x20x1, .i1⟩
  | 56 => ⟨S_, .i1⟩
  | 57 => ⟨S4096x20, .i1⟩
  | 58 => ⟨S4096x20x32, .f32⟩
  | 59 => ⟨S4096x20x32, .i1⟩
  | 60 => ⟨S_, .f32⟩
  | 61 => ⟨S4096x20x32, .f32⟩
  | 62 => ⟨S4096x20x32, .f32⟩
  | 63 => ⟨S1x100001x32, .f32⟩
  | 64 => ⟨S100001x32, .f32⟩
  | 65 => ⟨S1x4096x20, .i32⟩
  | 66 => ⟨S4096x20, .i32⟩
  | 67 => ⟨S_, .i32⟩
  | 68 => ⟨S4096x20, .i32⟩
  | 69 => ⟨S4096x20, .i1⟩
  | 70 => ⟨S_, .i32⟩
  | 71 => ⟨S4096x20, .i32⟩
  | 72 => ⟨S4096x20, .i32⟩
  | 73 => ⟨S4096x20, .i32⟩
  | 74 => ⟨S4096x20x1, .i32⟩
  | 75 => ⟨S1, .i32⟩
  | 76 => ⟨S_, .i32⟩
  | 77 => ⟨S4096x20x1, .i32⟩
  | 78 => ⟨S4096x20x1, .i1⟩
  | 79 => ⟨S1x1x1, .i32⟩
  | 80 => ⟨S4096x20x1, .i32⟩
  | 81 => ⟨S4096x20x1, .i1⟩
  | 82 => ⟨S4096x20x1, .i1⟩
  | 83 => ⟨S_, .i1⟩
  | 84 => ⟨S4096x20, .i1⟩
  | 85 => ⟨S4096x20x32, .f32⟩
  | 86 => ⟨S4096x20x32, .i1⟩
  | 87 => ⟨S_, .f32⟩
  | 88 => ⟨S4096x20x32, .f32⟩
  | 89 => ⟨S4096x20x32, .f32⟩
  | 90 => ⟨S1x100001x32, .f32⟩
  | 91 => ⟨S100001x32, .f32⟩
  | 92 => ⟨S1x4096x20, .i32⟩
  | 93 => ⟨S4096x20, .i32⟩
  | 94 => ⟨S_, .i32⟩
  | 95 => ⟨S4096x20, .i32⟩
  | 96 => ⟨S4096x20, .i1⟩
  | 97 => ⟨S_, .i32⟩
  | 98 => ⟨S4096x20, .i32⟩
  | 99 => ⟨S4096x20, .i32⟩
  | 100 => ⟨S4096x20, .i32⟩
  | 101 => ⟨S4096x20x1, .i32⟩
  | 102 => ⟨S1, .i32⟩
  | 103 => ⟨S_, .i32⟩
  | 104 => ⟨S4096x20x1, .i32⟩
  | 105 => ⟨S4096x20x1, .i1⟩
  | 106 => ⟨S1x1x1, .i32⟩
  | 107 => ⟨S4096x20x1, .i32⟩
  | 108 => ⟨S4096x20x1, .i1⟩
  | 109 => ⟨S4096x20x1, .i1⟩
  | 110 => ⟨S_, .i1⟩
  | 111 => ⟨S4096x20, .i1⟩
  | 112 => ⟨S4096x20x32, .f32⟩
  | 113 => ⟨S4096x20x32, .i1⟩
  | 114 => ⟨S_, .f32⟩
  | 115 => ⟨S4096x20x32, .f32⟩
  | 116 => ⟨S4096x20x32, .f32⟩
  | 117 => ⟨S1x100001x32, .f32⟩
  | 118 => ⟨S100001x32, .f32⟩
  | 119 => ⟨S1x4096x20, .i32⟩
  | 120 => ⟨S4096x20, .i32⟩
  | 121 => ⟨S_, .i32⟩
  | 122 => ⟨S4096x20, .i32⟩
  | 123 => ⟨S4096x20, .i1⟩
  | 124 => ⟨S_, .i32⟩
  | 125 => ⟨S4096x20, .i32⟩
  | 126 => ⟨S4096x20, .i32⟩
  | 127 => ⟨S4096x20, .i32⟩
  | _ => ⟨S26x4096x20, .i32⟩

abbrev hbmTy0_2 (i : Nat) : BufTy := match i % 128 with
  | 0 => ⟨S4096x20x1, .i32⟩
  | 1 => ⟨S1, .i32⟩
  | 2 => ⟨S_, .i32⟩
  | 3 => ⟨S4096x20x1, .i32⟩
  | 4 => ⟨S4096x20x1, .i1⟩
  | 5 => ⟨S1x1x1, .i32⟩
  | 6 => ⟨S4096x20x1, .i32⟩
  | 7 => ⟨S4096x20x1, .i1⟩
  | 8 => ⟨S4096x20x1, .i1⟩
  | 9 => ⟨S_, .i1⟩
  | 10 => ⟨S4096x20, .i1⟩
  | 11 => ⟨S4096x20x32, .f32⟩
  | 12 => ⟨S4096x20x32, .i1⟩
  | 13 => ⟨S_, .f32⟩
  | 14 => ⟨S4096x20x32, .f32⟩
  | 15 => ⟨S4096x20x32, .f32⟩
  | 16 => ⟨S1x100001x32, .f32⟩
  | 17 => ⟨S100001x32, .f32⟩
  | 18 => ⟨S1x4096x20, .i32⟩
  | 19 => ⟨S4096x20, .i32⟩
  | 20 => ⟨S_, .i32⟩
  | 21 => ⟨S4096x20, .i32⟩
  | 22 => ⟨S4096x20, .i1⟩
  | 23 => ⟨S_, .i32⟩
  | 24 => ⟨S4096x20, .i32⟩
  | 25 => ⟨S4096x20, .i32⟩
  | 26 => ⟨S4096x20, .i32⟩
  | 27 => ⟨S4096x20x1, .i32⟩
  | 28 => ⟨S1, .i32⟩
  | 29 => ⟨S_, .i32⟩
  | 30 => ⟨S4096x20x1, .i32⟩
  | 31 => ⟨S4096x20x1, .i1⟩
  | 32 => ⟨S1x1x1, .i32⟩
  | 33 => ⟨S4096x20x1, .i32⟩
  | 34 => ⟨S4096x20x1, .i1⟩
  | 35 => ⟨S4096x20x1, .i1⟩
  | 36 => ⟨S_, .i1⟩
  | 37 => ⟨S4096x20, .i1⟩
  | 38 => ⟨S4096x20x32, .f32⟩
  | 39 => ⟨S4096x20x32, .i1⟩
  | 40 => ⟨S_, .f32⟩
  | 41 => ⟨S4096x20x32, .f32⟩
  | 42 => ⟨S4096x20x32, .f32⟩
  | 43 => ⟨S1x100001x32, .f32⟩
  | 44 => ⟨S100001x32, .f32⟩
  | 45 => ⟨S1x4096x20, .i32⟩
  | 46 => ⟨S4096x20, .i32⟩
  | 47 => ⟨S_, .i32⟩
  | 48 => ⟨S4096x20, .i32⟩
  | 49 => ⟨S4096x20, .i1⟩
  | 50 => ⟨S_, .i32⟩
  | 51 => ⟨S4096x20, .i32⟩
  | 52 => ⟨S4096x20, .i32⟩
  | 53 => ⟨S4096x20, .i32⟩
  | 54 => ⟨S4096x20x1, .i32⟩
  | 55 => ⟨S1, .i32⟩
  | 56 => ⟨S_, .i32⟩
  | 57 => ⟨S4096x20x1, .i32⟩
  | 58 => ⟨S4096x20x1, .i1⟩
  | 59 => ⟨S1x1x1, .i32⟩
  | 60 => ⟨S4096x20x1, .i32⟩
  | 61 => ⟨S4096x20x1, .i1⟩
  | 62 => ⟨S4096x20x1, .i1⟩
  | 63 => ⟨S_, .i1⟩
  | 64 => ⟨S4096x20, .i1⟩
  | 65 => ⟨S4096x20x32, .f32⟩
  | 66 => ⟨S4096x20x32, .i1⟩
  | 67 => ⟨S_, .f32⟩
  | 68 => ⟨S4096x20x32, .f32⟩
  | 69 => ⟨S4096x20x32, .f32⟩
  | 70 => ⟨S1x100001x32, .f32⟩
  | 71 => ⟨S100001x32, .f32⟩
  | 72 => ⟨S1x4096x20, .i32⟩
  | 73 => ⟨S4096x20, .i32⟩
  | 74 => ⟨S_, .i32⟩
  | 75 => ⟨S4096x20, .i32⟩
  | 76 => ⟨S4096x20, .i1⟩
  | 77 => ⟨S_, .i32⟩
  | 78 => ⟨S4096x20, .i32⟩
  | 79 => ⟨S4096x20, .i32⟩
  | 80 => ⟨S4096x20, .i32⟩
  | 81 => ⟨S4096x20x1, .i32⟩
  | 82 => ⟨S1, .i32⟩
  | 83 => ⟨S_, .i32⟩
  | 84 => ⟨S4096x20x1, .i32⟩
  | 85 => ⟨S4096x20x1, .i1⟩
  | 86 => ⟨S1x1x1, .i32⟩
  | 87 => ⟨S4096x20x1, .i32⟩
  | 88 => ⟨S4096x20x1, .i1⟩
  | 89 => ⟨S4096x20x1, .i1⟩
  | 90 => ⟨S_, .i1⟩
  | 91 => ⟨S4096x20, .i1⟩
  | 92 => ⟨S4096x20x32, .f32⟩
  | 93 => ⟨S4096x20x32, .i1⟩
  | 94 => ⟨S_, .f32⟩
  | 95 => ⟨S4096x20x32, .f32⟩
  | 96 => ⟨S4096x20x32, .f32⟩
  | 97 => ⟨S1x100001x32, .f32⟩
  | 98 => ⟨S100001x32, .f32⟩
  | 99 => ⟨S1x4096x20, .i32⟩
  | 100 => ⟨S4096x20, .i32⟩
  | 101 => ⟨S_, .i32⟩
  | 102 => ⟨S4096x20, .i32⟩
  | 103 => ⟨S4096x20, .i1⟩
  | 104 => ⟨S_, .i32⟩
  | 105 => ⟨S4096x20, .i32⟩
  | 106 => ⟨S4096x20, .i32⟩
  | 107 => ⟨S4096x20, .i32⟩
  | 108 => ⟨S4096x20x1, .i32⟩
  | 109 => ⟨S1, .i32⟩
  | 110 => ⟨S_, .i32⟩
  | 111 => ⟨S4096x20x1, .i32⟩
  | 112 => ⟨S4096x20x1, .i1⟩
  | 113 => ⟨S1x1x1, .i32⟩
  | 114 => ⟨S4096x20x1, .i32⟩
  | 115 => ⟨S4096x20x1, .i1⟩
  | 116 => ⟨S4096x20x1, .i1⟩
  | 117 => ⟨S_, .i1⟩
  | 118 => ⟨S4096x20, .i1⟩
  | 119 => ⟨S4096x20x32, .f32⟩
  | 120 => ⟨S4096x20x32, .i1⟩
  | 121 => ⟨S_, .f32⟩
  | 122 => ⟨S4096x20x32, .f32⟩
  | 123 => ⟨S4096x20x32, .f32⟩
  | 124 => ⟨S1x100001x32, .f32⟩
  | 125 => ⟨S100001x32, .f32⟩
  | 126 => ⟨S1x4096x20, .i32⟩
  | 127 => ⟨S4096x20, .i32⟩
  | _ => ⟨S26x4096x20, .i32⟩

abbrev hbmTy0_3 (i : Nat) : BufTy := match i % 128 with
  | 0 => ⟨S_, .i32⟩
  | 1 => ⟨S4096x20, .i32⟩
  | 2 => ⟨S4096x20, .i1⟩
  | 3 => ⟨S_, .i32⟩
  | 4 => ⟨S4096x20, .i32⟩
  | 5 => ⟨S4096x20, .i32⟩
  | 6 => ⟨S4096x20, .i32⟩
  | 7 => ⟨S4096x20x1, .i32⟩
  | 8 => ⟨S1, .i32⟩
  | 9 => ⟨S_, .i32⟩
  | 10 => ⟨S4096x20x1, .i32⟩
  | 11 => ⟨S4096x20x1, .i1⟩
  | 12 => ⟨S1x1x1, .i32⟩
  | 13 => ⟨S4096x20x1, .i32⟩
  | 14 => ⟨S4096x20x1, .i1⟩
  | 15 => ⟨S4096x20x1, .i1⟩
  | 16 => ⟨S_, .i1⟩
  | 17 => ⟨S4096x20, .i1⟩
  | 18 => ⟨S4096x20x32, .f32⟩
  | 19 => ⟨S4096x20x32, .i1⟩
  | 20 => ⟨S_, .f32⟩
  | 21 => ⟨S4096x20x32, .f32⟩
  | 22 => ⟨S4096x20x32, .f32⟩
  | 23 => ⟨S1x100001x32, .f32⟩
  | 24 => ⟨S100001x32, .f32⟩
  | 25 => ⟨S1x4096x20, .i32⟩
  | 26 => ⟨S4096x20, .i32⟩
  | 27 => ⟨S_, .i32⟩
  | 28 => ⟨S4096x20, .i32⟩
  | 29 => ⟨S4096x20, .i1⟩
  | 30 => ⟨S_, .i32⟩
  | 31 => ⟨S4096x20, .i32⟩
  | 32 => ⟨S4096x20, .i32⟩
  | 33 => ⟨S4096x20, .i32⟩
  | 34 => ⟨S4096x20x1, .i32⟩
  | 35 => ⟨S1, .i32⟩
  | 36 => ⟨S_, .i32⟩
  | 37 => ⟨S4096x20x1, .i32⟩
  | 38 => ⟨S4096x20x1, .i1⟩
  | 39 => ⟨S1x1x1, .i32⟩
  | 40 => ⟨S4096x20x1, .i32⟩
  | 41 => ⟨S4096x20x1, .i1⟩
  | 42 => ⟨S4096x20x1, .i1⟩
  | 43 => ⟨S_, .i1⟩
  | 44 => ⟨S4096x20, .i1⟩
  | 45 => ⟨S4096x20x32, .f32⟩
  | 46 => ⟨S4096x20x32, .i1⟩
  | 47 => ⟨S_, .f32⟩
  | 48 => ⟨S4096x20x32, .f32⟩
  | 49 => ⟨S4096x20x32, .f32⟩
  | 50 => ⟨S1x100001x32, .f32⟩
  | 51 => ⟨S100001x32, .f32⟩
  | 52 => ⟨S1x4096x20, .i32⟩
  | 53 => ⟨S4096x20, .i32⟩
  | 54 => ⟨S_, .i32⟩
  | 55 => ⟨S4096x20, .i32⟩
  | 56 => ⟨S4096x20, .i1⟩
  | 57 => ⟨S_, .i32⟩
  | 58 => ⟨S4096x20, .i32⟩
  | 59 => ⟨S4096x20, .i32⟩
  | 60 => ⟨S4096x20, .i32⟩
  | 61 => ⟨S4096x20x1, .i32⟩
  | 62 => ⟨S1, .i32⟩
  | 63 => ⟨S_, .i32⟩
  | 64 => ⟨S4096x20x1, .i32⟩
  | 65 => ⟨S4096x20x1, .i1⟩
  | 66 => ⟨S1x1x1, .i32⟩
  | 67 => ⟨S4096x20x1, .i32⟩
  | 68 => ⟨S4096x20x1, .i1⟩
  | 69 => ⟨S4096x20x1, .i1⟩
  | 70 => ⟨S_, .i1⟩
  | 71 => ⟨S4096x20, .i1⟩
  | 72 => ⟨S4096x20x32, .f32⟩
  | 73 => ⟨S4096x20x32, .i1⟩
  | 74 => ⟨S_, .f32⟩
  | 75 => ⟨S4096x20x32, .f32⟩
  | 76 => ⟨S4096x20x32, .f32⟩
  | 77 => ⟨S1x100001x32, .f32⟩
  | 78 => ⟨S100001x32, .f32⟩
  | 79 => ⟨S1x4096x20, .i32⟩
  | 80 => ⟨S4096x20, .i32⟩
  | 81 => ⟨S_, .i32⟩
  | 82 => ⟨S4096x20, .i32⟩
  | 83 => ⟨S4096x20, .i1⟩
  | 84 => ⟨S_, .i32⟩
  | 85 => ⟨S4096x20, .i32⟩
  | 86 => ⟨S4096x20, .i32⟩
  | 87 => ⟨S4096x20, .i32⟩
  | 88 => ⟨S4096x20x1, .i32⟩
  | 89 => ⟨S1, .i32⟩
  | 90 => ⟨S_, .i32⟩
  | 91 => ⟨S4096x20x1, .i32⟩
  | 92 => ⟨S4096x20x1, .i1⟩
  | 93 => ⟨S1x1x1, .i32⟩
  | 94 => ⟨S4096x20x1, .i32⟩
  | 95 => ⟨S4096x20x1, .i1⟩
  | 96 => ⟨S4096x20x1, .i1⟩
  | 97 => ⟨S_, .i1⟩
  | 98 => ⟨S4096x20, .i1⟩
  | 99 => ⟨S4096x20x32, .f32⟩
  | 100 => ⟨S4096x20x32, .i1⟩
  | 101 => ⟨S_, .f32⟩
  | 102 => ⟨S4096x20x32, .f32⟩
  | 103 => ⟨S4096x20x32, .f32⟩
  | 104 => ⟨S1x100001x32, .f32⟩
  | 105 => ⟨S100001x32, .f32⟩
  | 106 => ⟨S1x4096x20, .i32⟩
  | 107 => ⟨S4096x20, .i32⟩
  | 108 => ⟨S_, .i32⟩
  | 109 => ⟨S4096x20, .i32⟩
  | 110 => ⟨S4096x20, .i1⟩
  | 111 => ⟨S_, .i32⟩
  | 112 => ⟨S4096x20, .i32⟩
  | 113 => ⟨S4096x20, .i32⟩
  | 114 => ⟨S4096x20, .i32⟩
  | 115 => ⟨S4096x20x1, .i32⟩
  | 116 => ⟨S1, .i32⟩
  | 117 => ⟨S_, .i32⟩
  | 118 => ⟨S4096x20x1, .i32⟩
  | 119 => ⟨S4096x20x1, .i1⟩
  | 120 => ⟨S1x1x1, .i32⟩
  | 121 => ⟨S4096x20x1, .i32⟩
  | 122 => ⟨S4096x20x1, .i1⟩
  | 123 => ⟨S4096x20x1, .i1⟩
  | 124 => ⟨S_, .i1⟩
  | 125 => ⟨S4096x20, .i1⟩
  | 126 => ⟨S4096x20x32, .f32⟩
  | 127 => ⟨S4096x20x32, .i1⟩
  | _ => ⟨S26x4096x20, .i32⟩

abbrev hbmTy0_4 (i : Nat) : BufTy := match i % 128 with
  | 0 => ⟨S_, .f32⟩
  | 1 => ⟨S4096x20x32, .f32⟩
  | 2 => ⟨S4096x20x32, .f32⟩
  | 3 => ⟨S1x100001x32, .f32⟩
  | 4 => ⟨S100001x32, .f32⟩
  | 5 => ⟨S1x4096x20, .i32⟩
  | 6 => ⟨S4096x20, .i32⟩
  | 7 => ⟨S_, .i32⟩
  | 8 => ⟨S4096x20, .i32⟩
  | 9 => ⟨S4096x20, .i1⟩
  | 10 => ⟨S_, .i32⟩
  | 11 => ⟨S4096x20, .i32⟩
  | 12 => ⟨S4096x20, .i32⟩
  | 13 => ⟨S4096x20, .i32⟩
  | 14 => ⟨S4096x20x1, .i32⟩
  | 15 => ⟨S1, .i32⟩
  | 16 => ⟨S_, .i32⟩
  | 17 => ⟨S4096x20x1, .i32⟩
  | 18 => ⟨S4096x20x1, .i1⟩
  | 19 => ⟨S1x1x1, .i32⟩
  | 20 => ⟨S4096x20x1, .i32⟩
  | 21 => ⟨S4096x20x1, .i1⟩
  | 22 => ⟨S4096x20x1, .i1⟩
  | 23 => ⟨S_, .i1⟩
  | 24 => ⟨S4096x20, .i1⟩
  | 25 => ⟨S4096x20x32, .f32⟩
  | 26 => ⟨S4096x20x32, .i1⟩
  | 27 => ⟨S_, .f32⟩
  | 28 => ⟨S4096x20x32, .f32⟩
  | 29 => ⟨S4096x20x32, .f32⟩
  | 30 => ⟨S1x100001x32, .f32⟩
  | 31 => ⟨S100001x32, .f32⟩
  | 32 => ⟨S1x4096x20, .i32⟩
  | 33 => ⟨S4096x20, .i32⟩
  | 34 => ⟨S_, .i32⟩
  | 35 => ⟨S4096x20, .i32⟩
  | 36 => ⟨S4096x20, .i1⟩
  | 37 => ⟨S_, .i32⟩
  | 38 => ⟨S4096x20, .i32⟩
  | 39 => ⟨S4096x20, .i32⟩
  | 40 => ⟨S4096x20, .i32⟩
  | 41 => ⟨S4096x20x1, .i32⟩
  | 42 => ⟨S1, .i32⟩
  | 43 => ⟨S_, .i32⟩
  | 44 => ⟨S4096x20x1, .i32⟩
  | 45 => ⟨S4096x20x1, .i1⟩
  | 46 => ⟨S1x1x1, .i32⟩
  | 47 => ⟨S4096x20x1, .i32⟩
  | 48 => ⟨S4096x20x1, .i1⟩
  | 49 => ⟨S4096x20x1, .i1⟩
  | 50 => ⟨S_, .i1⟩
  | 51 => ⟨S4096x20, .i1⟩
  | 52 => ⟨S4096x20x32, .f32⟩
  | 53 => ⟨S4096x20x32, .i1⟩
  | 54 => ⟨S_, .f32⟩
  | 55 => ⟨S4096x20x32, .f32⟩
  | 56 => ⟨S4096x20x32, .f32⟩
  | 57 => ⟨S1x100001x32, .f32⟩
  | 58 => ⟨S100001x32, .f32⟩
  | 59 => ⟨S1x4096x20, .i32⟩
  | 60 => ⟨S4096x20, .i32⟩
  | 61 => ⟨S_, .i32⟩
  | 62 => ⟨S4096x20, .i32⟩
  | 63 => ⟨S4096x20, .i1⟩
  | 64 => ⟨S_, .i32⟩
  | 65 => ⟨S4096x20, .i32⟩
  | 66 => ⟨S4096x20, .i32⟩
  | 67 => ⟨S4096x20, .i32⟩
  | 68 => ⟨S4096x20x1, .i32⟩
  | 69 => ⟨S1, .i32⟩
  | 70 => ⟨S_, .i32⟩
  | 71 => ⟨S4096x20x1, .i32⟩
  | 72 => ⟨S4096x20x1, .i1⟩
  | 73 => ⟨S1x1x1, .i32⟩
  | 74 => ⟨S4096x20x1, .i32⟩
  | 75 => ⟨S4096x20x1, .i1⟩
  | 76 => ⟨S4096x20x1, .i1⟩
  | 77 => ⟨S_, .i1⟩
  | 78 => ⟨S4096x20, .i1⟩
  | 79 => ⟨S4096x20x32, .f32⟩
  | 80 => ⟨S4096x20x32, .i1⟩
  | 81 => ⟨S_, .f32⟩
  | 82 => ⟨S4096x20x32, .f32⟩
  | 83 => ⟨S4096x20x32, .f32⟩
  | 84 => ⟨S1x100001x32, .f32⟩
  | 85 => ⟨S100001x32, .f32⟩
  | 86 => ⟨S1x4096x20, .i32⟩
  | 87 => ⟨S4096x20, .i32⟩
  | 88 => ⟨S_, .i32⟩
  | 89 => ⟨S4096x20, .i32⟩
  | 90 => ⟨S4096x20, .i1⟩
  | 91 => ⟨S_, .i32⟩
  | 92 => ⟨S4096x20, .i32⟩
  | 93 => ⟨S4096x20, .i32⟩
  | 94 => ⟨S4096x20, .i32⟩
  | 95 => ⟨S4096x20x1, .i32⟩
  | 96 => ⟨S1, .i32⟩
  | 97 => ⟨S_, .i32⟩
  | 98 => ⟨S4096x20x1, .i32⟩
  | 99 => ⟨S4096x20x1, .i1⟩
  | 100 => ⟨S1x1x1, .i32⟩
  | 101 => ⟨S4096x20x1, .i32⟩
  | 102 => ⟨S4096x20x1, .i1⟩
  | 103 => ⟨S4096x20x1, .i1⟩
  | 104 => ⟨S_, .i1⟩
  | 105 => ⟨S4096x20, .i1⟩
  | 106 => ⟨S4096x20x32, .f32⟩
  | 107 => ⟨S4096x20x32, .i1⟩
  | 108 => ⟨S_, .f32⟩
  | 109 => ⟨S4096x20x32, .f32⟩
  | 110 => ⟨S4096x20x32, .f32⟩
  | 111 => ⟨S1x100001x32, .f32⟩
  | 112 => ⟨S100001x32, .f32⟩
  | 113 => ⟨S1x4096x20, .i32⟩
  | 114 => ⟨S4096x20, .i32⟩
  | 115 => ⟨S_, .i32⟩
  | 116 => ⟨S4096x20, .i32⟩
  | 117 => ⟨S4096x20, .i1⟩
  | 118 => ⟨S_, .i32⟩
  | 119 => ⟨S4096x20, .i32⟩
  | 120 => ⟨S4096x20, .i32⟩
  | 121 => ⟨S4096x20, .i32⟩
  | 122 => ⟨S4096x20x1, .i32⟩
  | 123 => ⟨S1, .i32⟩
  | 124 => ⟨S_, .i32⟩
  | 125 => ⟨S4096x20x1, .i32⟩
  | 126 => ⟨S4096x20x1, .i1⟩
  | 127 => ⟨S1x1x1, .i32⟩
  | _ => ⟨S26x4096x20, .i32⟩

abbrev hbmTy0_5 (i : Nat) : BufTy := match i % 128 with
  | 0 => ⟨S4096x20x1, .i32⟩
  | 1 => ⟨S4096x20x1, .i1⟩
  | 2 => ⟨S4096x20x1, .i1⟩
  | 3 => ⟨S_, .i1⟩
  | 4 => ⟨S4096x20, .i1⟩
  | 5 => ⟨S4096x20x32, .f32⟩
  | 6 => ⟨S4096x20x32, .i1⟩
  | 7 => ⟨S_, .f32⟩
  | 8 => ⟨S4096x20x32, .f32⟩
  | 9 => ⟨S4096x20x32, .f32⟩
  | 10 => ⟨S1x100001x32, .f32⟩
  | 11 => ⟨S100001x32, .f32⟩
  | 12 => ⟨S1x4096x20, .i32⟩
  | 13 => ⟨S4096x20, .i32⟩
  | 14 => ⟨S_, .i32⟩
  | 15 => ⟨S4096x20, .i32⟩
  | 16 => ⟨S4096x20, .i1⟩
  | 17 => ⟨S_, .i32⟩
  | 18 => ⟨S4096x20, .i32⟩
  | 19 => ⟨S4096x20, .i32⟩
  | 20 => ⟨S4096x20, .i32⟩
  | 21 => ⟨S4096x20x1, .i32⟩
  | 22 => ⟨S1, .i32⟩
  | 23 => ⟨S_, .i32⟩
  | 24 => ⟨S4096x20x1, .i32⟩
  | 25 => ⟨S4096x20x1, .i1⟩
  | 26 => ⟨S1x1x1, .i32⟩
  | 27 => ⟨S4096x20x1, .i32⟩
  | 28 => ⟨S4096x20x1, .i1⟩
  | 29 => ⟨S4096x20x1, .i1⟩
  | 30 => ⟨S_, .i1⟩
  | 31 => ⟨S4096x20, .i1⟩
  | 32 => ⟨S4096x20x32, .f32⟩
  | 33 => ⟨S4096x20x32, .i1⟩
  | 34 => ⟨S_, .f32⟩
  | 35 => ⟨S4096x20x32, .f32⟩
  | 36 => ⟨S4096x20x32, .f32⟩
  | 37 => ⟨S1x100001x32, .f32⟩
  | 38 => ⟨S100001x32, .f32⟩
  | 39 => ⟨S1x4096x20, .i32⟩
  | 40 => ⟨S4096x20, .i32⟩
  | 41 => ⟨S_, .i32⟩
  | 42 => ⟨S4096x20, .i32⟩
  | 43 => ⟨S4096x20, .i1⟩
  | 44 => ⟨S_, .i32⟩
  | 45 => ⟨S4096x20, .i32⟩
  | 46 => ⟨S4096x20, .i32⟩
  | 47 => ⟨S4096x20, .i32⟩
  | 48 => ⟨S4096x20x1, .i32⟩
  | 49 => ⟨S1, .i32⟩
  | 50 => ⟨S_, .i32⟩
  | 51 => ⟨S4096x20x1, .i32⟩
  | 52 => ⟨S4096x20x1, .i1⟩
  | 53 => ⟨S1x1x1, .i32⟩
  | 54 => ⟨S4096x20x1, .i32⟩
  | 55 => ⟨S4096x20x1, .i1⟩
  | 56 => ⟨S4096x20x1, .i1⟩
  | 57 => ⟨S_, .i1⟩
  | 58 => ⟨S4096x20, .i1⟩
  | 59 => ⟨S4096x20x32, .f32⟩
  | 60 => ⟨S4096x20x32, .i1⟩
  | 61 => ⟨S_, .f32⟩
  | 62 => ⟨S4096x20x32, .f32⟩
  | 63 => ⟨S4096x20x32, .f32⟩
  | 64 => ⟨S4096x20x512, .f32⟩
  | 65 => ⟨S4096x20x320, .f32⟩
  | 66 => ⟨S4096x20x832, .f32⟩
  | _ => ⟨S26x4096x20, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S26x4096x20, .i32⟩

abbrev bufTy : (tb : Table) → Fin (tcTables nBuf tb) → BufTy
  | .hbm, ⟨i, _⟩ => hbmTy i
  | _, _ => ⟨S26x4096x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_call2_c : Ref sig .tc := ⟨.hbm, 60, rfl⟩
abbrev main_call2_v0 : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_c_1 : Ref sig .tc := ⟨.hbm, 68, rfl⟩
abbrev main_call2_c_2 : Ref sig .tc := ⟨.hbm, 69, rfl⟩
abbrev main_call2_v6 : Ref sig .tc := ⟨.hbm, 70, rfl⟩
abbrev main_call2_v7 : Ref sig .tc := ⟨.hbm, 71, rfl⟩
abbrev main_call2_v8 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_c_3 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_call2_cst : Ref sig .tc := ⟨.hbm, 80, rfl⟩
abbrev main_call2_v15 : Ref sig .tc := ⟨.hbm, 81, rfl⟩
abbrev main_v14 : Ref sig .tc := ⟨.hbm, 82, rfl⟩
abbrev main_v15 : Ref sig .tc := ⟨.hbm, 83, rfl⟩
abbrev main_v16 : Ref sig .tc := ⟨.hbm, 84, rfl⟩
abbrev main_v17 : Ref sig .tc := ⟨.hbm, 85, rfl⟩
abbrev main_v18 : Ref sig .tc := ⟨.hbm, 86, rfl⟩
abbrev main_call3_c : Ref sig .tc := ⟨.hbm, 87, rfl⟩
abbrev main_call3_v0 : Ref sig .tc := ⟨.hbm, 88, rfl⟩
abbrev main_call3_v1 : Ref sig .tc := ⟨.hbm, 89, rfl⟩
abbrev main_call3_c_0 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_call3_v5 : Ref sig .tc := ⟨.hbm, 94, rfl⟩
abbrev main_call3_c_1 : Ref sig .tc := ⟨.hbm, 95, rfl⟩
abbrev main_call3_c_2 : Ref sig .tc := ⟨.hbm, 96, rfl⟩
abbrev main_call3_v6 : Ref sig .tc := ⟨.hbm, 97, rfl⟩
abbrev main_call3_v7 : Ref sig .tc := ⟨.hbm, 98, rfl⟩
abbrev main_call3_v8 : Ref sig .tc := ⟨.hbm, 99, rfl⟩
abbrev main_call3_v9 : Ref sig .tc := ⟨.hbm, 100, rfl⟩
abbrev main_call3_v10 : Ref sig .tc := ⟨.hbm, 101, rfl⟩
abbrev main_call3_v11 : Ref sig .tc := ⟨.hbm, 102, rfl⟩
abbrev main_call3_c_3 : Ref sig .tc := ⟨.hbm, 103, rfl⟩
abbrev main_call3_v12 : Ref sig .tc := ⟨.hbm, 104, rfl⟩
abbrev main_call3_v13 : Ref sig .tc := ⟨.hbm, 105, rfl⟩
abbrev main_call3_v14 : Ref sig .tc := ⟨.hbm, 106, rfl⟩
abbrev main_call3_cst : Ref sig .tc := ⟨.hbm, 107, rfl⟩
abbrev main_call3_v15 : Ref sig .tc := ⟨.hbm, 108, rfl⟩
abbrev main_v19 : Ref sig .tc := ⟨.hbm, 109, rfl⟩
abbrev main_v20 : Ref sig .tc := ⟨.hbm, 110, rfl⟩
abbrev main_v21 : Ref sig .tc := ⟨.hbm, 111, rfl⟩
abbrev main_v22 : Ref sig .tc := ⟨.hbm, 112, rfl⟩
abbrev main_v23 : Ref sig .tc := ⟨.hbm, 113, rfl⟩
abbrev main_call4_c : Ref sig .tc := ⟨.hbm, 114, rfl⟩
abbrev main_call4_v0 : Ref sig .tc := ⟨.hbm, 115, rfl⟩
abbrev main_call4_v1 : Ref sig .tc := ⟨.hbm, 116, rfl⟩
abbrev main_call4_c_0 : Ref sig .tc := ⟨.hbm, 117, rfl⟩
abbrev main_call4_v2 : Ref sig .tc := ⟨.hbm, 118, rfl⟩
abbrev main_call4_v3 : Ref sig .tc := ⟨.hbm, 119, rfl⟩
abbrev main_call4_v4 : Ref sig .tc := ⟨.hbm, 120, rfl⟩
abbrev main_call4_v5 : Ref sig .tc := ⟨.hbm, 121, rfl⟩
abbrev main_call4_c_1 : Ref sig .tc := ⟨.hbm, 122, rfl⟩
abbrev main_call4_c_2 : Ref sig .tc := ⟨.hbm, 123, rfl⟩
abbrev main_call4_v6 : Ref sig .tc := ⟨.hbm, 124, rfl⟩
abbrev main_call4_v7 : Ref sig .tc := ⟨.hbm, 125, rfl⟩
abbrev main_call4_v8 : Ref sig .tc := ⟨.hbm, 126, rfl⟩
abbrev main_call4_v9 : Ref sig .tc := ⟨.hbm, 127, rfl⟩
abbrev main_call4_v10 : Ref sig .tc := ⟨.hbm, 128, rfl⟩
abbrev main_call4_v11 : Ref sig .tc := ⟨.hbm, 129, rfl⟩
abbrev main_call4_c_3 : Ref sig .tc := ⟨.hbm, 130, rfl⟩
abbrev main_call4_v12 : Ref sig .tc := ⟨.hbm, 131, rfl⟩
abbrev main_call4_v13 : Ref sig .tc := ⟨.hbm, 132, rfl⟩
abbrev main_call4_v14 : Ref sig .tc := ⟨.hbm, 133, rfl⟩
abbrev main_call4_cst : Ref sig .tc := ⟨.hbm, 134, rfl⟩
abbrev main_call4_v15 : Ref sig .tc := ⟨.hbm, 135, rfl⟩
abbrev main_v24 : Ref sig .tc := ⟨.hbm, 136, rfl⟩
abbrev main_v25 : Ref sig .tc := ⟨.hbm, 137, rfl⟩
abbrev main_v26 : Ref sig .tc := ⟨.hbm, 138, rfl⟩
abbrev main_v27 : Ref sig .tc := ⟨.hbm, 139, rfl⟩
abbrev main_v28 : Ref sig .tc := ⟨.hbm, 140, rfl⟩
abbrev main_call5_c : Ref sig .tc := ⟨.hbm, 141, rfl⟩
abbrev main_call5_v0 : Ref sig .tc := ⟨.hbm, 142, rfl⟩
abbrev main_call5_v1 : Ref sig .tc := ⟨.hbm, 143, rfl⟩
abbrev main_call5_c_0 : Ref sig .tc := ⟨.hbm, 144, rfl⟩
abbrev main_call5_v2 : Ref sig .tc := ⟨.hbm, 145, rfl⟩
abbrev main_call5_v3 : Ref sig .tc := ⟨.hbm, 146, rfl⟩
abbrev main_call5_v4 : Ref sig .tc := ⟨.hbm, 147, rfl⟩
abbrev main_call5_v5 : Ref sig .tc := ⟨.hbm, 148, rfl⟩
abbrev main_call5_c_1 : Ref sig .tc := ⟨.hbm, 149, rfl⟩
abbrev main_call5_c_2 : Ref sig .tc := ⟨.hbm, 150, rfl⟩
abbrev main_call5_v6 : Ref sig .tc := ⟨.hbm, 151, rfl⟩
abbrev main_call5_v7 : Ref sig .tc := ⟨.hbm, 152, rfl⟩
abbrev main_call5_v8 : Ref sig .tc := ⟨.hbm, 153, rfl⟩
abbrev main_call5_v9 : Ref sig .tc := ⟨.hbm, 154, rfl⟩
abbrev main_call5_v10 : Ref sig .tc := ⟨.hbm, 155, rfl⟩
abbrev main_call5_v11 : Ref sig .tc := ⟨.hbm, 156, rfl⟩
abbrev main_call5_c_3 : Ref sig .tc := ⟨.hbm, 157, rfl⟩
abbrev main_call5_v12 : Ref sig .tc := ⟨.hbm, 158, rfl⟩
abbrev main_call5_v13 : Ref sig .tc := ⟨.hbm, 159, rfl⟩
abbrev main_call5_v14 : Ref sig .tc := ⟨.hbm, 160, rfl⟩
abbrev main_call5_cst : Ref sig .tc := ⟨.hbm, 161, rfl⟩
abbrev main_call5_v15 : Ref sig .tc := ⟨.hbm, 162, rfl⟩
abbrev main_v29 : Ref sig .tc := ⟨.hbm, 163, rfl⟩
abbrev main_v30 : Ref sig .tc := ⟨.hbm, 164, rfl⟩
abbrev main_v31 : Ref sig .tc := ⟨.hbm, 165, rfl⟩
abbrev main_v32 : Ref sig .tc := ⟨.hbm, 166, rfl⟩
abbrev main_v33 : Ref sig .tc := ⟨.hbm, 167, rfl⟩
abbrev main_call6_c : Ref sig .tc := ⟨.hbm, 168, rfl⟩
abbrev main_call6_v0 : Ref sig .tc := ⟨.hbm, 169, rfl⟩
abbrev main_call6_v1 : Ref sig .tc := ⟨.hbm, 170, rfl⟩
abbrev main_call6_c_0 : Ref sig .tc := ⟨.hbm, 171, rfl⟩
abbrev main_call6_v2 : Ref sig .tc := ⟨.hbm, 172, rfl⟩
abbrev main_call6_v3 : Ref sig .tc := ⟨.hbm, 173, rfl⟩
abbrev main_call6_v4 : Ref sig .tc := ⟨.hbm, 174, rfl⟩
abbrev main_call6_v5 : Ref sig .tc := ⟨.hbm, 175, rfl⟩
abbrev main_call6_c_1 : Ref sig .tc := ⟨.hbm, 176, rfl⟩
abbrev main_call6_c_2 : Ref sig .tc := ⟨.hbm, 177, rfl⟩
abbrev main_call6_v6 : Ref sig .tc := ⟨.hbm, 178, rfl⟩
abbrev main_call6_v7 : Ref sig .tc := ⟨.hbm, 179, rfl⟩
abbrev main_call6_v8 : Ref sig .tc := ⟨.hbm, 180, rfl⟩
abbrev main_call6_v9 : Ref sig .tc := ⟨.hbm, 181, rfl⟩
abbrev main_call6_v10 : Ref sig .tc := ⟨.hbm, 182, rfl⟩
abbrev main_call6_v11 : Ref sig .tc := ⟨.hbm, 183, rfl⟩
abbrev main_call6_c_3 : Ref sig .tc := ⟨.hbm, 184, rfl⟩
abbrev main_call6_v12 : Ref sig .tc := ⟨.hbm, 185, rfl⟩
abbrev main_call6_v13 : Ref sig .tc := ⟨.hbm, 186, rfl⟩
abbrev main_call6_v14 : Ref sig .tc := ⟨.hbm, 187, rfl⟩
abbrev main_call6_cst : Ref sig .tc := ⟨.hbm, 188, rfl⟩
abbrev main_call6_v15 : Ref sig .tc := ⟨.hbm, 189, rfl⟩
abbrev main_v34 : Ref sig .tc := ⟨.hbm, 190, rfl⟩
abbrev main_v35 : Ref sig .tc := ⟨.hbm, 191, rfl⟩
abbrev main_v36 : Ref sig .tc := ⟨.hbm, 192, rfl⟩
abbrev main_v37 : Ref sig .tc := ⟨.hbm, 193, rfl⟩
abbrev main_v38 : Ref sig .tc := ⟨.hbm, 194, rfl⟩
abbrev main_call7_c : Ref sig .tc := ⟨.hbm, 195, rfl⟩
abbrev main_call7_v0 : Ref sig .tc := ⟨.hbm, 196, rfl⟩
abbrev main_call7_v1 : Ref sig .tc := ⟨.hbm, 197, rfl⟩
abbrev main_call7_c_0 : Ref sig .tc := ⟨.hbm, 198, rfl⟩
abbrev main_call7_v2 : Ref sig .tc := ⟨.hbm, 199, rfl⟩
abbrev main_call7_v3 : Ref sig .tc := ⟨.hbm, 200, rfl⟩
abbrev main_call7_v4 : Ref sig .tc := ⟨.hbm, 201, rfl⟩
abbrev main_call7_v5 : Ref sig .tc := ⟨.hbm, 202, rfl⟩
abbrev main_call7_c_1 : Ref sig .tc := ⟨.hbm, 203, rfl⟩
abbrev main_call7_c_2 : Ref sig .tc := ⟨.hbm, 204, rfl⟩
abbrev main_call7_v6 : Ref sig .tc := ⟨.hbm, 205, rfl⟩
abbrev main_call7_v7 : Ref sig .tc := ⟨.hbm, 206, rfl⟩
abbrev main_call7_v8 : Ref sig .tc := ⟨.hbm, 207, rfl⟩
abbrev main_call7_v9 : Ref sig .tc := ⟨.hbm, 208, rfl⟩
abbrev main_call7_v10 : Ref sig .tc := ⟨.hbm, 209, rfl⟩
abbrev main_call7_v11 : Ref sig .tc := ⟨.hbm, 210, rfl⟩
abbrev main_call7_c_3 : Ref sig .tc := ⟨.hbm, 211, rfl⟩
abbrev main_call7_v12 : Ref sig .tc := ⟨.hbm, 212, rfl⟩
abbrev main_call7_v13 : Ref sig .tc := ⟨.hbm, 213, rfl⟩
abbrev main_call7_v14 : Ref sig .tc := ⟨.hbm, 214, rfl⟩
abbrev main_call7_cst : Ref sig .tc := ⟨.hbm, 215, rfl⟩
abbrev main_call7_v15 : Ref sig .tc := ⟨.hbm, 216, rfl⟩
abbrev main_v39 : Ref sig .tc := ⟨.hbm, 217, rfl⟩
abbrev main_v40 : Ref sig .tc := ⟨.hbm, 218, rfl⟩
abbrev main_v41 : Ref sig .tc := ⟨.hbm, 219, rfl⟩
abbrev main_v42 : Ref sig .tc := ⟨.hbm, 220, rfl⟩
abbrev main_v43 : Ref sig .tc := ⟨.hbm, 221, rfl⟩
abbrev main_call8_c : Ref sig .tc := ⟨.hbm, 222, rfl⟩
abbrev main_call8_v0 : Ref sig .tc := ⟨.hbm, 223, rfl⟩
abbrev main_call8_v1 : Ref sig .tc := ⟨.hbm, 224, rfl⟩
abbrev main_call8_c_0 : Ref sig .tc := ⟨.hbm, 225, rfl⟩
abbrev main_call8_v2 : Ref sig .tc := ⟨.hbm, 226, rfl⟩
abbrev main_call8_v3 : Ref sig .tc := ⟨.hbm, 227, rfl⟩
abbrev main_call8_v4 : Ref sig .tc := ⟨.hbm, 228, rfl⟩
abbrev main_call8_v5 : Ref sig .tc := ⟨.hbm, 229, rfl⟩
abbrev main_call8_c_1 : Ref sig .tc := ⟨.hbm, 230, rfl⟩
abbrev main_call8_c_2 : Ref sig .tc := ⟨.hbm, 231, rfl⟩
abbrev main_call8_v6 : Ref sig .tc := ⟨.hbm, 232, rfl⟩
abbrev main_call8_v7 : Ref sig .tc := ⟨.hbm, 233, rfl⟩
abbrev main_call8_v8 : Ref sig .tc := ⟨.hbm, 234, rfl⟩
abbrev main_call8_v9 : Ref sig .tc := ⟨.hbm, 235, rfl⟩
abbrev main_call8_v10 : Ref sig .tc := ⟨.hbm, 236, rfl⟩
abbrev main_call8_v11 : Ref sig .tc := ⟨.hbm, 237, rfl⟩
abbrev main_call8_c_3 : Ref sig .tc := ⟨.hbm, 238, rfl⟩
abbrev main_call8_v12 : Ref sig .tc := ⟨.hbm, 239, rfl⟩
abbrev main_call8_v13 : Ref sig .tc := ⟨.hbm, 240, rfl⟩
abbrev main_call8_v14 : Ref sig .tc := ⟨.hbm, 241, rfl⟩
abbrev main_call8_cst : Ref sig .tc := ⟨.hbm, 242, rfl⟩
abbrev main_call8_v15 : Ref sig .tc := ⟨.hbm, 243, rfl⟩
abbrev main_v44 : Ref sig .tc := ⟨.hbm, 244, rfl⟩
abbrev main_v45 : Ref sig .tc := ⟨.hbm, 245, rfl⟩
abbrev main_v46 : Ref sig .tc := ⟨.hbm, 246, rfl⟩
abbrev main_v47 : Ref sig .tc := ⟨.hbm, 247, rfl⟩
abbrev main_v48 : Ref sig .tc := ⟨.hbm, 248, rfl⟩
abbrev main_call9_c : Ref sig .tc := ⟨.hbm, 249, rfl⟩
abbrev main_call9_v0 : Ref sig .tc := ⟨.hbm, 250, rfl⟩
abbrev main_call9_v1 : Ref sig .tc := ⟨.hbm, 251, rfl⟩
abbrev main_call9_c_0 : Ref sig .tc := ⟨.hbm, 252, rfl⟩
abbrev main_call9_v2 : Ref sig .tc := ⟨.hbm, 253, rfl⟩
abbrev main_call9_v3 : Ref sig .tc := ⟨.hbm, 254, rfl⟩
abbrev main_call9_v4 : Ref sig .tc := ⟨.hbm, 255, rfl⟩
abbrev main_call9_v5 : Ref sig .tc := ⟨.hbm, 256, rfl⟩
abbrev main_call9_c_1 : Ref sig .tc := ⟨.hbm, 257, rfl⟩
abbrev main_call9_c_2 : Ref sig .tc := ⟨.hbm, 258, rfl⟩
abbrev main_call9_v6 : Ref sig .tc := ⟨.hbm, 259, rfl⟩
abbrev main_call9_v7 : Ref sig .tc := ⟨.hbm, 260, rfl⟩
abbrev main_call9_v8 : Ref sig .tc := ⟨.hbm, 261, rfl⟩
abbrev main_call9_v9 : Ref sig .tc := ⟨.hbm, 262, rfl⟩
abbrev main_call9_v10 : Ref sig .tc := ⟨.hbm, 263, rfl⟩
abbrev main_call9_v11 : Ref sig .tc := ⟨.hbm, 264, rfl⟩
abbrev main_call9_c_3 : Ref sig .tc := ⟨.hbm, 265, rfl⟩
abbrev main_call9_v12 : Ref sig .tc := ⟨.hbm, 266, rfl⟩
abbrev main_call9_v13 : Ref sig .tc := ⟨.hbm, 267, rfl⟩
abbrev main_call9_v14 : Ref sig .tc := ⟨.hbm, 268, rfl⟩
abbrev main_call9_cst : Ref sig .tc := ⟨.hbm, 269, rfl⟩
abbrev main_call9_v15 : Ref sig .tc := ⟨.hbm, 270, rfl⟩
abbrev main_v49 : Ref sig .tc := ⟨.hbm, 271, rfl⟩
abbrev main_v50 : Ref sig .tc := ⟨.hbm, 272, rfl⟩
abbrev main_v51 : Ref sig .tc := ⟨.hbm, 273, rfl⟩
abbrev main_v52 : Ref sig .tc := ⟨.hbm, 274, rfl⟩
abbrev main_v53 : Ref sig .tc := ⟨.hbm, 275, rfl⟩
abbrev main_call10_c : Ref sig .tc := ⟨.hbm, 276, rfl⟩
abbrev main_call10_v0 : Ref sig .tc := ⟨.hbm, 277, rfl⟩
abbrev main_call10_v1 : Ref sig .tc := ⟨.hbm, 278, rfl⟩
abbrev main_call10_c_0 : Ref sig .tc := ⟨.hbm, 279, rfl⟩
abbrev main_call10_v2 : Ref sig .tc := ⟨.hbm, 280, rfl⟩
abbrev main_call10_v3 : Ref sig .tc := ⟨.hbm, 281, rfl⟩
abbrev main_call10_v4 : Ref sig .tc := ⟨.hbm, 282, rfl⟩
abbrev main_call10_v5 : Ref sig .tc := ⟨.hbm, 283, rfl⟩
abbrev main_call10_c_1 : Ref sig .tc := ⟨.hbm, 284, rfl⟩
abbrev main_call10_c_2 : Ref sig .tc := ⟨.hbm, 285, rfl⟩
abbrev main_call10_v6 : Ref sig .tc := ⟨.hbm, 286, rfl⟩
abbrev main_call10_v7 : Ref sig .tc := ⟨.hbm, 287, rfl⟩
abbrev main_call10_v8 : Ref sig .tc := ⟨.hbm, 288, rfl⟩
abbrev main_call10_v9 : Ref sig .tc := ⟨.hbm, 289, rfl⟩
abbrev main_call10_v10 : Ref sig .tc := ⟨.hbm, 290, rfl⟩
abbrev main_call10_v11 : Ref sig .tc := ⟨.hbm, 291, rfl⟩
abbrev main_call10_c_3 : Ref sig .tc := ⟨.hbm, 292, rfl⟩
abbrev main_call10_v12 : Ref sig .tc := ⟨.hbm, 293, rfl⟩
abbrev main_call10_v13 : Ref sig .tc := ⟨.hbm, 294, rfl⟩
abbrev main_call10_v14 : Ref sig .tc := ⟨.hbm, 295, rfl⟩
abbrev main_call10_cst : Ref sig .tc := ⟨.hbm, 296, rfl⟩
abbrev main_call10_v15 : Ref sig .tc := ⟨.hbm, 297, rfl⟩
abbrev main_v54 : Ref sig .tc := ⟨.hbm, 298, rfl⟩
abbrev main_v55 : Ref sig .tc := ⟨.hbm, 299, rfl⟩
abbrev main_v56 : Ref sig .tc := ⟨.hbm, 300, rfl⟩
abbrev main_v57 : Ref sig .tc := ⟨.hbm, 301, rfl⟩
abbrev main_v58 : Ref sig .tc := ⟨.hbm, 302, rfl⟩
abbrev main_call11_c : Ref sig .tc := ⟨.hbm, 303, rfl⟩
abbrev main_call11_v0 : Ref sig .tc := ⟨.hbm, 304, rfl⟩
abbrev main_call11_v1 : Ref sig .tc := ⟨.hbm, 305, rfl⟩
abbrev main_call11_c_0 : Ref sig .tc := ⟨.hbm, 306, rfl⟩
abbrev main_call11_v2 : Ref sig .tc := ⟨.hbm, 307, rfl⟩
abbrev main_call11_v3 : Ref sig .tc := ⟨.hbm, 308, rfl⟩
abbrev main_call11_v4 : Ref sig .tc := ⟨.hbm, 309, rfl⟩
abbrev main_call11_v5 : Ref sig .tc := ⟨.hbm, 310, rfl⟩
abbrev main_call11_c_1 : Ref sig .tc := ⟨.hbm, 311, rfl⟩
abbrev main_call11_c_2 : Ref sig .tc := ⟨.hbm, 312, rfl⟩
abbrev main_call11_v6 : Ref sig .tc := ⟨.hbm, 313, rfl⟩
abbrev main_call11_v7 : Ref sig .tc := ⟨.hbm, 314, rfl⟩
abbrev main_call11_v8 : Ref sig .tc := ⟨.hbm, 315, rfl⟩
abbrev main_call11_v9 : Ref sig .tc := ⟨.hbm, 316, rfl⟩
abbrev main_call11_v10 : Ref sig .tc := ⟨.hbm, 317, rfl⟩
abbrev main_call11_v11 : Ref sig .tc := ⟨.hbm, 318, rfl⟩
abbrev main_call11_c_3 : Ref sig .tc := ⟨.hbm, 319, rfl⟩
abbrev main_call11_v12 : Ref sig .tc := ⟨.hbm, 320, rfl⟩
abbrev main_call11_v13 : Ref sig .tc := ⟨.hbm, 321, rfl⟩
abbrev main_call11_v14 : Ref sig .tc := ⟨.hbm, 322, rfl⟩
abbrev main_call11_cst : Ref sig .tc := ⟨.hbm, 323, rfl⟩
abbrev main_call11_v15 : Ref sig .tc := ⟨.hbm, 324, rfl⟩
abbrev main_v59 : Ref sig .tc := ⟨.hbm, 325, rfl⟩
abbrev main_v60 : Ref sig .tc := ⟨.hbm, 326, rfl⟩
abbrev main_v61 : Ref sig .tc := ⟨.hbm, 327, rfl⟩
abbrev main_v62 : Ref sig .tc := ⟨.hbm, 328, rfl⟩
abbrev main_v63 : Ref sig .tc := ⟨.hbm, 329, rfl⟩
abbrev main_call12_c : Ref sig .tc := ⟨.hbm, 330, rfl⟩
abbrev main_call12_v0 : Ref sig .tc := ⟨.hbm, 331, rfl⟩
abbrev main_call12_v1 : Ref sig .tc := ⟨.hbm, 332, rfl⟩
abbrev main_call12_c_0 : Ref sig .tc := ⟨.hbm, 333, rfl⟩
abbrev main_call12_v2 : Ref sig .tc := ⟨.hbm, 334, rfl⟩
abbrev main_call12_v3 : Ref sig .tc := ⟨.hbm, 335, rfl⟩
abbrev main_call12_v4 : Ref sig .tc := ⟨.hbm, 336, rfl⟩
abbrev main_call12_v5 : Ref sig .tc := ⟨.hbm, 337, rfl⟩
abbrev main_call12_c_1 : Ref sig .tc := ⟨.hbm, 338, rfl⟩
abbrev main_call12_c_2 : Ref sig .tc := ⟨.hbm, 339, rfl⟩
abbrev main_call12_v6 : Ref sig .tc := ⟨.hbm, 340, rfl⟩
abbrev main_call12_v7 : Ref sig .tc := ⟨.hbm, 341, rfl⟩
abbrev main_call12_v8 : Ref sig .tc := ⟨.hbm, 342, rfl⟩
abbrev main_call12_v9 : Ref sig .tc := ⟨.hbm, 343, rfl⟩
abbrev main_call12_v10 : Ref sig .tc := ⟨.hbm, 344, rfl⟩
abbrev main_call12_v11 : Ref sig .tc := ⟨.hbm, 345, rfl⟩
abbrev main_call12_c_3 : Ref sig .tc := ⟨.hbm, 346, rfl⟩
abbrev main_call12_v12 : Ref sig .tc := ⟨.hbm, 347, rfl⟩
abbrev main_call12_v13 : Ref sig .tc := ⟨.hbm, 348, rfl⟩
abbrev main_call12_v14 : Ref sig .tc := ⟨.hbm, 349, rfl⟩
abbrev main_call12_cst : Ref sig .tc := ⟨.hbm, 350, rfl⟩
abbrev main_call12_v15 : Ref sig .tc := ⟨.hbm, 351, rfl⟩
abbrev main_v64 : Ref sig .tc := ⟨.hbm, 352, rfl⟩
abbrev main_v65 : Ref sig .tc := ⟨.hbm, 353, rfl⟩
abbrev main_v66 : Ref sig .tc := ⟨.hbm, 354, rfl⟩
abbrev main_v67 : Ref sig .tc := ⟨.hbm, 355, rfl⟩
abbrev main_v68 : Ref sig .tc := ⟨.hbm, 356, rfl⟩
abbrev main_call13_c : Ref sig .tc := ⟨.hbm, 357, rfl⟩
abbrev main_call13_v0 : Ref sig .tc := ⟨.hbm, 358, rfl⟩
abbrev main_call13_v1 : Ref sig .tc := ⟨.hbm, 359, rfl⟩
abbrev main_call13_c_0 : Ref sig .tc := ⟨.hbm, 360, rfl⟩
abbrev main_call13_v2 : Ref sig .tc := ⟨.hbm, 361, rfl⟩
abbrev main_call13_v3 : Ref sig .tc := ⟨.hbm, 362, rfl⟩
abbrev main_call13_v4 : Ref sig .tc := ⟨.hbm, 363, rfl⟩
abbrev main_call13_v5 : Ref sig .tc := ⟨.hbm, 364, rfl⟩
abbrev main_call13_c_1 : Ref sig .tc := ⟨.hbm, 365, rfl⟩
abbrev main_call13_c_2 : Ref sig .tc := ⟨.hbm, 366, rfl⟩
abbrev main_call13_v6 : Ref sig .tc := ⟨.hbm, 367, rfl⟩
abbrev main_call13_v7 : Ref sig .tc := ⟨.hbm, 368, rfl⟩
abbrev main_call13_v8 : Ref sig .tc := ⟨.hbm, 369, rfl⟩
abbrev main_call13_v9 : Ref sig .tc := ⟨.hbm, 370, rfl⟩
abbrev main_call13_v10 : Ref sig .tc := ⟨.hbm, 371, rfl⟩
abbrev main_call13_v11 : Ref sig .tc := ⟨.hbm, 372, rfl⟩
abbrev main_call13_c_3 : Ref sig .tc := ⟨.hbm, 373, rfl⟩
abbrev main_call13_v12 : Ref sig .tc := ⟨.hbm, 374, rfl⟩
abbrev main_call13_v13 : Ref sig .tc := ⟨.hbm, 375, rfl⟩
abbrev main_call13_v14 : Ref sig .tc := ⟨.hbm, 376, rfl⟩
abbrev main_call13_cst : Ref sig .tc := ⟨.hbm, 377, rfl⟩
abbrev main_call13_v15 : Ref sig .tc := ⟨.hbm, 378, rfl⟩
abbrev main_v69 : Ref sig .tc := ⟨.hbm, 379, rfl⟩
abbrev main_v70 : Ref sig .tc := ⟨.hbm, 380, rfl⟩
abbrev main_v71 : Ref sig .tc := ⟨.hbm, 381, rfl⟩
abbrev main_v72 : Ref sig .tc := ⟨.hbm, 382, rfl⟩
abbrev main_v73 : Ref sig .tc := ⟨.hbm, 383, rfl⟩
abbrev main_call14_c : Ref sig .tc := ⟨.hbm, 384, rfl⟩
abbrev main_call14_v0 : Ref sig .tc := ⟨.hbm, 385, rfl⟩
abbrev main_call14_v1 : Ref sig .tc := ⟨.hbm, 386, rfl⟩
abbrev main_call14_c_0 : Ref sig .tc := ⟨.hbm, 387, rfl⟩
abbrev main_call14_v2 : Ref sig .tc := ⟨.hbm, 388, rfl⟩
abbrev main_call14_v3 : Ref sig .tc := ⟨.hbm, 389, rfl⟩
abbrev main_call14_v4 : Ref sig .tc := ⟨.hbm, 390, rfl⟩
abbrev main_call14_v5 : Ref sig .tc := ⟨.hbm, 391, rfl⟩
abbrev main_call14_c_1 : Ref sig .tc := ⟨.hbm, 392, rfl⟩
abbrev main_call14_c_2 : Ref sig .tc := ⟨.hbm, 393, rfl⟩
abbrev main_call14_v6 : Ref sig .tc := ⟨.hbm, 394, rfl⟩
abbrev main_call14_v7 : Ref sig .tc := ⟨.hbm, 395, rfl⟩
abbrev main_call14_v8 : Ref sig .tc := ⟨.hbm, 396, rfl⟩
abbrev main_call14_v9 : Ref sig .tc := ⟨.hbm, 397, rfl⟩
abbrev main_call14_v10 : Ref sig .tc := ⟨.hbm, 398, rfl⟩
abbrev main_call14_v11 : Ref sig .tc := ⟨.hbm, 399, rfl⟩
abbrev main_call14_c_3 : Ref sig .tc := ⟨.hbm, 400, rfl⟩
abbrev main_call14_v12 : Ref sig .tc := ⟨.hbm, 401, rfl⟩
abbrev main_call14_v13 : Ref sig .tc := ⟨.hbm, 402, rfl⟩
abbrev main_call14_v14 : Ref sig .tc := ⟨.hbm, 403, rfl⟩
abbrev main_call14_cst : Ref sig .tc := ⟨.hbm, 404, rfl⟩
abbrev main_call14_v15 : Ref sig .tc := ⟨.hbm, 405, rfl⟩
abbrev main_v74 : Ref sig .tc := ⟨.hbm, 406, rfl⟩
abbrev main_v75 : Ref sig .tc := ⟨.hbm, 407, rfl⟩
abbrev main_v76 : Ref sig .tc := ⟨.hbm, 408, rfl⟩
abbrev main_v77 : Ref sig .tc := ⟨.hbm, 409, rfl⟩
abbrev main_v78 : Ref sig .tc := ⟨.hbm, 410, rfl⟩
abbrev main_call15_c : Ref sig .tc := ⟨.hbm, 411, rfl⟩
abbrev main_call15_v0 : Ref sig .tc := ⟨.hbm, 412, rfl⟩
abbrev main_call15_v1 : Ref sig .tc := ⟨.hbm, 413, rfl⟩
abbrev main_call15_c_0 : Ref sig .tc := ⟨.hbm, 414, rfl⟩
abbrev main_call15_v2 : Ref sig .tc := ⟨.hbm, 415, rfl⟩
abbrev main_call15_v3 : Ref sig .tc := ⟨.hbm, 416, rfl⟩
abbrev main_call15_v4 : Ref sig .tc := ⟨.hbm, 417, rfl⟩
abbrev main_call15_v5 : Ref sig .tc := ⟨.hbm, 418, rfl⟩
abbrev main_call15_c_1 : Ref sig .tc := ⟨.hbm, 419, rfl⟩
abbrev main_call15_c_2 : Ref sig .tc := ⟨.hbm, 420, rfl⟩
abbrev main_call15_v6 : Ref sig .tc := ⟨.hbm, 421, rfl⟩
abbrev main_call15_v7 : Ref sig .tc := ⟨.hbm, 422, rfl⟩
abbrev main_call15_v8 : Ref sig .tc := ⟨.hbm, 423, rfl⟩
abbrev main_call15_v9 : Ref sig .tc := ⟨.hbm, 424, rfl⟩
abbrev main_call15_v10 : Ref sig .tc := ⟨.hbm, 425, rfl⟩
abbrev main_call15_v11 : Ref sig .tc := ⟨.hbm, 426, rfl⟩
abbrev main_call15_c_3 : Ref sig .tc := ⟨.hbm, 427, rfl⟩
abbrev main_call15_v12 : Ref sig .tc := ⟨.hbm, 428, rfl⟩
abbrev main_call15_v13 : Ref sig .tc := ⟨.hbm, 429, rfl⟩
abbrev main_call15_v14 : Ref sig .tc := ⟨.hbm, 430, rfl⟩
abbrev main_call15_cst : Ref sig .tc := ⟨.hbm, 431, rfl⟩
abbrev main_call15_v15 : Ref sig .tc := ⟨.hbm, 432, rfl⟩
abbrev main_v79 : Ref sig .tc := ⟨.hbm, 433, rfl⟩
abbrev main_v80 : Ref sig .tc := ⟨.hbm, 434, rfl⟩
abbrev main_v81 : Ref sig .tc := ⟨.hbm, 435, rfl⟩
abbrev main_v82 : Ref sig .tc := ⟨.hbm, 436, rfl⟩
abbrev main_v83 : Ref sig .tc := ⟨.hbm, 437, rfl⟩
abbrev main_call16_c : Ref sig .tc := ⟨.hbm, 438, rfl⟩
abbrev main_call16_v0 : Ref sig .tc := ⟨.hbm, 439, rfl⟩
abbrev main_call16_v1 : Ref sig .tc := ⟨.hbm, 440, rfl⟩
abbrev main_call16_c_0 : Ref sig .tc := ⟨.hbm, 441, rfl⟩
abbrev main_call16_v2 : Ref sig .tc := ⟨.hbm, 442, rfl⟩
abbrev main_call16_v3 : Ref sig .tc := ⟨.hbm, 443, rfl⟩
abbrev main_call16_v4 : Ref sig .tc := ⟨.hbm, 444, rfl⟩
abbrev main_call16_v5 : Ref sig .tc := ⟨.hbm, 445, rfl⟩
abbrev main_call16_c_1 : Ref sig .tc := ⟨.hbm, 446, rfl⟩
abbrev main_call16_c_2 : Ref sig .tc := ⟨.hbm, 447, rfl⟩
abbrev main_call16_v6 : Ref sig .tc := ⟨.hbm, 448, rfl⟩
abbrev main_call16_v7 : Ref sig .tc := ⟨.hbm, 449, rfl⟩
abbrev main_call16_v8 : Ref sig .tc := ⟨.hbm, 450, rfl⟩
abbrev main_call16_v9 : Ref sig .tc := ⟨.hbm, 451, rfl⟩
abbrev main_call16_v10 : Ref sig .tc := ⟨.hbm, 452, rfl⟩
abbrev main_call16_v11 : Ref sig .tc := ⟨.hbm, 453, rfl⟩
abbrev main_call16_c_3 : Ref sig .tc := ⟨.hbm, 454, rfl⟩
abbrev main_call16_v12 : Ref sig .tc := ⟨.hbm, 455, rfl⟩
abbrev main_call16_v13 : Ref sig .tc := ⟨.hbm, 456, rfl⟩
abbrev main_call16_v14 : Ref sig .tc := ⟨.hbm, 457, rfl⟩
abbrev main_call16_cst : Ref sig .tc := ⟨.hbm, 458, rfl⟩
abbrev main_call16_v15 : Ref sig .tc := ⟨.hbm, 459, rfl⟩
abbrev main_v84 : Ref sig .tc := ⟨.hbm, 460, rfl⟩
abbrev main_v85 : Ref sig .tc := ⟨.hbm, 461, rfl⟩
abbrev main_v86 : Ref sig .tc := ⟨.hbm, 462, rfl⟩
abbrev main_v87 : Ref sig .tc := ⟨.hbm, 463, rfl⟩
abbrev main_v88 : Ref sig .tc := ⟨.hbm, 464, rfl⟩
abbrev main_call17_c : Ref sig .tc := ⟨.hbm, 465, rfl⟩
abbrev main_call17_v0 : Ref sig .tc := ⟨.hbm, 466, rfl⟩
abbrev main_call17_v1 : Ref sig .tc := ⟨.hbm, 467, rfl⟩
abbrev main_call17_c_0 : Ref sig .tc := ⟨.hbm, 468, rfl⟩
abbrev main_call17_v2 : Ref sig .tc := ⟨.hbm, 469, rfl⟩
abbrev main_call17_v3 : Ref sig .tc := ⟨.hbm, 470, rfl⟩
abbrev main_call17_v4 : Ref sig .tc := ⟨.hbm, 471, rfl⟩
abbrev main_call17_v5 : Ref sig .tc := ⟨.hbm, 472, rfl⟩
abbrev main_call17_c_1 : Ref sig .tc := ⟨.hbm, 473, rfl⟩
abbrev main_call17_c_2 : Ref sig .tc := ⟨.hbm, 474, rfl⟩
abbrev main_call17_v6 : Ref sig .tc := ⟨.hbm, 475, rfl⟩
abbrev main_call17_v7 : Ref sig .tc := ⟨.hbm, 476, rfl⟩
abbrev main_call17_v8 : Ref sig .tc := ⟨.hbm, 477, rfl⟩
abbrev main_call17_v9 : Ref sig .tc := ⟨.hbm, 478, rfl⟩
abbrev main_call17_v10 : Ref sig .tc := ⟨.hbm, 479, rfl⟩
abbrev main_call17_v11 : Ref sig .tc := ⟨.hbm, 480, rfl⟩
abbrev main_call17_c_3 : Ref sig .tc := ⟨.hbm, 481, rfl⟩
abbrev main_call17_v12 : Ref sig .tc := ⟨.hbm, 482, rfl⟩
abbrev main_call17_v13 : Ref sig .tc := ⟨.hbm, 483, rfl⟩
abbrev main_call17_v14 : Ref sig .tc := ⟨.hbm, 484, rfl⟩
abbrev main_call17_cst : Ref sig .tc := ⟨.hbm, 485, rfl⟩
abbrev main_call17_v15 : Ref sig .tc := ⟨.hbm, 486, rfl⟩
abbrev main_v89 : Ref sig .tc := ⟨.hbm, 487, rfl⟩
abbrev main_v90 : Ref sig .tc := ⟨.hbm, 488, rfl⟩
abbrev main_v91 : Ref sig .tc := ⟨.hbm, 489, rfl⟩
abbrev main_v92 : Ref sig .tc := ⟨.hbm, 490, rfl⟩
abbrev main_v93 : Ref sig .tc := ⟨.hbm, 491, rfl⟩
abbrev main_call18_c : Ref sig .tc := ⟨.hbm, 492, rfl⟩
abbrev main_call18_v0 : Ref sig .tc := ⟨.hbm, 493, rfl⟩
abbrev main_call18_v1 : Ref sig .tc := ⟨.hbm, 494, rfl⟩
abbrev main_call18_c_0 : Ref sig .tc := ⟨.hbm, 495, rfl⟩
abbrev main_call18_v2 : Ref sig .tc := ⟨.hbm, 496, rfl⟩
abbrev main_call18_v3 : Ref sig .tc := ⟨.hbm, 497, rfl⟩
abbrev main_call18_v4 : Ref sig .tc := ⟨.hbm, 498, rfl⟩
abbrev main_call18_v5 : Ref sig .tc := ⟨.hbm, 499, rfl⟩
abbrev main_call18_c_1 : Ref sig .tc := ⟨.hbm, 500, rfl⟩
abbrev main_call18_c_2 : Ref sig .tc := ⟨.hbm, 501, rfl⟩
abbrev main_call18_v6 : Ref sig .tc := ⟨.hbm, 502, rfl⟩
abbrev main_call18_v7 : Ref sig .tc := ⟨.hbm, 503, rfl⟩
abbrev main_call18_v8 : Ref sig .tc := ⟨.hbm, 504, rfl⟩
abbrev main_call18_v9 : Ref sig .tc := ⟨.hbm, 505, rfl⟩
abbrev main_call18_v10 : Ref sig .tc := ⟨.hbm, 506, rfl⟩
abbrev main_call18_v11 : Ref sig .tc := ⟨.hbm, 507, rfl⟩
abbrev main_call18_c_3 : Ref sig .tc := ⟨.hbm, 508, rfl⟩
abbrev main_call18_v12 : Ref sig .tc := ⟨.hbm, 509, rfl⟩
abbrev main_call18_v13 : Ref sig .tc := ⟨.hbm, 510, rfl⟩
abbrev main_call18_v14 : Ref sig .tc := ⟨.hbm, 511, rfl⟩
abbrev main_call18_cst : Ref sig .tc := ⟨.hbm, 512, rfl⟩
abbrev main_call18_v15 : Ref sig .tc := ⟨.hbm, 513, rfl⟩
abbrev main_v94 : Ref sig .tc := ⟨.hbm, 514, rfl⟩
abbrev main_v95 : Ref sig .tc := ⟨.hbm, 515, rfl⟩
abbrev main_v96 : Ref sig .tc := ⟨.hbm, 516, rfl⟩
abbrev main_v97 : Ref sig .tc := ⟨.hbm, 517, rfl⟩
abbrev main_v98 : Ref sig .tc := ⟨.hbm, 518, rfl⟩
abbrev main_call19_c : Ref sig .tc := ⟨.hbm, 519, rfl⟩
abbrev main_call19_v0 : Ref sig .tc := ⟨.hbm, 520, rfl⟩
abbrev main_call19_v1 : Ref sig .tc := ⟨.hbm, 521, rfl⟩
abbrev main_call19_c_0 : Ref sig .tc := ⟨.hbm, 522, rfl⟩
abbrev main_call19_v2 : Ref sig .tc := ⟨.hbm, 523, rfl⟩
abbrev main_call19_v3 : Ref sig .tc := ⟨.hbm, 524, rfl⟩
abbrev main_call19_v4 : Ref sig .tc := ⟨.hbm, 525, rfl⟩
abbrev main_call19_v5 : Ref sig .tc := ⟨.hbm, 526, rfl⟩
abbrev main_call19_c_1 : Ref sig .tc := ⟨.hbm, 527, rfl⟩
abbrev main_call19_c_2 : Ref sig .tc := ⟨.hbm, 528, rfl⟩
abbrev main_call19_v6 : Ref sig .tc := ⟨.hbm, 529, rfl⟩
abbrev main_call19_v7 : Ref sig .tc := ⟨.hbm, 530, rfl⟩
abbrev main_call19_v8 : Ref sig .tc := ⟨.hbm, 531, rfl⟩
abbrev main_call19_v9 : Ref sig .tc := ⟨.hbm, 532, rfl⟩
abbrev main_call19_v10 : Ref sig .tc := ⟨.hbm, 533, rfl⟩
abbrev main_call19_v11 : Ref sig .tc := ⟨.hbm, 534, rfl⟩
abbrev main_call19_c_3 : Ref sig .tc := ⟨.hbm, 535, rfl⟩
abbrev main_call19_v12 : Ref sig .tc := ⟨.hbm, 536, rfl⟩
abbrev main_call19_v13 : Ref sig .tc := ⟨.hbm, 537, rfl⟩
abbrev main_call19_v14 : Ref sig .tc := ⟨.hbm, 538, rfl⟩
abbrev main_call19_cst : Ref sig .tc := ⟨.hbm, 539, rfl⟩
abbrev main_call19_v15 : Ref sig .tc := ⟨.hbm, 540, rfl⟩
abbrev main_v99 : Ref sig .tc := ⟨.hbm, 541, rfl⟩
abbrev main_v100 : Ref sig .tc := ⟨.hbm, 542, rfl⟩
abbrev main_v101 : Ref sig .tc := ⟨.hbm, 543, rfl⟩
abbrev main_v102 : Ref sig .tc := ⟨.hbm, 544, rfl⟩
abbrev main_v103 : Ref sig .tc := ⟨.hbm, 545, rfl⟩
abbrev main_call20_c : Ref sig .tc := ⟨.hbm, 546, rfl⟩
abbrev main_call20_v0 : Ref sig .tc := ⟨.hbm, 547, rfl⟩
abbrev main_call20_v1 : Ref sig .tc := ⟨.hbm, 548, rfl⟩
abbrev main_call20_c_0 : Ref sig .tc := ⟨.hbm, 549, rfl⟩
abbrev main_call20_v2 : Ref sig .tc := ⟨.hbm, 550, rfl⟩
abbrev main_call20_v3 : Ref sig .tc := ⟨.hbm, 551, rfl⟩
abbrev main_call20_v4 : Ref sig .tc := ⟨.hbm, 552, rfl⟩
abbrev main_call20_v5 : Ref sig .tc := ⟨.hbm, 553, rfl⟩
abbrev main_call20_c_1 : Ref sig .tc := ⟨.hbm, 554, rfl⟩
abbrev main_call20_c_2 : Ref sig .tc := ⟨.hbm, 555, rfl⟩
abbrev main_call20_v6 : Ref sig .tc := ⟨.hbm, 556, rfl⟩
abbrev main_call20_v7 : Ref sig .tc := ⟨.hbm, 557, rfl⟩
abbrev main_call20_v8 : Ref sig .tc := ⟨.hbm, 558, rfl⟩
abbrev main_call20_v9 : Ref sig .tc := ⟨.hbm, 559, rfl⟩
abbrev main_call20_v10 : Ref sig .tc := ⟨.hbm, 560, rfl⟩
abbrev main_call20_v11 : Ref sig .tc := ⟨.hbm, 561, rfl⟩
abbrev main_call20_c_3 : Ref sig .tc := ⟨.hbm, 562, rfl⟩
abbrev main_call20_v12 : Ref sig .tc := ⟨.hbm, 563, rfl⟩
abbrev main_call20_v13 : Ref sig .tc := ⟨.hbm, 564, rfl⟩
abbrev main_call20_v14 : Ref sig .tc := ⟨.hbm, 565, rfl⟩
abbrev main_call20_cst : Ref sig .tc := ⟨.hbm, 566, rfl⟩
abbrev main_call20_v15 : Ref sig .tc := ⟨.hbm, 567, rfl⟩
abbrev main_v104 : Ref sig .tc := ⟨.hbm, 568, rfl⟩
abbrev main_v105 : Ref sig .tc := ⟨.hbm, 569, rfl⟩
abbrev main_v106 : Ref sig .tc := ⟨.hbm, 570, rfl⟩
abbrev main_v107 : Ref sig .tc := ⟨.hbm, 571, rfl⟩
abbrev main_v108 : Ref sig .tc := ⟨.hbm, 572, rfl⟩
abbrev main_call21_c : Ref sig .tc := ⟨.hbm, 573, rfl⟩
abbrev main_call21_v0 : Ref sig .tc := ⟨.hbm, 574, rfl⟩
abbrev main_call21_v1 : Ref sig .tc := ⟨.hbm, 575, rfl⟩
abbrev main_call21_c_0 : Ref sig .tc := ⟨.hbm, 576, rfl⟩
abbrev main_call21_v2 : Ref sig .tc := ⟨.hbm, 577, rfl⟩
abbrev main_call21_v3 : Ref sig .tc := ⟨.hbm, 578, rfl⟩
abbrev main_call21_v4 : Ref sig .tc := ⟨.hbm, 579, rfl⟩
abbrev main_call21_v5 : Ref sig .tc := ⟨.hbm, 580, rfl⟩
abbrev main_call21_c_1 : Ref sig .tc := ⟨.hbm, 581, rfl⟩
abbrev main_call21_c_2 : Ref sig .tc := ⟨.hbm, 582, rfl⟩
abbrev main_call21_v6 : Ref sig .tc := ⟨.hbm, 583, rfl⟩
abbrev main_call21_v7 : Ref sig .tc := ⟨.hbm, 584, rfl⟩
abbrev main_call21_v8 : Ref sig .tc := ⟨.hbm, 585, rfl⟩
abbrev main_call21_v9 : Ref sig .tc := ⟨.hbm, 586, rfl⟩
abbrev main_call21_v10 : Ref sig .tc := ⟨.hbm, 587, rfl⟩
abbrev main_call21_v11 : Ref sig .tc := ⟨.hbm, 588, rfl⟩
abbrev main_call21_c_3 : Ref sig .tc := ⟨.hbm, 589, rfl⟩
abbrev main_call21_v12 : Ref sig .tc := ⟨.hbm, 590, rfl⟩
abbrev main_call21_v13 : Ref sig .tc := ⟨.hbm, 591, rfl⟩
abbrev main_call21_v14 : Ref sig .tc := ⟨.hbm, 592, rfl⟩
abbrev main_call21_cst : Ref sig .tc := ⟨.hbm, 593, rfl⟩
abbrev main_call21_v15 : Ref sig .tc := ⟨.hbm, 594, rfl⟩
abbrev main_v109 : Ref sig .tc := ⟨.hbm, 595, rfl⟩
abbrev main_v110 : Ref sig .tc := ⟨.hbm, 596, rfl⟩
abbrev main_v111 : Ref sig .tc := ⟨.hbm, 597, rfl⟩
abbrev main_v112 : Ref sig .tc := ⟨.hbm, 598, rfl⟩
abbrev main_v113 : Ref sig .tc := ⟨.hbm, 599, rfl⟩
abbrev main_call22_c : Ref sig .tc := ⟨.hbm, 600, rfl⟩
abbrev main_call22_v0 : Ref sig .tc := ⟨.hbm, 601, rfl⟩
abbrev main_call22_v1 : Ref sig .tc := ⟨.hbm, 602, rfl⟩
abbrev main_call22_c_0 : Ref sig .tc := ⟨.hbm, 603, rfl⟩
abbrev main_call22_v2 : Ref sig .tc := ⟨.hbm, 604, rfl⟩
abbrev main_call22_v3 : Ref sig .tc := ⟨.hbm, 605, rfl⟩
abbrev main_call22_v4 : Ref sig .tc := ⟨.hbm, 606, rfl⟩
abbrev main_call22_v5 : Ref sig .tc := ⟨.hbm, 607, rfl⟩
abbrev main_call22_c_1 : Ref sig .tc := ⟨.hbm, 608, rfl⟩
abbrev main_call22_c_2 : Ref sig .tc := ⟨.hbm, 609, rfl⟩
abbrev main_call22_v6 : Ref sig .tc := ⟨.hbm, 610, rfl⟩
abbrev main_call22_v7 : Ref sig .tc := ⟨.hbm, 611, rfl⟩
abbrev main_call22_v8 : Ref sig .tc := ⟨.hbm, 612, rfl⟩
abbrev main_call22_v9 : Ref sig .tc := ⟨.hbm, 613, rfl⟩
abbrev main_call22_v10 : Ref sig .tc := ⟨.hbm, 614, rfl⟩
abbrev main_call22_v11 : Ref sig .tc := ⟨.hbm, 615, rfl⟩
abbrev main_call22_c_3 : Ref sig .tc := ⟨.hbm, 616, rfl⟩
abbrev main_call22_v12 : Ref sig .tc := ⟨.hbm, 617, rfl⟩
abbrev main_call22_v13 : Ref sig .tc := ⟨.hbm, 618, rfl⟩
abbrev main_call22_v14 : Ref sig .tc := ⟨.hbm, 619, rfl⟩
abbrev main_call22_cst : Ref sig .tc := ⟨.hbm, 620, rfl⟩
abbrev main_call22_v15 : Ref sig .tc := ⟨.hbm, 621, rfl⟩
abbrev main_v114 : Ref sig .tc := ⟨.hbm, 622, rfl⟩
abbrev main_v115 : Ref sig .tc := ⟨.hbm, 623, rfl⟩
abbrev main_v116 : Ref sig .tc := ⟨.hbm, 624, rfl⟩
abbrev main_v117 : Ref sig .tc := ⟨.hbm, 625, rfl⟩
abbrev main_v118 : Ref sig .tc := ⟨.hbm, 626, rfl⟩
abbrev main_call23_c : Ref sig .tc := ⟨.hbm, 627, rfl⟩
abbrev main_call23_v0 : Ref sig .tc := ⟨.hbm, 628, rfl⟩
abbrev main_call23_v1 : Ref sig .tc := ⟨.hbm, 629, rfl⟩
abbrev main_call23_c_0 : Ref sig .tc := ⟨.hbm, 630, rfl⟩
abbrev main_call23_v2 : Ref sig .tc := ⟨.hbm, 631, rfl⟩
abbrev main_call23_v3 : Ref sig .tc := ⟨.hbm, 632, rfl⟩
abbrev main_call23_v4 : Ref sig .tc := ⟨.hbm, 633, rfl⟩
abbrev main_call23_v5 : Ref sig .tc := ⟨.hbm, 634, rfl⟩
abbrev main_call23_c_1 : Ref sig .tc := ⟨.hbm, 635, rfl⟩
abbrev main_call23_c_2 : Ref sig .tc := ⟨.hbm, 636, rfl⟩
abbrev main_call23_v6 : Ref sig .tc := ⟨.hbm, 637, rfl⟩
abbrev main_call23_v7 : Ref sig .tc := ⟨.hbm, 638, rfl⟩
abbrev main_call23_v8 : Ref sig .tc := ⟨.hbm, 639, rfl⟩
abbrev main_call23_v9 : Ref sig .tc := ⟨.hbm, 640, rfl⟩
abbrev main_call23_v10 : Ref sig .tc := ⟨.hbm, 641, rfl⟩
abbrev main_call23_v11 : Ref sig .tc := ⟨.hbm, 642, rfl⟩
abbrev main_call23_c_3 : Ref sig .tc := ⟨.hbm, 643, rfl⟩
abbrev main_call23_v12 : Ref sig .tc := ⟨.hbm, 644, rfl⟩
abbrev main_call23_v13 : Ref sig .tc := ⟨.hbm, 645, rfl⟩
abbrev main_call23_v14 : Ref sig .tc := ⟨.hbm, 646, rfl⟩
abbrev main_call23_cst : Ref sig .tc := ⟨.hbm, 647, rfl⟩
abbrev main_call23_v15 : Ref sig .tc := ⟨.hbm, 648, rfl⟩
abbrev main_v119 : Ref sig .tc := ⟨.hbm, 649, rfl⟩
abbrev main_v120 : Ref sig .tc := ⟨.hbm, 650, rfl⟩
abbrev main_v121 : Ref sig .tc := ⟨.hbm, 651, rfl⟩
abbrev main_v122 : Ref sig .tc := ⟨.hbm, 652, rfl⟩
abbrev main_v123 : Ref sig .tc := ⟨.hbm, 653, rfl⟩
abbrev main_call24_c : Ref sig .tc := ⟨.hbm, 654, rfl⟩
abbrev main_call24_v0 : Ref sig .tc := ⟨.hbm, 655, rfl⟩
abbrev main_call24_v1 : Ref sig .tc := ⟨.hbm, 656, rfl⟩
abbrev main_call24_c_0 : Ref sig .tc := ⟨.hbm, 657, rfl⟩
abbrev main_call24_v2 : Ref sig .tc := ⟨.hbm, 658, rfl⟩
abbrev main_call24_v3 : Ref sig .tc := ⟨.hbm, 659, rfl⟩
abbrev main_call24_v4 : Ref sig .tc := ⟨.hbm, 660, rfl⟩
abbrev main_call24_v5 : Ref sig .tc := ⟨.hbm, 661, rfl⟩
abbrev main_call24_c_1 : Ref sig .tc := ⟨.hbm, 662, rfl⟩
abbrev main_call24_c_2 : Ref sig .tc := ⟨.hbm, 663, rfl⟩
abbrev main_call24_v6 : Ref sig .tc := ⟨.hbm, 664, rfl⟩
abbrev main_call24_v7 : Ref sig .tc := ⟨.hbm, 665, rfl⟩
abbrev main_call24_v8 : Ref sig .tc := ⟨.hbm, 666, rfl⟩
abbrev main_call24_v9 : Ref sig .tc := ⟨.hbm, 667, rfl⟩
abbrev main_call24_v10 : Ref sig .tc := ⟨.hbm, 668, rfl⟩
abbrev main_call24_v11 : Ref sig .tc := ⟨.hbm, 669, rfl⟩
abbrev main_call24_c_3 : Ref sig .tc := ⟨.hbm, 670, rfl⟩
abbrev main_call24_v12 : Ref sig .tc := ⟨.hbm, 671, rfl⟩
abbrev main_call24_v13 : Ref sig .tc := ⟨.hbm, 672, rfl⟩
abbrev main_call24_v14 : Ref sig .tc := ⟨.hbm, 673, rfl⟩
abbrev main_call24_cst : Ref sig .tc := ⟨.hbm, 674, rfl⟩
abbrev main_call24_v15 : Ref sig .tc := ⟨.hbm, 675, rfl⟩
abbrev main_v124 : Ref sig .tc := ⟨.hbm, 676, rfl⟩
abbrev main_v125 : Ref sig .tc := ⟨.hbm, 677, rfl⟩
abbrev main_v126 : Ref sig .tc := ⟨.hbm, 678, rfl⟩
abbrev main_v127 : Ref sig .tc := ⟨.hbm, 679, rfl⟩
abbrev main_v128 : Ref sig .tc := ⟨.hbm, 680, rfl⟩
abbrev main_call25_c : Ref sig .tc := ⟨.hbm, 681, rfl⟩
abbrev main_call25_v0 : Ref sig .tc := ⟨.hbm, 682, rfl⟩
abbrev main_call25_v1 : Ref sig .tc := ⟨.hbm, 683, rfl⟩
abbrev main_call25_c_0 : Ref sig .tc := ⟨.hbm, 684, rfl⟩
abbrev main_call25_v2 : Ref sig .tc := ⟨.hbm, 685, rfl⟩
abbrev main_call25_v3 : Ref sig .tc := ⟨.hbm, 686, rfl⟩
abbrev main_call25_v4 : Ref sig .tc := ⟨.hbm, 687, rfl⟩
abbrev main_call25_v5 : Ref sig .tc := ⟨.hbm, 688, rfl⟩
abbrev main_call25_c_1 : Ref sig .tc := ⟨.hbm, 689, rfl⟩
abbrev main_call25_c_2 : Ref sig .tc := ⟨.hbm, 690, rfl⟩
abbrev main_call25_v6 : Ref sig .tc := ⟨.hbm, 691, rfl⟩
abbrev main_call25_v7 : Ref sig .tc := ⟨.hbm, 692, rfl⟩
abbrev main_call25_v8 : Ref sig .tc := ⟨.hbm, 693, rfl⟩
abbrev main_call25_v9 : Ref sig .tc := ⟨.hbm, 694, rfl⟩
abbrev main_call25_v10 : Ref sig .tc := ⟨.hbm, 695, rfl⟩
abbrev main_call25_v11 : Ref sig .tc := ⟨.hbm, 696, rfl⟩
abbrev main_call25_c_3 : Ref sig .tc := ⟨.hbm, 697, rfl⟩
abbrev main_call25_v12 : Ref sig .tc := ⟨.hbm, 698, rfl⟩
abbrev main_call25_v13 : Ref sig .tc := ⟨.hbm, 699, rfl⟩
abbrev main_call25_v14 : Ref sig .tc := ⟨.hbm, 700, rfl⟩
abbrev main_call25_cst : Ref sig .tc := ⟨.hbm, 701, rfl⟩
abbrev main_call25_v15 : Ref sig .tc := ⟨.hbm, 702, rfl⟩
abbrev main_v129 : Ref sig .tc := ⟨.hbm, 703, rfl⟩
abbrev main_v130 : Ref sig .tc := ⟨.hbm, 704, rfl⟩
abbrev main_v131 : Ref sig .tc := ⟨.hbm, 705, rfl⟩
abbrev main_v132 : Ref sig .tc := ⟨.hbm, 706, rfl⟩

abbrev nD : Nat := 1
abbrev τ : Topo := Topo.v7x

variable {F : FTy → Type} [FloatOps F]

class Facts₀ : Prop where
  slices_S26x100001x32_S1x100001x32_0_0_0 : S26x100001x32.Slices ![0, 0, 0] S1x100001x32
  shapeCasts_S1x100001x32_S100001x32 : S1x100001x32.ShapeCasts S100001x32
  slices_S26x4096x20_S1x4096x20_0_0_0 : S26x4096x20.Slices ![0, 0, 0] S1x4096x20
  shapeCasts_S1x4096x20_S4096x20 : S1x4096x20.ShapeCasts S4096x20
  bcast_S_S4096x20 : S_.BroadcastsInDim S4096x20 (![] : Fin 0 → Fin S4096x20.rank)
  bcast_S4096x20_S4096x20x1_0_1 : S4096x20.BroadcastsInDim S4096x20x1 (![0, 1] : Fin 2 → Fin S4096x20x1.rank)
  bcast_S_S4096x20x1 : S_.BroadcastsInDim S4096x20x1 (![] : Fin 0 → Fin S4096x20x1.rank)
  bcast_S1_S1x1x1_2 : S1.BroadcastsInDim S1x1x1 (![2] : Fin 1 → Fin S1x1x1.rank)
  bcast_S1x1x1_S4096x20x1_0_1_2 : S1x1x1.BroadcastsInDim S4096x20x1 (![0, 1, 2] : Fin 3 → Fin S4096x20x1.rank)
  reducesTo_S4096x20x1_S4096x20_d2 : S4096x20x1.ReducesTo [2] S4096x20
  h_S_ : 0 < S_.numel
  bcast_S4096x20_S4096x20x32_0_1 : S4096x20.BroadcastsInDim S4096x20x32 (![0, 1] : Fin 2 → Fin S4096x20x32.rank)
  bcast_S_S4096x20x32 : S_.BroadcastsInDim S4096x20x32 (![] : Fin 0 → Fin S4096x20x32.rank)
  slices_S26x100001x32_S1x100001x32_1_0_0 : S26x100001x32.Slices ![1, 0, 0] S1x100001x32
  slices_S26x4096x20_S1x4096x20_1_0_0 : S26x4096x20.Slices ![1, 0, 0] S1x4096x20
  slices_S26x100001x32_S1x100001x32_2_0_0 : S26x100001x32.Slices ![2, 0, 0] S1x100001x32
  slices_S26x4096x20_S1x4096x20_2_0_0 : S26x4096x20.Slices ![2, 0, 0] S1x4096x20
  slices_S26x100001x32_S1x100001x32_3_0_0 : S26x100001x32.Slices ![3, 0, 0] S1x100001x32
  slices_S26x4096x20_S1x4096x20_3_0_0 : S26x4096x20.Slices ![3, 0, 0] S1x4096x20
  slices_S26x100001x32_S1x100001x32_4_0_0 : S26x100001x32.Slices ![4, 0, 0] S1x100001x32
  slices_S26x4096x20_S1x4096x20_4_0_0 : S26x4096x20.Slices ![4, 0, 0] S1x4096x20
  slices_S26x100001x32_S1x100001x32_5_0_0 : S26x100001x32.Slices ![5, 0, 0] S1x100001x32
  slices_S26x4096x20_S1x4096x20_5_0_0 : S26x4096x20.Slices ![5, 0, 0] S1x4096x20
  slices_S26x100001x32_S1x100001x32_6_0_0 : S26x100001x32.Slices ![6, 0, 0] S1x100001x32
  slices_S26x4096x20_S1x4096x20_6_0_0 : S26x4096x20.Slices ![6, 0, 0] S1x4096x20
  slices_S26x100001x32_S1x100001x32_7_0_0 : S26x100001x32.Slices ![7, 0, 0] S1x100001x32
  slices_S26x4096x20_S1x4096x20_7_0_0 : S26x4096x20.Slices ![7, 0, 0] S1x4096x20
  slices_S26x100001x32_S1x100001x32_8_0_0 : S26x100001x32.Slices ![8, 0, 0] S1x100001x32
  slices_S26x4096x20_S1x4096x20_8_0_0 : S26x4096x20.Slices ![8, 0, 0] S1x4096x20
  slices_S26x100001x32_S1x100001x32_9_0_0 : S26x100001x32.Slices ![9, 0, 0] S1x100001x32
  slices_S26x4096x20_S1x4096x20_9_0_0 : S26x4096x20.Slices ![9, 0, 0] S1x4096x20
  slices_S26x100001x32_S1x100001x32_10_0_0 : S26x100001x32.Slices ![10, 0, 0] S1x100001x32
  slices_S26x4096x20_S1x4096x20_10_0_0 : S26x4096x20.Slices ![10, 0, 0] S1x4096x20
  slices_S26x100001x32_S1x100001x32_11_0_0 : S26x100001x32.Slices ![11, 0, 0] S1x100001x32
  slices_S26x4096x20_S1x4096x20_11_0_0 : S26x4096x20.Slices ![11, 0, 0] S1x4096x20
  slices_S26x100001x32_S1x100001x32_12_0_0 : S26x100001x32.Slices ![12, 0, 0] S1x100001x32
  slices_S26x4096x20_S1x4096x20_12_0_0 : S26x4096x20.Slices ![12, 0, 0] S1x4096x20
  slices_S26x100001x32_S1x100001x32_13_0_0 : S26x100001x32.Slices ![13, 0, 0] S1x100001x32
  slices_S26x4096x20_S1x4096x20_13_0_0 : S26x4096x20.Slices ![13, 0, 0] S1x4096x20
  slices_S26x100001x32_S1x100001x32_14_0_0 : S26x100001x32.Slices ![14, 0, 0] S1x100001x32
  slices_S26x4096x20_S1x4096x20_14_0_0 : S26x4096x20.Slices ![14, 0, 0] S1x4096x20
  slices_S26x100001x32_S1x100001x32_15_0_0 : S26x100001x32.Slices ![15, 0, 0] S1x100001x32
  slices_S26x4096x20_S1x4096x20_15_0_0 : S26x4096x20.Slices ![15, 0, 0] S1x4096x20
  slices_S26x100001x32_S1x100001x32_16_0_0 : S26x100001x32.Slices ![16, 0, 0] S1x100001x32
  slices_S26x4096x20_S1x4096x20_16_0_0 : S26x4096x20.Slices ![16, 0, 0] S1x4096x20
  slices_S26x100001x32_S1x100001x32_17_0_0 : S26x100001x32.Slices ![17, 0, 0] S1x100001x32
  slices_S26x4096x20_S1x4096x20_17_0_0 : S26x4096x20.Slices ![17, 0, 0] S1x4096x20
  slices_S26x100001x32_S1x100001x32_18_0_0 : S26x100001x32.Slices ![18, 0, 0] S1x100001x32
  slices_S26x4096x20_S1x4096x20_18_0_0 : S26x4096x20.Slices ![18, 0, 0] S1x4096x20
  slices_S26x100001x32_S1x100001x32_19_0_0 : S26x100001x32.Slices ![19, 0, 0] S1x100001x32
  slices_S26x4096x20_S1x4096x20_19_0_0 : S26x4096x20.Slices ![19, 0, 0] S1x4096x20
  slices_S26x100001x32_S1x100001x32_20_0_0 : S26x100001x32.Slices ![20, 0, 0] S1x100001x32
  slices_S26x4096x20_S1x4096x20_20_0_0 : S26x4096x20.Slices ![20, 0, 0] S1x4096x20
  slices_S26x100001x32_S1x100001x32_21_0_0 : S26x100001x32.Slices ![21, 0, 0] S1x100001x32
  slices_S26x4096x20_S1x4096x20_21_0_0 : S26x4096x20.Slices ![21, 0, 0] S1x4096x20
  slices_S26x100001x32_S1x100001x32_22_0_0 : S26x100001x32.Slices ![22, 0, 0] S1x100001x32
  slices_S26x4096x20_S1x4096x20_22_0_0 : S26x4096x20.Slices ![22, 0, 0] S1x4096x20
  slices_S26x100001x32_S1x100001x32_23_0_0 : S26x100001x32.Slices ![23, 0, 0] S1x100001x32
  slices_S26x4096x20_S1x4096x20_23_0_0 : S26x4096x20.Slices ![23, 0, 0] S1x4096x20
  slices_S26x100001x32_S1x100001x32_24_0_0 : S26x100001x32.Slices ![24, 0, 0] S1x100001x32
  slices_S26x4096x20_S1x4096x20_24_0_0 : S26x4096x20.Slices ![24, 0, 0] S1x4096x20
  slices_S26x100001x32_S1x100001x32_25_0_0 : S26x100001x32.Slices ![25, 0, 0] S1x100001x32
  slices_S26x4096x20_S1x4096x20_25_0_0 : S26x4096x20.Slices ![25, 0, 0] S1x4096x20
  concatenates_S4096x20x32_S4096x20x32_S4096x20x32_S4096x20x32_S4096x20x32_S4096x20x32_S4096x20x32_S4096x20x32_S4096x20x32_S4096x20x32_S4096x20x32_S4096x20x32_S4096x20x32_S4096x20x32_S4096x20x32_S4096x20x32_S4096x20x512_d2 : Shape.Concatenates [S4096x20x32, S4096x20x32, S4096x20x32, S4096x20x32, S4096x20x32, S4096x20x32, S4096x20x32, S4096x20x32, S4096x20x32, S4096x20x32, S4096x20x32, S4096x20x32, S4096x20x32, S4096x20x32, S4096x20x32, S4096x20x32] S4096x20x512 2
  concatenates_S4096x20x32_S4096x20x32_S4096x20x32_S4096x20x32_S4096x20x32_S4096x20x32_S4096x20x32_S4096x20x32_S4096x20x32_S4096x20x32_S4096x20x320_d2 : Shape.Concatenates [S4096x20x32, S4096x20x32, S4096x20x32, S4096x20x32, S4096x20x32, S4096x20x32, S4096x20x32, S4096x20x32, S4096x20x32, S4096x20x32] S4096x20x320 2
  concatenates_S4096x20x512_S4096x20x320_S4096x20x832_d2 : Shape.Concatenates [S4096x20x512, S4096x20x320] S4096x20x832 2
  gather_S100001x32_S4096x20x1_S4096x20x32_2_0_n_n_0_2_132_wf : GatherDims.WF S100001x32 S4096x20x1 S4096x20x32 [2] [0] [] [0] [] 2 ![1, 32]

variable [Facts₀]

def gather_S100001x32_S4096x20x1_S4096x20x32_2_0_n_n_0_2_132 : GatherDims S100001x32 S4096x20x1 S4096x20x32 where
  offsetDims := [2]
  collapsedSliceDims := [0]
  operandBatchingDims := []
  startIndicesBatchingDims := []
  startIndexMap := [0]
  indexVectorDim := 2
  sliceSizes := ![1, 32]
  wf := gather_S100001x32_S4096x20x1_S4096x20x32_2_0_n_n_0_2_132_wf

class Facts : Prop extends Facts₀ where

variable [Facts]
-- ==== Proof.PreRange.lean ====
/-
  What the launch precondition says of the index input.

  The precondition is printed as a pure function of the two inputs that ends in the conjunction of two `all`s: every
  table entry has a finite absolute value, and every feature lies between 0 and 99999 as a signed 32-bit integer. Only
  the second conjunct is read here: a word that is, read signed, at least 0 and at most 99999 is, read as a natural
  number, at most 99999 — so every feature names a row of its table, and no float fact is needed.
-/
import proofs.«204936_g5145370820905_cont_8to1_c_618_18_alg».proof.Pre_input_domain
import proofs.«204936_g5145370820905_cont_8to1_c_618_18_alg».proof.Proof.Gen.Pre_input_domain
import Idealize.ShloMosaic.Lib.ReduceAll
import Idealize.ShloMosaic.Lib.ValueIdx

namespace Cert.Proof.PreRange

open Idealize.ShloMosaic Idealize.ShloMosaic.ValueIdx

/-- The scalar shape has one index. -/
instance : Subsingleton Cert.Pre_input_domain.S_.Idx := ⟨fun _ _ => funext fun d => d.elim0⟩

/-- A 32-bit word that, read signed, is at least 0 and at most 99999 is at most 99999 read unsigned. -/
theorem toNat_le_of_signed (x : BitVec 32) (h0 : (0#32 : BitVec 32).toInt ≤ x.toInt) (h1 : x.toInt ≤ (99999#32 : BitVec 32).toInt) :
    x.toNat ≤ 99999 := by
  have e0 : (0#32 : BitVec 32).toInt = 0 := by decide
  have e1 : (99999#32 : BitVec 32).toInt = 99999 := by decide
  rw [e0] at h0
  rw [e1] at h1
  rw [BitVec.toInt_eq_toNat_cond] at h0 h1
  have hx := x.isLt
  split at h0 <;> omega

/-- Under the precondition every feature is at most 99999. -/
theorem range_of_pre {F : FTy → Type} [FloatOps F] [Cert.Pre_input_domain.Facts]
    (a0 : IVec Cert.Pre_input_domain.S26x4096x20 32) (a1 : FVec F Cert.Pre_input_domain.S26x100001x32 .f32)
    (h : Cert.Pre_input_domain.fn (F := F) a0 a1 = fun _ => 1#1) : ∀ i, (a0 i).toNat ≤ 99999 := by
  intro i
  have h0 := congrFun h ix0
  dsimp only [Cert.Pre_input_domain.fn] at h0
  -- the conjunction of the two `all`s is 1: so is the second
  obtain ⟨_, h2⟩ := IntOp.andi_eq_one.1 h0
  -- an `all` that is 1 had a 1 at every index
  have h3 := Host.reduce_andi_all _ _ _ _ _ h2 i
  -- the element at `i` is the conjunction of the two signed comparisons
  obtain ⟨h5, h7⟩ := IntOp.andi_eq_one.1 h3
  exact toNat_le_of_signed (a0 i) (IntOp.cmpi_sge.1 h5) (IntOp.cmpi_sle.1 h7)

end Cert.Proof.PreRange
-- ==== Proof.KICommon.lean ====
/-
  The kernel's program as the launch theorem sees it, and the vocabulary every part of the kernel-side proof shares.

  The call's three operands are computed on the TensorCore before the call: the index list (the features transposed to
  position-major order, entry n * 26 + f = features[f, n]), the per-field offsets f * 100001 repeated over the sixteen
  positions of a chunk, and the tables flattened, padded and cut into groups of 128 words, four table rows a group. Tile
  number w = 2 * s + c reads entries [w * 66560, (w + 1) * 66560) of the index list and owns rows [w * 16640, (w + 1) * 16640)
  of the result, 160 blocks of 104 rows; it reads the offsets and the grouped table whole. What a tile leaves in its rows is `outSpec`: result
  row r, word c is word (c % 32) of the quarter ((t & 3)) of group (t >> 2), where t = idx[4 r + c / 32] + offs[(4 r + c / 32) % 416].
-/
import proofs.«204936_g5145370820905_cont_8to1_c_618_18_alg».proof.KernelIdeal
import proofs.«204936_g5145370820905_cont_8to1_c_618_18_alg».proof.Proof.Gen.KernelIdeal
import Idealize.ShloMosaic.Lib.SparseCore.Launch
import Idealize.ShloMosaic.Lib.StableHlo.Run
import Idealize.ShloMosaic.Lib.Pipeline.Kit
import Idealize.ShloMosaic.Lib.Tactic
import Idealize.ShloMosaic.Lib.ValueIdx

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

abbrev a0' : DevRef τ sig := Proc.devRef .tc (main_arg0 : Ref sig .tc)
abbrev a1' : DevRef τ sig := Proc.devRef .tc (main_arg1 : Ref sig .tc)
abbrev idx' : DevRef τ sig := Proc.devRef .tc (main_v2 : Ref sig .tc)
abbrev off' : DevRef τ sig := Proc.devRef .tc (main_v8 : Ref sig .tc)
abbrev tab' : DevRef τ sig := Proc.devRef .tc (main_v12 : Ref sig .tc)
abbrev out' : DevRef τ sig := Proc.devRef .tc (main_v13 : Ref sig .tc)
abbrev res' : DevRef τ sig := Proc.devRef .tc (main_v14 : Ref sig .tc)

abbrev a0Loc (d : Dev nD) : Loc nD τ sig := (SparseCore.T d).loc main_arg0
abbrev a1Loc (d : Dev nD) : Loc nD τ sig := (SparseCore.T d).loc main_arg1
abbrev idxLoc (d : Dev nD) : Loc nD τ sig := (SparseCore.T d).loc main_v2
abbrev offLoc (d : Dev nD) : Loc nD τ sig := (SparseCore.T d).loc main_v8
abbrev tabLoc (d : Dev nD) : Loc nD τ sig := (SparseCore.T d).loc main_v12
abbrev outLoc (d : Dev nD) : Loc nD τ sig := (SparseCore.T d).loc main_v13
abbrev resLoc (d : Dev nD) : Loc nD τ sig := (SparseCore.T d).loc main_v14

variable (m : (ℓ : Loc nD τ sig) → Buf (Elt F) ℓ)

variable [FloatOps F]

/-- The TensorCore's operations before the call, in order, and the one after it. -/
abbrev preOps : List (HloOp τ sig (Elt F)) := [
    StableHlo.reshape main_arg0 main_v0 rfl shapeCasts_S26x4096x20_S26x81920,
    StableHlo.unary main_v0 main_v1 ((transpose S81920x26 [1, 0] · transposes_S26x81920_S81920x26_1_0) : (⟨S26x81920, .i32⟩ : BufTy).Contents (Elt F) → (⟨S81920x26, .i32⟩ : BufTy).Contents (Elt F)),
    StableHlo.reshape main_v1 main_v2 rfl shapeCasts_S81920x26_S2129920,
    StableHlo.nullary main_v3 (iotaInDim S26 32 0),
    StableHlo.nullary main_c (constantI S_ 32 100001#32),
    StableHlo.unary main_c main_v4 (broadcastInDim S26 ![] bcast_S_S26 : (⟨S_, .i32⟩ : BufTy).Contents (Elt F) → (⟨S26, .i32⟩ : BufTy).Contents (Elt F)),
    StableHlo.binary main_v3 main_v4 main_v5 (muli : (⟨S26, .i32⟩ : BufTy).Contents (Elt F) → (⟨S26, .i32⟩ : BufTy).Contents (Elt F) → (⟨S26, .i32⟩ : BufTy).Contents (Elt F)),
    StableHlo.reshape main_v5 main_v6 rfl shapeCasts_S26_S1x26,
    StableHlo.unary main_v6 main_v7 (broadcastInDim S16x26 ![0, 1] bcast_S1x26_S16x26_0_1 : (⟨S1x26, .i32⟩ : BufTy).Contents (Elt F) → (⟨S16x26, .i32⟩ : BufTy).Contents (Elt F)),
    StableHlo.reshape main_v7 main_v8 rfl shapeCasts_S16x26_S416,
    StableHlo.reshape main_arg1 main_v9 rfl shapeCasts_S26x100001x32_S83200832,
    StableHlo.nullary main_cst (constant S_ .f32 0x00000000#32),
    StableHlo.unary main_cst main_v10 (broadcastInDim S64 ![] bcast_S_S64 : (⟨S_, .f32⟩ : BufTy).Contents (Elt F) → (⟨S64, .f32⟩ : BufTy).Contents (Elt F)),
    StableHlo.binary main_v9 main_v10 main_v11 ((fun a b => concatenate S83200896 0 [⟨S83200832, a⟩, ⟨S64, b⟩] concatenates_S83200832_S64_S83200896_d0) : (⟨S83200832, .f32⟩ : BufTy).Contents (Elt F) → (⟨S64, .f32⟩ : BufTy).Contents (Elt F) → (⟨S83200896, .f32⟩ : BufTy).Contents (Elt F)),
    StableHlo.reshape main_v11 main_v12 rfl shapeCasts_S83200896_S650007x128]
abbrev postOp : HloOp τ sig (Elt F) := StableHlo.reshape main_v13 main_v14 rfl shapeCasts_S532480x128_S4096x20x832

/-- The launch contents of device `d`'s arrays, and the contents when the call is made. -/
def V0 (d : Dev nD) : Valuation τ sig (Elt F) := fun b => m (d, b)
def Vpre (d : Dev nD) : Valuation τ sig (Elt F) := StableHlo.after (preOps (F := F)) (V0 m d)

/-- The call's operands and its result array, at the call: the index list, the offsets, the grouped table, and the
    result's launch contents. -/
abbrev idxArr (d : Dev nD) : S2129920.Idx → BitVec 32 := Vpre m d idx'
abbrev offArr (d : Dev nD) : S416.Idx → BitVec 32 := Vpre m d off'
abbrev tabArr (d : Dev nD) : S650007x128.Idx → Elt F .f32 := Vpre m d tab'
abbrev out0Arr (d : Dev nD) : S532480x128.Idx → Elt F .f32 := Vpre m d out'

/-! ## What a tile computes -/

/-- The group a flat table-row number lies in (four rows a group), and the word of a group that entry `e` of it is. -/
def grp (t : BitVec 32) : Fin 650007 := ⟨min (t >>> 2).toNat 650006, by omega⟩
def lane (t : BitVec 32) (e : Fin 32) : Fin 128 := ⟨((t &&& 3#32).toNat % 4) * 32 + e.val, by omega⟩

/-- The call's result as a function of its three operands: row `r`, word `c` is word `c % 32` of the table row the
    index entry `4 r + c / 32` names once its field's offset is added. -/
def outSpec {α : Type} (I : S2129920.Idx → BitVec 32) (Of : S416.Idx → BitVec 32) (Tb : S650007x128.Idx → α) : S532480x128.Idx → α :=
  fun j =>
    let p : Fin 2129920 := ⟨(j 0).val * 4 + (j 1).val / 32, by have h0 := idx2_lt0 j; have h1 := idx2_lt1 j; omega⟩
    let t : BitVec 32 := I (ix1 p) + Of (ix1 (⟨p.val % 416, Nat.mod_lt _ (by decide)⟩ : Fin 416))
    Tb (ix2 (grp t) (lane t ⟨(j 1).val % 32, Nat.mod_lt _ (by decide)⟩))

/-- What the proof asks of the launch memory: every flat table-row number the tiles form names a row of the padded,
    grouped table (so that the group number `t >> 2` is below 650007). -/
def PreOK : Prop :=
  ∀ (d : Dev nD) (p : Fin 2129920),
    (idxArr m d (ix1 p) + offArr m d (ix1 (⟨p.val % 416, Nat.mod_lt _ (by decide)⟩ : Fin 416))).toNat < 2600028

/-! ## The arrays among the 32 tiles -/

/-- The result array in 5120 blocks of 104 rows: block `160 w + g` is what tile `w` writes for its chunk `g`. -/
theorem hdivO : 5120 ∣ S532480x128.size 0 := ⟨104, rfl⟩
abbrev outPart (k : Fin 5120) : Rect S532480x128 := Rect.part (s := S532480x128) (a₀ := 0) hdivO k
abbrev outSet (k : Fin 5120) : Finset S532480x128.Idx := ((Memref.whole main_v13_scv : Memref sig .scVector .hbm S532480x128 .f32).view.slice (outPart k)).set
def chunkIx (w : Fin 32) (g : Fin 160) : Fin 5120 := ⟨160 * w.val + g.val, by omega⟩
/-- The tile number of vector subcore `s` of SparseCore `c`. -/
def wid (c : Fin 2) (s : Fin 16) : Fin 32 := ⟨2 * s.val + c.val, by omega⟩

/-- What tile `w` holds during the call: a read share of the index list, of the offsets and of the grouped table, and
    its 160 blocks of the result at contents `fo`. -/
def tileP (d : Dev nD) (w : Fin 32) (fo : Buf (Elt F) (outLoc d)) : sProp 𝕄 :=
  iprop((idxLoc d ↦{Transfers.shareTok fullShare 32 w} idxArr m d) ∗ (offLoc d ↦{Transfers.shareTok fullShare 32 w} offArr m d)
    ∗ (tabLoc d ↦{Transfers.shareTok fullShare 32 w} tabArr m d)
    ∗ bigSep Finset.univ fun g : Fin 160 => outLoc d ↦[outSet (chunkIx w g)]{fullShare} fo)

/-- The result array when the call returns. -/
def outArr (d : Dev nD) : S532480x128.Idx → Elt F .f32 := outSpec (idxArr m d) (offArr m d) (tabArr m d)

/-- The program's result: the call's result array read in row-major order at the shape [4096, 20, 832]. -/
def resArr (d : Dev nD) : S4096x20x832.Idx → Elt F .f32 := shapeCast S4096x20x832 (outArr m d) shapeCasts_S532480x128_S4096x20x832

/-- The one call hands tile `(c, s)` its part (`tileP` at the result's launch contents) and takes it back at `outArr`;
    a SparseCore's part is its sixteen tiles' parts. -/
def P : (K (F := F)).Pay (nD := nD) (Val := Elt F) (Name := ℕ) (U := UU) where
  st := fun q d c => match q with
    | 0 => bigSep Finset.univ fun i : Fin 16 => tileP m d (wid (Fin.cast nCore_zero c) i) (out0Arr m d)
  dn := fun q d c => match q with
    | 0 => bigSep Finset.univ fun i : Fin 16 => tileP m d (wid (Fin.cast nCore_zero c) i) (outArr m d)
  go := fun q d c i => match q with
    | 0 => tileP m d (wid (Fin.cast nCore_zero c) (Fin.cast nSub_zero i)) (out0Arr m d)
  td := fun q d c i => match q with
    | 0 => tileP m d (wid (Fin.cast nCore_zero c) (Fin.cast nSub_zero i)) (outArr m d)
  x := fun _ _ => iprop(emp)

instance tileP_storable (d : Dev nD) (w : Fin 32) (fo : Buf (Elt F) (outLoc d)) : BI.Storable (upEmb : UEmb _ 𝕄) (tileP m d w fo) := by
  unfold tileP; infer_instance

instance P_storable : (P (F := F) m).IsStorable where
  st q d c := match q with | 0 => by unfold P; infer_instance
  dn q d c := match q with | 0 => by unfold P; infer_instance
  go q d c i := match q with | 0 => by unfold P; infer_instance
  td q d c i := match q with | 0 => by unfold P; infer_instance

end Cert.Proof.KI

end
-- ==== Proof.KITile.lean ====
/-
  One tile's names: its thread, its tile number, its seven DMA semaphores and seven scratch buffers taken out of the
  subcore's own storage.
-/
import proofs.«204936_g5145370820905_cont_8to1_c_618_18_alg».proof.Proof.KICommon
import proofs.«204936_g5145370820905_cont_8to1_c_618_18_alg».proof.Proof.Gen.KernelIdeal.Skeleton
import Idealize.ShloMosaic.Lib.SparseCore.Ops

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)

abbrev cV (L : grid0.Coords) : Fin τ.nSC := (L 0).castLE hcore0
abbrev jV (L : grid0.Coords) : Fin τ.nSub := (L 1).castLE hsub0
/-- The tile's thread and its number `2 s + c`. -/
abbrev thrL : Thread nD τ := V d (cV L) (jV L)
theorem bound_zero : grid0.bound 0 = 2 := rfl
theorem bound_one : grid0.bound 1 = 16 := rfl
def widL (L : grid0.Coords) : Fin 32 := wid (Fin.cast bound_zero (L 0)) (Fin.cast bound_one (L 1))

/-- The cell of one of the tile's DMA semaphores. -/
abbrev cellOf (s : DmaSems sig S_) : GSem nD τ sig := (thrL d L, .dma s.sem)

theorem cell_ne {a b : DmaSem sig} (h : a ≠ b) : ((thrL d L, SemLoc.dma a) : GSem nD τ sig) ≠ (thrL d L, SemLoc.dma b) :=
  fun e => h (SemLoc.dma.inj (Prod.mk.inj e).2)

/-- The subcore's own semaphores: the kernel's seven, each at zero, and the rest. -/
theorem ownSems0_V :
    (ownSems0 (thrL d L) : sProp 𝕄)
      = iprop(semVal (cellOf d L cc0_scratch7) 0 ∗ semVal (cellOf d L cc0_scratch8) 0 ∗ semVal (cellOf d L cc0_scratch9) 0
          ∗ semVal (cellOf d L cc0_scratch10) 0 ∗ semVal (cellOf d L cc0_scratch11) 0 ∗ semVal (cellOf d L cc0_scratch12) 0
          ∗ semVal (cellOf d L cc0_scoped0) 0
          ∗ bigSep ((((((((ownCells (thrL d L)).erase (cellOf d L cc0_scratch7)).erase (cellOf d L cc0_scratch8)).erase (cellOf d L cc0_scratch9)).erase (cellOf d L cc0_scratch10)).erase (cellOf d L cc0_scratch11)).erase (cellOf d L cc0_scratch12)).erase (cellOf d L cc0_scoped0)) fun g => semVal g 0) := by
  unfold SparseCore.Cfg.ownSems0
  rw [SparseCore.bigSep_erase' ((mem_ownCells (g := cellOf d L cc0_scratch7)).mpr ⟨rfl, by show (SemLoc.dma cc0_scratch7.sem : SemLoc sig).isScoped .scVector = true; decide⟩),
    SparseCore.bigSep_erase' (Finset.mem_erase.mpr ⟨cell_ne d L (show (cc0_scratch8.sem : DmaSem sig) ≠ cc0_scratch7.sem by decide), (mem_ownCells (g := cellOf d L cc0_scratch8)).mpr ⟨rfl, by show (SemLoc.dma cc0_scratch8.sem : SemLoc sig).isScoped .scVector = true; decide⟩⟩),
    SparseCore.bigSep_erase' (Finset.mem_erase.mpr ⟨cell_ne d L (show (cc0_scratch9.sem : DmaSem sig) ≠ cc0_scratch8.sem by decide), Finset.mem_erase.mpr ⟨cell_ne d L (show (cc0_scratch9.sem : DmaSem sig) ≠ cc0_scratch7.sem by decide), (mem_ownCells (g := cellOf d L cc0_scratch9)).mpr ⟨rfl, by show (SemLoc.dma cc0_scratch9.sem : SemLoc sig).isScoped .scVector = true; decide⟩⟩⟩),
    SparseCore.bigSep_erase' (Finset.mem_erase.mpr ⟨cell_ne d L (show (cc0_scratch10.sem : DmaSem sig) ≠ cc0_scratch9.sem by decide), Finset.mem_erase.mpr ⟨cell_ne d L (show (cc0_scratch10.sem : DmaSem sig) ≠ cc0_scratch8.sem by decide), Finset.mem_erase.mpr ⟨cell_ne d L (show (cc0_scratch10.sem : DmaSem sig) ≠ cc0_scratch7.sem by decide), (mem_ownCells (g := cellOf d L cc0_scratch10)).mpr ⟨rfl, by show (SemLoc.dma cc0_scratch10.sem : SemLoc sig).isScoped .scVector = true; decide⟩⟩⟩⟩),
    SparseCore.bigSep_erase' (Finset.mem_erase.mpr ⟨cell_ne d L (show (cc0_scratch11.sem : DmaSem sig) ≠ cc0_scratch10.sem by decide), Finset.mem_erase.mpr ⟨cell_ne d L (show (cc0_scratch11.sem : DmaSem sig) ≠ cc0_scratch9.sem by decide), Finset.mem_erase.mpr ⟨cell_ne d L (show (cc0_scratch11.sem : DmaSem sig) ≠ cc0_scratch8.sem by decide), Finset.mem_erase.mpr ⟨cell_ne d L (show (cc0_scratch11.sem : DmaSem sig) ≠ cc0_scratch7.sem by decide), (mem_ownCells (g := cellOf d L cc0_scratch11)).mpr ⟨rfl, by show (SemLoc.dma cc0_scratch11.sem : SemLoc sig).isScoped .scVector = true; decide⟩⟩⟩⟩⟩),
    SparseCore.bigSep_erase' (Finset.mem_erase.mpr ⟨cell_ne d L (show (cc0_scratch12.sem : DmaSem sig) ≠ cc0_scratch11.sem by decide), Finset.mem_erase.mpr ⟨cell_ne d L (show (cc0_scratch12.sem : DmaSem sig) ≠ cc0_scratch10.sem by decide), Finset.mem_erase.mpr ⟨cell_ne d L (show (cc0_scratch12.sem : DmaSem sig) ≠ cc0_scratch9.sem by decide), Finset.mem_erase.mpr ⟨cell_ne d L (show (cc0_scratch12.sem : DmaSem sig) ≠ cc0_scratch8.sem by decide), Finset.mem_erase.mpr ⟨cell_ne d L (show (cc0_scratch12.sem : DmaSem sig) ≠ cc0_scratch7.sem by decide), (mem_ownCells (g := cellOf d L cc0_scratch12)).mpr ⟨rfl, by show (SemLoc.dma cc0_scratch12.sem : SemLoc sig).isScoped .scVector = true; decide⟩⟩⟩⟩⟩⟩),
    SparseCore.bigSep_erase' (Finset.mem_erase.mpr ⟨cell_ne d L (show (cc0_scoped0.sem : DmaSem sig) ≠ cc0_scratch12.sem by decide), Finset.mem_erase.mpr ⟨cell_ne d L (show (cc0_scoped0.sem : DmaSem sig) ≠ cc0_scratch11.sem by decide), Finset.mem_erase.mpr ⟨cell_ne d L (show (cc0_scoped0.sem : DmaSem sig) ≠ cc0_scratch10.sem by decide), Finset.mem_erase.mpr ⟨cell_ne d L (show (cc0_scoped0.sem : DmaSem sig) ≠ cc0_scratch9.sem by decide), Finset.mem_erase.mpr ⟨cell_ne d L (show (cc0_scoped0.sem : DmaSem sig) ≠ cc0_scratch8.sem by decide), Finset.mem_erase.mpr ⟨cell_ne d L (show (cc0_scoped0.sem : DmaSem sig) ≠ cc0_scratch7.sem by decide), (mem_ownCells (g := cellOf d L cc0_scoped0)).mpr ⟨rfl, by show (SemLoc.dma cc0_scoped0.sem : SemLoc sig).isScoped .scVector = true; decide⟩⟩⟩⟩⟩⟩⟩)]

/-- The subcore's own buffers: the kernel's seven scratch arrays, each at some contents, and the rest. -/
theorem ownBufs_V :
    (ownBufs (thrL d L) : sProp 𝕄)
      = iprop((∃ f, (thrL d L).loc cc0_scratch0 ↦{fullShare} f) ∗ (∃ f, (thrL d L).loc cc0_scratch1 ↦{fullShare} f)
          ∗ (∃ f, (thrL d L).loc cc0_scratch2 ↦{fullShare} f) ∗ (∃ f, (thrL d L).loc cc0_scratch3 ↦{fullShare} f)
          ∗ (∃ f, (thrL d L).loc cc0_scratch4 ↦{fullShare} f) ∗ (∃ f, (thrL d L).loc cc0_scratch5 ↦{fullShare} f)
          ∗ (∃ f, (thrL d L).loc cc0_scratch6 ↦{fullShare} f)
          ∗ bigSep ((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := (Proc.scVector (cV L) (jV L)).devRef cc0_scratch4) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := (Proc.scVector (cV L) (jV L)).devRef cc0_scratch5) rfl⟩⟩⟩⟩⟩),
    SparseCore.bigSep_erase' (Finset.mem_erase.mpr ⟨fun e => absurd (Proc.devRef_injective _ e) (show (cc0_scratch6 : Ref sig .scVector) ≠ cc0_scratch5 by decide), Finset.mem_erase.mpr ⟨fun e => absurd (Proc.devRef_injective _ e) (show (cc0_scratch6 : Ref sig .scVector) ≠ cc0_scratch4 by decide), Finset.mem_erase.mpr ⟨fun e => absurd (Proc.devRef_injective _ e) (show (cc0_scratch6 : Ref sig .scVector) ≠ cc0_scratch3 by decide), Finset.mem_erase.mpr ⟨fun e => absurd (Proc.devRef_injective _ e) (show (cc0_scratch6 : Ref sig .scVector) ≠ cc0_scratch2 by decide), Finset.mem_erase.mpr ⟨fun e => absurd (Proc.devRef_injective _ e) (show (cc0_scratch6 : Ref sig .scVector) ≠ cc0_scratch1 by decide), Finset.mem_erase.mpr ⟨fun e => absurd (Proc.devRef_injective _ e) (show (cc0_scratch6 : Ref sig .scVector) ≠ cc0_scratch0 by decide), SparseCore.Cfg.mem_ownRefs_of_owner (p := Proc.scVector (cV L) (jV L)) (b := (Proc.scVector (cV L) (jV L)).devRef cc0_scratch6) rfl⟩⟩⟩⟩⟩⟩)]

end Cert.Proof.KI

end
-- ==== Proof.KISteps.lean ====
/-
  What the two inner loops of a chunk compute, as pure relations between a buffer's contents before and after.

  The offset step turns the chunk's 416 index entries I and the offsets Of into the flat table-row numbers t = I + Of,
  keeps the quarter t & 3 in the second buffer and leaves the group number t >> 2 in place of the entry. The repack
  step, on the 416 gathered groups of 128 words, moves the selected quarter of row j (32 words from word 32 * (quarter of
  j)) to words (j % 4) * 32 .. + 32 of row j / 4: afterwards rows 0..103 hold the 416 selected table rows back to back.
-/
import Idealize.ShloMosaic.PureOps.Ideal
import Idealize.ShloMosaic.Lib.ValueIdx

noncomputable section

namespace Cert.Proof.Steps

open Idealize.ShloMosaic Idealize.ShloMosaic.ValueIdx

abbrev S416 : Shape := ⟨1, ![416]⟩
abbrev S416x128 : Shape := ⟨2, ![416, 128]⟩

/-- After the offset step: the index buffer holds the group numbers, the second buffer the quarters. -/
def OffsetDone (I0 Of I1 S1 : S416.Idx → BitVec 32) : Prop :=
  ∀ j : Fin 416, I1 (ix1 j) = (I0 (ix1 j) + Of (ix1 j)) >>> 2 ∧ S1 (ix1 j) = (I0 (ix1 j) + Of (ix1 j)) &&& 3#32

/-- After the repack: word (j % 4) * 32 + e of row j / 4 is word (quarter of j) * 32 + e of row j as it was gathered. -/
def RepackDone {α : Type} (G0 G1 : S416x128.Idx → α) (Sb : S416.Idx → BitVec 32) : Prop :=
  ∀ (j : Fin 416) (e : Fin 32),
    G1 (ix2 (⟨j.val / 4, by omega⟩ : Fin 416) (⟨(j.val % 4) * 32 + e.val, by omega⟩ : Fin 128))
      = G0 (ix2 j (⟨((Sb (ix1 j)).toNat % 4) * 32 + e.val, by omega⟩ : Fin 128))

end Cert.Proof.Steps

end
-- ==== Proof.KIBodyInv.lean ====
/-
  The main loop's invariant: what the tile holds before trip k of the 80 (step 2k of the 160 chunks).

  A chunk g of tile w is 416 index entries at flat positions w * 66560 + 416 g … and one block of 104 result rows. Each
  parity keeps its own index buffer, quarter buffer, gather buffer and three semaphores. Before trip k ≥ 1: the index load
  of chunk 2k is in flight into parity 0's index buffer; the write-out of chunk 2k - 2 is in flight from parity 0's gather
  buffer; the gather of chunk 2k - 1 is in flight into parity 1's gather buffer, its list in parity 1's index buffer and
  its quarters in parity 1's quarter buffer; everything else of the two parities is idle. Result blocks below 2k - 2 are
  written, block 2k - 2 is in flight, blocks from 2k - 1 on are untouched. Before trip 0 only the two first index loads
  are in flight.
-/
import proofs.«204936_g5145370820905_cont_8to1_c_618_18_alg».proof.Proof.KITile
import proofs.«204936_g5145370820905_cont_8to1_c_618_18_alg».proof.Proof.KISteps

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
-- the kernel's memrefs, spelt as the body table passes them
local notation "idxW" => (Memref.whole Cert.KernelIdeal.main_v2_scv : Memref Cert.KernelIdeal.sig Kind.scVector Space.hbm Cert.KernelIdeal.S2129920 EltTy.i32)
local notation "offW" => (Memref.whole Cert.KernelIdeal.main_v8_scv : Memref Cert.KernelIdeal.sig Kind.scVector Space.hbm Cert.KernelIdeal.S416 EltTy.i32)
local notation "tabW" => (Memref.whole Cert.KernelIdeal.main_v12_scv : Memref Cert.KernelIdeal.sig Kind.scVector Space.hbm Cert.KernelIdeal.S650007x128 EltTy.f32)
local notation "outW" => (Memref.whole Cert.KernelIdeal.main_v13_scv : Memref Cert.KernelIdeal.sig Kind.scVector Space.hbm Cert.KernelIdeal.S532480x128 EltTy.f32)
local notation "s0W" => (Memref.whole Cert.KernelIdeal.cc0_scratch0 : Memref Cert.KernelIdeal.sig Kind.scVector Space.vmem Cert.KernelIdeal.S416 EltTy.i32)
local notation "s1W" => (Memref.whole Cert.KernelIdeal.cc0_scratch1 : Memref Cert.KernelIdeal.sig Kind.scVector Space.vmem Cert.KernelIdeal.S416 EltTy.i32)
local notation "s2W" => (Memref.whole Cert.KernelIdeal.cc0_scratch2 : Memref Cert.KernelIdeal.sig Kind.scVector Space.vmem Cert.KernelIdeal.S416 EltTy.i32)
local notation "s3W" => (Memref.whole Cert.KernelIdeal.cc0_scratch3 : Memref Cert.KernelIdeal.sig Kind.scVector Space.vmem Cert.KernelIdeal.S416 EltTy.i32)
local notation "s4W" => (Memref.whole Cert.KernelIdeal.cc0_scratch4 : Memref Cert.KernelIdeal.sig Kind.scVector Space.vmem Cert.KernelIdeal.S416 EltTy.i32)
local notation "s5W" => (Memref.whole Cert.KernelIdeal.cc0_scratch5 : Memref Cert.KernelIdeal.sig Kind.scVector Space.vmem Cert.KernelIdeal.S416x128 EltTy.f32)
local notation "s6W" => (Memref.whole Cert.KernelIdeal.cc0_scratch6 : Memref Cert.KernelIdeal.sig Kind.scVector Space.vmem Cert.KernelIdeal.S416x128 EltTy.f32)

variable (m : (ℓ : Loc nD τ sig) → Buf (Elt F) ℓ)
variable (d : Dev nD) (L : grid0.Coords)

/-- The read tokens: of the index list, one per index-load semaphore; of the grouped table, one per gather semaphore
    (tokens 2 and 3 of four). -/
abbrev tokI (L : grid0.Coords) (p : Fin 2) : PosShare TreeShare := Transfers.shareTok (Transfers.shareTok fullShare 32 (widL L)) 2 p
abbrev tokT (L : grid0.Coords) (p : Fin 4) : PosShare TreeShare := Transfers.shareTok (Transfers.shareTok fullShare 32 (widL L)) 4 p

/-- A chunk number read off a natural number. -/
def gIx (n : ℕ) : Fin 160 := ⟨n % 160, Nat.mod_lt _ (by decide)⟩
theorem gIx_val {n : ℕ} (h : n < 160) : (gIx n).val = n := Nat.mod_eq_of_lt h

/-- Chunk g's entries of the index list: the slice at flat position w * 66560 + 416 g. -/
def idxOff (L : grid0.Coords) (g : Fin 160) : Fin 1 → ℕ := ![(widL L).val * 66560 + 416 * g.val]
theorem idxOff_inb (g : Fin 160) : ∀ a, idxOff L g a + S416.size a ≤ S2129920.size a := by
  intro a
  have hw := (widL L).isLt; have hg := g.isLt
  obtain rfl : a = 0 := Subsingleton.elim _ _
  show (widL L).val * 66560 + 416 * g.val + 416 ≤ 2129920
  omega
abbrev idxSl (g : Fin 160) : Memref sig .scVector .hbm S416 .i32 :=
  (idxW).slice (Rect.unit (s := S2129920) (idxOff L g) S416.size (idxOff_inb L g)) (fun _ => rfl)
/-- The table as the gathers slice it (whole), and the first 104 rows of each gather buffer. -/
abbrev tabSl : Memref sig .scVector .hbm S650007x128 .f32 :=
  (tabW).slice (Rect.unit (s := S650007x128) ![0, 0] S650007x128.size inb_S650007x128_S650007x128_0_0) (fun _ => rfl)
abbrev g5Sl : Memref sig .scVector .vmem S104x128 .f32 :=
  (s5W).slice (Rect.unit (s := S416x128) ![0, 0] S104x128.size inb_S416x128_S104x128_0_0) (fun _ => rfl)
abbrev g6Sl : Memref sig .scVector .vmem S104x128 .f32 :=
  (s6W).slice (Rect.unit (s := S416x128) ![0, 0] S104x128.size inb_S416x128_S104x128_0_0) (fun _ => rfl)

variable [FloatOps F]

/-- Chunk g's 416 entries, as the index load delivers them. -/
def chunkEnts (g : Fin 160) : S416.Idx → BitVec 32 := (idxSl L g).view.read (Elt F) (Vpre m d idx')

/-- A gather buffer holds the table groups its list names. -/
def Gathered (G : S416x128.Idx → Elt F .f32) (I : S416.Idx → BitVec 32) : Prop :=
  ∀ (j : Fin 416) (c : Fin 128) (h : (I (ix1 j)).toNat < 650007), G (ix2 j c) = tabArr m d (ix2 (⟨(I (ix1 j)).toNat, h⟩ : Fin 650007) c)

/-! ## The transfers in flight -/

/-- The index load of chunk g into parity 0's index buffer, on cell 0, and the rest of token 0. -/
def IdxFlight0 (g : Fin 160) : sProp 𝕄 :=
  iprop(Transfers.Flight countersEmb (thrL d L) (SemLoc.dma cc0_scratch7.sem) (default : HIx 1) 13312
      iprop(((s3W).view.loc (thrL d L) ↦{fullShare} chunkEnts m d L g) ∗ ((idxW).view.loc (thrL d L) ↦[(idxSl L g).view.set]{tokI L 0} Vpre m d idx'))
    ∗ ((idxW).view.loc (thrL d L) ↦[Finset.univ \ (idxSl L g).view.set]{tokI L 0} Vpre m d idx'))
/-- The index load of chunk g into parity 1's index buffer, on cell 1, and the rest of token 1. -/
def IdxFlight1 (g : Fin 160) : sProp 𝕄 :=
  iprop(Transfers.Flight countersEmb (thrL d L) (SemLoc.dma cc0_scratch8.sem) (default : HIx 1) 13312
      iprop(((s4W).view.loc (thrL d L) ↦{fullShare} chunkEnts m d L g) ∗ ((idxW).view.loc (thrL d L) ↦[(idxSl L g).view.set]{tokI L 1} Vpre m d idx'))
    ∗ ((idxW).view.loc (thrL d L) ↦[Finset.univ \ (idxSl L g).view.set]{tokI L 1} Vpre m d idx'))
/-- Parity 0's index side idle: the buffer at anything, cell 0 at zero, token 0 whole. -/
def IdxIdle0 : sProp 𝕄 :=
  iprop((∃ f, (s3W).view.loc (thrL d L) ↦{fullShare} f) ∗ semVal (cellOf d L cc0_scratch7) 0 ∗ ((idxW).view.loc (thrL d L) ↦{tokI L 0} Vpre m d idx'))

/-- The gather of chunk g into parity 0's gather buffer on cell 2: list in parity 0's index buffer, quarters in its
    quarter buffer, table token 2 lent. -/
def GatherFlight0 (Of : S416.Idx → BitVec 32) (g : Fin 160) : sProp 𝕄 :=
  iprop(∃ (G : S416x128.Idx → Elt F .f32) (I S : S416.Idx → BitVec 32),
    ⌜Steps.OffsetDone (chunkEnts m d L g) Of I S ∧ Gathered m d G I⌝
    ∗ Transfers.Flight countersEmb (thrL d L) (SemLoc.dma cc0_scratch9.sem) (default : HIx 1) 1703936
        iprop((((s5W).view.loc (thrL d L) ↦{fullShare} G) ∗ ((s3W).view.loc (thrL d L) ↦{fullShare} I))
          ∗ ((tabW).view.loc (thrL d L) ↦[(tabSl).view.set]{tokT L 2} Vpre m d tab'))
    ∗ ((tabW).view.loc (thrL d L) ↦[Finset.univ \ (tabSl).view.set]{tokT L 2} Vpre m d tab')
    ∗ ((s1W).view.loc (thrL d L) ↦{fullShare} S))
/-- The same for parity 1, on cell 3, table token 3. -/
def GatherFlight1 (Of : S416.Idx → BitVec 32) (g : Fin 160) : sProp 𝕄 :=
  iprop(∃ (G : S416x128.Idx → Elt F .f32) (I S : S416.Idx → BitVec 32),
    ⌜Steps.OffsetDone (chunkEnts m d L g) Of I S ∧ Gathered m d G I⌝
    ∗ Transfers.Flight countersEmb (thrL d L) (SemLoc.dma cc0_scratch10.sem) (default : HIx 1) 1703936
        iprop((((s6W).view.loc (thrL d L) ↦{fullShare} G) ∗ ((s4W).view.loc (thrL d L) ↦{fullShare} I))
          ∗ ((tabW).view.loc (thrL d L) ↦[(tabSl).view.set]{tokT L 3} Vpre m d tab'))
    ∗ ((tabW).view.loc (thrL d L) ↦[Finset.univ \ (tabSl).view.set]{tokT L 3} Vpre m d tab')
    ∗ ((s2W).view.loc (thrL d L) ↦{fullShare} S))

/-- The write-out of chunk g from parity 0's gather buffer on cell 4: the block arrives at the call's result on its
    rows; the buffer's first 104 rows are lent. -/
def WriteFlight0 (g : Fin 160) : sProp 𝕄 :=
  iprop(∃ (Wr : S532480x128.Idx → Elt F .f32) (G : S416x128.Idx → Elt F .f32),
    ⌜∀ i ∈ outSet (chunkIx (widL L) g), Wr i = outArr m d i⌝
    ∗ Transfers.Flight countersEmb (thrL d L) (SemLoc.dma cc0_scratch11.sem) (default : HIx 1) 425984
        iprop(((outW).view.loc (thrL d L) ↦[outSet (chunkIx (widL L) g)]{fullShare} Wr) ∗ ((s5W).view.loc (thrL d L) ↦[(g5Sl).view.set]{fullShare} G))
    ∗ ((s5W).view.loc (thrL d L) ↦[Finset.univ \ (g5Sl).view.set]{fullShare} G))
/-- The same for parity 1, on cell 5. -/
def WriteFlight1 (g : Fin 160) : sProp 𝕄 :=
  iprop(∃ (Wr : S532480x128.Idx → Elt F .f32) (G : S416x128.Idx → Elt F .f32),
    ⌜∀ i ∈ outSet (chunkIx (widL L) g), Wr i = outArr m d i⌝
    ∗ Transfers.Flight countersEmb (thrL d L) (SemLoc.dma cc0_scratch12.sem) (default : HIx 1) 425984
        iprop(((outW).view.loc (thrL d L) ↦[outSet (chunkIx (widL L) g)]{fullShare} Wr) ∗ ((s6W).view.loc (thrL d L) ↦[(g6Sl).view.set]{fullShare} G))
    ∗ ((s6W).view.loc (thrL d L) ↦[Finset.univ \ (g6Sl).view.set]{fullShare} G))

/-- What the tile owes, with the waits it has recorded at index none. -/
def Owes (O : CellTallies nD τ sig (HIx 1)) (W : Waits sig (HIx 1)) : sProp 𝕄 :=
  iprop(∃ W', ⌜∀ p ∈ W', p ∈ W ∨ p.2 = none⌝ ∗ owes (thrL d L) O W')

/-- The result blocks other than block b: those below n written, the others untouched. -/
def OutBlocks (b : Fin 160) (n : ℕ) : sProp 𝕄 :=
  bigSep (Finset.univ.erase b) fun g : Fin 160 =>
    outLoc d ↦[outSet (chunkIx (widL L) g)]{fullShare} (if g.val < n then outArr m d else out0Arr m d)

/-! ## The invariant -/

/-- Before trip 0. -/
def Inv0 (O : CellTallies nD τ sig (HIx 1)) (W : Waits sig (HIx 1)) (Of : S416.Idx → BitVec 32) : sProp 𝕄 :=
  iprop(Transfers.MayWaits (thrL d L) (none : HIx 1) O
    ∗ ((s0W).view.loc (thrL d L) ↦{fullShare} Of)
    ∗ (∃ f, (s1W).view.loc (thrL d L) ↦{fullShare} f) ∗ (∃ f, (s2W).view.loc (thrL d L) ↦{fullShare} f)
    ∗ (∃ f, (s5W).view.loc (thrL d L) ↦{fullShare} f) ∗ (∃ f, (s6W).view.loc (thrL d L) ↦{fullShare} f)
    ∗ IdxFlight0 m d L (gIx 0) ∗ IdxFlight1 m d L (gIx 1)
    ∗ ((tabW).view.loc (thrL d L) ↦{tokT L 2} Vpre m d tab') ∗ ((tabW).view.loc (thrL d L) ↦{tokT L 3} Vpre m d tab')
    ∗ semVal (cellOf d L cc0_scratch9) 0 ∗ semVal (cellOf d L cc0_scratch10) 0 ∗ semVal (cellOf d L cc0_scratch11) 0 ∗ semVal (cellOf d L cc0_scratch12) 0
    ∗ (bigSep Finset.univ fun g : Fin 160 => outLoc d ↦[outSet (chunkIx (widL L) g)]{fullShare} out0Arr m d)
    ∗ Owes d L O W)

/-- Before trip k, 1 ≤ k ≤ 80 (at k = 80: after the loop, no index load in flight). -/
def InvK (O : CellTallies nD τ sig (HIx 1)) (W : Waits sig (HIx 1)) (Of : S416.Idx → BitVec 32) (k : ℕ) : sProp 𝕄 :=
  iprop(Transfers.MayWaits (thrL d L) (none : HIx 1) O
    ∗ ((s0W).view.loc (thrL d L) ↦{fullShare} Of)
    ∗ (∃ f, (s1W).view.loc (thrL d L) ↦{fullShare} f)
    ∗ (if k < 80 then IdxFlight0 m d L (gIx (2 * k)) else IdxIdle0 m d L)
    ∗ WriteFlight0 m d L (gIx (2 * k - 2))
    ∗ semVal (cellOf d L cc0_scratch9) 0 ∗ ((tabW).view.loc (thrL d L) ↦{tokT L 2} Vpre m d tab')
    ∗ GatherFlight1 m d L Of (gIx (2 * k - 1))
    ∗ semVal (cellOf d L cc0_scratch8) 0 ∗ ((idxW).view.loc (thrL d L) ↦{tokI L 1} Vpre m d idx')
    ∗ semVal (cellOf d L cc0_scratch12) 0
    ∗ OutBlocks m d L (gIx (2 * k - 2)) (2 * k - 2)
    ∗ Owes d L O W)

/-- The invariant of the main loop. -/
def inv (O : CellTallies nD τ sig (HIx 1)) (W : Waits sig (HIx 1)) (Of : S416.Idx → BitVec 32) (k : ℕ) (_ : PUnit) : sProp 𝕄 :=
  if k = 0 then Inv0 m d L O W Of else InvK m d L O W Of k

theorem inv_zero (O : CellTallies nD τ sig (HIx 1)) (W : Waits sig (HIx 1)) (Of : S416.Idx → BitVec 32) (u : PUnit) :
    inv m d L O W Of 0 u = Inv0 m d L O W Of := if_pos rfl
theorem inv_pos (O : CellTallies nD τ sig (HIx 1)) (W : Waits sig (HIx 1)) (Of : S416.Idx → BitVec 32) {k : ℕ} (hk : 0 < k) (u : PUnit) :
    inv m d L O W Of k u = InvK m d L O W Of k := if_neg (by omega)

/-- What the loop and the steps after it leave: every buffer and cell idle, the four tokens whole, the 160 blocks written. -/
def Fin0 (O : CellTallies nD τ sig (HIx 1)) (W : Waits sig (HIx 1)) (Of : S416.Idx → BitVec 32) : sProp 𝕄 :=
  iprop(((s0W).view.loc (thrL d L) ↦{fullShare} Of)
    ∗ (∃ f, (s1W).view.loc (thrL d L) ↦{fullShare} f) ∗ (∃ f, (s2W).view.loc (thrL d L) ↦{fullShare} f)
    ∗ (∃ f, (s3W).view.loc (thrL d L) ↦{fullShare} f) ∗ (∃ f, (s4W).view.loc (thrL d L) ↦{fullShare} f)
    ∗ (∃ f, (s5W).view.loc (thrL d L) ↦{fullShare} f) ∗ (∃ f, (s6W).view.loc (thrL d L) ↦{fullShare} f)
    ∗ semVal (cellOf d L cc0_scratch7) 0 ∗ semVal (cellOf d L cc0_scratch8) 0 ∗ semVal (cellOf d L cc0_scratch9) 0
    ∗ semVal (cellOf d L cc0_scratch10) 0 ∗ semVal (cellOf d L cc0_scratch11) 0 ∗ semVal (cellOf d L cc0_scratch12) 0
    ∗ ((idxW).view.loc (thrL d L) ↦{tokI L 0} Vpre m d idx') ∗ ((idxW).view.loc (thrL d L) ↦{tokI L 1} Vpre m d idx')
    ∗ ((tabW).view.loc (thrL d L) ↦{tokT L 2} Vpre m d tab') ∗ ((tabW).view.loc (thrL d L) ↦{tokT L 3} Vpre m d tab')
    ∗ (bigSep Finset.univ fun g : Fin 160 => outLoc d ↦[outSet (chunkIx (widL L) g)]{fullShare} outArr m d)
    ∗ Owes d L O W)

end Cert.Proof.KI

end
-- ==== Proof.KIBodyLibGeomOff.lean ====
/-
  The offsets the tile's slices are taken at, in closed form.

  Tile number w = 2 s + c owns entries [w * 66560, (w + 1) * 66560) of the index list, 160 chunks of 416 entries, and rows
  [w * 16640, (w + 1) * 16640) of the result, 160 chunks of 104 rows. In trip k of the main loop (k < 80) the even step
  handles chunk 2 k and the odd step chunk 2 k + 1: a step waits for the write of the chunk two before its own, loads the
  index chunk after its own, and writes the chunk before its own. The printed offset chains compute, on 32-bit words,
  w * 66560 + 416 * g for an index chunk g and w * 16640 + 104 * g for a result chunk g; the chunk numbers 2 k - 2 and
  2 k - 1 are formed by a subtraction, which is the one on natural numbers exactly under the guard the slice is taken
  under (k ≥ 1).
-/
import proofs.«204936_g5145370820905_cont_8to1_c_618_18_alg».proof.Proof.KITile

noncomputable section

namespace Cert.Proof.KI

open Cert.KernelIdeal Cert.KernelIdeal.Gen
open Idealize.ShloMosaic Idealize.ShloMosaic.ValueIdx

variable (L : grid0.Coords) (k : Fin k0_t1_loop.trips)

/-- The tile number is twice the subcore's number plus the core's. -/
theorem widL_val : (widL L).val = 2 * (L 1).val + (L 0).val := rfl

theorem trips_eq : k0_t1_loop.trips = 80 := by decide

/-! ## The guards, as facts about the trip number -/

/-- Chunk 2 k has a chunk two before it from the second trip on. -/
theorem cond1_iff : ∀ k : Fin k0_t1_loop.trips, k0_cond1 k = 1#1 ↔ 1 ≤ k.val := by decide +kernel
/-- Chunk 2 k has a chunk before it from the second trip on. -/
theorem cond2_iff : ∀ k : Fin k0_t1_loop.trips, k0_cond2 k = 1#1 ↔ 1 ≤ k.val := by decide +kernel
/-- Chunk 2 k + 1 is always followed by another chunk of the tile. -/
theorem cond3_iff : ∀ k : Fin k0_t1_loop.trips, k0_cond3 k = 1#1 ↔ True := by decide +kernel
/-- Chunk 2 k + 1 has a chunk two before it from the second trip on. -/
theorem cond4_iff : ∀ k : Fin k0_t1_loop.trips, k0_cond4 k = 1#1 ↔ 1 ≤ k.val := by decide +kernel
/-- Chunk 2 k + 1 always has a chunk before it. -/
theorem cond5_iff : ∀ k : Fin k0_t1_loop.trips, k0_cond5 k = 1#1 ↔ True := by decide +kernel
/-- Chunk 2 k + 2 exists in every trip but the last. -/
theorem cond6_iff : ∀ k : Fin k0_t1_loop.trips, k0_cond6 k = 1#1 ↔ k.val + 1 < 80 := by decide +kernel

/-! ## The result's chunks: rows w * 16640 + 104 * g onwards -/

/-- The rows of chunk 2 k - 2, waited for at the start of the even step. -/
theorem off2_eq (h1 : 1 ≤ k.val) : k0_off2 L k = ![(widL L).val * 16640 + 104 * (2 * k.val - 2), 0] := by
  have r_i1 : (L 1).val < 16 := (L 1).isLt
  have h_arg1 : Affine.IsInt (BitVec.ofNat 32 (L 1).val) (((L 1).val : Int)) := Affine.ofNat _ (by omega)
  have h_c2 : Affine.IsInt 2#32 (2) := Affine.ofNat _ (by omega)
  have h_v0 : Affine.IsInt _ (2 * ((L 1).val : Int)) := Affine.muli h_arg1 h_c2 (by omega)
  have r_i0 : (L 0).val < 2 := (L 0).isLt
  have h_arg0 : Affine.IsInt (BitVec.ofNat 32 (L 0).val) (((L 0).val : Int)) := Affine.ofNat _ (by omega)
  have h_v1 : Affine.IsInt _ (2 * ((L 1).val : Int) + ((L 0).val : Int)) := Affine.addi h_v0 h_arg0 (by omega)
  have h_c16640 : Affine.IsInt 16640#32 (16640) := Affine.ofNat _ (by omega)
  have h_v3 : Affine.IsInt _ (33280 * ((L 1).val : Int) + 16640 * ((L 0).val : Int)) := Affine.muli h_v1 h_c16640 (by omega)
  have h_c0 : Affine.IsInt 0#32 (0) := Affine.ofNat _ (by omega)
  have h_c1 : Affine.IsInt 1#32 (1) := Affine.ofNat _ (by omega)
  have r_k : k.val < 80 := Nat.lt_of_lt_of_le k.isLt k0_t1_abs.2.1
  have h_arg19 : Affine.IsInt _ ((k.val : Int)) := Affine.iv h_c0 h_c1 k.val (by omega)
  have h_v29 : Affine.IsInt _ (2 * (k.val : Int)) := Affine.muli h_arg19 h_c2 (by omega)
  have h_v30 : Affine.IsInt _ (2 * (k.val : Int)) := Affine.addi h_v29 h_c0 (by omega)
  have h_v57 : Affine.IsInt _ (2 * (k.val : Int) - 2) := Affine.subi h_v30 h_c2 (by omega)
  have h_c104 : Affine.IsInt 104#32 (104) := Affine.ofNat _ (by omega)
  have h_v58 : Affine.IsInt _ (208 * (k.val : Int) - 208) := Affine.muli h_v57 h_c104 (by omega)
  have h_v59 : Affine.IsInt _ (33280 * ((L 1).val : Int) + 16640 * ((L 0).val : Int) + 208 * (k.val : Int) - 208) := Affine.addi h_v3 h_v58 (by omega)
  exact Affine.vec_cons h_v59 (by rw [widL_val]; omega) <| Affine.vec_cons (Affine.ofNat 0 (by omega) : Affine.IsInt 0#32 0) (by omega) <| Affine.vec_nil

/-- The rows of chunk 2 k - 1, written at the end of the even step. -/
theorem off7_eq (h1 : 1 ≤ k.val) : k0_off7 L k = ![(widL L).val * 16640 + 104 * (2 * k.val - 1), 0] := by
  have r_i1 : (L 1).val < 16 := (L 1).isLt
  have h_arg1 : Affine.IsInt (BitVec.ofNat 32 (L 1).val) (((L 1).val : Int)) := Affine.ofNat _ (by omega)
  have h_c2 : Affine.IsInt 2#32 (2) := Affine.ofNat _ (by omega)
  have h_v0 : Affine.IsInt _ (2 * ((L 1).val : Int)) := Affine.muli h_arg1 h_c2 (by omega)
  have r_i0 : (L 0).val < 2 := (L 0).isLt
  have h_arg0 : Affine.IsInt (BitVec.ofNat 32 (L 0).val) (((L 0).val : Int)) := Affine.ofNat _ (by omega)
  have h_v1 : Affine.IsInt _ (2 * ((L 1).val : Int) + ((L 0).val : Int)) := Affine.addi h_v0 h_arg0 (by omega)
  have h_c16640 : Affine.IsInt 16640#32 (16640) := Affine.ofNat _ (by omega)
  have h_v3 : Affine.IsInt _ (33280 * ((L 1).val : Int) + 16640 * ((L 0).val : Int)) := Affine.muli h_v1 h_c16640 (by omega)
  have h_c0 : Affine.IsInt 0#32 (0) := Affine.ofNat _ (by omega)
  have h_c1 : Affine.IsInt 1#32 (1) := Affine.ofNat _ (by omega)
  have r_k : k.val < 80 := Nat.lt_of_lt_of_le k.isLt k0_t1_abs.2.1
  have h_arg19 : Affine.IsInt _ ((k.val : Int)) := Affine.iv h_c0 h_c1 k.val (by omega)
  have h_v29 : Affine.IsInt _ (2 * (k.val : Int)) := Affine.muli h_arg19 h_c2 (by omega)
  have h_v30 : Affine.IsInt _ (2 * (k.val : Int)) := Affine.addi h_v29 h_c0 (by omega)
  have h_v64 : Affine.IsInt _ (2 * (k.val : Int) - 1) := Affine.subi h_v30 h_c1 (by omega)
  have h_c104 : Affine.IsInt 104#32 (104) := Affine.ofNat _ (by omega)
  have h_v65 : Affine.IsInt _ (208 * (k.val : Int) - 104) := Affine.muli h_v64 h_c104 (by omega)
  have h_v66 : Affine.IsInt _ (33280 * ((L 1).val : Int) + 16640 * ((L 0).val : Int) + 208 * (k.val : Int) - 104) := Affine.addi h_v3 h_v65 (by omega)
  exact Affine.vec_cons h_v66 (by rw [widL_val]; omega) <| Affine.vec_cons (Affine.ofNat 0 (by omega) : Affine.IsInt 0#32 0) (by omega) <| Affine.vec_nil

/-- The rows of chunk 2 k - 1 again, waited for at the start of the odd step. -/
theorem off8_eq (h1 : 1 ≤ k.val) : k0_off8 L k = ![(widL L).val * 16640 + 104 * (2 * k.val - 1), 0] := by
  have r_i1 : (L 1).val < 16 := (L 1).isLt
  have h_arg1 : Affine.IsInt (BitVec.ofNat 32 (L 1).val) (((L 1).val : Int)) := Affine.ofNat _ (by omega)
  have h_c2 : Affine.IsInt 2#32 (2) := Affine.ofNat _ (by omega)
  have h_v0 : Affine.IsInt _ (2 * ((L 1).val : Int)) := Affine.muli h_arg1 h_c2 (by omega)
  have r_i0 : (L 0).val < 2 := (L 0).isLt
  have h_arg0 : Affine.IsInt (BitVec.ofNat 32 (L 0).val) (((L 0).val : Int)) := Affine.ofNat _ (by omega)
  have h_v1 : Affine.IsInt _ (2 * ((L 1).val : Int) + ((L 0).val : Int)) := Affine.addi h_v0 h_arg0 (by omega)
  have h_c16640 : Affine.IsInt 16640#32 (16640) := Affine.ofNat _ (by omega)
  have h_v3 : Affine.IsInt _ (33280 * ((L 1).val : Int) + 16640 * ((L 0).val : Int)) := Affine.muli h_v1 h_c16640 (by omega)
  have h_c0 : Affine.IsInt 0#32 (0) := Affine.ofNat _ (by omega)
  have h_c1 : Affine.IsInt 1#32 (1) := Affine.ofNat _ (by omega)
  have r_k : k.val < 80 := Nat.lt_of_lt_of_le k.isLt k0_t1_abs.2.1
  have h_arg19 : Affine.IsInt _ ((k.val : Int)) := Affine.iv h_c0 h_c1 k.val (by omega)
  have h_v43 : Affine.IsInt _ (2 * (k.val : Int)) := Affine.muli h_arg19 h_c2 (by omega)
  have h_v44 : Affine.IsInt _ (2 * (k.val : Int) + 1) := Affine.addi h_v43 h_c1 (by omega)
  have h_v57 : Affine.IsInt _ (2 * (k.val : Int) - 1) := Affine.subi h_v44 h_c2 (by omega)
  have h_c104 : Affine.IsInt 104#32 (104) := Affine.ofNat _ (by omega)
  have h_v58 : Affine.IsInt _ (208 * (k.val : Int) - 104) := Affine.muli h_v57 h_c104 (by omega)
  have h_v59 : Affine.IsInt _ (33280 * ((L 1).val : Int) + 16640 * ((L 0).val : Int) + 208 * (k.val : Int) - 104) := Affine.addi h_v3 h_v58 (by omega)
  exact Affine.vec_cons h_v59 (by rw [widL_val]; omega) <| Affine.vec_cons (Affine.ofNat 0 (by omega) : Affine.IsInt 0#32 0) (by omega) <| Affine.vec_nil

/-- The rows of chunk 2 k, written at the end of the odd step. -/
theorem off12_eq : k0_off12 L k = ![(widL L).val * 16640 + 104 * (2 * k.val), 0] := by
  rw [k0_off12_eq, widL_val]
  congr 1
  omega

/-- The rows of the tile's last two chunks, written and waited for after the loop. -/
theorem off14_eq_158 : k0_off14 L 16432#32 = ![(widL L).val * 16640 + 104 * 158, 0] := by
  rw [show (16432#32 : BitVec 32) = BitVec.ofNat 32 (16432 + 104 * (0 : Fin 2).val) from rfl, k0_off14_eq, widL_val]
  congr 1
  simp only [Fin.val_zero]; omega
theorem off14_eq_159 : k0_off14 L 16536#32 = ![(widL L).val * 16640 + 104 * 159, 0] := by
  rw [show (16536#32 : BitVec 32) = BitVec.ofNat 32 (16432 + 104 * (1 : Fin 2).val) from rfl, k0_off14_eq, widL_val]
  congr 1
  simp only [Fin.val_one]; omega

/-! ## The index list's chunks: entries w * 66560 + 416 * g onwards -/

/-- The first two index chunks, loaded before the loop. -/
theorem off1_eq_0 : k0_off1 L 0#32 = ![(widL L).val * 66560 + 416 * 0] := by
  rw [show (0#32 : BitVec 32) = BitVec.ofNat 32 (416 * (0 : Fin 2).val) from rfl, k0_off1_eq, widL_val]
  congr 1
  simp only [Fin.val_zero]; omega
theorem off1_eq_1 : k0_off1 L 416#32 = ![(widL L).val * 66560 + 416 * 1] := by
  rw [show (416#32 : BitVec 32) = BitVec.ofNat 32 (416 * (1 : Fin 2).val) from rfl, k0_off1_eq, widL_val]
  congr 1
  simp only [Fin.val_one]; omega
/-- Index chunks 2 k and 2 k + 1, waited for at the start of the even and of the odd step. -/
theorem off3_eq_0 : k0_off3 L k 0#32 = ![(widL L).val * 66560 + 416 * (2 * k.val)] := by
  rw [show (0#32 : BitVec 32) = BitVec.ofNat 32 (0 : Fin 2).val from rfl, k0_off3_eq, widL_val]
  congr 1
  simp only [Fin.val_zero]; omega
theorem off3_eq_1 : k0_off3 L k 1#32 = ![(widL L).val * 66560 + 416 * (2 * k.val + 1)] := by
  rw [show (1#32 : BitVec 32) = BitVec.ofNat 32 (1 : Fin 2).val from rfl, k0_off3_eq, widL_val]
  congr 1
  simp only [Fin.val_one]; omega
/-- Index chunk 2 k + 1, loaded in the even step, and index chunk 2 k + 2, loaded in the odd step. -/
theorem off5_eq : k0_off5 L k = ![(widL L).val * 66560 + 416 * (2 * k.val + 1)] := by
  rw [k0_off5_eq, widL_val]
  congr 1
  omega
theorem off10_eq : k0_off10 L k = ![(widL L).val * 66560 + 416 * (2 * k.val + 2)] := by
  rw [k0_off10_eq, widL_val]
  congr 1
  omega

end Cert.Proof.KI

end
-- ==== Proof.KIBodyLibGeomOut.lean ====
/-
  Which rows of the result each of the tile's result slices covers.

  The result has 532480 rows of 128 words, cut into 5120 blocks of 104 rows; tile w owns rows [w * 16640, (w + 1) * 16640),
  that is blocks 160 w + g for its chunks g < 160. A slice of 104 rows taken at row r and column 0 covers exactly the words
  whose row lies in [r, r + 104), and block q is the words whose row lies in [104 q, 104 q + 104). With the offsets in
  closed form (w * 16640 + 104 g) each printed slice is one block of the tile: chunk 2 k - 2 or 2 k - 1 (waited for), 2 k - 1
  or 2 k (written) in trip k of the main loop, and chunks 158 and 159 after it.
-/
import proofs.«204936_g5145370820905_cont_8to1_c_618_18_alg».proof.Proof.KIBodyLibGeomOff

noncomputable section

namespace Cert.Proof.KI

open Cert.KernelIdeal Cert.KernelIdeal.Gen
open Idealize.ShloMosaic Idealize.ShloMosaic.ValueIdx

local notation "outW" => (Memref.whole Cert.KernelIdeal.main_v13_scv : Memref Cert.KernelIdeal.sig Kind.scVector Space.hbm Cert.KernelIdeal.S532480x128 EltTy.f32)

/-! ## Rows of the result -/

/-- The words of the result in the 104 rows from row `r`. -/
def outRows (r : ℕ) : Finset S532480x128.Idx :=
  Finset.univ.filter fun j => r ≤ (j 0).val ∧ (j 0).val < r + 104

theorem mem_outRows {r : ℕ} {j : S532480x128.Idx} : j ∈ outRows r ↔ r ≤ (j 0).val ∧ (j 0).val < r + 104 := by
  simp [outRows]

/-- A slice of 104 rows of the result, taken at row `r` and column 0, covers the words of those rows. -/
theorem set_slice_outRows {off : Fin 2 → ℕ} (h : ∀ a, off a + S104x128.size a ≤ S532480x128.size a) {r : ℕ} (he : off = ![r, 0]) :
    ((outW).slice (Rect.unit (s := S532480x128) off S104x128.size h) (fun _ => rfl)).view.set = outRows r := by
  subst he
  refine (View.set_slice_whole main_v13_scv (Rect.unit (s := S532480x128) ![r, 0] S104x128.size h)).trans ?_
  ext j
  rw [Rect.mem_set_unit]
  refine (Fin.forall_fin_two).trans ?_
  rw [mem_outRows]
  have h1 : (j 1).val < 128 := (j 1).isLt
  constructor
  · rintro ⟨⟨a, b⟩, -⟩
    exact ⟨a, b⟩
  · rintro ⟨a, b⟩
    exact ⟨⟨a, b⟩, Nat.zero_le _, by simpa using h1⟩

/-- Block `q` of the result is the words of the 104 rows from row `104 q`. -/
theorem outSet_eq_outRows (q : Fin 5120) : outSet q = outRows (104 * q.val) := by
  refine (View.set_slice_whole main_v13_scv (outPart q)).trans ?_
  ext j
  rw [Rect.mem_set_unit]
  refine (Fin.forall_fin_two).trans ?_
  rw [mem_outRows]
  have h1 : (j 1).val < 128 := (j 1).isLt
  have e0 : S532480x128.partIx 0 q.val 0 * S532480x128.partSize 0 5120 0 = 104 * q.val := by
    simp [Shape.partIx, Shape.partSize]; omega
  have s0 : S532480x128.partSize 0 5120 0 = 104 := by simp [Shape.partSize]
  have e1 : S532480x128.partIx 0 q.val 1 * S532480x128.partSize 0 5120 1 = 0 := by simp [Shape.partIx]
  have s1 : S532480x128.partSize 0 5120 1 = 128 := by simp [Shape.partSize]
  rw [e0, s0, e1, s1]
  omega

/-- The block of chunk `g` of tile `w`: the 104 rows from row `w * 16640 + 104 g`. -/
theorem outSet_chunkIx (w : Fin 32) (g : Fin 160) : outSet (chunkIx w g) = outRows (w.val * 16640 + 104 * g.val) := by
  rw [outSet_eq_outRows]
  congr 1
  show 104 * (160 * w.val + g.val) = w.val * 16640 + 104 * g.val
  omega

theorem mem_outSet_chunkIx {w : Fin 32} {g : Fin 160} {j : S532480x128.Idx} :
    j ∈ outSet (chunkIx w g) ↔ w.val * 16640 + 104 * g.val ≤ (j 0).val ∧ (j 0).val < w.val * 16640 + 104 * g.val + 104 := by
  rw [outSet_chunkIx, mem_outRows]

/-- A slice of 104 rows taken at the first row of chunk `g` of tile `w` is that chunk's block. -/
theorem set_slice_chunk {off : Fin 2 → ℕ} (h : ∀ a, off a + S104x128.size a ≤ S532480x128.size a) (w : Fin 32) (g : Fin 160)
    (he : off = ![w.val * 16640 + 104 * g.val, 0]) :
    ((outW).slice (Rect.unit (s := S532480x128) off S104x128.size h) (fun _ => rfl)).view.set = outSet (chunkIx w g) :=
  (set_slice_outRows h he).trans (outSet_chunkIx w g).symm

/-! ## The printed slices -/

variable (L : grid0.Coords) (k : Fin k0_t1_loop.trips)

/-- The chunk numbers a trip of the main loop names are chunks of the tile. -/
theorem chunk_lt (j : ℕ) (hj : j ≤ 1) : 2 * k.val + j < 160 := by
  have hk : k.val < 80 := lt_of_lt_of_eq k.isLt trips_eq
  omega
theorem chunkm2_lt : 2 * k.val - 2 < 160 := by have := chunk_lt k 0 (by omega); omega
theorem chunkm1_lt : 2 * k.val - 1 < 160 := by have := chunk_lt k 0 (by omega); omega
theorem chunk0_lt : 2 * k.val < 160 := chunk_lt k 0 (by omega)
theorem chunk1_lt : 2 * k.val + 1 < 160 := chunk_lt k 1 (by omega)

/-- The slice whose write the even step waits for first: chunk 2 k - 2 of the tile. -/
theorem set_out_off2 (h1 : k0_cond1 k = 1#1) (h : ∀ a, (k0_off2 L k) a + S104x128.size a ≤ S532480x128.size a) :
    ((outW).slice (Rect.unit (s := S532480x128) (k0_off2 L k) S104x128.size h) (fun _ => rfl)).view.set
      = outSet (chunkIx (widL L) ⟨2 * k.val - 2, chunkm2_lt k⟩) :=
  set_slice_chunk h (widL L) ⟨2 * k.val - 2, chunkm2_lt k⟩ (off2_eq L k ((cond1_iff k).mp h1))

/-- The slice the even step writes: chunk 2 k - 1 of the tile. -/
theorem set_out_off7 (h2 : k0_cond2 k = 1#1) (h : ∀ a, (k0_off7 L k) a + S104x128.size a ≤ S532480x128.size a) :
    ((outW).slice (Rect.unit (s := S532480x128) (k0_off7 L k) S104x128.size h) (fun _ => rfl)).view.set
      = outSet (chunkIx (widL L) ⟨2 * k.val - 1, chunkm1_lt k⟩) :=
  set_slice_chunk h (widL L) ⟨2 * k.val - 1, chunkm1_lt k⟩ (off7_eq L k ((cond2_iff k).mp h2))

/-- The slice whose write the odd step waits for first: chunk 2 k - 1 of the tile. -/
theorem set_out_off8 (h4 : k0_cond4 k = 1#1) (h : ∀ a, (k0_off8 L k) a + S104x128.size a ≤ S532480x128.size a) :
    ((outW).slice (Rect.unit (s := S532480x128) (k0_off8 L k) S104x128.size h) (fun _ => rfl)).view.set
      = outSet (chunkIx (widL L) ⟨2 * k.val - 1, chunkm1_lt k⟩) :=
  set_slice_chunk h (widL L) ⟨2 * k.val - 1, chunkm1_lt k⟩ (off8_eq L k ((cond4_iff k).mp h4))

/-- The slice the odd step writes: chunk 2 k of the tile. -/
theorem set_out_off12 (h : ∀ a, (k0_off12 L k) a + S104x128.size a ≤ S532480x128.size a) :
    ((outW).slice (Rect.unit (s := S532480x128) (k0_off12 L k) S104x128.size h) (fun _ => rfl)).view.set
      = outSet (chunkIx (widL L) ⟨2 * k.val, chunk0_lt k⟩) :=
  set_slice_chunk h (widL L) ⟨2 * k.val, chunk0_lt k⟩ (off12_eq L k)

/-- The two slices written and waited for after the loop: chunks 158 and 159 of the tile. -/
theorem set_out_off14_158 (h : ∀ a, (k0_off14 L 16432#32) a + S104x128.size a ≤ S532480x128.size a) :
    ((outW).slice (Rect.unit (s := S532480x128) (k0_off14 L 16432#32) S104x128.size h) (fun _ => rfl)).view.set
      = outSet (chunkIx (widL L) ⟨158, by decide⟩) :=
  set_slice_chunk h (widL L) ⟨158, by decide⟩ (off14_eq_158 L)
theorem set_out_off14_159 (h : ∀ a, (k0_off14 L 16536#32) a + S104x128.size a ≤ S532480x128.size a) :
    ((outW).slice (Rect.unit (s := S532480x128) (k0_off14 L 16536#32) S104x128.size h) (fun _ => rfl)).view.set
      = outSet (chunkIx (widL L) ⟨159, by decide⟩) :=
  set_slice_chunk h (widL L) ⟨159, by decide⟩ (off14_eq_159 L)

/-! ## The tile's blocks among themselves -/

/-- Different chunks of a tile are different blocks. -/
theorem chunkIx_ne {w : Fin 32} {g g' : Fin 160} (h : g ≠ g') : chunkIx w g ≠ chunkIx w g' := by
  intro e
  apply h
  have := congrArg Fin.val e
  exact Fin.ext (by simp only [chunkIx] at this; omega)

/-- Different chunks of a tile share no word of the result. -/
theorem outSet_chunk_disjoint {w : Fin 32} {g g' : Fin 160} (h : g ≠ g') :
    Disjoint (outSet (chunkIx w g)) (outSet (chunkIx w g')) := by
  rw [Finset.disjoint_left]
  intro j hj hj'
  rw [mem_outSet_chunkIx] at hj hj'
  have : g.val ≠ g'.val := fun e => h (Fin.ext e)
  omega

end Cert.Proof.KI

end
-- ==== Proof.KIBodyLibGeomIdx.lean ====
/-
  Which entries of the index list each of the tile's index slices covers, and what is read through them.

  The index list has 2129920 entries; tile w owns entries [w * 66560, (w + 1) * 66560), 160 chunks of 416 entries.
  A slice of 416 entries taken at entry p covers exactly the entries in [p, p + 416), and entry j of the slice is
  entry p + j of the list. With the offsets in closed form each printed slice is one chunk of the tile.
-/
import proofs.«204936_g5145370820905_cont_8to1_c_618_18_alg».proof.Proof.KIBodyLibGeomOff

noncomputable section

namespace Cert.Proof.KI

open Cert.KernelIdeal Cert.KernelIdeal.Gen
open Idealize.ShloMosaic Idealize.ShloMosaic.ValueIdx

local notation "idxW" => (Memref.whole Cert.KernelIdeal.main_v2_scv : Memref Cert.KernelIdeal.sig Kind.scVector Space.hbm Cert.KernelIdeal.S2129920 EltTy.i32)

/-! ## Runs of the index list -/

/-- The 416 entries of the index list from entry `p`. -/
def idxRun (p : ℕ) : Finset S2129920.Idx :=
  Finset.univ.filter fun i => p ≤ (i 0).val ∧ (i 0).val < p + 416

theorem mem_idxRun {p : ℕ} {i : S2129920.Idx} : i ∈ idxRun p ↔ p ≤ (i 0).val ∧ (i 0).val < p + 416 := by
  simp [idxRun]

/-- The entries of chunk `g` of tile `w` in the index list. -/
abbrev idxChunk (w : Fin 32) (g : ℕ) : Finset S2129920.Idx := idxRun (w.val * 66560 + 416 * g)

theorem mem_idxChunk {w : Fin 32} {g : ℕ} {i : S2129920.Idx} :
    i ∈ idxChunk w g ↔ w.val * 66560 + 416 * g ≤ (i 0).val ∧ (i 0).val < w.val * 66560 + 416 * g + 416 := mem_idxRun

/-- A slice of 416 entries of the index list taken at entry `p` covers those entries. -/
theorem set_slice_idxRun {off : Fin 1 → ℕ} (h : ∀ a, off a + S416.size a ≤ S2129920.size a) {p : ℕ} (he : off = ![p]) :
    ((idxW).slice (Rect.unit (s := S2129920) off S416.size h) (fun _ => rfl)).view.set = idxRun p := by
  subst he
  refine (View.set_slice_whole main_v2_scv (Rect.unit (s := S2129920) ![p] S416.size h)).trans ?_
  ext i
  rw [Rect.mem_set_unit]
  refine (Fin.forall_fin_one).trans ?_
  rw [mem_idxRun]
  exact Iff.rfl

/-- A slice taken inside the list ends inside it. -/
theorem idx_inb {off : Fin 1 → ℕ} (h : ∀ a, off a + S416.size a ≤ S2129920.size a) {p : ℕ} (he : off = ![p]) (j : Fin 416) :
    p + j.val < 2129920 := by
  subst he
  have := h 0
  have hj := j.isLt
  have e : (![p] : Fin 1 → ℕ) 0 + S416.size 0 = p + 416 := rfl
  have e' : S2129920.size 0 = 2129920 := rfl
  omega

/-- Entry `j` of a slice of the index list taken at entry `p` is entry `p + j` of the list. -/
theorem read_slice_idx {Val : EltTy → Type} (f : S2129920.Idx → Val .i32) {off : Fin 1 → ℕ}
    (h : ∀ a, off a + S416.size a ≤ S2129920.size a) {p : ℕ} (he : off = ![p]) (j : Fin 416) :
    ((idxW).slice (Rect.unit (s := S2129920) off S416.size h) (fun _ => rfl)).view.read Val f (ix1 j)
      = f (ix1 (⟨p + j.val, idx_inb h he j⟩ : Fin 2129920)) := by
  subst he
  rw [View.read_apply]
  refine (cast_eq _ _).trans ?_
  congr 1
  funext a
  match a with
  | ⟨0, _⟩ => exact Fin.ext (by show p + 1 * j.val = p + j.val; omega)

/-- The same for the whole slice at once: what a copy out of the slice carries. -/
theorem read_slice_idx_fun {Val : EltTy → Type} (f : S2129920.Idx → Val .i32) {off : Fin 1 → ℕ}
    (h : ∀ a, off a + S416.size a ≤ S2129920.size a) {p : ℕ} (he : off = ![p]) :
    ((idxW).slice (Rect.unit (s := S2129920) off S416.size h) (fun _ => rfl)).view.read Val f
      = fun j : S416.Idx => f (ix1 (⟨p + (j 0).val, idx_inb h he (j 0)⟩ : Fin 2129920)) := by
  funext j
  rw [eq_ix1 j]
  exact read_slice_idx f h he (j 0)

/-! ## The printed slices -/

variable (L : grid0.Coords) (k : Fin k0_t1_loop.trips)

/-- The two slices loaded before the loop: chunks 0 and 1 of the tile. -/
theorem set_idx_off1_0 (h : ∀ a, (k0_off1 L 0#32) a + S416.size a ≤ S2129920.size a) :
    ((idxW).slice (Rect.unit (s := S2129920) (k0_off1 L 0#32) S416.size h) (fun _ => rfl)).view.set = idxChunk (widL L) 0 :=
  set_slice_idxRun h (off1_eq_0 L)
theorem set_idx_off1_1 (h : ∀ a, (k0_off1 L 416#32) a + S416.size a ≤ S2129920.size a) :
    ((idxW).slice (Rect.unit (s := S2129920) (k0_off1 L 416#32) S416.size h) (fun _ => rfl)).view.set = idxChunk (widL L) 1 :=
  set_slice_idxRun h (off1_eq_1 L)

/-- The slices whose load the even and the odd step wait for: chunks 2 k and 2 k + 1 of the tile. -/
theorem set_idx_off3_0 (h : ∀ a, (k0_off3 L k 0#32) a + S416.size a ≤ S2129920.size a) :
    ((idxW).slice (Rect.unit (s := S2129920) (k0_off3 L k 0#32) S416.size h) (fun _ => rfl)).view.set = idxChunk (widL L) (2 * k.val) :=
  set_slice_idxRun h (off3_eq_0 L k)
theorem set_idx_off3_1 (h : ∀ a, (k0_off3 L k 1#32) a + S416.size a ≤ S2129920.size a) :
    ((idxW).slice (Rect.unit (s := S2129920) (k0_off3 L k 1#32) S416.size h) (fun _ => rfl)).view.set = idxChunk (widL L) (2 * k.val + 1) :=
  set_slice_idxRun h (off3_eq_1 L k)

/-- The slice the even step loads, chunk 2 k + 1, and the one the odd step loads, chunk 2 k + 2. -/
theorem set_idx_off5 (h : ∀ a, (k0_off5 L k) a + S416.size a ≤ S2129920.size a) :
    ((idxW).slice (Rect.unit (s := S2129920) (k0_off5 L k) S416.size h) (fun _ => rfl)).view.set = idxChunk (widL L) (2 * k.val + 1) :=
  set_slice_idxRun h (off5_eq L k)
theorem set_idx_off10 (h : ∀ a, (k0_off10 L k) a + S416.size a ≤ S2129920.size a) :
    ((idxW).slice (Rect.unit (s := S2129920) (k0_off10 L k) S416.size h) (fun _ => rfl)).view.set = idxChunk (widL L) (2 * k.val + 2) :=
  set_slice_idxRun h (off10_eq L k)

/-! ## What the slices read of the index list the call is given -/

variable {F : FTy → Type} [FloatOps F]
variable (m : (ℓ : Loc nD τ sig) → Buf (Elt F) ℓ) (d : Dev nD)

/-- Entry `j` of chunk `g` of tile `w`, as an entry of the index list. -/
abbrev idxAt (w : Fin 32) (g : ℕ) (j : Fin 416) (hb : w.val * 66560 + 416 * g + j.val < 2129920) : BitVec 32 :=
  idxArr m d (ix1 (⟨w.val * 66560 + 416 * g + j.val, hb⟩ : Fin 2129920))

theorem read_idx_off1_0 (h : ∀ a, (k0_off1 L 0#32) a + S416.size a ≤ S2129920.size a) (j : Fin 416) :
    ((idxW).slice (Rect.unit (s := S2129920) (k0_off1 L 0#32) S416.size h) (fun _ => rfl)).view.read (Elt F) (Vpre m d idx') (ix1 j)
      = idxAt m d (widL L) 0 j (idx_inb h (off1_eq_0 L) j) :=
  read_slice_idx (Vpre m d idx') h (off1_eq_0 L) j
theorem read_idx_off1_1 (h : ∀ a, (k0_off1 L 416#32) a + S416.size a ≤ S2129920.size a) (j : Fin 416) :
    ((idxW).slice (Rect.unit (s := S2129920) (k0_off1 L 416#32) S416.size h) (fun _ => rfl)).view.read (Elt F) (Vpre m d idx') (ix1 j)
      = idxAt m d (widL L) 1 j (idx_inb h (off1_eq_1 L) j) :=
  read_slice_idx (Vpre m d idx') h (off1_eq_1 L) j
theorem read_idx_off3_0 (h : ∀ a, (k0_off3 L k 0#32) a + S416.size a ≤ S2129920.size a) (j : Fin 416) :
    ((idxW).slice (Rect.unit (s := S2129920) (k0_off3 L k 0#32) S416.size h) (fun _ => rfl)).view.read (Elt F) (Vpre m d idx') (ix1 j)
      = idxAt m d (widL L) (2 * k.val) j (idx_inb h (off3_eq_0 L k) j) :=
  read_slice_idx (Vpre m d idx') h (off3_eq_0 L k) j
theorem read_idx_off3_1 (h : ∀ a, (k0_off3 L k 1#32) a + S416.size a ≤ S2129920.size a) (j : Fin 416) :
    ((idxW).slice (Rect.unit (s := S2129920) (k0_off3 L k 1#32) S416.size h) (fun _ => rfl)).view.read (Elt F) (Vpre m d idx') (ix1 j)
      = idxAt m d (widL L) (2 * k.val + 1) j (idx_inb h (off3_eq_1 L k) j) :=
  read_slice_idx (Vpre m d idx') h (off3_eq_1 L k) j
theorem read_idx_off5 (h : ∀ a, (k0_off5 L k) a + S416.size a ≤ S2129920.size a) (j : Fin 416) :
    ((idxW).slice (Rect.unit (s := S2129920) (k0_off5 L k) S416.size h) (fun _ => rfl)).view.read (Elt F) (Vpre m d idx') (ix1 j)
      = idxAt m d (widL L) (2 * k.val + 1) j (idx_inb h (off5_eq L k) j) :=
  read_slice_idx (Vpre m d idx') h (off5_eq L k) j
theorem read_idx_off10 (h : ∀ a, (k0_off10 L k) a + S416.size a ≤ S2129920.size a) (j : Fin 416) :
    ((idxW).slice (Rect.unit (s := S2129920) (k0_off10 L k) S416.size h) (fun _ => rfl)).view.read (Elt F) (Vpre m d idx') (ix1 j)
      = idxAt m d (widL L) (2 * k.val + 2) j (idx_inb h (off10_eq L k) j) :=
  read_slice_idx (Vpre m d idx') h (off10_eq L k) j

/-- Entry `j` of chunk `g` of tile `w` is entry `(w * 160 + g) * 416 + j` of the index list; the offset the kernel adds
    to it is entry `j` of the offsets, for a chunk starts at a multiple of 416. -/
theorem idxAt_pos (w : Fin 32) (g : ℕ) (j : Fin 416) : (w.val * 66560 + 416 * g + j.val) % 416 = j.val := by
  have := j.isLt
  omega

end Cert.Proof.KI

end
-- ==== Proof.KIValueFns.lean ====
/-
  The three operands of the call as pure functions of the two inputs, read at an index.

  The index list is the features `[26, 4096, 20]` read as `[26, 81920]`, transposed to `[81920, 26]` and flattened:
  entry `n * 26 + f` is feature `(f, b, s)` with `n = b * 20 + s`. The offsets are the vector `f * 100001` (`f < 26`) read
  as a row, repeated down sixteen rows and flattened: entry `j` is `(j % 26) * 100001`. The grouped table is the tables
  `[26, 100001, 32]` flattened, followed by 64 more words, and cut into groups of 128 words: word `l` of group `g` is
  flat word `g * 128 + l`, which below the padding is table entry `(f, row, e)` with `g * 128 + l = (f * 100001 + row) * 32 + e`.
-/
import proofs.«204936_g5145370820905_cont_8to1_c_618_18_alg».proof.KernelIdeal
import proofs.«204936_g5145370820905_cont_8to1_c_618_18_alg».proof.Proof.Gen.KernelIdeal
import Idealize.ShloMosaic.Lib.Pipeline.Value
import Idealize.ShloMosaic.Lib.ValueLayout
import Idealize.ShloMosaic.Lib.ValueIdx

noncomputable section

namespace Cert.Proof.KI

open Cert.KernelIdeal Cert.KernelIdeal.Gen
open Idealize.ShloMosaic Idealize.ShloMosaic.ValueIdx

/-! ## The index list -/

/-- The features in position-major order, flattened. -/
def idxOf (x : S26x4096x20.Idx → BitVec 32) : S2129920.Idx → BitVec 32 :=
  shapeCast S2129920
    (transpose S81920x26 [1, 0] (shapeCast S26x81920 x shapeCasts_S26x4096x20_S26x81920) transposes_S26x81920_S81920x26_1_0)
    shapeCasts_S81920x26_S2129920

/-- Entry `(b * 20 + s) * 26 + f` of the index list is feature `(f, b, s)`. -/
theorem idxOf_apply (x : S26x4096x20.Idx → BitVec 32) (p : Fin 2129920) (f : Fin 26) (b : Fin 4096) (s : Fin 20)
    (hp : p.val = (b.val * 20 + s.val) * 26 + f.val) : idxOf x (ix1 p) = x (ix3 f b s) := by
  have hn : b.val * 20 + s.val < 81920 := by have := b.isLt; have := s.isLt; omega
  unfold idxOf
  refine (shapeCast_apply _ shapeCasts_S81920x26_S2129920 (ix1 p) (ix2 (⟨b.val * 20 + s.val, hn⟩ : Fin 81920) f) ?_).trans ?_
  · rw [Shape.rowMajor_val_two, Shape.rowMajor_val_one]
    show (b.val * 20 + s.val) * 26 + f.val = p.val
    omega
  refine (transpose_ix2_apply _ transposes_S26x81920_S81920x26_1_0 (⟨b.val * 20 + s.val, hn⟩ : Fin 81920) f).trans ?_
  refine shapeCast_apply x shapeCasts_S26x4096x20_S26x81920 (ix2 f (⟨b.val * 20 + s.val, hn⟩ : Fin 81920)) (ix3 f b s) ?_
  rw [Shape.rowMajor_val_three, Shape.rowMajor_val_two]
  show (f.val * 4096 + b.val) * 20 + s.val = f.val * 81920 + (b.val * 20 + s.val)
  omega

/-! ## The offsets -/

/-- The per-field offsets `f * 100001`, repeated over the sixteen positions of a chunk. -/
def offConst : S416.Idx → BitVec 32 :=
  shapeCast S416
    (broadcastInDim S16x26 ![0, 1] bcast_S1x26_S16x26_0_1
      (shapeCast S1x26 (muli (iotaInDim S26 32 0) (broadcastInDim S26 ![] bcast_S_S26 (constantI S_ 32 100001#32))) shapeCasts_S26_S1x26))
    shapeCasts_S16x26_S416

/-- Entry `j` of the offsets is `(j % 26) * 100001`. -/
theorem offConst_apply (j : Fin 416) : offConst (ix1 j) = BitVec.ofNat 32 ((j.val % 26) * 100001) := by
  have h0 : j.val / 26 < 16 := by have := j.isLt; omega
  have h1 : j.val % 26 < 26 := Nat.mod_lt _ (by decide)
  unfold offConst
  refine (shapeCast_apply _ shapeCasts_S16x26_S416 (ix1 j) (ix2 (⟨j.val / 26, h0⟩ : Fin 16) (⟨j.val % 26, h1⟩ : Fin 26)) ?_).trans ?_
  · rw [Shape.rowMajor_val_two, Shape.rowMajor_val_one]
    show (j.val / 26) * 26 + j.val % 26 = j.val
    omega
  refine (broadcastInDim_apply ![0, 1] bcast_S1x26_S16x26_0_1 _ (ix2 (⟨j.val / 26, h0⟩ : Fin 16) (⟨j.val % 26, h1⟩ : Fin 26))
    (ix2 (0 : Fin 1) (⟨j.val % 26, h1⟩ : Fin 26)) (fun a => match a with | ⟨0, _⟩ => rfl | ⟨1, _⟩ => rfl)).trans ?_
  refine (shapeCast_a_1a_apply _ shapeCasts_S26_S1x26 (0 : Fin 1) (⟨j.val % 26, h1⟩ : Fin 26)).trans ?_
  show BitVec.ofNat 32 (j.val % 26) * 100001#32 = BitVec.ofNat 32 ((j.val % 26) * 100001)
  rw [BitVec.ofNat_mul]

/-! ## The grouped table -/

/-- The tables flattened, padded and cut into groups of 128 words. -/
def tabOf {α : Type} (x : S26x100001x32.Idx → α) (pad : S64.Idx → α) : S650007x128.Idx → α :=
  shapeCast S650007x128
    (concatenate S83200896 0 [⟨S83200832, shapeCast S83200832 x shapeCasts_S26x100001x32_S83200832⟩, ⟨S64, pad⟩]
      concatenates_S83200832_S64_S83200896_d0)
    shapeCasts_S83200896_S650007x128

/-- Word `l` of group `g` is table entry `(f, row, e)` when `g * 128 + l = (f * 100001 + row) * 32 + e`. -/
theorem tabOf_apply {α : Type} (x : S26x100001x32.Idx → α) (pad : S64.Idx → α) (g : Fin 650007) (l : Fin 128)
    (f : Fin 26) (row : Fin 100001) (e : Fin 32) (h : g.val * 128 + l.val = (f.val * 100001 + row.val) * 32 + e.val) :
    tabOf x pad (ix2 g l) = x (ix3 f row e) := by
  have hlt : g.val * 128 + l.val < 83200832 := by have := f.isLt; have := row.isLt; have := e.isLt; omega
  have hlt' : g.val * 128 + l.val < 83200896 := by omega
  unfold tabOf
  refine (shapeCast_apply _ shapeCasts_S83200896_S650007x128 (ix2 g l) (ix1 (⟨g.val * 128 + l.val, hlt'⟩ : Fin 83200896)) ?_).trans ?_
  · rw [Shape.rowMajor_val_two, Shape.rowMajor_val_one]
    rfl
  refine (concatenate_pair_apply_left (0 : Fin 1) _ pad concatenates_S83200832_S64_S83200896_d0
    (ix1 (⟨g.val * 128 + l.val, hlt'⟩ : Fin 83200896)) rfl (ix1 (⟨g.val * 128 + l.val, hlt⟩ : Fin 83200832)) fun c => by
      obtain rfl : c = 0 := Subsingleton.elim _ _
      rfl).trans ?_
  refine shapeCast_apply x shapeCasts_S26x100001x32_S83200832 (ix1 (⟨g.val * 128 + l.val, hlt⟩ : Fin 83200832)) (ix3 f row e) ?_
  rw [Shape.rowMajor_val_three, Shape.rowMajor_val_one]
  show (f.val * 100001 + row.val) * 32 + e.val = g.val * 128 + l.val
  omega

end Cert.Proof.KI

end
-- ==== Proof.KIValueOps.lean ====
/-
  The call's three operands, as the TensorCore's operations before the call leave them, read at an index.

  Each operand is a chain of layout operations applied to an input (or, for the offsets, to constants); the chain is read
  off the operations in order and is the pure function of the inputs whose entries are computed beside this file.
-/
import proofs.«204936_g5145370820905_cont_8to1_c_618_18_alg».proof.Proof.KICommon
import proofs.«204936_g5145370820905_cont_8to1_c_618_18_alg».proof.Proof.KIValueFns

noncomputable section

namespace Cert.Proof.KI

open Cert.KernelIdeal Cert.KernelIdeal.Gen
open Idealize.ShloMosaic Idealize.ShloMosaic.ValueIdx

variable {F : FTy → Type} [FloatOps F]
variable (m : (ℓ : Loc nD τ sig) → Buf (Elt F) ℓ)

/-- The 64 words of padding: zeros. -/
def padZero : S64.Idx → Elt F .f32 := broadcastInDim S64 ![] bcast_S_S64 (constant (F := F) S_ .f32 0x00000000#32)

/-- The index list at the call is the features in position-major order. -/
theorem idxArr_eq (d : Dev nD) : idxArr m d = idxOf (m (a0Loc d)) := by
  show StableHlo.after (preOps (F := F)) (V0 m d) idx' = _
  after_results
  rfl

/-- The offsets at the call are the per-field offsets repeated. -/
theorem offArr_eq (d : Dev nD) : offArr m d = offConst := by
  show StableHlo.after (preOps (F := F)) (V0 m d) off' = _
  after_results
  rfl

/-- The grouped table at the call is the tables flattened, padded with zeros and cut into groups. -/
theorem tabArr_eq (d : Dev nD) : tabArr m d = tabOf (m (a1Loc d)) (padZero (F := F)) := by
  show StableHlo.after (preOps (F := F)) (V0 m d) tab' = _
  after_results
  rfl

/-- Entry `(b * 20 + s) * 26 + f` of the index list is feature `(f, b, s)`. -/
theorem idxArr_apply (d : Dev nD) (p : Fin 2129920) (f : Fin 26) (b : Fin 4096) (s : Fin 20)
    (hp : p.val = (b.val * 20 + s.val) * 26 + f.val) : idxArr m d (ix1 p) = m (a0Loc d) (ix3 f b s) := by
  rw [idxArr_eq]
  exact idxOf_apply _ p f b s hp

/-- Entry `j` of the offsets is `(j % 26) * 100001`. -/
theorem offArr_apply (d : Dev nD) (j : Fin 416) : offArr m d (ix1 j) = BitVec.ofNat 32 ((j.val % 26) * 100001) := by
  rw [offArr_eq]
  exact offConst_apply j

/-- Word `l` of group `g` of the grouped table is table entry `(f, row, e)` when `g * 128 + l = (f * 100001 + row) * 32 + e`. -/
theorem tabArr_apply (d : Dev nD) (g : Fin 650007) (l : Fin 128) (f : Fin 26) (row : Fin 100001) (e : Fin 32)
    (h : g.val * 128 + l.val = (f.val * 100001 + row.val) * 32 + e.val) : tabArr m d (ix2 g l) = m (a1Loc d) (ix3 f row e) := by
  rw [tabArr_eq]
  exact tabOf_apply _ _ g l f row e h

end Cert.Proof.KI

end
-- ==== Proof.Spec.lean ====
/-
  The specification shared by both programs: the lookup's result as ONE function of the two argument arrays.
  Entry (b, s, k) of the result is entry k % 32 of row features[k / 32, b, s] of table k / 32: the 26 looked-up
  rows of a position side by side. A row number is read as a natural and clamped to the table's last row, which
  changes nothing where 0 <= features <= 99999.
-/
import Idealize.ShloMosaic.PureOps.Ideal
import Idealize.ShloMosaic.Lib.ValueIdx

noncomputable section

namespace Cert.Proof.Spec

open Idealize.ShloMosaic Idealize.ShloMosaic.ValueIdx

abbrev SFeat : Shape := ⟨3, ![26, 4096, 20]⟩
abbrev STab : Shape := ⟨3, ![26, 100001, 32]⟩
abbrev SOut : Shape := ⟨3, ![4096, 20, 832]⟩

/-- A word as a row number of a table of 100001 rows. -/
def rowOf (w : BitVec 32) : Fin 100001 := ⟨min w.toNat 100000, by omega⟩
/-- Which table a result column belongs to, and which entry of the looked-up row it is. -/
def fld (k : Fin 832) : Fin 26 := ⟨k.val / 32, by omega⟩
def col (k : Fin 832) : Fin 32 := ⟨k.val % 32, by omega⟩

/-- The lookup: result (b, s, k) = tab (k / 32, feat (k / 32, b, s), k % 32). -/
def G {α : Type} (feat : SFeat.Idx → BitVec 32) (tab : STab.Idx → α) : SOut.Idx → α :=
  fun i => tab (ix3 (fld (i 2)) (rowOf (feat (ix3 (fld (i 2)) (i 0) (i 1)))) (col (i 2)))

theorem G_apply {α : Type} (feat : SFeat.Idx → BitVec 32) (tab : STab.Idx → α) (b : Fin 4096) (s : Fin 20) (k : Fin 832) :
    G feat tab (ix3 b s k) = tab (ix3 (fld k) (rowOf (feat (ix3 (fld k) b s))) (col k)) := rfl

end Cert.Proof.Spec

end
-- ==== Proof.KIValueBridge.lean ====
/-
  The call's result, and the program's, as the lookup of the two inputs.

  Result entry `(b, s, k)` is flat word `(b * 20 + s) * 832 + k` of the call's result array, that is word `c` of row `r`
  with `r * 128 + c` that flat word. The call reads index entry `4 r + c / 32`, which is flat word / 32
  `= (b * 20 + s) * 26 + k / 32`: position `b * 20 + s`, field `k / 32`; the entry of the looked-up row is `c % 32 = k % 32`.
  The flat row number `t` is the feature plus `(k / 32) * 100001`: at most `99999 + 25 * 100001`, so the 32-bit sum does
  not wrap. Group `t / 4`, word `(t % 4) * 32 + e` of the grouped table is flat table word `t * 32 + e`, which lies below
  the padding and is entry `e` of row `feature` of table `k / 32`.
-/
import proofs.«204936_g5145370820905_cont_8to1_c_618_18_alg».proof.Proof.KIValueOps
import proofs.«204936_g5145370820905_cont_8to1_c_618_18_alg».proof.Proof.Spec

noncomputable section

namespace Cert.Proof.KI

open Cert.KernelIdeal Cert.KernelIdeal.Gen
open Idealize.ShloMosaic Idealize.ShloMosaic.ValueIdx

/-! ## Words -/

/-- A feature at most 99999 plus a field's offset does not wrap around in 32 bits. -/
theorem toNat_add_off (v : BitVec 32) (f : Nat) (hv : v.toNat ≤ 99999) (hf : f < 26) :
    (v + BitVec.ofNat 32 (f * 100001)).toNat = v.toNat + f * 100001 := by
  have h2 : (2 : Nat) ^ 32 = 4294967296 := by norm_num
  rw [BitVec.toNat_add, BitVec.toNat_ofNat, h2]
  omega

/-- The group of a flat row number below the table's end is the number divided by four. -/
theorem grp_val (t : BitVec 32) (ht : t.toNat < 2600028) : (grp t).val = t.toNat / 4 := by
  show min (t >>> 2).toNat 650006 = t.toNat / 4
  rw [BitVec.toNat_ushiftRight, Nat.shiftRight_eq_div_pow]
  have h2 : (2 : Nat) ^ 2 = 4 := by norm_num
  rw [h2]
  exact Nat.min_eq_left (by omega)

/-- Entry `e` of a flat row number's quarter of its group. -/
theorem lane_val (t : BitVec 32) (e : Fin 32) : (lane t e).val = (t.toNat % 4) * 32 + e.val := by
  show ((t &&& 3#32).toNat % 4) * 32 + e.val = (t.toNat % 4) * 32 + e.val
  have h3 : (t &&& 3#32).toNat = t.toNat % 4 := by
    rw [BitVec.toNat_and]
    exact Nat.and_two_pow_sub_one_eq_mod t.toNat 2
  rw [h3, Nat.mod_mod]

/-! ## The call's result array read at an index -/

/-- The index entry, the offsets' entry and the row's entry that result word `(r, c)` reads. -/
def pOf (r : Fin 532480) (c : Fin 128) : Fin 2129920 := ⟨r.val * 4 + c.val / 32, by have := r.isLt; have := c.isLt; omega⟩
def qOf (r : Fin 532480) (c : Fin 128) : Fin 416 := ⟨(pOf r c).val % 416, Nat.mod_lt _ (by decide)⟩
def eOf (c : Fin 128) : Fin 32 := ⟨c.val % 32, Nat.mod_lt _ (by decide)⟩

theorem outSpec_ix2 {α : Type} (I : S2129920.Idx → BitVec 32) (Of : S416.Idx → BitVec 32) (Tb : S650007x128.Idx → α)
    (r : Fin 532480) (c : Fin 128) :
    outSpec I Of Tb (ix2 r c)
      = Tb (ix2 (grp (I (ix1 (pOf r c)) + Of (ix1 (qOf r c)))) (lane (I (ix1 (pOf r c)) + Of (ix1 (qOf r c))) (eOf c))) := rfl

/-- Word `(r, c)` of the call's result, when the index entry it reads is the word `v ≤ 99999` and the offset it reads is
    `f * 100001`: word `(t % 4) * 32 + c % 32` of group `t / 4`, `t = v + f * 100001`. -/
theorem outSpec_read {α : Type} (I : S2129920.Idx → BitVec 32) (Of : S416.Idx → BitVec 32) (Tb : S650007x128.Idx → α)
    (r : Fin 532480) (c : Fin 128) (v : BitVec 32) (f : Fin 26) (g : Fin 650007) (l : Fin 128)
    (hI : I (ix1 (pOf r c)) = v) (hO : Of (ix1 (qOf r c)) = BitVec.ofNat 32 (f.val * 100001)) (hv : v.toNat ≤ 99999)
    (hg : g.val = (v.toNat + f.val * 100001) / 4) (hl : l.val = ((v.toNat + f.val * 100001) % 4) * 32 + c.val % 32) :
    outSpec I Of Tb (ix2 r c) = Tb (ix2 g l) := by
  rw [outSpec_ix2, hI, hO]
  have ht : (v + BitVec.ofNat 32 (f.val * 100001)).toNat = v.toNat + f.val * 100001 := toNat_add_off v f.val hv f.isLt
  have hlt : (v + BitVec.ofNat 32 (f.val * 100001)).toNat < 2600028 := by rw [ht]; have := f.isLt; omega
  have e1 : grp (v + BitVec.ofNat 32 (f.val * 100001)) = g := Fin.ext (by rw [grp_val _ hlt, ht, hg])
  have e2 : lane (v + BitVec.ofNat 32 (f.val * 100001)) (eOf c) = l := Fin.ext (by rw [lane_val, ht, hl]; rfl)
  rw [e1, e2]

variable {F : FTy → Type} [FloatOps F]
variable (m : (ℓ : Loc nD τ sig) → Buf (Elt F) ℓ)

/-! ## The precondition the tiles' proof asks for -/

/-- Features at most 99999 make every flat row number the tiles form a row of the padded table. -/
theorem preOK_of_range (hr : ∀ d i, (m (a0Loc d) i).toNat ≤ 99999) : PreOK m := by
  intro d p
  have hp := p.isLt
  have hf : p.val % 26 < 26 := Nat.mod_lt _ (by decide)
  have hb : p.val / 26 / 20 < 4096 := by omega
  have hs : p.val / 26 % 20 < 20 := Nat.mod_lt _ (by decide)
  rw [idxArr_apply m d p ⟨p.val % 26, hf⟩ ⟨p.val / 26 / 20, hb⟩ ⟨p.val / 26 % 20, hs⟩
      (by show p.val = (p.val / 26 / 20 * 20 + p.val / 26 % 20) * 26 + p.val % 26; omega),
    offArr_apply]
  have e : p.val % 416 % 26 = p.val % 26 := by omega
  show (_ + BitVec.ofNat 32 (p.val % 416 % 26 * 100001)).toNat < 2600028
  rw [e, toNat_add_off _ _ (hr d _) hf]
  have := hr d (ix3 (⟨p.val % 26, hf⟩ : Fin 26) (⟨p.val / 26 / 20, hb⟩ : Fin 4096) (⟨p.val / 26 % 20, hs⟩ : Fin 20))
  omega

/-! ## The bridge -/

/-- Word `c` of row `r` of the call's result, `r * 128 + c = (b * 20 + s) * 832 + k`, is the looked-up table entry. -/
theorem outArr_apply (hr : ∀ d i, (m (a0Loc d) i).toNat ≤ 99999) (d : Dev nD) (b : Fin 4096) (s : Fin 20) (k : Fin 832)
    (r : Fin 532480) (c : Fin 128) (hrc : r.val * 128 + c.val = (b.val * 20 + s.val) * 832 + k.val) :
    outArr m d (ix2 r c) = m (a1Loc d) (ix3 (Spec.fld k) (Spec.rowOf (m (a0Loc d) (ix3 (Spec.fld k) b s))) (Spec.col k)) := by
  have hb := b.isLt
  have hs := s.isLt
  have hk := k.isLt
  have hc := c.isLt
  have hv := hr d (ix3 (Spec.fld k) b s)
  -- the flat row number and where it lies in the grouped table
  have hg : (m (a0Loc d) (ix3 (Spec.fld k) b s)).toNat + (k.val / 32) * 100001 < 2600028 := by omega
  have hgl : ((m (a0Loc d) (ix3 (Spec.fld k) b s)).toNat + (k.val / 32) * 100001) / 4 < 650007 := by omega
  have hll : (((m (a0Loc d) (ix3 (Spec.fld k) b s)).toNat + (k.val / 32) * 100001) % 4) * 32 + c.val % 32 < 128 := by omega
  unfold outArr
  refine (outSpec_read (idxArr m d) (offArr m d) (tabArr m d) r c (m (a0Loc d) (ix3 (Spec.fld k) b s)) (Spec.fld k)
    ⟨_, hgl⟩ ⟨_, hll⟩ ?_ ?_ hv rfl rfl).trans ?_
  · exact idxArr_apply m d (pOf r c) (Spec.fld k) b s
      (by show r.val * 4 + c.val / 32 = (b.val * 20 + s.val) * 26 + k.val / 32; omega)
  · rw [offArr_apply]
    have e : (qOf r c).val % 26 = (Spec.fld k).val := by
      show (r.val * 4 + c.val / 32) % 416 % 26 = k.val / 32
      omega
    rw [e]
  · refine tabArr_apply m d _ _ (Spec.fld k) (Spec.rowOf (m (a0Loc d) (ix3 (Spec.fld k) b s))) (Spec.col k) ?_
    show ((m (a0Loc d) (ix3 (Spec.fld k) b s)).toNat + (k.val / 32) * 100001) / 4 * 128
        + ((((m (a0Loc d) (ix3 (Spec.fld k) b s)).toNat + (k.val / 32) * 100001) % 4) * 32 + c.val % 32)
      = ((k.val / 32) * 100001 + min (m (a0Loc d) (ix3 (Spec.fld k) b s)).toNat 100000) * 32 + k.val % 32
    rw [Nat.min_eq_left (by omega)]
    omega

/-- Entry `(b, s, k)` of the program's result is the looked-up table entry. -/
theorem resArr_apply (hr : ∀ d i, (m (a0Loc d) i).toNat ≤ 99999) (d : Dev nD) (b : Fin 4096) (s : Fin 20) (k : Fin 832) :
    resArr m d (ix3 b s k) = Spec.G (m (a0Loc d)) (m (a1Loc d)) (ix3 b s k) := by
  have hb := b.isLt
  have hs := s.isLt
  have hk := k.isLt
  have h0 : ((b.val * 20 + s.val) * 832 + k.val) / 128 < 532480 := by omega
  have h1 : ((b.val * 20 + s.val) * 832 + k.val) % 128 < 128 := Nat.mod_lt _ (by decide)
  rw [Spec.G_apply]
  unfold resArr
  refine (shapeCast_apply (outArr m d) shapeCasts_S532480x128_S4096x20x832 (ix3 b s k)
    (ix2 (⟨((b.val * 20 + s.val) * 832 + k.val) / 128, h0⟩ : Fin 532480) (⟨((b.val * 20 + s.val) * 832 + k.val) % 128, h1⟩ : Fin 128)) ?_).trans ?_
  · rw [Shape.rowMajor_val_two, Shape.rowMajor_val_three]
    show ((b.val * 20 + s.val) * 832 + k.val) / 128 * 128 + ((b.val * 20 + s.val) * 832 + k.val) % 128 = (b.val * 20 + s.val) * 832 + k.val
    omega
  exact outArr_apply m hr d b s k _ _ (by
    show ((b.val * 20 + s.val) * 832 + k.val) / 128 * 128 + ((b.val * 20 + s.val) * 832 + k.val) % 128 = (b.val * 20 + s.val) * 832 + k.val
    omega)

/-- THE BRIDGE: under the range of the features, the program's result is the lookup of the two inputs. -/
theorem resArr_eq_G (hr : ∀ d i, (m (a0Loc d) i).toNat ≤ 99999) (d : Dev nD) :
    resArr m d = Spec.G (m (a0Loc d)) (m (a1Loc d)) := by
  funext i
  obtain ⟨b, s, k, rfl⟩ : ∃ (b : Fin 4096) (s : Fin 20) (k : Fin 832), i = ix3 b s k := ⟨_, _, _, eq_ix3 i⟩
  exact resArr_apply m hr d b s k

end Cert.Proof.KI

end
-- ==== Proof.KIBodyLibValue.lean ====
/-
  One chunk of a tile, as values: what the three steps of a chunk leave in the tile's buffer is the chunk's rows of the
  call's result.

  Tile w works through its 66560 index entries in 160 chunks of 416. Entry j of chunk g is entry
  p = w * 66560 + 416 * g + j of the index list; 66560 and 416 * g are multiples of 416, so p % 416 = j and the offset the
  result's specification adds to entry p is entry j of the offsets: the flat table-row number is t = I0 j + Of j. The
  offset step leaves the group t >> 2 and the quarter t & 3; under the precondition t < 2600028, so the group is t / 4,
  below 650007, the clamp in the specification's group does nothing, and the gather reads group t / 4 whole into row j.
  The repack moves the quarter's 32 words of row j to words (j % 4) * 32 .. of row j / 4. Result row
  w * 16640 + 104 * g + r, word c reads index entry 4 * (w * 16640 + 104 * g + r) + c / 32
  = w * 66560 + 416 * g + (4 r + c / 32): entry j = 4 r + c / 32 of the chunk, with j / 4 = r and
  (j % 4) * 32 + c % 32 = c. So rows 0 .. 103 of the repacked buffer are the chunk's 104 rows of the result.
-/
import proofs.«204936_g5145370820905_cont_8to1_c_618_18_alg».proof.Proof.KIValueBridge
import proofs.«204936_g5145370820905_cont_8to1_c_618_18_alg».proof.Proof.KISteps
import Idealize.ShloMosaic.Lib.SparseCore.Stream

noncomputable section

namespace Cert.Proof.KI

open Cert.KernelIdeal Cert.KernelIdeal.Gen
open Idealize.ShloMosaic Idealize.ShloMosaic.ValueIdx

/-! ## Where a chunk lies -/

/-- Entry `j` of chunk `g` of tile `w`, as an entry of the index list. -/
def chunkPos (w : Fin 32) (g : Fin 160) (j : Fin 416) : Fin 2129920 :=
  ⟨w.val * 66560 + 416 * g.val + j.val, by have := w.isLt; have := g.isLt; have := j.isLt; omega⟩

/-- Row `r` of chunk `g` of tile `w`, as a row of the call's result. -/
def chunkRow (w : Fin 32) (g : Fin 160) (r : Fin 104) : Fin 532480 :=
  ⟨w.val * 16640 + 104 * g.val + r.val, by have := w.isLt; have := g.isLt; have := r.isLt; omega⟩

/-- The chunk's entry that word `c` of the chunk's row `r` reads: four entries a row, 32 words an entry. -/
def chunkEnt (r : Fin 104) (c : Fin 128) : Fin 416 :=
  ⟨4 * r.val + c.val / 32, by have := r.isLt; have := c.isLt; omega⟩

theorem chunkPos_val (w : Fin 32) (g : Fin 160) (j : Fin 416) : (chunkPos w g j).val = w.val * 66560 + 416 * g.val + j.val := rfl
theorem chunkRow_val (w : Fin 32) (g : Fin 160) (r : Fin 104) : (chunkRow w g r).val = w.val * 16640 + 104 * g.val + r.val := rfl
theorem chunkEnt_val (r : Fin 104) (c : Fin 128) : (chunkEnt r c).val = 4 * r.val + c.val / 32 := rfl

/-- A chunk starts at a multiple of 416: the entry's place in the offsets is its place in the chunk. -/
theorem chunkPos_mod (w : Fin 32) (g : Fin 160) (j : Fin 416) : (chunkPos w g j).val % 416 = j.val := by
  have := j.isLt
  rw [chunkPos_val]
  omega

/-- The index entry word `c` of result row `chunkRow w g r` reads is entry `chunkEnt r c` of the chunk. -/
theorem pOf_chunkRow (w : Fin 32) (g : Fin 160) (r : Fin 104) (c : Fin 128) :
    pOf (chunkRow w g r) c = chunkPos w g (chunkEnt r c) := by
  refine Fin.ext ?_
  show (w.val * 16640 + 104 * g.val + r.val) * 4 + c.val / 32 = w.val * 66560 + 416 * g.val + (4 * r.val + c.val / 32)
  omega

/-- The offsets' entry that word reads is entry `chunkEnt r c`. -/
theorem qOf_chunkRow (w : Fin 32) (g : Fin 160) (r : Fin 104) (c : Fin 128) :
    qOf (chunkRow w g r) c = chunkEnt r c := by
  refine Fin.ext ?_
  show (pOf (chunkRow w g r) c).val % 416 = (chunkEnt r c).val
  rw [pOf_chunkRow, chunkPos_mod]

/-- Entry `4 r + c / 32` lies in row `r` of the repacked buffer; -/
theorem chunkEnt_div (r : Fin 104) (c : Fin 128) : (chunkEnt r c).val / 4 = r.val := by
  have := c.isLt
  rw [chunkEnt_val]
  omega

/-- and word `c % 32` of its quarter is word `c` of that row. -/
theorem chunkEnt_mod (r : Fin 104) (c : Fin 128) : ((chunkEnt r c).val % 4) * 32 + c.val % 32 = c.val := by
  have := c.isLt
  rw [chunkEnt_val]
  omega

/-! ## The chunk in the loop's coordinates -/

/-- The chunk pass `r` (0 or 1) of trip `k` of the tile's loop works on: two chunks a trip. -/
def chunkOf (k : Fin 80) (r : Fin 2) : Fin 160 := ⟨2 * k.val + r.val, by have := k.isLt; have := r.isLt; omega⟩

theorem chunkOf_val (k : Fin 80) (r : Fin 2) : (chunkOf k r).val = 2 * k.val + r.val := rfl

/-- The chunk's entries in the index list, for the tile of subcore `s` of core `c`: they start at
    133120 s + 66560 c + 832 k + 416 r. -/
theorem chunkPos_wid (c : Fin 2) (s : Fin 16) (k : Fin 80) (r : Fin 2) (j : Fin 416) :
    (chunkPos (wid c s) (chunkOf k r) j).val = 133120 * s.val + 66560 * c.val + 832 * k.val + 416 * r.val + j.val := by
  show (2 * s.val + c.val) * 66560 + 416 * (2 * k.val + r.val) + j.val = _
  omega

/-- The chunk's rows of the result, for the same tile: they start at 33280 s + 16640 c + 208 k + 104 r. -/
theorem chunkRow_wid (c : Fin 2) (s : Fin 16) (k : Fin 80) (r : Fin 2) (q : Fin 104) :
    (chunkRow (wid c s) (chunkOf k r) q).val = 33280 * s.val + 16640 * c.val + 208 * k.val + 104 * r.val + q.val := by
  show (2 * s.val + c.val) * 16640 + 104 * (2 * k.val + r.val) + q.val = _
  omega

/-! ## Words -/

theorem toNat_shr2 (t : BitVec 32) : (t >>> 2).toNat = t.toNat / 4 := by
  rw [BitVec.toNat_ushiftRight, Nat.shiftRight_eq_div_pow]

theorem toNat_and3 (t : BitVec 32) : (t &&& 3#32).toNat = t.toNat % 4 := by
  rw [BitVec.toNat_and]
  exact Nat.and_two_pow_sub_one_eq_mod t.toNat 2

/-! ## The gathered groups read at an index -/

variable {F : FTy → Type} [FloatOps F]

/-- The row an offset list of 416 words names for its entry `j`: the word itself. -/
theorem rows_ix1 {z : ℕ} (I : S416.Idx → BitVec 32) (hn : S416.numel = 416) (h : ∀ x, (I x).toNat < z) (j : Fin 416) :
    SparseCore.rows (F := F) I hn h j = ⟨(I (ix1 j)).toNat, h (ix1 j)⟩ := by
  have e : S416.rowMajor.symm (j.cast hn.symm) = ix1 j := by
    rw [Equiv.symm_apply_eq]
    refine Fin.ext ?_
    rw [Shape.rowMajor_val_one]
    rfl
  unfold SparseCore.rows
  refine Fin.ext ?_
  show (I (S416.rowMajor.symm (j.cast hn.symm))).toNat = (I (ix1 j)).toNat
  rw [e]

/-- A gather of whole groups of the grouped table at a list of 416 group numbers, read at row `j`, word `c`: word `c`
    of the group entry `j` of the list names. -/
theorem gatherPayload_ix2 (T : S650007x128.Idx → Elt F .f32) (I : S416.Idx → BitVec 32)
    (hn : S416.numel = S416x128.size (Shape.Gathers.axis' gathers_S650007x128_S416x128))
    (hin : ∀ x, (I x).toNat < S650007x128.size (Shape.Gathers.axis gathers_S650007x128_S416x128))
    (j : Fin 416) (c : Fin 128) :
    SparseCore.gatherPayload (F := F) gathers_S650007x128_S416x128 T (SparseCore.rows (F := F) I hn hin) (ix2 j c)
      = T (ix2 (⟨(I (ix1 j)).toNat, hin (ix1 j)⟩ : Fin 650007) c) := by
  unfold SparseCore.gatherPayload
  congr 1
  funext b
  match b with
  | ⟨0, _⟩ =>
    refine Fin.ext ?_
    show ((gathers_S650007x128_S416x128).idx (SparseCore.rows (F := F) I hn hin) (ix2 j c) (Shape.Gathers.axis gathers_S650007x128_S416x128)).val = _
    rw [Shape.Gathers.idx_axis]
    exact congrArg Fin.val (rows_ix1 (F := F) I hn hin j)
  | ⟨1, _⟩ =>
    refine Fin.ext ?_
    rw [Shape.Gathers.idx_of_ne _ _ _ _ Nat.one_ne_zero]
    rfl

/-! ## The chunk -/

variable (m : (ℓ : Loc nD τ sig) → Buf (Elt F) ℓ)

/-- The flat table-row number of entry `j` of the chunk is the one the result's specification forms at the entry's
    place in the index list, so the precondition bounds it. -/
theorem chunk_row_lt (hpre : PreOK m) (d : Dev nD) (w : Fin 32) (g : Fin 160) (I0 Of : S416.Idx → BitVec 32)
    (hI0 : ∀ j : Fin 416, I0 (ix1 j) = idxArr m d (ix1 (chunkPos w g j))) (hOf : Of = offArr m d) (j : Fin 416) :
    (I0 (ix1 j) + Of (ix1 j)).toNat < 2600028 := by
  subst hOf
  have e : (⟨(chunkPos w g j).val % 416, Nat.mod_lt _ (by decide)⟩ : Fin 416) = j := Fin.ext (chunkPos_mod w g j)
  have h := hpre d (chunkPos w g j)
  rw [e] at h
  rw [hI0 j]
  exact h

/-- After the offset step every entry of the index buffer is a group of the grouped table: the gather's list is in
    range. -/
theorem chunk_hin (hpre : PreOK m) (d : Dev nD) (w : Fin 32) (g : Fin 160) (I0 Of I1 S1 : S416.Idx → BitVec 32)
    (hI0 : ∀ j : Fin 416, I0 (ix1 j) = idxArr m d (ix1 (chunkPos w g j))) (hOf : Of = offArr m d)
    (hoff : Steps.OffsetDone I0 Of I1 S1) (j : Fin 416) : (I1 (ix1 j)).toNat < 650007 := by
  have h := chunk_row_lt m hpre d w g I0 Of hI0 hOf j
  rw [(hoff j).1, toNat_shr2]
  omega

/-- The same at every index of the list, in the words the gather's rule asks it in. -/
theorem chunk_hin_idx (hpre : PreOK m) (d : Dev nD) (w : Fin 32) (g : Fin 160) (I0 Of I1 S1 : S416.Idx → BitVec 32)
    (hI0 : ∀ j : Fin 416, I0 (ix1 j) = idxArr m d (ix1 (chunkPos w g j))) (hOf : Of = offArr m d)
    (hoff : Steps.OffsetDone I0 Of I1 S1) (x : S416.Idx) :
    (I1 x).toNat < S650007x128.size (Shape.Gathers.axis gathers_S650007x128_S416x128) := by
  have h := chunk_hin m hpre d w g I0 Of I1 S1 hI0 hOf hoff (x 0)
  show (I1 x).toNat < 650007
  exact lt_of_eq_of_lt (congrArg (fun y => (I1 y).toNat) (eq_ix1 x)) h

/-- After the offset step every entry of the second buffer is a quarter, 0 to 3. -/
theorem chunk_hSb (I0 Of I1 S1 : S416.Idx → BitVec 32) (hoff : Steps.OffsetDone I0 Of I1 S1) (j : Fin 416) :
    (S1 (ix1 j)).toNat < 4 := by
  rw [(hoff j).2, toNat_and3]
  exact Nat.mod_lt _ (by decide)

/-- THE CHUNK'S VALUE: with the index buffer holding the chunk's entries, the offset step done, the groups its result
    names gathered into the rows of a buffer and that buffer repacked, rows 0 .. 103 of the repacked buffer are the
    chunk's rows of the call's result. -/
theorem chunk_value (hpre : PreOK m) (d : Dev nD) (w : Fin 32) (g : Fin 160) (I0 Of I1 S1 : S416.Idx → BitVec 32)
    (G0 G1 : S416x128.Idx → Elt F .f32)
    (hI0 : ∀ j : Fin 416, I0 (ix1 j) = idxArr m d (ix1 (chunkPos w g j))) (hOf : Of = offArr m d)
    (hoff : Steps.OffsetDone I0 Of I1 S1)
    (hG0 : ∀ (j : Fin 416) (c : Fin 128) (h : (I1 (ix1 j)).toNat < 650007),
      G0 (ix2 j c) = tabArr m d (ix2 (⟨(I1 (ix1 j)).toNat, h⟩ : Fin 650007) c))
    (hrep : Steps.RepackDone G0 G1 S1) (r : Fin 104) (c : Fin 128) :
    G1 (ix2 (⟨r.val, Nat.lt_trans r.isLt (by decide)⟩ : Fin 416) c) = outArr m d (ix2 (chunkRow w g r) c) := by
  have ht := chunk_row_lt m hpre d w g I0 Of hI0 hOf (chunkEnt r c)
  have hin := chunk_hin m hpre d w g I0 Of I1 S1 hI0 hOf hoff (chunkEnt r c)
  have hI1 := (hoff (chunkEnt r c)).1
  have hS1 := (hoff (chunkEnt r c)).2
  -- the repack at the entry the word reads
  have h1 : G1 (ix2 (⟨r.val, Nat.lt_trans r.isLt (by decide)⟩ : Fin 416) c)
      = G0 (ix2 (chunkEnt r c) (⟨((S1 (ix1 (chunkEnt r c))).toNat % 4) * 32 + (eOf c).val, by have := (eOf c).isLt; omega⟩ : Fin 128)) := by
    have h := hrep (chunkEnt r c) (eOf c)
    have e1 : (⟨(chunkEnt r c).val / 4, by have := (chunkEnt r c).isLt; omega⟩ : Fin 416) = ⟨r.val, Nat.lt_trans r.isLt (by decide)⟩ :=
      Fin.ext (chunkEnt_div r c)
    have e2 : (⟨((chunkEnt r c).val % 4) * 32 + (eOf c).val, by have := (eOf c).isLt; omega⟩ : Fin 128) = c :=
      Fin.ext (chunkEnt_mod r c)
    rw [e1, e2] at h
    exact h
  -- the gathered group is the specification's group, the repacked quarter its quarter
  have eg : (⟨(I1 (ix1 (chunkEnt r c))).toNat, hin⟩ : Fin 650007) = grp (I0 (ix1 (chunkEnt r c)) + Of (ix1 (chunkEnt r c))) :=
    Fin.ext (by show (I1 (ix1 (chunkEnt r c))).toNat = _; rw [grp_val _ ht, hI1, toNat_shr2])
  have el : (⟨((S1 (ix1 (chunkEnt r c))).toNat % 4) * 32 + (eOf c).val, by have := (eOf c).isLt; omega⟩ : Fin 128)
      = lane (I0 (ix1 (chunkEnt r c)) + Of (ix1 (chunkEnt r c))) (eOf c) :=
    Fin.ext (by show ((S1 (ix1 (chunkEnt r c))).toNat % 4) * 32 + (eOf c).val = _; rw [lane_val, hS1, toNat_and3, Nat.mod_mod])
  rw [h1, hG0 _ _ hin, eg, el]
  subst hOf
  unfold outArr
  rw [outSpec_ix2, pOf_chunkRow, qOf_chunkRow, ← hI0 (chunkEnt r c)]

/-- THE CHUNK'S VALUE, the gathered buffer in the words of the gather's rule: the buffer the repack starts from is the
    payload of the gather of the grouped table at the index buffer's words. -/
theorem chunk_value_gather (hpre : PreOK m) (d : Dev nD) (w : Fin 32) (g : Fin 160) (I0 Of I1 S1 : S416.Idx → BitVec 32)
    (G1 : S416x128.Idx → Elt F .f32)
    (hI0 : ∀ j : Fin 416, I0 (ix1 j) = idxArr m d (ix1 (chunkPos w g j))) (hOf : Of = offArr m d)
    (hoff : Steps.OffsetDone I0 Of I1 S1)
    (hn : S416.numel = S416x128.size (Shape.Gathers.axis' gathers_S650007x128_S416x128))
    (hin : ∀ x, (I1 x).toNat < S650007x128.size (Shape.Gathers.axis gathers_S650007x128_S416x128))
    (hrep : Steps.RepackDone
      (SparseCore.gatherPayload (F := F) gathers_S650007x128_S416x128 (tabArr m d) (SparseCore.rows (F := F) I1 hn hin)) G1 S1)
    (r : Fin 104) (c : Fin 128) :
    G1 (ix2 (⟨r.val, Nat.lt_trans r.isLt (by decide)⟩ : Fin 416) c) = outArr m d (ix2 (chunkRow w g r) c) :=
  chunk_value m hpre d w g I0 Of I1 S1 _ G1 hI0 hOf hoff (fun j c _ => gatherPayload_ix2 (tabArr m d) I1 hn hin j c) hrep r c

end Cert.Proof.KI

end
-- ==== Proof.KIBodyInvLib.lean ====
/-
  Small facts about the invariant's vocabulary: the result blocks as one family with a threshold, a chunk's entries read
  at a position, slices respelt through their closed offsets.
-/
import proofs.«204936_g5145370820905_cont_8to1_c_618_18_alg».proof.Proof.KIBodyInv
import proofs.«204936_g5145370820905_cont_8to1_c_618_18_alg».proof.Proof.KIBodyLibGeomOut
import proofs.«204936_g5145370820905_cont_8to1_c_618_18_alg».proof.Proof.KIBodyLibGeomIdx
import proofs.«204936_g5145370820905_cont_8to1_c_618_18_alg».proof.Proof.KIBodyLibValue

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
-- the kernel's memrefs, spelt as the body table passes them
local notation "idxW" => (Memref.whole Cert.KernelIdeal.main_v2_scv : Memref Cert.KernelIdeal.sig Kind.scVector Space.hbm Cert.KernelIdeal.S2129920 EltTy.i32)
local notation "offW" => (Memref.whole Cert.KernelIdeal.main_v8_scv : Memref Cert.KernelIdeal.sig Kind.scVector Space.hbm Cert.KernelIdeal.S416 EltTy.i32)
local notation "tabW" => (Memref.whole Cert.KernelIdeal.main_v12_scv : Memref Cert.KernelIdeal.sig Kind.scVector Space.hbm Cert.KernelIdeal.S650007x128 EltTy.f32)
local notation "outW" => (Memref.whole Cert.KernelIdeal.main_v13_scv : Memref Cert.KernelIdeal.sig Kind.scVector Space.hbm Cert.KernelIdeal.S532480x128 EltTy.f32)
local notation "s0W" => (Memref.whole Cert.KernelIdeal.cc0_scratch0 : Memref Cert.KernelIdeal.sig Kind.scVector Space.vmem Cert.KernelIdeal.S416 EltTy.i32)
local notation "s1W" => (Memref.whole Cert.KernelIdeal.cc0_scratch1 : Memref Cert.KernelIdeal.sig Kind.scVector Space.vmem Cert.KernelIdeal.S416 EltTy.i32)
local notation "s2W" => (Memref.whole Cert.KernelIdeal.cc0_scratch2 : Memref Cert.KernelIdeal.sig Kind.scVector Space.vmem Cert.KernelIdeal.S416 EltTy.i32)
local notation "s3W" => (Memref.whole Cert.KernelIdeal.cc0_scratch3 : Memref Cert.KernelIdeal.sig Kind.scVector Space.vmem Cert.KernelIdeal.S416 EltTy.i32)
local notation "s4W" => (Memref.whole Cert.KernelIdeal.cc0_scratch4 : Memref Cert.KernelIdeal.sig Kind.scVector Space.vmem Cert.KernelIdeal.S416 EltTy.i32)
local notation "s5W" => (Memref.whole Cert.KernelIdeal.cc0_scratch5 : Memref Cert.KernelIdeal.sig Kind.scVector Space.vmem Cert.KernelIdeal.S416x128 EltTy.f32)
local notation "s6W" => (Memref.whole Cert.KernelIdeal.cc0_scratch6 : Memref Cert.KernelIdeal.sig Kind.scVector Space.vmem Cert.KernelIdeal.S416x128 EltTy.f32)

variable (m : (ℓ : Loc nD τ sig) → Buf (Elt F) ℓ)
variable (d : Dev nD) (L : grid0.Coords)
variable [FloatOps F]

/-! ## The result blocks -/

/-- All 160 blocks: those below n written, the others untouched. -/
def AllBlocks (n : ℕ) : sProp 𝕄 :=
  bigSep Finset.univ fun g : Fin 160 =>
    outLoc d ↦[outSet (chunkIx (widL L) g)]{fullShare} (if g.val < n then outArr m d else out0Arr m d)

theorem allBlocks_split (b : Fin 160) (n : ℕ) :
    (AllBlocks m d L n : sProp 𝕄)
      = iprop((outLoc d ↦[outSet (chunkIx (widL L) b)]{fullShare} (if b.val < n then outArr m d else out0Arr m d)) ∗ OutBlocks m d L b n) := by
  unfold AllBlocks OutBlocks
  exact SparseCore.bigSep_erase' (Finset.mem_univ b)

theorem outBlocks_succ (b : Fin 160) (n : ℕ) (h : b.val = n) : (OutBlocks m d L b n : sProp 𝕄) = OutBlocks m d L b (n + 1) := by
  unfold OutBlocks
  refine bigSep_congr fun g hg => ?_
  have hne : g.val ≠ b.val := fun e => (Finset.mem_erase.mp hg).1 (Fin.ext e)
  have : (g.val < n) ↔ (g.val < n + 1) := by omega
  simp only [this]

theorem allBlocks_zero : (AllBlocks m d L 0 : sProp 𝕄) = bigSep Finset.univ fun g : Fin 160 => outLoc d ↦[outSet (chunkIx (widL L) g)]{fullShare} out0Arr m d := by
  unfold AllBlocks
  exact bigSep_congr fun g _ => by simp
theorem allBlocks_all : (AllBlocks m d L 160 : sProp 𝕄) = bigSep Finset.univ fun g : Fin 160 => outLoc d ↦[outSet (chunkIx (widL L) g)]{fullShare} outArr m d := by
  unfold AllBlocks
  exact bigSep_congr fun g _ => by simp [g.isLt]

/-! ## A chunk's entries -/

theorem chunkEnts_eq (g : Fin 160) (j : Fin 416) : chunkEnts m d L g (ix1 j) = idxArr m d (ix1 (chunkPos (widL L) g j)) := by
  unfold chunkEnts
  exact read_slice_idx (Vpre m d idx') (idxOff_inb L g) rfl j

/-- A slice of the index list at an offset with chunk g's closed form is chunk g's slice. -/
theorem idxSl_of {off : Fin 1 → ℕ} (h : ∀ a, off a + S416.size a ≤ S2129920.size a) (g : Fin 160) (he : off = idxOff L g) :
    (idxW).slice (Rect.unit (s := S2129920) off S416.size h) (fun _ => rfl) = idxSl L g := by
  subst he; rfl

end Cert.Proof.KI

end
-- ==== Proof.KIRepackPure.lean ====
/-
  The repack step as a function of the buffer: what 16 lanes stored at distinct words leave, and the buffer's contents
  before each of the 26 x 32 steps.

  Trip t (first row n = 16 t) of the repack reads, at step e, word (quarter of j) * 32 + e of each row j in n .. n + 15
  and writes it at flat word j * 32 + e, that is word (j % 4) * 32 + e of row j / 4. A word (r, c) of rows 0 .. 103 is the
  destination of exactly one pair: row j = 4 r + c / 32, entry c % 32. Before step e of trip t the words already moved
  are those whose source row is below n, or below n + 16 with an entry below e; every other word is as gathered. The
  words a step reads are still as gathered: the destinations written so far have source rows below n + 16, and a word of
  row j >= n is the destination of source row 4 j + (c / 32) >= 4 n, which is not below n unless n = 0, where only
  entries below e have moved.
-/
import proofs.«204936_g5145370820905_cont_8to1_c_618_18_alg».proof.KernelIdeal
import proofs.«204936_g5145370820905_cont_8to1_c_618_18_alg».proof.Proof.KISteps
import Idealize.ShloMosaic.Lib.ValueIdx

noncomputable section

namespace Cert.Proof.KI

open Cert.KernelIdeal
open Idealize.ShloMosaic Idealize.ShloMosaic.ValueIdx

/-! ## An indexed store, read at an index -/

section StoreIdx
variable {F : FTy → Type} [FloatOps F] {s : Shape} {e : EltTy} {d : Fin 1 → Nat}

/-- One lane of an unmasked indexed store: the word its indices name is overwritten. -/
def putLane (idxs : Fin s.rank → IVec ⟨1, d⟩ 32) (v : Vec F ⟨1, d⟩ e) (h : ∀ a x, (idxs a x).toNat < s.size a)
    (g : Vec F s e) (k : Fin (d 0)) : Vec F s e :=
  fun j => if (∀ a, (j a).val = (idxAt idxs h (Shape.ofLane k) a).val) then v (Shape.ofLane k) else g j

theorem storeIdx_eq_foldl (f : Vec F s e) (idxs : Fin s.rank → IVec ⟨1, d⟩ 32) (v : Vec F ⟨1, d⟩ e)
    (h : ∀ a x, (idxs a x).toNat < s.size a) :
    storeIdx f idxs v (fun _ => 1#1) false h = (List.finRange (d 0)).foldl (putLane idxs v h) f := by
  unfold storeIdx
  congr 1
  funext g k
  dsimp only
  rw [if_pos (show (1#1 : BitVec 1) = 1 from rfl)]
  funext j
  unfold putLane
  first | rfl | (simp only [Bool.false_eq_true, if_false])

/-- Lanes none of which names `j` leave word `j` as it was. -/
theorem foldl_putLane_miss (idxs : Fin s.rank → IVec ⟨1, d⟩ 32) (v : Vec F ⟨1, d⟩ e) (h : ∀ a x, (idxs a x).toNat < s.size a) (j : s.Idx) :
    ∀ (l : List (Fin (d 0))) (g : Vec F s e), (∀ k ∈ l, ¬ ∀ a, (j a).val = (idxAt idxs h (Shape.ofLane k) a).val) →
      (l.foldl (putLane idxs v h) g) j = g j
  | [], _, _ => rfl
  | k :: l, g, hl => by
    rw [List.foldl_cons, foldl_putLane_miss idxs v h j l _ (fun k' hk' => hl k' (List.mem_cons_of_mem _ hk'))]
    exact if_neg (hl k (List.mem_cons_self))

/-- The one lane that names `j` leaves its element there. -/
theorem foldl_putLane_hit (idxs : Fin s.rank → IVec ⟨1, d⟩ 32) (v : Vec F ⟨1, d⟩ e) (h : ∀ a x, (idxs a x).toNat < s.size a) (j : s.Idx)
    (k : Fin (d 0)) (hk : ∀ a, (j a).val = (idxAt idxs h (Shape.ofLane k) a).val)
    (huniq : ∀ k' : Fin (d 0), (∀ a, (j a).val = (idxAt idxs h (Shape.ofLane k') a).val) → k' = k) :
    ∀ (l : List (Fin (d 0))) (g : Vec F s e), l.Nodup → k ∈ l → (l.foldl (putLane idxs v h) g) j = v (Shape.ofLane k)
  | [], _, _, hm => absurd hm List.not_mem_nil
  | a :: l, g, hnd, hm => by
    rw [List.foldl_cons]
    rcases List.mem_cons.1 hm with rfl | hm'
    · rw [foldl_putLane_miss idxs v h j l _ (fun k' hk' hhit => (List.nodup_cons.1 hnd).1 (huniq k' hhit ▸ hk'))]
      exact if_pos hk
    · exact foldl_putLane_hit idxs v h j k hk huniq l _ (List.nodup_cons.1 hnd).2 hm'

theorem storeIdx_miss (f : Vec F s e) (idxs : Fin s.rank → IVec ⟨1, d⟩ 32) (v : Vec F ⟨1, d⟩ e)
    (h : ∀ a x, (idxs a x).toNat < s.size a) (j : s.Idx)
    (hj : ∀ k : Fin (d 0), ¬ ∀ a, (j a).val = (idxAt idxs h (Shape.ofLane k) a).val) :
    storeIdx f idxs v (fun _ => 1#1) false h j = f j := by
  rw [storeIdx_eq_foldl]
  exact foldl_putLane_miss idxs v h j _ f (fun k _ => hj k)

theorem storeIdx_hit (f : Vec F s e) (idxs : Fin s.rank → IVec ⟨1, d⟩ 32) (v : Vec F ⟨1, d⟩ e)
    (h : ∀ a x, (idxs a x).toNat < s.size a) (j : s.Idx) (k : Fin (d 0))
    (hk : ∀ a, (j a).val = (idxAt idxs h (Shape.ofLane k) a).val)
    (huniq : ∀ k' : Fin (d 0), (∀ a, (j a).val = (idxAt idxs h (Shape.ofLane k') a).val) → k' = k) :
    storeIdx f idxs v (fun _ => 1#1) false h j = v (Shape.ofLane k) := by
  rw [storeIdx_eq_foldl]
  exact foldl_putLane_hit idxs v h j k hk huniq _ f (List.nodup_finRange _) (List.mem_finRange k)

end StoreIdx

/-! ## The buffer before each step -/

/-- The row and the word that the word at `i` comes from, once moved. -/
def srcRow (i : S416x128.Idx) : Fin 416 := ⟨((i 0).val * 4 + (i 1).val / 32) % 416, Nat.mod_lt _ (by decide)⟩
def srcCol (Sb : S416.Idx → BitVec 32) (i : S416x128.Idx) : Fin 128 :=
  ⟨((Sb (ix1 (srcRow i))).toNat % 4) * 32 + (i 1).val % 32, by omega⟩

/-- The word at `i` has been overwritten before step `e0` of the trip whose first row is `n`. -/
def moved (n e0 : Nat) (i : S416x128.Idx) : Prop :=
  (i 0).val < 104 ∧ ((i 0).val * 4 + (i 1).val / 32 < n ∨ ((i 0).val * 4 + (i 1).val / 32 < n + 16 ∧ (i 1).val % 32 < e0))

instance (n e0 : Nat) (i : S416x128.Idx) : Decidable (moved n e0 i) := by unfold moved; infer_instance

/-- The buffer before step `e0` of the trip whose first row is `n`, from its contents `G0` as gathered. -/
def repackAt {α : Type} (G0 : S416x128.Idx → α) (Sb : S416.Idx → BitVec 32) (n e0 : Nat) : S416x128.Idx → α :=
  fun i => if moved n e0 i then G0 (ix2 (srcRow i) (srcCol Sb i)) else G0 i

theorem repackAt_zero {α : Type} (G0 : S416x128.Idx → α) (Sb : S416.Idx → BitVec 32) : repackAt G0 Sb 0 0 = G0 := by
  funext i
  exact if_neg (by unfold moved; omega)

theorem repackAt_next {α : Type} (G0 : S416x128.Idx → α) (Sb : S416.Idx → BitVec 32) (n : Nat) :
    repackAt G0 Sb n 32 = repackAt G0 Sb (n + 16) 0 := by
  funext i
  have hc : (i 1).val % 32 < 32 := Nat.mod_lt _ (by decide)
  have : moved n 32 i ↔ moved (n + 16) 0 i := by unfold moved; omega
  unfold repackAt
  by_cases h : moved n 32 i
  · rw [if_pos h, if_pos (this.1 h)]
  · rw [if_neg h, if_neg (fun h' => h (this.2 h'))]

theorem repackAt_done {α : Type} (G0 : S416x128.Idx → α) (Sb : S416.Idx → BitVec 32) :
    Steps.RepackDone G0 (repackAt G0 Sb 416 0) Sb := by
  intro j e
  have hj := j.isLt
  have he := e.isLt
  have h0 : j.val / 4 < 416 := by omega
  have h1 : (j.val % 4) * 32 + e.val < 128 := by omega
  show repackAt G0 Sb 416 0 (ix2 (⟨j.val / 4, h0⟩ : Fin 416) (⟨(j.val % 4) * 32 + e.val, h1⟩ : Fin 128)) = _
  have hm : moved 416 0 (ix2 (⟨j.val / 4, h0⟩ : Fin 416) (⟨(j.val % 4) * 32 + e.val, h1⟩ : Fin 128)) := by
    show j.val / 4 < 104 ∧ (j.val / 4 * 4 + ((j.val % 4) * 32 + e.val) / 32 < 416 ∨ _)
    omega
  have hr : srcRow (ix2 (⟨j.val / 4, h0⟩ : Fin 416) (⟨(j.val % 4) * 32 + e.val, h1⟩ : Fin 128)) = j :=
    Fin.ext (by show (j.val / 4 * 4 + ((j.val % 4) * 32 + e.val) / 32) % 416 = j.val; omega)
  have hcol : srcCol Sb (ix2 (⟨j.val / 4, h0⟩ : Fin 416) (⟨(j.val % 4) * 32 + e.val, h1⟩ : Fin 128))
      = (⟨((Sb (ix1 j)).toNat % 4) * 32 + e.val, by omega⟩ : Fin 128) := by
    apply Fin.ext
    show ((Sb (ix1 (srcRow _))).toNat % 4) * 32 + ((j.val % 4) * 32 + e.val) % 32 = ((Sb (ix1 j)).toNat % 4) * 32 + e.val
    rw [hr]
    omega
  unfold repackAt
  rw [if_pos hm, hr, hcol]

end Cert.Proof.KI

end
-- ==== Proof.KIRepackStep.lean ====
/-
  One step of the repack as an equation between buffers: 16 lanes loaded at rows n .. n + 15, each at entry e of its
  quarter, and stored at flat words j * 32 + e, take the buffer before step e to the buffer before step e + 1.
-/
import proofs.«204936_g5145370820905_cont_8to1_c_618_18_alg».proof.Proof.KIRepackPure

noncomputable section

namespace Cert.Proof.KI

open Cert.KernelIdeal
open Idealize.ShloMosaic Idealize.ShloMosaic.ValueIdx

variable {F : FTy → Type} [FloatOps F]

/-- Row `16 t + lane` as a row of the buffer. -/
def rowAt (t : Nat) (x : S16.Idx) : Fin 416 := ⟨(16 * t + (x 0).val) % 416, Nat.mod_lt _ (by decide)⟩

/-- The step: lanes `x` read word `quarter * 32 + e` of row `16 t + x` and write word `((16 t + x) % 4) * 32 + e` of row
    `(16 t + x) / 4`. -/
theorem storeIdx_repack (G0 : S416x128.Idx → Elt F .f32) (Sb : S416.Idx → BitVec 32) (t e : Nat) (ht : t < 26) (he : e < 32)
    (hSb : ∀ j : Fin 416, (Sb (ix1 j)).toNat < 4)
    (rows cols srow scol : IVec S16 32)
    (hrows : ∀ x : S16.Idx, (rows x).toNat = 16 * t + (x 0).val)
    (hcols : ∀ x : S16.Idx, (cols x).toNat = (Sb (ix1 (rowAt t x))).toNat * 32 + e)
    (hsrow : ∀ x : S16.Idx, (srow x).toNat = (16 * t + (x 0).val) / 4)
    (hscol : ∀ x : S16.Idx, (scol x).toNat = ((16 * t + (x 0).val) % 4) * 32 + e)
    (hL : ∀ a x, ((![rows, cols] : Fin 2 → IVec S16 32) a x).toNat < S416x128.size a)
    (hS : ∀ a x, ((![srow, scol] : Fin 2 → IVec S16 32) a x).toNat < S416x128.size a) :
    storeIdx (F := F) (s := S416x128) (e := .f32) (d := ![16]) (repackAt G0 Sb (16 * t) e) ![srow, scol]
        (loadIdx (F := F) (s := S416x128) (e := .f32) (repackAt G0 Sb (16 * t) e) ![rows, cols] hL) (fun _ => 1#1) false hS
      = repackAt G0 Sb (16 * t) (e + 1) := by
  funext j
  have hr := idx2_lt0 j
  have hc := idx2_lt1 j
  by_cases hh : 16 * t ≤ (j 0).val * 4 + (j 1).val / 32 ∧ (j 0).val * 4 + (j 1).val / 32 < 16 * t + 16 ∧ (j 1).val % 32 = e
  · obtain ⟨h1, h2, h3⟩ := hh
    have hk : (j 0).val * 4 + (j 1).val / 32 - 16 * t < 16 := by omega
    let k : Fin ((![16] : Fin 1 → Nat) 0) := ⟨(j 0).val * 4 + (j 1).val / 32 - 16 * t, hk⟩
    have hk0 : ((Shape.ofLane k : S16.Idx) 0).val = (j 0).val * 4 + (j 1).val / 32 - 16 * t := rfl
    rw [storeIdx_hit _ _ _ hS j k ?hit ?uniq]
    case hit =>
      intro a
      match a with
      | ⟨0, _⟩ =>
        show (j 0).val = (srow (Shape.ofLane k)).toNat
        rw [hsrow, hk0]; omega
      | ⟨1, _⟩ =>
        show (j 1).val = (scol (Shape.ofLane k)).toNat
        rw [hscol, hk0]; omega
    case uniq =>
      intro k' hk'
      have e0 : (j 0).val = (srow (Shape.ofLane k')).toNat := hk' 0
      have e1 : (j 1).val = (scol (Shape.ofLane k')).toNat := hk' 1
      rw [hsrow] at e0; rw [hscol] at e1
      have hv : ((Shape.ofLane k' : S16.Idx) 0).val = k'.val := rfl
      have hk'lt : k'.val < 16 := k'.isLt
      apply Fin.ext
      show k'.val = (j 0).val * 4 + (j 1).val / 32 - 16 * t
      omega
    -- the element the lane loaded is still as gathered
    show repackAt G0 Sb (16 * t) e (idxAt (s := S416x128) (t := S16) ![rows, cols] hL (Shape.ofLane k)) = _
    have hJ : 16 * t + ((Shape.ofLane k : S16.Idx) 0).val = (j 0).val * 4 + (j 1).val / 32 := by rw [hk0]; omega
    have i0 : ((idxAt (s := S416x128) (t := S16) ![rows, cols] hL (Shape.ofLane k)) 0).val = (j 0).val * 4 + (j 1).val / 32 := by
      show (rows (Shape.ofLane k)).toNat = _
      rw [hrows, hJ]
    have hrow : rowAt t (Shape.ofLane k) = srcRow j :=
      Fin.ext (by show (16 * t + ((Shape.ofLane k : S16.Idx) 0).val) % 416 = ((j 0).val * 4 + (j 1).val / 32) % 416; rw [hJ])
    have i1 : ((idxAt (s := S416x128) (t := S16) ![rows, cols] hL (Shape.ofLane k)) 1).val = (Sb (ix1 (srcRow j))).toNat * 32 + e := by
      show (cols (Shape.ofLane k)).toNat = _
      rw [hcols, hrow]
    have hs4 := hSb (srcRow j)
    have hnm : ¬ moved (16 * t) e (idxAt (s := S416x128) (t := S16) ![rows, cols] hL (Shape.ofLane k)) := by
      unfold moved; omega
    have hm : moved (16 * t) (e + 1) j := by unfold moved; omega
    unfold repackAt
    rw [if_neg hnm, if_pos hm]
    congr 1
    funext a
    match a with
    | ⟨0, _⟩ =>
      apply Fin.ext
      show ((idxAt (s := S416x128) (t := S16) ![rows, cols] hL (Shape.ofLane k)) 0).val = ((j 0).val * 4 + (j 1).val / 32) % 416
      omega
    | ⟨1, _⟩ =>
      apply Fin.ext
      show ((idxAt (s := S416x128) (t := S16) ![rows, cols] hL (Shape.ofLane k)) 1).val = ((Sb (ix1 (srcRow j))).toNat % 4) * 32 + (j 1).val % 32
      omega
  · rw [storeIdx_miss _ _ _ hS j ?miss]
    case miss =>
      intro k' hk'
      have e0 : (j 0).val = (srow (Shape.ofLane k')).toNat := hk' 0
      have e1 : (j 1).val = (scol (Shape.ofLane k')).toNat := hk' 1
      rw [hsrow] at e0; rw [hscol] at e1
      have hk'lt : ((Shape.ofLane k' : S16.Idx) 0).val < 16 := k'.isLt
      exact hh (by omega)
    have hiff : moved (16 * t) e j ↔ moved (16 * t) (e + 1) j := by unfold moved; omega
    unfold repackAt
    by_cases h : moved (16 * t) e j
    · rw [if_pos h, if_pos (hiff.1 h)]
    · rw [if_neg h, if_neg (fun h' => h (hiff.2 h'))]

end Cert.Proof.KI

end
-- ==== Proof.KIRepackVec.lean ====
/-
  The index vectors of the repack step, and the words they hold lane by lane.

  With q = 16 t the trip's first row and lanes x = 0 .. 15: the rows read are q + x; the words read are quarter * 32 + e;
  the flat word written is (q + x) * 32 + e, cut into its row (shifted right by 7) and its word of the row (masked by 127).
  None of these wraps around in 32 bits: q + x is below 416 and the flat word below 416 * 32.
-/
import proofs.«204936_g5145370820905_cont_8to1_c_618_18_alg».proof.Proof.KIRepackStep
import Idealize.ShloMosaic.Lib.Pipeline.Value

noncomputable section

namespace Cert.Proof.KI

open Cert.KernelIdeal
open Idealize.ShloMosaic Idealize.ShloMosaic.ValueIdx

/-- The rows a trip reads: its first row plus the lane number. -/
def rowsOf (q : BitVec 32) (io : IVec S16 32) : IVec S16 32 := addi (broadcast S16 q) io
/-- The first word of each row's quarter. -/
def colBase (sub16 : IVec S16 32) : IVec S16 32 := muli sub16 (broadcast S16 32#32)
/-- Entry `e` of each row's quarter. -/
def colOf (cb : IVec S16 32) (e : BitVec 32) : IVec S16 32 := addi cb (broadcast S16 e)
/-- The first flat word each row is written to. -/
def wflatOf (q : BitVec 32) (io : IVec S16 32) : IVec S16 32 := muli (addi (broadcast S16 q) io) (broadcast S16 32#32)
/-- The row and the word of the row of flat word `wf + e`. -/
def srowOf (wf : IVec S16 32) (e : BitVec 32) : IVec S16 32 := shrui (addi wf (broadcast S16 e)) (broadcast S16 7#32)
def scolOf (wf : IVec S16 32) (e : BitVec 32) : IVec S16 32 := andi (addi wf (broadcast S16 e)) (broadcast S16 127#32)

/-- The trip's first row as a word. -/
def qRow (t : Nat) : BitVec 32 := Scalar.muli (Scf.iv 0#32 1#32 t) 16#32

theorem two_pow_32 : (2 : Nat) ^ 32 = 4294967296 := by norm_num

theorem qRow_toNat (t : Nat) (ht : t < 26) : (qRow t).toNat = 16 * t := by
  show ((0#32 + BitVec.ofNat 32 t * 1#32) * 16#32).toNat = 16 * t
  simp only [BitVec.toNat_mul, BitVec.toNat_add, BitVec.toNat_ofNat, two_pow_32]
  omega

theorem io_toNat (h : S16.Iotas .scVector 32 [0]) (x : S16.Idx) : (iota .scVector S16 32 [0] h x).toNat = (x 0).val := by
  rw [iota_single_apply, BitVec.toNat_ofNat, two_pow_32]
  have := (x 0).isLt
  have h16 : (x 0).val < 16 := this
  omega

theorem rowsOf_toNat (t : Nat) (ht : t < 26) (h : S16.Iotas .scVector 32 [0]) (x : S16.Idx) :
    (rowsOf (qRow t) (iota .scVector S16 32 [0] h) x).toNat = 16 * t + (x 0).val := by
  show (qRow t + iota .scVector S16 32 [0] h x).toNat = _
  have h16 : (x 0).val < 16 := (x 0).isLt
  rw [BitVec.toNat_add, qRow_toNat t ht, io_toNat, two_pow_32]
  omega

theorem colOf_toNat (sub16 : IVec S16 32) (e : Nat) (he : e < 32) (x : S16.Idx) (hs : (sub16 x).toNat < 4) :
    (colOf (colBase sub16) (BitVec.ofNat 32 e) x).toNat = (sub16 x).toNat * 32 + e := by
  show (sub16 x * 32#32 + BitVec.ofNat 32 e).toNat = _
  simp only [BitVec.toNat_mul, BitVec.toNat_add, BitVec.toNat_ofNat, two_pow_32]
  omega

theorem wf_toNat (t : Nat) (ht : t < 26) (h : S16.Iotas .scVector 32 [0]) (e : Nat) (he : e < 32) (x : S16.Idx) :
    (wflatOf (qRow t) (iota .scVector S16 32 [0] h) x + BitVec.ofNat 32 e).toNat = (16 * t + (x 0).val) * 32 + e := by
  show ((qRow t + iota .scVector S16 32 [0] h x) * 32#32 + BitVec.ofNat 32 e).toNat = _
  have h16 : (x 0).val < 16 := (x 0).isLt
  have hio := io_toNat h x
  have hq := qRow_toNat t ht
  simp only [BitVec.toNat_mul, BitVec.toNat_add, BitVec.toNat_ofNat, two_pow_32]
  omega

theorem srowOf_toNat (t : Nat) (ht : t < 26) (h : S16.Iotas .scVector 32 [0]) (e : Nat) (he : e < 32) (x : S16.Idx) :
    (srowOf (wflatOf (qRow t) (iota .scVector S16 32 [0] h)) (BitVec.ofNat 32 e) x).toNat = (16 * t + (x 0).val) / 4 := by
  show (IntOp.shrui .vector (wflatOf (qRow t) (iota .scVector S16 32 [0] h) x + BitVec.ofNat 32 e) 7#32).toNat = _
  have h16 : (x 0).val < 16 := (x 0).isLt
  unfold IntOp.shrui
  rw [if_pos (by decide)]
  show ((wflatOf (qRow t) (iota .scVector S16 32 [0] h) x + BitVec.ofNat 32 e) >>> 7).toNat = _
  have h7 : (2 : Nat) ^ 7 = 128 := by norm_num
  rw [BitVec.toNat_ushiftRight, wf_toNat t ht h e he x, Nat.shiftRight_eq_div_pow, h7]
  omega

theorem scolOf_toNat (t : Nat) (ht : t < 26) (h : S16.Iotas .scVector 32 [0]) (e : Nat) (he : e < 32) (x : S16.Idx) :
    (scolOf (wflatOf (qRow t) (iota .scVector S16 32 [0] h)) (BitVec.ofNat 32 e) x).toNat = ((16 * t + (x 0).val) % 4) * 32 + e := by
  show ((wflatOf (qRow t) (iota .scVector S16 32 [0] h) x + BitVec.ofNat 32 e) &&& 127#32).toNat = _
  have h16 : (x 0).val < 16 := (x 0).isLt
  rw [BitVec.toNat_and, wf_toNat t ht h e he x]
  show ((16 * t + (x 0).val) * 32 + e) &&& 127 = _
  have h7 : (2 : Nat) ^ 7 = 128 := by norm_num
  rw [show (127 : Nat) = 2 ^ 7 - 1 from rfl, Nat.and_two_pow_sub_one_eq_mod, h7]
  omega

/-- The indices of a step's load and of its store are inside the buffer. -/
theorem inb_of_toNat (a0 a1 : IVec S16 32) (h0 : ∀ x, (a0 x).toNat < 416) (h1 : ∀ x, (a1 x).toNat < 128) :
    ∀ a x, ((![a0, a1] : Fin 2 → IVec S16 32) a x).toNat < S416x128.size a := fun a x =>
  match a with
  | ⟨0, _⟩ => h0 x
  | ⟨1, _⟩ => h1 x

end Cert.Proof.KI

end
-- ==== Proof.KIRepackWp6.lean ====
/-
  The repack step on the second gather buffer, as rules of the program logic: the indexed load and the indexed store of the
  whole buffer held at known contents, and one step (its two index checks, its load and its store) from the buffer before
  step e to the buffer before step e + 1.
-/
import proofs.«204936_g5145370820905_cont_8to1_c_618_18_alg».proof.Proof.KITile
import proofs.«204936_g5145370820905_cont_8to1_c_618_18_alg».proof.Proof.KISteps
import proofs.«204936_g5145370820905_cont_8to1_c_618_18_alg».proof.Proof.KIRepackVec

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)
variable [FloatOps F]

local notation "g6M" => (Memref.whole Cert.KernelIdeal.cc0_scratch6 : Memref Cert.KernelIdeal.sig Kind.scVector Space.vmem Cert.KernelIdeal.S416x128 EltTy.f32)
local notation "s2M" => (Memref.whole Cert.KernelIdeal.cc0_scratch2 : Memref Cert.KernelIdeal.sig Kind.scVector Space.vmem Cert.KernelIdeal.S416 EltTy.i32)
local notation "ioV" => (iota Kind.scVector Cert.KernelIdeal.S16 32 [0] Cert.KernelIdeal.Gen.iota_S16_d0_w32_scVector)

/-- The indexed load: the buffer is unchanged and the program continues at the gathered lanes. -/
theorem wp_load6 {α : Type} {idxs : Fin S416x128.rank → IVec S16 32} {h : ∀ a x, (idxs a x).toNat < S416x128.size a} {hl : (g6M).view.Loads}
    {k : Vec F S16 .f32 → Prog (TpuEff nD τ sig (Elt F) Λ₀ (thrL d L).2) α} {Q : α → sProp 𝕄} (f : S416x128.Idx → Elt F .f32) :
    (((g6M).view.loc (thrL d L) ↦{fullShare} f) : sProp 𝕄)
      ⊢ iprop((((g6M).view.loc (thrL d L) ↦{fullShare} f) -∗ wp frame (wpE (defs₀ (F := F)) 𝒱₀ (thrL d L) none) Set.univ (k (loadIdx f idxs h)) Q)
          -∗ wp frame (wpE (defs₀ (F := F)) 𝒱₀ (thrL d L) none) Set.univ (SparseCore.vectorLoadIdx (g6M) idxs h hl >>= k) Q) := by
  have := SparseCore.wp_vectorLoadIdx (defs := defs₀ (F := F)) (Ix := HIx 1) (Name := ℕ) (U := UU) (Lvl := ℕ) 𝒱₀ (thrL d L) none Set.univ (base := (g6M)) (idxs := idxs) (h := h) (hl := hl) (k := k) (Q := Q)
    (S := Finset.univ) (q := fullShare) (f := f) (Finset.subset_univ _)
  rw [Memref.read_access_whole] at this
  exact this

/-- The indexed store of sixteen lanes: the buffer afterwards is the scatter of the lanes into it. -/
theorem wp_store6 {α : Type} {idxs : Fin S416x128.rank → IVec S16 32} {v : Vec F S16 .f32} {h : ∀ a x, (idxs a x).toNat < S416x128.size a}
    {hs : ((g6M).access (.whole S416x128)).Stores Finset.univ}
    {k : PUnit → Prog (TpuEff nD τ sig (Elt F) Λ₀ (thrL d L).2) α} {Q : α → sProp 𝕄} (f : S416x128.Idx → Elt F .f32) :
    (((g6M).view.loc (thrL d L) ↦{fullShare} f) : sProp 𝕄)
      ⊢ iprop((((g6M).view.loc (thrL d L) ↦{fullShare} storeIdx (F := F) (s := S416x128) (e := .f32) (d := ![16]) f idxs v (fun _ => 1#1) false h)
            -∗ wp frame (wpE (defs₀ (F := F)) 𝒱₀ (thrL d L) none) Set.univ (k ⟨⟩) Q)
          -∗ wp frame (wpE (defs₀ (F := F)) 𝒱₀ (thrL d L) none) Set.univ (SparseCore.vectorStoreIdx (g6M) idxs v (fun _ => 1#1) false h hs >>= k) Q) := by
  have := SparseCore.wp_vectorStoreIdx (defs := defs₀ (F := F)) (Ix := HIx 1) (Name := ℕ) (U := UU) (Lvl := ℕ) 𝒱₀ (thrL d L) none Set.univ (base := (g6M)) (idxs := idxs) (v := v)
    (mask := fun _ => 1#1) (add := false) (h := h) (hs := hs) (k := k) (Q := Q) (f := f)
  rw [Memref.set_access_whole, Memref.read_access_whole, Memref.write_access_whole_univ] at this
  exact this

/-- The sixteen quarters a trip reads off the quarter buffer. -/
def sub16 (t : Fin k0_t6_loop.trips) (Sb : S416.Idx → BitVec 32) : IVec S16 32 :=
  (s2M).view.readAt (Elt F) (Rect.unit (s := S416) (k0_off13 t) S16.size (k0_off13_inb t)).toLoadRect Sb

omit [FloatOps F] in
theorem sub16_apply (t : Fin k0_t6_loop.trips) (Sb : S416.Idx → BitVec 32) (x : S16.Idx) :
    sub16 (F := F) t Sb x = Sb (ix1 (rowAt t.val x)) := by
  have ht : t.val < 26 := lt_of_lt_of_le t.isLt k0_t6_abs.2.1
  have h16 : (x 0).val < 16 := (x 0).isLt
  unfold sub16
  simp only [View.readAt_apply, Memref.view_whole, View.read_whole]
  refine congrArg Sb (funext fun a => ?_)
  have ha : a = (0 : Fin 1) := Subsingleton.elim (α := Fin 1) a 0
  subst ha
  apply Fin.ext
  rw [LoadRect.idx_apply]
  show k0_off13 t 0 + 1 * (x 0).val = (16 * t.val + (x 0).val) % 416
  rw [k0_off13_eq]
  show 16 * t.val + 1 * (x 0).val = _
  omega

/-- ONE STEP of the repack: the check of the load's indices, the load, the check of the store's indices, the store. -/
theorem wp_pair6 {α : Type} (G0 : S416x128.Idx → Elt F .f32) (Sb : S416.Idx → BitVec 32) (hSb : ∀ j : Fin 416, (Sb (ix1 j)).toNat < 4)
    (t : Fin k0_t6_loop.trips) (e : Nat) (he : e < 32)
    {d1 : Decidable (∀ a x, ((![rowsOf (qRow t.val) ioV, colOf (colBase (sub16 (F := F) t Sb)) (BitVec.ofNat 32 e)] : Fin 2 → IVec S16 32) a x).toNat < S416x128.size a)}
    {d2 : Decidable (∀ a x, ((![srowOf (wflatOf (qRow t.val) ioV) (BitVec.ofNat 32 e), scolOf (wflatOf (qRow t.val) ioV) (BitVec.ofNat 32 e)] : Fin 2 → IVec S16 32) a x).toNat < S416x128.size a)}
    {hl : (g6M).view.Loads} {hs : ((g6M).access (.whole S416x128)).Stores Finset.univ}
    {k : PUnit → Prog (TpuEff nD τ sig (Elt F) Λ₀ (thrL d L).2) α} {Q : α → sProp 𝕄} :
    (((g6M).view.loc (thrL d L) ↦{fullShare} repackAt G0 Sb (16 * t.val) e) : sProp 𝕄)
      ⊢ iprop((((g6M).view.loc (thrL d L) ↦{fullShare} repackAt G0 Sb (16 * t.val) (e + 1))
            -∗ wp frame (wpE (defs₀ (F := F)) 𝒱₀ (thrL d L) none) Set.univ (k ⟨⟩) Q)
          -∗ wp frame (wpE (defs₀ (F := F)) 𝒱₀ (thrL d L) none) Set.univ
              (.op (.assume _ d1) fun w1 =>
                SparseCore.vectorLoadIdx (g6M) ![rowsOf (qRow t.val) ioV, colOf (colBase (sub16 (F := F) t Sb)) (BitVec.ofNat 32 e)] w1.down hl >>= fun v =>
                  .op (.assume _ d2) fun w2 =>
                    SparseCore.vectorStoreIdx (g6M) ![srowOf (wflatOf (qRow t.val) ioV) (BitVec.ofNat 32 e), scolOf (wflatOf (qRow t.val) ioV) (BitVec.ofNat 32 e)]
                      v (fun _ => 1#1) false w2.down hs >>= k) Q) := by
  have ht : t.val < 26 := lt_of_lt_of_le t.isLt k0_t6_abs.2.1
  have hrows := rowsOf_toNat t.val ht iota_S16_d0_w32_scVector
  have hcols : ∀ x : S16.Idx, (colOf (colBase (sub16 (F := F) t Sb)) (BitVec.ofNat 32 e) x).toNat = (Sb (ix1 (rowAt t.val x))).toNat * 32 + e := fun x => by
    rw [colOf_toNat (sub16 (F := F) t Sb) e he x (by rw [sub16_apply]; exact hSb _), sub16_apply]
  have hsrow := srowOf_toNat t.val ht iota_S16_d0_w32_scVector e he
  have hscol := scolOf_toNat t.val ht iota_S16_d0_w32_scVector e he
  have hP1 : ∀ a x, ((![rowsOf (qRow t.val) ioV, colOf (colBase (sub16 (F := F) t Sb)) (BitVec.ofNat 32 e)] : Fin 2 → IVec S16 32) a x).toNat < S416x128.size a :=
    inb_of_toNat _ _ (fun x => by rw [hrows x]; have : (x 0).val < 16 := (x 0).isLt; omega)
      (fun x => by rw [hcols x]; have := hSb (rowAt t.val x); omega)
  have hP2 : ∀ a x, ((![srowOf (wflatOf (qRow t.val) ioV) (BitVec.ofNat 32 e), scolOf (wflatOf (qRow t.val) ioV) (BitVec.ofNat 32 e)] : Fin 2 → IVec S16 32) a x).toNat < S416x128.size a :=
    inb_of_toNat _ _ (fun x => by rw [hsrow x]; have : (x 0).val < 16 := (x 0).isLt; omega)
      (fun x => by rw [hscol x]; omega)
  iintro HG HK
  rw [wp_assume_of _ _ _ _ hP1]
  iapply (wp_load6 d L (repackAt G0 Sb (16 * t.val) e)) $$ HG; iintro HG
  rw [wp_assume_of _ _ _ _ hP2]
  iapply (wp_store6 d L (repackAt G0 Sb (16 * t.val) e)) $$ HG; iintro HG
  rw [storeIdx_repack G0 Sb t.val e ht he hSb _ _ _ _ hrows hcols hsrow hscol]
  iapply HK; iexact HG

end Cert.Proof.KI

end
-- ==== Proof.KIRepackWp3.lean ====
/-
  One step of the repack loop inside a trip of the main loop, on the second gather buffer, as a rule of the program logic: its two index checks (each under the
  condition of the enclosing branch), its load and its store, from the buffer before step e to the buffer before step e + 1.
-/
import proofs.«204936_g5145370820905_cont_8to1_c_618_18_alg».proof.Proof.KIRepackWp6

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)
variable [FloatOps F]

local notation "g6M" => (Memref.whole Cert.KernelIdeal.cc0_scratch6 : Memref Cert.KernelIdeal.sig Kind.scVector Space.vmem Cert.KernelIdeal.S416x128 EltTy.f32)
local notation "s2M" => (Memref.whole Cert.KernelIdeal.cc0_scratch2 : Memref Cert.KernelIdeal.sig Kind.scVector Space.vmem Cert.KernelIdeal.S416 EltTy.i32)
local notation "ioV" => (iota Kind.scVector Cert.KernelIdeal.S16 32 [0] Cert.KernelIdeal.Gen.iota_S16_d0_w32_scVector)

/-- The sixteen quarters a trip reads off the quarter buffer. -/
def sub16_3 (t : Fin k0_t3_loop.trips) (k0_t1 : Fin k0_t1_loop.trips) (hc : k0_cond2 k0_t1 = 1#1) (Sb : S416.Idx → BitVec 32) : IVec S16 32 :=
  (s2M).view.readAt (Elt F) (Rect.unit (s := S416) (k0_off6 t) S16.size (k0_off6_inb k0_t1 t hc)).toLoadRect Sb

omit [FloatOps F] in
theorem sub16_3_apply (t : Fin k0_t3_loop.trips) (k0_t1 : Fin k0_t1_loop.trips) (hc : k0_cond2 k0_t1 = 1#1) (Sb : S416.Idx → BitVec 32) (x : S16.Idx) :
    sub16_3 (F := F) t k0_t1 hc Sb x = Sb (ix1 (rowAt t.val x)) := by
  have ht : t.val < 26 := lt_of_lt_of_le t.isLt k0_t3_abs.2.1
  have h16 : (x 0).val < 16 := (x 0).isLt
  unfold sub16_3
  simp only [View.readAt_apply, Memref.view_whole, View.read_whole]
  refine congrArg Sb (funext fun a => ?_)
  have ha : a = (0 : Fin 1) := Subsingleton.elim (α := Fin 1) a 0
  subst ha
  apply Fin.ext
  rw [LoadRect.idx_apply]
  show k0_off6 t 0 + 1 * (x 0).val = (16 * t.val + (x 0).val) % 416
  rw [k0_off6_eq]
  show 16 * t.val + 1 * (x 0).val = _
  omega

/-- ONE STEP of the repack: the check of the load's indices, the load, the check of the store's indices, the store. -/
theorem wp_pair3 {α : Type} (G0 : S416x128.Idx → Elt F .f32) (Sb : S416.Idx → BitVec 32) (hSb : ∀ j : Fin 416, (Sb (ix1 j)).toNat < 4)
    (k0_t1 : Fin k0_t1_loop.trips) (hc : k0_cond2 k0_t1 = 1#1)
    (t : Fin k0_t3_loop.trips) (e : Nat) (he : e < 32)
    {d1 : Decidable (k0_cond2 k0_t1 = 1#1 → ∀ a x, ((![rowsOf (qRow t.val) ioV, colOf (colBase (sub16_3 (F := F) t k0_t1 hc Sb)) (BitVec.ofNat 32 e)] : Fin 2 → IVec S16 32) a x).toNat < S416x128.size a)}
    {d2 : Decidable (k0_cond2 k0_t1 = 1#1 → ∀ a x, ((![srowOf (wflatOf (qRow t.val) ioV) (BitVec.ofNat 32 e), scolOf (wflatOf (qRow t.val) ioV) (BitVec.ofNat 32 e)] : Fin 2 → IVec S16 32) a x).toNat < S416x128.size a)}
    {hl : (g6M).view.Loads} {hs : ((g6M).access (.whole S416x128)).Stores Finset.univ}
    {k : PUnit → Prog (TpuEff nD τ sig (Elt F) Λ₀ (thrL d L).2) α} {Q : α → sProp 𝕄} :
    (((g6M).view.loc (thrL d L) ↦{fullShare} repackAt G0 Sb (16 * t.val) e) : sProp 𝕄)
      ⊢ iprop((((g6M).view.loc (thrL d L) ↦{fullShare} repackAt G0 Sb (16 * t.val) (e + 1))
            -∗ wp frame (wpE (defs₀ (F := F)) 𝒱₀ (thrL d L) none) Set.univ (k ⟨⟩) Q)
          -∗ wp frame (wpE (defs₀ (F := F)) 𝒱₀ (thrL d L) none) Set.univ
              (.op (.assume _ d1) fun w1 =>
                SparseCore.vectorLoadIdx (g6M) ![rowsOf (qRow t.val) ioV, colOf (colBase (sub16_3 (F := F) t k0_t1 hc Sb)) (BitVec.ofNat 32 e)] (w1.down hc) hl >>= fun v =>
                  .op (.assume _ d2) fun w2 =>
                    SparseCore.vectorStoreIdx (g6M) ![srowOf (wflatOf (qRow t.val) ioV) (BitVec.ofNat 32 e), scolOf (wflatOf (qRow t.val) ioV) (BitVec.ofNat 32 e)]
                      v (fun _ => 1#1) false (w2.down hc) hs >>= k) Q) := by
  have ht : t.val < 26 := lt_of_lt_of_le t.isLt k0_t3_abs.2.1
  have hrows := rowsOf_toNat t.val ht iota_S16_d0_w32_scVector
  have hcols : ∀ x : S16.Idx, (colOf (colBase (sub16_3 (F := F) t k0_t1 hc Sb)) (BitVec.ofNat 32 e) x).toNat = (Sb (ix1 (rowAt t.val x))).toNat * 32 + e := fun x => by
    rw [colOf_toNat (sub16_3 (F := F) t k0_t1 hc Sb) e he x (by rw [sub16_3_apply]; exact hSb _), sub16_3_apply]
  have hsrow := srowOf_toNat t.val ht iota_S16_d0_w32_scVector e he
  have hscol := scolOf_toNat t.val ht iota_S16_d0_w32_scVector e he
  have hP1 : ∀ a x, ((![rowsOf (qRow t.val) ioV, colOf (colBase (sub16_3 (F := F) t k0_t1 hc Sb)) (BitVec.ofNat 32 e)] : Fin 2 → IVec S16 32) a x).toNat < S416x128.size a :=
    inb_of_toNat _ _ (fun x => by rw [hrows x]; have : (x 0).val < 16 := (x 0).isLt; omega)
      (fun x => by rw [hcols x]; have := hSb (rowAt t.val x); omega)
  have hP2 : ∀ a x, ((![srowOf (wflatOf (qRow t.val) ioV) (BitVec.ofNat 32 e), scolOf (wflatOf (qRow t.val) ioV) (BitVec.ofNat 32 e)] : Fin 2 → IVec S16 32) a x).toNat < S416x128.size a :=
    inb_of_toNat _ _ (fun x => by rw [hsrow x]; have : (x 0).val < 16 := (x 0).isLt; omega)
      (fun x => by rw [hscol x]; omega)
  iintro HG HK
  rw [wp_assume_of _ _ _ _ (fun _ => hP1)]
  iapply (wp_load6 d L (repackAt G0 Sb (16 * t.val) e)) $$ HG; iintro HG
  rw [wp_assume_of _ _ _ _ (fun _ => hP2)]
  iapply (wp_store6 d L (repackAt G0 Sb (16 * t.val) e)) $$ HG; iintro HG
  rw [storeIdx_repack G0 Sb t.val e ht he hSb _ _ _ _ hrows hcols hsrow hscol]
  iapply HK; iexact HG

end Cert.Proof.KI

end
-- ==== Proof.KIRepack3.lean ====
/-
  The repack loop inside a trip of the main loop, on the second gather buffer with the second quarter buffer: one trip takes the buffer before its first step to the buffer before the next trip's first
  step — the quarters of its sixteen rows loaded, then its 32 steps in order, each the two index checks, the indexed load and
  the indexed store —; the 26 trips take the buffer as gathered to the repacked buffer.
-/
import proofs.«204936_g5145370820905_cont_8to1_c_618_18_alg».proof.Proof.KIRepackWp3

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)
variable [FloatOps F]

local notation "g6M" => (Memref.whole Cert.KernelIdeal.cc0_scratch6 : Memref Cert.KernelIdeal.sig Kind.scVector Space.vmem Cert.KernelIdeal.S416x128 EltTy.f32)
local notation "s2M" => (Memref.whole Cert.KernelIdeal.cc0_scratch2 : Memref Cert.KernelIdeal.sig Kind.scVector Space.vmem Cert.KernelIdeal.S416 EltTy.i32)
local notation "ioV" => (iota Kind.scVector Cert.KernelIdeal.S16 32 [0] Cert.KernelIdeal.Gen.iota_S16_d0_w32_scVector)

set_option hygiene false in
local macro "rp_pair" e:num : tactic => `(tactic| (
  rw [wp_assume_of _ _ _ _ ?_]; swap; exact (fun _ => hP1G $e (by norm_num))
  iapply (wp_load6 d L (repackAt G0 Sb (16 * t.val) $e)) $$ HG; iintro HG
  rw [wp_assume_of _ _ _ _ ?_]; swap; exact (fun _ => hP2G $e (by norm_num))
  iapply (wp_store6 d L (repackAt G0 Sb (16 * t.val) $e)) $$ HG; iintro HG
  rw [storeIdx_repack G0 Sb t.val $e ht (by norm_num) hSb _ _ _ _ ?_ ?_ ?_ ?_]
  on_goal 2 => exact hrowsG
  on_goal 2 => exact (hcolsG $e (by norm_num))
  on_goal 2 => exact (hsrowG $e (by norm_num))
  on_goal 2 => exact (hscolG $e (by norm_num))))

set_option maxHeartbeats 8000000 in
/-- One trip. -/
theorem trip3 (v2 v3 : BitVec 32) (k : Fin k0_t1_loop.trips) (h2 : k0_cond2 k = 1#1) (G0 : S416x128.Idx → Elt F .f32) (Sb : S416.Idx → BitVec 32) (hSb : ∀ j : Fin 416, (Sb (ix1 j)).toNat < 4) (t : Fin k0_t3_loop.trips) :
    (iprop(((g6M).view.loc (thrL d L) ↦{fullShare} repackAt G0 Sb (16 * t.val) 0) ∗ ((s2M).view.loc (thrL d L) ↦{fullShare} Sb)) : sProp 𝕄)
      ⊢ wp frame (wpE (defs₀ (F := F)) 𝒱₀ (thrL d L) none) Set.univ
          (k0_t3_body L (Memref.whole main_v2_scv) (Memref.isWhole_whole _) (Memref.whole main_v8_scv) (Memref.isWhole_whole _) (Memref.whole main_v12_scv) (Memref.isWhole_whole _) (Memref.whole main_v13_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scoped0 v2 v3 0#32 1#32 k h2 ioV t ⟨⟩)
          fun _ => iprop(((g6M).view.loc (thrL d L) ↦{fullShare} repackAt G0 Sb (16 * (t.val + 1)) 0) ∗ ((s2M).view.loc (thrL d L) ↦{fullShare} Sb)) := by
  have ht : t.val < 26 := lt_of_lt_of_le t.isLt k0_t3_abs.2.1
  iintro ⟨HG, HS⟩
  unfold k0_t3_body
  rw [k0_part1_eq_skeleton]; unfold k0_part1_skel
  simp only [Prog.lift, Prog.bind_op, Prog.bind_ret, Prog.pure_eq_ret, bind_assoc]
  iapply (wp_load 𝒱₀ (thrL d L) none Set.univ (m := (s2M)) (S := Finset.univ) (Finset.subset_univ _)) $$ HS; iintro HS
  -- the sixteen quarters the trip read, as one vector `sv` with `sv x = Sb (row 16 t + x)`
  generalize hsv : View.readAt (Elt F) (s2M).view (Rect.unit (s := S416) (k0_off6 t) S16.size (k0_off6_inb k t h2)).toLoadRect Sb = sv
  have hsub : ∀ x : S16.Idx, sv x = Sb (ix1 (rowAt t.val x)) := fun x => by rw [← hsv]; exact sub16_3_apply (F := F) t k h2 Sb x
  have hrowsG := rowsOf_toNat t.val ht iota_S16_d0_w32_scVector
  have hcolsG : ∀ (e : Nat) (he : e < 32) (x : S16.Idx), (colOf (colBase sv) (BitVec.ofNat 32 e) x).toNat = (Sb (ix1 (rowAt t.val x))).toNat * 32 + e := fun e he x => by
    rw [colOf_toNat sv e he x (by rw [hsub]; exact hSb _), hsub]
  have hsrowG := srowOf_toNat t.val ht iota_S16_d0_w32_scVector
  have hscolG := scolOf_toNat t.val ht iota_S16_d0_w32_scVector
  have hP1G : ∀ (e : Nat) (he : e < 32), ∀ a x, ((![rowsOf (qRow t.val) ioV, colOf (colBase sv) (BitVec.ofNat 32 e)] : Fin 2 → IVec S16 32) a x).toNat < S416x128.size a := fun e he =>
    inb_of_toNat _ _ (fun x => by rw [hrowsG x]; have : (x 0).val < 16 := (x 0).isLt; omega)
      (fun x => by rw [hcolsG e he x]; have := hSb (rowAt t.val x); omega)
  have hP2G : ∀ (e : Nat) (he : e < 32), ∀ a x, ((![srowOf (wflatOf (qRow t.val) ioV) (BitVec.ofNat 32 e), scolOf (wflatOf (qRow t.val) ioV) (BitVec.ofNat 32 e)] : Fin 2 → IVec S16 32) a x).toNat < S416x128.size a := fun e he =>
    inb_of_toNat _ _ (fun x => by rw [hsrowG e he x]; have : (x 0).val < 16 := (x 0).isLt; omega)
      (fun x => by rw [hscolG e he x]; omega)
  rp_pair 0
  rp_pair 1
  rw [k0_part2_eq_skeleton]; unfold k0_part2_skel
  simp only [Prog.lift, Prog.bind_op, Prog.bind_ret, Prog.pure_eq_ret, bind_assoc]
  rp_pair 2
  rp_pair 3
  rp_pair 4
  rp_pair 5
  rw [k0_part3_eq_skeleton]; unfold k0_part3_skel
  simp only [Prog.lift, Prog.bind_op, Prog.bind_ret, Prog.pure_eq_ret, bind_assoc]
  rp_pair 6
  rp_pair 7
  rp_pair 8
  rp_pair 9
  rw [k0_part4_eq_skeleton]; unfold k0_part4_skel
  simp only [Prog.lift, Prog.bind_op, Prog.bind_ret, Prog.pure_eq_ret, bind_assoc]
  rp_pair 10
  rp_pair 11
  rp_pair 12
  rp_pair 13
  rw [k0_part5_eq_skeleton]; unfold k0_part5_skel
  simp only [Prog.lift, Prog.bind_op, Prog.bind_ret, Prog.pure_eq_ret, bind_assoc]
  rp_pair 14
  rp_pair 15
  rp_pair 16
  rp_pair 17
  rw [k0_part6_eq_skeleton]; unfold k0_part6_skel
  simp only [Prog.lift, Prog.bind_op, Prog.bind_ret, Prog.pure_eq_ret, bind_assoc]
  rp_pair 18
  rp_pair 19
  rp_pair 20
  rp_pair 21
  rw [k0_part7_eq_skeleton]; unfold k0_part7_skel
  simp only [Prog.lift, Prog.bind_op, Prog.bind_ret, Prog.pure_eq_ret, bind_assoc]
  rp_pair 22
  rp_pair 23
  rp_pair 24
  rp_pair 25
  rw [k0_part8_eq_skeleton]; unfold k0_part8_skel
  simp only [Prog.lift, Prog.bind_op, Prog.bind_ret, Prog.pure_eq_ret, bind_assoc]
  rp_pair 26
  rp_pair 27
  rp_pair 28
  rp_pair 29
  rp_pair 30
  rp_pair 31
  rw [wp_ret]; imodintro
  rw [repackAt_next, show 16 * t.val + 16 = 16 * (t.val + 1) by omega]
  isplitl [HG]; · iexact HG
  iexact HS

/-- Before trip k the buffer is the one before step 0 of the trip whose first row is 16 k; the quarters are unchanged. -/
def rinv3 (G0 : S416x128.Idx → Elt F .f32) (Sb : S416.Idx → BitVec 32) (k : Nat) (_ : Unit) : sProp 𝕄 :=
  iprop(((g6M).view.loc (thrL d L) ↦{fullShare} repackAt G0 Sb (16 * k) 0) ∗ ((s2M).view.loc (thrL d L) ↦{fullShare} Sb))

theorem trips3 : k0_t3_loop.trips = 26 := by decide

/-- THE REPACK LOOP inside a trip of the main loop, on the second gather buffer with the second quarter buffer. The vector `v62` is the lane numbers 0 .. 15. -/
theorem repack3 (v2 v3 : BitVec 32) (k : Fin k0_t1_loop.trips) (h2 : k0_cond2 k = 1#1) (v62 : IVec S16 32) (G0 : S416x128.Idx → Elt F .f32) (Sb : S416.Idx → BitVec 32) (hSb : ∀ j : Fin 416, (Sb (ix1 j)).toNat < 4)
    (hv : v62 = iota .scVector S16 32 [0] iota_S16_d0_w32_scVector) :
    (iprop(((g6M).view.loc (thrL d L) ↦{fullShare} G0) ∗ ((s2M).view.loc (thrL d L) ↦{fullShare} Sb)) : sProp 𝕄)
      ⊢ wp frame (wpE (defs₀ (F := F)) 𝒱₀ (thrL d L) none) Set.univ
          (Scf.Loop.for k0_t3_loop (k0_t3_ok k h2) ⟨⟩ (k0_t3_body L (Memref.whole main_v2_scv) (Memref.isWhole_whole _) (Memref.whole main_v8_scv) (Memref.isWhole_whole _) (Memref.whole main_v12_scv) (Memref.isWhole_whole _) (Memref.whole main_v13_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scoped0 v2 v3 0#32 1#32 k h2 v62))
          fun _ => iprop(∃ G1, ⌜Steps.RepackDone G0 G1 Sb⌝ ∗ ((g6M).view.loc (thrL d L) ↦{fullShare} G1) ∗ ((s2M).view.loc (thrL d L) ↦{fullShare} Sb)) := by
  subst hv
  iintro ⟨HG, HS⟩
  sl_for (rinv3 (F := F) d L G0 Sb) $$ [HG HS]
  case region =>
    intro t _
    exact trip3 d L v2 v3 k h2 G0 Sb hSb t
  isplitl [HG HS]
  · unfold rinv3
    rw [Nat.mul_zero, repackAt_zero]
    isplitl [HG]; · iexact HG
    iexact HS
  iintro %_ HInv
  unfold rinv3
  icases HInv with ⟨HG, HS⟩
  iexists repackAt G0 Sb (16 * k0_t3_loop.trips) 0
  isplitr
  · ipureintro
    rw [trips3]
    exact repackAt_done G0 Sb
  isplitl [HG]; · iexact HG
  iexact HS

end Cert.Proof.KI

end
-- ==== Proof.KIRepackWp5.lean ====
/-
  One step of the repack loop inside a trip of the main loop, on the first gather buffer, as a rule of the program logic: its two index checks (each under the
  condition of the enclosing branch), its load and its store, from the buffer before step e to the buffer before step e + 1.
-/
import proofs.«204936_g5145370820905_cont_8to1_c_618_18_alg».proof.Proof.KITile
import proofs.«204936_g5145370820905_cont_8to1_c_618_18_alg».proof.Proof.KISteps
import proofs.«204936_g5145370820905_cont_8to1_c_618_18_alg».proof.Proof.KIRepackVec

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)
variable [FloatOps F]

local notation "g5M" => (Memref.whole Cert.KernelIdeal.cc0_scratch5 : Memref Cert.KernelIdeal.sig Kind.scVector Space.vmem Cert.KernelIdeal.S416x128 EltTy.f32)
local notation "s1M" => (Memref.whole Cert.KernelIdeal.cc0_scratch1 : Memref Cert.KernelIdeal.sig Kind.scVector Space.vmem Cert.KernelIdeal.S416 EltTy.i32)
local notation "ioV" => (iota Kind.scVector Cert.KernelIdeal.S16 32 [0] Cert.KernelIdeal.Gen.iota_S16_d0_w32_scVector)

/-- The indexed load: the buffer is unchanged and the program continues at the gathered lanes. -/
theorem wp_load5 {α : Type} {idxs : Fin S416x128.rank → IVec S16 32} {h : ∀ a x, (idxs a x).toNat < S416x128.size a} {hl : (g5M).view.Loads}
    {k : Vec F S16 .f32 → Prog (TpuEff nD τ sig (Elt F) Λ₀ (thrL d L).2) α} {Q : α → sProp 𝕄} (f : S416x128.Idx → Elt F .f32) :
    (((g5M).view.loc (thrL d L) ↦{fullShare} f) : sProp 𝕄)
      ⊢ iprop((((g5M).view.loc (thrL d L) ↦{fullShare} f) -∗ wp frame (wpE (defs₀ (F := F)) 𝒱₀ (thrL d L) none) Set.univ (k (loadIdx f idxs h)) Q)
          -∗ wp frame (wpE (defs₀ (F := F)) 𝒱₀ (thrL d L) none) Set.univ (SparseCore.vectorLoadIdx (g5M) idxs h hl >>= k) Q) := by
  have := SparseCore.wp_vectorLoadIdx (defs := defs₀ (F := F)) (Ix := HIx 1) (Name := ℕ) (U := UU) (Lvl := ℕ) 𝒱₀ (thrL d L) none Set.univ (base := (g5M)) (idxs := idxs) (h := h) (hl := hl) (k := k) (Q := Q)
    (S := Finset.univ) (q := fullShare) (f := f) (Finset.subset_univ _)
  rw [Memref.read_access_whole] at this
  exact this

/-- The indexed store of sixteen lanes: the buffer afterwards is the scatter of the lanes into it. -/
theorem wp_store5 {α : Type} {idxs : Fin S416x128.rank → IVec S16 32} {v : Vec F S16 .f32} {h : ∀ a x, (idxs a x).toNat < S416x128.size a}
    {hs : ((g5M).access (.whole S416x128)).Stores Finset.univ}
    {k : PUnit → Prog (TpuEff nD τ sig (Elt F) Λ₀ (thrL d L).2) α} {Q : α → sProp 𝕄} (f : S416x128.Idx → Elt F .f32) :
    (((g5M).view.loc (thrL d L) ↦{fullShare} f) : sProp 𝕄)
      ⊢ iprop((((g5M).view.loc (thrL d L) ↦{fullShare} storeIdx (F := F) (s := S416x128) (e := .f32) (d := ![16]) f idxs v (fun _ => 1#1) false h)
            -∗ wp frame (wpE (defs₀ (F := F)) 𝒱₀ (thrL d L) none) Set.univ (k ⟨⟩) Q)
          -∗ wp frame (wpE (defs₀ (F := F)) 𝒱₀ (thrL d L) none) Set.univ (SparseCore.vectorStoreIdx (g5M) idxs v (fun _ => 1#1) false h hs >>= k) Q) := by
  have := SparseCore.wp_vectorStoreIdx (defs := defs₀ (F := F)) (Ix := HIx 1) (Name := ℕ) (U := UU) (Lvl := ℕ) 𝒱₀ (thrL d L) none Set.univ (base := (g5M)) (idxs := idxs) (v := v)
    (mask := fun _ => 1#1) (add := false) (h := h) (hs := hs) (k := k) (Q := Q) (f := f)
  rw [Memref.set_access_whole, Memref.read_access_whole, Memref.write_access_whole_univ] at this
  exact this

/-- The sixteen quarters a trip reads off the quarter buffer. -/
def sub16_5 (t : Fin k0_t5_loop.trips) (k0_t1 : Fin k0_t1_loop.trips) (hc : k0_cond5 k0_t1 = 1#1) (Sb : S416.Idx → BitVec 32) : IVec S16 32 :=
  (s1M).view.readAt (Elt F) (Rect.unit (s := S416) (k0_off11 t) S16.size (k0_off11_inb k0_t1 t hc)).toLoadRect Sb

omit [FloatOps F] in
theorem sub16_5_apply (t : Fin k0_t5_loop.trips) (k0_t1 : Fin k0_t1_loop.trips) (hc : k0_cond5 k0_t1 = 1#1) (Sb : S416.Idx → BitVec 32) (x : S16.Idx) :
    sub16_5 (F := F) t k0_t1 hc Sb x = Sb (ix1 (rowAt t.val x)) := by
  have ht : t.val < 26 := lt_of_lt_of_le t.isLt k0_t5_abs.2.1
  have h16 : (x 0).val < 16 := (x 0).isLt
  unfold sub16_5
  simp only [View.readAt_apply, Memref.view_whole, View.read_whole]
  refine congrArg Sb (funext fun a => ?_)
  have ha : a = (0 : Fin 1) := Subsingleton.elim (α := Fin 1) a 0
  subst ha
  apply Fin.ext
  rw [LoadRect.idx_apply]
  show k0_off11 t 0 + 1 * (x 0).val = (16 * t.val + (x 0).val) % 416
  rw [k0_off11_eq]
  show 16 * t.val + 1 * (x 0).val = _
  omega

/-- ONE STEP of the repack: the check of the load's indices, the load, the check of the store's indices, the store. -/
theorem wp_pair5 {α : Type} (G0 : S416x128.Idx → Elt F .f32) (Sb : S416.Idx → BitVec 32) (hSb : ∀ j : Fin 416, (Sb (ix1 j)).toNat < 4)
    (k0_t1 : Fin k0_t1_loop.trips) (hc : k0_cond5 k0_t1 = 1#1)
    (t : Fin k0_t5_loop.trips) (e : Nat) (he : e < 32)
    {d1 : Decidable (k0_cond5 k0_t1 = 1#1 → ∀ a x, ((![rowsOf (qRow t.val) ioV, colOf (colBase (sub16_5 (F := F) t k0_t1 hc Sb)) (BitVec.ofNat 32 e)] : Fin 2 → IVec S16 32) a x).toNat < S416x128.size a)}
    {d2 : Decidable (k0_cond5 k0_t1 = 1#1 → ∀ a x, ((![srowOf (wflatOf (qRow t.val) ioV) (BitVec.ofNat 32 e), scolOf (wflatOf (qRow t.val) ioV) (BitVec.ofNat 32 e)] : Fin 2 → IVec S16 32) a x).toNat < S416x128.size a)}
    {hl : (g5M).view.Loads} {hs : ((g5M).access (.whole S416x128)).Stores Finset.univ}
    {k : PUnit → Prog (TpuEff nD τ sig (Elt F) Λ₀ (thrL d L).2) α} {Q : α → sProp 𝕄} :
    (((g5M).view.loc (thrL d L) ↦{fullShare} repackAt G0 Sb (16 * t.val) e) : sProp 𝕄)
      ⊢ iprop((((g5M).view.loc (thrL d L) ↦{fullShare} repackAt G0 Sb (16 * t.val) (e + 1))
            -∗ wp frame (wpE (defs₀ (F := F)) 𝒱₀ (thrL d L) none) Set.univ (k ⟨⟩) Q)
          -∗ wp frame (wpE (defs₀ (F := F)) 𝒱₀ (thrL d L) none) Set.univ
              (.op (.assume _ d1) fun w1 =>
                SparseCore.vectorLoadIdx (g5M) ![rowsOf (qRow t.val) ioV, colOf (colBase (sub16_5 (F := F) t k0_t1 hc Sb)) (BitVec.ofNat 32 e)] (w1.down hc) hl >>= fun v =>
                  .op (.assume _ d2) fun w2 =>
                    SparseCore.vectorStoreIdx (g5M) ![srowOf (wflatOf (qRow t.val) ioV) (BitVec.ofNat 32 e), scolOf (wflatOf (qRow t.val) ioV) (BitVec.ofNat 32 e)]
                      v (fun _ => 1#1) false (w2.down hc) hs >>= k) Q) := by
  have ht : t.val < 26 := lt_of_lt_of_le t.isLt k0_t5_abs.2.1
  have hrows := rowsOf_toNat t.val ht iota_S16_d0_w32_scVector
  have hcols : ∀ x : S16.Idx, (colOf (colBase (sub16_5 (F := F) t k0_t1 hc Sb)) (BitVec.ofNat 32 e) x).toNat = (Sb (ix1 (rowAt t.val x))).toNat * 32 + e := fun x => by
    rw [colOf_toNat (sub16_5 (F := F) t k0_t1 hc Sb) e he x (by rw [sub16_5_apply]; exact hSb _), sub16_5_apply]
  have hsrow := srowOf_toNat t.val ht iota_S16_d0_w32_scVector e he
  have hscol := scolOf_toNat t.val ht iota_S16_d0_w32_scVector e he
  have hP1 : ∀ a x, ((![rowsOf (qRow t.val) ioV, colOf (colBase (sub16_5 (F := F) t k0_t1 hc Sb)) (BitVec.ofNat 32 e)] : Fin 2 → IVec S16 32) a x).toNat < S416x128.size a :=
    inb_of_toNat _ _ (fun x => by rw [hrows x]; have : (x 0).val < 16 := (x 0).isLt; omega)
      (fun x => by rw [hcols x]; have := hSb (rowAt t.val x); omega)
  have hP2 : ∀ a x, ((![srowOf (wflatOf (qRow t.val) ioV) (BitVec.ofNat 32 e), scolOf (wflatOf (qRow t.val) ioV) (BitVec.ofNat 32 e)] : Fin 2 → IVec S16 32) a x).toNat < S416x128.size a :=
    inb_of_toNat _ _ (fun x => by rw [hsrow x]; have : (x 0).val < 16 := (x 0).isLt; omega)
      (fun x => by rw [hscol x]; omega)
  iintro HG HK
  rw [wp_assume_of _ _ _ _ (fun _ => hP1)]
  iapply (wp_load5 d L (repackAt G0 Sb (16 * t.val) e)) $$ HG; iintro HG
  rw [wp_assume_of _ _ _ _ (fun _ => hP2)]
  iapply (wp_store5 d L (repackAt G0 Sb (16 * t.val) e)) $$ HG; iintro HG
  rw [storeIdx_repack G0 Sb t.val e ht he hSb _ _ _ _ hrows hcols hsrow hscol]
  iapply HK; iexact HG

end Cert.Proof.KI

end
-- ==== Proof.KIRepack5.lean ====
/-
  The repack loop inside a trip of the main loop, on the first gather buffer with the first quarter buffer: one trip takes the buffer before its first step to the buffer before the next trip's first
  step — the quarters of its sixteen rows loaded, then its 32 steps in order, each the two index checks, the indexed load and
  the indexed store —; the 26 trips take the buffer as gathered to the repacked buffer.
-/
import proofs.«204936_g5145370820905_cont_8to1_c_618_18_alg».proof.Proof.KIRepackWp5

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)
variable [FloatOps F]

local notation "g5M" => (Memref.whole Cert.KernelIdeal.cc0_scratch5 : Memref Cert.KernelIdeal.sig Kind.scVector Space.vmem Cert.KernelIdeal.S416x128 EltTy.f32)
local notation "s1M" => (Memref.whole Cert.KernelIdeal.cc0_scratch1 : Memref Cert.KernelIdeal.sig Kind.scVector Space.vmem Cert.KernelIdeal.S416 EltTy.i32)
local notation "ioV" => (iota Kind.scVector Cert.KernelIdeal.S16 32 [0] Cert.KernelIdeal.Gen.iota_S16_d0_w32_scVector)

set_option hygiene false in
local macro "rp_pair" e:num : tactic => `(tactic| (
  rw [wp_assume_of _ _ _ _ ?_]; swap; exact (fun _ => hP1G $e (by norm_num))
  iapply (wp_load5 d L (repackAt G0 Sb (16 * t.val) $e)) $$ HG; iintro HG
  rw [wp_assume_of _ _ _ _ ?_]; swap; exact (fun _ => hP2G $e (by norm_num))
  iapply (wp_store5 d L (repackAt G0 Sb (16 * t.val) $e)) $$ HG; iintro HG
  rw [storeIdx_repack G0 Sb t.val $e ht (by norm_num) hSb _ _ _ _ ?_ ?_ ?_ ?_]
  on_goal 2 => exact hrowsG
  on_goal 2 => exact (hcolsG $e (by norm_num))
  on_goal 2 => exact (hsrowG $e (by norm_num))
  on_goal 2 => exact (hscolG $e (by norm_num))))

set_option maxHeartbeats 8000000 in
/-- One trip. -/
theorem trip5 (k : Fin k0_t1_loop.trips) (h5 : k0_cond5 k = 1#1) (G0 : S416x128.Idx → Elt F .f32) (Sb : S416.Idx → BitVec 32) (hSb : ∀ j : Fin 416, (Sb (ix1 j)).toNat < 4) (t : Fin k0_t5_loop.trips) :
    (iprop(((g5M).view.loc (thrL d L) ↦{fullShare} repackAt G0 Sb (16 * t.val) 0) ∗ ((s1M).view.loc (thrL d L) ↦{fullShare} Sb)) : sProp 𝕄)
      ⊢ wp frame (wpE (defs₀ (F := F)) 𝒱₀ (thrL d L) none) Set.univ
          (k0_t5_body L (Memref.whole main_v2_scv) (Memref.isWhole_whole _) (Memref.whole main_v8_scv) (Memref.isWhole_whole _) (Memref.whole main_v12_scv) (Memref.isWhole_whole _) (Memref.whole main_v13_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scoped0 k h5 ioV t ⟨⟩)
          fun _ => iprop(((g5M).view.loc (thrL d L) ↦{fullShare} repackAt G0 Sb (16 * (t.val + 1)) 0) ∗ ((s1M).view.loc (thrL d L) ↦{fullShare} Sb)) := by
  have ht : t.val < 26 := lt_of_lt_of_le t.isLt k0_t5_abs.2.1
  iintro ⟨HG, HS⟩
  unfold k0_t5_body
  rw [k0_part9_eq_skeleton]; unfold k0_part9_skel
  simp only [Prog.lift, Prog.bind_op, Prog.bind_ret, Prog.pure_eq_ret, bind_assoc]
  iapply (wp_load 𝒱₀ (thrL d L) none Set.univ (m := (s1M)) (S := Finset.univ) (Finset.subset_univ _)) $$ HS; iintro HS
  -- the sixteen quarters the trip read, as one vector `sv` with `sv x = Sb (row 16 t + x)`
  generalize hsv : View.readAt (Elt F) (s1M).view (Rect.unit (s := S416) (k0_off11 t) S16.size (k0_off11_inb k t h5)).toLoadRect Sb = sv
  have hsub : ∀ x : S16.Idx, sv x = Sb (ix1 (rowAt t.val x)) := fun x => by rw [← hsv]; exact sub16_5_apply (F := F) t k h5 Sb x
  have hrowsG := rowsOf_toNat t.val ht iota_S16_d0_w32_scVector
  have hcolsG : ∀ (e : Nat) (he : e < 32) (x : S16.Idx), (colOf (colBase sv) (BitVec.ofNat 32 e) x).toNat = (Sb (ix1 (rowAt t.val x))).toNat * 32 + e := fun e he x => by
    rw [colOf_toNat sv e he x (by rw [hsub]; exact hSb _), hsub]
  have hsrowG := srowOf_toNat t.val ht iota_S16_d0_w32_scVector
  have hscolG := scolOf_toNat t.val ht iota_S16_d0_w32_scVector
  have hP1G : ∀ (e : Nat) (he : e < 32), ∀ a x, ((![rowsOf (qRow t.val) ioV, colOf (colBase sv) (BitVec.ofNat 32 e)] : Fin 2 → IVec S16 32) a x).toNat < S416x128.size a := fun e he =>
    inb_of_toNat _ _ (fun x => by rw [hrowsG x]; have : (x 0).val < 16 := (x 0).isLt; omega)
      (fun x => by rw [hcolsG e he x]; have := hSb (rowAt t.val x); omega)
  have hP2G : ∀ (e : Nat) (he : e < 32), ∀ a x, ((![srowOf (wflatOf (qRow t.val) ioV) (BitVec.ofNat 32 e), scolOf (wflatOf (qRow t.val) ioV) (BitVec.ofNat 32 e)] : Fin 2 → IVec S16 32) a x).toNat < S416x128.size a := fun e he =>
    inb_of_toNat _ _ (fun x => by rw [hsrowG e he x]; have : (x 0).val < 16 := (x 0).isLt; omega)
      (fun x => by rw [hscolG e he x]; omega)
  rp_pair 0
  rp_pair 1
  rw [k0_part10_eq_skeleton]; unfold k0_part10_skel
  simp only [Prog.lift, Prog.bind_op, Prog.bind_ret, Prog.pure_eq_ret, bind_assoc]
  rp_pair 2
  rp_pair 3
  rp_pair 4
  rp_pair 5
  rw [k0_part11_eq_skeleton]; unfold k0_part11_skel
  simp only [Prog.lift, Prog.bind_op, Prog.bind_ret, Prog.pure_eq_ret, bind_assoc]
  rp_pair 6
  rp_pair 7
  rp_pair 8
  rp_pair 9
  rw [k0_part12_eq_skeleton]; unfold k0_part12_skel
  simp only [Prog.lift, Prog.bind_op, Prog.bind_ret, Prog.pure_eq_ret, bind_assoc]
  rp_pair 10
  rp_pair 11
  rp_pair 12
  rp_pair 13
  rw [k0_part13_eq_skeleton]; unfold k0_part13_skel
  simp only [Prog.lift, Prog.bind_op, Prog.bind_ret, Prog.pure_eq_ret, bind_assoc]
  rp_pair 14
  rp_pair 15
  rp_pair 16
  rp_pair 17
  rw [k0_part14_eq_skeleton]; unfold k0_part14_skel
  simp only [Prog.lift, Prog.bind_op, Prog.bind_ret, Prog.pure_eq_ret, bind_assoc]
  rp_pair 18
  rp_pair 19
  rp_pair 20
  rp_pair 21
  rw [k0_part15_eq_skeleton]; unfold k0_part15_skel
  simp only [Prog.lift, Prog.bind_op, Prog.bind_ret, Prog.pure_eq_ret, bind_assoc]
  rp_pair 22
  rp_pair 23
  rp_pair 24
  rp_pair 25
  rw [k0_part16_eq_skeleton]; unfold k0_part16_skel
  simp only [Prog.lift, Prog.bind_op, Prog.bind_ret, Prog.pure_eq_ret, bind_assoc]
  rp_pair 26
  rp_pair 27
  rp_pair 28
  rp_pair 29
  rp_pair 30
  rp_pair 31
  rw [wp_ret]; imodintro
  rw [repackAt_next, show 16 * t.val + 16 = 16 * (t.val + 1) by omega]
  isplitl [HG]; · iexact HG
  iexact HS

/-- Before trip k the buffer is the one before step 0 of the trip whose first row is 16 k; the quarters are unchanged. -/
def rinv5 (G0 : S416x128.Idx → Elt F .f32) (Sb : S416.Idx → BitVec 32) (k : Nat) (_ : Unit) : sProp 𝕄 :=
  iprop(((g5M).view.loc (thrL d L) ↦{fullShare} repackAt G0 Sb (16 * k) 0) ∗ ((s1M).view.loc (thrL d L) ↦{fullShare} Sb))

theorem trips5 : k0_t5_loop.trips = 26 := by decide

/-- THE REPACK LOOP inside a trip of the main loop, on the first gather buffer with the first quarter buffer. The vector `v62` is the lane numbers 0 .. 15. -/
theorem repack5 (k : Fin k0_t1_loop.trips) (h5 : k0_cond5 k = 1#1) (v62 : IVec S16 32) (G0 : S416x128.Idx → Elt F .f32) (Sb : S416.Idx → BitVec 32) (hSb : ∀ j : Fin 416, (Sb (ix1 j)).toNat < 4)
    (hv : v62 = iota .scVector S16 32 [0] iota_S16_d0_w32_scVector) :
    (iprop(((g5M).view.loc (thrL d L) ↦{fullShare} G0) ∗ ((s1M).view.loc (thrL d L) ↦{fullShare} Sb)) : sProp 𝕄)
      ⊢ wp frame (wpE (defs₀ (F := F)) 𝒱₀ (thrL d L) none) Set.univ
          (Scf.Loop.for k0_t5_loop (k0_t5_ok k h5) ⟨⟩ (k0_t5_body L (Memref.whole main_v2_scv) (Memref.isWhole_whole _) (Memref.whole main_v8_scv) (Memref.isWhole_whole _) (Memref.whole main_v12_scv) (Memref.isWhole_whole _) (Memref.whole main_v13_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scoped0 k h5 v62))
          fun _ => iprop(∃ G1, ⌜Steps.RepackDone G0 G1 Sb⌝ ∗ ((g5M).view.loc (thrL d L) ↦{fullShare} G1) ∗ ((s1M).view.loc (thrL d L) ↦{fullShare} Sb)) := by
  subst hv
  iintro ⟨HG, HS⟩
  sl_for (rinv5 (F := F) d L G0 Sb) $$ [HG HS]
  case region =>
    intro t _
    exact trip5 d L k h5 G0 Sb hSb t
  isplitl [HG HS]
  · unfold rinv5
    rw [Nat.mul_zero, repackAt_zero]
    isplitl [HG]; · iexact HG
    iexact HS
  iintro %_ HInv
  unfold rinv5
  icases HInv with ⟨HG, HS⟩
  iexists repackAt G0 Sb (16 * k0_t5_loop.trips) 0
  isplitr
  · ipureintro
    rw [trips5]
    exact repackAt_done G0 Sb
  isplitl [HG]; · iexact HG
  iexact HS

end Cert.Proof.KI

end
-- ==== Proof.KIRepack6.lean ====
/-
  The repack loop after the main loop, on the second gather buffer with the second quarter buffer: one trip takes the buffer before its first step to the buffer before the next trip's first
  step — the quarters of its sixteen rows loaded, then its 32 steps in order, each the two index checks, the indexed load and
  the indexed store —; the 26 trips take the buffer as gathered to the repacked buffer.
-/
import proofs.«204936_g5145370820905_cont_8to1_c_618_18_alg».proof.Proof.KIRepackWp6

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)
variable [FloatOps F]

local notation "g6M" => (Memref.whole Cert.KernelIdeal.cc0_scratch6 : Memref Cert.KernelIdeal.sig Kind.scVector Space.vmem Cert.KernelIdeal.S416x128 EltTy.f32)
local notation "s2M" => (Memref.whole Cert.KernelIdeal.cc0_scratch2 : Memref Cert.KernelIdeal.sig Kind.scVector Space.vmem Cert.KernelIdeal.S416 EltTy.i32)
local notation "ioV" => (iota Kind.scVector Cert.KernelIdeal.S16 32 [0] Cert.KernelIdeal.Gen.iota_S16_d0_w32_scVector)

set_option hygiene false in
local macro "rp_pair" e:num : tactic => `(tactic| (
  rw [wp_assume_of _ _ _ _ ?_]; swap; exact (hP1G $e (by norm_num))
  iapply (wp_load6 d L (repackAt G0 Sb (16 * t.val) $e)) $$ HG; iintro HG
  rw [wp_assume_of _ _ _ _ ?_]; swap; exact (hP2G $e (by norm_num))
  iapply (wp_store6 d L (repackAt G0 Sb (16 * t.val) $e)) $$ HG; iintro HG
  rw [storeIdx_repack G0 Sb t.val $e ht (by norm_num) hSb _ _ _ _ ?_ ?_ ?_ ?_]
  on_goal 2 => exact hrowsG
  on_goal 2 => exact (hcolsG $e (by norm_num))
  on_goal 2 => exact (hsrowG $e (by norm_num))
  on_goal 2 => exact (hscolG $e (by norm_num))))

set_option maxHeartbeats 8000000 in
/-- One trip. -/
theorem trip6  (G0 : S416x128.Idx → Elt F .f32) (Sb : S416.Idx → BitVec 32) (hSb : ∀ j : Fin 416, (Sb (ix1 j)).toNat < 4) (t : Fin k0_t6_loop.trips) :
    (iprop(((g6M).view.loc (thrL d L) ↦{fullShare} repackAt G0 Sb (16 * t.val) 0) ∗ ((s2M).view.loc (thrL d L) ↦{fullShare} Sb)) : sProp 𝕄)
      ⊢ wp frame (wpE (defs₀ (F := F)) 𝒱₀ (thrL d L) none) Set.univ
          (k0_t6_body L (Memref.whole main_v2_scv) (Memref.isWhole_whole _) (Memref.whole main_v8_scv) (Memref.isWhole_whole _) (Memref.whole main_v12_scv) (Memref.isWhole_whole _) (Memref.whole main_v13_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scoped0 ioV t ⟨⟩)
          fun _ => iprop(((g6M).view.loc (thrL d L) ↦{fullShare} repackAt G0 Sb (16 * (t.val + 1)) 0) ∗ ((s2M).view.loc (thrL d L) ↦{fullShare} Sb)) := by
  have ht : t.val < 26 := lt_of_lt_of_le t.isLt k0_t6_abs.2.1
  iintro ⟨HG, HS⟩
  unfold k0_t6_body
  rw [k0_part18_eq_skeleton]; unfold k0_part18_skel
  simp only [Prog.lift, Prog.bind_op, Prog.bind_ret, Prog.pure_eq_ret, bind_assoc]
  iapply (wp_load 𝒱₀ (thrL d L) none Set.univ (m := (s2M)) (S := Finset.univ) (Finset.subset_univ _)) $$ HS; iintro HS
  -- the sixteen quarters the trip read, as one vector `sv` with `sv x = Sb (row 16 t + x)`
  generalize hsv : View.readAt (Elt F) (s2M).view (Rect.unit (s := S416) (k0_off13 t) S16.size (k0_off13_inb t)).toLoadRect Sb = sv
  have hsub : ∀ x : S16.Idx, sv x = Sb (ix1 (rowAt t.val x)) := fun x => by rw [← hsv]; exact sub16_apply (F := F) t Sb x
  have hrowsG := rowsOf_toNat t.val ht iota_S16_d0_w32_scVector
  have hcolsG : ∀ (e : Nat) (he : e < 32) (x : S16.Idx), (colOf (colBase sv) (BitVec.ofNat 32 e) x).toNat = (Sb (ix1 (rowAt t.val x))).toNat * 32 + e := fun e he x => by
    rw [colOf_toNat sv e he x (by rw [hsub]; exact hSb _), hsub]
  have hsrowG := srowOf_toNat t.val ht iota_S16_d0_w32_scVector
  have hscolG := scolOf_toNat t.val ht iota_S16_d0_w32_scVector
  have hP1G : ∀ (e : Nat) (he : e < 32), ∀ a x, ((![rowsOf (qRow t.val) ioV, colOf (colBase sv) (BitVec.ofNat 32 e)] : Fin 2 → IVec S16 32) a x).toNat < S416x128.size a := fun e he =>
    inb_of_toNat _ _ (fun x => by rw [hrowsG x]; have : (x 0).val < 16 := (x 0).isLt; omega)
      (fun x => by rw [hcolsG e he x]; have := hSb (rowAt t.val x); omega)
  have hP2G : ∀ (e : Nat) (he : e < 32), ∀ a x, ((![srowOf (wflatOf (qRow t.val) ioV) (BitVec.ofNat 32 e), scolOf (wflatOf (qRow t.val) ioV) (BitVec.ofNat 32 e)] : Fin 2 → IVec S16 32) a x).toNat < S416x128.size a := fun e he =>
    inb_of_toNat _ _ (fun x => by rw [hsrowG e he x]; have : (x 0).val < 16 := (x 0).isLt; omega)
      (fun x => by rw [hscolG e he x]; omega)
  rp_pair 0
  rp_pair 1
  rw [k0_part19_eq_skeleton]; unfold k0_part19_skel
  simp only [Prog.lift, Prog.bind_op, Prog.bind_ret, Prog.pure_eq_ret, bind_assoc]
  rp_pair 2
  rp_pair 3
  rp_pair 4
  rp_pair 5
  rw [k0_part20_eq_skeleton]; unfold k0_part20_skel
  simp only [Prog.lift, Prog.bind_op, Prog.bind_ret, Prog.pure_eq_ret, bind_assoc]
  rp_pair 6
  rp_pair 7
  rp_pair 8
  rp_pair 9
  rw [k0_part21_eq_skeleton]; unfold k0_part21_skel
  simp only [Prog.lift, Prog.bind_op, Prog.bind_ret, Prog.pure_eq_ret, bind_assoc]
  rp_pair 10
  rp_pair 11
  rp_pair 12
  rp_pair 13
  rw [k0_part22_eq_skeleton]; unfold k0_part22_skel
  simp only [Prog.lift, Prog.bind_op, Prog.bind_ret, Prog.pure_eq_ret, bind_assoc]
  rp_pair 14
  rp_pair 15
  rp_pair 16
  rp_pair 17
  rw [k0_part23_eq_skeleton]; unfold k0_part23_skel
  simp only [Prog.lift, Prog.bind_op, Prog.bind_ret, Prog.pure_eq_ret, bind_assoc]
  rp_pair 18
  rp_pair 19
  rp_pair 20
  rp_pair 21
  rw [k0_part24_eq_skeleton]; unfold k0_part24_skel
  simp only [Prog.lift, Prog.bind_op, Prog.bind_ret, Prog.pure_eq_ret, bind_assoc]
  rp_pair 22
  rp_pair 23
  rp_pair 24
  rp_pair 25
  rw [k0_part25_eq_skeleton]; unfold k0_part25_skel
  simp only [Prog.lift, Prog.bind_op, Prog.bind_ret, Prog.pure_eq_ret, bind_assoc]
  rp_pair 26
  rp_pair 27
  rp_pair 28
  rp_pair 29
  rp_pair 30
  rp_pair 31
  rw [wp_ret]; imodintro
  rw [repackAt_next, show 16 * t.val + 16 = 16 * (t.val + 1) by omega]
  isplitl [HG]; · iexact HG
  iexact HS

/-- Before trip k the buffer is the one before step 0 of the trip whose first row is 16 k; the quarters are unchanged. -/
def rinv6 (G0 : S416x128.Idx → Elt F .f32) (Sb : S416.Idx → BitVec 32) (k : Nat) (_ : Unit) : sProp 𝕄 :=
  iprop(((g6M).view.loc (thrL d L) ↦{fullShare} repackAt G0 Sb (16 * k) 0) ∗ ((s2M).view.loc (thrL d L) ↦{fullShare} Sb))

theorem trips6 : k0_t6_loop.trips = 26 := by decide

/-- THE REPACK LOOP after the main loop, on the second gather buffer with the second quarter buffer. The vector `v12` is the lane numbers 0 .. 15. -/
theorem repack6 (v12 : IVec S16 32) (G0 : S416x128.Idx → Elt F .f32) (Sb : S416.Idx → BitVec 32) (hSb : ∀ j : Fin 416, (Sb (ix1 j)).toNat < 4)
    (hv : v12 = iota .scVector S16 32 [0] iota_S16_d0_w32_scVector) :
    (iprop(((g6M).view.loc (thrL d L) ↦{fullShare} G0) ∗ ((s2M).view.loc (thrL d L) ↦{fullShare} Sb)) : sProp 𝕄)
      ⊢ wp frame (wpE (defs₀ (F := F)) 𝒱₀ (thrL d L) none) Set.univ
          (Scf.Loop.for k0_t6_loop (k0_t6_ok) ⟨⟩ (k0_t6_body L (Memref.whole main_v2_scv) (Memref.isWhole_whole _) (Memref.whole main_v8_scv) (Memref.isWhole_whole _) (Memref.whole main_v12_scv) (Memref.isWhole_whole _) (Memref.whole main_v13_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scoped0 v12))
          fun _ => iprop(∃ G1, ⌜Steps.RepackDone G0 G1 Sb⌝ ∗ ((g6M).view.loc (thrL d L) ↦{fullShare} G1) ∗ ((s2M).view.loc (thrL d L) ↦{fullShare} Sb)) := by
  subst hv
  iintro ⟨HG, HS⟩
  sl_for (rinv6 (F := F) d L G0 Sb) $$ [HG HS]
  case region =>
    intro k _
    exact trip6 d L  G0 Sb hSb k
  isplitl [HG HS]
  · unfold rinv6
    rw [Nat.mul_zero, repackAt_zero]
    isplitl [HG]; · iexact HG
    iexact HS
  iintro %_ HInv
  unfold rinv6
  icases HInv with ⟨HG, HS⟩
  iexists repackAt G0 Sb (16 * k0_t6_loop.trips) 0
  isplitr
  · ipureintro
    rw [trips6]
    exact repackAt_done G0 Sb
  isplitl [HG]; · iexact HG
  iexact HS

end Cert.Proof.KI

end
-- ==== Proof.KIInner.lean ====
/-
  The three repack loops of the tile's body, and the rule that runs a program whose triple is known at the head of a
  longer one.
-/
import proofs.«204936_g5145370820905_cont_8to1_c_618_18_alg».proof.Proof.KIRepack3
import proofs.«204936_g5145370820905_cont_8to1_c_618_18_alg».proof.Proof.KIRepack5
import proofs.«204936_g5145370820905_cont_8to1_c_618_18_alg».proof.Proof.KIRepack6

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
-- the kernel's memrefs, spelt as the body table passes them
local notation "idxW" => (Memref.whole Cert.KernelIdeal.main_v2_scv : Memref Cert.KernelIdeal.sig Kind.scVector Space.hbm Cert.KernelIdeal.S2129920 EltTy.i32)
local notation "offW" => (Memref.whole Cert.KernelIdeal.main_v8_scv : Memref Cert.KernelIdeal.sig Kind.scVector Space.hbm Cert.KernelIdeal.S416 EltTy.i32)
local notation "tabW" => (Memref.whole Cert.KernelIdeal.main_v12_scv : Memref Cert.KernelIdeal.sig Kind.scVector Space.hbm Cert.KernelIdeal.S650007x128 EltTy.f32)
local notation "outW" => (Memref.whole Cert.KernelIdeal.main_v13_scv : Memref Cert.KernelIdeal.sig Kind.scVector Space.hbm Cert.KernelIdeal.S532480x128 EltTy.f32)
local notation "s0W" => (Memref.whole Cert.KernelIdeal.cc0_scratch0 : Memref Cert.KernelIdeal.sig Kind.scVector Space.vmem Cert.KernelIdeal.S416 EltTy.i32)
local notation "s1W" => (Memref.whole Cert.KernelIdeal.cc0_scratch1 : Memref Cert.KernelIdeal.sig Kind.scVector Space.vmem Cert.KernelIdeal.S416 EltTy.i32)
local notation "s2W" => (Memref.whole Cert.KernelIdeal.cc0_scratch2 : Memref Cert.KernelIdeal.sig Kind.scVector Space.vmem Cert.KernelIdeal.S416 EltTy.i32)
local notation "s3W" => (Memref.whole Cert.KernelIdeal.cc0_scratch3 : Memref Cert.KernelIdeal.sig Kind.scVector Space.vmem Cert.KernelIdeal.S416 EltTy.i32)
local notation "s4W" => (Memref.whole Cert.KernelIdeal.cc0_scratch4 : Memref Cert.KernelIdeal.sig Kind.scVector Space.vmem Cert.KernelIdeal.S416 EltTy.i32)
local notation "s5W" => (Memref.whole Cert.KernelIdeal.cc0_scratch5 : Memref Cert.KernelIdeal.sig Kind.scVector Space.vmem Cert.KernelIdeal.S416x128 EltTy.f32)
local notation "s6W" => (Memref.whole Cert.KernelIdeal.cc0_scratch6 : Memref Cert.KernelIdeal.sig Kind.scVector Space.vmem Cert.KernelIdeal.S416x128 EltTy.f32)

variable (m : (ℓ : Loc nD τ sig) → Buf (Elt F) ℓ)
variable (d : Dev nD) (L : grid0.Coords)
variable [FloatOps F]

/-- Run a program whose triple is known at the head of a longer one. -/
theorem wp_head {α β : Type} {thr : Thread nD τ} {p : Prog (TpuEff nD τ sig (Elt F) Λ₀ thr.2) α} {k : α → Prog (TpuEff nD τ sig (Elt F) Λ₀ thr.2) β}
    {P : sProp 𝕄} {Q : α → sProp 𝕄} {Q' : β → sProp 𝕄}
    (h : P ⊢ wp frame (wpE (defs₀ (F := F)) 𝒱₀ thr none) Set.univ p Q) :
    P ⊢ iprop((∀ a, Q a -∗ wp frame (wpE (defs₀ (F := F)) 𝒱₀ thr none) Set.univ (k a) Q')
      -∗ wp frame (wpE (defs₀ (F := F)) 𝒱₀ thr none) Set.univ (p >>= k) Q') := by
  rw [wp_bind]
  iintro HP HK
  iapply (wp_wand_r frame (wpE (defs₀ (F := F)) 𝒱₀ thr none) Set.univ)
  isplitl [HP]
  · iapply h; iexact HP
  · iexact HK

end Cert.Proof.KI

end
-- ==== Proof.KIOffsetStep.lean ====
/-
  The offset step of a chunk, one trip at a time.

  A trip of the offset loop reads lanes 16 k .. 16 k + 15 of the index buffer and of the offsets, adds them, and stores
  the sum's low two bits (the quarter) in the second buffer and the sum shifted right by two (the group number) back in
  place of the entries it read. Trips touch disjoint slices, so after k trips the entries below 16 k are done and the
  entries from 16 k on are as they were at entry: that is `OffsetUpTo`, which is the empty claim about the index buffer's
  change at k = 0 and `Steps.OffsetDone` at k = 26. This module has the arithmetic of one trip (`offsetUpTo_step`), what a
  buffer reads after one store of sixteen lanes, and the two stored vectors at a lane.
-/
import proofs.«204936_g5145370820905_cont_8to1_c_618_18_alg».proof.Proof.KITile
import proofs.«204936_g5145370820905_cont_8to1_c_618_18_alg».proof.Proof.KISteps

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## What a buffer of 416 words reads after a store of sixteen lanes, through any view of it -/

section Lanes

variable {sig' : RefSig} {κ : Kind} {sp : Space} {Val : EltTy → Type} (v : View sig' κ sp S416 .i32) (f : v.ty.Contents Val)
variable (off : Fin 1 → Nat) (inb : ∀ a, off a + S16.size a ≤ S416.size a)

/-- Lane i of the slice at `off` is entry `off 0 + i`. -/
theorem lane_emb (i : Fin 16) (j : Fin 416) (hj : j.val = off 0 + i.val) :
    (ix1 j : S416.Idx) = (Rect.unit (s := S416) off S16.size inb).emb (ix1 i) := by
  funext a
  obtain rfl : a = 0 := Subsingleton.elim _ _
  apply Fin.ext
  rw [Rect.emb_apply]
  show j.val = off 0 + 1 * i.val
  omega

/-- An entry under the store reads the stored lane; -/
theorem read_store16_in (w : (Rect.unit (s := S416) off S16.size inb).shape.Idx → Val .i32) (i : Fin 16) (j : Fin 416)
    (hj : j.val = off 0 + i.val) :
    v.read Val (v.writes Val f [⟨Rect.unit (s := S416) off S16.size inb, w⟩]) (ix1 j) = w (ix1 i) := by
  rw [lane_emb off inb i j hj]
  exact View.read_writes_cons_emb v f _ w [] (ix1 i)

/-- an entry outside it reads what it held. -/
theorem read_store16_out (w : (Rect.unit (s := S416) off S16.size inb).shape.Idx → Val .i32) (j : Fin 416)
    (hj : j.val < off 0 ∨ off 0 + 16 ≤ j.val) :
    v.read Val (v.writes Val f [⟨Rect.unit (s := S416) off S16.size inb, w⟩]) (ix1 j) = v.read Val f (ix1 j) := by
  refine View.read_writes_apply_of_forall_not_mem v f (ix1 j) _ fun p hp => ?_
  obtain rfl := List.mem_singleton.mp hp
  rw [Rect.mem_set_unit]
  intro h
  have h0 := h 0
  have e : ((ix1 j : S416.Idx) 0 : Nat) = j.val := rfl
  have s : S16.size 0 = 16 := rfl
  omega

/-- A load of sixteen lanes at `off` reads entry `off 0 + i` in lane i. -/
theorem load16_apply (i : Fin 16) (j : Fin 416) (hj : j.val = off 0 + i.val) :
    v.readAt Val (Rect.unit (s := S416) off S16.size inb).toLoadRect f (ix1 i) = v.read Val f (ix1 j) := by
  rw [View.readAt_apply, lane_emb off inb i j hj]
  rfl

end Lanes

/-! ## The stored vectors at a lane -/

theorem pay256_apply (a b : Vec F S16 .i32) (i : S16.Idx) : k0_pay256 a b i = (a i + b i) &&& 3#32 := rfl
theorem pay257_apply (a b : Vec F S16 .i32) (i : S16.Idx) : k0_pay257 a b i = (a i + b i) >>> 2 := rfl
theorem pay263_apply (a b : Vec F S16 .i32) (i : S16.Idx) : k0_pay263 a b i = (a i + b i) &&& 3#32 := rfl
theorem pay264_apply (a b : Vec F S16 .i32) (i : S16.Idx) : k0_pay264 a b i = (a i + b i) >>> 2 := rfl

/-! ## The loop's invariant as a pure relation, and one trip of it -/

/-- After k trips: entries below 16 k are done, entries from 16 k on are as at entry. -/
def OffsetUpTo (I0 Of I1 S1 : Steps.S416.Idx → BitVec 32) (k : Nat) : Prop :=
  ∀ j : Fin 416, (j.val < 16 * k → I1 (ix1 j) = (I0 (ix1 j) + Of (ix1 j)) >>> 2 ∧ S1 (ix1 j) = (I0 (ix1 j) + Of (ix1 j)) &&& 3#32)
    ∧ (16 * k ≤ j.val → I1 (ix1 j) = I0 (ix1 j))

theorem offsetUpTo_zero (I0 Of S0 : Steps.S416.Idx → BitVec 32) : OffsetUpTo I0 Of I0 S0 0 :=
  fun j => ⟨fun h => absurd h (by omega), fun _ => rfl⟩

theorem offsetDone_of_upTo {I0 Of I1 S1 : Steps.S416.Idx → BitVec 32} (h : OffsetUpTo I0 Of I1 S1 26) : Steps.OffsetDone I0 Of I1 S1 :=
  fun j => (h j).1 (by have := j.isLt; omega)

/-- One trip: the slice 16 k .. 16 k + 15 of both buffers is rewritten from the entries it held, the rest is kept. -/
theorem offsetUpTo_step {I0 Of I1 S1 I1' S1' : Steps.S416.Idx → BitVec 32} {k : Nat}
    (hk : OffsetUpTo I0 Of I1 S1 k)
    (hIin : ∀ j : Fin 416, 16 * k ≤ j.val → j.val < 16 * k + 16 → I1' (ix1 j) = (I1 (ix1 j) + Of (ix1 j)) >>> 2)
    (hSin : ∀ j : Fin 416, 16 * k ≤ j.val → j.val < 16 * k + 16 → S1' (ix1 j) = (I1 (ix1 j) + Of (ix1 j)) &&& 3#32)
    (hIout : ∀ j : Fin 416, (j.val < 16 * k ∨ 16 * k + 16 ≤ j.val) → I1' (ix1 j) = I1 (ix1 j))
    (hSout : ∀ j : Fin 416, (j.val < 16 * k ∨ 16 * k + 16 ≤ j.val) → S1' (ix1 j) = S1 (ix1 j)) :
    OffsetUpTo I0 Of I1' S1' (k + 1) := by
  intro j
  refine ⟨fun hj => ?_, fun hj => ?_⟩
  · by_cases hlt : j.val < 16 * k
    · rw [hIout j (.inl hlt), hSout j (.inl hlt)]
      exact (hk j).1 hlt
    · have hge : 16 * k ≤ j.val := by omega
      rw [hIin j hge (by omega), hSin j hge (by omega), (hk j).2 hge]
      exact ⟨rfl, rfl⟩
  · rw [hIout j (.inr (by omega))]
    exact (hk j).2 (by omega)

end Cert.Proof.KI

end
-- ==== Proof.KIOffset2.lean ====
/-
  The offset loop of a chunk on the first index buffer: 26 trips of sixteen lanes, each adding the offsets to its slice of
  the index entries, storing the sums' quarters in the first quarter buffer and the group numbers back in place.
  The invariant holds the three buffers at some contents related to the entry contents by `OffsetUpTo`.
-/
import proofs.«204936_g5145370820905_cont_8to1_c_618_18_alg».proof.Proof.KIOffsetStep

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "s0W" => (Memref.whole Cert.KernelIdeal.cc0_scratch0 : Memref Cert.KernelIdeal.sig Kind.scVector Space.vmem Cert.KernelIdeal.S416 EltTy.i32)

variable (d : Dev nD) (L : grid0.Coords)
variable [FloatOps F]

local notation "idxM" => (Memref.whole Cert.KernelIdeal.cc0_scratch3 : Memref Cert.KernelIdeal.sig Kind.scVector Space.vmem Cert.KernelIdeal.S416 EltTy.i32)
local notation "subM" => (Memref.whole Cert.KernelIdeal.cc0_scratch1 : Memref Cert.KernelIdeal.sig Kind.scVector Space.vmem Cert.KernelIdeal.S416 EltTy.i32)

/-- Before trip k: the index buffer and the quarter buffer at contents done below 16 k and, for the index buffer, untouched
    from 16 k on; the offsets as they were. -/
def offInv2 (I0 : Buf (Elt F) ((thrL d L).loc cc0_scratch3)) (Of : Buf (Elt F) ((thrL d L).loc cc0_scratch0)) (k : Nat) (_ : Unit) : sProp 𝕄 :=
  iprop(∃ (I1 : Buf (Elt F) ((thrL d L).loc cc0_scratch3)) (S1 : Buf (Elt F) ((thrL d L).loc cc0_scratch1)), ⌜OffsetUpTo I0 Of I1 S1 k⌝
    ∗ ((idxM).view.loc (thrL d L) ↦{fullShare} I1) ∗ ((s0W).view.loc (thrL d L) ↦{fullShare} Of) ∗ ((subM).view.loc (thrL d L) ↦{fullShare} S1))

/-- The offset loop on the first buffers: afterwards the index buffer holds the group numbers and the quarter buffer the
    quarters of the entries plus offsets; the offsets are unchanged. -/
theorem offset2 (v29_r0 : DmaSems sig S_) (v2 v3 c0 c1 : BitVec 32) (k0_t1 : Fin k0_t1_loop.trips)
    (I0 : Buf (Elt F) ((thrL d L).loc cc0_scratch3)) (Of : Buf (Elt F) ((thrL d L).loc cc0_scratch0)) (S0 : Buf (Elt F) ((thrL d L).loc cc0_scratch1)) :
    (iprop(((idxM).view.loc (thrL d L) ↦{fullShare} I0) ∗ ((s0W).view.loc (thrL d L) ↦{fullShare} Of) ∗ ((subM).view.loc (thrL d L) ↦{fullShare} S0)) : sProp 𝕄)
      ⊢ wp frame (wpE (defs₀ (F := F)) 𝒱₀ (thrL d L) none) Set.univ
          (Scf.Loop.for k0_t2_loop k0_t2_ok ⟨⟩ (k0_t2_body L (Memref.whole main_v2_scv) (Memref.isWhole_whole _) (Memref.whole main_v8_scv) (Memref.isWhole_whole _) (Memref.whole main_v12_scv) (Memref.isWhole_whole _) (Memref.whole main_v13_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 v29_r0 v2 v3 c0 c1 k0_t1))
          fun _ => iprop(∃ (I1 : Buf (Elt F) ((thrL d L).loc cc0_scratch3)) (S1 : Buf (Elt F) ((thrL d L).loc cc0_scratch1)), ⌜Steps.OffsetDone I0 Of I1 S1⌝
            ∗ ((idxM).view.loc (thrL d L) ↦{fullShare} I1) ∗ ((s0W).view.loc (thrL d L) ↦{fullShare} Of) ∗ ((subM).view.loc (thrL d L) ↦{fullShare} S1)) := by
  iintro ⟨HI, HO, HS⟩
  sl_for (offInv2 (F := F) d L I0 Of) $$ [HI HO HS]
  case region =>
    intro k _
    unfold offInv2
    iintro ⟨%I1, %S1, %hk, HI, HO, HS⟩
    -- the trip's two loads, the dead load of the quarter slice, and its two stores
    sl_exec
    sl_step
    iexists _, _
    isplitr
    rotate_left
    · isplitl [HI]; · iexact HI
      isplitl [HO]; · iexact HO
      iexact HS
    ipureintro
    -- the slice's first entry is 16 k
    have hoff : k0_off4 k 0 = 16 * k.val := congrFun (k0_off4_eq k) 0
    have hlt : k.val < 26 := k.isLt
    refine offsetUpTo_step hk (fun j h1 h2 => ?_) (fun j h1 h2 => ?_) (fun j hj => ?_) (fun j hj => ?_)
    · have e : j.val = k0_off4 k 0 + (⟨j.val - 16 * k.val, by omega⟩ : Fin 16).val := by rw [hoff]; show j.val = 16 * k.val + (j.val - 16 * k.val); omega
      refine (read_store16_in (idxM).view I1 _ (k0_off4_inb k) _ _ j e).trans ?_
      rw [pay257_apply, load16_apply (idxM).view I1 _ (k0_off4_inb k) _ j e, load16_apply (s0W).view Of _ (k0_off4_inb k) _ j e]
      rfl
    · have e : j.val = k0_off4 k 0 + (⟨j.val - 16 * k.val, by omega⟩ : Fin 16).val := by rw [hoff]; show j.val = 16 * k.val + (j.val - 16 * k.val); omega
      refine (read_store16_in (subM).view S1 _ (k0_off4_inb k) _ _ j e).trans ?_
      rw [pay256_apply, load16_apply (idxM).view I1 _ (k0_off4_inb k) _ j e, load16_apply (s0W).view Of _ (k0_off4_inb k) _ j e]
      rfl
    · exact read_store16_out (idxM).view I1 _ (k0_off4_inb k) _ j (by rw [hoff]; exact hj)
    · exact read_store16_out (subM).view S1 _ (k0_off4_inb k) _ j (by rw [hoff]; exact hj)
  -- entry: nothing done yet; exit: all 26 slices done
  isplitl [HI HO HS]
  · unfold offInv2
    iexists I0, S0
    isplitr; · ipureintro; exact offsetUpTo_zero I0 Of S0
    isplitl [HI]; · iexact HI
    isplitl [HO]; · iexact HO
    iexact HS
  iintro %_ HInv
  unfold offInv2
  icases HInv with ⟨%I1, %S1, %hk, HI, HO, HS⟩
  iexists I1, S1
  isplitr; · ipureintro; exact offsetDone_of_upTo hk
  isplitl [HI]; · iexact HI
  isplitl [HO]; · iexact HO
  iexact HS

end Cert.Proof.KI

end
-- ==== Proof.KIOffset4.lean ====
/-
  The offset loop of a chunk on the second index buffer: 26 trips of sixteen lanes, each adding the offsets to its slice of
  the index entries, storing the sums' quarters in the second quarter buffer and the group numbers back in place.
  The invariant holds the three buffers at some contents related to the entry contents by `OffsetUpTo`.
-/
import proofs.«204936_g5145370820905_cont_8to1_c_618_18_alg».proof.Proof.KIOffsetStep

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "s0W" => (Memref.whole Cert.KernelIdeal.cc0_scratch0 : Memref Cert.KernelIdeal.sig Kind.scVector Space.vmem Cert.KernelIdeal.S416 EltTy.i32)

variable (d : Dev nD) (L : grid0.Coords)
variable [FloatOps F]

local notation "idxM" => (Memref.whole Cert.KernelIdeal.cc0_scratch4 : Memref Cert.KernelIdeal.sig Kind.scVector Space.vmem Cert.KernelIdeal.S416 EltTy.i32)
local notation "subM" => (Memref.whole Cert.KernelIdeal.cc0_scratch2 : Memref Cert.KernelIdeal.sig Kind.scVector Space.vmem Cert.KernelIdeal.S416 EltTy.i32)

/-- Before trip k: the index buffer and the quarter buffer at contents done below 16 k and, for the index buffer, untouched
    from 16 k on; the offsets as they were. -/
def offInv4 (I0 : Buf (Elt F) ((thrL d L).loc cc0_scratch4)) (Of : Buf (Elt F) ((thrL d L).loc cc0_scratch0)) (k : Nat) (_ : Unit) : sProp 𝕄 :=
  iprop(∃ (I1 : Buf (Elt F) ((thrL d L).loc cc0_scratch4)) (S1 : Buf (Elt F) ((thrL d L).loc cc0_scratch2)), ⌜OffsetUpTo I0 Of I1 S1 k⌝
    ∗ ((idxM).view.loc (thrL d L) ↦{fullShare} I1) ∗ ((s0W).view.loc (thrL d L) ↦{fullShare} Of) ∗ ((subM).view.loc (thrL d L) ↦{fullShare} S1))

/-- The offset loop on the second buffers: afterwards the index buffer holds the group numbers and the quarter buffer the
    quarters of the entries plus offsets; the offsets are unchanged. -/
theorem offset4 (v29_r0 : DmaSems sig S_) (v2 v3 c0 c1 : BitVec 32) (k0_t1 : Fin k0_t1_loop.trips)
    (I0 : Buf (Elt F) ((thrL d L).loc cc0_scratch4)) (Of : Buf (Elt F) ((thrL d L).loc cc0_scratch0)) (S0 : Buf (Elt F) ((thrL d L).loc cc0_scratch2)) :
    (iprop(((idxM).view.loc (thrL d L) ↦{fullShare} I0) ∗ ((s0W).view.loc (thrL d L) ↦{fullShare} Of) ∗ ((subM).view.loc (thrL d L) ↦{fullShare} S0)) : sProp 𝕄)
      ⊢ wp frame (wpE (defs₀ (F := F)) 𝒱₀ (thrL d L) none) Set.univ
          (Scf.Loop.for k0_t4_loop k0_t4_ok ⟨⟩ (k0_t4_body L (Memref.whole main_v2_scv) (Memref.isWhole_whole _) (Memref.whole main_v8_scv) (Memref.isWhole_whole _) (Memref.whole main_v12_scv) (Memref.isWhole_whole _) (Memref.whole main_v13_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 v29_r0 v2 v3 c0 c1 k0_t1))
          fun _ => iprop(∃ (I1 : Buf (Elt F) ((thrL d L).loc cc0_scratch4)) (S1 : Buf (Elt F) ((thrL d L).loc cc0_scratch2)), ⌜Steps.OffsetDone I0 Of I1 S1⌝
            ∗ ((idxM).view.loc (thrL d L) ↦{fullShare} I1) ∗ ((s0W).view.loc (thrL d L) ↦{fullShare} Of) ∗ ((subM).view.loc (thrL d L) ↦{fullShare} S1)) := by
  iintro ⟨HI, HO, HS⟩
  sl_for (offInv4 (F := F) d L I0 Of) $$ [HI HO HS]
  case region =>
    intro k _
    unfold offInv4
    iintro ⟨%I1, %S1, %hk, HI, HO, HS⟩
    -- the trip's two loads, the dead load of the quarter slice, and its two stores
    sl_exec
    sl_step
    iexists _, _
    isplitr
    rotate_left
    · isplitl [HI]; · iexact HI
      isplitl [HO]; · iexact HO
      iexact HS
    ipureintro
    -- the slice's first entry is 16 k
    have hoff : k0_off9 k 0 = 16 * k.val := congrFun (k0_off9_eq k) 0
    have hlt : k.val < 26 := k.isLt
    refine offsetUpTo_step hk (fun j h1 h2 => ?_) (fun j h1 h2 => ?_) (fun j hj => ?_) (fun j hj => ?_)
    · have e : j.val = k0_off9 k 0 + (⟨j.val - 16 * k.val, by omega⟩ : Fin 16).val := by rw [hoff]; show j.val = 16 * k.val + (j.val - 16 * k.val); omega
      refine (read_store16_in (idxM).view I1 _ (k0_off9_inb k) _ _ j e).trans ?_
      rw [pay264_apply, load16_apply (idxM).view I1 _ (k0_off9_inb k) _ j e, load16_apply (s0W).view Of _ (k0_off9_inb k) _ j e]
      rfl
    · have e : j.val = k0_off9 k 0 + (⟨j.val - 16 * k.val, by omega⟩ : Fin 16).val := by rw [hoff]; show j.val = 16 * k.val + (j.val - 16 * k.val); omega
      refine (read_store16_in (subM).view S1 _ (k0_off9_inb k) _ _ j e).trans ?_
      rw [pay263_apply, load16_apply (idxM).view I1 _ (k0_off9_inb k) _ j e, load16_apply (s0W).view Of _ (k0_off9_inb k) _ j e]
      rfl
    · exact read_store16_out (idxM).view I1 _ (k0_off9_inb k) _ j (by rw [hoff]; exact hj)
    · exact read_store16_out (subM).view S1 _ (k0_off9_inb k) _ j (by rw [hoff]; exact hj)
  -- entry: nothing done yet; exit: all 26 slices done
  isplitl [HI HO HS]
  · unfold offInv4
    iexists I0, S0
    isplitr; · ipureintro; exact offsetUpTo_zero I0 Of S0
    isplitl [HI]; · iexact HI
    isplitl [HO]; · iexact HO
    iexact HS
  iintro %_ HInv
  unfold offInv4
  icases HInv with ⟨%I1, %S1, %hk, HI, HO, HS⟩
  iexists I1, S1
  isplitr; · ipureintro; exact offsetDone_of_upTo hk
  isplitl [HI]; · iexact HI
  isplitl [HO]; · iexact HO
  iexact HS

end Cert.Proof.KI

end
-- ==== Proof.KIBodyTrip0.lean ====
/-
  Trip 0 of the main loop: chunks 0 and 1 of the tile.

  Before the trip only the index loads of chunks 0 and 1 are in flight. The even step waits for chunk 0's entries, turns
  them into group numbers and quarters (the offset step) and starts the gather of chunk 0's groups; there is no earlier
  chunk to write or repack. The odd step does the same for chunk 1, then waits for chunk 0's groups, starts the index
  load of chunk 2 into the buffer chunk 0's list has just left, repacks chunk 0's groups in place and starts writing
  rows 0 .. 103 of the repacked buffer to chunk 0's block of the result. What is left is the state before trip 1: the
  index load of chunk 2, the write-out of chunk 0 and the gather of chunk 1 in flight, everything else idle, no block of
  the result written yet.

  The two facts the state after the trip records are values: the gather of chunk 1 holds the table groups its list
  names (what a gather of whole groups delivers, read at a row and a word), and the block being written is the result's
  block of chunk 0 (entries, offset step, gathered groups and repack composed: the chunk's value).
-/
import proofs.«204936_g5145370820905_cont_8to1_c_618_18_alg».proof.Proof.KIBodyInv
import proofs.«204936_g5145370820905_cont_8to1_c_618_18_alg».proof.Proof.KIInner
import proofs.«204936_g5145370820905_cont_8to1_c_618_18_alg».proof.Proof.KIOffset2
import proofs.«204936_g5145370820905_cont_8to1_c_618_18_alg».proof.Proof.KIOffset4
import proofs.«204936_g5145370820905_cont_8to1_c_618_18_alg».proof.Proof.KIBodyLibGeomOut
import proofs.«204936_g5145370820905_cont_8to1_c_618_18_alg».proof.Proof.KIBodyLibGeomIdx
import proofs.«204936_g5145370820905_cont_8to1_c_618_18_alg».proof.Proof.KIBodyLibValue

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
-- the kernel's memrefs, spelt as the body table passes them
local notation "idxW" => (Memref.whole Cert.KernelIdeal.main_v2_scv : Memref Cert.KernelIdeal.sig Kind.scVector Space.hbm Cert.KernelIdeal.S2129920 EltTy.i32)
local notation "offW" => (Memref.whole Cert.KernelIdeal.main_v8_scv : Memref Cert.KernelIdeal.sig Kind.scVector Space.hbm Cert.KernelIdeal.S416 EltTy.i32)
local notation "tabW" => (Memref.whole Cert.KernelIdeal.main_v12_scv : Memref Cert.KernelIdeal.sig Kind.scVector Space.hbm Cert.KernelIdeal.S650007x128 EltTy.f32)
local notation "outW" => (Memref.whole Cert.KernelIdeal.main_v13_scv : Memref Cert.KernelIdeal.sig Kind.scVector Space.hbm Cert.KernelIdeal.S532480x128 EltTy.f32)
local notation "s0W" => (Memref.whole Cert.KernelIdeal.cc0_scratch0 : Memref Cert.KernelIdeal.sig Kind.scVector Space.vmem Cert.KernelIdeal.S416 EltTy.i32)
local notation "s1W" => (Memref.whole Cert.KernelIdeal.cc0_scratch1 : Memref Cert.KernelIdeal.sig Kind.scVector Space.vmem Cert.KernelIdeal.S416 EltTy.i32)
local notation "s2W" => (Memref.whole Cert.KernelIdeal.cc0_scratch2 : Memref Cert.KernelIdeal.sig Kind.scVector Space.vmem Cert.KernelIdeal.S416 EltTy.i32)
local notation "s3W" => (Memref.whole Cert.KernelIdeal.cc0_scratch3 : Memref Cert.KernelIdeal.sig Kind.scVector Space.vmem Cert.KernelIdeal.S416 EltTy.i32)
local notation "s4W" => (Memref.whole Cert.KernelIdeal.cc0_scratch4 : Memref Cert.KernelIdeal.sig Kind.scVector Space.vmem Cert.KernelIdeal.S416 EltTy.i32)
local notation "s5W" => (Memref.whole Cert.KernelIdeal.cc0_scratch5 : Memref Cert.KernelIdeal.sig Kind.scVector Space.vmem Cert.KernelIdeal.S416x128 EltTy.f32)
local notation "s6W" => (Memref.whole Cert.KernelIdeal.cc0_scratch6 : Memref Cert.KernelIdeal.sig Kind.scVector Space.vmem Cert.KernelIdeal.S416x128 EltTy.f32)

variable (m : (ℓ : Loc nD τ sig) → Buf (Elt F) ℓ)
variable (d : Dev nD) (L : grid0.Coords)
variable [FloatOps F]

/-- Entry j of chunk g, as the index load delivers it, is the index list's entry at the chunk's place. -/
private theorem chunkEnts_apply (g : Fin 160) (j : Fin 416) :
    chunkEnts m d L g (ix1 j) = idxArr m d (ix1 (chunkPos (widL L) g j)) := by
  unfold chunkEnts
  refine (read_slice_idx (Vpre m d idx') (idxOff_inb L g) (p := (widL L).val * 66560 + 416 * g.val) rfl j).trans ?_
  rfl

omit [FloatOps F] in
/-- Chunk 0's block of the result, as trip 0's write-out addresses it. -/
private theorem pts_out_blk0 (k : Fin k0_t1_loop.trips) (hk : k.val = 0) (h : ∀ a, (k0_off12 L k) a + S104x128.size a ≤ S532480x128.size a)
    (f : Buf (Elt F) (outLoc d)) :
    (((outW).slice (Rect.unit (s := S532480x128) (k0_off12 L k) S104x128.size h) (fun _ => rfl)).view.loc (thrL d L)
        ↦[((outW).slice (Rect.unit (s := S532480x128) (k0_off12 L k) S104x128.size h) (fun _ => rfl)).view.set]{fullShare} f : sProp 𝕄)
      = (outLoc d ↦[outSet (chunkIx (widL L) (gIx 0))]{fullShare} f) := by
  rw [set_out_off12 L k h]
  have e : (⟨2 * k.val, chunk0_lt k⟩ : Fin 160) = gIx 0 := Fin.ext (by show 2 * k.val = 0 % 160; omega)
  rw [e]

omit [FloatOps F] in
/-- One write of a whole buffer, over anything, leaves what was written. -/
private theorem writes_whole_single {κ : Kind} (b : Ref sig κ) (f : b.ty.Contents (Elt F)) (P : (Rect.whole b.ty.shape).shape.Idx → Elt F b.ty.elt) :
    (Memref.whole b : Memref sig κ _ _ _).view.writes (Elt F) f [⟨Rect.whole b.ty.shape, P⟩] = P := by
  funext x
  have h := View.read_writes_cons_emb (View.whole b) f (Rect.whole b.ty.shape) P [] x
  rw [Rect.emb_whole_apply] at h
  exact h

omit [FloatOps F] in
/-- The table read through the slice the gathers take of it (all of it) is the table. -/
private theorem read_tabSl (f : S650007x128.Idx → Elt F .f32) : (tabSl).view.read (Elt F) f = f :=
  Memref.read_access_unit_zero (Elt F) main_v12_scv (funext fun a => by fin_cases a <;> rfl) _ f

/-- What a gather of whole groups at a list leaves is `Gathered` at that list. -/
private theorem gathered_payload (I : S416.Idx → BitVec 32)
    (hn : S416.numel = S416x128.size (Shape.Gathers.axis' gathers_S650007x128_S416x128))
    (hin : ∀ x, (I x).toNat < S650007x128.size (Shape.Gathers.axis gathers_S650007x128_S416x128)) :
    Gathered m d (SparseCore.gatherPayload (F := F) gathers_S650007x128_S416x128 ((tabSl).view.read (Elt F) (Vpre m d tab'))
      (SparseCore.rows (F := F) I hn hin)) I := by
  intro j c h
  rw [gatherPayload_ix2, read_tabSl]

/-- The result blocks other than block b before anything is written: all untouched. -/
private theorem outBlocks_zero (b : Fin 160) :
    OutBlocks m d L b 0 = bigSep (Finset.univ.erase b) fun g : Fin 160 => outLoc d ↦[outSet (chunkIx (widL L) g)]{fullShare} out0Arr m d := by
  unfold OutBlocks
  exact bigSep_congr fun g _ => by rw [if_neg (Nat.not_lt_zero _)]

/-- An index load of chunk g into parity 0's buffer, as its issue leaves it, is `IdxFlight0`. -/
private theorem idxFlight0_of (g : Fin 160) {off : Fin 1 → ℕ} (h : ∀ a, off a + S416.size a ≤ S2129920.size a) (he : off = idxOff L g)
    (I3 : S416.Idx → BitVec 32) :
    (iprop(Transfers.Flight countersEmb (thrL d L) (SemLoc.dma cc0_scratch7.sem) (default : HIx 1) 13312
        iprop(((s3W).view.loc (thrL d L) ↦{fullShare} View.write (Elt F) (s3W).view I3
            (ReadAs.same.apply (((idxW).slice (Rect.unit (s := S2129920) off S416.size h) (fun _ => rfl)).view.read (Elt F) (Vpre m d idx'))) Finset.univ)
          ∗ ((idxW).view.loc (thrL d L) ↦[((idxW).slice (Rect.unit (s := S2129920) off S416.size h) (fun _ => rfl)).view.set]{tokI L 0} Vpre m d idx'))
      ∗ ((idxW).view.loc (thrL d L) ↦[Finset.univ \ ((idxW).slice (Rect.unit (s := S2129920) off S416.size h) (fun _ => rfl)).view.set]{tokI L 0} Vpre m d idx')) : sProp 𝕄)
      = IdxFlight0 m d L g := by
  subst he
  unfold IdxFlight0 chunkEnts
  simp only [Memref.view_whole, View.write_whole_univ, ReadAs.apply_same]

/-- Word c of row r of chunk g's block of the result, after the block is written from rows 0 .. 103 of a buffer. -/
private theorem writeOut_apply (w : Fin 32) (g : Fin 160) {off : Fin 2 → ℕ} (h : ∀ a, off a + S104x128.size a ≤ S532480x128.size a)
    (he : off = ![w.val * 16640 + 104 * g.val, 0]) (f : S532480x128.Idx → Elt F .f32) (G1 : S416x128.Idx → Elt F .f32) (r : Fin 104) (c : Fin 128) :
    ((outW).slice (Rect.unit (s := S532480x128) off S104x128.size h) (fun _ => rfl)).view.writes (Elt F) f
        [⟨Rect.whole _, ReadAs.same.apply ((g5Sl).view.read (Elt F) G1)⟩] (ix2 (chunkRow w g r) c)
      = G1 (ix2 (⟨r.val, Nat.lt_trans r.isLt (by decide)⟩ : Fin 416) c) := by
  subst he
  have e : (ix2 (chunkRow w g r) c : S532480x128.Idx)
      = ((outW).slice (Rect.unit (s := S532480x128) ![w.val * 16640 + 104 * g.val, 0] S104x128.size h) (fun _ => rfl)).view.emb (ix2 r c) := by
    funext a
    match a with
    | ⟨0, _⟩ => exact Fin.ext (by show w.val * 16640 + 104 * g.val + r.val = w.val * 16640 + 104 * g.val + 1 * r.val; omega)
    | ⟨1, _⟩ => exact Fin.ext (by show c.val = 0 + 1 * c.val; omega)
  rw [e]
  refine ((cast_eq _ _).symm.trans (View.read_apply _ _).symm).trans ?_
  have h2 := View.read_writes_cons_emb ((outW).slice (Rect.unit (s := S532480x128) ![w.val * 16640 + 104 * g.val, 0] S104x128.size h) (fun _ => rfl)).view
    f (Rect.whole _) (ReadAs.same.apply ((g5Sl).view.read (Elt F) G1)) [] (ix2 r c)
  rw [Rect.emb_whole_apply] at h2
  refine h2.trans ?_
  rw [ReadAs.apply_same, View.read_apply]
  refine (cast_eq _ _).trans ?_
  congr 1
  funext a
  match a with
  | ⟨0, _⟩ => exact Fin.ext (by show 0 + 1 * r.val = r.val; omega)
  | ⟨1, _⟩ => exact Fin.ext (by show 0 + 1 * c.val = c.val; omega)

/-- Trip 0: from the two first index loads in flight to the state before trip 1. -/
theorem trip0 (hpre : PreOK m) (O : CellTallies nD τ sig (HIx 1)) (W : Waits sig (HIx 1)) (Of : S416.Idx → BitVec 32) (hOf : Of = offArr m d)
    (v2 v3 : BitVec 32) (k : Fin k0_t1_loop.trips) (hk : k.val = 0) :
    Inv0 m d L O W Of
      ⊢ wp frame (wpE (defs₀ (F := F)) 𝒱₀ (thrL d L) none) Set.univ (k0_t1_body L (Memref.whole main_v2_scv) (Memref.isWhole_whole _) (Memref.whole main_v8_scv) (Memref.isWhole_whole _) (Memref.whole main_v12_scv) (Memref.isWhole_whole _) (Memref.whole main_v13_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scoped0 v2 v3 k ⟨⟩)
          fun _ => InvK m d L O W Of 1 := by

  have k0_h1 : ¬ k0_cond1 k = 1#1 := by rw [cond1_iff]; omega
  have k0_h2 : ¬ k0_cond2 k = 1#1 := by rw [cond2_iff]; omega
  have k0_h4 : ¬ k0_cond4 k = 1#1 := by rw [cond4_iff]; omega
  have k0_h5 : k0_cond5 k = 1#1 := (cond5_iff k).mpr trivial
  have k0_h6 : k0_cond6 k = 1#1 := by rw [cond6_iff]; omega
  unfold Inv0 IdxFlight0 IdxFlight1 Owes k0_t1_body
  iintro ⟨Hmw, Hb0, ⟨%f1, Hb1⟩, ⟨%f2, Hb2⟩, ⟨%f5, Hb5⟩, ⟨%f6, Hb6⟩, ⟨Hf0, Hi0⟩, ⟨Hf1, Hi1⟩, Ht2, Ht3, Hs9, Hs10, Hs11, Hs12, Hout, %W', %hW', HO⟩
  -- step 0: the index load of chunk 0 lands, its offset step, its gather starts
  sl_exec
  iapply (wp_head (offset2 (F := F) d L cc0_scoped0 v2 v3 0#32 1#32 k (chunkEnts m d L (gIx 0)) Of f1)) $$ [Hf0_dst Hb0 Hb1]
  · isplitl [Hf0_dst]; · iexact Hf0_dst
    isplitl [Hb0]; · iexact Hb0
    iexact Hb1
  iintro %_ ⟨%I3, %S1, %hoff3, Hb3, Hb0, Hb1⟩
  have hin3 : ∀ x, ((s3W).view.read (Elt F) I3 x).toNat < S650007x128.size (gathers_S650007x128_S416x128).axis :=
    chunk_hin_idx m hpre d (widL L) (gIx 0) (chunkEnts m d L (gIx 0)) Of I3 S1 (chunkEnts_apply m d L (gIx 0)) hOf hoff3
  -- step 1: the index load of chunk 1 lands, its offset step, its gather starts; gather 0 lands; chunk 2's index load starts
  sl_exec
  iapply (wp_head (offset4 (F := F) d L cc0_scoped0 v2 v3 0#32 1#32 k (chunkEnts m d L (gIx 1)) Of f2)) $$ [Hf1_dst Hb0 Hb2]
  · isplitl [Hf1_dst]; · iexact Hf1_dst
    isplitl [Hb0]; · iexact Hb0
    iexact Hb2
  iintro %_ ⟨%I4, %S2, %hoff4, Hb4, Hb0, Hb2⟩
  have hin4 : ∀ x, ((s4W).view.read (Elt F) I4 x).toNat < S650007x128.size (gathers_S650007x128_S416x128).axis :=
    chunk_hin_idx m hpre d (widL L) (gIx 1) (chunkEnts m d L (gIx 1)) Of I4 S2 (chunkEnts_apply m d L (gIx 1)) hOf hoff4
  sl_exec
  -- the repack of chunk 0's groups
  iapply (wp_head (repack5 (F := F) d L k k0_h5 _ _ S1 (chunk_hSb _ Of I3 S1 hoff3) rfl)) $$ [Hb5 Hb1]
  · isplitl [Hb5]; · iexact Hb5
    iexact Hb1
  iintro %_ ⟨%G1, %hrep, Hb5, Hb1⟩
  -- chunk 0's block of the result, as the write-out addresses it
  ihave Hout' := (Entails.of_eq (SparseCore.bigSep_erase' (Finset.mem_univ (gIx 0)))) $$ Hout
  icases Hout' with ⟨Hblk, Hrest⟩
  ihave Hblk' := (Entails.of_eq (pts_out_blk0 (F := F) d L k hk (k0_off12_inb L k k0_h5) _).symm) $$ Hblk
  -- the write-out of chunk 0 starts
  sl_exec
  sl_step
  -- chunk 2's entries start where the load of trip 0's second step reads them
  have he10 : k0_off10 L k = idxOff L (gIx 2) := by
    rw [off10_eq, hk]; rfl
  -- chunk 0's block, read back: rows 0 .. 103 of the repacked buffer are the block's rows of the result
  have hG0 := gathered_payload m d I3 (rfl : S416.numel = S416x128.size (Shape.Gathers.axis' gathers_S650007x128_S416x128)) hin3
  have hval : ∀ i ∈ outSet (chunkIx (widL L) (gIx 0)),
      ((outW).slice (Rect.unit (s := S532480x128) (k0_off12 L k) S104x128.size (k0_off12_inb L k k0_h5)) (fun _ => rfl)).view.writes (Elt F)
        (Vpre m d out') [⟨Rect.whole _, ReadAs.same.apply ((g5Sl).view.read (Elt F) G1)⟩] i = outArr m d i := by
    intro i hi
    rw [mem_outSet_chunkIx] at hi
    have hg0 : (gIx 0).val = 0 := rfl
    obtain ⟨r, c, rfl⟩ : ∃ (r : Fin 104) (c : Fin 128), i = ix2 (chunkRow (widL L) (gIx 0) r) c := by
      refine ⟨⟨(i 0).val - ((widL L).val * 16640 + 104 * (gIx 0).val), by omega⟩, ⟨(i 1).val, (i 1).isLt⟩, ?_⟩
      funext a
      match a with
      | ⟨0, _⟩ => exact Fin.ext (by show (i 0).val = (widL L).val * 16640 + 104 * (gIx 0).val + ((i 0).val - ((widL L).val * 16640 + 104 * (gIx 0).val)); omega)
      | ⟨1, _⟩ => rfl
    rw [writeOut_apply (widL L) (gIx 0) (k0_off12_inb L k k0_h5) (by rw [off12_eq, hk]; rfl)]
    rw [writes_whole_single] at hrep
    exact chunk_value m hpre d (widL L) (gIx 0) (chunkEnts m d L (gIx 0)) Of I3 S1 _ G1 (chunkEnts_apply m d L (gIx 0)) hOf hoff3 hG0 hrep r c
  unfold InvK
  isplitl [Hmw]; · iexact Hmw
  isplitl [Hb0]; · iexact Hb0
  isplitl [Hb1]; · iexists _; iexact Hb1
  isplitl [Hf0 Hi0]
  · iapply (Entails.of_eq (if_pos (by decide : (1 : ℕ) < 80)).symm)
    iapply (Entails.of_eq (idxFlight0_of m d L (gIx 2) (k0_off10_inb L k k0_h5 k0_h6) he10 I3))
    isplitl [Hf0]; · iexact Hf0
    iexact Hi0
  isplitl [Hs11 Hb5]
  · unfold WriteFlight0
    iexists _, G1
    isplitr; · ipureintro; exact hval
    isplitl [Hs11]
    · iapply (Transfers.Flight_mono countersEmb (thrL d L) (sep_mono (Entails.of_eq (pts_out_blk0 (F := F) d L k hk (k0_off12_inb L k k0_h5) _)) (.refl _)))
      iexact Hs11
    iexact Hb5
  isplitl [Hs9]; · iexact Hs9
  isplitl [Ht2]; · iexact Ht2
  isplitl [Hs10 Ht3 Hb2]
  · unfold GatherFlight1
    iexists _, I4, S2
    isplitr
    rotate_left
    · isplitl [Hs10]; · iexact Hs10
      isplitl [Ht3]; · iexact Ht3
      iexact Hb2
    ipureintro
    refine ⟨hoff4, ?_⟩
    rw [writes_whole_single]
    exact gathered_payload m d I4 (rfl : S416.numel = S416x128.size (Shape.Gathers.axis' gathers_S650007x128_S416x128)) hin4
  isplitl [Hf1]; · iexact Hf1
  isplitl [Hi1]; · iexact Hi1
  isplitl [Hs12]; · iexact Hs12
  isplitl [Hrest]
  · iapply (Entails.of_eq (outBlocks_zero m d L (gIx 0)).symm)
    iexact Hrest
  unfold Owes
  iexists _
  isplitr
  rotate_left
  · iexact HO
  ipureintro
  intro p hp
  rcases Finset.mem_insert.mp hp with hp | hp
  · exact .inr (hp ▸ rfl)
  rcases Finset.mem_insert.mp hp with hp | hp
  · exact .inr (hp ▸ rfl)
  rcases Finset.mem_insert.mp hp with hp | hp
  · exact .inr (hp ▸ rfl)
  exact hW' p hp

end Cert.Proof.KI

end
-- ==== Proof.KIBodyLibView.lean ====
/-
  What the tile's transfers leave, read through the views the program names them by.

  An index load fills a parity's index buffer with the 416 entries of a chunk; a gather fills a gather buffer with the
  table groups its list names, row by row; a write-out carries the first 104 rows of a gather buffer onto the chunk's
  block of the call's result. Each is a whole write through a whole buffer or a slice at a known offset, so the contents
  afterwards are the payload read at the index the slice puts each element at: offset plus index, stride one.
-/
import proofs.«204936_g5145370820905_cont_8to1_c_618_18_alg».proof.Proof.KIBodyInvLib
import proofs.«204936_g5145370820905_cont_8to1_c_618_18_alg».proof.Proof.KIBodyLibValue

noncomputable section

namespace Cert.Proof.KI

open Cert.KernelIdeal Cert.KernelIdeal.Gen

open Idealize.ShloMosaic Idealize.ShloMosaic.ValueIdx
open Idealize.ShloMosaic.SparseCore (S V T)

variable {F : FTy → Type}

-- the kernel's memrefs, spelt as the body table passes them
local notation "idxW" => (Memref.whole Cert.KernelIdeal.main_v2_scv : Memref Cert.KernelIdeal.sig Kind.scVector Space.hbm Cert.KernelIdeal.S2129920 EltTy.i32)
local notation "tabW" => (Memref.whole Cert.KernelIdeal.main_v12_scv : Memref Cert.KernelIdeal.sig Kind.scVector Space.hbm Cert.KernelIdeal.S650007x128 EltTy.f32)
local notation "outW" => (Memref.whole Cert.KernelIdeal.main_v13_scv : Memref Cert.KernelIdeal.sig Kind.scVector Space.hbm Cert.KernelIdeal.S532480x128 EltTy.f32)
local notation "s3W" => (Memref.whole Cert.KernelIdeal.cc0_scratch3 : Memref Cert.KernelIdeal.sig Kind.scVector Space.vmem Cert.KernelIdeal.S416 EltTy.i32)
local notation "s4W" => (Memref.whole Cert.KernelIdeal.cc0_scratch4 : Memref Cert.KernelIdeal.sig Kind.scVector Space.vmem Cert.KernelIdeal.S416 EltTy.i32)
local notation "s5W" => (Memref.whole Cert.KernelIdeal.cc0_scratch5 : Memref Cert.KernelIdeal.sig Kind.scVector Space.vmem Cert.KernelIdeal.S416x128 EltTy.f32)
local notation "s6W" => (Memref.whole Cert.KernelIdeal.cc0_scratch6 : Memref Cert.KernelIdeal.sig Kind.scVector Space.vmem Cert.KernelIdeal.S416x128 EltTy.f32)

variable (m : (ℓ : Loc nD τ sig) → Buf (Elt F) ℓ)
variable (d : Dev nD) (L : grid0.Coords)
variable [FloatOps F]

/-! ## What an index load leaves -/

/-- The index load of chunk `g` into parity 0's index buffer leaves the chunk's entries. -/
theorem idx_load_contents3 {off : Fin 1 → ℕ} (h : ∀ a, off a + S416.size a ≤ S2129920.size a) (g : Fin 160) (he : off = idxOff L g)
    (fold : S416.Idx → BitVec 32) :
    (s3W).view.write (Elt F) fold (ReadAs.same.apply
        (((idxW).slice (Rect.unit (s := S2129920) off S416.size h) (fun _ => rfl)).view.read (Elt F) (Vpre m d idx'))) Finset.univ
      = chunkEnts m d L g := by
  subst he
  exact View.write_whole_univ (Val := Elt F) cc0_scratch3 fold _

/-- The index load of chunk `g` into parity 1's index buffer leaves the chunk's entries. -/
theorem idx_load_contents4 {off : Fin 1 → ℕ} (h : ∀ a, off a + S416.size a ≤ S2129920.size a) (g : Fin 160) (he : off = idxOff L g)
    (fold : S416.Idx → BitVec 32) :
    (s4W).view.write (Elt F) fold (ReadAs.same.apply
        (((idxW).slice (Rect.unit (s := S2129920) off S416.size h) (fun _ => rfl)).view.read (Elt F) (Vpre m d idx'))) Finset.univ
      = chunkEnts m d L g := by
  subst he
  exact View.write_whole_univ (Val := Elt F) cc0_scratch4 fold _

/-! ## The printed index slices are the chunks' -/

variable (k : Fin k0_t1_loop.trips)

/-- The two slices loaded before the loop are chunks 0 and 1; -/
theorem off1_0_idxOff : k0_off1 L 0#32 = idxOff L (gIx 0) := by
  rw [off1_eq_0]; unfold idxOff; rw [gIx_val (by decide : 0 < 160)]
theorem off1_1_idxOff : k0_off1 L 416#32 = idxOff L (gIx 1) := by
  rw [off1_eq_1]; unfold idxOff; rw [gIx_val (by decide : 1 < 160)]
/-- the slice the even step of trip `k` loads is chunk 2 k + 1, -/
theorem off5_idxOff : k0_off5 L k = idxOff L (gIx (2 * k.val + 1)) := by
  rw [off5_eq]; unfold idxOff; rw [gIx_val (chunk1_lt k)]
/-- and the slice its odd step loads, when there is one, chunk 2 k + 2. -/
theorem off10_idxOff (hk : k.val < 79) : k0_off10 L k = idxOff L (gIx (2 * k.val + 2)) := by
  rw [off10_eq]; unfold idxOff; rw [gIx_val (by omega : 2 * k.val + 2 < 160)]
/-- The slices whose loads trip `k` waits for are chunks 2 k and 2 k + 1. -/
theorem off3_0_idxOff : k0_off3 L k 0#32 = idxOff L (gIx (2 * k.val)) := by
  rw [off3_eq_0]; unfold idxOff; rw [gIx_val (chunk0_lt k)]
theorem off3_1_idxOff : k0_off3 L k 1#32 = idxOff L (gIx (2 * k.val + 1)) := by
  rw [off3_eq_1]; unfold idxOff; rw [gIx_val (chunk1_lt k)]

/-! ## What a gather leaves -/

/-- The grouped table read through the slice the gathers take of it (all of it, at offset zero) is the table. -/
theorem read_tabSl (f : S650007x128.Idx → Elt F .f32) (x : S650007x128.Idx) : (tabSl).view.read (Elt F) f x = f x := by
  rw [View.read_apply]
  refine (cast_eq _ _).trans ?_
  congr 1
  funext a
  match a with
  | ⟨0, _⟩ => exact Fin.ext (by show 0 + 1 * (x 0).val = (x 0).val; omega)
  | ⟨1, _⟩ => exact Fin.ext (by show 0 + 1 * (x 1).val = (x 1).val; omega)

/-- One whole write through a whole buffer leaves the payload. -/
theorem writes_whole_s5 (Gold P : S416x128.Idx → Elt F .f32) :
    (s5W).view.writes (Elt F) Gold [⟨Rect.whole _, P⟩] = P :=
  (View.write_univ_eq_writes_whole (s5W).view Gold [] P).symm.trans (View.write_whole_univ cc0_scratch5 Gold P)
theorem writes_whole_s6 (Gold P : S416x128.Idx → Elt F .f32) :
    (s6W).view.writes (Elt F) Gold [⟨Rect.whole _, P⟩] = P :=
  (View.write_univ_eq_writes_whole (s6W).view Gold [] P).symm.trans (View.write_whole_univ cc0_scratch6 Gold P)

/-- The payload of a gather of the table at a list: row `j` is the group entry `j` of the list names. -/
theorem gathered_payload (I : S416.Idx → BitVec 32)
    (hn : S416.numel = S416x128.size (Shape.Gathers.axis' gathers_S650007x128_S416x128))
    (hin : ∀ x, (I x).toNat < S650007x128.size (Shape.Gathers.axis gathers_S650007x128_S416x128)) :
    Gathered m d (SparseCore.gatherPayload (F := F) gathers_S650007x128_S416x128 ((tabSl).view.read (Elt F) (Vpre m d tab'))
      (SparseCore.rows (F := F) I hn hin)) I := by
  intro j c h
  rw [gatherPayload_ix2, read_tabSl]

/-- What the gather into parity 0's gather buffer leaves, its list in parity 0's index buffer. -/
theorem gathered_of5 (I : S416.Idx → BitVec 32)
    (hn : S416.numel = S416x128.size (Shape.Gathers.axis' gathers_S650007x128_S416x128))
    (hin : ∀ x, ((s3W).view.read (Elt F) I x).toNat < S650007x128.size (Shape.Gathers.axis gathers_S650007x128_S416x128))
    (Gold : S416x128.Idx → Elt F .f32) :
    Gathered m d ((s5W).view.writes (Elt F) Gold [⟨Rect.whole _, SparseCore.gatherPayload gathers_S650007x128_S416x128
      ((tabSl).view.read (Elt F) (Vpre m d tab')) (SparseCore.rows ((s3W).view.read (Elt F) I) hn hin)⟩]) I := by
  rw [writes_whole_s5]
  exact gathered_payload m d I hn hin

/-- What the gather into parity 1's gather buffer leaves, its list in parity 1's index buffer. -/
theorem gathered_of6 (I : S416.Idx → BitVec 32)
    (hn : S416.numel = S416x128.size (Shape.Gathers.axis' gathers_S650007x128_S416x128))
    (hin : ∀ x, ((s4W).view.read (Elt F) I x).toNat < S650007x128.size (Shape.Gathers.axis gathers_S650007x128_S416x128))
    (Gold : S416x128.Idx → Elt F .f32) :
    Gathered m d ((s6W).view.writes (Elt F) Gold [⟨Rect.whole _, SparseCore.gatherPayload gathers_S650007x128_S416x128
      ((tabSl).view.read (Elt F) (Vpre m d tab')) (SparseCore.rows ((s4W).view.read (Elt F) I) hn hin)⟩]) I := by
  rw [writes_whole_s6]
  exact gathered_payload m d I hn hin

/-! ## What a write-out leaves -/

/-- The first 104 rows of a gather buffer read through the slice the write-outs take of it: row and word as they are. -/
theorem read_g5Sl (G : S416x128.Idx → Elt F .f32) (x : S104x128.Idx) :
    (g5Sl).view.read (Elt F) G x
      = G (ix2 (⟨(x 0).val, Nat.lt_trans (idx2_lt0 x) (by decide)⟩ : Fin 416) (⟨(x 1).val, idx2_lt1 x⟩ : Fin 128)) := by
  rw [View.read_apply]
  refine (cast_eq _ _).trans ?_
  congr 1
  funext a
  match a with
  | ⟨0, _⟩ => exact Fin.ext (by show 0 + 1 * (x 0).val = (x 0).val; omega)
  | ⟨1, _⟩ => exact Fin.ext (by show 0 + 1 * (x 1).val = (x 1).val; omega)
theorem read_g6Sl (G : S416x128.Idx → Elt F .f32) (x : S104x128.Idx) :
    (g6Sl).view.read (Elt F) G x
      = G (ix2 (⟨(x 0).val, Nat.lt_trans (idx2_lt0 x) (by decide)⟩ : Fin 416) (⟨(x 1).val, idx2_lt1 x⟩ : Fin 128)) := by
  rw [View.read_apply]
  refine (cast_eq _ _).trans ?_
  congr 1
  funext a
  match a with
  | ⟨0, _⟩ => exact Fin.ext (by show 0 + 1 * (x 0).val = (x 0).val; omega)
  | ⟨1, _⟩ => exact Fin.ext (by show 0 + 1 * (x 1).val = (x 1).val; omega)

/-- A whole write of 104 rows through a slice of the result taken at the first row of chunk `g`, the payload's row `r`
    being the chunk's row `r` of the result, leaves the result on the slice's elements. -/
theorem block_written_payload (g : Fin 160) {off : Fin 2 → ℕ} (h : ∀ a, off a + S104x128.size a ≤ S532480x128.size a)
    (he : off = ![(widL L).val * 16640 + 104 * g.val, 0]) (w : S104x128.Idx → Elt F .f32)
    (hw : ∀ x : S104x128.Idx, w x = outArr m d (ix2 (chunkRow (widL L) g ⟨(x 0).val, idx2_lt0 x⟩) (⟨(x 1).val, idx2_lt1 x⟩ : Fin 128)))
    (fold : S532480x128.Idx → Elt F .f32) :
    ∀ i ∈ ((outW).slice (Rect.unit (s := S532480x128) off S104x128.size h) (fun _ => rfl)).view.set,
      (((outW).slice (Rect.unit (s := S532480x128) off S104x128.size h) (fun _ => rfl)).view.writes (Elt F) fold
        [⟨Rect.whole _, w⟩]) i = outArr m d i := by
  subst he
  intro i hi
  obtain ⟨x, -, rfl⟩ := Finset.mem_map.mp hi
  refine (congrFun (View.write_univ_eq_writes_whole
    ((outW).slice (Rect.unit (s := S532480x128) ![(widL L).val * 16640 + 104 * g.val, 0] S104x128.size h) (fun _ => rfl)).view fold [] w).symm _).trans ?_
  refine (View.write_emb_of_mem _ w (Finset.mem_univ x)).trans ?_
  refine (cast_eq _ _).trans ?_
  rw [hw x]
  congr 1
  funext a
  match a with
  | ⟨0, _⟩ => exact Fin.ext (by
      show (widL L).val * 16640 + 104 * g.val + (x 0).val = (widL L).val * 16640 + 104 * g.val + 1 * (x 0).val; omega)
  | ⟨1, _⟩ => exact Fin.ext (by show (x 1).val = 0 + 1 * (x 1).val; omega)

/-- What the write-out of chunk `g` from parity 0's gather buffer leaves on the chunk's block, the buffer's first 104 rows
    being the chunk's rows of the result. -/
theorem block_written5 (g : Fin 160) {off : Fin 2 → ℕ} (h : ∀ a, off a + S104x128.size a ≤ S532480x128.size a)
    (he : off = ![(widL L).val * 16640 + 104 * g.val, 0]) (G : S416x128.Idx → Elt F .f32)
    (hG : ∀ (r : Fin 104) (c : Fin 128),
      G (ix2 (⟨r.val, Nat.lt_trans r.isLt (by decide)⟩ : Fin 416) c) = outArr m d (ix2 (chunkRow (widL L) g r) c)) :
    ∀ i ∈ ((outW).slice (Rect.unit (s := S532480x128) off S104x128.size h) (fun _ => rfl)).view.set,
      (((outW).slice (Rect.unit (s := S532480x128) off S104x128.size h) (fun _ => rfl)).view.writes (Elt F)
        ((outW).slice (Rect.unit (s := S532480x128) off S104x128.size h) (fun _ => rfl)).view.junk
        [⟨Rect.whole _, ReadAs.same.apply ((g5Sl).view.read (Elt F) G)⟩]) i = outArr m d i :=
  block_written_payload m d L g h he _ (fun x => (read_g5Sl G x).trans (hG ⟨(x 0).val, idx2_lt0 x⟩ ⟨(x 1).val, idx2_lt1 x⟩)) _

/-- The same from parity 1's gather buffer. -/
theorem block_written6 (g : Fin 160) {off : Fin 2 → ℕ} (h : ∀ a, off a + S104x128.size a ≤ S532480x128.size a)
    (he : off = ![(widL L).val * 16640 + 104 * g.val, 0]) (G : S416x128.Idx → Elt F .f32)
    (hG : ∀ (r : Fin 104) (c : Fin 128),
      G (ix2 (⟨r.val, Nat.lt_trans r.isLt (by decide)⟩ : Fin 416) c) = outArr m d (ix2 (chunkRow (widL L) g r) c)) :
    ∀ i ∈ ((outW).slice (Rect.unit (s := S532480x128) off S104x128.size h) (fun _ => rfl)).view.set,
      (((outW).slice (Rect.unit (s := S532480x128) off S104x128.size h) (fun _ => rfl)).view.writes (Elt F)
        ((outW).slice (Rect.unit (s := S532480x128) off S104x128.size h) (fun _ => rfl)).view.junk
        [⟨Rect.whole _, ReadAs.same.apply ((g6Sl).view.read (Elt F) G)⟩]) i = outArr m d i :=
  block_written_payload m d L g h he _ (fun x => (read_g6Sl G x).trans (hG ⟨(x 0).val, idx2_lt0 x⟩ ⟨(x 1).val, idx2_lt1 x⟩)) _

end Cert.Proof.KI

end
-- ==== Proof.KIBodyFlights.lean ====
/-
  The flights the executor leaves at an issue, read as the invariant states them: the slice through its closed offset,
  the delivered contents by name.
-/
import proofs.«204936_g5145370820905_cont_8to1_c_618_18_alg».proof.Proof.KIBodyInvLib
import proofs.«204936_g5145370820905_cont_8to1_c_618_18_alg».proof.Proof.KIBodyLibView

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
-- the kernel's memrefs, spelt as the body table passes them
local notation "idxW" => (Memref.whole Cert.KernelIdeal.main_v2_scv : Memref Cert.KernelIdeal.sig Kind.scVector Space.hbm Cert.KernelIdeal.S2129920 EltTy.i32)
local notation "offW" => (Memref.whole Cert.KernelIdeal.main_v8_scv : Memref Cert.KernelIdeal.sig Kind.scVector Space.hbm Cert.KernelIdeal.S416 EltTy.i32)
local notation "tabW" => (Memref.whole Cert.KernelIdeal.main_v12_scv : Memref Cert.KernelIdeal.sig Kind.scVector Space.hbm Cert.KernelIdeal.S650007x128 EltTy.f32)
local notation "outW" => (Memref.whole Cert.KernelIdeal.main_v13_scv : Memref Cert.KernelIdeal.sig Kind.scVector Space.hbm Cert.KernelIdeal.S532480x128 EltTy.f32)
local notation "s0W" => (Memref.whole Cert.KernelIdeal.cc0_scratch0 : Memref Cert.KernelIdeal.sig Kind.scVector Space.vmem Cert.KernelIdeal.S416 EltTy.i32)
local notation "s1W" => (Memref.whole Cert.KernelIdeal.cc0_scratch1 : Memref Cert.KernelIdeal.sig Kind.scVector Space.vmem Cert.KernelIdeal.S416 EltTy.i32)
local notation "s2W" => (Memref.whole Cert.KernelIdeal.cc0_scratch2 : Memref Cert.KernelIdeal.sig Kind.scVector Space.vmem Cert.KernelIdeal.S416 EltTy.i32)
local notation "s3W" => (Memref.whole Cert.KernelIdeal.cc0_scratch3 : Memref Cert.KernelIdeal.sig Kind.scVector Space.vmem Cert.KernelIdeal.S416 EltTy.i32)
local notation "s4W" => (Memref.whole Cert.KernelIdeal.cc0_scratch4 : Memref Cert.KernelIdeal.sig Kind.scVector Space.vmem Cert.KernelIdeal.S416 EltTy.i32)
local notation "s5W" => (Memref.whole Cert.KernelIdeal.cc0_scratch5 : Memref Cert.KernelIdeal.sig Kind.scVector Space.vmem Cert.KernelIdeal.S416x128 EltTy.f32)
local notation "s6W" => (Memref.whole Cert.KernelIdeal.cc0_scratch6 : Memref Cert.KernelIdeal.sig Kind.scVector Space.vmem Cert.KernelIdeal.S416x128 EltTy.f32)

variable (m : (ℓ : Loc nD τ sig) → Buf (Elt F) ℓ)
variable (d : Dev nD) (L : grid0.Coords)
variable [FloatOps F]

/-- An index load into parity 0's buffer, as issued, is the invariant's. -/
theorem idxFlight0_intro (g : Fin 160) {off : Fin 1 → ℕ} (h : ∀ a, off a + S416.size a ≤ S2129920.size a) (he : off = idxOff L g)
    (X : S416.Idx → BitVec 32) (hX : X = chunkEnts m d L g) :
    (iprop(Transfers.Flight countersEmb (thrL d L) (SemLoc.dma cc0_scratch7.sem) (default : HIx 1) 13312
          iprop(((s3W).view.loc (thrL d L) ↦{fullShare} X) ∗ ((idxW).view.loc (thrL d L) ↦[((idxW).slice (Rect.unit (s := S2129920) off S416.size h) (fun _ => rfl)).view.set]{tokI L 0} Vpre m d idx'))
        ∗ ((idxW).view.loc (thrL d L) ↦[Finset.univ \ ((idxW).slice (Rect.unit (s := S2129920) off S416.size h) (fun _ => rfl)).view.set]{tokI L 0} Vpre m d idx')) : sProp 𝕄)
      ⊢ IdxFlight0 m d L g := by
  subst he hX
  exact BI.Entails.refl _
/-- The same for parity 1. -/
theorem idxFlight1_intro (g : Fin 160) {off : Fin 1 → ℕ} (h : ∀ a, off a + S416.size a ≤ S2129920.size a) (he : off = idxOff L g)
    (X : S416.Idx → BitVec 32) (hX : X = chunkEnts m d L g) :
    (iprop(Transfers.Flight countersEmb (thrL d L) (SemLoc.dma cc0_scratch8.sem) (default : HIx 1) 13312
          iprop(((s4W).view.loc (thrL d L) ↦{fullShare} X) ∗ ((idxW).view.loc (thrL d L) ↦[((idxW).slice (Rect.unit (s := S2129920) off S416.size h) (fun _ => rfl)).view.set]{tokI L 1} Vpre m d idx'))
        ∗ ((idxW).view.loc (thrL d L) ↦[Finset.univ \ ((idxW).slice (Rect.unit (s := S2129920) off S416.size h) (fun _ => rfl)).view.set]{tokI L 1} Vpre m d idx')) : sProp 𝕄)
      ⊢ IdxFlight1 m d L g := by
  subst he hX
  exact BI.Entails.refl _

/-- A write-out from parity 0's buffer, as issued, is the invariant's once its block is known to arrive written. -/
theorem writeFlight0_intro (g : Fin 160) {off : Fin 2 → ℕ} (h : ∀ a, off a + S104x128.size a ≤ S532480x128.size a)
    (hs : ((outW).slice (Rect.unit (s := S532480x128) off S104x128.size h) (fun _ => rfl)).view.set = outSet (chunkIx (widL L) g))
    (Wr : S532480x128.Idx → Elt F .f32) (G : S416x128.Idx → Elt F .f32) (hWr : ∀ i ∈ outSet (chunkIx (widL L) g), Wr i = outArr m d i) :
    (iprop(Transfers.Flight countersEmb (thrL d L) (SemLoc.dma cc0_scratch11.sem) (default : HIx 1) 425984
          iprop((((outW).slice (Rect.unit (s := S532480x128) off S104x128.size h) (fun _ => rfl)).view.loc (thrL d L) ↦[((outW).slice (Rect.unit (s := S532480x128) off S104x128.size h) (fun _ => rfl)).view.set]{fullShare} Wr) ∗ ((s5W).view.loc (thrL d L) ↦[(g5Sl).view.set]{fullShare} G))
        ∗ ((s5W).view.loc (thrL d L) ↦[Finset.univ \ (g5Sl).view.set]{fullShare} G)) : sProp 𝕄)
      ⊢ WriteFlight0 m d L g := by
  unfold WriteFlight0
  rw [hs]
  iintro ⟨Hf, Hr⟩
  iexists Wr, G
  isplitr; · ipureintro; exact hWr
  isplitl [Hf]; · iexact Hf
  iexact Hr
theorem writeFlight1_intro (g : Fin 160) {off : Fin 2 → ℕ} (h : ∀ a, off a + S104x128.size a ≤ S532480x128.size a)
    (hs : ((outW).slice (Rect.unit (s := S532480x128) off S104x128.size h) (fun _ => rfl)).view.set = outSet (chunkIx (widL L) g))
    (Wr : S532480x128.Idx → Elt F .f32) (G : S416x128.Idx → Elt F .f32) (hWr : ∀ i ∈ outSet (chunkIx (widL L) g), Wr i = outArr m d i) :
    (iprop(Transfers.Flight countersEmb (thrL d L) (SemLoc.dma cc0_scratch12.sem) (default : HIx 1) 425984
          iprop((((outW).slice (Rect.unit (s := S532480x128) off S104x128.size h) (fun _ => rfl)).view.loc (thrL d L) ↦[((outW).slice (Rect.unit (s := S532480x128) off S104x128.size h) (fun _ => rfl)).view.set]{fullShare} Wr) ∗ ((s6W).view.loc (thrL d L) ↦[(g6Sl).view.set]{fullShare} G))
        ∗ ((s6W).view.loc (thrL d L) ↦[Finset.univ \ (g6Sl).view.set]{fullShare} G)) : sProp 𝕄)
      ⊢ WriteFlight1 m d L g := by
  unfold WriteFlight1
  rw [hs]
  iintro ⟨Hf, Hr⟩
  iexists Wr, G
  isplitr; · ipureintro; exact hWr
  isplitl [Hf]; · iexact Hf
  iexact Hr

end Cert.Proof.KI

end
-- ==== Proof.KIBodyTripMid.lean ====
/-
  A middle trip of the main loop, trip k with 1 ≤ k ≤ 78: chunks 2k and 2k + 1 of the tile.

  Before the trip the index load of chunk 2k, the write-out of chunk 2k - 2 and the gather of chunk 2k - 1 are in flight.
  The even step waits for the write-out of chunk 2k - 2 (its block is now written: the blocks below 2k - 1 are), waits
  for chunk 2k's entries, does their offset step, starts their gather, waits for the gather of chunk 2k - 1, starts the
  index load of chunk 2k + 1 into the buffer that list has left, repacks chunk 2k - 1's groups and starts writing its
  block. The odd step waits for that write-out (block 2k - 1 is written), waits for chunk 2k + 1's entries, does their
  offset step, starts their gather, waits for the gather of chunk 2k, starts the index load of chunk 2k + 2, repacks
  chunk 2k's groups and starts writing its block. What is left is the state before trip k + 1.

  The values recorded: a block that has arrived holds the result's rows of its chunk (the chunk's value: entries, offset
  step, gathered groups and repack composed), and the new gather holds the table groups its list names.
-/
import proofs.«204936_g5145370820905_cont_8to1_c_618_18_alg».proof.Proof.KIBodyFlights
import proofs.«204936_g5145370820905_cont_8to1_c_618_18_alg».proof.Proof.KIInner
import proofs.«204936_g5145370820905_cont_8to1_c_618_18_alg».proof.Proof.KIOffset2
import proofs.«204936_g5145370820905_cont_8to1_c_618_18_alg».proof.Proof.KIOffset4

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
-- the kernel's memrefs, spelt as the body table passes them
local notation "idxW" => (Memref.whole Cert.KernelIdeal.main_v2_scv : Memref Cert.KernelIdeal.sig Kind.scVector Space.hbm Cert.KernelIdeal.S2129920 EltTy.i32)
local notation "offW" => (Memref.whole Cert.KernelIdeal.main_v8_scv : Memref Cert.KernelIdeal.sig Kind.scVector Space.hbm Cert.KernelIdeal.S416 EltTy.i32)
local notation "tabW" => (Memref.whole Cert.KernelIdeal.main_v12_scv : Memref Cert.KernelIdeal.sig Kind.scVector Space.hbm Cert.KernelIdeal.S650007x128 EltTy.f32)
local notation "outW" => (Memref.whole Cert.KernelIdeal.main_v13_scv : Memref Cert.KernelIdeal.sig Kind.scVector Space.hbm Cert.KernelIdeal.S532480x128 EltTy.f32)
local notation "s0W" => (Memref.whole Cert.KernelIdeal.cc0_scratch0 : Memref Cert.KernelIdeal.sig Kind.scVector Space.vmem Cert.KernelIdeal.S416 EltTy.i32)
local notation "s1W" => (Memref.whole Cert.KernelIdeal.cc0_scratch1 : Memref Cert.KernelIdeal.sig Kind.scVector Space.vmem Cert.KernelIdeal.S416 EltTy.i32)
local notation "s2W" => (Memref.whole Cert.KernelIdeal.cc0_scratch2 : Memref Cert.KernelIdeal.sig Kind.scVector Space.vmem Cert.KernelIdeal.S416 EltTy.i32)
local notation "s3W" => (Memref.whole Cert.KernelIdeal.cc0_scratch3 : Memref Cert.KernelIdeal.sig Kind.scVector Space.vmem Cert.KernelIdeal.S416 EltTy.i32)
local notation "s4W" => (Memref.whole Cert.KernelIdeal.cc0_scratch4 : Memref Cert.KernelIdeal.sig Kind.scVector Space.vmem Cert.KernelIdeal.S416 EltTy.i32)
local notation "s5W" => (Memref.whole Cert.KernelIdeal.cc0_scratch5 : Memref Cert.KernelIdeal.sig Kind.scVector Space.vmem Cert.KernelIdeal.S416x128 EltTy.f32)
local notation "s6W" => (Memref.whole Cert.KernelIdeal.cc0_scratch6 : Memref Cert.KernelIdeal.sig Kind.scVector Space.vmem Cert.KernelIdeal.S416x128 EltTy.f32)

variable (m : (ℓ : Loc nD τ sig) → Buf (Elt F) ℓ)
variable (d : Dev nD) (L : grid0.Coords)
variable [FloatOps F]

private theorem blocks_done (b : Fin 160) (n : ℕ) (hb : b.val = n) :
    (iprop((outLoc d ↦[outSet (chunkIx (widL L) b)]{fullShare} outArr m d) ∗ OutBlocks m d L b n) : sProp 𝕄) ⊢ AllBlocks m d L (n + 1) := by
  rw [allBlocks_split m d L b (n + 1), if_pos (by omega), outBlocks_succ m d L b n hb]
private theorem blocks_take (b : Fin 160) (n : ℕ) (hb : b.val = n) :
    (AllBlocks m d L n : sProp 𝕄) ⊢ iprop((outLoc d ↦[outSet (chunkIx (widL L) b)]{fullShare} out0Arr m d) ∗ OutBlocks m d L b n) := by
  rw [allBlocks_split m d L b n, if_neg (by omega)]

theorem tripMid (hpre : PreOK m) (O : CellTallies nD τ sig (HIx 1)) (W : Waits sig (HIx 1)) (Of : S416.Idx → BitVec 32) (hOf : Of = offArr m d)
    (v2 v3 : BitVec 32) (k : Fin k0_t1_loop.trips) (hk1 : 1 ≤ k.val) (hk2 : k.val < 79) :
    InvK m d L O W Of k.val
      ⊢ wp frame (wpE (defs₀ (F := F)) 𝒱₀ (thrL d L) none) Set.univ (k0_t1_body L (Memref.whole main_v2_scv) (Memref.isWhole_whole _) (Memref.whole main_v8_scv) (Memref.isWhole_whole _) (Memref.whole main_v12_scv) (Memref.isWhole_whole _) (Memref.whole main_v13_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scoped0 v2 v3 k ⟨⟩)
          fun _ => InvK m d L O W Of (k.val + 1) := by
  have hk80 : k.val < 80 := by omega
  have k0_h1 : k0_cond1 k = 1#1 := (cond1_iff k).2 hk1
  have k0_h2 : k0_cond2 k = 1#1 := (cond2_iff k).2 hk1
  have k0_h3 : k0_cond3 k = 1#1 := (cond3_iff k).2 trivial
  have k0_h4 : k0_cond4 k = 1#1 := (cond4_iff k).2 hk1
  have k0_h5 : k0_cond5 k = 1#1 := (cond5_iff k).2 trivial
  have k0_h6 : k0_cond6 k = 1#1 := (cond6_iff k).2 (by omega)
  unfold InvK
  rw [if_pos hk80]
  unfold IdxFlight0 WriteFlight0 GatherFlight1 Owes k0_t1_body
  iintro ⟨Hmw, Hb0, ⟨%f1, Hb1⟩, ⟨Hf0, Hi0⟩, ⟨%Wr, %G5, %hWr, Hf4, Hb5r⟩, Hs9, Ht2, ⟨%G6, %I4, %S2, %hg6, Hf3, Ht3, Hb2⟩, Hs8, Hi1, Hs12, Hout, %W', %hW', HO⟩
  sl_exec
  -- block 2k - 2 has arrived: the blocks below 2k - 1 are written
  have hb0 : (gIx (2 * k.val - 2)).val = 2 * k.val - 2 := gIx_val (by omega)
  ihave Hblk := (Entails.of_eq (pointsTo_congr hWr)) $$ Hf4_dst
  ihave Hall := (blocks_done m d L (gIx (2 * k.val - 2)) (2 * k.val - 2) hb0) $$ [Hblk Hout]
  · isplitl [Hblk]; · iexact Hblk
    iexact Hout
  -- the offset step on chunk 2k
  iapply (wp_head (offset2 (F := F) d L cc0_scoped0 v2 v3 0#32 1#32 k (chunkEnts m d L (gIx (2 * k.val))) Of f1)) $$ [Hf0_dst Hb0 Hb1]
  · isplitl [Hf0_dst]; · iexact Hf0_dst
    isplitl [Hb0]; · iexact Hb0
    iexact Hb1
  iintro %_ ⟨%I3, %S1, %hoff3, Hb3, Hb0, Hb1⟩
  have hin3 : ∀ x, ((s3W).view.read (Elt F) I3 x).toNat < S650007x128.size (gathers_S650007x128_S416x128).axis :=
    fun x => chunk_hin_idx m hpre d (widL L) (gIx (2 * k.val)) _ Of I3 S1 (chunkEnts_eq m d L _) hOf hoff3 x
  sl_exec
  -- the repack of chunk 2k - 1 (gathered into parity 1's buffer)
  iapply (wp_head (repack3 (F := F) d L v2 v3 k k0_h2 _ G6 S2 (fun j => chunk_hSb _ Of I4 S2 hg6.1 j) rfl)) $$ [Hf3_dst Hb2]
  · isplitl [Hf3_dst]; · iexact Hf3_dst
    iexact Hb2
  iintro %_ ⟨%G6', %hrep6, Hb6, Hb2⟩
  -- block 2k - 1 out of the family, as the write-out slices it
  have hb1 : (gIx (2 * k.val - 1)).val = 2 * k.val - 2 + 1 := by rw [gIx_val (by omega)]; omega
  ihave Hsp := (blocks_take m d L (gIx (2 * k.val - 1)) (2 * k.val - 2 + 1) hb1) $$ Hall
  icases Hsp with ⟨Hblk1, Hout⟩
  have hset7 : ((outW).slice (Rect.unit (s := S532480x128) (k0_off7 L k) S104x128.size (k0_off7_inb L k k0_h2)) (fun _ => rfl)).view.set
      = outSet (chunkIx (widL L) (gIx (2 * k.val - 1))) := by
    rw [set_out_off7 L k k0_h2]; congr 2; exact Fin.ext (gIx_val (by omega)).symm
  have e7 : (outLoc d ↦[outSet (chunkIx (widL L) (gIx (2 * k.val - 1)))]{fullShare} out0Arr m d : sProp 𝕄)
      = (((outW).slice (Rect.unit (s := S532480x128) (k0_off7 L k) S104x128.size (k0_off7_inb L k k0_h2)) (fun _ => rfl)).view.loc (thrL d L)
          ↦[((outW).slice (Rect.unit (s := S532480x128) (k0_off7 L k) S104x128.size (k0_off7_inb L k k0_h2)) (fun _ => rfl)).view.set]{fullShare} out0Arr m d) := by
    rw [hset7]
  ihave Hblk1 := (Entails.of_eq e7) $$ Hblk1
  sl_exec
  -- block 2k - 1 has been written and has arrived
  ihave Hblk1 := (Entails.of_eq (pointsTo_congr (g := outArr m d) ?hv1)) $$ Hblk1
  case hv1 =>
    have he7 : k0_off7 L k = ![(widL L).val * 16640 + 104 * (gIx (2 * k.val - 1)).val, 0] := by
      rw [off7_eq L k hk1, gIx_val (by omega)]
    exact block_written6 m d L (gIx (2 * k.val - 1)) (k0_off7_inb L k k0_h2) he7 G6'
      (chunk_value m hpre d (widL L) (gIx (2 * k.val - 1)) (chunkEnts m d L (gIx (2 * k.val - 1))) Of I4 S2 G6 G6' (chunkEnts_eq m d L _) hOf hg6.1 hg6.2 hrep6)
  have e7' : (((outW).slice (Rect.unit (s := S532480x128) (k0_off7 L k) S104x128.size (k0_off7_inb L k k0_h2)) (fun _ => rfl)).view.loc (thrL d L)
          ↦[((outW).slice (Rect.unit (s := S532480x128) (k0_off7 L k) S104x128.size (k0_off7_inb L k k0_h2)) (fun _ => rfl)).view.set]{fullShare} outArr m d : sProp 𝕄)
      = (outLoc d ↦[outSet (chunkIx (widL L) (gIx (2 * k.val - 1)))]{fullShare} outArr m d) := by
    rw [hset7]
  ihave Hblk1 := (Entails.of_eq e7') $$ Hblk1
  ihave Hall := (blocks_done m d L (gIx (2 * k.val - 1)) (2 * k.val - 2 + 1) hb1) $$ [Hblk1 Hout]
  · isplitl [Hblk1]; · iexact Hblk1
    iexact Hout
  -- the offset step on chunk 2k + 1
  iapply (wp_head (offset4 (F := F) d L cc0_scoped0 v2 v3 0#32 1#32 k _ Of S2)) $$ [Hf3_dst_and Hb0 Hb2]
  · isplitl [Hf3_dst_and]; · iexact Hf3_dst_and
    isplitl [Hb0]; · iexact Hb0
    iexact Hb2
  iintro %_ ⟨%I4', %S2', %hoff4, Hb4, Hb0, Hb2⟩
  have hX4 : View.write (Elt F) (s4W).view I4 (tripMid.sl.dma0 m d L k k0_h2 k0_h3) Finset.univ = chunkEnts m d L (gIx (2 * k.val + 1)) :=
    idx_load_contents4 m d L (k0_off5_inb L k k0_h2 k0_h3) _ (off5_idxOff L k) I4
  rw [hX4] at hoff4
  have hin4 : ∀ x, ((s4W).view.read (Elt F) I4' x).toNat < S650007x128.size (gathers_S650007x128_S416x128).axis :=
    fun x => chunk_hin_idx m hpre d (widL L) (gIx (2 * k.val + 1)) _ Of I4' S2' (chunkEnts_eq m d L _) hOf hoff4 x
  sl_exec
  -- the repack of chunk 2k (gathered into parity 0's buffer)
  iapply (wp_head (repack5 (F := F) d L k k0_h5 _ _ S1 (fun j => chunk_hSb _ Of I3 S1 hoff3 j) rfl)) $$ [Hb5r Hb1]
  · isplitl [Hb5r]; · iexact Hb5r
    iexact Hb1
  iintro %_ ⟨%G5', %hrep5, Hb5, Hb1⟩
  -- block 2k out of the family, as the write-out slices it
  have hb2 : (gIx (2 * k.val)).val = 2 * k.val - 2 + 1 + 1 := by rw [gIx_val (by omega)]; omega
  ihave Hsp := (blocks_take m d L (gIx (2 * k.val)) (2 * k.val - 2 + 1 + 1) hb2) $$ Hall
  icases Hsp with ⟨Hblk2, Hout⟩
  have hset12 : ((outW).slice (Rect.unit (s := S532480x128) (k0_off12 L k) S104x128.size (k0_off12_inb L k k0_h5)) (fun _ => rfl)).view.set
      = outSet (chunkIx (widL L) (gIx (2 * k.val))) := by
    rw [set_out_off12 L k]; congr 2; exact Fin.ext (gIx_val (by omega)).symm
  have e12 : (outLoc d ↦[outSet (chunkIx (widL L) (gIx (2 * k.val)))]{fullShare} out0Arr m d : sProp 𝕄)
      = (((outW).slice (Rect.unit (s := S532480x128) (k0_off12 L k) S104x128.size (k0_off12_inb L k k0_h5)) (fun _ => rfl)).view.loc (thrL d L)
          ↦[((outW).slice (Rect.unit (s := S532480x128) (k0_off12 L k) S104x128.size (k0_off12_inb L k k0_h5)) (fun _ => rfl)).view.set]{fullShare} out0Arr m d) := by
    rw [hset12]
  ihave Hblk2 := (Entails.of_eq e12) $$ Hblk2
  sl_exec
  -- the state before trip k + 1
  have hk1' : k.val + 1 < 80 := by omega
  have hg2 : gIx (2 * (k.val + 1)) = gIx (2 * k.val + 2) := congrArg gIx (by omega)
  have hgm2 : gIx (2 * (k.val + 1) - 2) = gIx (2 * k.val) := congrArg gIx (by omega)
  have hgm1 : gIx (2 * (k.val + 1) - 1) = gIx (2 * k.val + 1) := congrArg gIx (by omega)
  have he10 : k0_off10 L k = idxOff L (gIx (2 * (k.val + 1))) := by rw [hg2]; exact off10_idxOff L k hk2
  have hX3' : View.write (Elt F) (s3W).view I3 (tripMid.sl.dma0_2 m d L k k0_h5 k0_h6) Finset.univ = chunkEnts m d L (gIx (2 * (k.val + 1))) :=
    idx_load_contents3 m d L (k0_off10_inb L k k0_h5 k0_h6) _ he10 I3
  ihave HF0 := (idxFlight0_intro m d L (gIx (2 * (k.val + 1))) (k0_off10_inb L k k0_h5 k0_h6) he10 _ hX3') $$ [Hf0 Hi0]
  · isplitl [Hf0]; · iexact Hf0
    iexact Hi0
  have hset12' : ((outW).slice (Rect.unit (s := S532480x128) (k0_off12 L k) S104x128.size (k0_off12_inb L k k0_h5)) (fun _ => rfl)).view.set
      = outSet (chunkIx (widL L) (gIx (2 * (k.val + 1) - 2))) := by rw [hset12, hgm2]
  ihave HW0 := (writeFlight0_intro m d L (gIx (2 * (k.val + 1) - 2)) (k0_off12_inb L k k0_h5) hset12'
      (((outW).slice (Rect.unit (s := S532480x128) (k0_off12 L k) S104x128.size (k0_off12_inb L k k0_h5)) (fun _ => rfl)).view.writes (Elt F) (Vpre m d out')
        [⟨Rect.whole _, ReadAs.same.apply ((g5Sl).view.read (Elt F) G5')⟩]) G5' ?hW5) $$ [Hf4 Hb5]
  case hW5 =>
    intro i hi
    rw [← hset12'] at hi
    have he12 : k0_off12 L k = ![(widL L).val * 16640 + 104 * (gIx (2 * k.val)).val, 0] := by
      rw [off12_eq, gIx_val (by omega)]
    have hG0 := gathered_of5 m d I3 (rfl : S416.numel = S416x128.size (Shape.Gathers.axis' gathers_S650007x128_S416x128)) hin3 (s5W).view.junk
    exact block_written_payload m d L (gIx (2 * k.val)) (k0_off12_inb L k k0_h5) he12 _
      (fun x => (read_g5Sl G5' x).trans
        (chunk_value m hpre d (widL L) (gIx (2 * k.val)) (chunkEnts m d L (gIx (2 * k.val))) Of I3 S1 _ G5' (chunkEnts_eq m d L _) hOf hoff3 hG0 hrep5
          ⟨(x 0).val, idx2_lt0 x⟩ ⟨(x 1).val, idx2_lt1 x⟩)) _ i hi
  · isplitl [Hf4]; · iexact Hf4
    iexact Hb5
  have eOB : (OutBlocks m d L (gIx (2 * k.val)) (2 * k.val - 2 + 1 + 1) : sProp 𝕄) = OutBlocks m d L (gIx (2 * (k.val + 1) - 2)) (2 * (k.val + 1) - 2) := by
    rw [hgm2, show 2 * (k.val + 1) - 2 = 2 * k.val - 2 + 1 + 1 by omega]
  ihave Hout := (Entails.of_eq eOB) $$ Hout
  sl_step
  rw [if_pos hk1']
  unfold IdxFlight0 WriteFlight0
  isplitl [Hmw]; · iexact Hmw
  isplitl [Hb0]; · iexact Hb0
  isplitl [Hb1]; · iexists _; iexact Hb1
  isplitl [HF0]; · iexact HF0
  isplitl [HW0]; · iexact HW0
  isplitl [Hs9]; · iexact Hs9
  isplitl [Ht2]; · iexact Ht2
  isplitl [Hf3 Ht3 Hb2]
  · iexists ((s6W).view.writes (Elt F) G6' [⟨Rect.whole _, tripMid.sl.gather0_1 m d L I4' hin4⟩]), I4', S2'
    isplitr
    · ipureintro
      refine ⟨by rw [hgm1]; exact hoff4, ?_⟩
      exact gathered_of6 m d I4' (rfl : S416.numel = S416x128.size (Shape.Gathers.axis' gathers_S650007x128_S416x128)) hin4 G6'
    isplitl [Hf3]; · iexact Hf3
    isplitl [Ht3]; · iexact Ht3
    iexact Hb2
  isplitl [Hs8]; · iexact Hs8
  isplitl [Hi1]; · iexact Hi1
  isplitl [Hs12]; · iexact Hs12
  isplitl [Hout]; · iexact Hout
  iexists _
  isplitr
  rotate_left
  · iexact HO
  · ipureintro
    intro p hp
    simp only [Finset.mem_insert] at hp
    rcases hp with rfl | rfl | rfl | rfl | rfl | rfl | hp
    · exact .inr rfl
    · exact .inr rfl
    · exact .inr rfl
    · exact .inr rfl
    · exact .inr rfl
    · exact .inr rfl
    · exact hW' p hp

end Cert.Proof.KI

end
-- ==== Proof.KIBodyTrip79.lean ====
/-
  Trip 79 of the main loop: chunks 158 and 159 of the tile, the last two.

  Before the trip the index load of chunk 158, the write-out of chunk 156 and the gather of chunk 157 are in flight. The
  even step waits for block 156 and for chunk 158's entries, does the offset step on them and starts the gather of chunk
  158; then it waits for chunk 157's groups, starts the index load of chunk 159, repacks chunk 157 in place and starts
  writing its block. The odd step does the same one chunk on, except that there is no chunk 160 to load: after the gather
  of chunk 158 has landed, parity 0's index buffer stays idle, its cell at zero and its read token whole. What is left is
  the state after the loop: the write-out of chunk 158 and the gather of chunk 159 in flight, blocks below 158 written.
-/
import proofs.«204936_g5145370820905_cont_8to1_c_618_18_alg».proof.Proof.KIBodyFlights
import proofs.«204936_g5145370820905_cont_8to1_c_618_18_alg».proof.Proof.KIInner
import proofs.«204936_g5145370820905_cont_8to1_c_618_18_alg».proof.Proof.KIOffset2
import proofs.«204936_g5145370820905_cont_8to1_c_618_18_alg».proof.Proof.KIOffset4

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
-- the kernel's memrefs, spelt as the body table passes them
local notation "idxW" => (Memref.whole Cert.KernelIdeal.main_v2_scv : Memref Cert.KernelIdeal.sig Kind.scVector Space.hbm Cert.KernelIdeal.S2129920 EltTy.i32)
local notation "offW" => (Memref.whole Cert.KernelIdeal.main_v8_scv : Memref Cert.KernelIdeal.sig Kind.scVector Space.hbm Cert.KernelIdeal.S416 EltTy.i32)
local notation "tabW" => (Memref.whole Cert.KernelIdeal.main_v12_scv : Memref Cert.KernelIdeal.sig Kind.scVector Space.hbm Cert.KernelIdeal.S650007x128 EltTy.f32)
local notation "outW" => (Memref.whole Cert.KernelIdeal.main_v13_scv : Memref Cert.KernelIdeal.sig Kind.scVector Space.hbm Cert.KernelIdeal.S532480x128 EltTy.f32)
local notation "s0W" => (Memref.whole Cert.KernelIdeal.cc0_scratch0 : Memref Cert.KernelIdeal.sig Kind.scVector Space.vmem Cert.KernelIdeal.S416 EltTy.i32)
local notation "s1W" => (Memref.whole Cert.KernelIdeal.cc0_scratch1 : Memref Cert.KernelIdeal.sig Kind.scVector Space.vmem Cert.KernelIdeal.S416 EltTy.i32)
local notation "s2W" => (Memref.whole Cert.KernelIdeal.cc0_scratch2 : Memref Cert.KernelIdeal.sig Kind.scVector Space.vmem Cert.KernelIdeal.S416 EltTy.i32)
local notation "s3W" => (Memref.whole Cert.KernelIdeal.cc0_scratch3 : Memref Cert.KernelIdeal.sig Kind.scVector Space.vmem Cert.KernelIdeal.S416 EltTy.i32)
local notation "s4W" => (Memref.whole Cert.KernelIdeal.cc0_scratch4 : Memref Cert.KernelIdeal.sig Kind.scVector Space.vmem Cert.KernelIdeal.S416 EltTy.i32)
local notation "s5W" => (Memref.whole Cert.KernelIdeal.cc0_scratch5 : Memref Cert.KernelIdeal.sig Kind.scVector Space.vmem Cert.KernelIdeal.S416x128 EltTy.f32)
local notation "s6W" => (Memref.whole Cert.KernelIdeal.cc0_scratch6 : Memref Cert.KernelIdeal.sig Kind.scVector Space.vmem Cert.KernelIdeal.S416x128 EltTy.f32)

variable (m : (ℓ : Loc nD τ sig) → Buf (Elt F) ℓ)
variable (d : Dev nD) (L : grid0.Coords)
variable [FloatOps F]

/-- A block lands written: the family's threshold moves up by one; a block leaves the family untouched. -/
private theorem blocks_done (b : Fin 160) (n : ℕ) (hb : b.val = n) :
    (iprop((outLoc d ↦[outSet (chunkIx (widL L) b)]{fullShare} outArr m d) ∗ OutBlocks m d L b n) : sProp 𝕄) ⊢ AllBlocks m d L (n + 1) := by
  rw [allBlocks_split m d L b (n + 1), if_pos (by omega), outBlocks_succ m d L b n hb]
private theorem blocks_take (b : Fin 160) (n : ℕ) (hb : b.val = n) :
    (AllBlocks m d L n : sProp 𝕄) ⊢ iprop((outLoc d ↦[outSet (chunkIx (widL L) b)]{fullShare} out0Arr m d) ∗ OutBlocks m d L b n) := by
  rw [allBlocks_split m d L b n, if_neg (by omega)]

/-- Trip 79: no index load of a chunk 160 is issued. -/
theorem trip79 (hpre : PreOK m) (O : CellTallies nD τ sig (HIx 1)) (W : Waits sig (HIx 1)) (Of : S416.Idx → BitVec 32) (hOf : Of = offArr m d)
    (v2 v3 : BitVec 32) (k : Fin k0_t1_loop.trips) (hk : k.val = 79) :
    InvK m d L O W Of 79
      ⊢ wp frame (wpE (defs₀ (F := F)) 𝒱₀ (thrL d L) none) Set.univ (k0_t1_body L (Memref.whole main_v2_scv) (Memref.isWhole_whole _) (Memref.whole main_v8_scv) (Memref.isWhole_whole _) (Memref.whole main_v12_scv) (Memref.isWhole_whole _) (Memref.whole main_v13_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scoped0 v2 v3 k ⟨⟩)
          fun _ => InvK m d L O W Of 80 := by
  have hk80 : k.val < 80 := by omega
  have hk1 : 1 ≤ k.val := by omega
  have k0_h1 : k0_cond1 k = 1#1 := (cond1_iff k).2 hk1
  have k0_h2 : k0_cond2 k = 1#1 := (cond2_iff k).2 hk1
  have k0_h3 : k0_cond3 k = 1#1 := (cond3_iff k).2 trivial
  have k0_h4 : k0_cond4 k = 1#1 := (cond4_iff k).2 hk1
  have k0_h5 : k0_cond5 k = 1#1 := (cond5_iff k).2 trivial
  have k0_h6 : ¬ k0_cond6 k = 1#1 := by rw [cond6_iff]; omega
  -- the state before the trip, at the trip's own number
  rw [show InvK m d L O W Of 79 = InvK m d L O W Of k.val from by rw [hk]]
  unfold InvK
  rw [if_pos hk80, if_neg (by omega : ¬ (80 : ℕ) < 80)]
  unfold IdxFlight0 IdxIdle0 WriteFlight0 GatherFlight1 Owes k0_t1_body
  iintro ⟨Hmw, Hb0, ⟨%f1, Hb1⟩, ⟨Hf0, Hi0⟩, ⟨%Wr, %G5, %hWr, Hf4, Hb5r⟩, Hs9, Ht2, ⟨%G6, %I4, %S2, %hg6, Hf3, Ht3, Hb2⟩, Hs8, Hi1, Hs12, Hout, %W', %hW', HO⟩
  sl_exec
  -- block 2k - 2 has arrived: the blocks below 2k - 1 are written
  have hb0 : (gIx (2 * k.val - 2)).val = 2 * k.val - 2 := gIx_val (by omega)
  ihave Hblk := (Entails.of_eq (pointsTo_congr hWr)) $$ Hf4_dst
  ihave Hall := (blocks_done m d L (gIx (2 * k.val - 2)) (2 * k.val - 2) hb0) $$ [Hblk Hout]
  · isplitl [Hblk]; · iexact Hblk
    iexact Hout
  -- the offset step on chunk 2k
  iapply (wp_head (offset2 (F := F) d L cc0_scoped0 v2 v3 0#32 1#32 k (chunkEnts m d L (gIx (2 * k.val))) Of f1)) $$ [Hf0_dst Hb0 Hb1]
  · isplitl [Hf0_dst]; · iexact Hf0_dst
    isplitl [Hb0]; · iexact Hb0
    iexact Hb1
  iintro %_ ⟨%I3, %S1, %hoff3, Hb3, Hb0, Hb1⟩
  have hin3 : ∀ x, ((s3W).view.read (Elt F) I3 x).toNat < S650007x128.size (gathers_S650007x128_S416x128).axis :=
    fun x => chunk_hin_idx m hpre d (widL L) (gIx (2 * k.val)) _ Of I3 S1 (chunkEnts_eq m d L _) hOf hoff3 x
  sl_exec
  -- the repack of chunk 2k - 1 (gathered into parity 1's buffer)
  iapply (wp_head (repack3 (F := F) d L v2 v3 k k0_h2 trip79.sl.v62 G6 S2 (fun j => chunk_hSb _ Of I4 S2 hg6.1 j) rfl)) $$ [Hf3_dst Hb2]
  · isplitl [Hf3_dst]; · iexact Hf3_dst
    iexact Hb2
  iintro %_ ⟨%G6', %hrep6, Hb6, Hb2⟩
  -- block 2k - 1 out of the family, as the write-out slices it
  have hb1 : (gIx (2 * k.val - 1)).val = 2 * k.val - 2 + 1 := by rw [gIx_val (by omega)]; omega
  ihave Hsp := (blocks_take m d L (gIx (2 * k.val - 1)) (2 * k.val - 2 + 1) hb1) $$ Hall
  icases Hsp with ⟨Hblk1, Hout⟩
  have hset7 : ((outW).slice (Rect.unit (s := S532480x128) (k0_off7 L k) S104x128.size (k0_off7_inb L k k0_h2)) (fun _ => rfl)).view.set
      = outSet (chunkIx (widL L) (gIx (2 * k.val - 1))) := by
    rw [set_out_off7 L k k0_h2]; congr 2; exact Fin.ext (gIx_val (by omega)).symm
  have e7 : (outLoc d ↦[outSet (chunkIx (widL L) (gIx (2 * k.val - 1)))]{fullShare} out0Arr m d : sProp 𝕄)
      = (((outW).slice (Rect.unit (s := S532480x128) (k0_off7 L k) S104x128.size (k0_off7_inb L k k0_h2)) (fun _ => rfl)).view.loc (thrL d L)
          ↦[((outW).slice (Rect.unit (s := S532480x128) (k0_off7 L k) S104x128.size (k0_off7_inb L k k0_h2)) (fun _ => rfl)).view.set]{fullShare} out0Arr m d) := by
    rw [hset7]
  ihave Hblk1 := (Entails.of_eq e7) $$ Hblk1
  sl_exec
  -- block 2k - 1 has been written and has arrived
  ihave Hblk1 := (Entails.of_eq (pointsTo_congr (g := outArr m d) ?hv1)) $$ Hblk1
  case hv1 =>
    have he7 : k0_off7 L k = ![(widL L).val * 16640 + 104 * (gIx (2 * k.val - 1)).val, 0] := by
      rw [off7_eq L k hk1, gIx_val (by omega)]
    exact block_written6 m d L (gIx (2 * k.val - 1)) (k0_off7_inb L k k0_h2) he7 G6'
      (fun r c => chunk_value m hpre d (widL L) (gIx (2 * k.val - 1)) (chunkEnts m d L (gIx (2 * k.val - 1))) Of I4 S2 G6 G6'
        (chunkEnts_eq m d L _) hOf hg6.1 hg6.2 hrep6 r c)
  have e7' : (((outW).slice (Rect.unit (s := S532480x128) (k0_off7 L k) S104x128.size (k0_off7_inb L k k0_h2)) (fun _ => rfl)).view.loc (thrL d L)
          ↦[((outW).slice (Rect.unit (s := S532480x128) (k0_off7 L k) S104x128.size (k0_off7_inb L k k0_h2)) (fun _ => rfl)).view.set]{fullShare} outArr m d : sProp 𝕄)
      = (outLoc d ↦[outSet (chunkIx (widL L) (gIx (2 * k.val - 1)))]{fullShare} outArr m d) := by
    rw [hset7]
  ihave Hblk1 := (Entails.of_eq e7') $$ Hblk1
  ihave Hall := (blocks_done m d L (gIx (2 * k.val - 1)) (2 * k.val - 2 + 1) hb1) $$ [Hblk1 Hout]
  · isplitl [Hblk1]; · iexact Hblk1
    iexact Hout
  -- the offset step on chunk 2k + 1
  iapply (wp_head (offset4 (F := F) d L cc0_scoped0 v2 v3 0#32 1#32 k _ Of S2)) $$ [Hf3_dst_and Hb0 Hb2]
  · isplitl [Hf3_dst_and]; · iexact Hf3_dst_and
    isplitl [Hb0]; · iexact Hb0
    iexact Hb2
  iintro %_ ⟨%I4', %S2', %hoff4, Hb4, Hb0, Hb2⟩
  have hX4 : View.write (Elt F) (s4W).view I4 (trip79.sl.dma0 m d L k k0_h2 k0_h3) Finset.univ = chunkEnts m d L (gIx (2 * k.val + 1)) :=
    idx_load_contents4 m d L (k0_off5_inb L k k0_h2 k0_h3) _ (off5_idxOff L k) I4
  rw [hX4] at hoff4
  have hin4 : ∀ x, ((s4W).view.read (Elt F) I4' x).toNat < S650007x128.size (gathers_S650007x128_S416x128).axis :=
    fun x => chunk_hin_idx m hpre d (widL L) (gIx (2 * k.val + 1)) _ Of I4' S2' (chunkEnts_eq m d L _) hOf hoff4 x
  sl_exec
  -- the repack of chunk 2k (gathered into parity 0's buffer)
  iapply (wp_head (repack5 (F := F) d L k k0_h5 trip79.sl.v62_1 _ S1 (fun j => chunk_hSb _ Of I3 S1 hoff3 j) rfl)) $$ [Hb5r Hb1]
  · isplitl [Hb5r]; · iexact Hb5r
    iexact Hb1
  iintro %_ ⟨%G5', %hrep5, Hb5, Hb1⟩
  -- block 2k out of the family, as the write-out slices it
  have hb2 : (gIx (2 * k.val)).val = 2 * k.val - 2 + 1 + 1 := by rw [gIx_val (by omega)]; omega
  ihave Hsp := (blocks_take m d L (gIx (2 * k.val)) (2 * k.val - 2 + 1 + 1) hb2) $$ Hall
  icases Hsp with ⟨Hblk2, Hout⟩
  have hset12 : ((outW).slice (Rect.unit (s := S532480x128) (k0_off12 L k) S104x128.size (k0_off12_inb L k k0_h5)) (fun _ => rfl)).view.set
      = outSet (chunkIx (widL L) (gIx (2 * k.val))) := by
    rw [set_out_off12 L k]; congr 2; exact Fin.ext (gIx_val (by omega)).symm
  have e12 : (outLoc d ↦[outSet (chunkIx (widL L) (gIx (2 * k.val)))]{fullShare} out0Arr m d : sProp 𝕄)
      = (((outW).slice (Rect.unit (s := S532480x128) (k0_off12 L k) S104x128.size (k0_off12_inb L k k0_h5)) (fun _ => rfl)).view.loc (thrL d L)
          ↦[((outW).slice (Rect.unit (s := S532480x128) (k0_off12 L k) S104x128.size (k0_off12_inb L k k0_h5)) (fun _ => rfl)).view.set]{fullShare} out0Arr m d) := by
    rw [hset12]
  ihave Hblk2 := (Entails.of_eq e12) $$ Hblk2
  sl_exec
  -- the state after the last trip
  have hgm2 : gIx (2 * 80 - 2) = gIx (2 * k.val) := congrArg gIx (by omega)
  have hgm1 : gIx (2 * 80 - 1) = gIx (2 * k.val + 1) := congrArg gIx (by omega)
  have hset12' : ((outW).slice (Rect.unit (s := S532480x128) (k0_off12 L k) S104x128.size (k0_off12_inb L k k0_h5)) (fun _ => rfl)).view.set
      = outSet (chunkIx (widL L) (gIx (2 * 80 - 2))) := by rw [hset12, hgm2]
  have he12 : k0_off12 L k = ![(widL L).val * 16640 + 104 * (gIx (2 * k.val)).val, 0] := by
    rw [off12_eq L k, gIx_val (by omega)]
  have hG5 : ∀ (r : Fin 104) (c : Fin 128),
      G5' (ix2 (⟨r.val, Nat.lt_trans r.isLt (by decide)⟩ : Fin 416) c) = outArr m d (ix2 (chunkRow (widL L) (gIx (2 * k.val)) r) c) :=
    fun r c => chunk_value m hpre d (widL L) (gIx (2 * k.val)) (chunkEnts m d L (gIx (2 * k.val))) Of I3 S1 _ G5'
      (chunkEnts_eq m d L _) hOf hoff3 (gathered_of5 m d I3 (by decide) hin3 _) hrep5 r c
  ihave HW0 := (writeFlight0_intro m d L (gIx (2 * 80 - 2)) (k0_off12_inb L k k0_h5) hset12' _ G5' ?hW5) $$ [Hf4 Hb5]
  rotate_left
  · isplitl [Hf4]; · iexact Hf4
    iexact Hb5
  case hW5 =>
    rw [← hset12']
    exact block_written_payload m d L (gIx (2 * k.val)) (k0_off12_inb L k k0_h5) he12 _
      (fun x => (read_g5Sl G5' x).trans (hG5 ⟨(x 0).val, idx2_lt0 x⟩ ⟨(x 1).val, idx2_lt1 x⟩)) _
  have eOB : (OutBlocks m d L (gIx (2 * k.val)) (2 * k.val - 2 + 1 + 1) : sProp 𝕄) = OutBlocks m d L (gIx (2 * 80 - 2)) (2 * 80 - 2) := by
    rw [hgm2, show 2 * 80 - 2 = 2 * k.val - 2 + 1 + 1 by omega]
  ihave Hout := (Entails.of_eq eOB) $$ Hout
  sl_step
  unfold WriteFlight0
  isplitl [Hmw]; · iexact Hmw
  isplitl [Hb0]; · iexact Hb0
  isplitl [Hb1]; · iexists _; iexact Hb1
  -- parity 0's index side stays idle: there is no chunk 160 to load
  isplitl [Hb3 Hf0 Hi0]
  · isplitl [Hb3]; · iexists _; iexact Hb3
    isplitl [Hf0]; · iexact Hf0
    iexact Hi0
  isplitl [HW0]; · iexact HW0
  isplitl [Hs9]; · iexact Hs9
  isplitl [Ht2]; · iexact Ht2
  isplitl [Hf3 Ht3 Hb2]
  · iexists _, I4', S2'
    isplitr
    rotate_left
    · isplitl [Hf3]; · iexact Hf3
      isplitl [Ht3]; · iexact Ht3
      iexact Hb2
    ipureintro
    exact ⟨by rw [hgm1]; exact hoff4, gathered_of6 m d I4' (by decide) hin4 G6'⟩
  isplitl [Hs8]; · iexact Hs8
  isplitl [Hi1]; · iexact Hi1
  isplitl [Hs12]; · iexact Hs12
  isplitl [Hout]; · iexact Hout
  iexists _
  isplitr
  rotate_left
  · iexact HO
  · ipureintro
    intro p hp
    simp only [Finset.mem_insert] at hp
    rcases hp with rfl | rfl | rfl | rfl | rfl | rfl | hp
    · exact .inr rfl
    · exact .inr rfl
    · exact .inr rfl
    · exact .inr rfl
    · exact .inr rfl
    · exact .inr rfl
    · exact hW' p hp

end Cert.Proof.KI

end
-- ==== Proof.KIBodyParts.lean ====
/-
  One trip of the main loop from the invariant before it to the invariant after it: the first trip, the trips in the
  middle and the last trip, by cases on the trip number.
-/
import proofs.«204936_g5145370820905_cont_8to1_c_618_18_alg».proof.Proof.KIBodyTrip0
import proofs.«204936_g5145370820905_cont_8to1_c_618_18_alg».proof.Proof.KIBodyTripMid
import proofs.«204936_g5145370820905_cont_8to1_c_618_18_alg».proof.Proof.KIBodyTrip79

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
-- the kernel's memrefs, spelt as the body table passes them
local notation "idxW" => (Memref.whole Cert.KernelIdeal.main_v2_scv : Memref Cert.KernelIdeal.sig Kind.scVector Space.hbm Cert.KernelIdeal.S2129920 EltTy.i32)
local notation "offW" => (Memref.whole Cert.KernelIdeal.main_v8_scv : Memref Cert.KernelIdeal.sig Kind.scVector Space.hbm Cert.KernelIdeal.S416 EltTy.i32)
local notation "tabW" => (Memref.whole Cert.KernelIdeal.main_v12_scv : Memref Cert.KernelIdeal.sig Kind.scVector Space.hbm Cert.KernelIdeal.S650007x128 EltTy.f32)
local notation "outW" => (Memref.whole Cert.KernelIdeal.main_v13_scv : Memref Cert.KernelIdeal.sig Kind.scVector Space.hbm Cert.KernelIdeal.S532480x128 EltTy.f32)
local notation "s0W" => (Memref.whole Cert.KernelIdeal.cc0_scratch0 : Memref Cert.KernelIdeal.sig Kind.scVector Space.vmem Cert.KernelIdeal.S416 EltTy.i32)
local notation "s1W" => (Memref.whole Cert.KernelIdeal.cc0_scratch1 : Memref Cert.KernelIdeal.sig Kind.scVector Space.vmem Cert.KernelIdeal.S416 EltTy.i32)
local notation "s2W" => (Memref.whole Cert.KernelIdeal.cc0_scratch2 : Memref Cert.KernelIdeal.sig Kind.scVector Space.vmem Cert.KernelIdeal.S416 EltTy.i32)
local notation "s3W" => (Memref.whole Cert.KernelIdeal.cc0_scratch3 : Memref Cert.KernelIdeal.sig Kind.scVector Space.vmem Cert.KernelIdeal.S416 EltTy.i32)
local notation "s4W" => (Memref.whole Cert.KernelIdeal.cc0_scratch4 : Memref Cert.KernelIdeal.sig Kind.scVector Space.vmem Cert.KernelIdeal.S416 EltTy.i32)
local notation "s5W" => (Memref.whole Cert.KernelIdeal.cc0_scratch5 : Memref Cert.KernelIdeal.sig Kind.scVector Space.vmem Cert.KernelIdeal.S416x128 EltTy.f32)
local notation "s6W" => (Memref.whole Cert.KernelIdeal.cc0_scratch6 : Memref Cert.KernelIdeal.sig Kind.scVector Space.vmem Cert.KernelIdeal.S416x128 EltTy.f32)

variable (m : (ℓ : Loc nD τ sig) → Buf (Elt F) ℓ)
variable (d : Dev nD) (L : grid0.Coords)
variable [FloatOps F]

/-- One trip of the main loop, whichever. -/
theorem trip (hpre : PreOK m) (O : CellTallies nD τ sig (HIx 1)) (W : Waits sig (HIx 1)) (Of : S416.Idx → BitVec 32) (hOf : Of = offArr m d)
    (v2 v3 : BitVec 32) (k : Fin k0_t1_loop.trips) (acc : PUnit) :
    inv m d L O W Of k.val acc
      ⊢ wp frame (wpE (defs₀ (F := F)) 𝒱₀ (thrL d L) none) Set.univ (k0_t1_body L (Memref.whole main_v2_scv) (Memref.isWhole_whole _) (Memref.whole main_v8_scv) (Memref.isWhole_whole _) (Memref.whole main_v12_scv) (Memref.isWhole_whole _) (Memref.whole main_v13_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scoped0 v2 v3 k acc)
          (inv m d L O W Of (k.val + 1)) := by
  have hk80 : k.val < 80 := k.isLt
  obtain rfl : acc = ⟨⟩ := rfl
  by_cases h0 : k.val = 0
  · rw [h0, inv_zero]
    refine (trip0 m d L hpre O W Of hOf v2 v3 k h0).trans (wp_mono frame _ _ fun _ => ?_)
    rw [inv_pos (hk := by omega)]
  · by_cases h79 : k.val = 79
    · rw [inv_pos (hk := by omega), h79]
      refine (trip79 m d L hpre O W Of hOf v2 v3 k h79).trans (wp_mono frame _ _ fun _ => ?_)
      rw [inv_pos (hk := by omega)]
    · rw [inv_pos (hk := by omega)]
      refine (tripMid m d L hpre O W Of hOf v2 v3 k (by omega) (by omega)).trans (wp_mono frame _ _ fun _ => ?_)
      rw [inv_pos (hk := by omega)]

end Cert.Proof.KI

end
-- ==== Proof.KIBodyLibEpi.lean ====
/-
  What the steps after the main loop need: a read share's tokens joined back, two blocks taken out of the family of
  result blocks and the family closed again once both are written, and the invariant read after the last trip.
-/
import proofs.«204936_g5145370820905_cont_8to1_c_618_18_alg».proof.Proof.KIBodyInvLib

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
-- the kernel's memrefs, spelt as the body table passes them
local notation "idxW" => (Memref.whole Cert.KernelIdeal.main_v2_scv : Memref Cert.KernelIdeal.sig Kind.scVector Space.hbm Cert.KernelIdeal.S2129920 EltTy.i32)
local notation "offW" => (Memref.whole Cert.KernelIdeal.main_v8_scv : Memref Cert.KernelIdeal.sig Kind.scVector Space.hbm Cert.KernelIdeal.S416 EltTy.i32)
local notation "tabW" => (Memref.whole Cert.KernelIdeal.main_v12_scv : Memref Cert.KernelIdeal.sig Kind.scVector Space.hbm Cert.KernelIdeal.S650007x128 EltTy.f32)
local notation "outW" => (Memref.whole Cert.KernelIdeal.main_v13_scv : Memref Cert.KernelIdeal.sig Kind.scVector Space.hbm Cert.KernelIdeal.S532480x128 EltTy.f32)
local notation "s0W" => (Memref.whole Cert.KernelIdeal.cc0_scratch0 : Memref Cert.KernelIdeal.sig Kind.scVector Space.vmem Cert.KernelIdeal.S416 EltTy.i32)
local notation "s1W" => (Memref.whole Cert.KernelIdeal.cc0_scratch1 : Memref Cert.KernelIdeal.sig Kind.scVector Space.vmem Cert.KernelIdeal.S416 EltTy.i32)
local notation "s2W" => (Memref.whole Cert.KernelIdeal.cc0_scratch2 : Memref Cert.KernelIdeal.sig Kind.scVector Space.vmem Cert.KernelIdeal.S416 EltTy.i32)
local notation "s3W" => (Memref.whole Cert.KernelIdeal.cc0_scratch3 : Memref Cert.KernelIdeal.sig Kind.scVector Space.vmem Cert.KernelIdeal.S416 EltTy.i32)
local notation "s4W" => (Memref.whole Cert.KernelIdeal.cc0_scratch4 : Memref Cert.KernelIdeal.sig Kind.scVector Space.vmem Cert.KernelIdeal.S416 EltTy.i32)
local notation "s5W" => (Memref.whole Cert.KernelIdeal.cc0_scratch5 : Memref Cert.KernelIdeal.sig Kind.scVector Space.vmem Cert.KernelIdeal.S416x128 EltTy.f32)
local notation "s6W" => (Memref.whole Cert.KernelIdeal.cc0_scratch6 : Memref Cert.KernelIdeal.sig Kind.scVector Space.vmem Cert.KernelIdeal.S416x128 EltTy.f32)

variable (m : (ℓ : Loc nD τ sig) → Buf (Elt F) ℓ)
variable (d : Dev nD) (L : grid0.Coords)

/-! ## Read tokens joined back -/

/-- The remainder and the two tokens of a read share make the share again; the same for four. -/
theorem toks2_join {ℓ : Loc nD τ sig} (f : Buf (Elt F) ℓ) (q : PosShare TreeShare) :
    iprop((ℓ ↦{Transfers.shareDrop q 2} f) ∗ (ℓ ↦{Transfers.shareTok q 2 0} f) ∗ (ℓ ↦{Transfers.shareTok q 2 1} f)) ⊢ (ℓ ↦{q} f : sProp 𝕄) := by
  have h : iprop((ℓ ↦{Transfers.shareDrop q 2} f) ∗ bigSep Finset.univ (fun i : Fin 2 => ℓ ↦{Transfers.shareTok q 2 i} f)) ⊢ (ℓ ↦{q} f : sProp 𝕄) :=
    Transfers.pointsTo_toks_join q 2
  rw [show (Finset.univ : Finset (Fin 2)) = {0, 1} by decide, SparseCore.bigSep_insert' (by decide), bigSep_singleton] at h
  exact h
theorem toks4_join {ℓ : Loc nD τ sig} (f : Buf (Elt F) ℓ) (q : PosShare TreeShare) :
    iprop((ℓ ↦{Transfers.shareDrop q 4} f) ∗ (ℓ ↦{Transfers.shareTok q 4 0} f) ∗ (ℓ ↦{Transfers.shareTok q 4 1} f)
      ∗ (ℓ ↦{Transfers.shareTok q 4 2} f) ∗ (ℓ ↦{Transfers.shareTok q 4 3} f)) ⊢ (ℓ ↦{q} f : sProp 𝕄) := by
  have h : iprop((ℓ ↦{Transfers.shareDrop q 4} f) ∗ bigSep Finset.univ (fun i : Fin 4 => ℓ ↦{Transfers.shareTok q 4 i} f)) ⊢ (ℓ ↦{q} f : sProp 𝕄) :=
    Transfers.pointsTo_toks_join q 4
  rw [show (Finset.univ : Finset (Fin 4)) = {0, 1, 2, 3} by decide, SparseCore.bigSep_insert' (by decide), SparseCore.bigSep_insert' (by decide),
    SparseCore.bigSep_insert' (by decide), bigSep_singleton] at h
  exact h

variable [FloatOps F]

/-! ## The last two blocks -/

/-- The blocks other than b and c: those below n written, the others untouched. -/
def OutBlocks2 (b c : Fin 160) (n : ℕ) : sProp 𝕄 :=
  bigSep ((Finset.univ.erase b).erase c) fun g : Fin 160 =>
    outLoc d ↦[outSet (chunkIx (widL L) g)]{fullShare} (if g.val < n then outArr m d else out0Arr m d)

/-- A second block out of the family. -/
theorem outBlocks_split (b c : Fin 160) (hcb : c ≠ b) (n : ℕ) :
    (OutBlocks m d L b n : sProp 𝕄)
      = iprop((outLoc d ↦[outSet (chunkIx (widL L) c)]{fullShare} (if c.val < n then outArr m d else out0Arr m d)) ∗ OutBlocks2 m d L b c n) := by
  unfold OutBlocks OutBlocks2
  exact SparseCore.bigSep_erase' (Finset.mem_erase.mpr ⟨hcb, Finset.mem_univ c⟩)

/-- Both blocks written and every other block below the threshold: all 160 blocks are written. -/
theorem blocks_close2 (b c : Fin 160) (hcb : c ≠ b) (n : ℕ) (hall : ∀ g : Fin 160, g ≠ b → g ≠ c → g.val < n) :
    (iprop((outLoc d ↦[outSet (chunkIx (widL L) b)]{fullShare} outArr m d) ∗ (outLoc d ↦[outSet (chunkIx (widL L) c)]{fullShare} outArr m d)
        ∗ OutBlocks2 m d L b c n) : sProp 𝕄)
      ⊢ bigSep Finset.univ fun g : Fin 160 => outLoc d ↦[outSet (chunkIx (widL L) g)]{fullShare} outArr m d := by
  have e : (OutBlocks2 m d L b c n : sProp 𝕄)
      = bigSep ((Finset.univ.erase b).erase c) fun g : Fin 160 => outLoc d ↦[outSet (chunkIx (widL L) g)]{fullShare} outArr m d := by
    unfold OutBlocks2
    refine bigSep_congr fun g hg => ?_
    have h1 := Finset.mem_erase.mp hg
    have h2 := Finset.mem_erase.mp h1.2
    rw [if_pos (hall g h2.1 h1.1)]
  rw [e, SparseCore.bigSep_erase' (Finset.mem_univ b) (Φ := fun g : Fin 160 => outLoc d ↦[outSet (chunkIx (widL L) g)]{fullShare} outArr m d),
    SparseCore.bigSep_erase' (Finset.mem_erase.mpr ⟨hcb, Finset.mem_univ c⟩) (Φ := fun g : Fin 160 => outLoc d ↦[outSet (chunkIx (widL L) g)]{fullShare} outArr m d)]

/-! ## After the last trip -/

theorem gIx_158 : gIx 158 = (⟨158, by decide⟩ : Fin 160) := rfl
theorem gIx_159 : gIx 159 = (⟨159, by decide⟩ : Fin 160) := rfl

/-- The invariant after the 80 trips, spelt out: no index load in flight, the write-out of chunk 158 and the gather of
    chunk 159 in flight, block 158 out of the family. -/
theorem inv_after (O : CellTallies nD τ sig (HIx 1)) (W : Waits sig (HIx 1)) (Of : S416.Idx → BitVec 32) (n : ℕ) (hn : n = 80) (u : PUnit) :
    (inv m d L O W Of n u : sProp 𝕄)
      = iprop(Transfers.MayWaits (thrL d L) (none : HIx 1) O
          ∗ ((s0W).view.loc (thrL d L) ↦{fullShare} Of)
          ∗ (∃ f, (s1W).view.loc (thrL d L) ↦{fullShare} f)
          ∗ ((∃ f, (s3W).view.loc (thrL d L) ↦{fullShare} f) ∗ semVal (cellOf d L cc0_scratch7) 0 ∗ ((idxW).view.loc (thrL d L) ↦{tokI L 0} Vpre m d idx'))
          ∗ (∃ (Wr : S532480x128.Idx → Elt F .f32) (G : S416x128.Idx → Elt F .f32),
              ⌜∀ i ∈ outSet (chunkIx (widL L) (gIx 158)), Wr i = outArr m d i⌝
              ∗ Transfers.Flight countersEmb (thrL d L) (SemLoc.dma cc0_scratch11.sem) (default : HIx 1) 425984
                  iprop(((outW).view.loc (thrL d L) ↦[outSet (chunkIx (widL L) (gIx 158))]{fullShare} Wr) ∗ ((s5W).view.loc (thrL d L) ↦[(g5Sl).view.set]{fullShare} G))
              ∗ ((s5W).view.loc (thrL d L) ↦[Finset.univ \ (g5Sl).view.set]{fullShare} G))
          ∗ semVal (cellOf d L cc0_scratch9) 0 ∗ ((tabW).view.loc (thrL d L) ↦{tokT L 2} Vpre m d tab')
          ∗ (∃ (G : S416x128.Idx → Elt F .f32) (I Sb : S416.Idx → BitVec 32),
              ⌜Steps.OffsetDone (chunkEnts m d L (gIx 159)) Of I Sb ∧ Gathered m d G I⌝
              ∗ Transfers.Flight countersEmb (thrL d L) (SemLoc.dma cc0_scratch10.sem) (default : HIx 1) 1703936
                  iprop((((s6W).view.loc (thrL d L) ↦{fullShare} G) ∗ ((s4W).view.loc (thrL d L) ↦{fullShare} I))
                    ∗ ((tabW).view.loc (thrL d L) ↦[(tabSl).view.set]{tokT L 3} Vpre m d tab'))
              ∗ ((tabW).view.loc (thrL d L) ↦[Finset.univ \ (tabSl).view.set]{tokT L 3} Vpre m d tab')
              ∗ ((s2W).view.loc (thrL d L) ↦{fullShare} Sb))
          ∗ semVal (cellOf d L cc0_scratch8) 0 ∗ ((idxW).view.loc (thrL d L) ↦{tokI L 1} Vpre m d idx')
          ∗ semVal (cellOf d L cc0_scratch12) 0
          ∗ OutBlocks m d L (gIx 158) 158
          ∗ ∃ W', ⌜∀ p ∈ W', p ∈ W ∨ p.2 = none⌝ ∗ owes (thrL d L) O W') := by
  subst hn
  rw [inv_pos (hk := by omega)]
  unfold InvK
  rw [if_neg (by omega)]
  unfold IdxIdle0 WriteFlight0 GatherFlight1 Owes
  rfl

end Cert.Proof.KI

end
-- ==== Proof.KIBody.lean ====
/-
  The tile's body: one vector subcore's task, from its part of the call's operands to its 160 blocks of the result.

  The task copies the offsets in, starts the index loads of chunks 0 and 1, and runs 80 trips of two steps each. Step g, on
  the buffers of its parity: wait for the write-out of chunk g - 2 (if any), wait for the index load of chunk g, turn the
  entries into group numbers and quarters (the offset loop), start the gather of the 416 groups; then, for chunk g - 1 on the
  other parity: wait for its gather, start the index load of chunk g + 1 into the list that gather has returned, repack the
  selected quarters into 104 rows in place, start their write-out to the chunk's block of the result. Each semaphore carries
  one copy at a time and no buffer of a copy is touched between its issue and its wait. The loop's invariant says which
  copies are in flight before step 2 k and that the blocks below 2 k - 2 hold the call's result `outArr`; after the loop the
  last chunk is repacked and written out, the two outstanding write-outs are awaited, and everything the task was handed is
  handed back, the 160 blocks at `outArr`.
-/
import proofs.«204936_g5145370820905_cont_8to1_c_618_18_alg».proof.Proof.KIBodyInvLib
import proofs.«204936_g5145370820905_cont_8to1_c_618_18_alg».proof.Proof.KIBodyParts
import proofs.«204936_g5145370820905_cont_8to1_c_618_18_alg».proof.Proof.KIInner
import proofs.«204936_g5145370820905_cont_8to1_c_618_18_alg».proof.Proof.KIBodyLibEpi
import proofs.«204936_g5145370820905_cont_8to1_c_618_18_alg».proof.Proof.KIBodyLibView

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

-- the kernel's memrefs, spelt as the body table passes them
local notation "idxW" => (Memref.whole Cert.KernelIdeal.main_v2_scv : Memref Cert.KernelIdeal.sig Kind.scVector Space.hbm Cert.KernelIdeal.S2129920 EltTy.i32)
local notation "offW" => (Memref.whole Cert.KernelIdeal.main_v8_scv : Memref Cert.KernelIdeal.sig Kind.scVector Space.hbm Cert.KernelIdeal.S416 EltTy.i32)
local notation "tabW" => (Memref.whole Cert.KernelIdeal.main_v12_scv : Memref Cert.KernelIdeal.sig Kind.scVector Space.hbm Cert.KernelIdeal.S650007x128 EltTy.f32)
local notation "outW" => (Memref.whole Cert.KernelIdeal.main_v13_scv : Memref Cert.KernelIdeal.sig Kind.scVector Space.hbm Cert.KernelIdeal.S532480x128 EltTy.f32)
local notation "s0W" => (Memref.whole Cert.KernelIdeal.cc0_scratch0 : Memref Cert.KernelIdeal.sig Kind.scVector Space.vmem Cert.KernelIdeal.S416 EltTy.i32)
local notation "s1W" => (Memref.whole Cert.KernelIdeal.cc0_scratch1 : Memref Cert.KernelIdeal.sig Kind.scVector Space.vmem Cert.KernelIdeal.S416 EltTy.i32)
local notation "s2W" => (Memref.whole Cert.KernelIdeal.cc0_scratch2 : Memref Cert.KernelIdeal.sig Kind.scVector Space.vmem Cert.KernelIdeal.S416 EltTy.i32)
local notation "s3W" => (Memref.whole Cert.KernelIdeal.cc0_scratch3 : Memref Cert.KernelIdeal.sig Kind.scVector Space.vmem Cert.KernelIdeal.S416 EltTy.i32)
local notation "s4W" => (Memref.whole Cert.KernelIdeal.cc0_scratch4 : Memref Cert.KernelIdeal.sig Kind.scVector Space.vmem Cert.KernelIdeal.S416 EltTy.i32)
local notation "s5W" => (Memref.whole Cert.KernelIdeal.cc0_scratch5 : Memref Cert.KernelIdeal.sig Kind.scVector Space.vmem Cert.KernelIdeal.S416x128 EltTy.f32)
local notation "s6W" => (Memref.whole Cert.KernelIdeal.cc0_scratch6 : Memref Cert.KernelIdeal.sig Kind.scVector Space.vmem Cert.KernelIdeal.S416x128 EltTy.f32)

variable (m : (ℓ : Loc nD τ sig) → Buf (Elt F) ℓ)
variable (d : Dev nD) (L : grid0.Coords)

theorem pts_idx (q : PosShare TreeShare) (f : Buf (Elt F) (idxLoc d)) :
    ((idxW).view.loc (thrL d L) ↦{q} f : sProp 𝕄) = idxLoc d ↦{q} f := by
  simp only [Memref.view_whole, View.set_whole]
theorem pts_off (q : PosShare TreeShare) (f : Buf (Elt F) (offLoc d)) :
    ((offW).view.loc (thrL d L) ↦{q} f : sProp 𝕄) = offLoc d ↦{q} f := by
  simp only [Memref.view_whole, View.set_whole]
theorem pts_tab (q : PosShare TreeShare) (f : Buf (Elt F) (tabLoc d)) :
    ((tabW).view.loc (thrL d L) ↦{q} f : sProp 𝕄) = tabLoc d ↦{q} f := by
  simp only [Memref.view_whole, View.set_whole]

/-- An array's read share as a remainder and two tokens, or four. -/
theorem toks2 {ℓ : Loc nD τ sig} (f : Buf (Elt F) ℓ) (q : PosShare TreeShare) :
    (ℓ ↦{q} f : sProp 𝕄) ⊢ iprop((ℓ ↦{Transfers.shareDrop q 2} f) ∗ (ℓ ↦{Transfers.shareTok q 2 0} f) ∗ (ℓ ↦{Transfers.shareTok q 2 1} f)) := by
  refine (Transfers.pointsTo_toks_split q 2).trans ?_
  rw [show (Finset.univ : Finset (Fin 2)) = {0, 1} by decide, SparseCore.bigSep_insert' (by decide), bigSep_singleton]
theorem toks4 {ℓ : Loc nD τ sig} (f : Buf (Elt F) ℓ) (q : PosShare TreeShare) :
    (ℓ ↦{q} f : sProp 𝕄) ⊢ iprop((ℓ ↦{Transfers.shareDrop q 4} f) ∗ (ℓ ↦{Transfers.shareTok q 4 0} f) ∗ (ℓ ↦{Transfers.shareTok q 4 1} f)
      ∗ (ℓ ↦{Transfers.shareTok q 4 2} f) ∗ (ℓ ↦{Transfers.shareTok q 4 3} f)) := by
  refine (Transfers.pointsTo_toks_split q 4).trans ?_
  rw [show (Finset.univ : Finset (Fin 4)) = {0, 1, 2, 3} by decide, SparseCore.bigSep_insert' (by decide), SparseCore.bigSep_insert' (by decide),
    SparseCore.bigSep_insert' (by decide), bigSep_singleton]

variable [FloatOps F]

theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ tileP m d (widL L) (out0Arr m d)
        ∗ scopedBufs (thrL d L) ∗ scopedSems0 (thrL d L) ∗ owes (thrL d L) O W)
      ⊢ wp frame (wpE (defs₀ (F := F)) 𝒱₀ (thrL d L) none) Set.univ
          (cc0__embed_body L (Memref.whole main_v2_scv) (Memref.isWhole_whole _) (Memref.whole main_v8_scv) (Memref.isWhole_whole _) (Memref.whole main_v12_scv) (Memref.isWhole_whole _) (Memref.whole main_v13_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scoped0)
          fun _ => iprop(tileP m d (widL L) (outArr m d) ∗ scopedBufs (thrL d L) ∗ scopedSems0 (thrL d L)
            ∗ ∃ W', ⌜∀ p ∈ W', p ∈ W ∨ p.2 = none⌝ ∗ owes (thrL d L) O W') := by
  simp only [cc0__embed_body_eq_skeleton]; unfold cc0__embed_body_skel
  simp only [k0_part26_eq_skeleton]; unfold k0_part26_skel
  rw [(K (F := F)).scopedBufs_V hF d (cV L) (jV L), SparseCore.Cfg.scopedSems0_V (Val := Elt F) d (cV L) (jV L), ownSems0_V, ownBufs_V]
  unfold tileP
  iintro ⟨#Hlv, -, ⟨Hidx, Hoff, Htab, Hout⟩, ⟨⟨%f0, Hb0⟩, ⟨%f1, Hb1⟩, ⟨%f2, Hb2⟩, ⟨%f3, Hb3⟩, ⟨%f4, Hb4⟩, ⟨%f5, Hb5⟩, ⟨%f6, Hb6⟩, Hbufs⟩,
    ⟨Hs7, Hs8, Hs9, Hs10, Hs11, Hs12, Hsc0, Hsems⟩, HO⟩
  ihave Hmw := ((K (F := F)).mayWaits_none (thr := thrL d L) hO) $$ Hlv
  -- a read token per semaphore the reads complete on: the index loads on cells 0 and 1, the gathers on cells 2 and 3
  ihave Hidx2 := (toks2 (F := F) _ _) $$ Hidx
  icases Hidx2 with ⟨HidxR, Hidx0, Hidx1⟩
  ihave Htab4 := (toks4 (F := F) _ _) $$ Htab
  icases Htab4 with ⟨HtabR, Htab0, Htab1, Htab2, Htab3⟩
  ihave Hidx0' := (Entails.of_eq (pts_idx (F := F) d L _ _).symm) $$ Hidx0
  ihave Hidx1' := (Entails.of_eq (pts_idx (F := F) d L _ _).symm) $$ Hidx1
  ihave Hoff' := (Entails.of_eq (pts_off (F := F) d L _ _).symm) $$ Hoff
  ihave Htab2' := (Entails.of_eq (pts_tab (F := F) d L _ _).symm) $$ Htab2
  ihave Htab3' := (Entails.of_eq (pts_tab (F := F) d L _ _).symm) $$ Htab3
  have hb0 : ((s0W).view.loc (thrL d L) ↦{fullShare} f0 : sProp 𝕄) = ((thrL d L).loc cc0_scratch0 ↦{fullShare} f0) := rfl
  ihave Hb0' := (Entails.of_eq hb0.symm) $$ Hb0
  have hb1 : ((s1W).view.loc (thrL d L) ↦{fullShare} f1 : sProp 𝕄) = ((thrL d L).loc cc0_scratch1 ↦{fullShare} f1) := rfl
  ihave Hb1' := (Entails.of_eq hb1.symm) $$ Hb1
  have hb2 : ((s2W).view.loc (thrL d L) ↦{fullShare} f2 : sProp 𝕄) = ((thrL d L).loc cc0_scratch2 ↦{fullShare} f2) := rfl
  ihave Hb2' := (Entails.of_eq hb2.symm) $$ Hb2
  have hb3 : ((s3W).view.loc (thrL d L) ↦{fullShare} f3 : sProp 𝕄) = ((thrL d L).loc cc0_scratch3 ↦{fullShare} f3) := rfl
  ihave Hb3' := (Entails.of_eq hb3.symm) $$ Hb3
  have hb4 : ((s4W).view.loc (thrL d L) ↦{fullShare} f4 : sProp 𝕄) = ((thrL d L).loc cc0_scratch4 ↦{fullShare} f4) := rfl
  ihave Hb4' := (Entails.of_eq hb4.symm) $$ Hb4
  have hb5 : ((s5W).view.loc (thrL d L) ↦{fullShare} f5 : sProp 𝕄) = ((thrL d L).loc cc0_scratch5 ↦{fullShare} f5) := rfl
  ihave Hb5' := (Entails.of_eq hb5.symm) $$ Hb5
  have hb6 : ((s6W).view.loc (thrL d L) ↦{fullShare} f6 : sProp 𝕄) = ((thrL d L).loc cc0_scratch6 ↦{fullShare} f6) := rfl
  ihave Hb6' := (Entails.of_eq hb6.symm) $$ Hb6
  sl_exec
  -- the main loop
  sl_rw [bind_assoc]
  sl_for (inv m d L O W (View.write (Elt F) (s0W).view f0 (tile_body.sl.dma0 m d) Finset.univ)) $$ [Hmw Hb0' Hb1' Hb2' Hb5' Hb6' Hs7 Hidx0' Hs8 Hidx1' Htab2' Htab3' Hs9 Hs10 Hs11 Hs12 Hout HO]
  case region =>
    intro k acc
    exact trip m d L hpre O W _ (by unfold tile_body.sl.dma0; exact View.write_whole_univ _ _ _) _ _ k acc
  · rw [inv_zero]
    unfold Inv0 IdxFlight0 IdxFlight1 Owes
    -- the two slices loaded before the loop are chunks 0 and 1 of the tile
    have he0 : k0_off1 L 0#32 = idxOff L (gIx 0) := by
      rw [off1_eq_0]; unfold idxOff; rw [gIx_val (by decide)]
    have he1 : k0_off1 L 416#32 = idxOff L (gIx 1) := by
      rw [off1_eq_1]; unfold idxOff; rw [gIx_val (by decide)]
    -- a slice at a chunk's offset reads the chunk's entries and covers the chunk's slice
    have hrd : ∀ (off : Fin 1 → ℕ) (h : ∀ a, off a + S416.size a ≤ S2129920.size a) (g : Fin 160), off = idxOff L g →
        View.read (Elt F) ((idxW).slice (Rect.unit (s := S2129920) off S416.size h) (fun _ => rfl)).view (Vpre m d idx') = chunkEnts m d L g
          ∧ ((idxW).slice (Rect.unit (s := S2129920) off S416.size h) (fun _ => rfl)).view.set = (idxSl L g).view.set := by
      intro off h g he; subst he; exact ⟨rfl, rfl⟩
    -- what the two loads deliver: the chunks' entries
    have hc0 : View.write (Elt F) (s3W).view f3 (tile_body.sl.dma0_1 m d L) Finset.univ = chunkEnts m d L (gIx 0) := by
      unfold tile_body.sl.dma0_1
      exact (View.write_whole_univ _ _ _).trans (hrd _ _ _ he0).1
    have hc1 : View.write (Elt F) (s4W).view f4 (tile_body.sl.dma0_2 m d L) Finset.univ = chunkEnts m d L (gIx 1) := by
      unfold tile_body.sl.dma0_2
      exact (View.write_whole_univ _ _ _).trans (hrd _ _ _ he1).1
    rw [hc0, hc1, (hrd _ _ _ he0).2, (hrd _ _ _ he1).2]
    isplitl []; · iexact Hmw
    isplitl [Hb0']; · iexact Hb0'
    isplitl [Hb1']; · iexists f1; iexact Hb1'
    isplitl [Hb2']; · iexists f2; iexact Hb2'
    isplitl [Hb5']; · iexists f5; iexact Hb5'
    isplitl [Hb6']; · iexists f6; iexact Hb6'
    isplitl [Hs7 Hidx0']
    · isplitl [Hs7]; · iexact Hs7
      iexact Hidx0'
    isplitl [Hs8 Hidx1']
    · isplitl [Hs8]; · iexact Hs8
      iexact Hidx1'
    isplitl [Htab2']; · iexact Htab2'
    isplitl [Htab3']; · iexact Htab3'
    isplitl [Hs9]; · iexact Hs9
    isplitl [Hs10]; · iexact Hs10
    isplitl [Hs11]; · iexact Hs11
    isplitl [Hs12]; · iexact Hs12
    isplitl [Hout]; · iexact Hout
    iexists insert ((SemLoc.dma cc0_scoped0.sem : SemLoc sig), (default : HIx 1)) W
    isplitr [HO]
    · ipureintro
      intro p hp
      rcases Finset.mem_insert.mp hp with rfl | hp
      · exact Or.inr rfl
      · exact Or.inl hp
    iexact HO
  iintro %acc HI
  -- after the 80 trips
  ihave HI := (Entails.of_eq (inv_after m d L O W _ _ (by decide) acc)) $$ HI
  icases HI with ⟨-, Hb0, ⟨%f1', Hb1⟩, ⟨⟨%f3', Hb3⟩, Hs7, Hi0⟩, ⟨%Wr, %G5, %hWr, Hf4, Hb5r⟩, Hs9, Ht2, ⟨%G6, %I4, %S2, %hg6, Hf3, Ht3, Hb2⟩, Hs8, Hi1, Hs12, Hout, %W', %hW', HO⟩
  sl_exec
  sl_rw [bind_assoc]
  have hOf : View.write (Elt F) (s0W).view f0 (tile_body.sl.dma0 m d) Finset.univ = offArr m d := by
    unfold tile_body.sl.dma0; exact View.write_whole_univ _ _ _
  -- the repack of chunk 159 (gathered into parity 1's buffer)
  iapply (wp_head (repack6 (F := F) d L _ G6 S2 (fun j => chunk_hSb _ _ I4 S2 hg6.1 j) rfl)) $$ [Hf3_dst Hb2]
  · isplitl [Hf3_dst]; · iexact Hf3_dst
    iexact Hb2
  iintro %_ ⟨%G6', %hrep6, Hb6, Hb2⟩
  -- block 159 out of the family, as the write-out slices it
  have hne : gIx 159 ≠ gIx 158 := by decide
  ihave Hsp := (Entails.of_eq (outBlocks_split m d L (gIx 158) (gIx 159) hne 158)) $$ Hout
  icases Hsp with ⟨Hblk, Hout⟩
  have hset159 : ((outW).slice (Rect.unit (s := S532480x128) (k0_off14 L 16536#32) S104x128.size (k0_off14_inb L 1)) (fun _ => rfl)).view.set
      = outSet (chunkIx (widL L) (gIx 159)) := set_out_off14_159 L _
  have e159 : (outLoc d ↦[outSet (chunkIx (widL L) (gIx 159))]{fullShare} (if (gIx 159).val < 158 then outArr m d else out0Arr m d) : sProp 𝕄)
      = (((outW).slice (Rect.unit (s := S532480x128) (k0_off14 L 16536#32) S104x128.size (k0_off14_inb L 1)) (fun _ => rfl)).view.loc (thrL d L)
          ↦[((outW).slice (Rect.unit (s := S532480x128) (k0_off14 L 16536#32) S104x128.size (k0_off14_inb L 1)) (fun _ => rfl)).view.set]{fullShare} out0Arr m d) := by
    rw [hset159, if_neg (by decide)]
  ihave Hblk := (Entails.of_eq e159) $$ Hblk
  sl_exec
  -- block 158 has arrived at the call's result
  ihave Hb158 := (Entails.of_eq (pointsTo_congr hWr)) $$ Hf4_dst
  -- block 159 has been written from the repacked buffer and has arrived: its rows are the call's result
  have hG6 : ∀ (r : Fin 104) (c : Fin 128),
      G6' (ix2 (⟨r.val, Nat.lt_trans r.isLt (by decide)⟩ : Fin 416) c) = outArr m d (ix2 (chunkRow (widL L) (gIx 159) r) c) :=
    chunk_value m hpre d (widL L) (gIx 159) _ _ I4 S2 G6 G6' (chunkEnts_eq m d L _) hOf hg6.1 hg6.2 hrep6
  ihave Hblk := (Entails.of_eq (pointsTo_congr (g := outArr m d) ?hv159)) $$ Hblk
  case hv159 =>
    exact block_written_payload m d L (gIx 159) _ (off14_eq_159 L) _
      (fun x => by
        unfold tile_body.sl.dma0_3
        exact (read_g6Sl G6' x).trans (hG6 ⟨(x 0).val, idx2_lt0 x⟩ ⟨(x 1).val, idx2_lt1 x⟩)) _
  have e159' : (((outW).slice (Rect.unit (s := S532480x128) (k0_off14 L 16536#32) S104x128.size (k0_off14_inb L 1)) (fun _ => rfl)).view.loc (thrL d L)
          ↦[((outW).slice (Rect.unit (s := S532480x128) (k0_off14 L 16536#32) S104x128.size (k0_off14_inb L 1)) (fun _ => rfl)).view.set]{fullShare} outArr m d : sProp 𝕄)
      = (outLoc d ↦[outSet (chunkIx (widL L) (gIx 159))]{fullShare} outArr m d) := by
    rw [hset159]
  ihave Hblk := (Entails.of_eq e159') $$ Hblk
  -- all 160 blocks are written
  ihave Hall := (blocks_close2 m d L (gIx 158) (gIx 159) hne 158 ?hall) $$ [Hb158 Hblk Hout]
  case hall =>
    intro g hb hc
    have h1 : g.val ≠ 158 := fun e => hb (Fin.ext (e.trans (gIx_val (by decide)).symm))
    have h2 : g.val ≠ 159 := fun e => hc (Fin.ext (e.trans (gIx_val (by decide)).symm))
    have := g.isLt
    omega
  · isplitl [Hb158]; · iexact Hb158
    isplitl [Hblk]; · iexact Hblk
    iexact Hout
  -- the read tokens joined back
  ihave Hi0 := (Entails.of_eq (pts_idx (F := F) d L _ _)) $$ Hi0
  ihave Hi1 := (Entails.of_eq (pts_idx (F := F) d L _ _)) $$ Hi1
  ihave Hidx := (toks2_join (F := F) _ _) $$ [HidxR Hi0 Hi1]
  · isplitl [HidxR]; · iexact HidxR
    isplitl [Hi0]; · iexact Hi0
    iexact Hi1
  ihave Ht2 := (Entails.of_eq (pts_tab (F := F) d L _ _)) $$ Ht2
  ihave Ht3 := (Entails.of_eq (pts_tab (F := F) d L _ _)) $$ Ht3
  ihave Htab := (toks4_join (F := F) _ _) $$ [HtabR Htab0 Htab1 Ht2 Ht3]
  · isplitl [HtabR]; · iexact HtabR
    isplitl [Htab0]; · iexact Htab0
    isplitl [Htab1]; · iexact Htab1
    isplitl [Ht2]; · iexact Ht2
    iexact Ht3
  ihave Hoff := (Entails.of_eq (pts_off (F := F) d L _ _)) $$ Hoff'
  -- the tile's part, its own buffers and semaphores, and what it owes
  sl_step
  isplitl [Hidx Hoff Htab Hall]
  · isplitl [Hidx]; · iexact Hidx
    isplitl [Hoff]; · iexact Hoff
    isplitl [Htab]; · iexact Htab
    iexact Hall
  isplitl [Hb0 Hb1 Hb2 Hb3 Hf3_dst_and Hb5r Hb6 Hbufs]
  · isplitl [Hb0]; · iexists _; iexact Hb0
    isplitl [Hb1]; · iexists _; iexact Hb1
    isplitl [Hb2]; · iexists _; iexact Hb2
    isplitl [Hb3]; · iexists _; iexact Hb3
    isplitl [Hf3_dst_and]; · iexists _; iexact Hf3_dst_and
    isplitl [Hb5r]; · iexists _; iexact Hb5r
    isplitl [Hb6]; · iexists _; iexact Hb6
    iexact Hbufs
  isplitl [Hs7 Hs8 Hs9 Hf3 Hf4 Hs12 Hsc0 Hsems]
  · isplitl [Hs7]; · iexact Hs7
    isplitl [Hs8]; · iexact Hs8
    isplitl [Hs9]; · iexact Hs9
    isplitl [Hf3]; · iexact Hf3
    isplitl [Hf4]; · iexact Hf4
    isplitl [Hs12]; · iexact Hs12
    isplitl [Hsc0]; · iexact Hsc0
    iexact Hsems
  iexists insert ((SemLoc.dma cc0_scratch12.sem : SemLoc sig), (default : HIx 1))
    (insert ((SemLoc.dma cc0_scratch11.sem : SemLoc sig), (default : HIx 1)) (insert ((SemLoc.dma cc0_scratch10.sem : SemLoc sig), (default : HIx 1)) W'))
  isplitr
  · ipureintro
    intro p hp
    simp only [Finset.mem_insert] at hp
    rcases hp with rfl | rfl | rfl | hp
    · exact .inr rfl
    · exact .inr rfl
    · exact .inr rfl
    · exact hW' p hp
  · iexact HO

end Cert.Proof.KI

end
-- ==== Proof.KIObl.lean ====
/-
  The tile obligation of the launch theorem from the tile's body: the label table's row for a vector subcore is the
  kernel's function at that subcore's coordinates.
-/
import proofs.«204936_g5145370820905_cont_8to1_c_618_18_alg».proof.Proof.KIBody

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

def coordsV (c : Fin (grid0.bound 0)) (s : Fin (grid0.bound 1)) : grid0.Coords :=
  fun | 0 => c | 1 => s | ⟨_ + 2, h⟩ => absurd h (Nat.not_lt.2 (Nat.le_add_left _ _))

variable [FloatOps F]

theorem defs₀_vector (c : Fin τ.nSC) (s : Fin τ.nSub) :
    defs₀ (F := F) (.scVector c s) 0 ()
      = SparseCore.onTile hcore0 hsub0 (fun c s => cc0__embed_body (coordsV c s)
          (Memref.whole main_v2_scv) (Memref.isWhole_whole _) (Memref.whole main_v8_scv) (Memref.isWhole_whole _) (Memref.whole main_v12_scv) (Memref.isWhole_whole _) (Memref.whole main_v13_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) facts hpre O W hO).trans (wp_mono frame _ _ fun _ => obl_post)

end Cert.Proof.KI

end
-- ==== Proof.KILaunch1.lean ====
/-
  The call's four arrays among the 32 tiles, and back.

  The index list, the offsets and the grouped table, which every tile reads whole, go out as one read share a tile, the
  remainder of the full share staying with the TensorCore until the tiles' shares come back. The result array is cut
  along its first axis into 5120 blocks of 104 rows, tile w holding blocks 160 w … 160 w + 159. Tile numbers are read
  as pairs (SparseCore c, subcore i) through w = 2 i + c, block numbers as pairs (tile w, chunk g) through
  k = 160 w + g; both match pairs with numbers one to one.
-/
import proofs.«204936_g5145370820905_cont_8to1_c_618_18_alg».proof.Proof.KICommon

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sub_split held_congr held_sdiff_result wp_hlo_within wp_seq seq after)

variable {F : FTy → Type}

local notation "𝕄" => MT nD τ sig (HIx 1) (Elt F) ℕ UU ℕ

/-! ## The blocks of the result -/

theorem outSet_eq (k : Fin 5120) : outSet k = (outPart k).set := by
  show ((View.whole (main_v13_scv : Ref sig .scVector)).slice (outPart k)).set = _
  rw [View.set_slice]; exact Finset.map_refl

theorem out_disjoint : ∀ i ∈ (Finset.univ : Finset (Fin 5120)), ∀ j ∈ (Finset.univ : Finset (Fin 5120)), i ≠ j → Disjoint (outSet i) (outSet j) :=
  fun i _ j _ h => by rw [outSet_eq, outSet_eq]; exact Rect.part_disjoint hdivO h
theorem out_cover : (Finset.univ : Finset (Fin 5120)).biUnion outSet = Finset.univ :=
  (Finset.biUnion_congr rfl fun i _ => outSet_eq i).trans (Rect.biUnion_part hdivO)

/-- The result array whole is its 5120 blocks. -/
theorem out_parts (d : Dev nD) (f : Buf (Elt F) (outLoc d)) :
    (outLoc d ↦{fullShare} f : sProp 𝕄) = bigSep Finset.univ fun k : Fin 5120 => outLoc d ↦[outSet k]{fullShare} f := by
  rw [← pointsTo_biUnion Finset.univ (ℓ := outLoc d) outSet out_disjoint, out_cover]; try rfl

/-! ## Tile numbers and block numbers as pairs -/

/-- (SparseCore, subcore) pairs and tile numbers, through w = 2 i + c. -/
def widE : Fin 2 × Fin 16 ≃ Fin 32 where
  toFun p := wid p.1 p.2
  invFun w := (⟨w.val % 2, Nat.mod_lt _ (by decide)⟩, ⟨w.val / 2, by have := w.isLt; omega⟩)
  left_inv p := by
    obtain ⟨c, i⟩ := p
    have hc := c.isLt; have hi := i.isLt
    refine Prod.ext (Fin.ext ?_) (Fin.ext ?_)
    · show (2 * i.val + c.val) % 2 = c.val; omega
    · show (2 * i.val + c.val) / 2 = i.val; omega
  right_inv w := by
    refine Fin.ext ?_
    show 2 * (w.val / 2) + w.val % 2 = w.val; omega

/-- (tile, chunk) pairs and block numbers, through k = 160 w + g. -/
def chunkE : Fin 32 × Fin 160 ≃ Fin 5120 where
  toFun p := chunkIx p.1 p.2
  invFun k := (⟨k.val / 160, by have := k.isLt; omega⟩, ⟨k.val % 160, Nat.mod_lt _ (by decide)⟩)
  left_inv p := by
    obtain ⟨w, g⟩ := p
    have hw := w.isLt; have hg := g.isLt
    refine Prod.ext (Fin.ext ?_) (Fin.ext ?_)
    · show (160 * w.val + g.val) / 160 = w.val; omega
    · show (160 * w.val + g.val) % 160 = g.val; omega
  right_inv k := by
    refine Fin.ext ?_
    show 160 * (k.val / 160) + k.val % 160 = k.val; omega

/-- A family over the 32 tiles, regrouped by SparseCore and subcore. -/
theorem bigSep_wid (Φ : Fin 32 → sProp 𝕄) :
    bigSep Finset.univ Φ = bigSep Finset.univ fun c : Fin 2 => bigSep Finset.univ fun i : Fin 16 => Φ (wid c i) := by
  rw [bigSep_univ_equiv widE Φ, bigSep_univ_prod]; rfl

/-- A family over the 5120 blocks, regrouped by tile and chunk. -/
theorem bigSep_chunk (Φ : Fin 5120 → sProp 𝕄) :
    bigSep Finset.univ Φ = bigSep Finset.univ fun w : Fin 32 => bigSep Finset.univ fun g : Fin 160 => Φ (chunkIx w g) := by
  rw [bigSep_univ_equiv chunkE Φ, bigSep_univ_prod]; rfl

/-! ## The four arrays out to the tiles and back -/

/-- The TensorCore's remainder of the three arrays every tile reads. -/
def tcKeep (m : (ℓ : Loc nD τ sig) → Buf (Elt F) ℓ) [FloatOps F] (d : Dev nD) : sProp 𝕄 :=
  iprop((idxLoc d ↦{Transfers.shareDrop fullShare 32} idxArr m d) ∗ (offLoc d ↦{Transfers.shareDrop fullShare 32} offArr m d)
    ∗ (tabLoc d ↦{Transfers.shareDrop fullShare 32} tabArr m d))

variable (m : (ℓ : Loc nD τ sig) → Buf (Elt F) ℓ) [FloatOps F]

/-- The index list, the offsets, the grouped table and the result array, each whole, are the TensorCore's remainder
    and the 32 tiles' parts. -/
theorem arrays_tiles (d : Dev nD) (fo : Buf (Elt F) (outLoc d)) :
    (iprop((idxLoc d ↦{fullShare} idxArr m d) ∗ (offLoc d ↦{fullShare} offArr m d) ∗ (tabLoc d ↦{fullShare} tabArr m d) ∗ (outLoc d ↦{fullShare} fo)) : sProp 𝕄)
      ⊣⊢ iprop(tcKeep m d ∗ bigSep Finset.univ fun c : Fin 2 => bigSep Finset.univ fun i : Fin 16 => tileP m d (wid c i) fo) := by
  rw [← bigSep_wid (F := F) (fun w => tileP m d w fo)]
  unfold tileP tcKeep
  rw [bigSep_sep', bigSep_sep', bigSep_sep', out_parts, bigSep_chunk (F := F) (fun k => outLoc d ↦[outSet k]{fullShare} fo)]
  constructor
  · iintro ⟨Hi, Ho, Ht, Hr⟩
    ihave Hi' := (Transfers.pointsTo_toks_split fullShare 32) $$ Hi
    ihave Ho' := (Transfers.pointsTo_toks_split fullShare 32) $$ Ho
    ihave Ht' := (Transfers.pointsTo_toks_split fullShare 32) $$ Ht
    icases Hi' with ⟨Hik, His⟩
    icases Ho' with ⟨Hok, Hos⟩
    icases Ht' with ⟨Htk, Hts⟩
    isplitl [Hik Hok Htk]
    · isplitl [Hik]; · iexact Hik
      isplitl [Hok]; · iexact Hok
      iexact Htk
    isplitl [His]; · iexact His
    isplitl [Hos]; · iexact Hos
    isplitl [Hts]; · iexact Hts
    iexact Hr
  · iintro ⟨⟨Hik, Hok, Htk⟩, His, Hos, Hts, Hr⟩
    isplitl [Hik His]
    · iapply (Transfers.pointsTo_toks_join fullShare 32)
      isplitl [Hik]; · iexact Hik
      iexact His
    isplitl [Hok Hos]
    · iapply (Transfers.pointsTo_toks_join fullShare 32)
      isplitl [Hok]; · iexact Hok
      iexact Hos
    isplitl [Htk Hts]
    · iapply (Transfers.pointsTo_toks_join fullShare 32)
      isplitl [Htk]; · iexact Htk
      iexact Hts
    iexact Hr

end Cert.Proof.KI

end
-- ==== Proof.KILaunch2.lean ====
/-
  The TensorCore's side of the program: its nineteen arrays held whole, the operations before the call run as one
  straight line from the launch contents to the contents at the call, the call's four arrays taken out of the nineteen
  and put back with the result array at what the tiles left, and the one operation after the call, whose result is the
  call's result array read at the shape [4096, 20, 832]; the two arguments are written by no operation.
-/
import proofs.«204936_g5145370820905_cont_8to1_c_618_18_alg».proof.Proof.KICommon

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sub_split held_congr held_sdiff_result wp_hlo_within wp_seq seq after)

variable {F : FTy → Type}

local notation "𝕄" => MT nD τ sig (HIx 1) (Elt F) ℕ UU ℕ

variable (m : (ℓ : Loc nD τ sig) → Buf (Elt F) ℓ)

/-! ## The TensorCore's arrays -/

/-- None of the TensorCore's references is scoped: all are @main's arrays. -/
theorem tc_unscoped : (Finset.univ.filter fun b : Ref sig .tc => ¬ b.isScoped) = Finset.univ := by decide

/-- The TensorCore's arrays; the call's four; the three the claim speaks of. -/
abbrev S19 : Finset (DevRef τ sig) := StableHlo.tcRefs τ sig
abbrev S4 : Finset (DevRef τ sig) := {idx', off', tab', out'}
abbrev S3 : Finset (DevRef τ sig) := {res', a0', a1'}

theorem S4_sub : S4 ⊆ S19 := by
  intro b hb; simp only [S4, Finset.mem_insert, Finset.mem_singleton] at hb
  rcases hb with rfl | rfl | rfl | rfl <;> exact StableHlo.devRef_mem_tcRefs _
theorem S3_sub : S3 ⊆ S19 := by
  intro b hb; simp only [S3, Finset.mem_insert, Finset.mem_singleton] at hb
  rcases hb with rfl | rfl | rfl <;> exact StableHlo.devRef_mem_tcRefs _

theorem unscoped_held (d : Dev nD) : (unscopedBufs d (fun b => m ((SparseCore.T d).loc b)) : sProp 𝕄) = held (T d) S19 (V0 m d) := by
  unfold unscopedBufs held
  rw [tc_unscoped]
  show _ = bigSep (Finset.univ.map ⟨Proc.devRef (sig := sig) (.tc : Proc τ), Proc.devRef_injective _⟩) _
  rw [bigSep_map]; rfl

theorem held_S4 (d : Dev nD) (W : Valuation τ sig (Elt F)) :
    (held (T d) S4 W : sProp 𝕄)
      = iprop((idxLoc d ↦{fullShare} W idx') ∗ (offLoc d ↦{fullShare} W off') ∗ (tabLoc d ↦{fullShare} W tab') ∗ (outLoc d ↦{fullShare} W out')) := by
  unfold held S4
  rw [SparseCore.bigSep_insert' (by decide), SparseCore.bigSep_insert' (by decide), SparseCore.bigSep_insert' (by decide), bigSep_singleton]

theorem held_S3 (d : Dev nD) (W : Valuation τ sig (Elt F)) :
    (held (T d) S3 W : sProp 𝕄) = iprop((resLoc d ↦{fullShare} W res') ∗ (a0Loc d ↦{fullShare} W a0') ∗ (a1Loc d ↦{fullShare} W a1')) := by
  unfold held S3
  rw [SparseCore.bigSep_insert' (by decide), SparseCore.bigSep_insert' (by decide), bigSep_singleton]

variable [FloatOps F]

/-! ## The operations as straight lines -/

theorem preOps_bufs : ∀ op ∈ preOps (F := F), op.bufs ⊆ S19 := by
  intro op h
  repeat (cases h with
    | head => first | exact StableHlo.reshape_bufs_sub .. | exact StableHlo.unary_bufs_sub .. | exact StableHlo.nullary_bufs_sub .. | exact StableHlo.binary_bufs_sub ..
    | tail _ h => ?_)
  exact nomatch h
theorem preOps_fresh : ∀ op ∈ preOps (F := F), op.fresh = ∅ := by
  intro op h
  repeat (cases h with | head => rfl | tail _ h => ?_)
  exact nomatch h
theorem postOp_bufs : ∀ op ∈ [postOp (F := F)], op.bufs ⊆ S19 := by
  intro op h
  cases h with
  | head => exact StableHlo.reshape_bufs_sub ..
  | tail _ h => exact nomatch h
theorem postOp_fresh : ∀ op ∈ [postOp (F := F)], op.fresh = ∅ := by
  intro op h
  cases h with
  | head => rfl
  | tail _ h => exact nomatch h

/-- @main is the operations before the call, the call, the operation after it. -/
theorem main_eq (d : Dev nD) :
    main (F := F) d = (seq (preOps (F := F)) >>= fun _ => (K (F := F)).run d 0 >>= fun _ => seq [postOp (F := F)] >>= fun u => pure u) := by
  rfl

/-! ## The contents after the call -/

/-- The arrays' contents when the call has returned: the result array at what the tiles left, the rest as at the call. -/
def Vpost (d : Dev nD) : Valuation τ sig (Elt F) := Function.update (Vpre m d) out' (outArr m d)

theorem Vpost_idx (d : Dev nD) : Vpost m d idx' = idxArr m d := Function.update_of_ne (show idx' ≠ out' by decide) _ _
theorem Vpost_off (d : Dev nD) : Vpost m d off' = offArr m d := Function.update_of_ne (show off' ≠ out' by decide) _ _
theorem Vpost_tab (d : Dev nD) : Vpost m d tab' = tabArr m d := Function.update_of_ne (show tab' ≠ out' by decide) _ _
theorem Vpost_out (d : Dev nD) : Vpost m d out' = outArr m d := Function.update_self _ _ _

/-- At the call: the four arrays out of the nineteen. -/
theorem held_pre (d : Dev nD) :
    (held (T d) S19 (after (preOps (F := F)) (V0 m d)) : sProp 𝕄)
      = iprop(((idxLoc d ↦{fullShare} idxArr m d) ∗ (offLoc d ↦{fullShare} offArr m d) ∗ (tabLoc d ↦{fullShare} tabArr m d) ∗ (outLoc d ↦{fullShare} out0Arr m d))
          ∗ held (T d) (S19 \ S4) (Vpre m d)) := by
  show (held (T d) S19 (Vpre m d) : sProp 𝕄) = _
  rw [held_sub_split (T d) S4_sub, held_S4]

/-- The other fifteen arrays are as at the call. -/
theorem held_rest (d : Dev nD) : (held (T d) (S19 \ S4) (Vpost m d) : sProp 𝕄) = held (T d) (S19 \ S4) (Vpre m d) :=
  held_congr (T d) fun b hb => Function.update_of_ne (fun e => (Finset.mem_sdiff.mp hb).2 (by subst e; decide)) _ _

/-- After the call: the four arrays back among the nineteen, the result array at what the tiles left. -/
theorem held_post (d : Dev nD) :
    (iprop(((idxLoc d ↦{fullShare} idxArr m d) ∗ (offLoc d ↦{fullShare} offArr m d) ∗ (tabLoc d ↦{fullShare} tabArr m d) ∗ (outLoc d ↦{fullShare} outArr m d))
          ∗ held (T d) (S19 \ S4) (Vpre m d)) : sProp 𝕄)
      = held (T d) S19 (Vpost m d) := by
  rw [held_sub_split (T d) S4_sub (Vpost m d), held_S4, Vpost_idx, Vpost_off, Vpost_tab, Vpost_out, held_rest]

/-! ## The contents at the end -/

theorem Vfin_res (d : Dev nD) : after [postOp (F := F)] (Vpost m d) res' = resArr m d := by
  simp only [StableHlo.after_cons, StableHlo.after_nil]
  rw [StableHlo.reshape_result, Vpost_out]
  rfl

theorem Vpre_a0 (d : Dev nD) : Vpre m d a0' = m (a0Loc d) := by
  unfold Vpre
  after_results
  rfl
theorem Vpre_a1 (d : Dev nD) : Vpre m d a1' = m (a1Loc d) := by
  unfold Vpre
  after_results
  rfl

theorem Vfin_a0 (d : Dev nD) : after [postOp (F := F)] (Vpost m d) a0' = m (a0Loc d) := by
  simp only [StableHlo.after_cons, StableHlo.after_nil]
  rw [StableHlo.reshape_result_ne (h := show main_arg0 ≠ main_v14 by decide)]
  exact (Function.update_of_ne (show a0' ≠ out' by decide) _ _).trans (Vpre_a0 m d)
theorem Vfin_a1 (d : Dev nD) : after [postOp (F := F)] (Vpost m d) a1' = m (a1Loc d) := by
  simp only [StableHlo.after_cons, StableHlo.after_nil]
  rw [StableHlo.reshape_result_ne (h := show main_arg1 ≠ main_v14 by decide)]
  exact (Function.update_of_ne (show a1' ≠ out' by decide) _ _).trans (Vpre_a1 m d)

/-- What @main leaves the claim: the result at the call's result array read at its shape, the arguments as launched. -/
abbrev FIN (d : Dev nD) : sProp 𝕄 :=
  iprop((resLoc d ↦{fullShare} resArr m d) ∗ (a0Loc d ↦{fullShare} m (a0Loc d)) ∗ (a1Loc d ↦{fullShare} m (a1Loc d)))

theorem held_fin (d : Dev nD) : (held (T d) S19 (after [postOp (F := F)] (Vpost m d)) : sProp 𝕄) ⊢ FIN m d := by
  rw [held_sub_split (T d) S3_sub, held_S3, Vfin_res, Vfin_a0, Vfin_a1]
  exact sep_elim_left

end Cert.Proof.KI

end
-- ==== Proof.KILaunch.lean ====
/-
  The launch: from one tile's body (taken as given) to the run of the whole program, its result named.

  A SparseCore's part of the call is its sixteen tiles' parts, so the sequencer's split is a regrouping; the ghost state
  is the handshakes' rounds beside the transfers' counters, of which the launch keeps only the rounds. @main on the
  TensorCore runs the operations before the call as one line, deals the call's four arrays to the 32 tiles, makes the
  call, takes them back with the result array at what the tiles left, and runs the one operation after it; the final
  memory is read off the three arrays the claim speaks of.
-/
import proofs.«204936_g5145370820905_cont_8to1_c_618_18_alg».proof.Proof.KICommon
import proofs.«204936_g5145370820905_cont_8to1_c_618_18_alg».proof.Proof.KILaunch1
import proofs.«204936_g5145370820905_cont_8to1_c_618_18_alg».proof.Proof.KILaunch2

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sub_split held_congr held_sdiff_result wp_hlo_within wp_seq seq after)

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## A SparseCore's part among its sixteen tiles -/

/-- What the call's handshakes carry, as equations. -/
theorem P_st (d : Dev nD) (c : Fin ((K (F := F)).nCore 0)) :
    (P m).st 0 d c = bigSep Finset.univ fun i : Fin 16 => tileP m d (wid (Fin.cast nCore_zero c) i) (out0Arr m d) := by
  unfold P; dsimp only
theorem P_dn (d : Dev nD) (c : Fin ((K (F := F)).nCore 0)) :
    (P m).dn 0 d c = bigSep Finset.univ fun i : Fin 16 => tileP m d (wid (Fin.cast nCore_zero c) i) (outArr m d) := by
  unfold P; dsimp only
theorem P_go (d : Dev nD) (c : Fin ((K (F := F)).nCore 0)) (i : Fin ((K (F := F)).nSub 0)) :
    (P m).go 0 d c i = tileP m d (wid (Fin.cast nCore_zero c) (Fin.cast nSub_zero i)) (out0Arr m d) := by
  unfold P; rfl
theorem P_td (d : Dev nD) (c : Fin ((K (F := F)).nCore 0)) (i : Fin ((K (F := F)).nSub 0)) :
    (P m).td 0 d c i = tileP m d (wid (Fin.cast nCore_zero c) (Fin.cast nSub_zero i)) (outArr m d) := by
  unfold P; rfl

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's part IS its sixteen tiles' parts: the sequencer hands them out and takes them back as they are. -/
theorem vecSplit : (K (F := F)).VecSplit' (P m) 0 := by
  unfold SparseCore.Cfg.VecSplit'
  intro d c
  rw [P_st, P_dn]
  simp only [P_go, P_td]
  rw [bigSep_tasks (F := F) (fun i => tileP m d (wid (Fin.cast nCore_zero c) i) (out0Arr m d)),
    bigSep_tasks (F := F) (fun i => tileP m d (wid (Fin.cast nCore_zero c) i) (outArr m d))]
  iintro H; imodintro
  isplitl [H]; · iexact H
  iintro H; iexact H

/-! ## The launch element: the handshakes' rounds; the counters dropped -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- What the call takes for the two SparseCores, and what it hands back: the 32 tiles' parts. -/
theorem st0_eq (d : Dev nD) :
    (bigSep Finset.univ fun c : Fin ((K (F := F)).nCore 0) => (P m).st 0 d c)
      = bigSep Finset.univ fun c : Fin 2 => bigSep Finset.univ fun i : Fin 16 => tileP m d (wid c i) (out0Arr m d) := by
  simp only [P_st]
  exact bigSep_cores (F := F) (fun c => bigSep Finset.univ fun i : Fin 16 => tileP m d (wid c i) (out0Arr m d))
theorem dn0_eq (d : Dev nD) :
    (bigSep Finset.univ fun c : Fin ((K (F := F)).nCore 0) => (P m).dn 0 d c)
      = bigSep Finset.univ fun c : Fin 2 => bigSep Finset.univ fun i : Fin 16 => tileP m d (wid c i) (outArr m d) := by
  simp only [P_dn]
  exact bigSep_cores (F := F) (fun c => bigSep Finset.univ fun i : Fin 16 => tileP m d (wid c i) (outArr m d))

set_option backward.isDefEq.respectTransparency.types false in
/-- @main on device `d`'s TensorCore: the operations before the call, the call over the 32 tiles' parts of its four
    arrays, the operation after it; the result and the two arguments kept. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, main_eq]
  iintro ⟨#Hctx, Hst, ⟨Hb, Hheld, -, -⟩, -⟩
  -- the operations before the call
  iapply (wp_seq 𝒱 none Set.univ d S19 _ (preOps (F := F)) preOps_bufs preOps_fresh (V0 m d)) $$ [Hb Hheld]
  · isplitl [Hb]; · iexact Hb
    iexact Hheld
  iintro ⟨Hb, Hheld⟩
  ihave Hh := (Entails.of_eq (held_pre m d)) $$ Hheld
  icases Hh with ⟨H4, Hrest⟩
  ihave Ht := (arrays_tiles m d (out0Arr m d)).1 $$ H4
  icases Ht with ⟨Hkeep, Htiles⟩
  -- the call
  rw [wp_bind]
  iapply ((K (F := F)).wp_run (D (F := F)) 𝒱 (EH := EH) (P := P m) κ d 0) $$ [Hst Htiles Hb Hkeep Hrest]
  isplitr; · iexact Hctx
  isplitl [Hst]; · iexact Hst
  isplitl [Htiles]
  · rw [st0_eq]; iexact Htiles
  iintro ⟨Hst, Hdn⟩
  ihave Htiles := (Entails.of_eq (dn0_eq m d)) $$ Hdn
  ihave H4 := (arrays_tiles m d (outArr m d)).2 $$ [Hkeep Htiles]
  · isplitl [Hkeep]; · iexact Hkeep
    iexact Htiles
  ihave Hheld := (Entails.of_eq (held_post m d)) $$ [H4 Hrest]
  · isplitl [H4]; · iexact H4
    iexact Hrest
  -- the operation after the call
  iapply (wp_seq 𝒱 none Set.univ d S19 _ [postOp (F := F)] postOp_bufs postOp_fresh (Vpost m d)) $$ [Hb Hheld]
  · isplitl [Hb]; · iexact Hb
    iexact Hheld
  iintro ⟨-, Hheld⟩
  rw [wp_pure]; imodintro
  isplitl [Hst]; · iexact Hst
  iapply (held_fin m d); iexact Hheld

/-! ## The final memory -/

def fq (d : Dev nD) (s' : Phys nD τ sig (Elt F)) : Prop :=
  s'.mem.mem (resLoc d) = resArr m d ∧ s'.mem.mem (a0Loc d) = m (a0Loc d) ∧ s'.mem.mem (a1Loc d) = m (a1Loc d)

theorem hfin (d : Dev nD) (s' : Phys nD τ sig (Elt F)) : iprop(FIN m d ∗ SI s') ⊢ (⌜fq m d s'⌝ : sProp 𝕄) := by
  iintro ⟨⟨Hr, H0, H1⟩, HSI⟩
  ihave H := (persistent_entails_right (SI_pointsTo_agree (st := s') (ℓ := resLoc d) (I := Finset.univ) (q := fullShare) (f := resArr m d))) $$ [HSI Hr]
  · isplitl [HSI] <;> iassumption
  icases H with ⟨%h1, HSI, -⟩
  ihave H := (persistent_entails_right (SI_pointsTo_agree (st := s') (ℓ := a0Loc d) (I := Finset.univ) (q := fullShare) (f := m (a0Loc d)))) $$ [HSI H0]
  · isplitl [HSI] <;> iassumption
  icases H with ⟨%h2, HSI, -⟩
  ihave H := (SI_pointsTo_agree (st := s') (ℓ := a1Loc d) (I := Finset.univ) (q := fullShare) (f := m (a1Loc d))) $$ [HSI H1]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

def QC : PUnit × MemSt nD τ sig (Elt F) → Prop :=
  fun r => ∀ c : Dev nD, r.2.mem (resLoc c) = resArr m c ∧ r.2.mem (a0Loc c) = m (a0Loc c) ∧ r.2.mem (a1Loc c) = m (a1Loc c)

/-- From one tile's body: every weakly fair execution of the device's threads terminates, the result at the call's
    result array read at the shape [4096, 20, 832], the two arguments unchanged. -/
theorem run_main [∀ e, Nonempty (Elt F e)] (m : (ℓ : Loc nD τ sig) → Buf (Elt F) ℓ) (ρ : Dev nD → PrngReg)
    (htile : (K (F := F)).TileObl (D (F := F)) 𝒱 (P m) v₀ 0) :
    θ_run (Cert.KernelIdeal.defs (F := F)) (Cert.KernelIdeal.threads (F := F)) ⟨m, fun _ => 0, ρ⟩
      (fun r => ∀ c : Dev nD, r.2.mem (resLoc c) = resArr m c ∧ r.2.mem (a0Loc c) = m (a0Loc c) ∧ r.2.mem (a1Loc c) = m (a1Loc c)) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.KBCommon.lean ====
/-
  The kernel's program as the launch theorem sees it, and the vocabulary every part of the kernel-side proof shares.

  The call's three operands are computed on the TensorCore before the call: the index list (the features transposed to
  position-major order, entry n * 26 + f = features[f, n]), the per-field offsets f * 100001 repeated over the sixteen
  positions of a chunk, and the tables flattened, padded and cut into groups of 128 words, four table rows a group. Tile
  number w = 2 * s + c reads entries [w * 66560, (w + 1) * 66560) of the index list and owns rows [w * 16640, (w + 1) * 16640)
  of the result, 160 blocks of 104 rows; it reads the offsets and the grouped table whole. What a tile leaves in its rows is `outSpec`: result
  row r, word c is word (c % 32) of the quarter ((t & 3)) of group (t >> 2), where t = idx[4 r + c / 32] + offs[(4 r + c / 32) % 416].
-/
import proofs.«204936_g5145370820905_cont_8to1_c_618_18_alg».proof.Kernel
import proofs.«204936_g5145370820905_cont_8to1_c_618_18_alg».proof.Proof.Gen.Kernel
import Idealize.ShloMosaic.Lib.SparseCore.Launch
import Idealize.ShloMosaic.Lib.StableHlo.Run
import Idealize.ShloMosaic.Lib.Pipeline.Kit
import Idealize.ShloMosaic.Lib.Tactic
import Idealize.ShloMosaic.Lib.ValueIdx

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

abbrev a0' : DevRef τ sig := Proc.devRef .tc (main_arg0 : Ref sig .tc)
abbrev a1' : DevRef τ sig := Proc.devRef .tc (main_arg1 : Ref sig .tc)
abbrev idx' : DevRef τ sig := Proc.devRef .tc (main_v2 : Ref sig .tc)
abbrev off' : DevRef τ sig := Proc.devRef .tc (main_v8 : Ref sig .tc)
abbrev tab' : DevRef τ sig := Proc.devRef .tc (main_v12 : Ref sig .tc)
abbrev out' : DevRef τ sig := Proc.devRef .tc (main_v13 : Ref sig .tc)
abbrev res' : DevRef τ sig := Proc.devRef .tc (main_v14 : Ref sig .tc)

abbrev a0Loc (d : Dev nD) : Loc nD τ sig := (SparseCore.T d).loc main_arg0
abbrev a1Loc (d : Dev nD) : Loc nD τ sig := (SparseCore.T d).loc main_arg1
abbrev idxLoc (d : Dev nD) : Loc nD τ sig := (SparseCore.T d).loc main_v2
abbrev offLoc (d : Dev nD) : Loc nD τ sig := (SparseCore.T d).loc main_v8
abbrev tabLoc (d : Dev nD) : Loc nD τ sig := (SparseCore.T d).loc main_v12
abbrev outLoc (d : Dev nD) : Loc nD τ sig := (SparseCore.T d).loc main_v13
abbrev resLoc (d : Dev nD) : Loc nD τ sig := (SparseCore.T d).loc main_v14

variable (m : (ℓ : Loc nD τ sig) → Buf (Elt F) ℓ)

variable [FloatOps F]

/-- The TensorCore's operations before the call, in order, and the one after it. -/
abbrev preOps : List (HloOp τ sig (Elt F)) := [
    StableHlo.reshape main_arg0 main_v0 rfl shapeCasts_S26x4096x20_S26x81920,
    StableHlo.unary main_v0 main_v1 ((transpose S81920x26 [1, 0] · transposes_S26x81920_S81920x26_1_0) : (⟨S26x81920, .i32⟩ : BufTy).Contents (Elt F) → (⟨S81920x26, .i32⟩ : BufTy).Contents (Elt F)),
    StableHlo.reshape main_v1 main_v2 rfl shapeCasts_S81920x26_S2129920,
    StableHlo.nullary main_v3 (iotaInDim S26 32 0),
    StableHlo.nullary main_c (constantI S_ 32 100001#32),
    StableHlo.unary main_c main_v4 (broadcastInDim S26 ![] bcast_S_S26 : (⟨S_, .i32⟩ : BufTy).Contents (Elt F) → (⟨S26, .i32⟩ : BufTy).Contents (Elt F)),
    StableHlo.binary main_v3 main_v4 main_v5 (muli : (⟨S26, .i32⟩ : BufTy).Contents (Elt F) → (⟨S26, .i32⟩ : BufTy).Contents (Elt F) → (⟨S26, .i32⟩ : BufTy).Contents (Elt F)),
    StableHlo.reshape main_v5 main_v6 rfl shapeCasts_S26_S1x26,
    StableHlo.unary main_v6 main_v7 (broadcastInDim S16x26 ![0, 1] bcast_S1x26_S16x26_0_1 : (⟨S1x26, .i32⟩ : BufTy).Contents (Elt F) → (⟨S16x26, .i32⟩ : BufTy).Contents (Elt F)),
    StableHlo.reshape main_v7 main_v8 rfl shapeCasts_S16x26_S416,
    StableHlo.reshape main_arg1 main_v9 rfl shapeCasts_S26x100001x32_S83200832,
    StableHlo.nullary main_cst (constant S_ .f32 0x00000000#32),
    StableHlo.unary main_cst main_v10 (broadcastInDim S64 ![] bcast_S_S64 : (⟨S_, .f32⟩ : BufTy).Contents (Elt F) → (⟨S64, .f32⟩ : BufTy).Contents (Elt F)),
    StableHlo.binary main_v9 main_v10 main_v11 ((fun a b => concatenate S83200896 0 [⟨S83200832, a⟩, ⟨S64, b⟩] concatenates_S83200832_S64_S83200896_d0) : (⟨S83200832, .f32⟩ : BufTy).Contents (Elt F) → (⟨S64, .f32⟩ : BufTy).Contents (Elt F) → (⟨S83200896, .f32⟩ : BufTy).Contents (Elt F)),
    StableHlo.reshape main_v11 main_v12 rfl shapeCasts_S83200896_S650007x128]
abbrev postOp : HloOp τ sig (Elt F) := StableHlo.reshape main_v13 main_v14 rfl shapeCasts_S532480x128_S4096x20x832

/-- The launch contents of device `d`'s arrays, and the contents when the call is made. -/
def V0 (d : Dev nD) : Valuation τ sig (Elt F) := fun b => m (d, b)
def Vpre (d : Dev nD) : Valuation τ sig (Elt F) := StableHlo.after (preOps (F := F)) (V0 m d)

/-- The call's operands and its result array, at the call: the index list, the offsets, the grouped table, and the
    result's launch contents. -/
abbrev idxArr (d : Dev nD) : S2129920.Idx → BitVec 32 := Vpre m d idx'
abbrev offArr (d : Dev nD) : S416.Idx → BitVec 32 := Vpre m d off'
abbrev tabArr (d : Dev nD) : S650007x128.Idx → Elt F .f32 := Vpre m d tab'
abbrev out0Arr (d : Dev nD) : S532480x128.Idx → Elt F .f32 := Vpre m d out'

/-! ## What a tile computes -/

/-- The group a flat table-row number lies in (four rows a group), and the word of a group that entry `e` of it is. -/
def grp (t : BitVec 32) : Fin 650007 := ⟨min (t >>> 2).toNat 650006, by omega⟩
def lane (t : BitVec 32) (e : Fin 32) : Fin 128 := ⟨((t &&& 3#32).toNat % 4) * 32 + e.val, by omega⟩

/-- The call's result as a function of its three operands: row `r`, word `c` is word `c % 32` of the table row the
    index entry `4 r + c / 32` names once its field's offset is added. -/
def outSpec {α : Type} (I : S2129920.Idx → BitVec 32) (Of : S416.Idx → BitVec 32) (Tb : S650007x128.Idx → α) : S532480x128.Idx → α :=
  fun j =>
    let p : Fin 2129920 := ⟨(j 0).val * 4 + (j 1).val / 32, by have h0 := idx2_lt0 j; have h1 := idx2_lt1 j; omega⟩
    let t : BitVec 32 := I (ix1 p) + Of (ix1 (⟨p.val % 416, Nat.mod_lt _ (by decide)⟩ : Fin 416))
    Tb (ix2 (grp t) (lane t ⟨(j 1).val % 32, Nat.mod_lt _ (by decide)⟩))

/-- What the proof asks of the launch memory: every flat table-row number the tiles form names a row of the padded,
    grouped table (so that the group number `t >> 2` is below 650007). -/
def PreOK : Prop :=
  ∀ (d : Dev nD) (p : Fin 2129920),
    (idxArr m d (ix1 p) + offArr m d (ix1 (⟨p.val % 416, Nat.mod_lt _ (by decide)⟩ : Fin 416))).toNat < 2600028

/-! ## The arrays among the 32 tiles -/

/-- The result array in 5120 blocks of 104 rows: block `160 w + g` is what tile `w` writes for its chunk `g`. -/
theorem hdivO : 5120 ∣ S532480x128.size 0 := ⟨104, rfl⟩
abbrev outPart (k : Fin 5120) : Rect S532480x128 := Rect.part (s := S532480x128) (a₀ := 0) hdivO k
abbrev outSet (k : Fin 5120) : Finset S532480x128.Idx := ((Memref.whole main_v13_scv : Memref sig .scVector .hbm S532480x128 .f32).view.slice (outPart k)).set
def chunkIx (w : Fin 32) (g : Fin 160) : Fin 5120 := ⟨160 * w.val + g.val, by omega⟩
/-- The tile number of vector subcore `s` of SparseCore `c`. -/
def wid (c : Fin 2) (s : Fin 16) : Fin 32 := ⟨2 * s.val + c.val, by omega⟩

/-- What tile `w` holds during the call: a read share of the index list, of the offsets and of the grouped table, and
    its 160 blocks of the result at contents `fo`. -/
def tileP (d : Dev nD) (w : Fin 32) (fo : Buf (Elt F) (outLoc d)) : sProp 𝕄 :=
  iprop((idxLoc d ↦{Transfers.shareTok fullShare 32 w} idxArr m d) ∗ (offLoc d ↦{Transfers.shareTok fullShare 32 w} offArr m d)
    ∗ (tabLoc d ↦{Transfers.shareTok fullShare 32 w} tabArr m d)
    ∗ bigSep Finset.univ fun g : Fin 160 => outLoc d ↦[outSet (chunkIx w g)]{fullShare} fo)

/-- The result array when the call returns. -/
def outArr (d : Dev nD) : S532480x128.Idx → Elt F .f32 := outSpec (idxArr m d) (offArr m d) (tabArr m d)

/-- The program's result: the call's result array read in row-major order at the shape [4096, 20, 832]. -/
def resArr (d : Dev nD) : S4096x20x832.Idx → Elt F .f32 := shapeCast S4096x20x832 (outArr m d) shapeCasts_S532480x128_S4096x20x832

/-- The one call hands tile `(c, s)` its part (`tileP` at the result's launch contents) and takes it back at `outArr`;
    a SparseCore's part is its sixteen tiles' parts. -/
def P : (K (F := F)).Pay (nD := nD) (Val := Elt F) (Name := ℕ) (U := UU) where
  st := fun q d c => match q with
    | 0 => bigSep Finset.univ fun i : Fin 16 => tileP m d (wid (Fin.cast nCore_zero c) i) (out0Arr m d)
  dn := fun q d c => match q with
    | 0 => bigSep Finset.univ fun i : Fin 16 => tileP m d (wid (Fin.cast nCore_zero c) i) (outArr m d)
  go := fun q d c i => match q with
    | 0 => tileP m d (wid (Fin.cast nCore_zero c) (Fin.cast nSub_zero i)) (out0Arr m d)
  td := fun q d c i => match q with
    | 0 => tileP m d (wid (Fin.cast nCore_zero c) (Fin.cast nSub_zero i)) (outArr m d)
  x := fun _ _ => iprop(emp)

instance tileP_storable (d : Dev nD) (w : Fin 32) (fo : Buf (Elt F) (outLoc d)) : BI.Storable (upEmb : UEmb _ 𝕄) (tileP m d w fo) := by
  unfold tileP; infer_instance

instance P_storable : (P (F := F) m).IsStorable where
  st q d c := match q with | 0 => by unfold P; infer_instance
  dn q d c := match q with | 0 => by unfold P; infer_instance
  go q d c i := match q with | 0 => by unfold P; infer_instance
  td q d c i := match q with | 0 => by unfold P; infer_instance

end Cert.Proof.KB

end
-- ==== Proof.KBTile.lean ====
/-
  One tile's names: its thread, its tile number, its seven DMA semaphores and seven scratch buffers taken out of the
  subcore's own storage.
-/
import proofs.«204936_g5145370820905_cont_8to1_c_618_18_alg».proof.Proof.KBCommon
import proofs.«204936_g5145370820905_cont_8to1_c_618_18_alg».proof.Proof.Gen.Kernel.Skeleton
import Idealize.ShloMosaic.Lib.SparseCore.Ops

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)

abbrev cV (L : grid0.Coords) : Fin τ.nSC := (L 0).castLE hcore0
abbrev jV (L : grid0.Coords) : Fin τ.nSub := (L 1).castLE hsub0
/-- The tile's thread and its number `2 s + c`. -/
abbrev thrL : Thread nD τ := V d (cV L) (jV L)
theorem bound_zero : grid0.bound 0 = 2 := rfl
theorem bound_one : grid0.bound 1 = 16 := rfl
def widL (L : grid0.Coords) : Fin 32 := wid (Fin.cast bound_zero (L 0)) (Fin.cast bound_one (L 1))

/-- The cell of one of the tile's DMA semaphores. -/
abbrev cellOf (s : DmaSems sig S_) : GSem nD τ sig := (thrL d L, .dma s.sem)

theorem cell_ne {a b : DmaSem sig} (h : a ≠ b) : ((thrL d L, SemLoc.dma a) : GSem nD τ sig) ≠ (thrL d L, SemLoc.dma b) :=
  fun e => h (SemLoc.dma.inj (Prod.mk.inj e).2)

/-- The subcore's own semaphores: the kernel's seven, each at zero, and the rest. -/
theorem ownSems0_V :
    (ownSems0 (thrL d L) : sProp 𝕄)
      = iprop(semVal (cellOf d L cc0_scratch7) 0 ∗ semVal (cellOf d L cc0_scratch8) 0 ∗ semVal (cellOf d L cc0_scratch9) 0
          ∗ semVal (cellOf d L cc0_scratch10) 0 ∗ semVal (cellOf d L cc0_scratch11) 0 ∗ semVal (cellOf d L cc0_scratch12) 0
          ∗ semVal (cellOf d L cc0_scoped0) 0
          ∗ bigSep ((((((((ownCells (thrL d L)).erase (cellOf d L cc0_scratch7)).erase (cellOf d L cc0_scratch8)).erase (cellOf d L cc0_scratch9)).erase (cellOf d L cc0_scratch10)).erase (cellOf d L cc0_scratch11)).erase (cellOf d L cc0_scratch12)).erase (cellOf d L cc0_scoped0)) fun g => semVal g 0) := by
  unfold SparseCore.Cfg.ownSems0
  rw [SparseCore.bigSep_erase' ((mem_ownCells (g := cellOf d L cc0_scratch7)).mpr ⟨rfl, by show (SemLoc.dma cc0_scratch7.sem : SemLoc sig).isScoped .scVector = true; decide⟩),
    SparseCore.bigSep_erase' (Finset.mem_erase.mpr ⟨cell_ne d L (show (cc0_scratch8.sem : DmaSem sig) ≠ cc0_scratch7.sem by decide), (mem_ownCells (g := cellOf d L cc0_scratch8)).mpr ⟨rfl, by show (SemLoc.dma cc0_scratch8.sem : SemLoc sig).isScoped .scVector = true; decide⟩⟩),
    SparseCore.bigSep_erase' (Finset.mem_erase.mpr ⟨cell_ne d L (show (cc0_scratch9.sem : DmaSem sig) ≠ cc0_scratch8.sem by decide), Finset.mem_erase.mpr ⟨cell_ne d L (show (cc0_scratch9.sem : DmaSem sig) ≠ cc0_scratch7.sem by decide), (mem_ownCells (g := cellOf d L cc0_scratch9)).mpr ⟨rfl, by show (SemLoc.dma cc0_scratch9.sem : SemLoc sig).isScoped .scVector = true; decide⟩⟩⟩),
    SparseCore.bigSep_erase' (Finset.mem_erase.mpr ⟨cell_ne d L (show (cc0_scratch10.sem : DmaSem sig) ≠ cc0_scratch9.sem by decide), Finset.mem_erase.mpr ⟨cell_ne d L (show (cc0_scratch10.sem : DmaSem sig) ≠ cc0_scratch8.sem by decide), Finset.mem_erase.mpr ⟨cell_ne d L (show (cc0_scratch10.sem : DmaSem sig) ≠ cc0_scratch7.sem by decide), (mem_ownCells (g := cellOf d L cc0_scratch10)).mpr ⟨rfl, by show (SemLoc.dma cc0_scratch10.sem : SemLoc sig).isScoped .scVector = true; decide⟩⟩⟩⟩),
    SparseCore.bigSep_erase' (Finset.mem_erase.mpr ⟨cell_ne d L (show (cc0_scratch11.sem : DmaSem sig) ≠ cc0_scratch10.sem by decide), Finset.mem_erase.mpr ⟨cell_ne d L (show (cc0_scratch11.sem : DmaSem sig) ≠ cc0_scratch9.sem by decide), Finset.mem_erase.mpr ⟨cell_ne d L (show (cc0_scratch11.sem : DmaSem sig) ≠ cc0_scratch8.sem by decide), Finset.mem_erase.mpr ⟨cell_ne d L (show (cc0_scratch11.sem : DmaSem sig) ≠ cc0_scratch7.sem by decide), (mem_ownCells (g := cellOf d L cc0_scratch11)).mpr ⟨rfl, by show (SemLoc.dma cc0_scratch11.sem : SemLoc sig).isScoped .scVector = true; decide⟩⟩⟩⟩⟩),
    SparseCore.bigSep_erase' (Finset.mem_erase.mpr ⟨cell_ne d L (show (cc0_scratch12.sem : DmaSem sig) ≠ cc0_scratch11.sem by decide), Finset.mem_erase.mpr ⟨cell_ne d L (show (cc0_scratch12.sem : DmaSem sig) ≠ cc0_scratch10.sem by decide), Finset.mem_erase.mpr ⟨cell_ne d L (show (cc0_scratch12.sem : DmaSem sig) ≠ cc0_scratch9.sem by decide), Finset.mem_erase.mpr ⟨cell_ne d L (show (cc0_scratch12.sem : DmaSem sig) ≠ cc0_scratch8.sem by decide), Finset.mem_erase.mpr ⟨cell_ne d L (show (cc0_scratch12.sem : DmaSem sig) ≠ cc0_scratch7.sem by decide), (mem_ownCells (g := cellOf d L cc0_scratch12)).mpr ⟨rfl, by show (SemLoc.dma cc0_scratch12.sem : SemLoc sig).isScoped .scVector = true; decide⟩⟩⟩⟩⟩⟩),
    SparseCore.bigSep_erase' (Finset.mem_erase.mpr ⟨cell_ne d L (show (cc0_scoped0.sem : DmaSem sig) ≠ cc0_scratch12.sem by decide), Finset.mem_erase.mpr ⟨cell_ne d L (show (cc0_scoped0.sem : DmaSem sig) ≠ cc0_scratch11.sem by decide), Finset.mem_erase.mpr ⟨cell_ne d L (show (cc0_scoped0.sem : DmaSem sig) ≠ cc0_scratch10.sem by decide), Finset.mem_erase.mpr ⟨cell_ne d L (show (cc0_scoped0.sem : DmaSem sig) ≠ cc0_scratch9.sem by decide), Finset.mem_erase.mpr ⟨cell_ne d L (show (cc0_scoped0.sem : DmaSem sig) ≠ cc0_scratch8.sem by decide), Finset.mem_erase.mpr ⟨cell_ne d L (show (cc0_scoped0.sem : DmaSem sig) ≠ cc0_scratch7.sem by decide), (mem_ownCells (g := cellOf d L cc0_scoped0)).mpr ⟨rfl, by show (SemLoc.dma cc0_scoped0.sem : SemLoc sig).isScoped .scVector = true; decide⟩⟩⟩⟩⟩⟩⟩)]

/-- The subcore's own buffers: the kernel's seven scratch arrays, each at some contents, and the rest. -/
theorem ownBufs_V :
    (ownBufs (thrL d L) : sProp 𝕄)
      = iprop((∃ f, (thrL d L).loc cc0_scratch0 ↦{fullShare} f) ∗ (∃ f, (thrL d L).loc cc0_scratch1 ↦{fullShare} f)
          ∗ (∃ f, (thrL d L).loc cc0_scratch2 ↦{fullShare} f) ∗ (∃ f, (thrL d L).loc cc0_scratch3 ↦{fullShare} f)
          ∗ (∃ f, (thrL d L).loc cc0_scratch4 ↦{fullShare} f) ∗ (∃ f, (thrL d L).loc cc0_scratch5 ↦{fullShare} f)
          ∗ (∃ f, (thrL d L).loc cc0_scratch6 ↦{fullShare} f)
          ∗ bigSep ((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := (Proc.scVector (cV L) (jV L)).devRef cc0_scratch4) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := (Proc.scVector (cV L) (jV L)).devRef cc0_scratch5) rfl⟩⟩⟩⟩⟩),
    SparseCore.bigSep_erase' (Finset.mem_erase.mpr ⟨fun e => absurd (Proc.devRef_injective _ e) (show (cc0_scratch6 : Ref sig .scVector) ≠ cc0_scratch5 by decide), Finset.mem_erase.mpr ⟨fun e => absurd (Proc.devRef_injective _ e) (show (cc0_scratch6 : Ref sig .scVector) ≠ cc0_scratch4 by decide), Finset.mem_erase.mpr ⟨fun e => absurd (Proc.devRef_injective _ e) (show (cc0_scratch6 : Ref sig .scVector) ≠ cc0_scratch3 by decide), Finset.mem_erase.mpr ⟨fun e => absurd (Proc.devRef_injective _ e) (show (cc0_scratch6 : Ref sig .scVector) ≠ cc0_scratch2 by decide), Finset.mem_erase.mpr ⟨fun e => absurd (Proc.devRef_injective _ e) (show (cc0_scratch6 : Ref sig .scVector) ≠ cc0_scratch1 by decide), Finset.mem_erase.mpr ⟨fun e => absurd (Proc.devRef_injective _ e) (show (cc0_scratch6 : Ref sig .scVector) ≠ cc0_scratch0 by decide), SparseCore.Cfg.mem_ownRefs_of_owner (p := Proc.scVector (cV L) (jV L)) (b := (Proc.scVector (cV L) (jV L)).devRef cc0_scratch6) rfl⟩⟩⟩⟩⟩⟩)]

end Cert.Proof.KB

end
-- ==== Proof.KBBodyInv.lean ====
/-
  The main loop's invariant: what the tile holds before trip k of the 80 (step 2k of the 160 chunks).

  A chunk g of tile w is 416 index entries at flat positions w * 66560 + 416 g … and one block of 104 result rows. Each
  parity keeps its own index buffer, quarter buffer, gather buffer and three semaphores. Before trip k ≥ 1: the index load
  of chunk 2k is in flight into parity 0's index buffer; the write-out of chunk 2k - 2 is in flight from parity 0's gather
  buffer; the gather of chunk 2k - 1 is in flight into parity 1's gather buffer, its list in parity 1's index buffer and
  its quarters in parity 1's quarter buffer; everything else of the two parities is idle. Result blocks below 2k - 2 are
  written, block 2k - 2 is in flight, blocks from 2k - 1 on are untouched. Before trip 0 only the two first index loads
  are in flight.
-/
import proofs.«204936_g5145370820905_cont_8to1_c_618_18_alg».proof.Proof.KBTile
import proofs.«204936_g5145370820905_cont_8to1_c_618_18_alg».proof.Proof.KISteps

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
-- the kernel's memrefs, spelt as the body table passes them
local notation "idxW" => (Memref.whole Cert.Kernel.main_v2_scv : Memref Cert.Kernel.sig Kind.scVector Space.hbm Cert.Kernel.S2129920 EltTy.i32)
local notation "offW" => (Memref.whole Cert.Kernel.main_v8_scv : Memref Cert.Kernel.sig Kind.scVector Space.hbm Cert.Kernel.S416 EltTy.i32)
local notation "tabW" => (Memref.whole Cert.Kernel.main_v12_scv : Memref Cert.Kernel.sig Kind.scVector Space.hbm Cert.Kernel.S650007x128 EltTy.f32)
local notation "outW" => (Memref.whole Cert.Kernel.main_v13_scv : Memref Cert.Kernel.sig Kind.scVector Space.hbm Cert.Kernel.S532480x128 EltTy.f32)
local notation "s0W" => (Memref.whole Cert.Kernel.cc0_scratch0 : Memref Cert.Kernel.sig Kind.scVector Space.vmem Cert.Kernel.S416 EltTy.i32)
local notation "s1W" => (Memref.whole Cert.Kernel.cc0_scratch1 : Memref Cert.Kernel.sig Kind.scVector Space.vmem Cert.Kernel.S416 EltTy.i32)
local notation "s2W" => (Memref.whole Cert.Kernel.cc0_scratch2 : Memref Cert.Kernel.sig Kind.scVector Space.vmem Cert.Kernel.S416 EltTy.i32)
local notation "s3W" => (Memref.whole Cert.Kernel.cc0_scratch3 : Memref Cert.Kernel.sig Kind.scVector Space.vmem Cert.Kernel.S416 EltTy.i32)
local notation "s4W" => (Memref.whole Cert.Kernel.cc0_scratch4 : Memref Cert.Kernel.sig Kind.scVector Space.vmem Cert.Kernel.S416 EltTy.i32)
local notation "s5W" => (Memref.whole Cert.Kernel.cc0_scratch5 : Memref Cert.Kernel.sig Kind.scVector Space.vmem Cert.Kernel.S416x128 EltTy.f32)
local notation "s6W" => (Memref.whole Cert.Kernel.cc0_scratch6 : Memref Cert.Kernel.sig Kind.scVector Space.vmem Cert.Kernel.S416x128 EltTy.f32)

variable (m : (ℓ : Loc nD τ sig) → Buf (Elt F) ℓ)
variable (d : Dev nD) (L : grid0.Coords)

/-- The read tokens: of the index list, one per index-load semaphore; of the grouped table, one per gather semaphore
    (tokens 2 and 3 of four). -/
abbrev tokI (L : grid0.Coords) (p : Fin 2) : PosShare TreeShare := Transfers.shareTok (Transfers.shareTok fullShare 32 (widL L)) 2 p
abbrev tokT (L : grid0.Coords) (p : Fin 4) : PosShare TreeShare := Transfers.shareTok (Transfers.shareTok fullShare 32 (widL L)) 4 p

/-- A chunk number read off a natural number. -/
def gIx (n : ℕ) : Fin 160 := ⟨n % 160, Nat.mod_lt _ (by decide)⟩
theorem gIx_val {n : ℕ} (h : n < 160) : (gIx n).val = n := Nat.mod_eq_of_lt h

/-- Chunk g's entries of the index list: the slice at flat position w * 66560 + 416 g. -/
def idxOff (L : grid0.Coords) (g : Fin 160) : Fin 1 → ℕ := ![(widL L).val * 66560 + 416 * g.val]
theorem idxOff_inb (g : Fin 160) : ∀ a, idxOff L g a + S416.size a ≤ S2129920.size a := by
  intro a
  have hw := (widL L).isLt; have hg := g.isLt
  obtain rfl : a = 0 := Subsingleton.elim _ _
  show (widL L).val * 66560 + 416 * g.val + 416 ≤ 2129920
  omega
abbrev idxSl (g : Fin 160) : Memref sig .scVector .hbm S416 .i32 :=
  (idxW).slice (Rect.unit (s := S2129920) (idxOff L g) S416.size (idxOff_inb L g)) (fun _ => rfl)
/-- The table as the gathers slice it (whole), and the first 104 rows of each gather buffer. -/
abbrev tabSl : Memref sig .scVector .hbm S650007x128 .f32 :=
  (tabW).slice (Rect.unit (s := S650007x128) ![0, 0] S650007x128.size inb_S650007x128_S650007x128_0_0) (fun _ => rfl)
abbrev g5Sl : Memref sig .scVector .vmem S104x128 .f32 :=
  (s5W).slice (Rect.unit (s := S416x128) ![0, 0] S104x128.size inb_S416x128_S104x128_0_0) (fun _ => rfl)
abbrev g6Sl : Memref sig .scVector .vmem S104x128 .f32 :=
  (s6W).slice (Rect.unit (s := S416x128) ![0, 0] S104x128.size inb_S416x128_S104x128_0_0) (fun _ => rfl)

variable [FloatOps F]

/-- Chunk g's 416 entries, as the index load delivers them. -/
def chunkEnts (g : Fin 160) : S416.Idx → BitVec 32 := (idxSl L g).view.read (Elt F) (Vpre m d idx')

/-- A gather buffer holds the table groups its list names. -/
def Gathered (G : S416x128.Idx → Elt F .f32) (I : S416.Idx → BitVec 32) : Prop :=
  ∀ (j : Fin 416) (c : Fin 128) (h : (I (ix1 j)).toNat < 650007), G (ix2 j c) = tabArr m d (ix2 (⟨(I (ix1 j)).toNat, h⟩ : Fin 650007) c)

/-! ## The transfers in flight -/

/-- The index load of chunk g into parity 0's index buffer, on cell 0, and the rest of token 0. -/
def IdxFlight0 (g : Fin 160) : sProp 𝕄 :=
  iprop(Transfers.Flight countersEmb (thrL d L) (SemLoc.dma cc0_scratch7.sem) (default : HIx 1) 13312
      iprop(((s3W).view.loc (thrL d L) ↦{fullShare} chunkEnts m d L g) ∗ ((idxW).view.loc (thrL d L) ↦[(idxSl L g).view.set]{tokI L 0} Vpre m d idx'))
    ∗ ((idxW).view.loc (thrL d L) ↦[Finset.univ \ (idxSl L g).view.set]{tokI L 0} Vpre m d idx'))
/-- The index load of chunk g into parity 1's index buffer, on cell 1, and the rest of token 1. -/
def IdxFlight1 (g : Fin 160) : sProp 𝕄 :=
  iprop(Transfers.Flight countersEmb (thrL d L) (SemLoc.dma cc0_scratch8.sem) (default : HIx 1) 13312
      iprop(((s4W).view.loc (thrL d L) ↦{fullShare} chunkEnts m d L g) ∗ ((idxW).view.loc (thrL d L) ↦[(idxSl L g).view.set]{tokI L 1} Vpre m d idx'))
    ∗ ((idxW).view.loc (thrL d L) ↦[Finset.univ \ (idxSl L g).view.set]{tokI L 1} Vpre m d idx'))
/-- Parity 0's index side idle: the buffer at anything, cell 0 at zero, token 0 whole. -/
def IdxIdle0 : sProp 𝕄 :=
  iprop((∃ f, (s3W).view.loc (thrL d L) ↦{fullShare} f) ∗ semVal (cellOf d L cc0_scratch7) 0 ∗ ((idxW).view.loc (thrL d L) ↦{tokI L 0} Vpre m d idx'))

/-- The gather of chunk g into parity 0's gather buffer on cell 2: list in parity 0's index buffer, quarters in its
    quarter buffer, table token 2 lent. -/
def GatherFlight0 (Of : S416.Idx → BitVec 32) (g : Fin 160) : sProp 𝕄 :=
  iprop(∃ (G : S416x128.Idx → Elt F .f32) (I S : S416.Idx → BitVec 32),
    ⌜Steps.OffsetDone (chunkEnts m d L g) Of I S ∧ Gathered m d G I⌝
    ∗ Transfers.Flight countersEmb (thrL d L) (SemLoc.dma cc0_scratch9.sem) (default : HIx 1) 1703936
        iprop((((s5W).view.loc (thrL d L) ↦{fullShare} G) ∗ ((s3W).view.loc (thrL d L) ↦{fullShare} I))
          ∗ ((tabW).view.loc (thrL d L) ↦[(tabSl).view.set]{tokT L 2} Vpre m d tab'))
    ∗ ((tabW).view.loc (thrL d L) ↦[Finset.univ \ (tabSl).view.set]{tokT L 2} Vpre m d tab')
    ∗ ((s1W).view.loc (thrL d L) ↦{fullShare} S))
/-- The same for parity 1, on cell 3, table token 3. -/
def GatherFlight1 (Of : S416.Idx → BitVec 32) (g : Fin 160) : sProp 𝕄 :=
  iprop(∃ (G : S416x128.Idx → Elt F .f32) (I S : S416.Idx → BitVec 32),
    ⌜Steps.OffsetDone (chunkEnts m d L g) Of I S ∧ Gathered m d G I⌝
    ∗ Transfers.Flight countersEmb (thrL d L) (SemLoc.dma cc0_scratch10.sem) (default : HIx 1) 1703936
        iprop((((s6W).view.loc (thrL d L) ↦{fullShare} G) ∗ ((s4W).view.loc (thrL d L) ↦{fullShare} I))
          ∗ ((tabW).view.loc (thrL d L) ↦[(tabSl).view.set]{tokT L 3} Vpre m d tab'))
    ∗ ((tabW).view.loc (thrL d L) ↦[Finset.univ \ (tabSl).view.set]{tokT L 3} Vpre m d tab')
    ∗ ((s2W).view.loc (thrL d L) ↦{fullShare} S))

/-- The write-out of chunk g from parity 0's gather buffer on cell 4: the block arrives at the call's result on its
    rows; the buffer's first 104 rows are lent. -/
def WriteFlight0 (g : Fin 160) : sProp 𝕄 :=
  iprop(∃ (Wr : S532480x128.Idx → Elt F .f32) (G : S416x128.Idx → Elt F .f32),
    ⌜∀ i ∈ outSet (chunkIx (widL L) g), Wr i = outArr m d i⌝
    ∗ Transfers.Flight countersEmb (thrL d L) (SemLoc.dma cc0_scratch11.sem) (default : HIx 1) 425984
        iprop(((outW).view.loc (thrL d L) ↦[outSet (chunkIx (widL L) g)]{fullShare} Wr) ∗ ((s5W).view.loc (thrL d L) ↦[(g5Sl).view.set]{fullShare} G))
    ∗ ((s5W).view.loc (thrL d L) ↦[Finset.univ \ (g5Sl).view.set]{fullShare} G))
/-- The same for parity 1, on cell 5. -/
def WriteFlight1 (g : Fin 160) : sProp 𝕄 :=
  iprop(∃ (Wr : S532480x128.Idx → Elt F .f32) (G : S416x128.Idx → Elt F .f32),
    ⌜∀ i ∈ outSet (chunkIx (widL L) g), Wr i = outArr m d i⌝
    ∗ Transfers.Flight countersEmb (thrL d L) (SemLoc.dma cc0_scratch12.sem) (default : HIx 1) 425984
        iprop(((outW).view.loc (thrL d L) ↦[outSet (chunkIx (widL L) g)]{fullShare} Wr) ∗ ((s6W).view.loc (thrL d L) ↦[(g6Sl).view.set]{fullShare} G))
    ∗ ((s6W).view.loc (thrL d L) ↦[Finset.univ \ (g6Sl).view.set]{fullShare} G))

/-- What the tile owes, with the waits it has recorded at index none. -/
def Owes (O : CellTallies nD τ sig (HIx 1)) (W : Waits sig (HIx 1)) : sProp 𝕄 :=
  iprop(∃ W', ⌜∀ p ∈ W', p ∈ W ∨ p.2 = none⌝ ∗ owes (thrL d L) O W')

/-- The result blocks other than block b: those below n written, the others untouched. -/
def OutBlocks (b : Fin 160) (n : ℕ) : sProp 𝕄 :=
  bigSep (Finset.univ.erase b) fun g : Fin 160 =>
    outLoc d ↦[outSet (chunkIx (widL L) g)]{fullShare} (if g.val < n then outArr m d else out0Arr m d)

/-! ## The invariant -/

/-- Before trip 0. -/
def Inv0 (O : CellTallies nD τ sig (HIx 1)) (W : Waits sig (HIx 1)) (Of : S416.Idx → BitVec 32) : sProp 𝕄 :=
  iprop(Transfers.MayWaits (thrL d L) (none : HIx 1) O
    ∗ ((s0W).view.loc (thrL d L) ↦{fullShare} Of)
    ∗ (∃ f, (s1W).view.loc (thrL d L) ↦{fullShare} f) ∗ (∃ f, (s2W).view.loc (thrL d L) ↦{fullShare} f)
    ∗ (∃ f, (s5W).view.loc (thrL d L) ↦{fullShare} f) ∗ (∃ f, (s6W).view.loc (thrL d L) ↦{fullShare} f)
    ∗ IdxFlight0 m d L (gIx 0) ∗ IdxFlight1 m d L (gIx 1)
    ∗ ((tabW).view.loc (thrL d L) ↦{tokT L 2} Vpre m d tab') ∗ ((tabW).view.loc (thrL d L) ↦{tokT L 3} Vpre m d tab')
    ∗ semVal (cellOf d L cc0_scratch9) 0 ∗ semVal (cellOf d L cc0_scratch10) 0 ∗ semVal (cellOf d L cc0_scratch11) 0 ∗ semVal (cellOf d L cc0_scratch12) 0
    ∗ (bigSep Finset.univ fun g : Fin 160 => outLoc d ↦[outSet (chunkIx (widL L) g)]{fullShare} out0Arr m d)
    ∗ Owes d L O W)

/-- Before trip k, 1 ≤ k ≤ 80 (at k = 80: after the loop, no index load in flight). -/
def InvK (O : CellTallies nD τ sig (HIx 1)) (W : Waits sig (HIx 1)) (Of : S416.Idx → BitVec 32) (k : ℕ) : sProp 𝕄 :=
  iprop(Transfers.MayWaits (thrL d L) (none : HIx 1) O
    ∗ ((s0W).view.loc (thrL d L) ↦{fullShare} Of)
    ∗ (∃ f, (s1W).view.loc (thrL d L) ↦{fullShare} f)
    ∗ (if k < 80 then IdxFlight0 m d L (gIx (2 * k)) else IdxIdle0 m d L)
    ∗ WriteFlight0 m d L (gIx (2 * k - 2))
    ∗ semVal (cellOf d L cc0_scratch9) 0 ∗ ((tabW).view.loc (thrL d L) ↦{tokT L 2} Vpre m d tab')
    ∗ GatherFlight1 m d L Of (gIx (2 * k - 1))
    ∗ semVal (cellOf d L cc0_scratch8) 0 ∗ ((idxW).view.loc (thrL d L) ↦{tokI L 1} Vpre m d idx')
    ∗ semVal (cellOf d L cc0_scratch12) 0
    ∗ OutBlocks m d L (gIx (2 * k - 2)) (2 * k - 2)
    ∗ Owes d L O W)

/-- The invariant of the main loop. -/
def inv (O : CellTallies nD τ sig (HIx 1)) (W : Waits sig (HIx 1)) (Of : S416.Idx → BitVec 32) (k : ℕ) (_ : PUnit) : sProp 𝕄 :=
  if k = 0 then Inv0 m d L O W Of else InvK m d L O W Of k

theorem inv_zero (O : CellTallies nD τ sig (HIx 1)) (W : Waits sig (HIx 1)) (Of : S416.Idx → BitVec 32) (u : PUnit) :
    inv m d L O W Of 0 u = Inv0 m d L O W Of := if_pos rfl
theorem inv_pos (O : CellTallies nD τ sig (HIx 1)) (W : Waits sig (HIx 1)) (Of : S416.Idx → BitVec 32) {k : ℕ} (hk : 0 < k) (u : PUnit) :
    inv m d L O W Of k u = InvK m d L O W Of k := if_neg (by omega)

/-- What the loop and the steps after it leave: every buffer and cell idle, the four tokens whole, the 160 blocks written. -/
def Fin0 (O : CellTallies nD τ sig (HIx 1)) (W : Waits sig (HIx 1)) (Of : S416.Idx → BitVec 32) : sProp 𝕄 :=
  iprop(((s0W).view.loc (thrL d L) ↦{fullShare} Of)
    ∗ (∃ f, (s1W).view.loc (thrL d L) ↦{fullShare} f) ∗ (∃ f, (s2W).view.loc (thrL d L) ↦{fullShare} f)
    ∗ (∃ f, (s3W).view.loc (thrL d L) ↦{fullShare} f) ∗ (∃ f, (s4W).view.loc (thrL d L) ↦{fullShare} f)
    ∗ (∃ f, (s5W).view.loc (thrL d L) ↦{fullShare} f) ∗ (∃ f, (s6W).view.loc (thrL d L) ↦{fullShare} f)
    ∗ semVal (cellOf d L cc0_scratch7) 0 ∗ semVal (cellOf d L cc0_scratch8) 0 ∗ semVal (cellOf d L cc0_scratch9) 0
    ∗ semVal (cellOf d L cc0_scratch10) 0 ∗ semVal (cellOf d L cc0_scratch11) 0 ∗ semVal (cellOf d L cc0_scratch12) 0
    ∗ ((idxW).view.loc (thrL d L) ↦{tokI L 0} Vpre m d idx') ∗ ((idxW).view.loc (thrL d L) ↦{tokI L 1} Vpre m d idx')
    ∗ ((tabW).view.loc (thrL d L) ↦{tokT L 2} Vpre m d tab') ∗ ((tabW).view.loc (thrL d L) ↦{tokT L 3} Vpre m d tab')
    ∗ (bigSep Finset.univ fun g : Fin 160 => outLoc d ↦[outSet (chunkIx (widL L) g)]{fullShare} outArr m d)
    ∗ Owes d L O W)

end Cert.Proof.KB

end
-- ==== Proof.KBBodyLibGeomOff.lean ====
/-
  The offsets the tile's slices are taken at, in closed form.

  Tile number w = 2 s + c owns entries [w * 66560, (w + 1) * 66560) of the index list, 160 chunks of 416 entries, and rows
  [w * 16640, (w + 1) * 16640) of the result, 160 chunks of 104 rows. In trip k of the main loop (k < 80) the even step
  handles chunk 2 k and the odd step chunk 2 k + 1: a step waits for the write of the chunk two before its own, loads the
  index chunk after its own, and writes the chunk before its own. The printed offset chains compute, on 32-bit words,
  w * 66560 + 416 * g for an index chunk g and w * 16640 + 104 * g for a result chunk g; the chunk numbers 2 k - 2 and
  2 k - 1 are formed by a subtraction, which is the one on natural numbers exactly under the guard the slice is taken
  under (k ≥ 1).
-/
import proofs.«204936_g5145370820905_cont_8to1_c_618_18_alg».proof.Proof.KBTile

noncomputable section

namespace Cert.Proof.KB

open Cert.Kernel Cert.Kernel.Gen
open Idealize.ShloMosaic Idealize.ShloMosaic.ValueIdx

variable (L : grid0.Coords) (k : Fin k0_t1_loop.trips)

/-- The tile number is twice the subcore's number plus the core's. -/
theorem widL_val : (widL L).val = 2 * (L 1).val + (L 0).val := rfl

theorem trips_eq : k0_t1_loop.trips = 80 := by decide

/-! ## The guards, as facts about the trip number -/

/-- Chunk 2 k has a chunk two before it from the second trip on. -/
theorem cond1_iff : ∀ k : Fin k0_t1_loop.trips, k0_cond1 k = 1#1 ↔ 1 ≤ k.val := by decide +kernel
/-- Chunk 2 k has a chunk before it from the second trip on. -/
theorem cond2_iff : ∀ k : Fin k0_t1_loop.trips, k0_cond2 k = 1#1 ↔ 1 ≤ k.val := by decide +kernel
/-- Chunk 2 k + 1 is always followed by another chunk of the tile. -/
theorem cond3_iff : ∀ k : Fin k0_t1_loop.trips, k0_cond3 k = 1#1 ↔ True := by decide +kernel
/-- Chunk 2 k + 1 has a chunk two before it from the second trip on. -/
theorem cond4_iff : ∀ k : Fin k0_t1_loop.trips, k0_cond4 k = 1#1 ↔ 1 ≤ k.val := by decide +kernel
/-- Chunk 2 k + 1 always has a chunk before it. -/
theorem cond5_iff : ∀ k : Fin k0_t1_loop.trips, k0_cond5 k = 1#1 ↔ True := by decide +kernel
/-- Chunk 2 k + 2 exists in every trip but the last. -/
theorem cond6_iff : ∀ k : Fin k0_t1_loop.trips, k0_cond6 k = 1#1 ↔ k.val + 1 < 80 := by decide +kernel

/-! ## The result's chunks: rows w * 16640 + 104 * g onwards -/

/-- The rows of chunk 2 k - 2, waited for at the start of the even step. -/
theorem off2_eq (h1 : 1 ≤ k.val) : k0_off2 L k = ![(widL L).val * 16640 + 104 * (2 * k.val - 2), 0] := by
  have r_i1 : (L 1).val < 16 := (L 1).isLt
  have h_arg1 : Affine.IsInt (BitVec.ofNat 32 (L 1).val) (((L 1).val : Int)) := Affine.ofNat _ (by omega)
  have h_c2 : Affine.IsInt 2#32 (2) := Affine.ofNat _ (by omega)
  have h_v0 : Affine.IsInt _ (2 * ((L 1).val : Int)) := Affine.muli h_arg1 h_c2 (by omega)
  have r_i0 : (L 0).val < 2 := (L 0).isLt
  have h_arg0 : Affine.IsInt (BitVec.ofNat 32 (L 0).val) (((L 0).val : Int)) := Affine.ofNat _ (by omega)
  have h_v1 : Affine.IsInt _ (2 * ((L 1).val : Int) + ((L 0).val : Int)) := Affine.addi h_v0 h_arg0 (by omega)
  have h_c16640 : Affine.IsInt 16640#32 (16640) := Affine.ofNat _ (by omega)
  have h_v3 : Affine.IsInt _ (33280 * ((L 1).val : Int) + 16640 * ((L 0).val : Int)) := Affine.muli h_v1 h_c16640 (by omega)
  have h_c0 : Affine.IsInt 0#32 (0) := Affine.ofNat _ (by omega)
  have h_c1 : Affine.IsInt 1#32 (1) := Affine.ofNat _ (by omega)
  have r_k : k.val < 80 := Nat.lt_of_lt_of_le k.isLt k0_t1_abs.2.1
  have h_arg19 : Affine.IsInt _ ((k.val : Int)) := Affine.iv h_c0 h_c1 k.val (by omega)
  have h_v29 : Affine.IsInt _ (2 * (k.val : Int)) := Affine.muli h_arg19 h_c2 (by omega)
  have h_v30 : Affine.IsInt _ (2 * (k.val : Int)) := Affine.addi h_v29 h_c0 (by omega)
  have h_v57 : Affine.IsInt _ (2 * (k.val : Int) - 2) := Affine.subi h_v30 h_c2 (by omega)
  have h_c104 : Affine.IsInt 104#32 (104) := Affine.ofNat _ (by omega)
  have h_v58 : Affine.IsInt _ (208 * (k.val : Int) - 208) := Affine.muli h_v57 h_c104 (by omega)
  have h_v59 : Affine.IsInt _ (33280 * ((L 1).val : Int) + 16640 * ((L 0).val : Int) + 208 * (k.val : Int) - 208) := Affine.addi h_v3 h_v58 (by omega)
  exact Affine.vec_cons h_v59 (by rw [widL_val]; omega) <| Affine.vec_cons (Affine.ofNat 0 (by omega) : Affine.IsInt 0#32 0) (by omega) <| Affine.vec_nil

/-- The rows of chunk 2 k - 1, written at the end of the even step. -/
theorem off7_eq (h1 : 1 ≤ k.val) : k0_off7 L k = ![(widL L).val * 16640 + 104 * (2 * k.val - 1), 0] := by
  have r_i1 : (L 1).val < 16 := (L 1).isLt
  have h_arg1 : Affine.IsInt (BitVec.ofNat 32 (L 1).val) (((L 1).val : Int)) := Affine.ofNat _ (by omega)
  have h_c2 : Affine.IsInt 2#32 (2) := Affine.ofNat _ (by omega)
  have h_v0 : Affine.IsInt _ (2 * ((L 1).val : Int)) := Affine.muli h_arg1 h_c2 (by omega)
  have r_i0 : (L 0).val < 2 := (L 0).isLt
  have h_arg0 : Affine.IsInt (BitVec.ofNat 32 (L 0).val) (((L 0).val : Int)) := Affine.ofNat _ (by omega)
  have h_v1 : Affine.IsInt _ (2 * ((L 1).val : Int) + ((L 0).val : Int)) := Affine.addi h_v0 h_arg0 (by omega)
  have h_c16640 : Affine.IsInt 16640#32 (16640) := Affine.ofNat _ (by omega)
  have h_v3 : Affine.IsInt _ (33280 * ((L 1).val : Int) + 16640 * ((L 0).val : Int)) := Affine.muli h_v1 h_c16640 (by omega)
  have h_c0 : Affine.IsInt 0#32 (0) := Affine.ofNat _ (by omega)
  have h_c1 : Affine.IsInt 1#32 (1) := Affine.ofNat _ (by omega)
  have r_k : k.val < 80 := Nat.lt_of_lt_of_le k.isLt k0_t1_abs.2.1
  have h_arg19 : Affine.IsInt _ ((k.val : Int)) := Affine.iv h_c0 h_c1 k.val (by omega)
  have h_v29 : Affine.IsInt _ (2 * (k.val : Int)) := Affine.muli h_arg19 h_c2 (by omega)
  have h_v30 : Affine.IsInt _ (2 * (k.val : Int)) := Affine.addi h_v29 h_c0 (by omega)
  have h_v64 : Affine.IsInt _ (2 * (k.val : Int) - 1) := Affine.subi h_v30 h_c1 (by omega)
  have h_c104 : Affine.IsInt 104#32 (104) := Affine.ofNat _ (by omega)
  have h_v65 : Affine.IsInt _ (208 * (k.val : Int) - 104) := Affine.muli h_v64 h_c104 (by omega)
  have h_v66 : Affine.IsInt _ (33280 * ((L 1).val : Int) + 16640 * ((L 0).val : Int) + 208 * (k.val : Int) - 104) := Affine.addi h_v3 h_v65 (by omega)
  exact Affine.vec_cons h_v66 (by rw [widL_val]; omega) <| Affine.vec_cons (Affine.ofNat 0 (by omega) : Affine.IsInt 0#32 0) (by omega) <| Affine.vec_nil

/-- The rows of chunk 2 k - 1 again, waited for at the start of the odd step. -/
theorem off8_eq (h1 : 1 ≤ k.val) : k0_off8 L k = ![(widL L).val * 16640 + 104 * (2 * k.val - 1), 0] := by
  have r_i1 : (L 1).val < 16 := (L 1).isLt
  have h_arg1 : Affine.IsInt (BitVec.ofNat 32 (L 1).val) (((L 1).val : Int)) := Affine.ofNat _ (by omega)
  have h_c2 : Affine.IsInt 2#32 (2) := Affine.ofNat _ (by omega)
  have h_v0 : Affine.IsInt _ (2 * ((L 1).val : Int)) := Affine.muli h_arg1 h_c2 (by omega)
  have r_i0 : (L 0).val < 2 := (L 0).isLt
  have h_arg0 : Affine.IsInt (BitVec.ofNat 32 (L 0).val) (((L 0).val : Int)) := Affine.ofNat _ (by omega)
  have h_v1 : Affine.IsInt _ (2 * ((L 1).val : Int) + ((L 0).val : Int)) := Affine.addi h_v0 h_arg0 (by omega)
  have h_c16640 : Affine.IsInt 16640#32 (16640) := Affine.ofNat _ (by omega)
  have h_v3 : Affine.IsInt _ (33280 * ((L 1).val : Int) + 16640 * ((L 0).val : Int)) := Affine.muli h_v1 h_c16640 (by omega)
  have h_c0 : Affine.IsInt 0#32 (0) := Affine.ofNat _ (by omega)
  have h_c1 : Affine.IsInt 1#32 (1) := Affine.ofNat _ (by omega)
  have r_k : k.val < 80 := Nat.lt_of_lt_of_le k.isLt k0_t1_abs.2.1
  have h_arg19 : Affine.IsInt _ ((k.val : Int)) := Affine.iv h_c0 h_c1 k.val (by omega)
  have h_v43 : Affine.IsInt _ (2 * (k.val : Int)) := Affine.muli h_arg19 h_c2 (by omega)
  have h_v44 : Affine.IsInt _ (2 * (k.val : Int) + 1) := Affine.addi h_v43 h_c1 (by omega)
  have h_v57 : Affine.IsInt _ (2 * (k.val : Int) - 1) := Affine.subi h_v44 h_c2 (by omega)
  have h_c104 : Affine.IsInt 104#32 (104) := Affine.ofNat _ (by omega)
  have h_v58 : Affine.IsInt _ (208 * (k.val : Int) - 104) := Affine.muli h_v57 h_c104 (by omega)
  have h_v59 : Affine.IsInt _ (33280 * ((L 1).val : Int) + 16640 * ((L 0).val : Int) + 208 * (k.val : Int) - 104) := Affine.addi h_v3 h_v58 (by omega)
  exact Affine.vec_cons h_v59 (by rw [widL_val]; omega) <| Affine.vec_cons (Affine.ofNat 0 (by omega) : Affine.IsInt 0#32 0) (by omega) <| Affine.vec_nil

/-- The rows of chunk 2 k, written at the end of the odd step. -/
theorem off12_eq : k0_off12 L k = ![(widL L).val * 16640 + 104 * (2 * k.val), 0] := by
  rw [k0_off12_eq, widL_val]
  congr 1
  omega

/-- The rows of the tile's last two chunks, written and waited for after the loop. -/
theorem off14_eq_158 : k0_off14 L 16432#32 = ![(widL L).val * 16640 + 104 * 158, 0] := by
  rw [show (16432#32 : BitVec 32) = BitVec.ofNat 32 (16432 + 104 * (0 : Fin 2).val) from rfl, k0_off14_eq, widL_val]
  congr 1
  simp only [Fin.val_zero]; omega
theorem off14_eq_159 : k0_off14 L 16536#32 = ![(widL L).val * 16640 + 104 * 159, 0] := by
  rw [show (16536#32 : BitVec 32) = BitVec.ofNat 32 (16432 + 104 * (1 : Fin 2).val) from rfl, k0_off14_eq, widL_val]
  congr 1
  simp only [Fin.val_one]; omega

/-! ## The index list's chunks: entries w * 66560 + 416 * g onwards -/

/-- The first two index chunks, loaded before the loop. -/
theorem off1_eq_0 : k0_off1 L 0#32 = ![(widL L).val * 66560 + 416 * 0] := by
  rw [show (0#32 : BitVec 32) = BitVec.ofNat 32 (416 * (0 : Fin 2).val) from rfl, k0_off1_eq, widL_val]
  congr 1
  simp only [Fin.val_zero]; omega
theorem off1_eq_1 : k0_off1 L 416#32 = ![(widL L).val * 66560 + 416 * 1] := by
  rw [show (416#32 : BitVec 32) = BitVec.ofNat 32 (416 * (1 : Fin 2).val) from rfl, k0_off1_eq, widL_val]
  congr 1
  simp only [Fin.val_one]; omega
/-- Index chunks 2 k and 2 k + 1, waited for at the start of the even and of the odd step. -/
theorem off3_eq_0 : k0_off3 L k 0#32 = ![(widL L).val * 66560 + 416 * (2 * k.val)] := by
  rw [show (0#32 : BitVec 32) = BitVec.ofNat 32 (0 : Fin 2).val from rfl, k0_off3_eq, widL_val]
  congr 1
  simp only [Fin.val_zero]; omega
theorem off3_eq_1 : k0_off3 L k 1#32 = ![(widL L).val * 66560 + 416 * (2 * k.val + 1)] := by
  rw [show (1#32 : BitVec 32) = BitVec.ofNat 32 (1 : Fin 2).val from rfl, k0_off3_eq, widL_val]
  congr 1
  simp only [Fin.val_one]; omega
/-- Index chunk 2 k + 1, loaded in the even step, and index chunk 2 k + 2, loaded in the odd step. -/
theorem off5_eq : k0_off5 L k = ![(widL L).val * 66560 + 416 * (2 * k.val + 1)] := by
  rw [k0_off5_eq, widL_val]
  congr 1
  omega
theorem off10_eq : k0_off10 L k = ![(widL L).val * 66560 + 416 * (2 * k.val + 2)] := by
  rw [k0_off10_eq, widL_val]
  congr 1
  omega

end Cert.Proof.KB

end
-- ==== Proof.KBBodyLibGeomOut.lean ====
/-
  Which rows of the result each of the tile's result slices covers.

  The result has 532480 rows of 128 words, cut into 5120 blocks of 104 rows; tile w owns rows [w * 16640, (w + 1) * 16640),
  that is blocks 160 w + g for its chunks g < 160. A slice of 104 rows taken at row r and column 0 covers exactly the words
  whose row lies in [r, r + 104), and block q is the words whose row lies in [104 q, 104 q + 104). With the offsets in
  closed form (w * 16640 + 104 g) each printed slice is one block of the tile: chunk 2 k - 2 or 2 k - 1 (waited for), 2 k - 1
  or 2 k (written) in trip k of the main loop, and chunks 158 and 159 after it.
-/
import proofs.«204936_g5145370820905_cont_8to1_c_618_18_alg».proof.Proof.KBBodyLibGeomOff

noncomputable section

namespace Cert.Proof.KB

open Cert.Kernel Cert.Kernel.Gen
open Idealize.ShloMosaic Idealize.ShloMosaic.ValueIdx

local notation "outW" => (Memref.whole Cert.Kernel.main_v13_scv : Memref Cert.Kernel.sig Kind.scVector Space.hbm Cert.Kernel.S532480x128 EltTy.f32)

/-! ## Rows of the result -/

/-- The words of the result in the 104 rows from row `r`. -/
def outRows (r : ℕ) : Finset S532480x128.Idx :=
  Finset.univ.filter fun j => r ≤ (j 0).val ∧ (j 0).val < r + 104

theorem mem_outRows {r : ℕ} {j : S532480x128.Idx} : j ∈ outRows r ↔ r ≤ (j 0).val ∧ (j 0).val < r + 104 := by
  simp [outRows]

/-- A slice of 104 rows of the result, taken at row `r` and column 0, covers the words of those rows. -/
theorem set_slice_outRows {off : Fin 2 → ℕ} (h : ∀ a, off a + S104x128.size a ≤ S532480x128.size a) {r : ℕ} (he : off = ![r, 0]) :
    ((outW).slice (Rect.unit (s := S532480x128) off S104x128.size h) (fun _ => rfl)).view.set = outRows r := by
  subst he
  refine (View.set_slice_whole main_v13_scv (Rect.unit (s := S532480x128) ![r, 0] S104x128.size h)).trans ?_
  ext j
  rw [Rect.mem_set_unit]
  refine (Fin.forall_fin_two).trans ?_
  rw [mem_outRows]
  have h1 : (j 1).val < 128 := (j 1).isLt
  constructor
  · rintro ⟨⟨a, b⟩, -⟩
    exact ⟨a, b⟩
  · rintro ⟨a, b⟩
    exact ⟨⟨a, b⟩, Nat.zero_le _, by simpa using h1⟩

/-- Block `q` of the result is the words of the 104 rows from row `104 q`. -/
theorem outSet_eq_outRows (q : Fin 5120) : outSet q = outRows (104 * q.val) := by
  refine (View.set_slice_whole main_v13_scv (outPart q)).trans ?_
  ext j
  rw [Rect.mem_set_unit]
  refine (Fin.forall_fin_two).trans ?_
  rw [mem_outRows]
  have h1 : (j 1).val < 128 := (j 1).isLt
  have e0 : S532480x128.partIx 0 q.val 0 * S532480x128.partSize 0 5120 0 = 104 * q.val := by
    simp [Shape.partIx, Shape.partSize]; omega
  have s0 : S532480x128.partSize 0 5120 0 = 104 := by simp [Shape.partSize]
  have e1 : S532480x128.partIx 0 q.val 1 * S532480x128.partSize 0 5120 1 = 0 := by simp [Shape.partIx]
  have s1 : S532480x128.partSize 0 5120 1 = 128 := by simp [Shape.partSize]
  rw [e0, s0, e1, s1]
  omega

/-- The block of chunk `g` of tile `w`: the 104 rows from row `w * 16640 + 104 g`. -/
theorem outSet_chunkIx (w : Fin 32) (g : Fin 160) : outSet (chunkIx w g) = outRows (w.val * 16640 + 104 * g.val) := by
  rw [outSet_eq_outRows]
  congr 1
  show 104 * (160 * w.val + g.val) = w.val * 16640 + 104 * g.val
  omega

theorem mem_outSet_chunkIx {w : Fin 32} {g : Fin 160} {j : S532480x128.Idx} :
    j ∈ outSet (chunkIx w g) ↔ w.val * 16640 + 104 * g.val ≤ (j 0).val ∧ (j 0).val < w.val * 16640 + 104 * g.val + 104 := by
  rw [outSet_chunkIx, mem_outRows]

/-- A slice of 104 rows taken at the first row of chunk `g` of tile `w` is that chunk's block. -/
theorem set_slice_chunk {off : Fin 2 → ℕ} (h : ∀ a, off a + S104x128.size a ≤ S532480x128.size a) (w : Fin 32) (g : Fin 160)
    (he : off = ![w.val * 16640 + 104 * g.val, 0]) :
    ((outW).slice (Rect.unit (s := S532480x128) off S104x128.size h) (fun _ => rfl)).view.set = outSet (chunkIx w g) :=
  (set_slice_outRows h he).trans (outSet_chunkIx w g).symm

/-! ## The printed slices -/

variable (L : grid0.Coords) (k : Fin k0_t1_loop.trips)

/-- The chunk numbers a trip of the main loop names are chunks of the tile. -/
theorem chunk_lt (j : ℕ) (hj : j ≤ 1) : 2 * k.val + j < 160 := by
  have hk : k.val < 80 := lt_of_lt_of_eq k.isLt trips_eq
  omega
theorem chunkm2_lt : 2 * k.val - 2 < 160 := by have := chunk_lt k 0 (by omega); omega
theorem chunkm1_lt : 2 * k.val - 1 < 160 := by have := chunk_lt k 0 (by omega); omega
theorem chunk0_lt : 2 * k.val < 160 := chunk_lt k 0 (by omega)
theorem chunk1_lt : 2 * k.val + 1 < 160 := chunk_lt k 1 (by omega)

/-- The slice whose write the even step waits for first: chunk 2 k - 2 of the tile. -/
theorem set_out_off2 (h1 : k0_cond1 k = 1#1) (h : ∀ a, (k0_off2 L k) a + S104x128.size a ≤ S532480x128.size a) :
    ((outW).slice (Rect.unit (s := S532480x128) (k0_off2 L k) S104x128.size h) (fun _ => rfl)).view.set
      = outSet (chunkIx (widL L) ⟨2 * k.val - 2, chunkm2_lt k⟩) :=
  set_slice_chunk h (widL L) ⟨2 * k.val - 2, chunkm2_lt k⟩ (off2_eq L k ((cond1_iff k).mp h1))

/-- The slice the even step writes: chunk 2 k - 1 of the tile. -/
theorem set_out_off7 (h2 : k0_cond2 k = 1#1) (h : ∀ a, (k0_off7 L k) a + S104x128.size a ≤ S532480x128.size a) :
    ((outW).slice (Rect.unit (s := S532480x128) (k0_off7 L k) S104x128.size h) (fun _ => rfl)).view.set
      = outSet (chunkIx (widL L) ⟨2 * k.val - 1, chunkm1_lt k⟩) :=
  set_slice_chunk h (widL L) ⟨2 * k.val - 1, chunkm1_lt k⟩ (off7_eq L k ((cond2_iff k).mp h2))

/-- The slice whose write the odd step waits for first: chunk 2 k - 1 of the tile. -/
theorem set_out_off8 (h4 : k0_cond4 k = 1#1) (h : ∀ a, (k0_off8 L k) a + S104x128.size a ≤ S532480x128.size a) :
    ((outW).slice (Rect.unit (s := S532480x128) (k0_off8 L k) S104x128.size h) (fun _ => rfl)).view.set
      = outSet (chunkIx (widL L) ⟨2 * k.val - 1, chunkm1_lt k⟩) :=
  set_slice_chunk h (widL L) ⟨2 * k.val - 1, chunkm1_lt k⟩ (off8_eq L k ((cond4_iff k).mp h4))

/-- The slice the odd step writes: chunk 2 k of the tile. -/
theorem set_out_off12 (h : ∀ a, (k0_off12 L k) a + S104x128.size a ≤ S532480x128.size a) :
    ((outW).slice (Rect.unit (s := S532480x128) (k0_off12 L k) S104x128.size h) (fun _ => rfl)).view.set
      = outSet (chunkIx (widL L) ⟨2 * k.val, chunk0_lt k⟩) :=
  set_slice_chunk h (widL L) ⟨2 * k.val, chunk0_lt k⟩ (off12_eq L k)

/-- The two slices written and waited for after the loop: chunks 158 and 159 of the tile. -/
theorem set_out_off14_158 (h : ∀ a, (k0_off14 L 16432#32) a + S104x128.size a ≤ S532480x128.size a) :
    ((outW).slice (Rect.unit (s := S532480x128) (k0_off14 L 16432#32) S104x128.size h) (fun _ => rfl)).view.set
      = outSet (chunkIx (widL L) ⟨158, by decide⟩) :=
  set_slice_chunk h (widL L) ⟨158, by decide⟩ (off14_eq_158 L)
theorem set_out_off14_159 (h : ∀ a, (k0_off14 L 16536#32) a + S104x128.size a ≤ S532480x128.size a) :
    ((outW).slice (Rect.unit (s := S532480x128) (k0_off14 L 16536#32) S104x128.size h) (fun _ => rfl)).view.set
      = outSet (chunkIx (widL L) ⟨159, by decide⟩) :=
  set_slice_chunk h (widL L) ⟨159, by decide⟩ (off14_eq_159 L)

/-! ## The tile's blocks among themselves -/

/-- Different chunks of a tile are different blocks. -/
theorem chunkIx_ne {w : Fin 32} {g g' : Fin 160} (h : g ≠ g') : chunkIx w g ≠ chunkIx w g' := by
  intro e
  apply h
  have := congrArg Fin.val e
  exact Fin.ext (by simp only [chunkIx] at this; omega)

/-- Different chunks of a tile share no word of the result. -/
theorem outSet_chunk_disjoint {w : Fin 32} {g g' : Fin 160} (h : g ≠ g') :
    Disjoint (outSet (chunkIx w g)) (outSet (chunkIx w g')) := by
  rw [Finset.disjoint_left]
  intro j hj hj'
  rw [mem_outSet_chunkIx] at hj hj'
  have : g.val ≠ g'.val := fun e => h (Fin.ext e)
  omega

end Cert.Proof.KB

end
-- ==== Proof.KBBodyLibGeomIdx.lean ====
/-
  Which entries of the index list each of the tile's index slices covers, and what is read through them.

  The index list has 2129920 entries; tile w owns entries [w * 66560, (w + 1) * 66560), 160 chunks of 416 entries.
  A slice of 416 entries taken at entry p covers exactly the entries in [p, p + 416), and entry j of the slice is
  entry p + j of the list. With the offsets in closed form each printed slice is one chunk of the tile.
-/
import proofs.«204936_g5145370820905_cont_8to1_c_618_18_alg».proof.Proof.KBBodyLibGeomOff

noncomputable section

namespace Cert.Proof.KB

open Cert.Kernel Cert.Kernel.Gen
open Idealize.ShloMosaic Idealize.ShloMosaic.ValueIdx

local notation "idxW" => (Memref.whole Cert.Kernel.main_v2_scv : Memref Cert.Kernel.sig Kind.scVector Space.hbm Cert.Kernel.S2129920 EltTy.i32)

/-! ## Runs of the index list -/

/-- The 416 entries of the index list from entry `p`. -/
def idxRun (p : ℕ) : Finset S2129920.Idx :=
  Finset.univ.filter fun i => p ≤ (i 0).val ∧ (i 0).val < p + 416

theorem mem_idxRun {p : ℕ} {i : S2129920.Idx} : i ∈ idxRun p ↔ p ≤ (i 0).val ∧ (i 0).val < p + 416 := by
  simp [idxRun]

/-- The entries of chunk `g` of tile `w` in the index list. -/
abbrev idxChunk (w : Fin 32) (g : ℕ) : Finset S2129920.Idx := idxRun (w.val * 66560 + 416 * g)

theorem mem_idxChunk {w : Fin 32} {g : ℕ} {i : S2129920.Idx} :
    i ∈ idxChunk w g ↔ w.val * 66560 + 416 * g ≤ (i 0).val ∧ (i 0).val < w.val * 66560 + 416 * g + 416 := mem_idxRun

/-- A slice of 416 entries of the index list taken at entry `p` covers those entries. -/
theorem set_slice_idxRun {off : Fin 1 → ℕ} (h : ∀ a, off a + S416.size a ≤ S2129920.size a) {p : ℕ} (he : off = ![p]) :
    ((idxW).slice (Rect.unit (s := S2129920) off S416.size h) (fun _ => rfl)).view.set = idxRun p := by
  subst he
  refine (View.set_slice_whole main_v2_scv (Rect.unit (s := S2129920) ![p] S416.size h)).trans ?_
  ext i
  rw [Rect.mem_set_unit]
  refine (Fin.forall_fin_one).trans ?_
  rw [mem_idxRun]
  exact Iff.rfl

/-- A slice taken inside the list ends inside it. -/
theorem idx_inb {off : Fin 1 → ℕ} (h : ∀ a, off a + S416.size a ≤ S2129920.size a) {p : ℕ} (he : off = ![p]) (j : Fin 416) :
    p + j.val < 2129920 := by
  subst he
  have := h 0
  have hj := j.isLt
  have e : (![p] : Fin 1 → ℕ) 0 + S416.size 0 = p + 416 := rfl
  have e' : S2129920.size 0 = 2129920 := rfl
  omega

/-- Entry `j` of a slice of the index list taken at entry `p` is entry `p + j` of the list. -/
theorem read_slice_idx {Val : EltTy → Type} (f : S2129920.Idx → Val .i32) {off : Fin 1 → ℕ}
    (h : ∀ a, off a + S416.size a ≤ S2129920.size a) {p : ℕ} (he : off = ![p]) (j : Fin 416) :
    ((idxW).slice (Rect.unit (s := S2129920) off S416.size h) (fun _ => rfl)).view.read Val f (ix1 j)
      = f (ix1 (⟨p + j.val, idx_inb h he j⟩ : Fin 2129920)) := by
  subst he
  rw [View.read_apply]
  refine (cast_eq _ _).trans ?_
  congr 1
  funext a
  match a with
  | ⟨0, _⟩ => exact Fin.ext (by show p + 1 * j.val = p + j.val; omega)

/-- The same for the whole slice at once: what a copy out of the slice carries. -/
theorem read_slice_idx_fun {Val : EltTy → Type} (f : S2129920.Idx → Val .i32) {off : Fin 1 → ℕ}
    (h : ∀ a, off a + S416.size a ≤ S2129920.size a) {p : ℕ} (he : off = ![p]) :
    ((idxW).slice (Rect.unit (s := S2129920) off S416.size h) (fun _ => rfl)).view.read Val f
      = fun j : S416.Idx => f (ix1 (⟨p + (j 0).val, idx_inb h he (j 0)⟩ : Fin 2129920)) := by
  funext j
  rw [eq_ix1 j]
  exact read_slice_idx f h he (j 0)

/-! ## The printed slices -/

variable (L : grid0.Coords) (k : Fin k0_t1_loop.trips)

/-- The two slices loaded before the loop: chunks 0 and 1 of the tile. -/
theorem set_idx_off1_0 (h : ∀ a, (k0_off1 L 0#32) a + S416.size a ≤ S2129920.size a) :
    ((idxW).slice (Rect.unit (s := S2129920) (k0_off1 L 0#32) S416.size h) (fun _ => rfl)).view.set = idxChunk (widL L) 0 :=
  set_slice_idxRun h (off1_eq_0 L)
theorem set_idx_off1_1 (h : ∀ a, (k0_off1 L 416#32) a + S416.size a ≤ S2129920.size a) :
    ((idxW).slice (Rect.unit (s := S2129920) (k0_off1 L 416#32) S416.size h) (fun _ => rfl)).view.set = idxChunk (widL L) 1 :=
  set_slice_idxRun h (off1_eq_1 L)

/-- The slices whose load the even and the odd step wait for: chunks 2 k and 2 k + 1 of the tile. -/
theorem set_idx_off3_0 (h : ∀ a, (k0_off3 L k 0#32) a + S416.size a ≤ S2129920.size a) :
    ((idxW).slice (Rect.unit (s := S2129920) (k0_off3 L k 0#32) S416.size h) (fun _ => rfl)).view.set = idxChunk (widL L) (2 * k.val) :=
  set_slice_idxRun h (off3_eq_0 L k)
theorem set_idx_off3_1 (h : ∀ a, (k0_off3 L k 1#32) a + S416.size a ≤ S2129920.size a) :
    ((idxW).slice (Rect.unit (s := S2129920) (k0_off3 L k 1#32) S416.size h) (fun _ => rfl)).view.set = idxChunk (widL L) (2 * k.val + 1) :=
  set_slice_idxRun h (off3_eq_1 L k)

/-- The slice the even step loads, chunk 2 k + 1, and the one the odd step loads, chunk 2 k + 2. -/
theorem set_idx_off5 (h : ∀ a, (k0_off5 L k) a + S416.size a ≤ S2129920.size a) :
    ((idxW).slice (Rect.unit (s := S2129920) (k0_off5 L k) S416.size h) (fun _ => rfl)).view.set = idxChunk (widL L) (2 * k.val + 1) :=
  set_slice_idxRun h (off5_eq L k)
theorem set_idx_off10 (h : ∀ a, (k0_off10 L k) a + S416.size a ≤ S2129920.size a) :
    ((idxW).slice (Rect.unit (s := S2129920) (k0_off10 L k) S416.size h) (fun _ => rfl)).view.set = idxChunk (widL L) (2 * k.val + 2) :=
  set_slice_idxRun h (off10_eq L k)

/-! ## What the slices read of the index list the call is given -/

variable {F : FTy → Type} [FloatOps F]
variable (m : (ℓ : Loc nD τ sig) → Buf (Elt F) ℓ) (d : Dev nD)

/-- Entry `j` of chunk `g` of tile `w`, as an entry of the index list. -/
abbrev idxAt (w : Fin 32) (g : ℕ) (j : Fin 416) (hb : w.val * 66560 + 416 * g + j.val < 2129920) : BitVec 32 :=
  idxArr m d (ix1 (⟨w.val * 66560 + 416 * g + j.val, hb⟩ : Fin 2129920))

theorem read_idx_off1_0 (h : ∀ a, (k0_off1 L 0#32) a + S416.size a ≤ S2129920.size a) (j : Fin 416) :
    ((idxW).slice (Rect.unit (s := S2129920) (k0_off1 L 0#32) S416.size h) (fun _ => rfl)).view.read (Elt F) (Vpre m d idx') (ix1 j)
      = idxAt m d (widL L) 0 j (idx_inb h (off1_eq_0 L) j) :=
  read_slice_idx (Vpre m d idx') h (off1_eq_0 L) j
theorem read_idx_off1_1 (h : ∀ a, (k0_off1 L 416#32) a + S416.size a ≤ S2129920.size a) (j : Fin 416) :
    ((idxW).slice (Rect.unit (s := S2129920) (k0_off1 L 416#32) S416.size h) (fun _ => rfl)).view.read (Elt F) (Vpre m d idx') (ix1 j)
      = idxAt m d (widL L) 1 j (idx_inb h (off1_eq_1 L) j) :=
  read_slice_idx (Vpre m d idx') h (off1_eq_1 L) j
theorem read_idx_off3_0 (h : ∀ a, (k0_off3 L k 0#32) a + S416.size a ≤ S2129920.size a) (j : Fin 416) :
    ((idxW).slice (Rect.unit (s := S2129920) (k0_off3 L k 0#32) S416.size h) (fun _ => rfl)).view.read (Elt F) (Vpre m d idx') (ix1 j)
      = idxAt m d (widL L) (2 * k.val) j (idx_inb h (off3_eq_0 L k) j) :=
  read_slice_idx (Vpre m d idx') h (off3_eq_0 L k) j
theorem read_idx_off3_1 (h : ∀ a, (k0_off3 L k 1#32) a + S416.size a ≤ S2129920.size a) (j : Fin 416) :
    ((idxW).slice (Rect.unit (s := S2129920) (k0_off3 L k 1#32) S416.size h) (fun _ => rfl)).view.read (Elt F) (Vpre m d idx') (ix1 j)
      = idxAt m d (widL L) (2 * k.val + 1) j (idx_inb h (off3_eq_1 L k) j) :=
  read_slice_idx (Vpre m d idx') h (off3_eq_1 L k) j
theorem read_idx_off5 (h : ∀ a, (k0_off5 L k) a + S416.size a ≤ S2129920.size a) (j : Fin 416) :
    ((idxW).slice (Rect.unit (s := S2129920) (k0_off5 L k) S416.size h) (fun _ => rfl)).view.read (Elt F) (Vpre m d idx') (ix1 j)
      = idxAt m d (widL L) (2 * k.val + 1) j (idx_inb h (off5_eq L k) j) :=
  read_slice_idx (Vpre m d idx') h (off5_eq L k) j
theorem read_idx_off10 (h : ∀ a, (k0_off10 L k) a + S416.size a ≤ S2129920.size a) (j : Fin 416) :
    ((idxW).slice (Rect.unit (s := S2129920) (k0_off10 L k) S416.size h) (fun _ => rfl)).view.read (Elt F) (Vpre m d idx') (ix1 j)
      = idxAt m d (widL L) (2 * k.val + 2) j (idx_inb h (off10_eq L k) j) :=
  read_slice_idx (Vpre m d idx') h (off10_eq L k) j

/-- Entry `j` of chunk `g` of tile `w` is entry `(w * 160 + g) * 416 + j` of the index list; the offset the kernel adds
    to it is entry `j` of the offsets, for a chunk starts at a multiple of 416. -/
theorem idxAt_pos (w : Fin 32) (g : ℕ) (j : Fin 416) : (w.val * 66560 + 416 * g + j.val) % 416 = j.val := by
  have := j.isLt
  omega

end Cert.Proof.KB

end
-- ==== Proof.KBValueFns.lean ====
/-
  The three operands of the call as pure functions of the two inputs, read at an index.

  The index list is the features `[26, 4096, 20]` read as `[26, 81920]`, transposed to `[81920, 26]` and flattened:
  entry `n * 26 + f` is feature `(f, b, s)` with `n = b * 20 + s`. The offsets are the vector `f * 100001` (`f < 26`) read
  as a row, repeated down sixteen rows and flattened: entry `j` is `(j % 26) * 100001`. The grouped table is the tables
  `[26, 100001, 32]` flattened, followed by 64 more words, and cut into groups of 128 words: word `l` of group `g` is
  flat word `g * 128 + l`, which below the padding is table entry `(f, row, e)` with `g * 128 + l = (f * 100001 + row) * 32 + e`.
-/
import proofs.«204936_g5145370820905_cont_8to1_c_618_18_alg».proof.Kernel
import proofs.«204936_g5145370820905_cont_8to1_c_618_18_alg».proof.Proof.Gen.Kernel
import Idealize.ShloMosaic.Lib.Pipeline.Value
import Idealize.ShloMosaic.Lib.ValueLayout
import Idealize.ShloMosaic.Lib.ValueIdx

noncomputable section

namespace Cert.Proof.KB

open Cert.Kernel Cert.Kernel.Gen
open Idealize.ShloMosaic Idealize.ShloMosaic.ValueIdx

/-! ## The index list -/

/-- The features in position-major order, flattened. -/
def idxOf (x : S26x4096x20.Idx → BitVec 32) : S2129920.Idx → BitVec 32 :=
  shapeCast S2129920
    (transpose S81920x26 [1, 0] (shapeCast S26x81920 x shapeCasts_S26x4096x20_S26x81920) transposes_S26x81920_S81920x26_1_0)
    shapeCasts_S81920x26_S2129920

/-- Entry `(b * 20 + s) * 26 + f` of the index list is feature `(f, b, s)`. -/
theorem idxOf_apply (x : S26x4096x20.Idx → BitVec 32) (p : Fin 2129920) (f : Fin 26) (b : Fin 4096) (s : Fin 20)
    (hp : p.val = (b.val * 20 + s.val) * 26 + f.val) : idxOf x (ix1 p) = x (ix3 f b s) := by
  have hn : b.val * 20 + s.val < 81920 := by have := b.isLt; have := s.isLt; omega
  unfold idxOf
  refine (shapeCast_apply _ shapeCasts_S81920x26_S2129920 (ix1 p) (ix2 (⟨b.val * 20 + s.val, hn⟩ : Fin 81920) f) ?_).trans ?_
  · rw [Shape.rowMajor_val_two, Shape.rowMajor_val_one]
    show (b.val * 20 + s.val) * 26 + f.val = p.val
    omega
  refine (transpose_ix2_apply _ transposes_S26x81920_S81920x26_1_0 (⟨b.val * 20 + s.val, hn⟩ : Fin 81920) f).trans ?_
  refine shapeCast_apply x shapeCasts_S26x4096x20_S26x81920 (ix2 f (⟨b.val * 20 + s.val, hn⟩ : Fin 81920)) (ix3 f b s) ?_
  rw [Shape.rowMajor_val_three, Shape.rowMajor_val_two]
  show (f.val * 4096 + b.val) * 20 + s.val = f.val * 81920 + (b.val * 20 + s.val)
  omega

/-! ## The offsets -/

/-- The per-field offsets `f * 100001`, repeated over the sixteen positions of a chunk. -/
def offConst : S416.Idx → BitVec 32 :=
  shapeCast S416
    (broadcastInDim S16x26 ![0, 1] bcast_S1x26_S16x26_0_1
      (shapeCast S1x26 (muli (iotaInDim S26 32 0) (broadcastInDim S26 ![] bcast_S_S26 (constantI S_ 32 100001#32))) shapeCasts_S26_S1x26))
    shapeCasts_S16x26_S416

/-- Entry `j` of the offsets is `(j % 26) * 100001`. -/
theorem offConst_apply (j : Fin 416) : offConst (ix1 j) = BitVec.ofNat 32 ((j.val % 26) * 100001) := by
  have h0 : j.val / 26 < 16 := by have := j.isLt; omega
  have h1 : j.val % 26 < 26 := Nat.mod_lt _ (by decide)
  unfold offConst
  refine (shapeCast_apply _ shapeCasts_S16x26_S416 (ix1 j) (ix2 (⟨j.val / 26, h0⟩ : Fin 16) (⟨j.val % 26, h1⟩ : Fin 26)) ?_).trans ?_
  · rw [Shape.rowMajor_val_two, Shape.rowMajor_val_one]
    show (j.val / 26) * 26 + j.val % 26 = j.val
    omega
  refine (broadcastInDim_apply ![0, 1] bcast_S1x26_S16x26_0_1 _ (ix2 (⟨j.val / 26, h0⟩ : Fin 16) (⟨j.val % 26, h1⟩ : Fin 26))
    (ix2 (0 : Fin 1) (⟨j.val % 26, h1⟩ : Fin 26)) (fun a => match a with | ⟨0, _⟩ => rfl | ⟨1, _⟩ => rfl)).trans ?_
  refine (shapeCast_a_1a_apply _ shapeCasts_S26_S1x26 (0 : Fin 1) (⟨j.val % 26, h1⟩ : Fin 26)).trans ?_
  show BitVec.ofNat 32 (j.val % 26) * 100001#32 = BitVec.ofNat 32 ((j.val % 26) * 100001)
  rw [BitVec.ofNat_mul]

/-! ## The grouped table -/

/-- The tables flattened, padded and cut into groups of 128 words. -/
def tabOf {α : Type} (x : S26x100001x32.Idx → α) (pad : S64.Idx → α) : S650007x128.Idx → α :=
  shapeCast S650007x128
    (concatenate S83200896 0 [⟨S83200832, shapeCast S83200832 x shapeCasts_S26x100001x32_S83200832⟩, ⟨S64, pad⟩]
      concatenates_S83200832_S64_S83200896_d0)
    shapeCasts_S83200896_S650007x128

/-- Word `l` of group `g` is table entry `(f, row, e)` when `g * 128 + l = (f * 100001 + row) * 32 + e`. -/
theorem tabOf_apply {α : Type} (x : S26x100001x32.Idx → α) (pad : S64.Idx → α) (g : Fin 650007) (l : Fin 128)
    (f : Fin 26) (row : Fin 100001) (e : Fin 32) (h : g.val * 128 + l.val = (f.val * 100001 + row.val) * 32 + e.val) :
    tabOf x pad (ix2 g l) = x (ix3 f row e) := by
  have hlt : g.val * 128 + l.val < 83200832 := by have := f.isLt; have := row.isLt; have := e.isLt; omega
  have hlt' : g.val * 128 + l.val < 83200896 := by omega
  unfold tabOf
  refine (shapeCast_apply _ shapeCasts_S83200896_S650007x128 (ix2 g l) (ix1 (⟨g.val * 128 + l.val, hlt'⟩ : Fin 83200896)) ?_).trans ?_
  · rw [Shape.rowMajor_val_two, Shape.rowMajor_val_one]
    rfl
  refine (concatenate_pair_apply_left (0 : Fin 1) _ pad concatenates_S83200832_S64_S83200896_d0
    (ix1 (⟨g.val * 128 + l.val, hlt'⟩ : Fin 83200896)) rfl (ix1 (⟨g.val * 128 + l.val, hlt⟩ : Fin 83200832)) fun c => by
      obtain rfl : c = 0 := Subsingleton.elim _ _
      rfl).trans ?_
  refine shapeCast_apply x shapeCasts_S26x100001x32_S83200832 (ix1 (⟨g.val * 128 + l.val, hlt⟩ : Fin 83200832)) (ix3 f row e) ?_
  rw [Shape.rowMajor_val_three, Shape.rowMajor_val_one]
  show (f.val * 100001 + row.val) * 32 + e.val = g.val * 128 + l.val
  omega

end Cert.Proof.KB

end
-- ==== Proof.KBValueOps.lean ====
/-
  The call's three operands, as the TensorCore's operations before the call leave them, read at an index.

  Each operand is a chain of layout operations applied to an input (or, for the offsets, to constants); the chain is read
  off the operations in order and is the pure function of the inputs whose entries are computed beside this file.
-/
import proofs.«204936_g5145370820905_cont_8to1_c_618_18_alg».proof.Proof.KBCommon
import proofs.«204936_g5145370820905_cont_8to1_c_618_18_alg».proof.Proof.KBValueFns

noncomputable section

namespace Cert.Proof.KB

open Cert.Kernel Cert.Kernel.Gen
open Idealize.ShloMosaic Idealize.ShloMosaic.ValueIdx

variable {F : FTy → Type} [FloatOps F]
variable (m : (ℓ : Loc nD τ sig) → Buf (Elt F) ℓ)

/-- The 64 words of padding: zeros. -/
def padZero : S64.Idx → Elt F .f32 := broadcastInDim S64 ![] bcast_S_S64 (constant (F := F) S_ .f32 0x00000000#32)

/-- The index list at the call is the features in position-major order. -/
theorem idxArr_eq (d : Dev nD) : idxArr m d = idxOf (m (a0Loc d)) := by
  show StableHlo.after (preOps (F := F)) (V0 m d) idx' = _
  after_results
  rfl

/-- The offsets at the call are the per-field offsets repeated. -/
theorem offArr_eq (d : Dev nD) : offArr m d = offConst := by
  show StableHlo.after (preOps (F := F)) (V0 m d) off' = _
  after_results
  rfl

/-- The grouped table at the call is the tables flattened, padded with zeros and cut into groups. -/
theorem tabArr_eq (d : Dev nD) : tabArr m d = tabOf (m (a1Loc d)) (padZero (F := F)) := by
  show StableHlo.after (preOps (F := F)) (V0 m d) tab' = _
  after_results
  rfl

/-- Entry `(b * 20 + s) * 26 + f` of the index list is feature `(f, b, s)`. -/
theorem idxArr_apply (d : Dev nD) (p : Fin 2129920) (f : Fin 26) (b : Fin 4096) (s : Fin 20)
    (hp : p.val = (b.val * 20 + s.val) * 26 + f.val) : idxArr m d (ix1 p) = m (a0Loc d) (ix3 f b s) := by
  rw [idxArr_eq]
  exact idxOf_apply _ p f b s hp

/-- Entry `j` of the offsets is `(j % 26) * 100001`. -/
theorem offArr_apply (d : Dev nD) (j : Fin 416) : offArr m d (ix1 j) = BitVec.ofNat 32 ((j.val % 26) * 100001) := by
  rw [offArr_eq]
  exact offConst_apply j

/-- Word `l` of group `g` of the grouped table is table entry `(f, row, e)` when `g * 128 + l = (f * 100001 + row) * 32 + e`. -/
theorem tabArr_apply (d : Dev nD) (g : Fin 650007) (l : Fin 128) (f : Fin 26) (row : Fin 100001) (e : Fin 32)
    (h : g.val * 128 + l.val = (f.val * 100001 + row.val) * 32 + e.val) : tabArr m d (ix2 g l) = m (a1Loc d) (ix3 f row e) := by
  rw [tabArr_eq]
  exact tabOf_apply _ _ g l f row e h

end Cert.Proof.KB

end
-- ==== Proof.KBValueBridge.lean ====
/-
  The call's result, and the program's, as the lookup of the two inputs.

  Result entry `(b, s, k)` is flat word `(b * 20 + s) * 832 + k` of the call's result array, that is word `c` of row `r`
  with `r * 128 + c` that flat word. The call reads index entry `4 r + c / 32`, which is flat word / 32
  `= (b * 20 + s) * 26 + k / 32`: position `b * 20 + s`, field `k / 32`; the entry of the looked-up row is `c % 32 = k % 32`.
  The flat row number `t` is the feature plus `(k / 32) * 100001`: at most `99999 + 25 * 100001`, so the 32-bit sum does
  not wrap. Group `t / 4`, word `(t % 4) * 32 + e` of the grouped table is flat table word `t * 32 + e`, which lies below
  the padding and is entry `e` of row `feature` of table `k / 32`.
-/
import proofs.«204936_g5145370820905_cont_8to1_c_618_18_alg».proof.Proof.KBValueOps
import proofs.«204936_g5145370820905_cont_8to1_c_618_18_alg».proof.Proof.Spec

noncomputable section

namespace Cert.Proof.KB

open Cert.Kernel Cert.Kernel.Gen
open Idealize.ShloMosaic Idealize.ShloMosaic.ValueIdx

/-! ## Words -/

/-- A feature at most 99999 plus a field's offset does not wrap around in 32 bits. -/
theorem toNat_add_off (v : BitVec 32) (f : Nat) (hv : v.toNat ≤ 99999) (hf : f < 26) :
    (v + BitVec.ofNat 32 (f * 100001)).toNat = v.toNat + f * 100001 := by
  have h2 : (2 : Nat) ^ 32 = 4294967296 := by norm_num
  rw [BitVec.toNat_add, BitVec.toNat_ofNat, h2]
  omega

/-- The group of a flat row number below the table's end is the number divided by four. -/
theorem grp_val (t : BitVec 32) (ht : t.toNat < 2600028) : (grp t).val = t.toNat / 4 := by
  show min (t >>> 2).toNat 650006 = t.toNat / 4
  rw [BitVec.toNat_ushiftRight, Nat.shiftRight_eq_div_pow]
  have h2 : (2 : Nat) ^ 2 = 4 := by norm_num
  rw [h2]
  exact Nat.min_eq_left (by omega)

/-- Entry `e` of a flat row number's quarter of its group. -/
theorem lane_val (t : BitVec 32) (e : Fin 32) : (lane t e).val = (t.toNat % 4) * 32 + e.val := by
  show ((t &&& 3#32).toNat % 4) * 32 + e.val = (t.toNat % 4) * 32 + e.val
  have h3 : (t &&& 3#32).toNat = t.toNat % 4 := by
    rw [BitVec.toNat_and]
    exact Nat.and_two_pow_sub_one_eq_mod t.toNat 2
  rw [h3, Nat.mod_mod]

/-! ## The call's result array read at an index -/

/-- The index entry, the offsets' entry and the row's entry that result word `(r, c)` reads. -/
def pOf (r : Fin 532480) (c : Fin 128) : Fin 2129920 := ⟨r.val * 4 + c.val / 32, by have := r.isLt; have := c.isLt; omega⟩
def qOf (r : Fin 532480) (c : Fin 128) : Fin 416 := ⟨(pOf r c).val % 416, Nat.mod_lt _ (by decide)⟩
def eOf (c : Fin 128) : Fin 32 := ⟨c.val % 32, Nat.mod_lt _ (by decide)⟩

theorem outSpec_ix2 {α : Type} (I : S2129920.Idx → BitVec 32) (Of : S416.Idx → BitVec 32) (Tb : S650007x128.Idx → α)
    (r : Fin 532480) (c : Fin 128) :
    outSpec I Of Tb (ix2 r c)
      = Tb (ix2 (grp (I (ix1 (pOf r c)) + Of (ix1 (qOf r c)))) (lane (I (ix1 (pOf r c)) + Of (ix1 (qOf r c))) (eOf c))) := rfl

/-- Word `(r, c)` of the call's result, when the index entry it reads is the word `v ≤ 99999` and the offset it reads is
    `f * 100001`: word `(t % 4) * 32 + c % 32` of group `t / 4`, `t = v + f * 100001`. -/
theorem outSpec_read {α : Type} (I : S2129920.Idx → BitVec 32) (Of : S416.Idx → BitVec 32) (Tb : S650007x128.Idx → α)
    (r : Fin 532480) (c : Fin 128) (v : BitVec 32) (f : Fin 26) (g : Fin 650007) (l : Fin 128)
    (hI : I (ix1 (pOf r c)) = v) (hO : Of (ix1 (qOf r c)) = BitVec.ofNat 32 (f.val * 100001)) (hv : v.toNat ≤ 99999)
    (hg : g.val = (v.toNat + f.val * 100001) / 4) (hl : l.val = ((v.toNat + f.val * 100001) % 4) * 32 + c.val % 32) :
    outSpec I Of Tb (ix2 r c) = Tb (ix2 g l) := by
  rw [outSpec_ix2, hI, hO]
  have ht : (v + BitVec.ofNat 32 (f.val * 100001)).toNat = v.toNat + f.val * 100001 := toNat_add_off v f.val hv f.isLt
  have hlt : (v + BitVec.ofNat 32 (f.val * 100001)).toNat < 2600028 := by rw [ht]; have := f.isLt; omega
  have e1 : grp (v + BitVec.ofNat 32 (f.val * 100001)) = g := Fin.ext (by rw [grp_val _ hlt, ht, hg])
  have e2 : lane (v + BitVec.ofNat 32 (f.val * 100001)) (eOf c) = l := Fin.ext (by rw [lane_val, ht, hl]; rfl)
  rw [e1, e2]

variable {F : FTy → Type} [FloatOps F]
variable (m : (ℓ : Loc nD τ sig) → Buf (Elt F) ℓ)

/-! ## The precondition the tiles' proof asks for -/

/-- Features at most 99999 make every flat row number the tiles form a row of the padded table. -/
theorem preOK_of_range (hr : ∀ d i, (m (a0Loc d) i).toNat ≤ 99999) : PreOK m := by
  intro d p
  have hp := p.isLt
  have hf : p.val % 26 < 26 := Nat.mod_lt _ (by decide)
  have hb : p.val / 26 / 20 < 4096 := by omega
  have hs : p.val / 26 % 20 < 20 := Nat.mod_lt _ (by decide)
  rw [idxArr_apply m d p ⟨p.val % 26, hf⟩ ⟨p.val / 26 / 20, hb⟩ ⟨p.val / 26 % 20, hs⟩
      (by show p.val = (p.val / 26 / 20 * 20 + p.val / 26 % 20) * 26 + p.val % 26; omega),
    offArr_apply]
  have e : p.val % 416 % 26 = p.val % 26 := by omega
  show (_ + BitVec.ofNat 32 (p.val % 416 % 26 * 100001)).toNat < 2600028
  rw [e, toNat_add_off _ _ (hr d _) hf]
  have := hr d (ix3 (⟨p.val % 26, hf⟩ : Fin 26) (⟨p.val / 26 / 20, hb⟩ : Fin 4096) (⟨p.val / 26 % 20, hs⟩ : Fin 20))
  omega

/-! ## The bridge -/

/-- Word `c` of row `r` of the call's result, `r * 128 + c = (b * 20 + s) * 832 + k`, is the looked-up table entry. -/
theorem outArr_apply (hr : ∀ d i, (m (a0Loc d) i).toNat ≤ 99999) (d : Dev nD) (b : Fin 4096) (s : Fin 20) (k : Fin 832)
    (r : Fin 532480) (c : Fin 128) (hrc : r.val * 128 + c.val = (b.val * 20 + s.val) * 832 + k.val) :
    outArr m d (ix2 r c) = m (a1Loc d) (ix3 (Spec.fld k) (Spec.rowOf (m (a0Loc d) (ix3 (Spec.fld k) b s))) (Spec.col k)) := by
  have hb := b.isLt
  have hs := s.isLt
  have hk := k.isLt
  have hc := c.isLt
  have hv := hr d (ix3 (Spec.fld k) b s)
  -- the flat row number and where it lies in the grouped table
  have hg : (m (a0Loc d) (ix3 (Spec.fld k) b s)).toNat + (k.val / 32) * 100001 < 2600028 := by omega
  have hgl : ((m (a0Loc d) (ix3 (Spec.fld k) b s)).toNat + (k.val / 32) * 100001) / 4 < 650007 := by omega
  have hll : (((m (a0Loc d) (ix3 (Spec.fld k) b s)).toNat + (k.val / 32) * 100001) % 4) * 32 + c.val % 32 < 128 := by omega
  unfold outArr
  refine (outSpec_read (idxArr m d) (offArr m d) (tabArr m d) r c (m (a0Loc d) (ix3 (Spec.fld k) b s)) (Spec.fld k)
    ⟨_, hgl⟩ ⟨_, hll⟩ ?_ ?_ hv rfl rfl).trans ?_
  · exact idxArr_apply m d (pOf r c) (Spec.fld k) b s
      (by show r.val * 4 + c.val / 32 = (b.val * 20 + s.val) * 26 + k.val / 32; omega)
  · rw [offArr_apply]
    have e : (qOf r c).val % 26 = (Spec.fld k).val := by
      show (r.val * 4 + c.val / 32) % 416 % 26 = k.val / 32
      omega
    rw [e]
  · refine tabArr_apply m d _ _ (Spec.fld k) (Spec.rowOf (m (a0Loc d) (ix3 (Spec.fld k) b s))) (Spec.col k) ?_
    show ((m (a0Loc d) (ix3 (Spec.fld k) b s)).toNat + (k.val / 32) * 100001) / 4 * 128
        + ((((m (a0Loc d) (ix3 (Spec.fld k) b s)).toNat + (k.val / 32) * 100001) % 4) * 32 + c.val % 32)
      = ((k.val / 32) * 100001 + min (m (a0Loc d) (ix3 (Spec.fld k) b s)).toNat 100000) * 32 + k.val % 32
    rw [Nat.min_eq_left (by omega)]
    omega

/-- Entry `(b, s, k)` of the program's result is the looked-up table entry. -/
theorem resArr_apply (hr : ∀ d i, (m (a0Loc d) i).toNat ≤ 99999) (d : Dev nD) (b : Fin 4096) (s : Fin 20) (k : Fin 832) :
    resArr m d (ix3 b s k) = Spec.G (m (a0Loc d)) (m (a1Loc d)) (ix3 b s k) := by
  have hb := b.isLt
  have hs := s.isLt
  have hk := k.isLt
  have h0 : ((b.val * 20 + s.val) * 832 + k.val) / 128 < 532480 := by omega
  have h1 : ((b.val * 20 + s.val) * 832 + k.val) % 128 < 128 := Nat.mod_lt _ (by decide)
  rw [Spec.G_apply]
  unfold resArr
  refine (shapeCast_apply (outArr m d) shapeCasts_S532480x128_S4096x20x832 (ix3 b s k)
    (ix2 (⟨((b.val * 20 + s.val) * 832 + k.val) / 128, h0⟩ : Fin 532480) (⟨((b.val * 20 + s.val) * 832 + k.val) % 128, h1⟩ : Fin 128)) ?_).trans ?_
  · rw [Shape.rowMajor_val_two, Shape.rowMajor_val_three]
    show ((b.val * 20 + s.val) * 832 + k.val) / 128 * 128 + ((b.val * 20 + s.val) * 832 + k.val) % 128 = (b.val * 20 + s.val) * 832 + k.val
    omega
  exact outArr_apply m hr d b s k _ _ (by
    show ((b.val * 20 + s.val) * 832 + k.val) / 128 * 128 + ((b.val * 20 + s.val) * 832 + k.val) % 128 = (b.val * 20 + s.val) * 832 + k.val
    omega)

/-- THE BRIDGE: under the range of the features, the program's result is the lookup of the two inputs. -/
theorem resArr_eq_G (hr : ∀ d i, (m (a0Loc d) i).toNat ≤ 99999) (d : Dev nD) :
    resArr m d = Spec.G (m (a0Loc d)) (m (a1Loc d)) := by
  funext i
  obtain ⟨b, s, k, rfl⟩ : ∃ (b : Fin 4096) (s : Fin 20) (k : Fin 832), i = ix3 b s k := ⟨_, _, _, eq_ix3 i⟩
  exact resArr_apply m hr d b s k

end Cert.Proof.KB

end
-- ==== Proof.KBBodyLibValue.lean ====
/-
  One chunk of a tile, as values: what the three steps of a chunk leave in the tile's buffer is the chunk's rows of the
  call's result.

  Tile w works through its 66560 index entries in 160 chunks of 416. Entry j of chunk g is entry
  p = w * 66560 + 416 * g + j of the index list; 66560 and 416 * g are multiples of 416, so p % 416 = j and the offset the
  result's specification adds to entry p is entry j of the offsets: the flat table-row number is t = I0 j + Of j. The
  offset step leaves the group t >> 2 and the quarter t & 3; under the precondition t < 2600028, so the group is t / 4,
  below 650007, the clamp in the specification's group does nothing, and the gather reads group t / 4 whole into row j.
  The repack moves the quarter's 32 words of row j to words (j % 4) * 32 .. of row j / 4. Result row
  w * 16640 + 104 * g + r, word c reads index entry 4 * (w * 16640 + 104 * g + r) + c / 32
  = w * 66560 + 416 * g + (4 r + c / 32): entry j = 4 r + c / 32 of the chunk, with j / 4 = r and
  (j % 4) * 32 + c % 32 = c. So rows 0 .. 103 of the repacked buffer are the chunk's 104 rows of the result.
-/
import proofs.«204936_g5145370820905_cont_8to1_c_618_18_alg».proof.Proof.KBValueBridge
import proofs.«204936_g5145370820905_cont_8to1_c_618_18_alg».proof.Proof.KISteps
import Idealize.ShloMosaic.Lib.SparseCore.Stream

noncomputable section

namespace Cert.Proof.KB

open Cert.Kernel Cert.Kernel.Gen
open Idealize.ShloMosaic Idealize.ShloMosaic.ValueIdx

/-! ## Where a chunk lies -/

/-- Entry `j` of chunk `g` of tile `w`, as an entry of the index list. -/
def chunkPos (w : Fin 32) (g : Fin 160) (j : Fin 416) : Fin 2129920 :=
  ⟨w.val * 66560 + 416 * g.val + j.val, by have := w.isLt; have := g.isLt; have := j.isLt; omega⟩

/-- Row `r` of chunk `g` of tile `w`, as a row of the call's result. -/
def chunkRow (w : Fin 32) (g : Fin 160) (r : Fin 104) : Fin 532480 :=
  ⟨w.val * 16640 + 104 * g.val + r.val, by have := w.isLt; have := g.isLt; have := r.isLt; omega⟩

/-- The chunk's entry that word `c` of the chunk's row `r` reads: four entries a row, 32 words an entry. -/
def chunkEnt (r : Fin 104) (c : Fin 128) : Fin 416 :=
  ⟨4 * r.val + c.val / 32, by have := r.isLt; have := c.isLt; omega⟩

theorem chunkPos_val (w : Fin 32) (g : Fin 160) (j : Fin 416) : (chunkPos w g j).val = w.val * 66560 + 416 * g.val + j.val := rfl
theorem chunkRow_val (w : Fin 32) (g : Fin 160) (r : Fin 104) : (chunkRow w g r).val = w.val * 16640 + 104 * g.val + r.val := rfl
theorem chunkEnt_val (r : Fin 104) (c : Fin 128) : (chunkEnt r c).val = 4 * r.val + c.val / 32 := rfl

/-- A chunk starts at a multiple of 416: the entry's place in the offsets is its place in the chunk. -/
theorem chunkPos_mod (w : Fin 32) (g : Fin 160) (j : Fin 416) : (chunkPos w g j).val % 416 = j.val := by
  have := j.isLt
  rw [chunkPos_val]
  omega

/-- The index entry word `c` of result row `chunkRow w g r` reads is entry `chunkEnt r c` of the chunk. -/
theorem pOf_chunkRow (w : Fin 32) (g : Fin 160) (r : Fin 104) (c : Fin 128) :
    pOf (chunkRow w g r) c = chunkPos w g (chunkEnt r c) := by
  refine Fin.ext ?_
  show (w.val * 16640 + 104 * g.val + r.val) * 4 + c.val / 32 = w.val * 66560 + 416 * g.val + (4 * r.val + c.val / 32)
  omega

/-- The offsets' entry that word reads is entry `chunkEnt r c`. -/
theorem qOf_chunkRow (w : Fin 32) (g : Fin 160) (r : Fin 104) (c : Fin 128) :
    qOf (chunkRow w g r) c = chunkEnt r c := by
  refine Fin.ext ?_
  show (pOf (chunkRow w g r) c).val % 416 = (chunkEnt r c).val
  rw [pOf_chunkRow, chunkPos_mod]

/-- Entry `4 r + c / 32` lies in row `r` of the repacked buffer; -/
theorem chunkEnt_div (r : Fin 104) (c : Fin 128) : (chunkEnt r c).val / 4 = r.val := by
  have := c.isLt
  rw [chunkEnt_val]
  omega

/-- and word `c % 32` of its quarter is word `c` of that row. -/
theorem chunkEnt_mod (r : Fin 104) (c : Fin 128) : ((chunkEnt r c).val % 4) * 32 + c.val % 32 = c.val := by
  have := c.isLt
  rw [chunkEnt_val]
  omega

/-! ## The chunk in the loop's coordinates -/

/-- The chunk pass `r` (0 or 1) of trip `k` of the tile's loop works on: two chunks a trip. -/
def chunkOf (k : Fin 80) (r : Fin 2) : Fin 160 := ⟨2 * k.val + r.val, by have := k.isLt; have := r.isLt; omega⟩

theorem chunkOf_val (k : Fin 80) (r : Fin 2) : (chunkOf k r).val = 2 * k.val + r.val := rfl

/-- The chunk's entries in the index list, for the tile of subcore `s` of core `c`: they start at
    133120 s + 66560 c + 832 k + 416 r. -/
theorem chunkPos_wid (c : Fin 2) (s : Fin 16) (k : Fin 80) (r : Fin 2) (j : Fin 416) :
    (chunkPos (wid c s) (chunkOf k r) j).val = 133120 * s.val + 66560 * c.val + 832 * k.val + 416 * r.val + j.val := by
  show (2 * s.val + c.val) * 66560 + 416 * (2 * k.val + r.val) + j.val = _
  omega

/-- The chunk's rows of the result, for the same tile: they start at 33280 s + 16640 c + 208 k + 104 r. -/
theorem chunkRow_wid (c : Fin 2) (s : Fin 16) (k : Fin 80) (r : Fin 2) (q : Fin 104) :
    (chunkRow (wid c s) (chunkOf k r) q).val = 33280 * s.val + 16640 * c.val + 208 * k.val + 104 * r.val + q.val := by
  show (2 * s.val + c.val) * 16640 + 104 * (2 * k.val + r.val) + q.val = _
  omega

/-! ## Words -/

theorem toNat_shr2 (t : BitVec 32) : (t >>> 2).toNat = t.toNat / 4 := by
  rw [BitVec.toNat_ushiftRight, Nat.shiftRight_eq_div_pow]

theorem toNat_and3 (t : BitVec 32) : (t &&& 3#32).toNat = t.toNat % 4 := by
  rw [BitVec.toNat_and]
  exact Nat.and_two_pow_sub_one_eq_mod t.toNat 2

/-! ## The gathered groups read at an index -/

variable {F : FTy → Type} [FloatOps F]

/-- The row an offset list of 416 words names for its entry `j`: the word itself. -/
theorem rows_ix1 {z : ℕ} (I : S416.Idx → BitVec 32) (hn : S416.numel = 416) (h : ∀ x, (I x).toNat < z) (j : Fin 416) :
    SparseCore.rows (F := F) I hn h j = ⟨(I (ix1 j)).toNat, h (ix1 j)⟩ := by
  have e : S416.rowMajor.symm (j.cast hn.symm) = ix1 j := by
    rw [Equiv.symm_apply_eq]
    refine Fin.ext ?_
    rw [Shape.rowMajor_val_one]
    rfl
  unfold SparseCore.rows
  refine Fin.ext ?_
  show (I (S416.rowMajor.symm (j.cast hn.symm))).toNat = (I (ix1 j)).toNat
  rw [e]

/-- A gather of whole groups of the grouped table at a list of 416 group numbers, read at row `j`, word `c`: word `c`
    of the group entry `j` of the list names. -/
theorem gatherPayload_ix2 (T : S650007x128.Idx → Elt F .f32) (I : S416.Idx → BitVec 32)
    (hn : S416.numel = S416x128.size (Shape.Gathers.axis' gathers_S650007x128_S416x128))
    (hin : ∀ x, (I x).toNat < S650007x128.size (Shape.Gathers.axis gathers_S650007x128_S416x128))
    (j : Fin 416) (c : Fin 128) :
    SparseCore.gatherPayload (F := F) gathers_S650007x128_S416x128 T (SparseCore.rows (F := F) I hn hin) (ix2 j c)
      = T (ix2 (⟨(I (ix1 j)).toNat, hin (ix1 j)⟩ : Fin 650007) c) := by
  unfold SparseCore.gatherPayload
  congr 1
  funext b
  match b with
  | ⟨0, _⟩ =>
    refine Fin.ext ?_
    show ((gathers_S650007x128_S416x128).idx (SparseCore.rows (F := F) I hn hin) (ix2 j c) (Shape.Gathers.axis gathers_S650007x128_S416x128)).val = _
    rw [Shape.Gathers.idx_axis]
    exact congrArg Fin.val (rows_ix1 (F := F) I hn hin j)
  | ⟨1, _⟩ =>
    refine Fin.ext ?_
    rw [Shape.Gathers.idx_of_ne _ _ _ _ Nat.one_ne_zero]
    rfl

/-! ## The chunk -/

variable (m : (ℓ : Loc nD τ sig) → Buf (Elt F) ℓ)

/-- The flat table-row number of entry `j` of the chunk is the one the result's specification forms at the entry's
    place in the index list, so the precondition bounds it. -/
theorem chunk_row_lt (hpre : PreOK m) (d : Dev nD) (w : Fin 32) (g : Fin 160) (I0 Of : S416.Idx → BitVec 32)
    (hI0 : ∀ j : Fin 416, I0 (ix1 j) = idxArr m d (ix1 (chunkPos w g j))) (hOf : Of = offArr m d) (j : Fin 416) :
    (I0 (ix1 j) + Of (ix1 j)).toNat < 2600028 := by
  subst hOf
  have e : (⟨(chunkPos w g j).val % 416, Nat.mod_lt _ (by decide)⟩ : Fin 416) = j := Fin.ext (chunkPos_mod w g j)
  have h := hpre d (chunkPos w g j)
  rw [e] at h
  rw [hI0 j]
  exact h

/-- After the offset step every entry of the index buffer is a group of the grouped table: the gather's list is in
    range. -/
theorem chunk_hin (hpre : PreOK m) (d : Dev nD) (w : Fin 32) (g : Fin 160) (I0 Of I1 S1 : S416.Idx → BitVec 32)
    (hI0 : ∀ j : Fin 416, I0 (ix1 j) = idxArr m d (ix1 (chunkPos w g j))) (hOf : Of = offArr m d)
    (hoff : Steps.OffsetDone I0 Of I1 S1) (j : Fin 416) : (I1 (ix1 j)).toNat < 650007 := by
  have h := chunk_row_lt m hpre d w g I0 Of hI0 hOf j
  rw [(hoff j).1, toNat_shr2]
  omega

/-- The same at every index of the list, in the words the gather's rule asks it in. -/
theorem chunk_hin_idx (hpre : PreOK m) (d : Dev nD) (w : Fin 32) (g : Fin 160) (I0 Of I1 S1 : S416.Idx → BitVec 32)
    (hI0 : ∀ j : Fin 416, I0 (ix1 j) = idxArr m d (ix1 (chunkPos w g j))) (hOf : Of = offArr m d)
    (hoff : Steps.OffsetDone I0 Of I1 S1) (x : S416.Idx) :
    (I1 x).toNat < S650007x128.size (Shape.Gathers.axis gathers_S650007x128_S416x128) := by
  have h := chunk_hin m hpre d w g I0 Of I1 S1 hI0 hOf hoff (x 0)
  show (I1 x).toNat < 650007
  exact lt_of_eq_of_lt (congrArg (fun y => (I1 y).toNat) (eq_ix1 x)) h

/-- After the offset step every entry of the second buffer is a quarter, 0 to 3. -/
theorem chunk_hSb (I0 Of I1 S1 : S416.Idx → BitVec 32) (hoff : Steps.OffsetDone I0 Of I1 S1) (j : Fin 416) :
    (S1 (ix1 j)).toNat < 4 := by
  rw [(hoff j).2, toNat_and3]
  exact Nat.mod_lt _ (by decide)

/-- THE CHUNK'S VALUE: with the index buffer holding the chunk's entries, the offset step done, the groups its result
    names gathered into the rows of a buffer and that buffer repacked, rows 0 .. 103 of the repacked buffer are the
    chunk's rows of the call's result. -/
theorem chunk_value (hpre : PreOK m) (d : Dev nD) (w : Fin 32) (g : Fin 160) (I0 Of I1 S1 : S416.Idx → BitVec 32)
    (G0 G1 : S416x128.Idx → Elt F .f32)
    (hI0 : ∀ j : Fin 416, I0 (ix1 j) = idxArr m d (ix1 (chunkPos w g j))) (hOf : Of = offArr m d)
    (hoff : Steps.OffsetDone I0 Of I1 S1)
    (hG0 : ∀ (j : Fin 416) (c : Fin 128) (h : (I1 (ix1 j)).toNat < 650007),
      G0 (ix2 j c) = tabArr m d (ix2 (⟨(I1 (ix1 j)).toNat, h⟩ : Fin 650007) c))
    (hrep : Steps.RepackDone G0 G1 S1) (r : Fin 104) (c : Fin 128) :
    G1 (ix2 (⟨r.val, Nat.lt_trans r.isLt (by decide)⟩ : Fin 416) c) = outArr m d (ix2 (chunkRow w g r) c) := by
  have ht := chunk_row_lt m hpre d w g I0 Of hI0 hOf (chunkEnt r c)
  have hin := chunk_hin m hpre d w g I0 Of I1 S1 hI0 hOf hoff (chunkEnt r c)
  have hI1 := (hoff (chunkEnt r c)).1
  have hS1 := (hoff (chunkEnt r c)).2
  -- the repack at the entry the word reads
  have h1 : G1 (ix2 (⟨r.val, Nat.lt_trans r.isLt (by decide)⟩ : Fin 416) c)
      = G0 (ix2 (chunkEnt r c) (⟨((S1 (ix1 (chunkEnt r c))).toNat % 4) * 32 + (eOf c).val, by have := (eOf c).isLt; omega⟩ : Fin 128)) := by
    have h := hrep (chunkEnt r c) (eOf c)
    have e1 : (⟨(chunkEnt r c).val / 4, by have := (chunkEnt r c).isLt; omega⟩ : Fin 416) = ⟨r.val, Nat.lt_trans r.isLt (by decide)⟩ :=
      Fin.ext (chunkEnt_div r c)
    have e2 : (⟨((chunkEnt r c).val % 4) * 32 + (eOf c).val, by have := (eOf c).isLt; omega⟩ : Fin 128) = c :=
      Fin.ext (chunkEnt_mod r c)
    rw [e1, e2] at h
    exact h
  -- the gathered group is the specification's group, the repacked quarter its quarter
  have eg : (⟨(I1 (ix1 (chunkEnt r c))).toNat, hin⟩ : Fin 650007) = grp (I0 (ix1 (chunkEnt r c)) + Of (ix1 (chunkEnt r c))) :=
    Fin.ext (by show (I1 (ix1 (chunkEnt r c))).toNat = _; rw [grp_val _ ht, hI1, toNat_shr2])
  have el : (⟨((S1 (ix1 (chunkEnt r c))).toNat % 4) * 32 + (eOf c).val, by have := (eOf c).isLt; omega⟩ : Fin 128)
      = lane (I0 (ix1 (chunkEnt r c)) + Of (ix1 (chunkEnt r c))) (eOf c) :=
    Fin.ext (by show ((S1 (ix1 (chunkEnt r c))).toNat % 4) * 32 + (eOf c).val = _; rw [lane_val, hS1, toNat_and3, Nat.mod_mod])
  rw [h1, hG0 _ _ hin, eg, el]
  subst hOf
  unfold outArr
  rw [outSpec_ix2, pOf_chunkRow, qOf_chunkRow, ← hI0 (chunkEnt r c)]

/-- THE CHUNK'S VALUE, the gathered buffer in the words of the gather's rule: the buffer the repack starts from is the
    payload of the gather of the grouped table at the index buffer's words. -/
theorem chunk_value_gather (hpre : PreOK m) (d : Dev nD) (w : Fin 32) (g : Fin 160) (I0 Of I1 S1 : S416.Idx → BitVec 32)
    (G1 : S416x128.Idx → Elt F .f32)
    (hI0 : ∀ j : Fin 416, I0 (ix1 j) = idxArr m d (ix1 (chunkPos w g j))) (hOf : Of = offArr m d)
    (hoff : Steps.OffsetDone I0 Of I1 S1)
    (hn : S416.numel = S416x128.size (Shape.Gathers.axis' gathers_S650007x128_S416x128))
    (hin : ∀ x, (I1 x).toNat < S650007x128.size (Shape.Gathers.axis gathers_S650007x128_S416x128))
    (hrep : Steps.RepackDone
      (SparseCore.gatherPayload (F := F) gathers_S650007x128_S416x128 (tabArr m d) (SparseCore.rows (F := F) I1 hn hin)) G1 S1)
    (r : Fin 104) (c : Fin 128) :
    G1 (ix2 (⟨r.val, Nat.lt_trans r.isLt (by decide)⟩ : Fin 416) c) = outArr m d (ix2 (chunkRow w g r) c) :=
  chunk_value m hpre d w g I0 Of I1 S1 _ G1 hI0 hOf hoff (fun j c _ => gatherPayload_ix2 (tabArr m d) I1 hn hin j c) hrep r c

end Cert.Proof.KB

end
-- ==== Proof.KBBodyInvLib.lean ====
/-
  Small facts about the invariant's vocabulary: the result blocks as one family with a threshold, a chunk's entries read
  at a position, slices respelt through their closed offsets.
-/
import proofs.«204936_g5145370820905_cont_8to1_c_618_18_alg».proof.Proof.KBBodyInv
import proofs.«204936_g5145370820905_cont_8to1_c_618_18_alg».proof.Proof.KBBodyLibGeomOut
import proofs.«204936_g5145370820905_cont_8to1_c_618_18_alg».proof.Proof.KBBodyLibGeomIdx
import proofs.«204936_g5145370820905_cont_8to1_c_618_18_alg».proof.Proof.KBBodyLibValue

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
-- the kernel's memrefs, spelt as the body table passes them
local notation "idxW" => (Memref.whole Cert.Kernel.main_v2_scv : Memref Cert.Kernel.sig Kind.scVector Space.hbm Cert.Kernel.S2129920 EltTy.i32)
local notation "offW" => (Memref.whole Cert.Kernel.main_v8_scv : Memref Cert.Kernel.sig Kind.scVector Space.hbm Cert.Kernel.S416 EltTy.i32)
local notation "tabW" => (Memref.whole Cert.Kernel.main_v12_scv : Memref Cert.Kernel.sig Kind.scVector Space.hbm Cert.Kernel.S650007x128 EltTy.f32)
local notation "outW" => (Memref.whole Cert.Kernel.main_v13_scv : Memref Cert.Kernel.sig Kind.scVector Space.hbm Cert.Kernel.S532480x128 EltTy.f32)
local notation "s0W" => (Memref.whole Cert.Kernel.cc0_scratch0 : Memref Cert.Kernel.sig Kind.scVector Space.vmem Cert.Kernel.S416 EltTy.i32)
local notation "s1W" => (Memref.whole Cert.Kernel.cc0_scratch1 : Memref Cert.Kernel.sig Kind.scVector Space.vmem Cert.Kernel.S416 EltTy.i32)
local notation "s2W" => (Memref.whole Cert.Kernel.cc0_scratch2 : Memref Cert.Kernel.sig Kind.scVector Space.vmem Cert.Kernel.S416 EltTy.i32)
local notation "s3W" => (Memref.whole Cert.Kernel.cc0_scratch3 : Memref Cert.Kernel.sig Kind.scVector Space.vmem Cert.Kernel.S416 EltTy.i32)
local notation "s4W" => (Memref.whole Cert.Kernel.cc0_scratch4 : Memref Cert.Kernel.sig Kind.scVector Space.vmem Cert.Kernel.S416 EltTy.i32)
local notation "s5W" => (Memref.whole Cert.Kernel.cc0_scratch5 : Memref Cert.Kernel.sig Kind.scVector Space.vmem Cert.Kernel.S416x128 EltTy.f32)
local notation "s6W" => (Memref.whole Cert.Kernel.cc0_scratch6 : Memref Cert.Kernel.sig Kind.scVector Space.vmem Cert.Kernel.S416x128 EltTy.f32)

variable (m : (ℓ : Loc nD τ sig) → Buf (Elt F) ℓ)
variable (d : Dev nD) (L : grid0.Coords)
variable [FloatOps F]

/-! ## The result blocks -/

/-- All 160 blocks: those below n written, the others untouched. -/
def AllBlocks (n : ℕ) : sProp 𝕄 :=
  bigSep Finset.univ fun g : Fin 160 =>
    outLoc d ↦[outSet (chunkIx (widL L) g)]{fullShare} (if g.val < n then outArr m d else out0Arr m d)

theorem allBlocks_split (b : Fin 160) (n : ℕ) :
    (AllBlocks m d L n : sProp 𝕄)
      = iprop((outLoc d ↦[outSet (chunkIx (widL L) b)]{fullShare} (if b.val < n then outArr m d else out0Arr m d)) ∗ OutBlocks m d L b n) := by
  unfold AllBlocks OutBlocks
  exact SparseCore.bigSep_erase' (Finset.mem_univ b)

theorem outBlocks_succ (b : Fin 160) (n : ℕ) (h : b.val = n) : (OutBlocks m d L b n : sProp 𝕄) = OutBlocks m d L b (n + 1) := by
  unfold OutBlocks
  refine bigSep_congr fun g hg => ?_
  have hne : g.val ≠ b.val := fun e => (Finset.mem_erase.mp hg).1 (Fin.ext e)
  have : (g.val < n) ↔ (g.val < n + 1) := by omega
  simp only [this]

theorem allBlocks_zero : (AllBlocks m d L 0 : sProp 𝕄) = bigSep Finset.univ fun g : Fin 160 => outLoc d ↦[outSet (chunkIx (widL L) g)]{fullShare} out0Arr m d := by
  unfold AllBlocks
  exact bigSep_congr fun g _ => by simp
theorem allBlocks_all : (AllBlocks m d L 160 : sProp 𝕄) = bigSep Finset.univ fun g : Fin 160 => outLoc d ↦[outSet (chunkIx (widL L) g)]{fullShare} outArr m d := by
  unfold AllBlocks
  exact bigSep_congr fun g _ => by simp [g.isLt]

/-! ## A chunk's entries -/

theorem chunkEnts_eq (g : Fin 160) (j : Fin 416) : chunkEnts m d L g (ix1 j) = idxArr m d (ix1 (chunkPos (widL L) g j)) := by
  unfold chunkEnts
  exact read_slice_idx (Vpre m d idx') (idxOff_inb L g) rfl j

/-- A slice of the index list at an offset with chunk g's closed form is chunk g's slice. -/
theorem idxSl_of {off : Fin 1 → ℕ} (h : ∀ a, off a + S416.size a ≤ S2129920.size a) (g : Fin 160) (he : off = idxOff L g) :
    (idxW).slice (Rect.unit (s := S2129920) off S416.size h) (fun _ => rfl) = idxSl L g := by
  subst he; rfl

end Cert.Proof.KB

end
-- ==== Proof.KBRepackPure.lean ====
/-
  The repack step as a function of the buffer: what 16 lanes stored at distinct words leave, and the buffer's contents
  before each of the 26 x 32 steps.

  Trip t (first row n = 16 t) of the repack reads, at step e, word (quarter of j) * 32 + e of each row j in n .. n + 15
  and writes it at flat word j * 32 + e, that is word (j % 4) * 32 + e of row j / 4. A word (r, c) of rows 0 .. 103 is the
  destination of exactly one pair: row j = 4 r + c / 32, entry c % 32. Before step e of trip t the words already moved
  are those whose source row is below n, or below n + 16 with an entry below e; every other word is as gathered. The
  words a step reads are still as gathered: the destinations written so far have source rows below n + 16, and a word of
  row j >= n is the destination of source row 4 j + (c / 32) >= 4 n, which is not below n unless n = 0, where only
  entries below e have moved.
-/
import proofs.«204936_g5145370820905_cont_8to1_c_618_18_alg».proof.Kernel
import proofs.«204936_g5145370820905_cont_8to1_c_618_18_alg».proof.Proof.KISteps
import Idealize.ShloMosaic.Lib.ValueIdx

noncomputable section

namespace Cert.Proof.KB

open Cert.Kernel
open Idealize.ShloMosaic Idealize.ShloMosaic.ValueIdx

/-! ## An indexed store, read at an index -/

section StoreIdx
variable {F : FTy → Type} [FloatOps F] {s : Shape} {e : EltTy} {d : Fin 1 → Nat}

/-- One lane of an unmasked indexed store: the word its indices name is overwritten. -/
def putLane (idxs : Fin s.rank → IVec ⟨1, d⟩ 32) (v : Vec F ⟨1, d⟩ e) (h : ∀ a x, (idxs a x).toNat < s.size a)
    (g : Vec F s e) (k : Fin (d 0)) : Vec F s e :=
  fun j => if (∀ a, (j a).val = (idxAt idxs h (Shape.ofLane k) a).val) then v (Shape.ofLane k) else g j

theorem storeIdx_eq_foldl (f : Vec F s e) (idxs : Fin s.rank → IVec ⟨1, d⟩ 32) (v : Vec F ⟨1, d⟩ e)
    (h : ∀ a x, (idxs a x).toNat < s.size a) :
    storeIdx f idxs v (fun _ => 1#1) false h = (List.finRange (d 0)).foldl (putLane idxs v h) f := by
  unfold storeIdx
  congr 1
  funext g k
  dsimp only
  rw [if_pos (show (1#1 : BitVec 1) = 1 from rfl)]
  funext j
  unfold putLane
  first | rfl | (simp only [Bool.false_eq_true, if_false])

/-- Lanes none of which names `j` leave word `j` as it was. -/
theorem foldl_putLane_miss (idxs : Fin s.rank → IVec ⟨1, d⟩ 32) (v : Vec F ⟨1, d⟩ e) (h : ∀ a x, (idxs a x).toNat < s.size a) (j : s.Idx) :
    ∀ (l : List (Fin (d 0))) (g : Vec F s e), (∀ k ∈ l, ¬ ∀ a, (j a).val = (idxAt idxs h (Shape.ofLane k) a).val) →
      (l.foldl (putLane idxs v h) g) j = g j
  | [], _, _ => rfl
  | k :: l, g, hl => by
    rw [List.foldl_cons, foldl_putLane_miss idxs v h j l _ (fun k' hk' => hl k' (List.mem_cons_of_mem _ hk'))]
    exact if_neg (hl k (List.mem_cons_self))

/-- The one lane that names `j` leaves its element there. -/
theorem foldl_putLane_hit (idxs : Fin s.rank → IVec ⟨1, d⟩ 32) (v : Vec F ⟨1, d⟩ e) (h : ∀ a x, (idxs a x).toNat < s.size a) (j : s.Idx)
    (k : Fin (d 0)) (hk : ∀ a, (j a).val = (idxAt idxs h (Shape.ofLane k) a).val)
    (huniq : ∀ k' : Fin (d 0), (∀ a, (j a).val = (idxAt idxs h (Shape.ofLane k') a).val) → k' = k) :
    ∀ (l : List (Fin (d 0))) (g : Vec F s e), l.Nodup → k ∈ l → (l.foldl (putLane idxs v h) g) j = v (Shape.ofLane k)
  | [], _, _, hm => absurd hm List.not_mem_nil
  | a :: l, g, hnd, hm => by
    rw [List.foldl_cons]
    rcases List.mem_cons.1 hm with rfl | hm'
    · rw [foldl_putLane_miss idxs v h j l _ (fun k' hk' hhit => (List.nodup_cons.1 hnd).1 (huniq k' hhit ▸ hk'))]
      exact if_pos hk
    · exact foldl_putLane_hit idxs v h j k hk huniq l _ (List.nodup_cons.1 hnd).2 hm'

theorem storeIdx_miss (f : Vec F s e) (idxs : Fin s.rank → IVec ⟨1, d⟩ 32) (v : Vec F ⟨1, d⟩ e)
    (h : ∀ a x, (idxs a x).toNat < s.size a) (j : s.Idx)
    (hj : ∀ k : Fin (d 0), ¬ ∀ a, (j a).val = (idxAt idxs h (Shape.ofLane k) a).val) :
    storeIdx f idxs v (fun _ => 1#1) false h j = f j := by
  rw [storeIdx_eq_foldl]
  exact foldl_putLane_miss idxs v h j _ f (fun k _ => hj k)

theorem storeIdx_hit (f : Vec F s e) (idxs : Fin s.rank → IVec ⟨1, d⟩ 32) (v : Vec F ⟨1, d⟩ e)
    (h : ∀ a x, (idxs a x).toNat < s.size a) (j : s.Idx) (k : Fin (d 0))
    (hk : ∀ a, (j a).val = (idxAt idxs h (Shape.ofLane k) a).val)
    (huniq : ∀ k' : Fin (d 0), (∀ a, (j a).val = (idxAt idxs h (Shape.ofLane k') a).val) → k' = k) :
    storeIdx f idxs v (fun _ => 1#1) false h j = v (Shape.ofLane k) := by
  rw [storeIdx_eq_foldl]
  exact foldl_putLane_hit idxs v h j k hk huniq _ f (List.nodup_finRange _) (List.mem_finRange k)

end StoreIdx

/-! ## The buffer before each step -/

/-- The row and the word that the word at `i` comes from, once moved. -/
def srcRow (i : S416x128.Idx) : Fin 416 := ⟨((i 0).val * 4 + (i 1).val / 32) % 416, Nat.mod_lt _ (by decide)⟩
def srcCol (Sb : S416.Idx → BitVec 32) (i : S416x128.Idx) : Fin 128 :=
  ⟨((Sb (ix1 (srcRow i))).toNat % 4) * 32 + (i 1).val % 32, by omega⟩

/-- The word at `i` has been overwritten before step `e0` of the trip whose first row is `n`. -/
def moved (n e0 : Nat) (i : S416x128.Idx) : Prop :=
  (i 0).val < 104 ∧ ((i 0).val * 4 + (i 1).val / 32 < n ∨ ((i 0).val * 4 + (i 1).val / 32 < n + 16 ∧ (i 1).val % 32 < e0))

instance (n e0 : Nat) (i : S416x128.Idx) : Decidable (moved n e0 i) := by unfold moved; infer_instance

/-- The buffer before step `e0` of the trip whose first row is `n`, from its contents `G0` as gathered. -/
def repackAt {α : Type} (G0 : S416x128.Idx → α) (Sb : S416.Idx → BitVec 32) (n e0 : Nat) : S416x128.Idx → α :=
  fun i => if moved n e0 i then G0 (ix2 (srcRow i) (srcCol Sb i)) else G0 i

theorem repackAt_zero {α : Type} (G0 : S416x128.Idx → α) (Sb : S416.Idx → BitVec 32) : repackAt G0 Sb 0 0 = G0 := by
  funext i
  exact if_neg (by unfold moved; omega)

theorem repackAt_next {α : Type} (G0 : S416x128.Idx → α) (Sb : S416.Idx → BitVec 32) (n : Nat) :
    repackAt G0 Sb n 32 = repackAt G0 Sb (n + 16) 0 := by
  funext i
  have hc : (i 1).val % 32 < 32 := Nat.mod_lt _ (by decide)
  have : moved n 32 i ↔ moved (n + 16) 0 i := by unfold moved; omega
  unfold repackAt
  by_cases h : moved n 32 i
  · rw [if_pos h, if_pos (this.1 h)]
  · rw [if_neg h, if_neg (fun h' => h (this.2 h'))]

theorem repackAt_done {α : Type} (G0 : S416x128.Idx → α) (Sb : S416.Idx → BitVec 32) :
    Steps.RepackDone G0 (repackAt G0 Sb 416 0) Sb := by
  intro j e
  have hj := j.isLt
  have he := e.isLt
  have h0 : j.val / 4 < 416 := by omega
  have h1 : (j.val % 4) * 32 + e.val < 128 := by omega
  show repackAt G0 Sb 416 0 (ix2 (⟨j.val / 4, h0⟩ : Fin 416) (⟨(j.val % 4) * 32 + e.val, h1⟩ : Fin 128)) = _
  have hm : moved 416 0 (ix2 (⟨j.val / 4, h0⟩ : Fin 416) (⟨(j.val % 4) * 32 + e.val, h1⟩ : Fin 128)) := by
    show j.val / 4 < 104 ∧ (j.val / 4 * 4 + ((j.val % 4) * 32 + e.val) / 32 < 416 ∨ _)
    omega
  have hr : srcRow (ix2 (⟨j.val / 4, h0⟩ : Fin 416) (⟨(j.val % 4) * 32 + e.val, h1⟩ : Fin 128)) = j :=
    Fin.ext (by show (j.val / 4 * 4 + ((j.val % 4) * 32 + e.val) / 32) % 416 = j.val; omega)
  have hcol : srcCol Sb (ix2 (⟨j.val / 4, h0⟩ : Fin 416) (⟨(j.val % 4) * 32 + e.val, h1⟩ : Fin 128))
      = (⟨((Sb (ix1 j)).toNat % 4) * 32 + e.val, by omega⟩ : Fin 128) := by
    apply Fin.ext
    show ((Sb (ix1 (srcRow _))).toNat % 4) * 32 + ((j.val % 4) * 32 + e.val) % 32 = ((Sb (ix1 j)).toNat % 4) * 32 + e.val
    rw [hr]
    omega
  unfold repackAt
  rw [if_pos hm, hr, hcol]

end Cert.Proof.KB

end
-- ==== Proof.KBRepackStep.lean ====
/-
  One step of the repack as an equation between buffers: 16 lanes loaded at rows n .. n + 15, each at entry e of its
  quarter, and stored at flat words j * 32 + e, take the buffer before step e to the buffer before step e + 1.
-/
import proofs.«204936_g5145370820905_cont_8to1_c_618_18_alg».proof.Proof.KBRepackPure

noncomputable section

namespace Cert.Proof.KB

open Cert.Kernel
open Idealize.ShloMosaic Idealize.ShloMosaic.ValueIdx

variable {F : FTy → Type} [FloatOps F]

/-- Row `16 t + lane` as a row of the buffer. -/
def rowAt (t : Nat) (x : S16.Idx) : Fin 416 := ⟨(16 * t + (x 0).val) % 416, Nat.mod_lt _ (by decide)⟩

/-- The step: lanes `x` read word `quarter * 32 + e` of row `16 t + x` and write word `((16 t + x) % 4) * 32 + e` of row
    `(16 t + x) / 4`. -/
theorem storeIdx_repack (G0 : S416x128.Idx → Elt F .f32) (Sb : S416.Idx → BitVec 32) (t e : Nat) (ht : t < 26) (he : e < 32)
    (hSb : ∀ j : Fin 416, (Sb (ix1 j)).toNat < 4)
    (rows cols srow scol : IVec S16 32)
    (hrows : ∀ x : S16.Idx, (rows x).toNat = 16 * t + (x 0).val)
    (hcols : ∀ x : S16.Idx, (cols x).toNat = (Sb (ix1 (rowAt t x))).toNat * 32 + e)
    (hsrow : ∀ x : S16.Idx, (srow x).toNat = (16 * t + (x 0).val) / 4)
    (hscol : ∀ x : S16.Idx, (scol x).toNat = ((16 * t + (x 0).val) % 4) * 32 + e)
    (hL : ∀ a x, ((![rows, cols] : Fin 2 → IVec S16 32) a x).toNat < S416x128.size a)
    (hS : ∀ a x, ((![srow, scol] : Fin 2 → IVec S16 32) a x).toNat < S416x128.size a) :
    storeIdx (F := F) (s := S416x128) (e := .f32) (d := ![16]) (repackAt G0 Sb (16 * t) e) ![srow, scol]
        (loadIdx (F := F) (s := S416x128) (e := .f32) (repackAt G0 Sb (16 * t) e) ![rows, cols] hL) (fun _ => 1#1) false hS
      = repackAt G0 Sb (16 * t) (e + 1) := by
  funext j
  have hr := idx2_lt0 j
  have hc := idx2_lt1 j
  by_cases hh : 16 * t ≤ (j 0).val * 4 + (j 1).val / 32 ∧ (j 0).val * 4 + (j 1).val / 32 < 16 * t + 16 ∧ (j 1).val % 32 = e
  · obtain ⟨h1, h2, h3⟩ := hh
    have hk : (j 0).val * 4 + (j 1).val / 32 - 16 * t < 16 := by omega
    let k : Fin ((![16] : Fin 1 → Nat) 0) := ⟨(j 0).val * 4 + (j 1).val / 32 - 16 * t, hk⟩
    have hk0 : ((Shape.ofLane k : S16.Idx) 0).val = (j 0).val * 4 + (j 1).val / 32 - 16 * t := rfl
    rw [storeIdx_hit _ _ _ hS j k ?hit ?uniq]
    case hit =>
      intro a
      match a with
      | ⟨0, _⟩ =>
        show (j 0).val = (srow (Shape.ofLane k)).toNat
        rw [hsrow, hk0]; omega
      | ⟨1, _⟩ =>
        show (j 1).val = (scol (Shape.ofLane k)).toNat
        rw [hscol, hk0]; omega
    case uniq =>
      intro k' hk'
      have e0 : (j 0).val = (srow (Shape.ofLane k')).toNat := hk' 0
      have e1 : (j 1).val = (scol (Shape.ofLane k')).toNat := hk' 1
      rw [hsrow] at e0; rw [hscol] at e1
      have hv : ((Shape.ofLane k' : S16.Idx) 0).val = k'.val := rfl
      have hk'lt : k'.val < 16 := k'.isLt
      apply Fin.ext
      show k'.val = (j 0).val * 4 + (j 1).val / 32 - 16 * t
      omega
    -- the element the lane loaded is still as gathered
    show repackAt G0 Sb (16 * t) e (idxAt (s := S416x128) (t := S16) ![rows, cols] hL (Shape.ofLane k)) = _
    have hJ : 16 * t + ((Shape.ofLane k : S16.Idx) 0).val = (j 0).val * 4 + (j 1).val / 32 := by rw [hk0]; omega
    have i0 : ((idxAt (s := S416x128) (t := S16) ![rows, cols] hL (Shape.ofLane k)) 0).val = (j 0).val * 4 + (j 1).val / 32 := by
      show (rows (Shape.ofLane k)).toNat = _
      rw [hrows, hJ]
    have hrow : rowAt t (Shape.ofLane k) = srcRow j :=
      Fin.ext (by show (16 * t + ((Shape.ofLane k : S16.Idx) 0).val) % 416 = ((j 0).val * 4 + (j 1).val / 32) % 416; rw [hJ])
    have i1 : ((idxAt (s := S416x128) (t := S16) ![rows, cols] hL (Shape.ofLane k)) 1).val = (Sb (ix1 (srcRow j))).toNat * 32 + e := by
      show (cols (Shape.ofLane k)).toNat = _
      rw [hcols, hrow]
    have hs4 := hSb (srcRow j)
    have hnm : ¬ moved (16 * t) e (idxAt (s := S416x128) (t := S16) ![rows, cols] hL (Shape.ofLane k)) := by
      unfold moved; omega
    have hm : moved (16 * t) (e + 1) j := by unfold moved; omega
    unfold repackAt
    rw [if_neg hnm, if_pos hm]
    congr 1
    funext a
    match a with
    | ⟨0, _⟩ =>
      apply Fin.ext
      show ((idxAt (s := S416x128) (t := S16) ![rows, cols] hL (Shape.ofLane k)) 0).val = ((j 0).val * 4 + (j 1).val / 32) % 416
      omega
    | ⟨1, _⟩ =>
      apply Fin.ext
      show ((idxAt (s := S416x128) (t := S16) ![rows, cols] hL (Shape.ofLane k)) 1).val = ((Sb (ix1 (srcRow j))).toNat % 4) * 32 + (j 1).val % 32
      omega
  · rw [storeIdx_miss _ _ _ hS j ?miss]
    case miss =>
      intro k' hk'
      have e0 : (j 0).val = (srow (Shape.ofLane k')).toNat := hk' 0
      have e1 : (j 1).val = (scol (Shape.ofLane k')).toNat := hk' 1
      rw [hsrow] at e0; rw [hscol] at e1
      have hk'lt : ((Shape.ofLane k' : S16.Idx) 0).val < 16 := k'.isLt
      exact hh (by omega)
    have hiff : moved (16 * t) e j ↔ moved (16 * t) (e + 1) j := by unfold moved; omega
    unfold repackAt
    by_cases h : moved (16 * t) e j
    · rw [if_pos h, if_pos (hiff.1 h)]
    · rw [if_neg h, if_neg (fun h' => h (hiff.2 h'))]

end Cert.Proof.KB

end
-- ==== Proof.KBRepackVec.lean ====
/-
  The index vectors of the repack step, and the words they hold lane by lane.

  With q = 16 t the trip's first row and lanes x = 0 .. 15: the rows read are q + x; the words read are quarter * 32 + e;
  the flat word written is (q + x) * 32 + e, cut into its row (shifted right by 7) and its word of the row (masked by 127).
  None of these wraps around in 32 bits: q + x is below 416 and the flat word below 416 * 32.
-/
import proofs.«204936_g5145370820905_cont_8to1_c_618_18_alg».proof.Proof.KBRepackStep
import Idealize.ShloMosaic.Lib.Pipeline.Value

noncomputable section

namespace Cert.Proof.KB

open Cert.Kernel
open Idealize.ShloMosaic Idealize.ShloMosaic.ValueIdx

/-- The rows a trip reads: its first row plus the lane number. -/
def rowsOf (q : BitVec 32) (io : IVec S16 32) : IVec S16 32 := addi (broadcast S16 q) io
/-- The first word of each row's quarter. -/
def colBase (sub16 : IVec S16 32) : IVec S16 32 := muli sub16 (broadcast S16 32#32)
/-- Entry `e` of each row's quarter. -/
def colOf (cb : IVec S16 32) (e : BitVec 32) : IVec S16 32 := addi cb (broadcast S16 e)
/-- The first flat word each row is written to. -/
def wflatOf (q : BitVec 32) (io : IVec S16 32) : IVec S16 32 := muli (addi (broadcast S16 q) io) (broadcast S16 32#32)
/-- The row and the word of the row of flat word `wf + e`. -/
def srowOf (wf : IVec S16 32) (e : BitVec 32) : IVec S16 32 := shrui (addi wf (broadcast S16 e)) (broadcast S16 7#32)
def scolOf (wf : IVec S16 32) (e : BitVec 32) : IVec S16 32 := andi (addi wf (broadcast S16 e)) (broadcast S16 127#32)

/-- The trip's first row as a word. -/
def qRow (t : Nat) : BitVec 32 := Scalar.muli (Scf.iv 0#32 1#32 t) 16#32

theorem two_pow_32 : (2 : Nat) ^ 32 = 4294967296 := by norm_num

theorem qRow_toNat (t : Nat) (ht : t < 26) : (qRow t).toNat = 16 * t := by
  show ((0#32 + BitVec.ofNat 32 t * 1#32) * 16#32).toNat = 16 * t
  simp only [BitVec.toNat_mul, BitVec.toNat_add, BitVec.toNat_ofNat, two_pow_32]
  omega

theorem io_toNat (h : S16.Iotas .scVector 32 [0]) (x : S16.Idx) : (iota .scVector S16 32 [0] h x).toNat = (x 0).val := by
  rw [iota_single_apply, BitVec.toNat_ofNat, two_pow_32]
  have := (x 0).isLt
  have h16 : (x 0).val < 16 := this
  omega

theorem rowsOf_toNat (t : Nat) (ht : t < 26) (h : S16.Iotas .scVector 32 [0]) (x : S16.Idx) :
    (rowsOf (qRow t) (iota .scVector S16 32 [0] h) x).toNat = 16 * t + (x 0).val := by
  show (qRow t + iota .scVector S16 32 [0] h x).toNat = _
  have h16 : (x 0).val < 16 := (x 0).isLt
  rw [BitVec.toNat_add, qRow_toNat t ht, io_toNat, two_pow_32]
  omega

theorem colOf_toNat (sub16 : IVec S16 32) (e : Nat) (he : e < 32) (x : S16.Idx) (hs : (sub16 x).toNat < 4) :
    (colOf (colBase sub16) (BitVec.ofNat 32 e) x).toNat = (sub16 x).toNat * 32 + e := by
  show (sub16 x * 32#32 + BitVec.ofNat 32 e).toNat = _
  simp only [BitVec.toNat_mul, BitVec.toNat_add, BitVec.toNat_ofNat, two_pow_32]
  omega

theorem wf_toNat (t : Nat) (ht : t < 26) (h : S16.Iotas .scVector 32 [0]) (e : Nat) (he : e < 32) (x : S16.Idx) :
    (wflatOf (qRow t) (iota .scVector S16 32 [0] h) x + BitVec.ofNat 32 e).toNat = (16 * t + (x 0).val) * 32 + e := by
  show ((qRow t + iota .scVector S16 32 [0] h x) * 32#32 + BitVec.ofNat 32 e).toNat = _
  have h16 : (x 0).val < 16 := (x 0).isLt
  have hio := io_toNat h x
  have hq := qRow_toNat t ht
  simp only [BitVec.toNat_mul, BitVec.toNat_add, BitVec.toNat_ofNat, two_pow_32]
  omega

theorem srowOf_toNat (t : Nat) (ht : t < 26) (h : S16.Iotas .scVector 32 [0]) (e : Nat) (he : e < 32) (x : S16.Idx) :
    (srowOf (wflatOf (qRow t) (iota .scVector S16 32 [0] h)) (BitVec.ofNat 32 e) x).toNat = (16 * t + (x 0).val) / 4 := by
  show (IntOp.shrui .vector (wflatOf (qRow t) (iota .scVector S16 32 [0] h) x + BitVec.ofNat 32 e) 7#32).toNat = _
  have h16 : (x 0).val < 16 := (x 0).isLt
  unfold IntOp.shrui
  rw [if_pos (by decide)]
  show ((wflatOf (qRow t) (iota .scVector S16 32 [0] h) x + BitVec.ofNat 32 e) >>> 7).toNat = _
  have h7 : (2 : Nat) ^ 7 = 128 := by norm_num
  rw [BitVec.toNat_ushiftRight, wf_toNat t ht h e he x, Nat.shiftRight_eq_div_pow, h7]
  omega

theorem scolOf_toNat (t : Nat) (ht : t < 26) (h : S16.Iotas .scVector 32 [0]) (e : Nat) (he : e < 32) (x : S16.Idx) :
    (scolOf (wflatOf (qRow t) (iota .scVector S16 32 [0] h)) (BitVec.ofNat 32 e) x).toNat = ((16 * t + (x 0).val) % 4) * 32 + e := by
  show ((wflatOf (qRow t) (iota .scVector S16 32 [0] h) x + BitVec.ofNat 32 e) &&& 127#32).toNat = _
  have h16 : (x 0).val < 16 := (x 0).isLt
  rw [BitVec.toNat_and, wf_toNat t ht h e he x]
  show ((16 * t + (x 0).val) * 32 + e) &&& 127 = _
  have h7 : (2 : Nat) ^ 7 = 128 := by norm_num
  rw [show (127 : Nat) = 2 ^ 7 - 1 from rfl, Nat.and_two_pow_sub_one_eq_mod, h7]
  omega

/-- The indices of a step's load and of its store are inside the buffer. -/
theorem inb_of_toNat (a0 a1 : IVec S16 32) (h0 : ∀ x, (a0 x).toNat < 416) (h1 : ∀ x, (a1 x).toNat < 128) :
    ∀ a x, ((![a0, a1] : Fin 2 → IVec S16 32) a x).toNat < S416x128.size a := fun a x =>
  match a with
  | ⟨0, _⟩ => h0 x
  | ⟨1, _⟩ => h1 x

end Cert.Proof.KB

end
-- ==== Proof.KBRepackWp6.lean ====
/-
  The repack step on the second gather buffer, as rules of the program logic: the indexed load and the indexed store of the
  whole buffer held at known contents, and one step (its two index checks, its load and its store) from the buffer before
  step e to the buffer before step e + 1.
-/
import proofs.«204936_g5145370820905_cont_8to1_c_618_18_alg».proof.Proof.KBTile
import proofs.«204936_g5145370820905_cont_8to1_c_618_18_alg».proof.Proof.KISteps
import proofs.«204936_g5145370820905_cont_8to1_c_618_18_alg».proof.Proof.KBRepackVec

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)
variable [FloatOps F]

local notation "g6M" => (Memref.whole Cert.Kernel.cc0_scratch6 : Memref Cert.Kernel.sig Kind.scVector Space.vmem Cert.Kernel.S416x128 EltTy.f32)
local notation "s2M" => (Memref.whole Cert.Kernel.cc0_scratch2 : Memref Cert.Kernel.sig Kind.scVector Space.vmem Cert.Kernel.S416 EltTy.i32)
local notation "ioV" => (iota Kind.scVector Cert.Kernel.S16 32 [0] Cert.Kernel.Gen.iota_S16_d0_w32_scVector)

/-- The indexed load: the buffer is unchanged and the program continues at the gathered lanes. -/
theorem wp_load6 {α : Type} {idxs : Fin S416x128.rank → IVec S16 32} {h : ∀ a x, (idxs a x).toNat < S416x128.size a} {hl : (g6M).view.Loads}
    {k : Vec F S16 .f32 → Prog (TpuEff nD τ sig (Elt F) Λ₀ (thrL d L).2) α} {Q : α → sProp 𝕄} (f : S416x128.Idx → Elt F .f32) :
    (((g6M).view.loc (thrL d L) ↦{fullShare} f) : sProp 𝕄)
      ⊢ iprop((((g6M).view.loc (thrL d L) ↦{fullShare} f) -∗ wp frame (wpE (defs₀ (F := F)) 𝒱₀ (thrL d L) none) Set.univ (k (loadIdx f idxs h)) Q)
          -∗ wp frame (wpE (defs₀ (F := F)) 𝒱₀ (thrL d L) none) Set.univ (SparseCore.vectorLoadIdx (g6M) idxs h hl >>= k) Q) := by
  have := SparseCore.wp_vectorLoadIdx (defs := defs₀ (F := F)) (Ix := HIx 1) (Name := ℕ) (U := UU) (Lvl := ℕ) 𝒱₀ (thrL d L) none Set.univ (base := (g6M)) (idxs := idxs) (h := h) (hl := hl) (k := k) (Q := Q)
    (S := Finset.univ) (q := fullShare) (f := f) (Finset.subset_univ _)
  rw [Memref.read_access_whole] at this
  exact this

/-- The indexed store of sixteen lanes: the buffer afterwards is the scatter of the lanes into it. -/
theorem wp_store6 {α : Type} {idxs : Fin S416x128.rank → IVec S16 32} {v : Vec F S16 .f32} {h : ∀ a x, (idxs a x).toNat < S416x128.size a}
    {hs : ((g6M).access (.whole S416x128)).Stores Finset.univ}
    {k : PUnit → Prog (TpuEff nD τ sig (Elt F) Λ₀ (thrL d L).2) α} {Q : α → sProp 𝕄} (f : S416x128.Idx → Elt F .f32) :
    (((g6M).view.loc (thrL d L) ↦{fullShare} f) : sProp 𝕄)
      ⊢ iprop((((g6M).view.loc (thrL d L) ↦{fullShare} storeIdx (F := F) (s := S416x128) (e := .f32) (d := ![16]) f idxs v (fun _ => 1#1) false h)
            -∗ wp frame (wpE (defs₀ (F := F)) 𝒱₀ (thrL d L) none) Set.univ (k ⟨⟩) Q)
          -∗ wp frame (wpE (defs₀ (F := F)) 𝒱₀ (thrL d L) none) Set.univ (SparseCore.vectorStoreIdx (g6M) idxs v (fun _ => 1#1) false h hs >>= k) Q) := by
  have := SparseCore.wp_vectorStoreIdx (defs := defs₀ (F := F)) (Ix := HIx 1) (Name := ℕ) (U := UU) (Lvl := ℕ) 𝒱₀ (thrL d L) none Set.univ (base := (g6M)) (idxs := idxs) (v := v)
    (mask := fun _ => 1#1) (add := false) (h := h) (hs := hs) (k := k) (Q := Q) (f := f)
  rw [Memref.set_access_whole, Memref.read_access_whole, Memref.write_access_whole_univ] at this
  exact this

/-- The sixteen quarters a trip reads off the quarter buffer. -/
def sub16 (t : Fin k0_t6_loop.trips) (Sb : S416.Idx → BitVec 32) : IVec S16 32 :=
  (s2M).view.readAt (Elt F) (Rect.unit (s := S416) (k0_off13 t) S16.size (k0_off13_inb t)).toLoadRect Sb

omit [FloatOps F] in
theorem sub16_apply (t : Fin k0_t6_loop.trips) (Sb : S416.Idx → BitVec 32) (x : S16.Idx) :
    sub16 (F := F) t Sb x = Sb (ix1 (rowAt t.val x)) := by
  have ht : t.val < 26 := lt_of_lt_of_le t.isLt k0_t6_abs.2.1
  have h16 : (x 0).val < 16 := (x 0).isLt
  unfold sub16
  simp only [View.readAt_apply, Memref.view_whole, View.read_whole]
  refine congrArg Sb (funext fun a => ?_)
  have ha : a = (0 : Fin 1) := Subsingleton.elim (α := Fin 1) a 0
  subst ha
  apply Fin.ext
  rw [LoadRect.idx_apply]
  show k0_off13 t 0 + 1 * (x 0).val = (16 * t.val + (x 0).val) % 416
  rw [k0_off13_eq]
  show 16 * t.val + 1 * (x 0).val = _
  omega

/-- ONE STEP of the repack: the check of the load's indices, the load, the check of the store's indices, the store. -/
theorem wp_pair6 {α : Type} (G0 : S416x128.Idx → Elt F .f32) (Sb : S416.Idx → BitVec 32) (hSb : ∀ j : Fin 416, (Sb (ix1 j)).toNat < 4)
    (t : Fin k0_t6_loop.trips) (e : Nat) (he : e < 32)
    {d1 : Decidable (∀ a x, ((![rowsOf (qRow t.val) ioV, colOf (colBase (sub16 (F := F) t Sb)) (BitVec.ofNat 32 e)] : Fin 2 → IVec S16 32) a x).toNat < S416x128.size a)}
    {d2 : Decidable (∀ a x, ((![srowOf (wflatOf (qRow t.val) ioV) (BitVec.ofNat 32 e), scolOf (wflatOf (qRow t.val) ioV) (BitVec.ofNat 32 e)] : Fin 2 → IVec S16 32) a x).toNat < S416x128.size a)}
    {hl : (g6M).view.Loads} {hs : ((g6M).access (.whole S416x128)).Stores Finset.univ}
    {k : PUnit → Prog (TpuEff nD τ sig (Elt F) Λ₀ (thrL d L).2) α} {Q : α → sProp 𝕄} :
    (((g6M).view.loc (thrL d L) ↦{fullShare} repackAt G0 Sb (16 * t.val) e) : sProp 𝕄)
      ⊢ iprop((((g6M).view.loc (thrL d L) ↦{fullShare} repackAt G0 Sb (16 * t.val) (e + 1))
            -∗ wp frame (wpE (defs₀ (F := F)) 𝒱₀ (thrL d L) none) Set.univ (k ⟨⟩) Q)
          -∗ wp frame (wpE (defs₀ (F := F)) 𝒱₀ (thrL d L) none) Set.univ
              (.op (.assume _ d1) fun w1 =>
                SparseCore.vectorLoadIdx (g6M) ![rowsOf (qRow t.val) ioV, colOf (colBase (sub16 (F := F) t Sb)) (BitVec.ofNat 32 e)] w1.down hl >>= fun v =>
                  .op (.assume _ d2) fun w2 =>
                    SparseCore.vectorStoreIdx (g6M) ![srowOf (wflatOf (qRow t.val) ioV) (BitVec.ofNat 32 e), scolOf (wflatOf (qRow t.val) ioV) (BitVec.ofNat 32 e)]
                      v (fun _ => 1#1) false w2.down hs >>= k) Q) := by
  have ht : t.val < 26 := lt_of_lt_of_le t.isLt k0_t6_abs.2.1
  have hrows := rowsOf_toNat t.val ht iota_S16_d0_w32_scVector
  have hcols : ∀ x : S16.Idx, (colOf (colBase (sub16 (F := F) t Sb)) (BitVec.ofNat 32 e) x).toNat = (Sb (ix1 (rowAt t.val x))).toNat * 32 + e := fun x => by
    rw [colOf_toNat (sub16 (F := F) t Sb) e he x (by rw [sub16_apply]; exact hSb _), sub16_apply]
  have hsrow := srowOf_toNat t.val ht iota_S16_d0_w32_scVector e he
  have hscol := scolOf_toNat t.val ht iota_S16_d0_w32_scVector e he
  have hP1 : ∀ a x, ((![rowsOf (qRow t.val) ioV, colOf (colBase (sub16 (F := F) t Sb)) (BitVec.ofNat 32 e)] : Fin 2 → IVec S16 32) a x).toNat < S416x128.size a :=
    inb_of_toNat _ _ (fun x => by rw [hrows x]; have : (x 0).val < 16 := (x 0).isLt; omega)
      (fun x => by rw [hcols x]; have := hSb (rowAt t.val x); omega)
  have hP2 : ∀ a x, ((![srowOf (wflatOf (qRow t.val) ioV) (BitVec.ofNat 32 e), scolOf (wflatOf (qRow t.val) ioV) (BitVec.ofNat 32 e)] : Fin 2 → IVec S16 32) a x).toNat < S416x128.size a :=
    inb_of_toNat _ _ (fun x => by rw [hsrow x]; have : (x 0).val < 16 := (x 0).isLt; omega)
      (fun x => by rw [hscol x]; omega)
  iintro HG HK
  rw [wp_assume_of _ _ _ _ hP1]
  iapply (wp_load6 d L (repackAt G0 Sb (16 * t.val) e)) $$ HG; iintro HG
  rw [wp_assume_of _ _ _ _ hP2]
  iapply (wp_store6 d L (repackAt G0 Sb (16 * t.val) e)) $$ HG; iintro HG
  rw [storeIdx_repack G0 Sb t.val e ht he hSb _ _ _ _ hrows hcols hsrow hscol]
  iapply HK; iexact HG

end Cert.Proof.KB

end
-- ==== Proof.KBRepackWp3.lean ====
/-
  One step of the repack loop inside a trip of the main loop, on the second gather buffer, as a rule of the program logic: its two index checks (each under the
  condition of the enclosing branch), its load and its store, from the buffer before step e to the buffer before step e + 1.
-/
import proofs.«204936_g5145370820905_cont_8to1_c_618_18_alg».proof.Proof.KBRepackWp6

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)
variable [FloatOps F]

local notation "g6M" => (Memref.whole Cert.Kernel.cc0_scratch6 : Memref Cert.Kernel.sig Kind.scVector Space.vmem Cert.Kernel.S416x128 EltTy.f32)
local notation "s2M" => (Memref.whole Cert.Kernel.cc0_scratch2 : Memref Cert.Kernel.sig Kind.scVector Space.vmem Cert.Kernel.S416 EltTy.i32)
local notation "ioV" => (iota Kind.scVector Cert.Kernel.S16 32 [0] Cert.Kernel.Gen.iota_S16_d0_w32_scVector)

/-- The sixteen quarters a trip reads off the quarter buffer. -/
def sub16_3 (t : Fin k0_t3_loop.trips) (k0_t1 : Fin k0_t1_loop.trips) (hc : k0_cond2 k0_t1 = 1#1) (Sb : S416.Idx → BitVec 32) : IVec S16 32 :=
  (s2M).view.readAt (Elt F) (Rect.unit (s := S416) (k0_off6 t) S16.size (k0_off6_inb k0_t1 t hc)).toLoadRect Sb

omit [FloatOps F] in
theorem sub16_3_apply (t : Fin k0_t3_loop.trips) (k0_t1 : Fin k0_t1_loop.trips) (hc : k0_cond2 k0_t1 = 1#1) (Sb : S416.Idx → BitVec 32) (x : S16.Idx) :
    sub16_3 (F := F) t k0_t1 hc Sb x = Sb (ix1 (rowAt t.val x)) := by
  have ht : t.val < 26 := lt_of_lt_of_le t.isLt k0_t3_abs.2.1
  have h16 : (x 0).val < 16 := (x 0).isLt
  unfold sub16_3
  simp only [View.readAt_apply, Memref.view_whole, View.read_whole]
  refine congrArg Sb (funext fun a => ?_)
  have ha : a = (0 : Fin 1) := Subsingleton.elim (α := Fin 1) a 0
  subst ha
  apply Fin.ext
  rw [LoadRect.idx_apply]
  show k0_off6 t 0 + 1 * (x 0).val = (16 * t.val + (x 0).val) % 416
  rw [k0_off6_eq]
  show 16 * t.val + 1 * (x 0).val = _
  omega

/-- ONE STEP of the repack: the check of the load's indices, the load, the check of the store's indices, the store. -/
theorem wp_pair3 {α : Type} (G0 : S416x128.Idx → Elt F .f32) (Sb : S416.Idx → BitVec 32) (hSb : ∀ j : Fin 416, (Sb (ix1 j)).toNat < 4)
    (k0_t1 : Fin k0_t1_loop.trips) (hc : k0_cond2 k0_t1 = 1#1)
    (t : Fin k0_t3_loop.trips) (e : Nat) (he : e < 32)
    {d1 : Decidable (k0_cond2 k0_t1 = 1#1 → ∀ a x, ((![rowsOf (qRow t.val) ioV, colOf (colBase (sub16_3 (F := F) t k0_t1 hc Sb)) (BitVec.ofNat 32 e)] : Fin 2 → IVec S16 32) a x).toNat < S416x128.size a)}
    {d2 : Decidable (k0_cond2 k0_t1 = 1#1 → ∀ a x, ((![srowOf (wflatOf (qRow t.val) ioV) (BitVec.ofNat 32 e), scolOf (wflatOf (qRow t.val) ioV) (BitVec.ofNat 32 e)] : Fin 2 → IVec S16 32) a x).toNat < S416x128.size a)}
    {hl : (g6M).view.Loads} {hs : ((g6M).access (.whole S416x128)).Stores Finset.univ}
    {k : PUnit → Prog (TpuEff nD τ sig (Elt F) Λ₀ (thrL d L).2) α} {Q : α → sProp 𝕄} :
    (((g6M).view.loc (thrL d L) ↦{fullShare} repackAt G0 Sb (16 * t.val) e) : sProp 𝕄)
      ⊢ iprop((((g6M).view.loc (thrL d L) ↦{fullShare} repackAt G0 Sb (16 * t.val) (e + 1))
            -∗ wp frame (wpE (defs₀ (F := F)) 𝒱₀ (thrL d L) none) Set.univ (k ⟨⟩) Q)
          -∗ wp frame (wpE (defs₀ (F := F)) 𝒱₀ (thrL d L) none) Set.univ
              (.op (.assume _ d1) fun w1 =>
                SparseCore.vectorLoadIdx (g6M) ![rowsOf (qRow t.val) ioV, colOf (colBase (sub16_3 (F := F) t k0_t1 hc Sb)) (BitVec.ofNat 32 e)] (w1.down hc) hl >>= fun v =>
                  .op (.assume _ d2) fun w2 =>
                    SparseCore.vectorStoreIdx (g6M) ![srowOf (wflatOf (qRow t.val) ioV) (BitVec.ofNat 32 e), scolOf (wflatOf (qRow t.val) ioV) (BitVec.ofNat 32 e)]
                      v (fun _ => 1#1) false (w2.down hc) hs >>= k) Q) := by
  have ht : t.val < 26 := lt_of_lt_of_le t.isLt k0_t3_abs.2.1
  have hrows := rowsOf_toNat t.val ht iota_S16_d0_w32_scVector
  have hcols : ∀ x : S16.Idx, (colOf (colBase (sub16_3 (F := F) t k0_t1 hc Sb)) (BitVec.ofNat 32 e) x).toNat = (Sb (ix1 (rowAt t.val x))).toNat * 32 + e := fun x => by
    rw [colOf_toNat (sub16_3 (F := F) t k0_t1 hc Sb) e he x (by rw [sub16_3_apply]; exact hSb _), sub16_3_apply]
  have hsrow := srowOf_toNat t.val ht iota_S16_d0_w32_scVector e he
  have hscol := scolOf_toNat t.val ht iota_S16_d0_w32_scVector e he
  have hP1 : ∀ a x, ((![rowsOf (qRow t.val) ioV, colOf (colBase (sub16_3 (F := F) t k0_t1 hc Sb)) (BitVec.ofNat 32 e)] : Fin 2 → IVec S16 32) a x).toNat < S416x128.size a :=
    inb_of_toNat _ _ (fun x => by rw [hrows x]; have : (x 0).val < 16 := (x 0).isLt; omega)
      (fun x => by rw [hcols x]; have := hSb (rowAt t.val x); omega)
  have hP2 : ∀ a x, ((![srowOf (wflatOf (qRow t.val) ioV) (BitVec.ofNat 32 e), scolOf (wflatOf (qRow t.val) ioV) (BitVec.ofNat 32 e)] : Fin 2 → IVec S16 32) a x).toNat < S416x128.size a :=
    inb_of_toNat _ _ (fun x => by rw [hsrow x]; have : (x 0).val < 16 := (x 0).isLt; omega)
      (fun x => by rw [hscol x]; omega)
  iintro HG HK
  rw [wp_assume_of _ _ _ _ (fun _ => hP1)]
  iapply (wp_load6 d L (repackAt G0 Sb (16 * t.val) e)) $$ HG; iintro HG
  rw [wp_assume_of _ _ _ _ (fun _ => hP2)]
  iapply (wp_store6 d L (repackAt G0 Sb (16 * t.val) e)) $$ HG; iintro HG
  rw [storeIdx_repack G0 Sb t.val e ht he hSb _ _ _ _ hrows hcols hsrow hscol]
  iapply HK; iexact HG

end Cert.Proof.KB

end
-- ==== Proof.KBRepack3.lean ====
/-
  The repack loop inside a trip of the main loop, on the second gather buffer with the second quarter buffer: one trip takes the buffer before its first step to the buffer before the next trip's first
  step — the quarters of its sixteen rows loaded, then its 32 steps in order, each the two index checks, the indexed load and
  the indexed store —; the 26 trips take the buffer as gathered to the repacked buffer.
-/
import proofs.«204936_g5145370820905_cont_8to1_c_618_18_alg».proof.Proof.KBRepackWp3

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)
variable [FloatOps F]

local notation "g6M" => (Memref.whole Cert.Kernel.cc0_scratch6 : Memref Cert.Kernel.sig Kind.scVector Space.vmem Cert.Kernel.S416x128 EltTy.f32)
local notation "s2M" => (Memref.whole Cert.Kernel.cc0_scratch2 : Memref Cert.Kernel.sig Kind.scVector Space.vmem Cert.Kernel.S416 EltTy.i32)
local notation "ioV" => (iota Kind.scVector Cert.Kernel.S16 32 [0] Cert.Kernel.Gen.iota_S16_d0_w32_scVector)

set_option hygiene false in
local macro "rp_pair" e:num : tactic => `(tactic| (
  rw [wp_assume_of _ _ _ _ ?_]; swap; exact (fun _ => hP1G $e (by norm_num))
  iapply (wp_load6 d L (repackAt G0 Sb (16 * t.val) $e)) $$ HG; iintro HG
  rw [wp_assume_of _ _ _ _ ?_]; swap; exact (fun _ => hP2G $e (by norm_num))
  iapply (wp_store6 d L (repackAt G0 Sb (16 * t.val) $e)) $$ HG; iintro HG
  rw [storeIdx_repack G0 Sb t.val $e ht (by norm_num) hSb _ _ _ _ ?_ ?_ ?_ ?_]
  on_goal 2 => exact hrowsG
  on_goal 2 => exact (hcolsG $e (by norm_num))
  on_goal 2 => exact (hsrowG $e (by norm_num))
  on_goal 2 => exact (hscolG $e (by norm_num))))

set_option maxHeartbeats 8000000 in
/-- One trip. -/
theorem trip3 (v2 v3 : BitVec 32) (k : Fin k0_t1_loop.trips) (h2 : k0_cond2 k = 1#1) (G0 : S416x128.Idx → Elt F .f32) (Sb : S416.Idx → BitVec 32) (hSb : ∀ j : Fin 416, (Sb (ix1 j)).toNat < 4) (t : Fin k0_t3_loop.trips) :
    (iprop(((g6M).view.loc (thrL d L) ↦{fullShare} repackAt G0 Sb (16 * t.val) 0) ∗ ((s2M).view.loc (thrL d L) ↦{fullShare} Sb)) : sProp 𝕄)
      ⊢ wp frame (wpE (defs₀ (F := F)) 𝒱₀ (thrL d L) none) Set.univ
          (k0_t3_body L (Memref.whole main_v2_scv) (Memref.isWhole_whole _) (Memref.whole main_v8_scv) (Memref.isWhole_whole _) (Memref.whole main_v12_scv) (Memref.isWhole_whole _) (Memref.whole main_v13_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scoped0 v2 v3 0#32 1#32 k h2 ioV t ⟨⟩)
          fun _ => iprop(((g6M).view.loc (thrL d L) ↦{fullShare} repackAt G0 Sb (16 * (t.val + 1)) 0) ∗ ((s2M).view.loc (thrL d L) ↦{fullShare} Sb)) := by
  have ht : t.val < 26 := lt_of_lt_of_le t.isLt k0_t3_abs.2.1
  iintro ⟨HG, HS⟩
  unfold k0_t3_body
  rw [k0_part1_eq_skeleton]; unfold k0_part1_skel
  simp only [Prog.lift, Prog.bind_op, Prog.bind_ret, Prog.pure_eq_ret, bind_assoc]
  iapply (wp_load 𝒱₀ (thrL d L) none Set.univ (m := (s2M)) (S := Finset.univ) (Finset.subset_univ _)) $$ HS; iintro HS
  -- the sixteen quarters the trip read, as one vector `sv` with `sv x = Sb (row 16 t + x)`
  generalize hsv : View.readAt (Elt F) (s2M).view (Rect.unit (s := S416) (k0_off6 t) S16.size (k0_off6_inb k t h2)).toLoadRect Sb = sv
  have hsub : ∀ x : S16.Idx, sv x = Sb (ix1 (rowAt t.val x)) := fun x => by rw [← hsv]; exact sub16_3_apply (F := F) t k h2 Sb x
  have hrowsG := rowsOf_toNat t.val ht iota_S16_d0_w32_scVector
  have hcolsG : ∀ (e : Nat) (he : e < 32) (x : S16.Idx), (colOf (colBase sv) (BitVec.ofNat 32 e) x).toNat = (Sb (ix1 (rowAt t.val x))).toNat * 32 + e := fun e he x => by
    rw [colOf_toNat sv e he x (by rw [hsub]; exact hSb _), hsub]
  have hsrowG := srowOf_toNat t.val ht iota_S16_d0_w32_scVector
  have hscolG := scolOf_toNat t.val ht iota_S16_d0_w32_scVector
  have hP1G : ∀ (e : Nat) (he : e < 32), ∀ a x, ((![rowsOf (qRow t.val) ioV, colOf (colBase sv) (BitVec.ofNat 32 e)] : Fin 2 → IVec S16 32) a x).toNat < S416x128.size a := fun e he =>
    inb_of_toNat _ _ (fun x => by rw [hrowsG x]; have : (x 0).val < 16 := (x 0).isLt; omega)
      (fun x => by rw [hcolsG e he x]; have := hSb (rowAt t.val x); omega)
  have hP2G : ∀ (e : Nat) (he : e < 32), ∀ a x, ((![srowOf (wflatOf (qRow t.val) ioV) (BitVec.ofNat 32 e), scolOf (wflatOf (qRow t.val) ioV) (BitVec.ofNat 32 e)] : Fin 2 → IVec S16 32) a x).toNat < S416x128.size a := fun e he =>
    inb_of_toNat _ _ (fun x => by rw [hsrowG e he x]; have : (x 0).val < 16 := (x 0).isLt; omega)
      (fun x => by rw [hscolG e he x]; omega)
  rp_pair 0
  rp_pair 1
  rw [k0_part2_eq_skeleton]; unfold k0_part2_skel
  simp only [Prog.lift, Prog.bind_op, Prog.bind_ret, Prog.pure_eq_ret, bind_assoc]
  rp_pair 2
  rp_pair 3
  rp_pair 4
  rp_pair 5
  rw [k0_part3_eq_skeleton]; unfold k0_part3_skel
  simp only [Prog.lift, Prog.bind_op, Prog.bind_ret, Prog.pure_eq_ret, bind_assoc]
  rp_pair 6
  rp_pair 7
  rp_pair 8
  rp_pair 9
  rw [k0_part4_eq_skeleton]; unfold k0_part4_skel
  simp only [Prog.lift, Prog.bind_op, Prog.bind_ret, Prog.pure_eq_ret, bind_assoc]
  rp_pair 10
  rp_pair 11
  rp_pair 12
  rp_pair 13
  rw [k0_part5_eq_skeleton]; unfold k0_part5_skel
  simp only [Prog.lift, Prog.bind_op, Prog.bind_ret, Prog.pure_eq_ret, bind_assoc]
  rp_pair 14
  rp_pair 15
  rp_pair 16
  rp_pair 17
  rw [k0_part6_eq_skeleton]; unfold k0_part6_skel
  simp only [Prog.lift, Prog.bind_op, Prog.bind_ret, Prog.pure_eq_ret, bind_assoc]
  rp_pair 18
  rp_pair 19
  rp_pair 20
  rp_pair 21
  rw [k0_part7_eq_skeleton]; unfold k0_part7_skel
  simp only [Prog.lift, Prog.bind_op, Prog.bind_ret, Prog.pure_eq_ret, bind_assoc]
  rp_pair 22
  rp_pair 23
  rp_pair 24
  rp_pair 25
  rw [k0_part8_eq_skeleton]; unfold k0_part8_skel
  simp only [Prog.lift, Prog.bind_op, Prog.bind_ret, Prog.pure_eq_ret, bind_assoc]
  rp_pair 26
  rp_pair 27
  rp_pair 28
  rp_pair 29
  rp_pair 30
  rp_pair 31
  rw [wp_ret]; imodintro
  rw [repackAt_next, show 16 * t.val + 16 = 16 * (t.val + 1) by omega]
  isplitl [HG]; · iexact HG
  iexact HS

/-- Before trip k the buffer is the one before step 0 of the trip whose first row is 16 k; the quarters are unchanged. -/
def rinv3 (G0 : S416x128.Idx → Elt F .f32) (Sb : S416.Idx → BitVec 32) (k : Nat) (_ : Unit) : sProp 𝕄 :=
  iprop(((g6M).view.loc (thrL d L) ↦{fullShare} repackAt G0 Sb (16 * k) 0) ∗ ((s2M).view.loc (thrL d L) ↦{fullShare} Sb))

theorem trips3 : k0_t3_loop.trips = 26 := by decide

/-- THE REPACK LOOP inside a trip of the main loop, on the second gather buffer with the second quarter buffer. The vector `v62` is the lane numbers 0 .. 15. -/
theorem repack3 (v2 v3 : BitVec 32) (k : Fin k0_t1_loop.trips) (h2 : k0_cond2 k = 1#1) (v62 : IVec S16 32) (G0 : S416x128.Idx → Elt F .f32) (Sb : S416.Idx → BitVec 32) (hSb : ∀ j : Fin 416, (Sb (ix1 j)).toNat < 4)
    (hv : v62 = iota .scVector S16 32 [0] iota_S16_d0_w32_scVector) :
    (iprop(((g6M).view.loc (thrL d L) ↦{fullShare} G0) ∗ ((s2M).view.loc (thrL d L) ↦{fullShare} Sb)) : sProp 𝕄)
      ⊢ wp frame (wpE (defs₀ (F := F)) 𝒱₀ (thrL d L) none) Set.univ
          (Scf.Loop.for k0_t3_loop (k0_t3_ok k h2) ⟨⟩ (k0_t3_body L (Memref.whole main_v2_scv) (Memref.isWhole_whole _) (Memref.whole main_v8_scv) (Memref.isWhole_whole _) (Memref.whole main_v12_scv) (Memref.isWhole_whole _) (Memref.whole main_v13_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scoped0 v2 v3 0#32 1#32 k h2 v62))
          fun _ => iprop(∃ G1, ⌜Steps.RepackDone G0 G1 Sb⌝ ∗ ((g6M).view.loc (thrL d L) ↦{fullShare} G1) ∗ ((s2M).view.loc (thrL d L) ↦{fullShare} Sb)) := by
  subst hv
  iintro ⟨HG, HS⟩
  sl_for (rinv3 (F := F) d L G0 Sb) $$ [HG HS]
  case region =>
    intro t _
    exact trip3 d L v2 v3 k h2 G0 Sb hSb t
  isplitl [HG HS]
  · unfold rinv3
    rw [Nat.mul_zero, repackAt_zero]
    isplitl [HG]; · iexact HG
    iexact HS
  iintro %_ HInv
  unfold rinv3
  icases HInv with ⟨HG, HS⟩
  iexists repackAt G0 Sb (16 * k0_t3_loop.trips) 0
  isplitr
  · ipureintro
    rw [trips3]
    exact repackAt_done G0 Sb
  isplitl [HG]; · iexact HG
  iexact HS

end Cert.Proof.KB

end
-- ==== Proof.KBRepackWp5.lean ====
/-
  One step of the repack loop inside a trip of the main loop, on the first gather buffer, as a rule of the program logic: its two index checks (each under the
  condition of the enclosing branch), its load and its store, from the buffer before step e to the buffer before step e + 1.
-/
import proofs.«204936_g5145370820905_cont_8to1_c_618_18_alg».proof.Proof.KBTile
import proofs.«204936_g5145370820905_cont_8to1_c_618_18_alg».proof.Proof.KISteps
import proofs.«204936_g5145370820905_cont_8to1_c_618_18_alg».proof.Proof.KBRepackVec

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)
variable [FloatOps F]

local notation "g5M" => (Memref.whole Cert.Kernel.cc0_scratch5 : Memref Cert.Kernel.sig Kind.scVector Space.vmem Cert.Kernel.S416x128 EltTy.f32)
local notation "s1M" => (Memref.whole Cert.Kernel.cc0_scratch1 : Memref Cert.Kernel.sig Kind.scVector Space.vmem Cert.Kernel.S416 EltTy.i32)
local notation "ioV" => (iota Kind.scVector Cert.Kernel.S16 32 [0] Cert.Kernel.Gen.iota_S16_d0_w32_scVector)

/-- The indexed load: the buffer is unchanged and the program continues at the gathered lanes. -/
theorem wp_load5 {α : Type} {idxs : Fin S416x128.rank → IVec S16 32} {h : ∀ a x, (idxs a x).toNat < S416x128.size a} {hl : (g5M).view.Loads}
    {k : Vec F S16 .f32 → Prog (TpuEff nD τ sig (Elt F) Λ₀ (thrL d L).2) α} {Q : α → sProp 𝕄} (f : S416x128.Idx → Elt F .f32) :
    (((g5M).view.loc (thrL d L) ↦{fullShare} f) : sProp 𝕄)
      ⊢ iprop((((g5M).view.loc (thrL d L) ↦{fullShare} f) -∗ wp frame (wpE (defs₀ (F := F)) 𝒱₀ (thrL d L) none) Set.univ (k (loadIdx f idxs h)) Q)
          -∗ wp frame (wpE (defs₀ (F := F)) 𝒱₀ (thrL d L) none) Set.univ (SparseCore.vectorLoadIdx (g5M) idxs h hl >>= k) Q) := by
  have := SparseCore.wp_vectorLoadIdx (defs := defs₀ (F := F)) (Ix := HIx 1) (Name := ℕ) (U := UU) (Lvl := ℕ) 𝒱₀ (thrL d L) none Set.univ (base := (g5M)) (idxs := idxs) (h := h) (hl := hl) (k := k) (Q := Q)
    (S := Finset.univ) (q := fullShare) (f := f) (Finset.subset_univ _)
  rw [Memref.read_access_whole] at this
  exact this

/-- The indexed store of sixteen lanes: the buffer afterwards is the scatter of the lanes into it. -/
theorem wp_store5 {α : Type} {idxs : Fin S416x128.rank → IVec S16 32} {v : Vec F S16 .f32} {h : ∀ a x, (idxs a x).toNat < S416x128.size a}
    {hs : ((g5M).access (.whole S416x128)).Stores Finset.univ}
    {k : PUnit → Prog (TpuEff nD τ sig (Elt F) Λ₀ (thrL d L).2) α} {Q : α → sProp 𝕄} (f : S416x128.Idx → Elt F .f32) :
    (((g5M).view.loc (thrL d L) ↦{fullShare} f) : sProp 𝕄)
      ⊢ iprop((((g5M).view.loc (thrL d L) ↦{fullShare} storeIdx (F := F) (s := S416x128) (e := .f32) (d := ![16]) f idxs v (fun _ => 1#1) false h)
            -∗ wp frame (wpE (defs₀ (F := F)) 𝒱₀ (thrL d L) none) Set.univ (k ⟨⟩) Q)
          -∗ wp frame (wpE (defs₀ (F := F)) 𝒱₀ (thrL d L) none) Set.univ (SparseCore.vectorStoreIdx (g5M) idxs v (fun _ => 1#1) false h hs >>= k) Q) := by
  have := SparseCore.wp_vectorStoreIdx (defs := defs₀ (F := F)) (Ix := HIx 1) (Name := ℕ) (U := UU) (Lvl := ℕ) 𝒱₀ (thrL d L) none Set.univ (base := (g5M)) (idxs := idxs) (v := v)
    (mask := fun _ => 1#1) (add := false) (h := h) (hs := hs) (k := k) (Q := Q) (f := f)
  rw [Memref.set_access_whole, Memref.read_access_whole, Memref.write_access_whole_univ] at this
  exact this

/-- The sixteen quarters a trip reads off the quarter buffer. -/
def sub16_5 (t : Fin k0_t5_loop.trips) (k0_t1 : Fin k0_t1_loop.trips) (hc : k0_cond5 k0_t1 = 1#1) (Sb : S416.Idx → BitVec 32) : IVec S16 32 :=
  (s1M).view.readAt (Elt F) (Rect.unit (s := S416) (k0_off11 t) S16.size (k0_off11_inb k0_t1 t hc)).toLoadRect Sb

omit [FloatOps F] in
theorem sub16_5_apply (t : Fin k0_t5_loop.trips) (k0_t1 : Fin k0_t1_loop.trips) (hc : k0_cond5 k0_t1 = 1#1) (Sb : S416.Idx → BitVec 32) (x : S16.Idx) :
    sub16_5 (F := F) t k0_t1 hc Sb x = Sb (ix1 (rowAt t.val x)) := by
  have ht : t.val < 26 := lt_of_lt_of_le t.isLt k0_t5_abs.2.1
  have h16 : (x 0).val < 16 := (x 0).isLt
  unfold sub16_5
  simp only [View.readAt_apply, Memref.view_whole, View.read_whole]
  refine congrArg Sb (funext fun a => ?_)
  have ha : a = (0 : Fin 1) := Subsingleton.elim (α := Fin 1) a 0
  subst ha
  apply Fin.ext
  rw [LoadRect.idx_apply]
  show k0_off11 t 0 + 1 * (x 0).val = (16 * t.val + (x 0).val) % 416
  rw [k0_off11_eq]
  show 16 * t.val + 1 * (x 0).val = _
  omega

/-- ONE STEP of the repack: the check of the load's indices, the load, the check of the store's indices, the store. -/
theorem wp_pair5 {α : Type} (G0 : S416x128.Idx → Elt F .f32) (Sb : S416.Idx → BitVec 32) (hSb : ∀ j : Fin 416, (Sb (ix1 j)).toNat < 4)
    (k0_t1 : Fin k0_t1_loop.trips) (hc : k0_cond5 k0_t1 = 1#1)
    (t : Fin k0_t5_loop.trips) (e : Nat) (he : e < 32)
    {d1 : Decidable (k0_cond5 k0_t1 = 1#1 → ∀ a x, ((![rowsOf (qRow t.val) ioV, colOf (colBase (sub16_5 (F := F) t k0_t1 hc Sb)) (BitVec.ofNat 32 e)] : Fin 2 → IVec S16 32) a x).toNat < S416x128.size a)}
    {d2 : Decidable (k0_cond5 k0_t1 = 1#1 → ∀ a x, ((![srowOf (wflatOf (qRow t.val) ioV) (BitVec.ofNat 32 e), scolOf (wflatOf (qRow t.val) ioV) (BitVec.ofNat 32 e)] : Fin 2 → IVec S16 32) a x).toNat < S416x128.size a)}
    {hl : (g5M).view.Loads} {hs : ((g5M).access (.whole S416x128)).Stores Finset.univ}
    {k : PUnit → Prog (TpuEff nD τ sig (Elt F) Λ₀ (thrL d L).2) α} {Q : α → sProp 𝕄} :
    (((g5M).view.loc (thrL d L) ↦{fullShare} repackAt G0 Sb (16 * t.val) e) : sProp 𝕄)
      ⊢ iprop((((g5M).view.loc (thrL d L) ↦{fullShare} repackAt G0 Sb (16 * t.val) (e + 1))
            -∗ wp frame (wpE (defs₀ (F := F)) 𝒱₀ (thrL d L) none) Set.univ (k ⟨⟩) Q)
          -∗ wp frame (wpE (defs₀ (F := F)) 𝒱₀ (thrL d L) none) Set.univ
              (.op (.assume _ d1) fun w1 =>
                SparseCore.vectorLoadIdx (g5M) ![rowsOf (qRow t.val) ioV, colOf (colBase (sub16_5 (F := F) t k0_t1 hc Sb)) (BitVec.ofNat 32 e)] (w1.down hc) hl >>= fun v =>
                  .op (.assume _ d2) fun w2 =>
                    SparseCore.vectorStoreIdx (g5M) ![srowOf (wflatOf (qRow t.val) ioV) (BitVec.ofNat 32 e), scolOf (wflatOf (qRow t.val) ioV) (BitVec.ofNat 32 e)]
                      v (fun _ => 1#1) false (w2.down hc) hs >>= k) Q) := by
  have ht : t.val < 26 := lt_of_lt_of_le t.isLt k0_t5_abs.2.1
  have hrows := rowsOf_toNat t.val ht iota_S16_d0_w32_scVector
  have hcols : ∀ x : S16.Idx, (colOf (colBase (sub16_5 (F := F) t k0_t1 hc Sb)) (BitVec.ofNat 32 e) x).toNat = (Sb (ix1 (rowAt t.val x))).toNat * 32 + e := fun x => by
    rw [colOf_toNat (sub16_5 (F := F) t k0_t1 hc Sb) e he x (by rw [sub16_5_apply]; exact hSb _), sub16_5_apply]
  have hsrow := srowOf_toNat t.val ht iota_S16_d0_w32_scVector e he
  have hscol := scolOf_toNat t.val ht iota_S16_d0_w32_scVector e he
  have hP1 : ∀ a x, ((![rowsOf (qRow t.val) ioV, colOf (colBase (sub16_5 (F := F) t k0_t1 hc Sb)) (BitVec.ofNat 32 e)] : Fin 2 → IVec S16 32) a x).toNat < S416x128.size a :=
    inb_of_toNat _ _ (fun x => by rw [hrows x]; have : (x 0).val < 16 := (x 0).isLt; omega)
      (fun x => by rw [hcols x]; have := hSb (rowAt t.val x); omega)
  have hP2 : ∀ a x, ((![srowOf (wflatOf (qRow t.val) ioV) (BitVec.ofNat 32 e), scolOf (wflatOf (qRow t.val) ioV) (BitVec.ofNat 32 e)] : Fin 2 → IVec S16 32) a x).toNat < S416x128.size a :=
    inb_of_toNat _ _ (fun x => by rw [hsrow x]; have : (x 0).val < 16 := (x 0).isLt; omega)
      (fun x => by rw [hscol x]; omega)
  iintro HG HK
  rw [wp_assume_of _ _ _ _ (fun _ => hP1)]
  iapply (wp_load5 d L (repackAt G0 Sb (16 * t.val) e)) $$ HG; iintro HG
  rw [wp_assume_of _ _ _ _ (fun _ => hP2)]
  iapply (wp_store5 d L (repackAt G0 Sb (16 * t.val) e)) $$ HG; iintro HG
  rw [storeIdx_repack G0 Sb t.val e ht he hSb _ _ _ _ hrows hcols hsrow hscol]
  iapply HK; iexact HG

end Cert.Proof.KB

end
-- ==== Proof.KBRepack5.lean ====
/-
  The repack loop inside a trip of the main loop, on the first gather buffer with the first quarter buffer: one trip takes the buffer before its first step to the buffer before the next trip's first
  step — the quarters of its sixteen rows loaded, then its 32 steps in order, each the two index checks, the indexed load and
  the indexed store —; the 26 trips take the buffer as gathered to the repacked buffer.
-/
import proofs.«204936_g5145370820905_cont_8to1_c_618_18_alg».proof.Proof.KBRepackWp5

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)
variable [FloatOps F]

local notation "g5M" => (Memref.whole Cert.Kernel.cc0_scratch5 : Memref Cert.Kernel.sig Kind.scVector Space.vmem Cert.Kernel.S416x128 EltTy.f32)
local notation "s1M" => (Memref.whole Cert.Kernel.cc0_scratch1 : Memref Cert.Kernel.sig Kind.scVector Space.vmem Cert.Kernel.S416 EltTy.i32)
local notation "ioV" => (iota Kind.scVector Cert.Kernel.S16 32 [0] Cert.Kernel.Gen.iota_S16_d0_w32_scVector)

set_option hygiene false in
local macro "rp_pair" e:num : tactic => `(tactic| (
  rw [wp_assume_of _ _ _ _ ?_]; swap; exact (fun _ => hP1G $e (by norm_num))
  iapply (wp_load5 d L (repackAt G0 Sb (16 * t.val) $e)) $$ HG; iintro HG
  rw [wp_assume_of _ _ _ _ ?_]; swap; exact (fun _ => hP2G $e (by norm_num))
  iapply (wp_store5 d L (repackAt G0 Sb (16 * t.val) $e)) $$ HG; iintro HG
  rw [storeIdx_repack G0 Sb t.val $e ht (by norm_num) hSb _ _ _ _ ?_ ?_ ?_ ?_]
  on_goal 2 => exact hrowsG
  on_goal 2 => exact (hcolsG $e (by norm_num))
  on_goal 2 => exact (hsrowG $e (by norm_num))
  on_goal 2 => exact (hscolG $e (by norm_num))))

set_option maxHeartbeats 8000000 in
/-- One trip. -/
theorem trip5 (k : Fin k0_t1_loop.trips) (h5 : k0_cond5 k = 1#1) (G0 : S416x128.Idx → Elt F .f32) (Sb : S416.Idx → BitVec 32) (hSb : ∀ j : Fin 416, (Sb (ix1 j)).toNat < 4) (t : Fin k0_t5_loop.trips) :
    (iprop(((g5M).view.loc (thrL d L) ↦{fullShare} repackAt G0 Sb (16 * t.val) 0) ∗ ((s1M).view.loc (thrL d L) ↦{fullShare} Sb)) : sProp 𝕄)
      ⊢ wp frame (wpE (defs₀ (F := F)) 𝒱₀ (thrL d L) none) Set.univ
          (k0_t5_body L (Memref.whole main_v2_scv) (Memref.isWhole_whole _) (Memref.whole main_v8_scv) (Memref.isWhole_whole _) (Memref.whole main_v12_scv) (Memref.isWhole_whole _) (Memref.whole main_v13_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scoped0 k h5 ioV t ⟨⟩)
          fun _ => iprop(((g5M).view.loc (thrL d L) ↦{fullShare} repackAt G0 Sb (16 * (t.val + 1)) 0) ∗ ((s1M).view.loc (thrL d L) ↦{fullShare} Sb)) := by
  have ht : t.val < 26 := lt_of_lt_of_le t.isLt k0_t5_abs.2.1
  iintro ⟨HG, HS⟩
  unfold k0_t5_body
  rw [k0_part9_eq_skeleton]; unfold k0_part9_skel
  simp only [Prog.lift, Prog.bind_op, Prog.bind_ret, Prog.pure_eq_ret, bind_assoc]
  iapply (wp_load 𝒱₀ (thrL d L) none Set.univ (m := (s1M)) (S := Finset.univ) (Finset.subset_univ _)) $$ HS; iintro HS
  -- the sixteen quarters the trip read, as one vector `sv` with `sv x = Sb (row 16 t + x)`
  generalize hsv : View.readAt (Elt F) (s1M).view (Rect.unit (s := S416) (k0_off11 t) S16.size (k0_off11_inb k t h5)).toLoadRect Sb = sv
  have hsub : ∀ x : S16.Idx, sv x = Sb (ix1 (rowAt t.val x)) := fun x => by rw [← hsv]; exact sub16_5_apply (F := F) t k h5 Sb x
  have hrowsG := rowsOf_toNat t.val ht iota_S16_d0_w32_scVector
  have hcolsG : ∀ (e : Nat) (he : e < 32) (x : S16.Idx), (colOf (colBase sv) (BitVec.ofNat 32 e) x).toNat = (Sb (ix1 (rowAt t.val x))).toNat * 32 + e := fun e he x => by
    rw [colOf_toNat sv e he x (by rw [hsub]; exact hSb _), hsub]
  have hsrowG := srowOf_toNat t.val ht iota_S16_d0_w32_scVector
  have hscolG := scolOf_toNat t.val ht iota_S16_d0_w32_scVector
  have hP1G : ∀ (e : Nat) (he : e < 32), ∀ a x, ((![rowsOf (qRow t.val) ioV, colOf (colBase sv) (BitVec.ofNat 32 e)] : Fin 2 → IVec S16 32) a x).toNat < S416x128.size a := fun e he =>
    inb_of_toNat _ _ (fun x => by rw [hrowsG x]; have : (x 0).val < 16 := (x 0).isLt; omega)
      (fun x => by rw [hcolsG e he x]; have := hSb (rowAt t.val x); omega)
  have hP2G : ∀ (e : Nat) (he : e < 32), ∀ a x, ((![srowOf (wflatOf (qRow t.val) ioV) (BitVec.ofNat 32 e), scolOf (wflatOf (qRow t.val) ioV) (BitVec.ofNat 32 e)] : Fin 2 → IVec S16 32) a x).toNat < S416x128.size a := fun e he =>
    inb_of_toNat _ _ (fun x => by rw [hsrowG e he x]; have : (x 0).val < 16 := (x 0).isLt; omega)
      (fun x => by rw [hscolG e he x]; omega)
  rp_pair 0
  rp_pair 1
  rw [k0_part10_eq_skeleton]; unfold k0_part10_skel
  simp only [Prog.lift, Prog.bind_op, Prog.bind_ret, Prog.pure_eq_ret, bind_assoc]
  rp_pair 2
  rp_pair 3
  rp_pair 4
  rp_pair 5
  rw [k0_part11_eq_skeleton]; unfold k0_part11_skel
  simp only [Prog.lift, Prog.bind_op, Prog.bind_ret, Prog.pure_eq_ret, bind_assoc]
  rp_pair 6
  rp_pair 7
  rp_pair 8
  rp_pair 9
  rw [k0_part12_eq_skeleton]; unfold k0_part12_skel
  simp only [Prog.lift, Prog.bind_op, Prog.bind_ret, Prog.pure_eq_ret, bind_assoc]
  rp_pair 10
  rp_pair 11
  rp_pair 12
  rp_pair 13
  rw [k0_part13_eq_skeleton]; unfold k0_part13_skel
  simp only [Prog.lift, Prog.bind_op, Prog.bind_ret, Prog.pure_eq_ret, bind_assoc]
  rp_pair 14
  rp_pair 15
  rp_pair 16
  rp_pair 17
  rw [k0_part14_eq_skeleton]; unfold k0_part14_skel
  simp only [Prog.lift, Prog.bind_op, Prog.bind_ret, Prog.pure_eq_ret, bind_assoc]
  rp_pair 18
  rp_pair 19
  rp_pair 20
  rp_pair 21
  rw [k0_part15_eq_skeleton]; unfold k0_part15_skel
  simp only [Prog.lift, Prog.bind_op, Prog.bind_ret, Prog.pure_eq_ret, bind_assoc]
  rp_pair 22
  rp_pair 23
  rp_pair 24
  rp_pair 25
  rw [k0_part16_eq_skeleton]; unfold k0_part16_skel
  simp only [Prog.lift, Prog.bind_op, Prog.bind_ret, Prog.pure_eq_ret, bind_assoc]
  rp_pair 26
  rp_pair 27
  rp_pair 28
  rp_pair 29
  rp_pair 30
  rp_pair 31
  rw [wp_ret]; imodintro
  rw [repackAt_next, show 16 * t.val + 16 = 16 * (t.val + 1) by omega]
  isplitl [HG]; · iexact HG
  iexact HS

/-- Before trip k the buffer is the one before step 0 of the trip whose first row is 16 k; the quarters are unchanged. -/
def rinv5 (G0 : S416x128.Idx → Elt F .f32) (Sb : S416.Idx → BitVec 32) (k : Nat) (_ : Unit) : sProp 𝕄 :=
  iprop(((g5M).view.loc (thrL d L) ↦{fullShare} repackAt G0 Sb (16 * k) 0) ∗ ((s1M).view.loc (thrL d L) ↦{fullShare} Sb))

theorem trips5 : k0_t5_loop.trips = 26 := by decide

/-- THE REPACK LOOP inside a trip of the main loop, on the first gather buffer with the first quarter buffer. The vector `v62` is the lane numbers 0 .. 15. -/
theorem repack5 (k : Fin k0_t1_loop.trips) (h5 : k0_cond5 k = 1#1) (v62 : IVec S16 32) (G0 : S416x128.Idx → Elt F .f32) (Sb : S416.Idx → BitVec 32) (hSb : ∀ j : Fin 416, (Sb (ix1 j)).toNat < 4)
    (hv : v62 = iota .scVector S16 32 [0] iota_S16_d0_w32_scVector) :
    (iprop(((g5M).view.loc (thrL d L) ↦{fullShare} G0) ∗ ((s1M).view.loc (thrL d L) ↦{fullShare} Sb)) : sProp 𝕄)
      ⊢ wp frame (wpE (defs₀ (F := F)) 𝒱₀ (thrL d L) none) Set.univ
          (Scf.Loop.for k0_t5_loop (k0_t5_ok k h5) ⟨⟩ (k0_t5_body L (Memref.whole main_v2_scv) (Memref.isWhole_whole _) (Memref.whole main_v8_scv) (Memref.isWhole_whole _) (Memref.whole main_v12_scv) (Memref.isWhole_whole _) (Memref.whole main_v13_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scoped0 k h5 v62))
          fun _ => iprop(∃ G1, ⌜Steps.RepackDone G0 G1 Sb⌝ ∗ ((g5M).view.loc (thrL d L) ↦{fullShare} G1) ∗ ((s1M).view.loc (thrL d L) ↦{fullShare} Sb)) := by
  subst hv
  iintro ⟨HG, HS⟩
  sl_for (rinv5 (F := F) d L G0 Sb) $$ [HG HS]
  case region =>
    intro t _
    exact trip5 d L k h5 G0 Sb hSb t
  isplitl [HG HS]
  · unfold rinv5
    rw [Nat.mul_zero, repackAt_zero]
    isplitl [HG]; · iexact HG
    iexact HS
  iintro %_ HInv
  unfold rinv5
  icases HInv with ⟨HG, HS⟩
  iexists repackAt G0 Sb (16 * k0_t5_loop.trips) 0
  isplitr
  · ipureintro
    rw [trips5]
    exact repackAt_done G0 Sb
  isplitl [HG]; · iexact HG
  iexact HS

end Cert.Proof.KB

end
-- ==== Proof.KBRepack6.lean ====
/-
  The repack loop after the main loop, on the second gather buffer with the second quarter buffer: one trip takes the buffer before its first step to the buffer before the next trip's first
  step — the quarters of its sixteen rows loaded, then its 32 steps in order, each the two index checks, the indexed load and
  the indexed store —; the 26 trips take the buffer as gathered to the repacked buffer.
-/
import proofs.«204936_g5145370820905_cont_8to1_c_618_18_alg».proof.Proof.KBRepackWp6

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)
variable [FloatOps F]

local notation "g6M" => (Memref.whole Cert.Kernel.cc0_scratch6 : Memref Cert.Kernel.sig Kind.scVector Space.vmem Cert.Kernel.S416x128 EltTy.f32)
local notation "s2M" => (Memref.whole Cert.Kernel.cc0_scratch2 : Memref Cert.Kernel.sig Kind.scVector Space.vmem Cert.Kernel.S416 EltTy.i32)
local notation "ioV" => (iota Kind.scVector Cert.Kernel.S16 32 [0] Cert.Kernel.Gen.iota_S16_d0_w32_scVector)

set_option hygiene false in
local macro "rp_pair" e:num : tactic => `(tactic| (
  rw [wp_assume_of _ _ _ _ ?_]; swap; exact (hP1G $e (by norm_num))
  iapply (wp_load6 d L (repackAt G0 Sb (16 * t.val) $e)) $$ HG; iintro HG
  rw [wp_assume_of _ _ _ _ ?_]; swap; exact (hP2G $e (by norm_num))
  iapply (wp_store6 d L (repackAt G0 Sb (16 * t.val) $e)) $$ HG; iintro HG
  rw [storeIdx_repack G0 Sb t.val $e ht (by norm_num) hSb _ _ _ _ ?_ ?_ ?_ ?_]
  on_goal 2 => exact hrowsG
  on_goal 2 => exact (hcolsG $e (by norm_num))
  on_goal 2 => exact (hsrowG $e (by norm_num))
  on_goal 2 => exact (hscolG $e (by norm_num))))

set_option maxHeartbeats 8000000 in
/-- One trip. -/
theorem trip6  (G0 : S416x128.Idx → Elt F .f32) (Sb : S416.Idx → BitVec 32) (hSb : ∀ j : Fin 416, (Sb (ix1 j)).toNat < 4) (t : Fin k0_t6_loop.trips) :
    (iprop(((g6M).view.loc (thrL d L) ↦{fullShare} repackAt G0 Sb (16 * t.val) 0) ∗ ((s2M).view.loc (thrL d L) ↦{fullShare} Sb)) : sProp 𝕄)
      ⊢ wp frame (wpE (defs₀ (F := F)) 𝒱₀ (thrL d L) none) Set.univ
          (k0_t6_body L (Memref.whole main_v2_scv) (Memref.isWhole_whole _) (Memref.whole main_v8_scv) (Memref.isWhole_whole _) (Memref.whole main_v12_scv) (Memref.isWhole_whole _) (Memref.whole main_v13_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scoped0 ioV t ⟨⟩)
          fun _ => iprop(((g6M).view.loc (thrL d L) ↦{fullShare} repackAt G0 Sb (16 * (t.val + 1)) 0) ∗ ((s2M).view.loc (thrL d L) ↦{fullShare} Sb)) := by
  have ht : t.val < 26 := lt_of_lt_of_le t.isLt k0_t6_abs.2.1
  iintro ⟨HG, HS⟩
  unfold k0_t6_body
  rw [k0_part18_eq_skeleton]; unfold k0_part18_skel
  simp only [Prog.lift, Prog.bind_op, Prog.bind_ret, Prog.pure_eq_ret, bind_assoc]
  iapply (wp_load 𝒱₀ (thrL d L) none Set.univ (m := (s2M)) (S := Finset.univ) (Finset.subset_univ _)) $$ HS; iintro HS
  -- the sixteen quarters the trip read, as one vector `sv` with `sv x = Sb (row 16 t + x)`
  generalize hsv : View.readAt (Elt F) (s2M).view (Rect.unit (s := S416) (k0_off13 t) S16.size (k0_off13_inb t)).toLoadRect Sb = sv
  have hsub : ∀ x : S16.Idx, sv x = Sb (ix1 (rowAt t.val x)) := fun x => by rw [← hsv]; exact sub16_apply (F := F) t Sb x
  have hrowsG := rowsOf_toNat t.val ht iota_S16_d0_w32_scVector
  have hcolsG : ∀ (e : Nat) (he : e < 32) (x : S16.Idx), (colOf (colBase sv) (BitVec.ofNat 32 e) x).toNat = (Sb (ix1 (rowAt t.val x))).toNat * 32 + e := fun e he x => by
    rw [colOf_toNat sv e he x (by rw [hsub]; exact hSb _), hsub]
  have hsrowG := srowOf_toNat t.val ht iota_S16_d0_w32_scVector
  have hscolG := scolOf_toNat t.val ht iota_S16_d0_w32_scVector
  have hP1G : ∀ (e : Nat) (he : e < 32), ∀ a x, ((![rowsOf (qRow t.val) ioV, colOf (colBase sv) (BitVec.ofNat 32 e)] : Fin 2 → IVec S16 32) a x).toNat < S416x128.size a := fun e he =>
    inb_of_toNat _ _ (fun x => by rw [hrowsG x]; have : (x 0).val < 16 := (x 0).isLt; omega)
      (fun x => by rw [hcolsG e he x]; have := hSb (rowAt t.val x); omega)
  have hP2G : ∀ (e : Nat) (he : e < 32), ∀ a x, ((![srowOf (wflatOf (qRow t.val) ioV) (BitVec.ofNat 32 e), scolOf (wflatOf (qRow t.val) ioV) (BitVec.ofNat 32 e)] : Fin 2 → IVec S16 32) a x).toNat < S416x128.size a := fun e he =>
    inb_of_toNat _ _ (fun x => by rw [hsrowG e he x]; have : (x 0).val < 16 := (x 0).isLt; omega)
      (fun x => by rw [hscolG e he x]; omega)
  rp_pair 0
  rp_pair 1
  rw [k0_part19_eq_skeleton]; unfold k0_part19_skel
  simp only [Prog.lift, Prog.bind_op, Prog.bind_ret, Prog.pure_eq_ret, bind_assoc]
  rp_pair 2
  rp_pair 3
  rp_pair 4
  rp_pair 5
  rw [k0_part20_eq_skeleton]; unfold k0_part20_skel
  simp only [Prog.lift, Prog.bind_op, Prog.bind_ret, Prog.pure_eq_ret, bind_assoc]
  rp_pair 6
  rp_pair 7
  rp_pair 8
  rp_pair 9
  rw [k0_part21_eq_skeleton]; unfold k0_part21_skel
  simp only [Prog.lift, Prog.bind_op, Prog.bind_ret, Prog.pure_eq_ret, bind_assoc]
  rp_pair 10
  rp_pair 11
  rp_pair 12
  rp_pair 13
  rw [k0_part22_eq_skeleton]; unfold k0_part22_skel
  simp only [Prog.lift, Prog.bind_op, Prog.bind_ret, Prog.pure_eq_ret, bind_assoc]
  rp_pair 14
  rp_pair 15
  rp_pair 16
  rp_pair 17
  rw [k0_part23_eq_skeleton]; unfold k0_part23_skel
  simp only [Prog.lift, Prog.bind_op, Prog.bind_ret, Prog.pure_eq_ret, bind_assoc]
  rp_pair 18
  rp_pair 19
  rp_pair 20
  rp_pair 21
  rw [k0_part24_eq_skeleton]; unfold k0_part24_skel
  simp only [Prog.lift, Prog.bind_op, Prog.bind_ret, Prog.pure_eq_ret, bind_assoc]
  rp_pair 22
  rp_pair 23
  rp_pair 24
  rp_pair 25
  rw [k0_part25_eq_skeleton]; unfold k0_part25_skel
  simp only [Prog.lift, Prog.bind_op, Prog.bind_ret, Prog.pure_eq_ret, bind_assoc]
  rp_pair 26
  rp_pair 27
  rp_pair 28
  rp_pair 29
  rp_pair 30
  rp_pair 31
  rw [wp_ret]; imodintro
  rw [repackAt_next, show 16 * t.val + 16 = 16 * (t.val + 1) by omega]
  isplitl [HG]; · iexact HG
  iexact HS

/-- Before trip k the buffer is the one before step 0 of the trip whose first row is 16 k; the quarters are unchanged. -/
def rinv6 (G0 : S416x128.Idx → Elt F .f32) (Sb : S416.Idx → BitVec 32) (k : Nat) (_ : Unit) : sProp 𝕄 :=
  iprop(((g6M).view.loc (thrL d L) ↦{fullShare} repackAt G0 Sb (16 * k) 0) ∗ ((s2M).view.loc (thrL d L) ↦{fullShare} Sb))

theorem trips6 : k0_t6_loop.trips = 26 := by decide

/-- THE REPACK LOOP after the main loop, on the second gather buffer with the second quarter buffer. The vector `v12` is the lane numbers 0 .. 15. -/
theorem repack6 (v12 : IVec S16 32) (G0 : S416x128.Idx → Elt F .f32) (Sb : S416.Idx → BitVec 32) (hSb : ∀ j : Fin 416, (Sb (ix1 j)).toNat < 4)
    (hv : v12 = iota .scVector S16 32 [0] iota_S16_d0_w32_scVector) :
    (iprop(((g6M).view.loc (thrL d L) ↦{fullShare} G0) ∗ ((s2M).view.loc (thrL d L) ↦{fullShare} Sb)) : sProp 𝕄)
      ⊢ wp frame (wpE (defs₀ (F := F)) 𝒱₀ (thrL d L) none) Set.univ
          (Scf.Loop.for k0_t6_loop (k0_t6_ok) ⟨⟩ (k0_t6_body L (Memref.whole main_v2_scv) (Memref.isWhole_whole _) (Memref.whole main_v8_scv) (Memref.isWhole_whole _) (Memref.whole main_v12_scv) (Memref.isWhole_whole _) (Memref.whole main_v13_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scoped0 v12))
          fun _ => iprop(∃ G1, ⌜Steps.RepackDone G0 G1 Sb⌝ ∗ ((g6M).view.loc (thrL d L) ↦{fullShare} G1) ∗ ((s2M).view.loc (thrL d L) ↦{fullShare} Sb)) := by
  subst hv
  iintro ⟨HG, HS⟩
  sl_for (rinv6 (F := F) d L G0 Sb) $$ [HG HS]
  case region =>
    intro k _
    exact trip6 d L  G0 Sb hSb k
  isplitl [HG HS]
  · unfold rinv6
    rw [Nat.mul_zero, repackAt_zero]
    isplitl [HG]; · iexact HG
    iexact HS
  iintro %_ HInv
  unfold rinv6
  icases HInv with ⟨HG, HS⟩
  iexists repackAt G0 Sb (16 * k0_t6_loop.trips) 0
  isplitr
  · ipureintro
    rw [trips6]
    exact repackAt_done G0 Sb
  isplitl [HG]; · iexact HG
  iexact HS

end Cert.Proof.KB

end
-- ==== Proof.KBInner.lean ====
/-
  The three repack loops of the tile's body, and the rule that runs a program whose triple is known at the head of a
  longer one.
-/
import proofs.«204936_g5145370820905_cont_8to1_c_618_18_alg».proof.Proof.KBRepack3
import proofs.«204936_g5145370820905_cont_8to1_c_618_18_alg».proof.Proof.KBRepack5
import proofs.«204936_g5145370820905_cont_8to1_c_618_18_alg».proof.Proof.KBRepack6

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
-- the kernel's memrefs, spelt as the body table passes them
local notation "idxW" => (Memref.whole Cert.Kernel.main_v2_scv : Memref Cert.Kernel.sig Kind.scVector Space.hbm Cert.Kernel.S2129920 EltTy.i32)
local notation "offW" => (Memref.whole Cert.Kernel.main_v8_scv : Memref Cert.Kernel.sig Kind.scVector Space.hbm Cert.Kernel.S416 EltTy.i32)
local notation "tabW" => (Memref.whole Cert.Kernel.main_v12_scv : Memref Cert.Kernel.sig Kind.scVector Space.hbm Cert.Kernel.S650007x128 EltTy.f32)
local notation "outW" => (Memref.whole Cert.Kernel.main_v13_scv : Memref Cert.Kernel.sig Kind.scVector Space.hbm Cert.Kernel.S532480x128 EltTy.f32)
local notation "s0W" => (Memref.whole Cert.Kernel.cc0_scratch0 : Memref Cert.Kernel.sig Kind.scVector Space.vmem Cert.Kernel.S416 EltTy.i32)
local notation "s1W" => (Memref.whole Cert.Kernel.cc0_scratch1 : Memref Cert.Kernel.sig Kind.scVector Space.vmem Cert.Kernel.S416 EltTy.i32)
local notation "s2W" => (Memref.whole Cert.Kernel.cc0_scratch2 : Memref Cert.Kernel.sig Kind.scVector Space.vmem Cert.Kernel.S416 EltTy.i32)
local notation "s3W" => (Memref.whole Cert.Kernel.cc0_scratch3 : Memref Cert.Kernel.sig Kind.scVector Space.vmem Cert.Kernel.S416 EltTy.i32)
local notation "s4W" => (Memref.whole Cert.Kernel.cc0_scratch4 : Memref Cert.Kernel.sig Kind.scVector Space.vmem Cert.Kernel.S416 EltTy.i32)
local notation "s5W" => (Memref.whole Cert.Kernel.cc0_scratch5 : Memref Cert.Kernel.sig Kind.scVector Space.vmem Cert.Kernel.S416x128 EltTy.f32)
local notation "s6W" => (Memref.whole Cert.Kernel.cc0_scratch6 : Memref Cert.Kernel.sig Kind.scVector Space.vmem Cert.Kernel.S416x128 EltTy.f32)

variable (m : (ℓ : Loc nD τ sig) → Buf (Elt F) ℓ)
variable (d : Dev nD) (L : grid0.Coords)
variable [FloatOps F]

/-- Run a program whose triple is known at the head of a longer one. -/
theorem wp_head {α β : Type} {thr : Thread nD τ} {p : Prog (TpuEff nD τ sig (Elt F) Λ₀ thr.2) α} {k : α → Prog (TpuEff nD τ sig (Elt F) Λ₀ thr.2) β}
    {P : sProp 𝕄} {Q : α → sProp 𝕄} {Q' : β → sProp 𝕄}
    (h : P ⊢ wp frame (wpE (defs₀ (F := F)) 𝒱₀ thr none) Set.univ p Q) :
    P ⊢ iprop((∀ a, Q a -∗ wp frame (wpE (defs₀ (F := F)) 𝒱₀ thr none) Set.univ (k a) Q')
      -∗ wp frame (wpE (defs₀ (F := F)) 𝒱₀ thr none) Set.univ (p >>= k) Q') := by
  rw [wp_bind]
  iintro HP HK
  iapply (wp_wand_r frame (wpE (defs₀ (F := F)) 𝒱₀ thr none) Set.univ)
  isplitl [HP]
  · iapply h; iexact HP
  · iexact HK

end Cert.Proof.KB

end
-- ==== Proof.KBOffsetStep.lean ====
/-
  The offset step of a chunk, one trip at a time.

  A trip of the offset loop reads lanes 16 k .. 16 k + 15 of the index buffer and of the offsets, adds them, and stores
  the sum's low two bits (the quarter) in the second buffer and the sum shifted right by two (the group number) back in
  place of the entries it read. Trips touch disjoint slices, so after k trips the entries below 16 k are done and the
  entries from 16 k on are as they were at entry: that is `OffsetUpTo`, which is the empty claim about the index buffer's
  change at k = 0 and `Steps.OffsetDone` at k = 26. This module has the arithmetic of one trip (`offsetUpTo_step`), what a
  buffer reads after one store of sixteen lanes, and the two stored vectors at a lane.
-/
import proofs.«204936_g5145370820905_cont_8to1_c_618_18_alg».proof.Proof.KBTile
import proofs.«204936_g5145370820905_cont_8to1_c_618_18_alg».proof.Proof.KISteps

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## What a buffer of 416 words reads after a store of sixteen lanes, through any view of it -/

section Lanes

variable {sig' : RefSig} {κ : Kind} {sp : Space} {Val : EltTy → Type} (v : View sig' κ sp S416 .i32) (f : v.ty.Contents Val)
variable (off : Fin 1 → Nat) (inb : ∀ a, off a + S16.size a ≤ S416.size a)

/-- Lane i of the slice at `off` is entry `off 0 + i`. -/
theorem lane_emb (i : Fin 16) (j : Fin 416) (hj : j.val = off 0 + i.val) :
    (ix1 j : S416.Idx) = (Rect.unit (s := S416) off S16.size inb).emb (ix1 i) := by
  funext a
  obtain rfl : a = 0 := Subsingleton.elim _ _
  apply Fin.ext
  rw [Rect.emb_apply]
  show j.val = off 0 + 1 * i.val
  omega

/-- An entry under the store reads the stored lane; -/
theorem read_store16_in (w : (Rect.unit (s := S416) off S16.size inb).shape.Idx → Val .i32) (i : Fin 16) (j : Fin 416)
    (hj : j.val = off 0 + i.val) :
    v.read Val (v.writes Val f [⟨Rect.unit (s := S416) off S16.size inb, w⟩]) (ix1 j) = w (ix1 i) := by
  rw [lane_emb off inb i j hj]
  exact View.read_writes_cons_emb v f _ w [] (ix1 i)

/-- an entry outside it reads what it held. -/
theorem read_store16_out (w : (Rect.unit (s := S416) off S16.size inb).shape.Idx → Val .i32) (j : Fin 416)
    (hj : j.val < off 0 ∨ off 0 + 16 ≤ j.val) :
    v.read Val (v.writes Val f [⟨Rect.unit (s := S416) off S16.size inb, w⟩]) (ix1 j) = v.read Val f (ix1 j) := by
  refine View.read_writes_apply_of_forall_not_mem v f (ix1 j) _ fun p hp => ?_
  obtain rfl := List.mem_singleton.mp hp
  rw [Rect.mem_set_unit]
  intro h
  have h0 := h 0
  have e : ((ix1 j : S416.Idx) 0 : Nat) = j.val := rfl
  have s : S16.size 0 = 16 := rfl
  omega

/-- A load of sixteen lanes at `off` reads entry `off 0 + i` in lane i. -/
theorem load16_apply (i : Fin 16) (j : Fin 416) (hj : j.val = off 0 + i.val) :
    v.readAt Val (Rect.unit (s := S416) off S16.size inb).toLoadRect f (ix1 i) = v.read Val f (ix1 j) := by
  rw [View.readAt_apply, lane_emb off inb i j hj]
  rfl

end Lanes

/-! ## The stored vectors at a lane -/

theorem pay256_apply (a b : Vec F S16 .i32) (i : S16.Idx) : k0_pay256 a b i = (a i + b i) &&& 3#32 := rfl
theorem pay257_apply (a b : Vec F S16 .i32) (i : S16.Idx) : k0_pay257 a b i = (a i + b i) >>> 2 := rfl
theorem pay263_apply (a b : Vec F S16 .i32) (i : S16.Idx) : k0_pay263 a b i = (a i + b i) &&& 3#32 := rfl
theorem pay264_apply (a b : Vec F S16 .i32) (i : S16.Idx) : k0_pay264 a b i = (a i + b i) >>> 2 := rfl

/-! ## The loop's invariant as a pure relation, and one trip of it -/

/-- After k trips: entries below 16 k are done, entries from 16 k on are as at entry. -/
def OffsetUpTo (I0 Of I1 S1 : Steps.S416.Idx → BitVec 32) (k : Nat) : Prop :=
  ∀ j : Fin 416, (j.val < 16 * k → I1 (ix1 j) = (I0 (ix1 j) + Of (ix1 j)) >>> 2 ∧ S1 (ix1 j) = (I0 (ix1 j) + Of (ix1 j)) &&& 3#32)
    ∧ (16 * k ≤ j.val → I1 (ix1 j) = I0 (ix1 j))

theorem offsetUpTo_zero (I0 Of S0 : Steps.S416.Idx → BitVec 32) : OffsetUpTo I0 Of I0 S0 0 :=
  fun j => ⟨fun h => absurd h (by omega), fun _ => rfl⟩

theorem offsetDone_of_upTo {I0 Of I1 S1 : Steps.S416.Idx → BitVec 32} (h : OffsetUpTo I0 Of I1 S1 26) : Steps.OffsetDone I0 Of I1 S1 :=
  fun j => (h j).1 (by have := j.isLt; omega)

/-- One trip: the slice 16 k .. 16 k + 15 of both buffers is rewritten from the entries it held, the rest is kept. -/
theorem offsetUpTo_step {I0 Of I1 S1 I1' S1' : Steps.S416.Idx → BitVec 32} {k : Nat}
    (hk : OffsetUpTo I0 Of I1 S1 k)
    (hIin : ∀ j : Fin 416, 16 * k ≤ j.val → j.val < 16 * k + 16 → I1' (ix1 j) = (I1 (ix1 j) + Of (ix1 j)) >>> 2)
    (hSin : ∀ j : Fin 416, 16 * k ≤ j.val → j.val < 16 * k + 16 → S1' (ix1 j) = (I1 (ix1 j) + Of (ix1 j)) &&& 3#32)
    (hIout : ∀ j : Fin 416, (j.val < 16 * k ∨ 16 * k + 16 ≤ j.val) → I1' (ix1 j) = I1 (ix1 j))
    (hSout : ∀ j : Fin 416, (j.val < 16 * k ∨ 16 * k + 16 ≤ j.val) → S1' (ix1 j) = S1 (ix1 j)) :
    OffsetUpTo I0 Of I1' S1' (k + 1) := by
  intro j
  refine ⟨fun hj => ?_, fun hj => ?_⟩
  · by_cases hlt : j.val < 16 * k
    · rw [hIout j (.inl hlt), hSout j (.inl hlt)]
      exact (hk j).1 hlt
    · have hge : 16 * k ≤ j.val := by omega
      rw [hIin j hge (by omega), hSin j hge (by omega), (hk j).2 hge]
      exact ⟨rfl, rfl⟩
  · rw [hIout j (.inr (by omega))]
    exact (hk j).2 (by omega)

end Cert.Proof.KB

end
-- ==== Proof.KBOffset2.lean ====
/-
  The offset loop of a chunk on the first index buffer: 26 trips of sixteen lanes, each adding the offsets to its slice of
  the index entries, storing the sums' quarters in the first quarter buffer and the group numbers back in place.
  The invariant holds the three buffers at some contents related to the entry contents by `OffsetUpTo`.
-/
import proofs.«204936_g5145370820905_cont_8to1_c_618_18_alg».proof.Proof.KBOffsetStep

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "s0W" => (Memref.whole Cert.Kernel.cc0_scratch0 : Memref Cert.Kernel.sig Kind.scVector Space.vmem Cert.Kernel.S416 EltTy.i32)

variable (d : Dev nD) (L : grid0.Coords)
variable [FloatOps F]

local notation "idxM" => (Memref.whole Cert.Kernel.cc0_scratch3 : Memref Cert.Kernel.sig Kind.scVector Space.vmem Cert.Kernel.S416 EltTy.i32)
local notation "subM" => (Memref.whole Cert.Kernel.cc0_scratch1 : Memref Cert.Kernel.sig Kind.scVector Space.vmem Cert.Kernel.S416 EltTy.i32)

/-- Before trip k: the index buffer and the quarter buffer at contents done below 16 k and, for the index buffer, untouched
    from 16 k on; the offsets as they were. -/
def offInv2 (I0 : Buf (Elt F) ((thrL d L).loc cc0_scratch3)) (Of : Buf (Elt F) ((thrL d L).loc cc0_scratch0)) (k : Nat) (_ : Unit) : sProp 𝕄 :=
  iprop(∃ (I1 : Buf (Elt F) ((thrL d L).loc cc0_scratch3)) (S1 : Buf (Elt F) ((thrL d L).loc cc0_scratch1)), ⌜OffsetUpTo I0 Of I1 S1 k⌝
    ∗ ((idxM).view.loc (thrL d L) ↦{fullShare} I1) ∗ ((s0W).view.loc (thrL d L) ↦{fullShare} Of) ∗ ((subM).view.loc (thrL d L) ↦{fullShare} S1))

/-- The offset loop on the first buffers: afterwards the index buffer holds the group numbers and the quarter buffer the
    quarters of the entries plus offsets; the offsets are unchanged. -/
theorem offset2 (v29_r0 : DmaSems sig S_) (v2 v3 c0 c1 : BitVec 32) (k0_t1 : Fin k0_t1_loop.trips)
    (I0 : Buf (Elt F) ((thrL d L).loc cc0_scratch3)) (Of : Buf (Elt F) ((thrL d L).loc cc0_scratch0)) (S0 : Buf (Elt F) ((thrL d L).loc cc0_scratch1)) :
    (iprop(((idxM).view.loc (thrL d L) ↦{fullShare} I0) ∗ ((s0W).view.loc (thrL d L) ↦{fullShare} Of) ∗ ((subM).view.loc (thrL d L) ↦{fullShare} S0)) : sProp 𝕄)
      ⊢ wp frame (wpE (defs₀ (F := F)) 𝒱₀ (thrL d L) none) Set.univ
          (Scf.Loop.for k0_t2_loop k0_t2_ok ⟨⟩ (k0_t2_body L (Memref.whole main_v2_scv) (Memref.isWhole_whole _) (Memref.whole main_v8_scv) (Memref.isWhole_whole _) (Memref.whole main_v12_scv) (Memref.isWhole_whole _) (Memref.whole main_v13_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 v29_r0 v2 v3 c0 c1 k0_t1))
          fun _ => iprop(∃ (I1 : Buf (Elt F) ((thrL d L).loc cc0_scratch3)) (S1 : Buf (Elt F) ((thrL d L).loc cc0_scratch1)), ⌜Steps.OffsetDone I0 Of I1 S1⌝
            ∗ ((idxM).view.loc (thrL d L) ↦{fullShare} I1) ∗ ((s0W).view.loc (thrL d L) ↦{fullShare} Of) ∗ ((subM).view.loc (thrL d L) ↦{fullShare} S1)) := by
  iintro ⟨HI, HO, HS⟩
  sl_for (offInv2 (F := F) d L I0 Of) $$ [HI HO HS]
  case region =>
    intro k _
    unfold offInv2
    iintro ⟨%I1, %S1, %hk, HI, HO, HS⟩
    -- the trip's two loads, the dead load of the quarter slice, and its two stores
    sl_exec
    sl_step
    iexists _, _
    isplitr
    rotate_left
    · isplitl [HI]; · iexact HI
      isplitl [HO]; · iexact HO
      iexact HS
    ipureintro
    -- the slice's first entry is 16 k
    have hoff : k0_off4 k 0 = 16 * k.val := congrFun (k0_off4_eq k) 0
    have hlt : k.val < 26 := k.isLt
    refine offsetUpTo_step hk (fun j h1 h2 => ?_) (fun j h1 h2 => ?_) (fun j hj => ?_) (fun j hj => ?_)
    · have e : j.val = k0_off4 k 0 + (⟨j.val - 16 * k.val, by omega⟩ : Fin 16).val := by rw [hoff]; show j.val = 16 * k.val + (j.val - 16 * k.val); omega
      refine (read_store16_in (idxM).view I1 _ (k0_off4_inb k) _ _ j e).trans ?_
      rw [pay257_apply, load16_apply (idxM).view I1 _ (k0_off4_inb k) _ j e, load16_apply (s0W).view Of _ (k0_off4_inb k) _ j e]
      rfl
    · have e : j.val = k0_off4 k 0 + (⟨j.val - 16 * k.val, by omega⟩ : Fin 16).val := by rw [hoff]; show j.val = 16 * k.val + (j.val - 16 * k.val); omega
      refine (read_store16_in (subM).view S1 _ (k0_off4_inb k) _ _ j e).trans ?_
      rw [pay256_apply, load16_apply (idxM).view I1 _ (k0_off4_inb k) _ j e, load16_apply (s0W).view Of _ (k0_off4_inb k) _ j e]
      rfl
    · exact read_store16_out (idxM).view I1 _ (k0_off4_inb k) _ j (by rw [hoff]; exact hj)
    · exact read_store16_out (subM).view S1 _ (k0_off4_inb k) _ j (by rw [hoff]; exact hj)
  -- entry: nothing done yet; exit: all 26 slices done
  isplitl [HI HO HS]
  · unfold offInv2
    iexists I0, S0
    isplitr; · ipureintro; exact offsetUpTo_zero I0 Of S0
    isplitl [HI]; · iexact HI
    isplitl [HO]; · iexact HO
    iexact HS
  iintro %_ HInv
  unfold offInv2
  icases HInv with ⟨%I1, %S1, %hk, HI, HO, HS⟩
  iexists I1, S1
  isplitr; · ipureintro; exact offsetDone_of_upTo hk
  isplitl [HI]; · iexact HI
  isplitl [HO]; · iexact HO
  iexact HS

end Cert.Proof.KB

end
-- ==== Proof.KBOffset4.lean ====
/-
  The offset loop of a chunk on the second index buffer: 26 trips of sixteen lanes, each adding the offsets to its slice of
  the index entries, storing the sums' quarters in the second quarter buffer and the group numbers back in place.
  The invariant holds the three buffers at some contents related to the entry contents by `OffsetUpTo`.
-/
import proofs.«204936_g5145370820905_cont_8to1_c_618_18_alg».proof.Proof.KBOffsetStep

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "s0W" => (Memref.whole Cert.Kernel.cc0_scratch0 : Memref Cert.Kernel.sig Kind.scVector Space.vmem Cert.Kernel.S416 EltTy.i32)

variable (d : Dev nD) (L : grid0.Coords)
variable [FloatOps F]

local notation "idxM" => (Memref.whole Cert.Kernel.cc0_scratch4 : Memref Cert.Kernel.sig Kind.scVector Space.vmem Cert.Kernel.S416 EltTy.i32)
local notation "subM" => (Memref.whole Cert.Kernel.cc0_scratch2 : Memref Cert.Kernel.sig Kind.scVector Space.vmem Cert.Kernel.S416 EltTy.i32)

/-- Before trip k: the index buffer and the quarter buffer at contents done below 16 k and, for the index buffer, untouched
    from 16 k on; the offsets as they were. -/
def offInv4 (I0 : Buf (Elt F) ((thrL d L).loc cc0_scratch4)) (Of : Buf (Elt F) ((thrL d L).loc cc0_scratch0)) (k : Nat) (_ : Unit) : sProp 𝕄 :=
  iprop(∃ (I1 : Buf (Elt F) ((thrL d L).loc cc0_scratch4)) (S1 : Buf (Elt F) ((thrL d L).loc cc0_scratch2)), ⌜OffsetUpTo I0 Of I1 S1 k⌝
    ∗ ((idxM).view.loc (thrL d L) ↦{fullShare} I1) ∗ ((s0W).view.loc (thrL d L) ↦{fullShare} Of) ∗ ((subM).view.loc (thrL d L) ↦{fullShare} S1))

/-- The offset loop on the second buffers: afterwards the index buffer holds the group numbers and the quarter buffer the
    quarters of the entries plus offsets; the offsets are unchanged. -/
theorem offset4 (v29_r0 : DmaSems sig S_) (v2 v3 c0 c1 : BitVec 32) (k0_t1 : Fin k0_t1_loop.trips)
    (I0 : Buf (Elt F) ((thrL d L).loc cc0_scratch4)) (Of : Buf (Elt F) ((thrL d L).loc cc0_scratch0)) (S0 : Buf (Elt F) ((thrL d L).loc cc0_scratch2)) :
    (iprop(((idxM).view.loc (thrL d L) ↦{fullShare} I0) ∗ ((s0W).view.loc (thrL d L) ↦{fullShare} Of) ∗ ((subM).view.loc (thrL d L) ↦{fullShare} S0)) : sProp 𝕄)
      ⊢ wp frame (wpE (defs₀ (F := F)) 𝒱₀ (thrL d L) none) Set.univ
          (Scf.Loop.for k0_t4_loop k0_t4_ok ⟨⟩ (k0_t4_body L (Memref.whole main_v2_scv) (Memref.isWhole_whole _) (Memref.whole main_v8_scv) (Memref.isWhole_whole _) (Memref.whole main_v12_scv) (Memref.isWhole_whole _) (Memref.whole main_v13_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 v29_r0 v2 v3 c0 c1 k0_t1))
          fun _ => iprop(∃ (I1 : Buf (Elt F) ((thrL d L).loc cc0_scratch4)) (S1 : Buf (Elt F) ((thrL d L).loc cc0_scratch2)), ⌜Steps.OffsetDone I0 Of I1 S1⌝
            ∗ ((idxM).view.loc (thrL d L) ↦{fullShare} I1) ∗ ((s0W).view.loc (thrL d L) ↦{fullShare} Of) ∗ ((subM).view.loc (thrL d L) ↦{fullShare} S1)) := by
  iintro ⟨HI, HO, HS⟩
  sl_for (offInv4 (F := F) d L I0 Of) $$ [HI HO HS]
  case region =>
    intro k _
    unfold offInv4
    iintro ⟨%I1, %S1, %hk, HI, HO, HS⟩
    -- the trip's two loads, the dead load of the quarter slice, and its two stores
    sl_exec
    sl_step
    iexists _, _
    isplitr
    rotate_left
    · isplitl [HI]; · iexact HI
      isplitl [HO]; · iexact HO
      iexact HS
    ipureintro
    -- the slice's first entry is 16 k
    have hoff : k0_off9 k 0 = 16 * k.val := congrFun (k0_off9_eq k) 0
    have hlt : k.val < 26 := k.isLt
    refine offsetUpTo_step hk (fun j h1 h2 => ?_) (fun j h1 h2 => ?_) (fun j hj => ?_) (fun j hj => ?_)
    · have e : j.val = k0_off9 k 0 + (⟨j.val - 16 * k.val, by omega⟩ : Fin 16).val := by rw [hoff]; show j.val = 16 * k.val + (j.val - 16 * k.val); omega
      refine (read_store16_in (idxM).view I1 _ (k0_off9_inb k) _ _ j e).trans ?_
      rw [pay264_apply, load16_apply (idxM).view I1 _ (k0_off9_inb k) _ j e, load16_apply (s0W).view Of _ (k0_off9_inb k) _ j e]
      rfl
    · have e : j.val = k0_off9 k 0 + (⟨j.val - 16 * k.val, by omega⟩ : Fin 16).val := by rw [hoff]; show j.val = 16 * k.val + (j.val - 16 * k.val); omega
      refine (read_store16_in (subM).view S1 _ (k0_off9_inb k) _ _ j e).trans ?_
      rw [pay263_apply, load16_apply (idxM).view I1 _ (k0_off9_inb k) _ j e, load16_apply (s0W).view Of _ (k0_off9_inb k) _ j e]
      rfl
    · exact read_store16_out (idxM).view I1 _ (k0_off9_inb k) _ j (by rw [hoff]; exact hj)
    · exact read_store16_out (subM).view S1 _ (k0_off9_inb k) _ j (by rw [hoff]; exact hj)
  -- entry: nothing done yet; exit: all 26 slices done
  isplitl [HI HO HS]
  · unfold offInv4
    iexists I0, S0
    isplitr; · ipureintro; exact offsetUpTo_zero I0 Of S0
    isplitl [HI]; · iexact HI
    isplitl [HO]; · iexact HO
    iexact HS
  iintro %_ HInv
  unfold offInv4
  icases HInv with ⟨%I1, %S1, %hk, HI, HO, HS⟩
  iexists I1, S1
  isplitr; · ipureintro; exact offsetDone_of_upTo hk
  isplitl [HI]; · iexact HI
  isplitl [HO]; · iexact HO
  iexact HS

end Cert.Proof.KB

end
-- ==== Proof.KBBodyTrip0.lean ====
/-
  Trip 0 of the main loop: chunks 0 and 1 of the tile.

  Before the trip only the index loads of chunks 0 and 1 are in flight. The even step waits for chunk 0's entries, turns
  them into group numbers and quarters (the offset step) and starts the gather of chunk 0's groups; there is no earlier
  chunk to write or repack. The odd step does the same for chunk 1, then waits for chunk 0's groups, starts the index
  load of chunk 2 into the buffer chunk 0's list has just left, repacks chunk 0's groups in place and starts writing
  rows 0 .. 103 of the repacked buffer to chunk 0's block of the result. What is left is the state before trip 1: the
  index load of chunk 2, the write-out of chunk 0 and the gather of chunk 1 in flight, everything else idle, no block of
  the result written yet.

  The two facts the state after the trip records are values: the gather of chunk 1 holds the table groups its list
  names (what a gather of whole groups delivers, read at a row and a word), and the block being written is the result's
  block of chunk 0 (entries, offset step, gathered groups and repack composed: the chunk's value).
-/
import proofs.«204936_g5145370820905_cont_8to1_c_618_18_alg».proof.Proof.KBBodyInv
import proofs.«204936_g5145370820905_cont_8to1_c_618_18_alg».proof.Proof.KBInner
import proofs.«204936_g5145370820905_cont_8to1_c_618_18_alg».proof.Proof.KBOffset2
import proofs.«204936_g5145370820905_cont_8to1_c_618_18_alg».proof.Proof.KBOffset4
import proofs.«204936_g5145370820905_cont_8to1_c_618_18_alg».proof.Proof.KBBodyLibGeomOut
import proofs.«204936_g5145370820905_cont_8to1_c_618_18_alg».proof.Proof.KBBodyLibGeomIdx
import proofs.«204936_g5145370820905_cont_8to1_c_618_18_alg».proof.Proof.KBBodyLibValue

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
-- the kernel's memrefs, spelt as the body table passes them
local notation "idxW" => (Memref.whole Cert.Kernel.main_v2_scv : Memref Cert.Kernel.sig Kind.scVector Space.hbm Cert.Kernel.S2129920 EltTy.i32)
local notation "offW" => (Memref.whole Cert.Kernel.main_v8_scv : Memref Cert.Kernel.sig Kind.scVector Space.hbm Cert.Kernel.S416 EltTy.i32)
local notation "tabW" => (Memref.whole Cert.Kernel.main_v12_scv : Memref Cert.Kernel.sig Kind.scVector Space.hbm Cert.Kernel.S650007x128 EltTy.f32)
local notation "outW" => (Memref.whole Cert.Kernel.main_v13_scv : Memref Cert.Kernel.sig Kind.scVector Space.hbm Cert.Kernel.S532480x128 EltTy.f32)
local notation "s0W" => (Memref.whole Cert.Kernel.cc0_scratch0 : Memref Cert.Kernel.sig Kind.scVector Space.vmem Cert.Kernel.S416 EltTy.i32)
local notation "s1W" => (Memref.whole Cert.Kernel.cc0_scratch1 : Memref Cert.Kernel.sig Kind.scVector Space.vmem Cert.Kernel.S416 EltTy.i32)
local notation "s2W" => (Memref.whole Cert.Kernel.cc0_scratch2 : Memref Cert.Kernel.sig Kind.scVector Space.vmem Cert.Kernel.S416 EltTy.i32)
local notation "s3W" => (Memref.whole Cert.Kernel.cc0_scratch3 : Memref Cert.Kernel.sig Kind.scVector Space.vmem Cert.Kernel.S416 EltTy.i32)
local notation "s4W" => (Memref.whole Cert.Kernel.cc0_scratch4 : Memref Cert.Kernel.sig Kind.scVector Space.vmem Cert.Kernel.S416 EltTy.i32)
local notation "s5W" => (Memref.whole Cert.Kernel.cc0_scratch5 : Memref Cert.Kernel.sig Kind.scVector Space.vmem Cert.Kernel.S416x128 EltTy.f32)
local notation "s6W" => (Memref.whole Cert.Kernel.cc0_scratch6 : Memref Cert.Kernel.sig Kind.scVector Space.vmem Cert.Kernel.S416x128 EltTy.f32)

variable (m : (ℓ : Loc nD τ sig) → Buf (Elt F) ℓ)
variable (d : Dev nD) (L : grid0.Coords)
variable [FloatOps F]

/-- Entry j of chunk g, as the index load delivers it, is the index list's entry at the chunk's place. -/
private theorem chunkEnts_apply (g : Fin 160) (j : Fin 416) :
    chunkEnts m d L g (ix1 j) = idxArr m d (ix1 (chunkPos (widL L) g j)) := by
  unfold chunkEnts
  refine (read_slice_idx (Vpre m d idx') (idxOff_inb L g) (p := (widL L).val * 66560 + 416 * g.val) rfl j).trans ?_
  rfl

omit [FloatOps F] in
/-- Chunk 0's block of the result, as trip 0's write-out addresses it. -/
private theorem pts_out_blk0 (k : Fin k0_t1_loop.trips) (hk : k.val = 0) (h : ∀ a, (k0_off12 L k) a + S104x128.size a ≤ S532480x128.size a)
    (f : Buf (Elt F) (outLoc d)) :
    (((outW).slice (Rect.unit (s := S532480x128) (k0_off12 L k) S104x128.size h) (fun _ => rfl)).view.loc (thrL d L)
        ↦[((outW).slice (Rect.unit (s := S532480x128) (k0_off12 L k) S104x128.size h) (fun _ => rfl)).view.set]{fullShare} f : sProp 𝕄)
      = (outLoc d ↦[outSet (chunkIx (widL L) (gIx 0))]{fullShare} f) := by
  rw [set_out_off12 L k h]
  have e : (⟨2 * k.val, chunk0_lt k⟩ : Fin 160) = gIx 0 := Fin.ext (by show 2 * k.val = 0 % 160; omega)
  rw [e]

omit [FloatOps F] in
/-- One write of a whole buffer, over anything, leaves what was written. -/
private theorem writes_whole_single {κ : Kind} (b : Ref sig κ) (f : b.ty.Contents (Elt F)) (P : (Rect.whole b.ty.shape).shape.Idx → Elt F b.ty.elt) :
    (Memref.whole b : Memref sig κ _ _ _).view.writes (Elt F) f [⟨Rect.whole b.ty.shape, P⟩] = P := by
  funext x
  have h := View.read_writes_cons_emb (View.whole b) f (Rect.whole b.ty.shape) P [] x
  rw [Rect.emb_whole_apply] at h
  exact h

omit [FloatOps F] in
/-- The table read through the slice the gathers take of it (all of it) is the table. -/
private theorem read_tabSl (f : S650007x128.Idx → Elt F .f32) : (tabSl).view.read (Elt F) f = f :=
  Memref.read_access_unit_zero (Elt F) main_v12_scv (funext fun a => by fin_cases a <;> rfl) _ f

/-- What a gather of whole groups at a list leaves is `Gathered` at that list. -/
private theorem gathered_payload (I : S416.Idx → BitVec 32)
    (hn : S416.numel = S416x128.size (Shape.Gathers.axis' gathers_S650007x128_S416x128))
    (hin : ∀ x, (I x).toNat < S650007x128.size (Shape.Gathers.axis gathers_S650007x128_S416x128)) :
    Gathered m d (SparseCore.gatherPayload (F := F) gathers_S650007x128_S416x128 ((tabSl).view.read (Elt F) (Vpre m d tab'))
      (SparseCore.rows (F := F) I hn hin)) I := by
  intro j c h
  rw [gatherPayload_ix2, read_tabSl]

/-- The result blocks other than block b before anything is written: all untouched. -/
private theorem outBlocks_zero (b : Fin 160) :
    OutBlocks m d L b 0 = bigSep (Finset.univ.erase b) fun g : Fin 160 => outLoc d ↦[outSet (chunkIx (widL L) g)]{fullShare} out0Arr m d := by
  unfold OutBlocks
  exact bigSep_congr fun g _ => by rw [if_neg (Nat.not_lt_zero _)]

/-- An index load of chunk g into parity 0's buffer, as its issue leaves it, is `IdxFlight0`. -/
private theorem idxFlight0_of (g : Fin 160) {off : Fin 1 → ℕ} (h : ∀ a, off a + S416.size a ≤ S2129920.size a) (he : off = idxOff L g)
    (I3 : S416.Idx → BitVec 32) :
    (iprop(Transfers.Flight countersEmb (thrL d L) (SemLoc.dma cc0_scratch7.sem) (default : HIx 1) 13312
        iprop(((s3W).view.loc (thrL d L) ↦{fullShare} View.write (Elt F) (s3W).view I3
            (ReadAs.same.apply (((idxW).slice (Rect.unit (s := S2129920) off S416.size h) (fun _ => rfl)).view.read (Elt F) (Vpre m d idx'))) Finset.univ)
          ∗ ((idxW).view.loc (thrL d L) ↦[((idxW).slice (Rect.unit (s := S2129920) off S416.size h) (fun _ => rfl)).view.set]{tokI L 0} Vpre m d idx'))
      ∗ ((idxW).view.loc (thrL d L) ↦[Finset.univ \ ((idxW).slice (Rect.unit (s := S2129920) off S416.size h) (fun _ => rfl)).view.set]{tokI L 0} Vpre m d idx')) : sProp 𝕄)
      = IdxFlight0 m d L g := by
  subst he
  unfold IdxFlight0 chunkEnts
  simp only [Memref.view_whole, View.write_whole_univ, ReadAs.apply_same]

/-- Word c of row r of chunk g's block of the result, after the block is written from rows 0 .. 103 of a buffer. -/
private theorem writeOut_apply (w : Fin 32) (g : Fin 160) {off : Fin 2 → ℕ} (h : ∀ a, off a + S104x128.size a ≤ S532480x128.size a)
    (he : off = ![w.val * 16640 + 104 * g.val, 0]) (f : S532480x128.Idx → Elt F .f32) (G1 : S416x128.Idx → Elt F .f32) (r : Fin 104) (c : Fin 128) :
    ((outW).slice (Rect.unit (s := S532480x128) off S104x128.size h) (fun _ => rfl)).view.writes (Elt F) f
        [⟨Rect.whole _, ReadAs.same.apply ((g5Sl).view.read (Elt F) G1)⟩] (ix2 (chunkRow w g r) c)
      = G1 (ix2 (⟨r.val, Nat.lt_trans r.isLt (by decide)⟩ : Fin 416) c) := by
  subst he
  have e : (ix2 (chunkRow w g r) c : S532480x128.Idx)
      = ((outW).slice (Rect.unit (s := S532480x128) ![w.val * 16640 + 104 * g.val, 0] S104x128.size h) (fun _ => rfl)).view.emb (ix2 r c) := by
    funext a
    match a with
    | ⟨0, _⟩ => exact Fin.ext (by show w.val * 16640 + 104 * g.val + r.val = w.val * 16640 + 104 * g.val + 1 * r.val; omega)
    | ⟨1, _⟩ => exact Fin.ext (by show c.val = 0 + 1 * c.val; omega)
  rw [e]
  refine ((cast_eq _ _).symm.trans (View.read_apply _ _).symm).trans ?_
  have h2 := View.read_writes_cons_emb ((outW).slice (Rect.unit (s := S532480x128) ![w.val * 16640 + 104 * g.val, 0] S104x128.size h) (fun _ => rfl)).view
    f (Rect.whole _) (ReadAs.same.apply ((g5Sl).view.read (Elt F) G1)) [] (ix2 r c)
  rw [Rect.emb_whole_apply] at h2
  refine h2.trans ?_
  rw [ReadAs.apply_same, View.read_apply]
  refine (cast_eq _ _).trans ?_
  congr 1
  funext a
  match a with
  | ⟨0, _⟩ => exact Fin.ext (by show 0 + 1 * r.val = r.val; omega)
  | ⟨1, _⟩ => exact Fin.ext (by show 0 + 1 * c.val = c.val; omega)

/-- Trip 0: from the two first index loads in flight to the state before trip 1. -/
theorem trip0 (hpre : PreOK m) (O : CellTallies nD τ sig (HIx 1)) (W : Waits sig (HIx 1)) (Of : S416.Idx → BitVec 32) (hOf : Of = offArr m d)
    (v2 v3 : BitVec 32) (k : Fin k0_t1_loop.trips) (hk : k.val = 0) :
    Inv0 m d L O W Of
      ⊢ wp frame (wpE (defs₀ (F := F)) 𝒱₀ (thrL d L) none) Set.univ (k0_t1_body L (Memref.whole main_v2_scv) (Memref.isWhole_whole _) (Memref.whole main_v8_scv) (Memref.isWhole_whole _) (Memref.whole main_v12_scv) (Memref.isWhole_whole _) (Memref.whole main_v13_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scoped0 v2 v3 k ⟨⟩)
          fun _ => InvK m d L O W Of 1 := by

  have k0_h1 : ¬ k0_cond1 k = 1#1 := by rw [cond1_iff]; omega
  have k0_h2 : ¬ k0_cond2 k = 1#1 := by rw [cond2_iff]; omega
  have k0_h4 : ¬ k0_cond4 k = 1#1 := by rw [cond4_iff]; omega
  have k0_h5 : k0_cond5 k = 1#1 := (cond5_iff k).mpr trivial
  have k0_h6 : k0_cond6 k = 1#1 := by rw [cond6_iff]; omega
  unfold Inv0 IdxFlight0 IdxFlight1 Owes k0_t1_body
  iintro ⟨Hmw, Hb0, ⟨%f1, Hb1⟩, ⟨%f2, Hb2⟩, ⟨%f5, Hb5⟩, ⟨%f6, Hb6⟩, ⟨Hf0, Hi0⟩, ⟨Hf1, Hi1⟩, Ht2, Ht3, Hs9, Hs10, Hs11, Hs12, Hout, %W', %hW', HO⟩
  -- step 0: the index load of chunk 0 lands, its offset step, its gather starts
  sl_exec
  iapply (wp_head (offset2 (F := F) d L cc0_scoped0 v2 v3 0#32 1#32 k (chunkEnts m d L (gIx 0)) Of f1)) $$ [Hf0_dst Hb0 Hb1]
  · isplitl [Hf0_dst]; · iexact Hf0_dst
    isplitl [Hb0]; · iexact Hb0
    iexact Hb1
  iintro %_ ⟨%I3, %S1, %hoff3, Hb3, Hb0, Hb1⟩
  have hin3 : ∀ x, ((s3W).view.read (Elt F) I3 x).toNat < S650007x128.size (gathers_S650007x128_S416x128).axis :=
    chunk_hin_idx m hpre d (widL L) (gIx 0) (chunkEnts m d L (gIx 0)) Of I3 S1 (chunkEnts_apply m d L (gIx 0)) hOf hoff3
  -- step 1: the index load of chunk 1 lands, its offset step, its gather starts; gather 0 lands; chunk 2's index load starts
  sl_exec
  iapply (wp_head (offset4 (F := F) d L cc0_scoped0 v2 v3 0#32 1#32 k (chunkEnts m d L (gIx 1)) Of f2)) $$ [Hf1_dst Hb0 Hb2]
  · isplitl [Hf1_dst]; · iexact Hf1_dst
    isplitl [Hb0]; · iexact Hb0
    iexact Hb2
  iintro %_ ⟨%I4, %S2, %hoff4, Hb4, Hb0, Hb2⟩
  have hin4 : ∀ x, ((s4W).view.read (Elt F) I4 x).toNat < S650007x128.size (gathers_S650007x128_S416x128).axis :=
    chunk_hin_idx m hpre d (widL L) (gIx 1) (chunkEnts m d L (gIx 1)) Of I4 S2 (chunkEnts_apply m d L (gIx 1)) hOf hoff4
  sl_exec
  -- the repack of chunk 0's groups
  iapply (wp_head (repack5 (F := F) d L k k0_h5 _ _ S1 (chunk_hSb _ Of I3 S1 hoff3) rfl)) $$ [Hb5 Hb1]
  · isplitl [Hb5]; · iexact Hb5
    iexact Hb1
  iintro %_ ⟨%G1, %hrep, Hb5, Hb1⟩
  -- chunk 0's block of the result, as the write-out addresses it
  ihave Hout' := (Entails.of_eq (SparseCore.bigSep_erase' (Finset.mem_univ (gIx 0)))) $$ Hout
  icases Hout' with ⟨Hblk, Hrest⟩
  ihave Hblk' := (Entails.of_eq (pts_out_blk0 (F := F) d L k hk (k0_off12_inb L k k0_h5) _).symm) $$ Hblk
  -- the write-out of chunk 0 starts
  sl_exec
  sl_step
  -- chunk 2's entries start where the load of trip 0's second step reads them
  have he10 : k0_off10 L k = idxOff L (gIx 2) := by
    rw [off10_eq, hk]; rfl
  -- chunk 0's block, read back: rows 0 .. 103 of the repacked buffer are the block's rows of the result
  have hG0 := gathered_payload m d I3 (rfl : S416.numel = S416x128.size (Shape.Gathers.axis' gathers_S650007x128_S416x128)) hin3
  have hval : ∀ i ∈ outSet (chunkIx (widL L) (gIx 0)),
      ((outW).slice (Rect.unit (s := S532480x128) (k0_off12 L k) S104x128.size (k0_off12_inb L k k0_h5)) (fun _ => rfl)).view.writes (Elt F)
        (Vpre m d out') [⟨Rect.whole _, ReadAs.same.apply ((g5Sl).view.read (Elt F) G1)⟩] i = outArr m d i := by
    intro i hi
    rw [mem_outSet_chunkIx] at hi
    have hg0 : (gIx 0).val = 0 := rfl
    obtain ⟨r, c, rfl⟩ : ∃ (r : Fin 104) (c : Fin 128), i = ix2 (chunkRow (widL L) (gIx 0) r) c := by
      refine ⟨⟨(i 0).val - ((widL L).val * 16640 + 104 * (gIx 0).val), by omega⟩, ⟨(i 1).val, (i 1).isLt⟩, ?_⟩
      funext a
      match a with
      | ⟨0, _⟩ => exact Fin.ext (by show (i 0).val = (widL L).val * 16640 + 104 * (gIx 0).val + ((i 0).val - ((widL L).val * 16640 + 104 * (gIx 0).val)); omega)
      | ⟨1, _⟩ => rfl
    rw [writeOut_apply (widL L) (gIx 0) (k0_off12_inb L k k0_h5) (by rw [off12_eq, hk]; rfl)]
    rw [writes_whole_single] at hrep
    exact chunk_value m hpre d (widL L) (gIx 0) (chunkEnts m d L (gIx 0)) Of I3 S1 _ G1 (chunkEnts_apply m d L (gIx 0)) hOf hoff3 hG0 hrep r c
  unfold InvK
  isplitl [Hmw]; · iexact Hmw
  isplitl [Hb0]; · iexact Hb0
  isplitl [Hb1]; · iexists _; iexact Hb1
  isplitl [Hf0 Hi0]
  · iapply (Entails.of_eq (if_pos (by decide : (1 : ℕ) < 80)).symm)
    iapply (Entails.of_eq (idxFlight0_of m d L (gIx 2) (k0_off10_inb L k k0_h5 k0_h6) he10 I3))
    isplitl [Hf0]; · iexact Hf0
    iexact Hi0
  isplitl [Hs11 Hb5]
  · unfold WriteFlight0
    iexists _, G1
    isplitr; · ipureintro; exact hval
    isplitl [Hs11]
    · iapply (Transfers.Flight_mono countersEmb (thrL d L) (sep_mono (Entails.of_eq (pts_out_blk0 (F := F) d L k hk (k0_off12_inb L k k0_h5) _)) (.refl _)))
      iexact Hs11
    iexact Hb5
  isplitl [Hs9]; · iexact Hs9
  isplitl [Ht2]; · iexact Ht2
  isplitl [Hs10 Ht3 Hb2]
  · unfold GatherFlight1
    iexists _, I4, S2
    isplitr
    rotate_left
    · isplitl [Hs10]; · iexact Hs10
      isplitl [Ht3]; · iexact Ht3
      iexact Hb2
    ipureintro
    refine ⟨hoff4, ?_⟩
    rw [writes_whole_single]
    exact gathered_payload m d I4 (rfl : S416.numel = S416x128.size (Shape.Gathers.axis' gathers_S650007x128_S416x128)) hin4
  isplitl [Hf1]; · iexact Hf1
  isplitl [Hi1]; · iexact Hi1
  isplitl [Hs12]; · iexact Hs12
  isplitl [Hrest]
  · iapply (Entails.of_eq (outBlocks_zero m d L (gIx 0)).symm)
    iexact Hrest
  unfold Owes
  iexists _
  isplitr
  rotate_left
  · iexact HO
  ipureintro
  intro p hp
  rcases Finset.mem_insert.mp hp with hp | hp
  · exact .inr (hp ▸ rfl)
  rcases Finset.mem_insert.mp hp with hp | hp
  · exact .inr (hp ▸ rfl)
  rcases Finset.mem_insert.mp hp with hp | hp
  · exact .inr (hp ▸ rfl)
  exact hW' p hp

end Cert.Proof.KB

end
-- ==== Proof.KBBodyLibView.lean ====
/-
  What the tile's transfers leave, read through the views the program names them by.

  An index load fills a parity's index buffer with the 416 entries of a chunk; a gather fills a gather buffer with the
  table groups its list names, row by row; a write-out carries the first 104 rows of a gather buffer onto the chunk's
  block of the call's result. Each is a whole write through a whole buffer or a slice at a known offset, so the contents
  afterwards are the payload read at the index the slice puts each element at: offset plus index, stride one.
-/
import proofs.«204936_g5145370820905_cont_8to1_c_618_18_alg».proof.Proof.KBBodyInvLib
import proofs.«204936_g5145370820905_cont_8to1_c_618_18_alg».proof.Proof.KBBodyLibValue

noncomputable section

namespace Cert.Proof.KB

open Cert.Kernel Cert.Kernel.Gen

open Idealize.ShloMosaic Idealize.ShloMosaic.ValueIdx
open Idealize.ShloMosaic.SparseCore (S V T)

variable {F : FTy → Type}

-- the kernel's memrefs, spelt as the body table passes them
local notation "idxW" => (Memref.whole Cert.Kernel.main_v2_scv : Memref Cert.Kernel.sig Kind.scVector Space.hbm Cert.Kernel.S2129920 EltTy.i32)
local notation "tabW" => (Memref.whole Cert.Kernel.main_v12_scv : Memref Cert.Kernel.sig Kind.scVector Space.hbm Cert.Kernel.S650007x128 EltTy.f32)
local notation "outW" => (Memref.whole Cert.Kernel.main_v13_scv : Memref Cert.Kernel.sig Kind.scVector Space.hbm Cert.Kernel.S532480x128 EltTy.f32)
local notation "s3W" => (Memref.whole Cert.Kernel.cc0_scratch3 : Memref Cert.Kernel.sig Kind.scVector Space.vmem Cert.Kernel.S416 EltTy.i32)
local notation "s4W" => (Memref.whole Cert.Kernel.cc0_scratch4 : Memref Cert.Kernel.sig Kind.scVector Space.vmem Cert.Kernel.S416 EltTy.i32)
local notation "s5W" => (Memref.whole Cert.Kernel.cc0_scratch5 : Memref Cert.Kernel.sig Kind.scVector Space.vmem Cert.Kernel.S416x128 EltTy.f32)
local notation "s6W" => (Memref.whole Cert.Kernel.cc0_scratch6 : Memref Cert.Kernel.sig Kind.scVector Space.vmem Cert.Kernel.S416x128 EltTy.f32)

variable (m : (ℓ : Loc nD τ sig) → Buf (Elt F) ℓ)
variable (d : Dev nD) (L : grid0.Coords)
variable [FloatOps F]

/-! ## What an index load leaves -/

/-- The index load of chunk `g` into parity 0's index buffer leaves the chunk's entries. -/
theorem idx_load_contents3 {off : Fin 1 → ℕ} (h : ∀ a, off a + S416.size a ≤ S2129920.size a) (g : Fin 160) (he : off = idxOff L g)
    (fold : S416.Idx → BitVec 32) :
    (s3W).view.write (Elt F) fold (ReadAs.same.apply
        (((idxW).slice (Rect.unit (s := S2129920) off S416.size h) (fun _ => rfl)).view.read (Elt F) (Vpre m d idx'))) Finset.univ
      = chunkEnts m d L g := by
  subst he
  exact View.write_whole_univ (Val := Elt F) cc0_scratch3 fold _

/-- The index load of chunk `g` into parity 1's index buffer leaves the chunk's entries. -/
theorem idx_load_contents4 {off : Fin 1 → ℕ} (h : ∀ a, off a + S416.size a ≤ S2129920.size a) (g : Fin 160) (he : off = idxOff L g)
    (fold : S416.Idx → BitVec 32) :
    (s4W).view.write (Elt F) fold (ReadAs.same.apply
        (((idxW).slice (Rect.unit (s := S2129920) off S416.size h) (fun _ => rfl)).view.read (Elt F) (Vpre m d idx'))) Finset.univ
      = chunkEnts m d L g := by
  subst he
  exact View.write_whole_univ (Val := Elt F) cc0_scratch4 fold _

/-! ## The printed index slices are the chunks' -/

variable (k : Fin k0_t1_loop.trips)

/-- The two slices loaded before the loop are chunks 0 and 1; -/
theorem off1_0_idxOff : k0_off1 L 0#32 = idxOff L (gIx 0) := by
  rw [off1_eq_0]; unfold idxOff; rw [gIx_val (by decide : 0 < 160)]
theorem off1_1_idxOff : k0_off1 L 416#32 = idxOff L (gIx 1) := by
  rw [off1_eq_1]; unfold idxOff; rw [gIx_val (by decide : 1 < 160)]
/-- the slice the even step of trip `k` loads is chunk 2 k + 1, -/
theorem off5_idxOff : k0_off5 L k = idxOff L (gIx (2 * k.val + 1)) := by
  rw [off5_eq]; unfold idxOff; rw [gIx_val (chunk1_lt k)]
/-- and the slice its odd step loads, when there is one, chunk 2 k + 2. -/
theorem off10_idxOff (hk : k.val < 79) : k0_off10 L k = idxOff L (gIx (2 * k.val + 2)) := by
  rw [off10_eq]; unfold idxOff; rw [gIx_val (by omega : 2 * k.val + 2 < 160)]
/-- The slices whose loads trip `k` waits for are chunks 2 k and 2 k + 1. -/
theorem off3_0_idxOff : k0_off3 L k 0#32 = idxOff L (gIx (2 * k.val)) := by
  rw [off3_eq_0]; unfold idxOff; rw [gIx_val (chunk0_lt k)]
theorem off3_1_idxOff : k0_off3 L k 1#32 = idxOff L (gIx (2 * k.val + 1)) := by
  rw [off3_eq_1]; unfold idxOff; rw [gIx_val (chunk1_lt k)]

/-! ## What a gather leaves -/

/-- The grouped table read through the slice the gathers take of it (all of it, at offset zero) is the table. -/
theorem read_tabSl (f : S650007x128.Idx → Elt F .f32) (x : S650007x128.Idx) : (tabSl).view.read (Elt F) f x = f x := by
  rw [View.read_apply]
  refine (cast_eq _ _).trans ?_
  congr 1
  funext a
  match a with
  | ⟨0, _⟩ => exact Fin.ext (by show 0 + 1 * (x 0).val = (x 0).val; omega)
  | ⟨1, _⟩ => exact Fin.ext (by show 0 + 1 * (x 1).val = (x 1).val; omega)

/-- One whole write through a whole buffer leaves the payload. -/
theorem writes_whole_s5 (Gold P : S416x128.Idx → Elt F .f32) :
    (s5W).view.writes (Elt F) Gold [⟨Rect.whole _, P⟩] = P :=
  (View.write_univ_eq_writes_whole (s5W).view Gold [] P).symm.trans (View.write_whole_univ cc0_scratch5 Gold P)
theorem writes_whole_s6 (Gold P : S416x128.Idx → Elt F .f32) :
    (s6W).view.writes (Elt F) Gold [⟨Rect.whole _, P⟩] = P :=
  (View.write_univ_eq_writes_whole (s6W).view Gold [] P).symm.trans (View.write_whole_univ cc0_scratch6 Gold P)

/-- The payload of a gather of the table at a list: row `j` is the group entry `j` of the list names. -/
theorem gathered_payload (I : S416.Idx → BitVec 32)
    (hn : S416.numel = S416x128.size (Shape.Gathers.axis' gathers_S650007x128_S416x128))
    (hin : ∀ x, (I x).toNat < S650007x128.size (Shape.Gathers.axis gathers_S650007x128_S416x128)) :
    Gathered m d (SparseCore.gatherPayload (F := F) gathers_S650007x128_S416x128 ((tabSl).view.read (Elt F) (Vpre m d tab'))
      (SparseCore.rows (F := F) I hn hin)) I := by
  intro j c h
  rw [gatherPayload_ix2, read_tabSl]

/-- What the gather into parity 0's gather buffer leaves, its list in parity 0's index buffer. -/
theorem gathered_of5 (I : S416.Idx → BitVec 32)
    (hn : S416.numel = S416x128.size (Shape.Gathers.axis' gathers_S650007x128_S416x128))
    (hin : ∀ x, ((s3W).view.read (Elt F) I x).toNat < S650007x128.size (Shape.Gathers.axis gathers_S650007x128_S416x128))
    (Gold : S416x128.Idx → Elt F .f32) :
    Gathered m d ((s5W).view.writes (Elt F) Gold [⟨Rect.whole _, SparseCore.gatherPayload gathers_S650007x128_S416x128
      ((tabSl).view.read (Elt F) (Vpre m d tab')) (SparseCore.rows ((s3W).view.read (Elt F) I) hn hin)⟩]) I := by
  rw [writes_whole_s5]
  exact gathered_payload m d I hn hin

/-- What the gather into parity 1's gather buffer leaves, its list in parity 1's index buffer. -/
theorem gathered_of6 (I : S416.Idx → BitVec 32)
    (hn : S416.numel = S416x128.size (Shape.Gathers.axis' gathers_S650007x128_S416x128))
    (hin : ∀ x, ((s4W).view.read (Elt F) I x).toNat < S650007x128.size (Shape.Gathers.axis gathers_S650007x128_S416x128))
    (Gold : S416x128.Idx → Elt F .f32) :
    Gathered m d ((s6W).view.writes (Elt F) Gold [⟨Rect.whole _, SparseCore.gatherPayload gathers_S650007x128_S416x128
      ((tabSl).view.read (Elt F) (Vpre m d tab')) (SparseCore.rows ((s4W).view.read (Elt F) I) hn hin)⟩]) I := by
  rw [writes_whole_s6]
  exact gathered_payload m d I hn hin

/-! ## What a write-out leaves -/

/-- The first 104 rows of a gather buffer read through the slice the write-outs take of it: row and word as they are. -/
theorem read_g5Sl (G : S416x128.Idx → Elt F .f32) (x : S104x128.Idx) :
    (g5Sl).view.read (Elt F) G x
      = G (ix2 (⟨(x 0).val, Nat.lt_trans (idx2_lt0 x) (by decide)⟩ : Fin 416) (⟨(x 1).val, idx2_lt1 x⟩ : Fin 128)) := by
  rw [View.read_apply]
  refine (cast_eq _ _).trans ?_
  congr 1
  funext a
  match a with
  | ⟨0, _⟩ => exact Fin.ext (by show 0 + 1 * (x 0).val = (x 0).val; omega)
  | ⟨1, _⟩ => exact Fin.ext (by show 0 + 1 * (x 1).val = (x 1).val; omega)
theorem read_g6Sl (G : S416x128.Idx → Elt F .f32) (x : S104x128.Idx) :
    (g6Sl).view.read (Elt F) G x
      = G (ix2 (⟨(x 0).val, Nat.lt_trans (idx2_lt0 x) (by decide)⟩ : Fin 416) (⟨(x 1).val, idx2_lt1 x⟩ : Fin 128)) := by
  rw [View.read_apply]
  refine (cast_eq _ _).trans ?_
  congr 1
  funext a
  match a with
  | ⟨0, _⟩ => exact Fin.ext (by show 0 + 1 * (x 0).val = (x 0).val; omega)
  | ⟨1, _⟩ => exact Fin.ext (by show 0 + 1 * (x 1).val = (x 1).val; omega)

/-- A whole write of 104 rows through a slice of the result taken at the first row of chunk `g`, the payload's row `r`
    being the chunk's row `r` of the result, leaves the result on the slice's elements. -/
theorem block_written_payload (g : Fin 160) {off : Fin 2 → ℕ} (h : ∀ a, off a + S104x128.size a ≤ S532480x128.size a)
    (he : off = ![(widL L).val * 16640 + 104 * g.val, 0]) (w : S104x128.Idx → Elt F .f32)
    (hw : ∀ x : S104x128.Idx, w x = outArr m d (ix2 (chunkRow (widL L) g ⟨(x 0).val, idx2_lt0 x⟩) (⟨(x 1).val, idx2_lt1 x⟩ : Fin 128)))
    (fold : S532480x128.Idx → Elt F .f32) :
    ∀ i ∈ ((outW).slice (Rect.unit (s := S532480x128) off S104x128.size h) (fun _ => rfl)).view.set,
      (((outW).slice (Rect.unit (s := S532480x128) off S104x128.size h) (fun _ => rfl)).view.writes (Elt F) fold
        [⟨Rect.whole _, w⟩]) i = outArr m d i := by
  subst he
  intro i hi
  obtain ⟨x, -, rfl⟩ := Finset.mem_map.mp hi
  refine (congrFun (View.write_univ_eq_writes_whole
    ((outW).slice (Rect.unit (s := S532480x128) ![(widL L).val * 16640 + 104 * g.val, 0] S104x128.size h) (fun _ => rfl)).view fold [] w).symm _).trans ?_
  refine (View.write_emb_of_mem _ w (Finset.mem_univ x)).trans ?_
  refine (cast_eq _ _).trans ?_
  rw [hw x]
  congr 1
  funext a
  match a with
  | ⟨0, _⟩ => exact Fin.ext (by
      show (widL L).val * 16640 + 104 * g.val + (x 0).val = (widL L).val * 16640 + 104 * g.val + 1 * (x 0).val; omega)
  | ⟨1, _⟩ => exact Fin.ext (by show (x 1).val = 0 + 1 * (x 1).val; omega)

/-- What the write-out of chunk `g` from parity 0's gather buffer leaves on the chunk's block, the buffer's first 104 rows
    being the chunk's rows of the result. -/
theorem block_written5 (g : Fin 160) {off : Fin 2 → ℕ} (h : ∀ a, off a + S104x128.size a ≤ S532480x128.size a)
    (he : off = ![(widL L).val * 16640 + 104 * g.val, 0]) (G : S416x128.Idx → Elt F .f32)
    (hG : ∀ (r : Fin 104) (c : Fin 128),
      G (ix2 (⟨r.val, Nat.lt_trans r.isLt (by decide)⟩ : Fin 416) c) = outArr m d (ix2 (chunkRow (widL L) g r) c)) :
    ∀ i ∈ ((outW).slice (Rect.unit (s := S532480x128) off S104x128.size h) (fun _ => rfl)).view.set,
      (((outW).slice (Rect.unit (s := S532480x128) off S104x128.size h) (fun _ => rfl)).view.writes (Elt F)
        ((outW).slice (Rect.unit (s := S532480x128) off S104x128.size h) (fun _ => rfl)).view.junk
        [⟨Rect.whole _, ReadAs.same.apply ((g5Sl).view.read (Elt F) G)⟩]) i = outArr m d i :=
  block_written_payload m d L g h he _ (fun x => (read_g5Sl G x).trans (hG ⟨(x 0).val, idx2_lt0 x⟩ ⟨(x 1).val, idx2_lt1 x⟩)) _

/-- The same from parity 1's gather buffer. -/
theorem block_written6 (g : Fin 160) {off : Fin 2 → ℕ} (h : ∀ a, off a + S104x128.size a ≤ S532480x128.size a)
    (he : off = ![(widL L).val * 16640 + 104 * g.val, 0]) (G : S416x128.Idx → Elt F .f32)
    (hG : ∀ (r : Fin 104) (c : Fin 128),
      G (ix2 (⟨r.val, Nat.lt_trans r.isLt (by decide)⟩ : Fin 416) c) = outArr m d (ix2 (chunkRow (widL L) g r) c)) :
    ∀ i ∈ ((outW).slice (Rect.unit (s := S532480x128) off S104x128.size h) (fun _ => rfl)).view.set,
      (((outW).slice (Rect.unit (s := S532480x128) off S104x128.size h) (fun _ => rfl)).view.writes (Elt F)
        ((outW).slice (Rect.unit (s := S532480x128) off S104x128.size h) (fun _ => rfl)).view.junk
        [⟨Rect.whole _, ReadAs.same.apply ((g6Sl).view.read (Elt F) G)⟩]) i = outArr m d i :=
  block_written_payload m d L g h he _ (fun x => (read_g6Sl G x).trans (hG ⟨(x 0).val, idx2_lt0 x⟩ ⟨(x 1).val, idx2_lt1 x⟩)) _

end Cert.Proof.KB

end
-- ==== Proof.KBBodyFlights.lean ====
/-
  The flights the executor leaves at an issue, read as the invariant states them: the slice through its closed offset,
  the delivered contents by name.
-/
import proofs.«204936_g5145370820905_cont_8to1_c_618_18_alg».proof.Proof.KBBodyInvLib
import proofs.«204936_g5145370820905_cont_8to1_c_618_18_alg».proof.Proof.KBBodyLibView

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
-- the kernel's memrefs, spelt as the body table passes them
local notation "idxW" => (Memref.whole Cert.Kernel.main_v2_scv : Memref Cert.Kernel.sig Kind.scVector Space.hbm Cert.Kernel.S2129920 EltTy.i32)
local notation "offW" => (Memref.whole Cert.Kernel.main_v8_scv : Memref Cert.Kernel.sig Kind.scVector Space.hbm Cert.Kernel.S416 EltTy.i32)
local notation "tabW" => (Memref.whole Cert.Kernel.main_v12_scv : Memref Cert.Kernel.sig Kind.scVector Space.hbm Cert.Kernel.S650007x128 EltTy.f32)
local notation "outW" => (Memref.whole Cert.Kernel.main_v13_scv : Memref Cert.Kernel.sig Kind.scVector Space.hbm Cert.Kernel.S532480x128 EltTy.f32)
local notation "s0W" => (Memref.whole Cert.Kernel.cc0_scratch0 : Memref Cert.Kernel.sig Kind.scVector Space.vmem Cert.Kernel.S416 EltTy.i32)
local notation "s1W" => (Memref.whole Cert.Kernel.cc0_scratch1 : Memref Cert.Kernel.sig Kind.scVector Space.vmem Cert.Kernel.S416 EltTy.i32)
local notation "s2W" => (Memref.whole Cert.Kernel.cc0_scratch2 : Memref Cert.Kernel.sig Kind.scVector Space.vmem Cert.Kernel.S416 EltTy.i32)
local notation "s3W" => (Memref.whole Cert.Kernel.cc0_scratch3 : Memref Cert.Kernel.sig Kind.scVector Space.vmem Cert.Kernel.S416 EltTy.i32)
local notation "s4W" => (Memref.whole Cert.Kernel.cc0_scratch4 : Memref Cert.Kernel.sig Kind.scVector Space.vmem Cert.Kernel.S416 EltTy.i32)
local notation "s5W" => (Memref.whole Cert.Kernel.cc0_scratch5 : Memref Cert.Kernel.sig Kind.scVector Space.vmem Cert.Kernel.S416x128 EltTy.f32)
local notation "s6W" => (Memref.whole Cert.Kernel.cc0_scratch6 : Memref Cert.Kernel.sig Kind.scVector Space.vmem Cert.Kernel.S416x128 EltTy.f32)

variable (m : (ℓ : Loc nD τ sig) → Buf (Elt F) ℓ)
variable (d : Dev nD) (L : grid0.Coords)
variable [FloatOps F]

/-- An index load into parity 0's buffer, as issued, is the invariant's. -/
theorem idxFlight0_intro (g : Fin 160) {off : Fin 1 → ℕ} (h : ∀ a, off a + S416.size a ≤ S2129920.size a) (he : off = idxOff L g)
    (X : S416.Idx → BitVec 32) (hX : X = chunkEnts m d L g) :
    (iprop(Transfers.Flight countersEmb (thrL d L) (SemLoc.dma cc0_scratch7.sem) (default : HIx 1) 13312
          iprop(((s3W).view.loc (thrL d L) ↦{fullShare} X) ∗ ((idxW).view.loc (thrL d L) ↦[((idxW).slice (Rect.unit (s := S2129920) off S416.size h) (fun _ => rfl)).view.set]{tokI L 0} Vpre m d idx'))
        ∗ ((idxW).view.loc (thrL d L) ↦[Finset.univ \ ((idxW).slice (Rect.unit (s := S2129920) off S416.size h) (fun _ => rfl)).view.set]{tokI L 0} Vpre m d idx')) : sProp 𝕄)
      ⊢ IdxFlight0 m d L g := by
  subst he hX
  exact BI.Entails.refl _
/-- The same for parity 1. -/
theorem idxFlight1_intro (g : Fin 160) {off : Fin 1 → ℕ} (h : ∀ a, off a + S416.size a ≤ S2129920.size a) (he : off = idxOff L g)
    (X : S416.Idx → BitVec 32) (hX : X = chunkEnts m d L g) :
    (iprop(Transfers.Flight countersEmb (thrL d L) (SemLoc.dma cc0_scratch8.sem) (default : HIx 1) 13312
          iprop(((s4W).view.loc (thrL d L) ↦{fullShare} X) ∗ ((idxW).view.loc (thrL d L) ↦[((idxW).slice (Rect.unit (s := S2129920) off S416.size h) (fun _ => rfl)).view.set]{tokI L 1} Vpre m d idx'))
        ∗ ((idxW).view.loc (thrL d L) ↦[Finset.univ \ ((idxW).slice (Rect.unit (s := S2129920) off S416.size h) (fun _ => rfl)).view.set]{tokI L 1} Vpre m d idx')) : sProp 𝕄)
      ⊢ IdxFlight1 m d L g := by
  subst he hX
  exact BI.Entails.refl _

/-- A write-out from parity 0's buffer, as issued, is the invariant's once its block is known to arrive written. -/
theorem writeFlight0_intro (g : Fin 160) {off : Fin 2 → ℕ} (h : ∀ a, off a + S104x128.size a ≤ S532480x128.size a)
    (hs : ((outW).slice (Rect.unit (s := S532480x128) off S104x128.size h) (fun _ => rfl)).view.set = outSet (chunkIx (widL L) g))
    (Wr : S532480x128.Idx → Elt F .f32) (G : S416x128.Idx → Elt F .f32) (hWr : ∀ i ∈ outSet (chunkIx (widL L) g), Wr i = outArr m d i) :
    (iprop(Transfers.Flight countersEmb (thrL d L) (SemLoc.dma cc0_scratch11.sem) (default : HIx 1) 425984
          iprop((((outW).slice (Rect.unit (s := S532480x128) off S104x128.size h) (fun _ => rfl)).view.loc (thrL d L) ↦[((outW).slice (Rect.unit (s := S532480x128) off S104x128.size h) (fun _ => rfl)).view.set]{fullShare} Wr) ∗ ((s5W).view.loc (thrL d L) ↦[(g5Sl).view.set]{fullShare} G))
        ∗ ((s5W).view.loc (thrL d L) ↦[Finset.univ \ (g5Sl).view.set]{fullShare} G)) : sProp 𝕄)
      ⊢ WriteFlight0 m d L g := by
  unfold WriteFlight0
  rw [hs]
  iintro ⟨Hf, Hr⟩
  iexists Wr, G
  isplitr; · ipureintro; exact hWr
  isplitl [Hf]; · iexact Hf
  iexact Hr
theorem writeFlight1_intro (g : Fin 160) {off : Fin 2 → ℕ} (h : ∀ a, off a + S104x128.size a ≤ S532480x128.size a)
    (hs : ((outW).slice (Rect.unit (s := S532480x128) off S104x128.size h) (fun _ => rfl)).view.set = outSet (chunkIx (widL L) g))
    (Wr : S532480x128.Idx → Elt F .f32) (G : S416x128.Idx → Elt F .f32) (hWr : ∀ i ∈ outSet (chunkIx (widL L) g), Wr i = outArr m d i) :
    (iprop(Transfers.Flight countersEmb (thrL d L) (SemLoc.dma cc0_scratch12.sem) (default : HIx 1) 425984
          iprop((((outW).slice (Rect.unit (s := S532480x128) off S104x128.size h) (fun _ => rfl)).view.loc (thrL d L) ↦[((outW).slice (Rect.unit (s := S532480x128) off S104x128.size h) (fun _ => rfl)).view.set]{fullShare} Wr) ∗ ((s6W).view.loc (thrL d L) ↦[(g6Sl).view.set]{fullShare} G))
        ∗ ((s6W).view.loc (thrL d L) ↦[Finset.univ \ (g6Sl).view.set]{fullShare} G)) : sProp 𝕄)
      ⊢ WriteFlight1 m d L g := by
  unfold WriteFlight1
  rw [hs]
  iintro ⟨Hf, Hr⟩
  iexists Wr, G
  isplitr; · ipureintro; exact hWr
  isplitl [Hf]; · iexact Hf
  iexact Hr

end Cert.Proof.KB

end
-- ==== Proof.KBBodyTripMid.lean ====
/-
  A middle trip of the main loop, trip k with 1 ≤ k ≤ 78: chunks 2k and 2k + 1 of the tile.

  Before the trip the index load of chunk 2k, the write-out of chunk 2k - 2 and the gather of chunk 2k - 1 are in flight.
  The even step waits for the write-out of chunk 2k - 2 (its block is now written: the blocks below 2k - 1 are), waits
  for chunk 2k's entries, does their offset step, starts their gather, waits for the gather of chunk 2k - 1, starts the
  index load of chunk 2k + 1 into the buffer that list has left, repacks chunk 2k - 1's groups and starts writing its
  block. The odd step waits for that write-out (block 2k - 1 is written), waits for chunk 2k + 1's entries, does their
  offset step, starts their gather, waits for the gather of chunk 2k, starts the index load of chunk 2k + 2, repacks
  chunk 2k's groups and starts writing its block. What is left is the state before trip k + 1.

  The values recorded: a block that has arrived holds the result's rows of its chunk (the chunk's value: entries, offset
  step, gathered groups and repack composed), and the new gather holds the table groups its list names.
-/
import proofs.«204936_g5145370820905_cont_8to1_c_618_18_alg».proof.Proof.KBBodyFlights
import proofs.«204936_g5145370820905_cont_8to1_c_618_18_alg».proof.Proof.KBInner
import proofs.«204936_g5145370820905_cont_8to1_c_618_18_alg».proof.Proof.KBOffset2
import proofs.«204936_g5145370820905_cont_8to1_c_618_18_alg».proof.Proof.KBOffset4

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
-- the kernel's memrefs, spelt as the body table passes them
local notation "idxW" => (Memref.whole Cert.Kernel.main_v2_scv : Memref Cert.Kernel.sig Kind.scVector Space.hbm Cert.Kernel.S2129920 EltTy.i32)
local notation "offW" => (Memref.whole Cert.Kernel.main_v8_scv : Memref Cert.Kernel.sig Kind.scVector Space.hbm Cert.Kernel.S416 EltTy.i32)
local notation "tabW" => (Memref.whole Cert.Kernel.main_v12_scv : Memref Cert.Kernel.sig Kind.scVector Space.hbm Cert.Kernel.S650007x128 EltTy.f32)
local notation "outW" => (Memref.whole Cert.Kernel.main_v13_scv : Memref Cert.Kernel.sig Kind.scVector Space.hbm Cert.Kernel.S532480x128 EltTy.f32)
local notation "s0W" => (Memref.whole Cert.Kernel.cc0_scratch0 : Memref Cert.Kernel.sig Kind.scVector Space.vmem Cert.Kernel.S416 EltTy.i32)
local notation "s1W" => (Memref.whole Cert.Kernel.cc0_scratch1 : Memref Cert.Kernel.sig Kind.scVector Space.vmem Cert.Kernel.S416 EltTy.i32)
local notation "s2W" => (Memref.whole Cert.Kernel.cc0_scratch2 : Memref Cert.Kernel.sig Kind.scVector Space.vmem Cert.Kernel.S416 EltTy.i32)
local notation "s3W" => (Memref.whole Cert.Kernel.cc0_scratch3 : Memref Cert.Kernel.sig Kind.scVector Space.vmem Cert.Kernel.S416 EltTy.i32)
local notation "s4W" => (Memref.whole Cert.Kernel.cc0_scratch4 : Memref Cert.Kernel.sig Kind.scVector Space.vmem Cert.Kernel.S416 EltTy.i32)
local notation "s5W" => (Memref.whole Cert.Kernel.cc0_scratch5 : Memref Cert.Kernel.sig Kind.scVector Space.vmem Cert.Kernel.S416x128 EltTy.f32)
local notation "s6W" => (Memref.whole Cert.Kernel.cc0_scratch6 : Memref Cert.Kernel.sig Kind.scVector Space.vmem Cert.Kernel.S416x128 EltTy.f32)

variable (m : (ℓ : Loc nD τ sig) → Buf (Elt F) ℓ)
variable (d : Dev nD) (L : grid0.Coords)
variable [FloatOps F]

private theorem blocks_done (b : Fin 160) (n : ℕ) (hb : b.val = n) :
    (iprop((outLoc d ↦[outSet (chunkIx (widL L) b)]{fullShare} outArr m d) ∗ OutBlocks m d L b n) : sProp 𝕄) ⊢ AllBlocks m d L (n + 1) := by
  rw [allBlocks_split m d L b (n + 1), if_pos (by omega), outBlocks_succ m d L b n hb]
private theorem blocks_take (b : Fin 160) (n : ℕ) (hb : b.val = n) :
    (AllBlocks m d L n : sProp 𝕄) ⊢ iprop((outLoc d ↦[outSet (chunkIx (widL L) b)]{fullShare} out0Arr m d) ∗ OutBlocks m d L b n) := by
  rw [allBlocks_split m d L b n, if_neg (by omega)]

theorem tripMid (hpre : PreOK m) (O : CellTallies nD τ sig (HIx 1)) (W : Waits sig (HIx 1)) (Of : S416.Idx → BitVec 32) (hOf : Of = offArr m d)
    (v2 v3 : BitVec 32) (k : Fin k0_t1_loop.trips) (hk1 : 1 ≤ k.val) (hk2 : k.val < 79) :
    InvK m d L O W Of k.val
      ⊢ wp frame (wpE (defs₀ (F := F)) 𝒱₀ (thrL d L) none) Set.univ (k0_t1_body L (Memref.whole main_v2_scv) (Memref.isWhole_whole _) (Memref.whole main_v8_scv) (Memref.isWhole_whole _) (Memref.whole main_v12_scv) (Memref.isWhole_whole _) (Memref.whole main_v13_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scoped0 v2 v3 k ⟨⟩)
          fun _ => InvK m d L O W Of (k.val + 1) := by
  have hk80 : k.val < 80 := by omega
  have k0_h1 : k0_cond1 k = 1#1 := (cond1_iff k).2 hk1
  have k0_h2 : k0_cond2 k = 1#1 := (cond2_iff k).2 hk1
  have k0_h3 : k0_cond3 k = 1#1 := (cond3_iff k).2 trivial
  have k0_h4 : k0_cond4 k = 1#1 := (cond4_iff k).2 hk1
  have k0_h5 : k0_cond5 k = 1#1 := (cond5_iff k).2 trivial
  have k0_h6 : k0_cond6 k = 1#1 := (cond6_iff k).2 (by omega)
  unfold InvK
  rw [if_pos hk80]
  unfold IdxFlight0 WriteFlight0 GatherFlight1 Owes k0_t1_body
  iintro ⟨Hmw, Hb0, ⟨%f1, Hb1⟩, ⟨Hf0, Hi0⟩, ⟨%Wr, %G5, %hWr, Hf4, Hb5r⟩, Hs9, Ht2, ⟨%G6, %I4, %S2, %hg6, Hf3, Ht3, Hb2⟩, Hs8, Hi1, Hs12, Hout, %W', %hW', HO⟩
  sl_exec
  -- block 2k - 2 has arrived: the blocks below 2k - 1 are written
  have hb0 : (gIx (2 * k.val - 2)).val = 2 * k.val - 2 := gIx_val (by omega)
  ihave Hblk := (Entails.of_eq (pointsTo_congr hWr)) $$ Hf4_dst
  ihave Hall := (blocks_done m d L (gIx (2 * k.val - 2)) (2 * k.val - 2) hb0) $$ [Hblk Hout]
  · isplitl [Hblk]; · iexact Hblk
    iexact Hout
  -- the offset step on chunk 2k
  iapply (wp_head (offset2 (F := F) d L cc0_scoped0 v2 v3 0#32 1#32 k (chunkEnts m d L (gIx (2 * k.val))) Of f1)) $$ [Hf0_dst Hb0 Hb1]
  · isplitl [Hf0_dst]; · iexact Hf0_dst
    isplitl [Hb0]; · iexact Hb0
    iexact Hb1
  iintro %_ ⟨%I3, %S1, %hoff3, Hb3, Hb0, Hb1⟩
  have hin3 : ∀ x, ((s3W).view.read (Elt F) I3 x).toNat < S650007x128.size (gathers_S650007x128_S416x128).axis :=
    fun x => chunk_hin_idx m hpre d (widL L) (gIx (2 * k.val)) _ Of I3 S1 (chunkEnts_eq m d L _) hOf hoff3 x
  sl_exec
  -- the repack of chunk 2k - 1 (gathered into parity 1's buffer)
  iapply (wp_head (repack3 (F := F) d L v2 v3 k k0_h2 _ G6 S2 (fun j => chunk_hSb _ Of I4 S2 hg6.1 j) rfl)) $$ [Hf3_dst Hb2]
  · isplitl [Hf3_dst]; · iexact Hf3_dst
    iexact Hb2
  iintro %_ ⟨%G6', %hrep6, Hb6, Hb2⟩
  -- block 2k - 1 out of the family, as the write-out slices it
  have hb1 : (gIx (2 * k.val - 1)).val = 2 * k.val - 2 + 1 := by rw [gIx_val (by omega)]; omega
  ihave Hsp := (blocks_take m d L (gIx (2 * k.val - 1)) (2 * k.val - 2 + 1) hb1) $$ Hall
  icases Hsp with ⟨Hblk1, Hout⟩
  have hset7 : ((outW).slice (Rect.unit (s := S532480x128) (k0_off7 L k) S104x128.size (k0_off7_inb L k k0_h2)) (fun _ => rfl)).view.set
      = outSet (chunkIx (widL L) (gIx (2 * k.val - 1))) := by
    rw [set_out_off7 L k k0_h2]; congr 2; exact Fin.ext (gIx_val (by omega)).symm
  have e7 : (outLoc d ↦[outSet (chunkIx (widL L) (gIx (2 * k.val - 1)))]{fullShare} out0Arr m d : sProp 𝕄)
      = (((outW).slice (Rect.unit (s := S532480x128) (k0_off7 L k) S104x128.size (k0_off7_inb L k k0_h2)) (fun _ => rfl)).view.loc (thrL d L)
          ↦[((outW).slice (Rect.unit (s := S532480x128) (k0_off7 L k) S104x128.size (k0_off7_inb L k k0_h2)) (fun _ => rfl)).view.set]{fullShare} out0Arr m d) := by
    rw [hset7]
  ihave Hblk1 := (Entails.of_eq e7) $$ Hblk1
  sl_exec
  -- block 2k - 1 has been written and has arrived
  ihave Hblk1 := (Entails.of_eq (pointsTo_congr (g := outArr m d) ?hv1)) $$ Hblk1
  case hv1 =>
    have he7 : k0_off7 L k = ![(widL L).val * 16640 + 104 * (gIx (2 * k.val - 1)).val, 0] := by
      rw [off7_eq L k hk1, gIx_val (by omega)]
    exact block_written6 m d L (gIx (2 * k.val - 1)) (k0_off7_inb L k k0_h2) he7 G6'
      (chunk_value m hpre d (widL L) (gIx (2 * k.val - 1)) (chunkEnts m d L (gIx (2 * k.val - 1))) Of I4 S2 G6 G6' (chunkEnts_eq m d L _) hOf hg6.1 hg6.2 hrep6)
  have e7' : (((outW).slice (Rect.unit (s := S532480x128) (k0_off7 L k) S104x128.size (k0_off7_inb L k k0_h2)) (fun _ => rfl)).view.loc (thrL d L)
          ↦[((outW).slice (Rect.unit (s := S532480x128) (k0_off7 L k) S104x128.size (k0_off7_inb L k k0_h2)) (fun _ => rfl)).view.set]{fullShare} outArr m d : sProp 𝕄)
      = (outLoc d ↦[outSet (chunkIx (widL L) (gIx (2 * k.val - 1)))]{fullShare} outArr m d) := by
    rw [hset7]
  ihave Hblk1 := (Entails.of_eq e7') $$ Hblk1
  ihave Hall := (blocks_done m d L (gIx (2 * k.val - 1)) (2 * k.val - 2 + 1) hb1) $$ [Hblk1 Hout]
  · isplitl [Hblk1]; · iexact Hblk1
    iexact Hout
  -- the offset step on chunk 2k + 1
  iapply (wp_head (offset4 (F := F) d L cc0_scoped0 v2 v3 0#32 1#32 k _ Of S2)) $$ [Hf3_dst_and Hb0 Hb2]
  · isplitl [Hf3_dst_and]; · iexact Hf3_dst_and
    isplitl [Hb0]; · iexact Hb0
    iexact Hb2
  iintro %_ ⟨%I4', %S2', %hoff4, Hb4, Hb0, Hb2⟩
  have hX4 : View.write (Elt F) (s4W).view I4 (tripMid.sl.dma0 m d L k k0_h2 k0_h3) Finset.univ = chunkEnts m d L (gIx (2 * k.val + 1)) :=
    idx_load_contents4 m d L (k0_off5_inb L k k0_h2 k0_h3) _ (off5_idxOff L k) I4
  rw [hX4] at hoff4
  have hin4 : ∀ x, ((s4W).view.read (Elt F) I4' x).toNat < S650007x128.size (gathers_S650007x128_S416x128).axis :=
    fun x => chunk_hin_idx m hpre d (widL L) (gIx (2 * k.val + 1)) _ Of I4' S2' (chunkEnts_eq m d L _) hOf hoff4 x
  sl_exec
  -- the repack of chunk 2k (gathered into parity 0's buffer)
  iapply (wp_head (repack5 (F := F) d L k k0_h5 _ _ S1 (fun j => chunk_hSb _ Of I3 S1 hoff3 j) rfl)) $$ [Hb5r Hb1]
  · isplitl [Hb5r]; · iexact Hb5r
    iexact Hb1
  iintro %_ ⟨%G5', %hrep5, Hb5, Hb1⟩
  -- block 2k out of the family, as the write-out slices it
  have hb2 : (gIx (2 * k.val)).val = 2 * k.val - 2 + 1 + 1 := by rw [gIx_val (by omega)]; omega
  ihave Hsp := (blocks_take m d L (gIx (2 * k.val)) (2 * k.val - 2 + 1 + 1) hb2) $$ Hall
  icases Hsp with ⟨Hblk2, Hout⟩
  have hset12 : ((outW).slice (Rect.unit (s := S532480x128) (k0_off12 L k) S104x128.size (k0_off12_inb L k k0_h5)) (fun _ => rfl)).view.set
      = outSet (chunkIx (widL L) (gIx (2 * k.val))) := by
    rw [set_out_off12 L k]; congr 2; exact Fin.ext (gIx_val (by omega)).symm
  have e12 : (outLoc d ↦[outSet (chunkIx (widL L) (gIx (2 * k.val)))]{fullShare} out0Arr m d : sProp 𝕄)
      = (((outW).slice (Rect.unit (s := S532480x128) (k0_off12 L k) S104x128.size (k0_off12_inb L k k0_h5)) (fun _ => rfl)).view.loc (thrL d L)
          ↦[((outW).slice (Rect.unit (s := S532480x128) (k0_off12 L k) S104x128.size (k0_off12_inb L k k0_h5)) (fun _ => rfl)).view.set]{fullShare} out0Arr m d) := by
    rw [hset12]
  ihave Hblk2 := (Entails.of_eq e12) $$ Hblk2
  sl_exec
  -- the state before trip k + 1
  have hk1' : k.val + 1 < 80 := by omega
  have hg2 : gIx (2 * (k.val + 1)) = gIx (2 * k.val + 2) := congrArg gIx (by omega)
  have hgm2 : gIx (2 * (k.val + 1) - 2) = gIx (2 * k.val) := congrArg gIx (by omega)
  have hgm1 : gIx (2 * (k.val + 1) - 1) = gIx (2 * k.val + 1) := congrArg gIx (by omega)
  have he10 : k0_off10 L k = idxOff L (gIx (2 * (k.val + 1))) := by rw [hg2]; exact off10_idxOff L k hk2
  have hX3' : View.write (Elt F) (s3W).view I3 (tripMid.sl.dma0_2 m d L k k0_h5 k0_h6) Finset.univ = chunkEnts m d L (gIx (2 * (k.val + 1))) :=
    idx_load_contents3 m d L (k0_off10_inb L k k0_h5 k0_h6) _ he10 I3
  ihave HF0 := (idxFlight0_intro m d L (gIx (2 * (k.val + 1))) (k0_off10_inb L k k0_h5 k0_h6) he10 _ hX3') $$ [Hf0 Hi0]
  · isplitl [Hf0]; · iexact Hf0
    iexact Hi0
  have hset12' : ((outW).slice (Rect.unit (s := S532480x128) (k0_off12 L k) S104x128.size (k0_off12_inb L k k0_h5)) (fun _ => rfl)).view.set
      = outSet (chunkIx (widL L) (gIx (2 * (k.val + 1) - 2))) := by rw [hset12, hgm2]
  ihave HW0 := (writeFlight0_intro m d L (gIx (2 * (k.val + 1) - 2)) (k0_off12_inb L k k0_h5) hset12'
      (((outW).slice (Rect.unit (s := S532480x128) (k0_off12 L k) S104x128.size (k0_off12_inb L k k0_h5)) (fun _ => rfl)).view.writes (Elt F) (Vpre m d out')
        [⟨Rect.whole _, ReadAs.same.apply ((g5Sl).view.read (Elt F) G5')⟩]) G5' ?hW5) $$ [Hf4 Hb5]
  case hW5 =>
    intro i hi
    rw [← hset12'] at hi
    have he12 : k0_off12 L k = ![(widL L).val * 16640 + 104 * (gIx (2 * k.val)).val, 0] := by
      rw [off12_eq, gIx_val (by omega)]
    have hG0 := gathered_of5 m d I3 (rfl : S416.numel = S416x128.size (Shape.Gathers.axis' gathers_S650007x128_S416x128)) hin3 (s5W).view.junk
    exact block_written_payload m d L (gIx (2 * k.val)) (k0_off12_inb L k k0_h5) he12 _
      (fun x => (read_g5Sl G5' x).trans
        (chunk_value m hpre d (widL L) (gIx (2 * k.val)) (chunkEnts m d L (gIx (2 * k.val))) Of I3 S1 _ G5' (chunkEnts_eq m d L _) hOf hoff3 hG0 hrep5
          ⟨(x 0).val, idx2_lt0 x⟩ ⟨(x 1).val, idx2_lt1 x⟩)) _ i hi
  · isplitl [Hf4]; · iexact Hf4
    iexact Hb5
  have eOB : (OutBlocks m d L (gIx (2 * k.val)) (2 * k.val - 2 + 1 + 1) : sProp 𝕄) = OutBlocks m d L (gIx (2 * (k.val + 1) - 2)) (2 * (k.val + 1) - 2) := by
    rw [hgm2, show 2 * (k.val + 1) - 2 = 2 * k.val - 2 + 1 + 1 by omega]
  ihave Hout := (Entails.of_eq eOB) $$ Hout
  sl_step
  rw [if_pos hk1']
  unfold IdxFlight0 WriteFlight0
  isplitl [Hmw]; · iexact Hmw
  isplitl [Hb0]; · iexact Hb0
  isplitl [Hb1]; · iexists _; iexact Hb1
  isplitl [HF0]; · iexact HF0
  isplitl [HW0]; · iexact HW0
  isplitl [Hs9]; · iexact Hs9
  isplitl [Ht2]; · iexact Ht2
  isplitl [Hf3 Ht3 Hb2]
  · iexists ((s6W).view.writes (Elt F) G6' [⟨Rect.whole _, tripMid.sl.gather0_1 m d L I4' hin4⟩]), I4', S2'
    isplitr
    · ipureintro
      refine ⟨by rw [hgm1]; exact hoff4, ?_⟩
      exact gathered_of6 m d I4' (rfl : S416.numel = S416x128.size (Shape.Gathers.axis' gathers_S650007x128_S416x128)) hin4 G6'
    isplitl [Hf3]; · iexact Hf3
    isplitl [Ht3]; · iexact Ht3
    iexact Hb2
  isplitl [Hs8]; · iexact Hs8
  isplitl [Hi1]; · iexact Hi1
  isplitl [Hs12]; · iexact Hs12
  isplitl [Hout]; · iexact Hout
  iexists _
  isplitr
  rotate_left
  · iexact HO
  · ipureintro
    intro p hp
    simp only [Finset.mem_insert] at hp
    rcases hp with rfl | rfl | rfl | rfl | rfl | rfl | hp
    · exact .inr rfl
    · exact .inr rfl
    · exact .inr rfl
    · exact .inr rfl
    · exact .inr rfl
    · exact .inr rfl
    · exact hW' p hp

end Cert.Proof.KB

end
-- ==== Proof.KBBodyTrip79.lean ====
/-
  Trip 79 of the main loop: chunks 158 and 159 of the tile, the last two.

  Before the trip the index load of chunk 158, the write-out of chunk 156 and the gather of chunk 157 are in flight. The
  even step waits for block 156 and for chunk 158's entries, does the offset step on them and starts the gather of chunk
  158; then it waits for chunk 157's groups, starts the index load of chunk 159, repacks chunk 157 in place and starts
  writing its block. The odd step does the same one chunk on, except that there is no chunk 160 to load: after the gather
  of chunk 158 has landed, parity 0's index buffer stays idle, its cell at zero and its read token whole. What is left is
  the state after the loop: the write-out of chunk 158 and the gather of chunk 159 in flight, blocks below 158 written.
-/
import proofs.«204936_g5145370820905_cont_8to1_c_618_18_alg».proof.Proof.KBBodyFlights
import proofs.«204936_g5145370820905_cont_8to1_c_618_18_alg».proof.Proof.KBInner
import proofs.«204936_g5145370820905_cont_8to1_c_618_18_alg».proof.Proof.KBOffset2
import proofs.«204936_g5145370820905_cont_8to1_c_618_18_alg».proof.Proof.KBOffset4

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
-- the kernel's memrefs, spelt as the body table passes them
local notation "idxW" => (Memref.whole Cert.Kernel.main_v2_scv : Memref Cert.Kernel.sig Kind.scVector Space.hbm Cert.Kernel.S2129920 EltTy.i32)
local notation "offW" => (Memref.whole Cert.Kernel.main_v8_scv : Memref Cert.Kernel.sig Kind.scVector Space.hbm Cert.Kernel.S416 EltTy.i32)
local notation "tabW" => (Memref.whole Cert.Kernel.main_v12_scv : Memref Cert.Kernel.sig Kind.scVector Space.hbm Cert.Kernel.S650007x128 EltTy.f32)
local notation "outW" => (Memref.whole Cert.Kernel.main_v13_scv : Memref Cert.Kernel.sig Kind.scVector Space.hbm Cert.Kernel.S532480x128 EltTy.f32)
local notation "s0W" => (Memref.whole Cert.Kernel.cc0_scratch0 : Memref Cert.Kernel.sig Kind.scVector Space.vmem Cert.Kernel.S416 EltTy.i32)
local notation "s1W" => (Memref.whole Cert.Kernel.cc0_scratch1 : Memref Cert.Kernel.sig Kind.scVector Space.vmem Cert.Kernel.S416 EltTy.i32)
local notation "s2W" => (Memref.whole Cert.Kernel.cc0_scratch2 : Memref Cert.Kernel.sig Kind.scVector Space.vmem Cert.Kernel.S416 EltTy.i32)
local notation "s3W" => (Memref.whole Cert.Kernel.cc0_scratch3 : Memref Cert.Kernel.sig Kind.scVector Space.vmem Cert.Kernel.S416 EltTy.i32)
local notation "s4W" => (Memref.whole Cert.Kernel.cc0_scratch4 : Memref Cert.Kernel.sig Kind.scVector Space.vmem Cert.Kernel.S416 EltTy.i32)
local notation "s5W" => (Memref.whole Cert.Kernel.cc0_scratch5 : Memref Cert.Kernel.sig Kind.scVector Space.vmem Cert.Kernel.S416x128 EltTy.f32)
local notation "s6W" => (Memref.whole Cert.Kernel.cc0_scratch6 : Memref Cert.Kernel.sig Kind.scVector Space.vmem Cert.Kernel.S416x128 EltTy.f32)

variable (m : (ℓ : Loc nD τ sig) → Buf (Elt F) ℓ)
variable (d : Dev nD) (L : grid0.Coords)
variable [FloatOps F]

/-- A block lands written: the family's threshold moves up by one; a block leaves the family untouched. -/
private theorem blocks_done (b : Fin 160) (n : ℕ) (hb : b.val = n) :
    (iprop((outLoc d ↦[outSet (chunkIx (widL L) b)]{fullShare} outArr m d) ∗ OutBlocks m d L b n) : sProp 𝕄) ⊢ AllBlocks m d L (n + 1) := by
  rw [allBlocks_split m d L b (n + 1), if_pos (by omega), outBlocks_succ m d L b n hb]
private theorem blocks_take (b : Fin 160) (n : ℕ) (hb : b.val = n) :
    (AllBlocks m d L n : sProp 𝕄) ⊢ iprop((outLoc d ↦[outSet (chunkIx (widL L) b)]{fullShare} out0Arr m d) ∗ OutBlocks m d L b n) := by
  rw [allBlocks_split m d L b n, if_neg (by omega)]

/-- Trip 79: no index load of a chunk 160 is issued. -/
theorem trip79 (hpre : PreOK m) (O : CellTallies nD τ sig (HIx 1)) (W : Waits sig (HIx 1)) (Of : S416.Idx → BitVec 32) (hOf : Of = offArr m d)
    (v2 v3 : BitVec 32) (k : Fin k0_t1_loop.trips) (hk : k.val = 79) :
    InvK m d L O W Of 79
      ⊢ wp frame (wpE (defs₀ (F := F)) 𝒱₀ (thrL d L) none) Set.univ (k0_t1_body L (Memref.whole main_v2_scv) (Memref.isWhole_whole _) (Memref.whole main_v8_scv) (Memref.isWhole_whole _) (Memref.whole main_v12_scv) (Memref.isWhole_whole _) (Memref.whole main_v13_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scoped0 v2 v3 k ⟨⟩)
          fun _ => InvK m d L O W Of 80 := by
  have hk80 : k.val < 80 := by omega
  have hk1 : 1 ≤ k.val := by omega
  have k0_h1 : k0_cond1 k = 1#1 := (cond1_iff k).2 hk1
  have k0_h2 : k0_cond2 k = 1#1 := (cond2_iff k).2 hk1
  have k0_h3 : k0_cond3 k = 1#1 := (cond3_iff k).2 trivial
  have k0_h4 : k0_cond4 k = 1#1 := (cond4_iff k).2 hk1
  have k0_h5 : k0_cond5 k = 1#1 := (cond5_iff k).2 trivial
  have k0_h6 : ¬ k0_cond6 k = 1#1 := by rw [cond6_iff]; omega
  -- the state before the trip, at the trip's own number
  rw [show InvK m d L O W Of 79 = InvK m d L O W Of k.val from by rw [hk]]
  unfold InvK
  rw [if_pos hk80, if_neg (by omega : ¬ (80 : ℕ) < 80)]
  unfold IdxFlight0 IdxIdle0 WriteFlight0 GatherFlight1 Owes k0_t1_body
  iintro ⟨Hmw, Hb0, ⟨%f1, Hb1⟩, ⟨Hf0, Hi0⟩, ⟨%Wr, %G5, %hWr, Hf4, Hb5r⟩, Hs9, Ht2, ⟨%G6, %I4, %S2, %hg6, Hf3, Ht3, Hb2⟩, Hs8, Hi1, Hs12, Hout, %W', %hW', HO⟩
  sl_exec
  -- block 2k - 2 has arrived: the blocks below 2k - 1 are written
  have hb0 : (gIx (2 * k.val - 2)).val = 2 * k.val - 2 := gIx_val (by omega)
  ihave Hblk := (Entails.of_eq (pointsTo_congr hWr)) $$ Hf4_dst
  ihave Hall := (blocks_done m d L (gIx (2 * k.val - 2)) (2 * k.val - 2) hb0) $$ [Hblk Hout]
  · isplitl [Hblk]; · iexact Hblk
    iexact Hout
  -- the offset step on chunk 2k
  iapply (wp_head (offset2 (F := F) d L cc0_scoped0 v2 v3 0#32 1#32 k (chunkEnts m d L (gIx (2 * k.val))) Of f1)) $$ [Hf0_dst Hb0 Hb1]
  · isplitl [Hf0_dst]; · iexact Hf0_dst
    isplitl [Hb0]; · iexact Hb0
    iexact Hb1
  iintro %_ ⟨%I3, %S1, %hoff3, Hb3, Hb0, Hb1⟩
  have hin3 : ∀ x, ((s3W).view.read (Elt F) I3 x).toNat < S650007x128.size (gathers_S650007x128_S416x128).axis :=
    fun x => chunk_hin_idx m hpre d (widL L) (gIx (2 * k.val)) _ Of I3 S1 (chunkEnts_eq m d L _) hOf hoff3 x
  sl_exec
  -- the repack of chunk 2k - 1 (gathered into parity 1's buffer)
  iapply (wp_head (repack3 (F := F) d L v2 v3 k k0_h2 trip79.sl.v62 G6 S2 (fun j => chunk_hSb _ Of I4 S2 hg6.1 j) rfl)) $$ [Hf3_dst Hb2]
  · isplitl [Hf3_dst]; · iexact Hf3_dst
    iexact Hb2
  iintro %_ ⟨%G6', %hrep6, Hb6, Hb2⟩
  -- block 2k - 1 out of the family, as the write-out slices it
  have hb1 : (gIx (2 * k.val - 1)).val = 2 * k.val - 2 + 1 := by rw [gIx_val (by omega)]; omega
  ihave Hsp := (blocks_take m d L (gIx (2 * k.val - 1)) (2 * k.val - 2 + 1) hb1) $$ Hall
  icases Hsp with ⟨Hblk1, Hout⟩
  have hset7 : ((outW).slice (Rect.unit (s := S532480x128) (k0_off7 L k) S104x128.size (k0_off7_inb L k k0_h2)) (fun _ => rfl)).view.set
      = outSet (chunkIx (widL L) (gIx (2 * k.val - 1))) := by
    rw [set_out_off7 L k k0_h2]; congr 2; exact Fin.ext (gIx_val (by omega)).symm
  have e7 : (outLoc d ↦[outSet (chunkIx (widL L) (gIx (2 * k.val - 1)))]{fullShare} out0Arr m d : sProp 𝕄)
      = (((outW).slice (Rect.unit (s := S532480x128) (k0_off7 L k) S104x128.size (k0_off7_inb L k k0_h2)) (fun _ => rfl)).view.loc (thrL d L)
          ↦[((outW).slice (Rect.unit (s := S532480x128) (k0_off7 L k) S104x128.size (k0_off7_inb L k k0_h2)) (fun _ => rfl)).view.set]{fullShare} out0Arr m d) := by
    rw [hset7]
  ihave Hblk1 := (Entails.of_eq e7) $$ Hblk1
  sl_exec
  -- block 2k - 1 has been written and has arrived
  ihave Hblk1 := (Entails.of_eq (pointsTo_congr (g := outArr m d) ?hv1)) $$ Hblk1
  case hv1 =>
    have he7 : k0_off7 L k = ![(widL L).val * 16640 + 104 * (gIx (2 * k.val - 1)).val, 0] := by
      rw [off7_eq L k hk1, gIx_val (by omega)]
    exact block_written6 m d L (gIx (2 * k.val - 1)) (k0_off7_inb L k k0_h2) he7 G6'
      (fun r c => chunk_value m hpre d (widL L) (gIx (2 * k.val - 1)) (chunkEnts m d L (gIx (2 * k.val - 1))) Of I4 S2 G6 G6'
        (chunkEnts_eq m d L _) hOf hg6.1 hg6.2 hrep6 r c)
  have e7' : (((outW).slice (Rect.unit (s := S532480x128) (k0_off7 L k) S104x128.size (k0_off7_inb L k k0_h2)) (fun _ => rfl)).view.loc (thrL d L)
          ↦[((outW).slice (Rect.unit (s := S532480x128) (k0_off7 L k) S104x128.size (k0_off7_inb L k k0_h2)) (fun _ => rfl)).view.set]{fullShare} outArr m d : sProp 𝕄)
      = (outLoc d ↦[outSet (chunkIx (widL L) (gIx (2 * k.val - 1)))]{fullShare} outArr m d) := by
    rw [hset7]
  ihave Hblk1 := (Entails.of_eq e7') $$ Hblk1
  ihave Hall := (blocks_done m d L (gIx (2 * k.val - 1)) (2 * k.val - 2 + 1) hb1) $$ [Hblk1 Hout]
  · isplitl [Hblk1]; · iexact Hblk1
    iexact Hout
  -- the offset step on chunk 2k + 1
  iapply (wp_head (offset4 (F := F) d L cc0_scoped0 v2 v3 0#32 1#32 k _ Of S2)) $$ [Hf3_dst_and Hb0 Hb2]
  · isplitl [Hf3_dst_and]; · iexact Hf3_dst_and
    isplitl [Hb0]; · iexact Hb0
    iexact Hb2
  iintro %_ ⟨%I4', %S2', %hoff4, Hb4, Hb0, Hb2⟩
  have hX4 : View.write (Elt F) (s4W).view I4 (trip79.sl.dma0 m d L k k0_h2 k0_h3) Finset.univ = chunkEnts m d L (gIx (2 * k.val + 1)) :=
    idx_load_contents4 m d L (k0_off5_inb L k k0_h2 k0_h3) _ (off5_idxOff L k) I4
  rw [hX4] at hoff4
  have hin4 : ∀ x, ((s4W).view.read (Elt F) I4' x).toNat < S650007x128.size (gathers_S650007x128_S416x128).axis :=
    fun x => chunk_hin_idx m hpre d (widL L) (gIx (2 * k.val + 1)) _ Of I4' S2' (chunkEnts_eq m d L _) hOf hoff4 x
  sl_exec
  -- the repack of chunk 2k (gathered into parity 0's buffer)
  iapply (wp_head (repack5 (F := F) d L k k0_h5 trip79.sl.v62_1 _ S1 (fun j => chunk_hSb _ Of I3 S1 hoff3 j) rfl)) $$ [Hb5r Hb1]
  · isplitl [Hb5r]; · iexact Hb5r
    iexact Hb1
  iintro %_ ⟨%G5', %hrep5, Hb5, Hb1⟩
  -- block 2k out of the family, as the write-out slices it
  have hb2 : (gIx (2 * k.val)).val = 2 * k.val - 2 + 1 + 1 := by rw [gIx_val (by omega)]; omega
  ihave Hsp := (blocks_take m d L (gIx (2 * k.val)) (2 * k.val - 2 + 1 + 1) hb2) $$ Hall
  icases Hsp with ⟨Hblk2, Hout⟩
  have hset12 : ((outW).slice (Rect.unit (s := S532480x128) (k0_off12 L k) S104x128.size (k0_off12_inb L k k0_h5)) (fun _ => rfl)).view.set
      = outSet (chunkIx (widL L) (gIx (2 * k.val))) := by
    rw [set_out_off12 L k]; congr 2; exact Fin.ext (gIx_val (by omega)).symm
  have e12 : (outLoc d ↦[outSet (chunkIx (widL L) (gIx (2 * k.val)))]{fullShare} out0Arr m d : sProp 𝕄)
      = (((outW).slice (Rect.unit (s := S532480x128) (k0_off12 L k) S104x128.size (k0_off12_inb L k k0_h5)) (fun _ => rfl)).view.loc (thrL d L)
          ↦[((outW).slice (Rect.unit (s := S532480x128) (k0_off12 L k) S104x128.size (k0_off12_inb L k k0_h5)) (fun _ => rfl)).view.set]{fullShare} out0Arr m d) := by
    rw [hset12]
  ihave Hblk2 := (Entails.of_eq e12) $$ Hblk2
  sl_exec
  -- the state after the last trip
  have hgm2 : gIx (2 * 80 - 2) = gIx (2 * k.val) := congrArg gIx (by omega)
  have hgm1 : gIx (2 * 80 - 1) = gIx (2 * k.val + 1) := congrArg gIx (by omega)
  have hset12' : ((outW).slice (Rect.unit (s := S532480x128) (k0_off12 L k) S104x128.size (k0_off12_inb L k k0_h5)) (fun _ => rfl)).view.set
      = outSet (chunkIx (widL L) (gIx (2 * 80 - 2))) := by rw [hset12, hgm2]
  have he12 : k0_off12 L k = ![(widL L).val * 16640 + 104 * (gIx (2 * k.val)).val, 0] := by
    rw [off12_eq L k, gIx_val (by omega)]
  have hG5 : ∀ (r : Fin 104) (c : Fin 128),
      G5' (ix2 (⟨r.val, Nat.lt_trans r.isLt (by decide)⟩ : Fin 416) c) = outArr m d (ix2 (chunkRow (widL L) (gIx (2 * k.val)) r) c) :=
    fun r c => chunk_value m hpre d (widL L) (gIx (2 * k.val)) (chunkEnts m d L (gIx (2 * k.val))) Of I3 S1 _ G5'
      (chunkEnts_eq m d L _) hOf hoff3 (gathered_of5 m d I3 (by decide) hin3 _) hrep5 r c
  ihave HW0 := (writeFlight0_intro m d L (gIx (2 * 80 - 2)) (k0_off12_inb L k k0_h5) hset12' _ G5' ?hW5) $$ [Hf4 Hb5]
  rotate_left
  · isplitl [Hf4]; · iexact Hf4
    iexact Hb5
  case hW5 =>
    rw [← hset12']
    exact block_written_payload m d L (gIx (2 * k.val)) (k0_off12_inb L k k0_h5) he12 _
      (fun x => (read_g5Sl G5' x).trans (hG5 ⟨(x 0).val, idx2_lt0 x⟩ ⟨(x 1).val, idx2_lt1 x⟩)) _
  have eOB : (OutBlocks m d L (gIx (2 * k.val)) (2 * k.val - 2 + 1 + 1) : sProp 𝕄) = OutBlocks m d L (gIx (2 * 80 - 2)) (2 * 80 - 2) := by
    rw [hgm2, show 2 * 80 - 2 = 2 * k.val - 2 + 1 + 1 by omega]
  ihave Hout := (Entails.of_eq eOB) $$ Hout
  sl_step
  unfold WriteFlight0
  isplitl [Hmw]; · iexact Hmw
  isplitl [Hb0]; · iexact Hb0
  isplitl [Hb1]; · iexists _; iexact Hb1
  -- parity 0's index side stays idle: there is no chunk 160 to load
  isplitl [Hb3 Hf0 Hi0]
  · isplitl [Hb3]; · iexists _; iexact Hb3
    isplitl [Hf0]; · iexact Hf0
    iexact Hi0
  isplitl [HW0]; · iexact HW0
  isplitl [Hs9]; · iexact Hs9
  isplitl [Ht2]; · iexact Ht2
  isplitl [Hf3 Ht3 Hb2]
  · iexists _, I4', S2'
    isplitr
    rotate_left
    · isplitl [Hf3]; · iexact Hf3
      isplitl [Ht3]; · iexact Ht3
      iexact Hb2
    ipureintro
    exact ⟨by rw [hgm1]; exact hoff4, gathered_of6 m d I4' (by decide) hin4 G6'⟩
  isplitl [Hs8]; · iexact Hs8
  isplitl [Hi1]; · iexact Hi1
  isplitl [Hs12]; · iexact Hs12
  isplitl [Hout]; · iexact Hout
  iexists _
  isplitr
  rotate_left
  · iexact HO
  · ipureintro
    intro p hp
    simp only [Finset.mem_insert] at hp
    rcases hp with rfl | rfl | rfl | rfl | rfl | rfl | hp
    · exact .inr rfl
    · exact .inr rfl
    · exact .inr rfl
    · exact .inr rfl
    · exact .inr rfl
    · exact .inr rfl
    · exact hW' p hp

end Cert.Proof.KB

end
-- ==== Proof.KBBodyParts.lean ====
/-
  One trip of the main loop from the invariant before it to the invariant after it: the first trip, the trips in the
  middle and the last trip, by cases on the trip number.
-/
import proofs.«204936_g5145370820905_cont_8to1_c_618_18_alg».proof.Proof.KBBodyTrip0
import proofs.«204936_g5145370820905_cont_8to1_c_618_18_alg».proof.Proof.KBBodyTripMid
import proofs.«204936_g5145370820905_cont_8to1_c_618_18_alg».proof.Proof.KBBodyTrip79

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
-- the kernel's memrefs, spelt as the body table passes them
local notation "idxW" => (Memref.whole Cert.Kernel.main_v2_scv : Memref Cert.Kernel.sig Kind.scVector Space.hbm Cert.Kernel.S2129920 EltTy.i32)
local notation "offW" => (Memref.whole Cert.Kernel.main_v8_scv : Memref Cert.Kernel.sig Kind.scVector Space.hbm Cert.Kernel.S416 EltTy.i32)
local notation "tabW" => (Memref.whole Cert.Kernel.main_v12_scv : Memref Cert.Kernel.sig Kind.scVector Space.hbm Cert.Kernel.S650007x128 EltTy.f32)
local notation "outW" => (Memref.whole Cert.Kernel.main_v13_scv : Memref Cert.Kernel.sig Kind.scVector Space.hbm Cert.Kernel.S532480x128 EltTy.f32)
local notation "s0W" => (Memref.whole Cert.Kernel.cc0_scratch0 : Memref Cert.Kernel.sig Kind.scVector Space.vmem Cert.Kernel.S416 EltTy.i32)
local notation "s1W" => (Memref.whole Cert.Kernel.cc0_scratch1 : Memref Cert.Kernel.sig Kind.scVector Space.vmem Cert.Kernel.S416 EltTy.i32)
local notation "s2W" => (Memref.whole Cert.Kernel.cc0_scratch2 : Memref Cert.Kernel.sig Kind.scVector Space.vmem Cert.Kernel.S416 EltTy.i32)
local notation "s3W" => (Memref.whole Cert.Kernel.cc0_scratch3 : Memref Cert.Kernel.sig Kind.scVector Space.vmem Cert.Kernel.S416 EltTy.i32)
local notation "s4W" => (Memref.whole Cert.Kernel.cc0_scratch4 : Memref Cert.Kernel.sig Kind.scVector Space.vmem Cert.Kernel.S416 EltTy.i32)
local notation "s5W" => (Memref.whole Cert.Kernel.cc0_scratch5 : Memref Cert.Kernel.sig Kind.scVector Space.vmem Cert.Kernel.S416x128 EltTy.f32)
local notation "s6W" => (Memref.whole Cert.Kernel.cc0_scratch6 : Memref Cert.Kernel.sig Kind.scVector Space.vmem Cert.Kernel.S416x128 EltTy.f32)

variable (m : (ℓ : Loc nD τ sig) → Buf (Elt F) ℓ)
variable (d : Dev nD) (L : grid0.Coords)
variable [FloatOps F]

/-- One trip of the main loop, whichever. -/
theorem trip (hpre : PreOK m) (O : CellTallies nD τ sig (HIx 1)) (W : Waits sig (HIx 1)) (Of : S416.Idx → BitVec 32) (hOf : Of = offArr m d)
    (v2 v3 : BitVec 32) (k : Fin k0_t1_loop.trips) (acc : PUnit) :
    inv m d L O W Of k.val acc
      ⊢ wp frame (wpE (defs₀ (F := F)) 𝒱₀ (thrL d L) none) Set.univ (k0_t1_body L (Memref.whole main_v2_scv) (Memref.isWhole_whole _) (Memref.whole main_v8_scv) (Memref.isWhole_whole _) (Memref.whole main_v12_scv) (Memref.isWhole_whole _) (Memref.whole main_v13_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scoped0 v2 v3 k acc)
          (inv m d L O W Of (k.val + 1)) := by
  have hk80 : k.val < 80 := k.isLt
  obtain rfl : acc = ⟨⟩ := rfl
  by_cases h0 : k.val = 0
  · rw [h0, inv_zero]
    refine (trip0 m d L hpre O W Of hOf v2 v3 k h0).trans (wp_mono frame _ _ fun _ => ?_)
    rw [inv_pos (hk := by omega)]
  · by_cases h79 : k.val = 79
    · rw [inv_pos (hk := by omega), h79]
      refine (trip79 m d L hpre O W Of hOf v2 v3 k h79).trans (wp_mono frame _ _ fun _ => ?_)
      rw [inv_pos (hk := by omega)]
    · rw [inv_pos (hk := by omega)]
      refine (tripMid m d L hpre O W Of hOf v2 v3 k (by omega) (by omega)).trans (wp_mono frame _ _ fun _ => ?_)
      rw [inv_pos (hk := by omega)]

end Cert.Proof.KB

end
-- ==== Proof.KBBodyLibEpi.lean ====
/-
  What the steps after the main loop need: a read share's tokens joined back, two blocks taken out of the family of
  result blocks and the family closed again once both are written, and the invariant read after the last trip.
-/
import proofs.«204936_g5145370820905_cont_8to1_c_618_18_alg».proof.Proof.KBBodyInvLib

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
-- the kernel's memrefs, spelt as the body table passes them
local notation "idxW" => (Memref.whole Cert.Kernel.main_v2_scv : Memref Cert.Kernel.sig Kind.scVector Space.hbm Cert.Kernel.S2129920 EltTy.i32)
local notation "offW" => (Memref.whole Cert.Kernel.main_v8_scv : Memref Cert.Kernel.sig Kind.scVector Space.hbm Cert.Kernel.S416 EltTy.i32)
local notation "tabW" => (Memref.whole Cert.Kernel.main_v12_scv : Memref Cert.Kernel.sig Kind.scVector Space.hbm Cert.Kernel.S650007x128 EltTy.f32)
local notation "outW" => (Memref.whole Cert.Kernel.main_v13_scv : Memref Cert.Kernel.sig Kind.scVector Space.hbm Cert.Kernel.S532480x128 EltTy.f32)
local notation "s0W" => (Memref.whole Cert.Kernel.cc0_scratch0 : Memref Cert.Kernel.sig Kind.scVector Space.vmem Cert.Kernel.S416 EltTy.i32)
local notation "s1W" => (Memref.whole Cert.Kernel.cc0_scratch1 : Memref Cert.Kernel.sig Kind.scVector Space.vmem Cert.Kernel.S416 EltTy.i32)
local notation "s2W" => (Memref.whole Cert.Kernel.cc0_scratch2 : Memref Cert.Kernel.sig Kind.scVector Space.vmem Cert.Kernel.S416 EltTy.i32)
local notation "s3W" => (Memref.whole Cert.Kernel.cc0_scratch3 : Memref Cert.Kernel.sig Kind.scVector Space.vmem Cert.Kernel.S416 EltTy.i32)
local notation "s4W" => (Memref.whole Cert.Kernel.cc0_scratch4 : Memref Cert.Kernel.sig Kind.scVector Space.vmem Cert.Kernel.S416 EltTy.i32)
local notation "s5W" => (Memref.whole Cert.Kernel.cc0_scratch5 : Memref Cert.Kernel.sig Kind.scVector Space.vmem Cert.Kernel.S416x128 EltTy.f32)
local notation "s6W" => (Memref.whole Cert.Kernel.cc0_scratch6 : Memref Cert.Kernel.sig Kind.scVector Space.vmem Cert.Kernel.S416x128 EltTy.f32)

variable (m : (ℓ : Loc nD τ sig) → Buf (Elt F) ℓ)
variable (d : Dev nD) (L : grid0.Coords)

/-! ## Read tokens joined back -/

/-- The remainder and the two tokens of a read share make the share again; the same for four. -/
theorem toks2_join {ℓ : Loc nD τ sig} (f : Buf (Elt F) ℓ) (q : PosShare TreeShare) :
    iprop((ℓ ↦{Transfers.shareDrop q 2} f) ∗ (ℓ ↦{Transfers.shareTok q 2 0} f) ∗ (ℓ ↦{Transfers.shareTok q 2 1} f)) ⊢ (ℓ ↦{q} f : sProp 𝕄) := by
  have h : iprop((ℓ ↦{Transfers.shareDrop q 2} f) ∗ bigSep Finset.univ (fun i : Fin 2 => ℓ ↦{Transfers.shareTok q 2 i} f)) ⊢ (ℓ ↦{q} f : sProp 𝕄) :=
    Transfers.pointsTo_toks_join q 2
  rw [show (Finset.univ : Finset (Fin 2)) = {0, 1} by decide, SparseCore.bigSep_insert' (by decide), bigSep_singleton] at h
  exact h
theorem toks4_join {ℓ : Loc nD τ sig} (f : Buf (Elt F) ℓ) (q : PosShare TreeShare) :
    iprop((ℓ ↦{Transfers.shareDrop q 4} f) ∗ (ℓ ↦{Transfers.shareTok q 4 0} f) ∗ (ℓ ↦{Transfers.shareTok q 4 1} f)
      ∗ (ℓ ↦{Transfers.shareTok q 4 2} f) ∗ (ℓ ↦{Transfers.shareTok q 4 3} f)) ⊢ (ℓ ↦{q} f : sProp 𝕄) := by
  have h : iprop((ℓ ↦{Transfers.shareDrop q 4} f) ∗ bigSep Finset.univ (fun i : Fin 4 => ℓ ↦{Transfers.shareTok q 4 i} f)) ⊢ (ℓ ↦{q} f : sProp 𝕄) :=
    Transfers.pointsTo_toks_join q 4
  rw [show (Finset.univ : Finset (Fin 4)) = {0, 1, 2, 3} by decide, SparseCore.bigSep_insert' (by decide), SparseCore.bigSep_insert' (by decide),
    SparseCore.bigSep_insert' (by decide), bigSep_singleton] at h
  exact h

variable [FloatOps F]

/-! ## The last two blocks -/

/-- The blocks other than b and c: those below n written, the others untouched. -/
def OutBlocks2 (b c : Fin 160) (n : ℕ) : sProp 𝕄 :=
  bigSep ((Finset.univ.erase b).erase c) fun g : Fin 160 =>
    outLoc d ↦[outSet (chunkIx (widL L) g)]{fullShare} (if g.val < n then outArr m d else out0Arr m d)

/-- A second block out of the family. -/
theorem outBlocks_split (b c : Fin 160) (hcb : c ≠ b) (n : ℕ) :
    (OutBlocks m d L b n : sProp 𝕄)
      = iprop((outLoc d ↦[outSet (chunkIx (widL L) c)]{fullShare} (if c.val < n then outArr m d else out0Arr m d)) ∗ OutBlocks2 m d L b c n) := by
  unfold OutBlocks OutBlocks2
  exact SparseCore.bigSep_erase' (Finset.mem_erase.mpr ⟨hcb, Finset.mem_univ c⟩)

/-- Both blocks written and every other block below the threshold: all 160 blocks are written. -/
theorem blocks_close2 (b c : Fin 160) (hcb : c ≠ b) (n : ℕ) (hall : ∀ g : Fin 160, g ≠ b → g ≠ c → g.val < n) :
    (iprop((outLoc d ↦[outSet (chunkIx (widL L) b)]{fullShare} outArr m d) ∗ (outLoc d ↦[outSet (chunkIx (widL L) c)]{fullShare} outArr m d)
        ∗ OutBlocks2 m d L b c n) : sProp 𝕄)
      ⊢ bigSep Finset.univ fun g : Fin 160 => outLoc d ↦[outSet (chunkIx (widL L) g)]{fullShare} outArr m d := by
  have e : (OutBlocks2 m d L b c n : sProp 𝕄)
      = bigSep ((Finset.univ.erase b).erase c) fun g : Fin 160 => outLoc d ↦[outSet (chunkIx (widL L) g)]{fullShare} outArr m d := by
    unfold OutBlocks2
    refine bigSep_congr fun g hg => ?_
    have h1 := Finset.mem_erase.mp hg
    have h2 := Finset.mem_erase.mp h1.2
    rw [if_pos (hall g h2.1 h1.1)]
  rw [e, SparseCore.bigSep_erase' (Finset.mem_univ b) (Φ := fun g : Fin 160 => outLoc d ↦[outSet (chunkIx (widL L) g)]{fullShare} outArr m d),
    SparseCore.bigSep_erase' (Finset.mem_erase.mpr ⟨hcb, Finset.mem_univ c⟩) (Φ := fun g : Fin 160 => outLoc d ↦[outSet (chunkIx (widL L) g)]{fullShare} outArr m d)]

/-! ## After the last trip -/

theorem gIx_158 : gIx 158 = (⟨158, by decide⟩ : Fin 160) := rfl
theorem gIx_159 : gIx 159 = (⟨159, by decide⟩ : Fin 160) := rfl

/-- The invariant after the 80 trips, spelt out: no index load in flight, the write-out of chunk 158 and the gather of
    chunk 159 in flight, block 158 out of the family. -/
theorem inv_after (O : CellTallies nD τ sig (HIx 1)) (W : Waits sig (HIx 1)) (Of : S416.Idx → BitVec 32) (n : ℕ) (hn : n = 80) (u : PUnit) :
    (inv m d L O W Of n u : sProp 𝕄)
      = iprop(Transfers.MayWaits (thrL d L) (none : HIx 1) O
          ∗ ((s0W).view.loc (thrL d L) ↦{fullShare} Of)
          ∗ (∃ f, (s1W).view.loc (thrL d L) ↦{fullShare} f)
          ∗ ((∃ f, (s3W).view.loc (thrL d L) ↦{fullShare} f) ∗ semVal (cellOf d L cc0_scratch7) 0 ∗ ((idxW).view.loc (thrL d L) ↦{tokI L 0} Vpre m d idx'))
          ∗ (∃ (Wr : S532480x128.Idx → Elt F .f32) (G : S416x128.Idx → Elt F .f32),
              ⌜∀ i ∈ outSet (chunkIx (widL L) (gIx 158)), Wr i = outArr m d i⌝
              ∗ Transfers.Flight countersEmb (thrL d L) (SemLoc.dma cc0_scratch11.sem) (default : HIx 1) 425984
                  iprop(((outW).view.loc (thrL d L) ↦[outSet (chunkIx (widL L) (gIx 158))]{fullShare} Wr) ∗ ((s5W).view.loc (thrL d L) ↦[(g5Sl).view.set]{fullShare} G))
              ∗ ((s5W).view.loc (thrL d L) ↦[Finset.univ \ (g5Sl).view.set]{fullShare} G))
          ∗ semVal (cellOf d L cc0_scratch9) 0 ∗ ((tabW).view.loc (thrL d L) ↦{tokT L 2} Vpre m d tab')
          ∗ (∃ (G : S416x128.Idx → Elt F .f32) (I Sb : S416.Idx → BitVec 32),
              ⌜Steps.OffsetDone (chunkEnts m d L (gIx 159)) Of I Sb ∧ Gathered m d G I⌝
              ∗ Transfers.Flight countersEmb (thrL d L) (SemLoc.dma cc0_scratch10.sem) (default : HIx 1) 1703936
                  iprop((((s6W).view.loc (thrL d L) ↦{fullShare} G) ∗ ((s4W).view.loc (thrL d L) ↦{fullShare} I))
                    ∗ ((tabW).view.loc (thrL d L) ↦[(tabSl).view.set]{tokT L 3} Vpre m d tab'))
              ∗ ((tabW).view.loc (thrL d L) ↦[Finset.univ \ (tabSl).view.set]{tokT L 3} Vpre m d tab')
              ∗ ((s2W).view.loc (thrL d L) ↦{fullShare} Sb))
          ∗ semVal (cellOf d L cc0_scratch8) 0 ∗ ((idxW).view.loc (thrL d L) ↦{tokI L 1} Vpre m d idx')
          ∗ semVal (cellOf d L cc0_scratch12) 0
          ∗ OutBlocks m d L (gIx 158) 158
          ∗ ∃ W', ⌜∀ p ∈ W', p ∈ W ∨ p.2 = none⌝ ∗ owes (thrL d L) O W') := by
  subst hn
  rw [inv_pos (hk := by omega)]
  unfold InvK
  rw [if_neg (by omega)]
  unfold IdxIdle0 WriteFlight0 GatherFlight1 Owes
  rfl

end Cert.Proof.KB

end
-- ==== Proof.KBBody.lean ====
/-
  The tile's body: one vector subcore's task, from its part of the call's operands to its 160 blocks of the result.

  The task copies the offsets in, starts the index loads of chunks 0 and 1, and runs 80 trips of two steps each. Step g, on
  the buffers of its parity: wait for the write-out of chunk g - 2 (if any), wait for the index load of chunk g, turn the
  entries into group numbers and quarters (the offset loop), start the gather of the 416 groups; then, for chunk g - 1 on the
  other parity: wait for its gather, start the index load of chunk g + 1 into the list that gather has returned, repack the
  selected quarters into 104 rows in place, start their write-out to the chunk's block of the result. Each semaphore carries
  one copy at a time and no buffer of a copy is touched between its issue and its wait. The loop's invariant says which
  copies are in flight before step 2 k and that the blocks below 2 k - 2 hold the call's result `outArr`; after the loop the
  last chunk is repacked and written out, the two outstanding write-outs are awaited, and everything the task was handed is
  handed back, the 160 blocks at `outArr`.
-/
import proofs.«204936_g5145370820905_cont_8to1_c_618_18_alg».proof.Proof.KBBodyInvLib
import proofs.«204936_g5145370820905_cont_8to1_c_618_18_alg».proof.Proof.KBBodyParts
import proofs.«204936_g5145370820905_cont_8to1_c_618_18_alg».proof.Proof.KBInner
import proofs.«204936_g5145370820905_cont_8to1_c_618_18_alg».proof.Proof.KBBodyLibEpi
import proofs.«204936_g5145370820905_cont_8to1_c_618_18_alg».proof.Proof.KBBodyLibView

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

-- the kernel's memrefs, spelt as the body table passes them
local notation "idxW" => (Memref.whole Cert.Kernel.main_v2_scv : Memref Cert.Kernel.sig Kind.scVector Space.hbm Cert.Kernel.S2129920 EltTy.i32)
local notation "offW" => (Memref.whole Cert.Kernel.main_v8_scv : Memref Cert.Kernel.sig Kind.scVector Space.hbm Cert.Kernel.S416 EltTy.i32)
local notation "tabW" => (Memref.whole Cert.Kernel.main_v12_scv : Memref Cert.Kernel.sig Kind.scVector Space.hbm Cert.Kernel.S650007x128 EltTy.f32)
local notation "outW" => (Memref.whole Cert.Kernel.main_v13_scv : Memref Cert.Kernel.sig Kind.scVector Space.hbm Cert.Kernel.S532480x128 EltTy.f32)
local notation "s0W" => (Memref.whole Cert.Kernel.cc0_scratch0 : Memref Cert.Kernel.sig Kind.scVector Space.vmem Cert.Kernel.S416 EltTy.i32)
local notation "s1W" => (Memref.whole Cert.Kernel.cc0_scratch1 : Memref Cert.Kernel.sig Kind.scVector Space.vmem Cert.Kernel.S416 EltTy.i32)
local notation "s2W" => (Memref.whole Cert.Kernel.cc0_scratch2 : Memref Cert.Kernel.sig Kind.scVector Space.vmem Cert.Kernel.S416 EltTy.i32)
local notation "s3W" => (Memref.whole Cert.Kernel.cc0_scratch3 : Memref Cert.Kernel.sig Kind.scVector Space.vmem Cert.Kernel.S416 EltTy.i32)
local notation "s4W" => (Memref.whole Cert.Kernel.cc0_scratch4 : Memref Cert.Kernel.sig Kind.scVector Space.vmem Cert.Kernel.S416 EltTy.i32)
local notation "s5W" => (Memref.whole Cert.Kernel.cc0_scratch5 : Memref Cert.Kernel.sig Kind.scVector Space.vmem Cert.Kernel.S416x128 EltTy.f32)
local notation "s6W" => (Memref.whole Cert.Kernel.cc0_scratch6 : Memref Cert.Kernel.sig Kind.scVector Space.vmem Cert.Kernel.S416x128 EltTy.f32)

variable (m : (ℓ : Loc nD τ sig) → Buf (Elt F) ℓ)
variable (d : Dev nD) (L : grid0.Coords)

theorem pts_idx (q : PosShare TreeShare) (f : Buf (Elt F) (idxLoc d)) :
    ((idxW).view.loc (thrL d L) ↦{q} f : sProp 𝕄) = idxLoc d ↦{q} f := by
  simp only [Memref.view_whole, View.set_whole]
theorem pts_off (q : PosShare TreeShare) (f : Buf (Elt F) (offLoc d)) :
    ((offW).view.loc (thrL d L) ↦{q} f : sProp 𝕄) = offLoc d ↦{q} f := by
  simp only [Memref.view_whole, View.set_whole]
theorem pts_tab (q : PosShare TreeShare) (f : Buf (Elt F) (tabLoc d)) :
    ((tabW).view.loc (thrL d L) ↦{q} f : sProp 𝕄) = tabLoc d ↦{q} f := by
  simp only [Memref.view_whole, View.set_whole]

/-- An array's read share as a remainder and two tokens, or four. -/
theorem toks2 {ℓ : Loc nD τ sig} (f : Buf (Elt F) ℓ) (q : PosShare TreeShare) :
    (ℓ ↦{q} f : sProp 𝕄) ⊢ iprop((ℓ ↦{Transfers.shareDrop q 2} f) ∗ (ℓ ↦{Transfers.shareTok q 2 0} f) ∗ (ℓ ↦{Transfers.shareTok q 2 1} f)) := by
  refine (Transfers.pointsTo_toks_split q 2).trans ?_
  rw [show (Finset.univ : Finset (Fin 2)) = {0, 1} by decide, SparseCore.bigSep_insert' (by decide), bigSep_singleton]
theorem toks4 {ℓ : Loc nD τ sig} (f : Buf (Elt F) ℓ) (q : PosShare TreeShare) :
    (ℓ ↦{q} f : sProp 𝕄) ⊢ iprop((ℓ ↦{Transfers.shareDrop q 4} f) ∗ (ℓ ↦{Transfers.shareTok q 4 0} f) ∗ (ℓ ↦{Transfers.shareTok q 4 1} f)
      ∗ (ℓ ↦{Transfers.shareTok q 4 2} f) ∗ (ℓ ↦{Transfers.shareTok q 4 3} f)) := by
  refine (Transfers.pointsTo_toks_split q 4).trans ?_
  rw [show (Finset.univ : Finset (Fin 4)) = {0, 1, 2, 3} by decide, SparseCore.bigSep_insert' (by decide), SparseCore.bigSep_insert' (by decide),
    SparseCore.bigSep_insert' (by decide), bigSep_singleton]

variable [FloatOps F]

theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ tileP m d (widL L) (out0Arr m d)
        ∗ scopedBufs (thrL d L) ∗ scopedSems0 (thrL d L) ∗ owes (thrL d L) O W)
      ⊢ wp frame (wpE (defs₀ (F := F)) 𝒱₀ (thrL d L) none) Set.univ
          (cc0__embed_body L (Memref.whole main_v2_scv) (Memref.isWhole_whole _) (Memref.whole main_v8_scv) (Memref.isWhole_whole _) (Memref.whole main_v12_scv) (Memref.isWhole_whole _) (Memref.whole main_v13_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scoped0)
          fun _ => iprop(tileP m d (widL L) (outArr m d) ∗ scopedBufs (thrL d L) ∗ scopedSems0 (thrL d L)
            ∗ ∃ W', ⌜∀ p ∈ W', p ∈ W ∨ p.2 = none⌝ ∗ owes (thrL d L) O W') := by
  simp only [cc0__embed_body_eq_skeleton]; unfold cc0__embed_body_skel
  simp only [k0_part26_eq_skeleton]; unfold k0_part26_skel
  rw [(K (F := F)).scopedBufs_V hF d (cV L) (jV L), SparseCore.Cfg.scopedSems0_V (Val := Elt F) d (cV L) (jV L), ownSems0_V, ownBufs_V]
  unfold tileP
  iintro ⟨#Hlv, -, ⟨Hidx, Hoff, Htab, Hout⟩, ⟨⟨%f0, Hb0⟩, ⟨%f1, Hb1⟩, ⟨%f2, Hb2⟩, ⟨%f3, Hb3⟩, ⟨%f4, Hb4⟩, ⟨%f5, Hb5⟩, ⟨%f6, Hb6⟩, Hbufs⟩,
    ⟨Hs7, Hs8, Hs9, Hs10, Hs11, Hs12, Hsc0, Hsems⟩, HO⟩
  ihave Hmw := ((K (F := F)).mayWaits_none (thr := thrL d L) hO) $$ Hlv
  -- a read token per semaphore the reads complete on: the index loads on cells 0 and 1, the gathers on cells 2 and 3
  ihave Hidx2 := (toks2 (F := F) _ _) $$ Hidx
  icases Hidx2 with ⟨HidxR, Hidx0, Hidx1⟩
  ihave Htab4 := (toks4 (F := F) _ _) $$ Htab
  icases Htab4 with ⟨HtabR, Htab0, Htab1, Htab2, Htab3⟩
  ihave Hidx0' := (Entails.of_eq (pts_idx (F := F) d L _ _).symm) $$ Hidx0
  ihave Hidx1' := (Entails.of_eq (pts_idx (F := F) d L _ _).symm) $$ Hidx1
  ihave Hoff' := (Entails.of_eq (pts_off (F := F) d L _ _).symm) $$ Hoff
  ihave Htab2' := (Entails.of_eq (pts_tab (F := F) d L _ _).symm) $$ Htab2
  ihave Htab3' := (Entails.of_eq (pts_tab (F := F) d L _ _).symm) $$ Htab3
  have hb0 : ((s0W).view.loc (thrL d L) ↦{fullShare} f0 : sProp 𝕄) = ((thrL d L).loc cc0_scratch0 ↦{fullShare} f0) := rfl
  ihave Hb0' := (Entails.of_eq hb0.symm) $$ Hb0
  have hb1 : ((s1W).view.loc (thrL d L) ↦{fullShare} f1 : sProp 𝕄) = ((thrL d L).loc cc0_scratch1 ↦{fullShare} f1) := rfl
  ihave Hb1' := (Entails.of_eq hb1.symm) $$ Hb1
  have hb2 : ((s2W).view.loc (thrL d L) ↦{fullShare} f2 : sProp 𝕄) = ((thrL d L).loc cc0_scratch2 ↦{fullShare} f2) := rfl
  ihave Hb2' := (Entails.of_eq hb2.symm) $$ Hb2
  have hb3 : ((s3W).view.loc (thrL d L) ↦{fullShare} f3 : sProp 𝕄) = ((thrL d L).loc cc0_scratch3 ↦{fullShare} f3) := rfl
  ihave Hb3' := (Entails.of_eq hb3.symm) $$ Hb3
  have hb4 : ((s4W).view.loc (thrL d L) ↦{fullShare} f4 : sProp 𝕄) = ((thrL d L).loc cc0_scratch4 ↦{fullShare} f4) := rfl
  ihave Hb4' := (Entails.of_eq hb4.symm) $$ Hb4
  have hb5 : ((s5W).view.loc (thrL d L) ↦{fullShare} f5 : sProp 𝕄) = ((thrL d L).loc cc0_scratch5 ↦{fullShare} f5) := rfl
  ihave Hb5' := (Entails.of_eq hb5.symm) $$ Hb5
  have hb6 : ((s6W).view.loc (thrL d L) ↦{fullShare} f6 : sProp 𝕄) = ((thrL d L).loc cc0_scratch6 ↦{fullShare} f6) := rfl
  ihave Hb6' := (Entails.of_eq hb6.symm) $$ Hb6
  sl_exec
  -- the main loop
  sl_rw [bind_assoc]
  sl_for (inv m d L O W (View.write (Elt F) (s0W).view f0 (tile_body.sl.dma0 m d) Finset.univ)) $$ [Hmw Hb0' Hb1' Hb2' Hb5' Hb6' Hs7 Hidx0' Hs8 Hidx1' Htab2' Htab3' Hs9 Hs10 Hs11 Hs12 Hout HO]
  case region =>
    intro k acc
    exact trip m d L hpre O W _ (by unfold tile_body.sl.dma0; exact View.write_whole_univ _ _ _) _ _ k acc
  · rw [inv_zero]
    unfold Inv0 IdxFlight0 IdxFlight1 Owes
    -- the two slices loaded before the loop are chunks 0 and 1 of the tile
    have he0 : k0_off1 L 0#32 = idxOff L (gIx 0) := by
      rw [off1_eq_0]; unfold idxOff; rw [gIx_val (by decide)]
    have he1 : k0_off1 L 416#32 = idxOff L (gIx 1) := by
      rw [off1_eq_1]; unfold idxOff; rw [gIx_val (by decide)]
    -- a slice at a chunk's offset reads the chunk's entries and covers the chunk's slice
    have hrd : ∀ (off : Fin 1 → ℕ) (h : ∀ a, off a + S416.size a ≤ S2129920.size a) (g : Fin 160), off = idxOff L g →
        View.read (Elt F) ((idxW).slice (Rect.unit (s := S2129920) off S416.size h) (fun _ => rfl)).view (Vpre m d idx') = chunkEnts m d L g
          ∧ ((idxW).slice (Rect.unit (s := S2129920) off S416.size h) (fun _ => rfl)).view.set = (idxSl L g).view.set := by
      intro off h g he; subst he; exact ⟨rfl, rfl⟩
    -- what the two loads deliver: the chunks' entries
    have hc0 : View.write (Elt F) (s3W).view f3 (tile_body.sl.dma0_1 m d L) Finset.univ = chunkEnts m d L (gIx 0) := by
      unfold tile_body.sl.dma0_1
      exact (View.write_whole_univ _ _ _).trans (hrd _ _ _ he0).1
    have hc1 : View.write (Elt F) (s4W).view f4 (tile_body.sl.dma0_2 m d L) Finset.univ = chunkEnts m d L (gIx 1) := by
      unfold tile_body.sl.dma0_2
      exact (View.write_whole_univ _ _ _).trans (hrd _ _ _ he1).1
    rw [hc0, hc1, (hrd _ _ _ he0).2, (hrd _ _ _ he1).2]
    isplitl []; · iexact Hmw
    isplitl [Hb0']; · iexact Hb0'
    isplitl [Hb1']; · iexists f1; iexact Hb1'
    isplitl [Hb2']; · iexists f2; iexact Hb2'
    isplitl [Hb5']; · iexists f5; iexact Hb5'
    isplitl [Hb6']; · iexists f6; iexact Hb6'
    isplitl [Hs7 Hidx0']
    · isplitl [Hs7]; · iexact Hs7
      iexact Hidx0'
    isplitl [Hs8 Hidx1']
    · isplitl [Hs8]; · iexact Hs8
      iexact Hidx1'
    isplitl [Htab2']; · iexact Htab2'
    isplitl [Htab3']; · iexact Htab3'
    isplitl [Hs9]; · iexact Hs9
    isplitl [Hs10]; · iexact Hs10
    isplitl [Hs11]; · iexact Hs11
    isplitl [Hs12]; · iexact Hs12
    isplitl [Hout]; · iexact Hout
    iexists insert ((SemLoc.dma cc0_scoped0.sem : SemLoc sig), (default : HIx 1)) W
    isplitr [HO]
    · ipureintro
      intro p hp
      rcases Finset.mem_insert.mp hp with rfl | hp
      · exact Or.inr rfl
      · exact Or.inl hp
    iexact HO
  iintro %acc HI
  -- after the 80 trips
  ihave HI := (Entails.of_eq (inv_after m d L O W _ _ (by decide) acc)) $$ HI
  icases HI with ⟨-, Hb0, ⟨%f1', Hb1⟩, ⟨⟨%f3', Hb3⟩, Hs7, Hi0⟩, ⟨%Wr, %G5, %hWr, Hf4, Hb5r⟩, Hs9, Ht2, ⟨%G6, %I4, %S2, %hg6, Hf3, Ht3, Hb2⟩, Hs8, Hi1, Hs12, Hout, %W', %hW', HO⟩
  sl_exec
  sl_rw [bind_assoc]
  have hOf : View.write (Elt F) (s0W).view f0 (tile_body.sl.dma0 m d) Finset.univ = offArr m d := by
    unfold tile_body.sl.dma0; exact View.write_whole_univ _ _ _
  -- the repack of chunk 159 (gathered into parity 1's buffer)
  iapply (wp_head (repack6 (F := F) d L _ G6 S2 (fun j => chunk_hSb _ _ I4 S2 hg6.1 j) rfl)) $$ [Hf3_dst Hb2]
  · isplitl [Hf3_dst]; · iexact Hf3_dst
    iexact Hb2
  iintro %_ ⟨%G6', %hrep6, Hb6, Hb2⟩
  -- block 159 out of the family, as the write-out slices it
  have hne : gIx 159 ≠ gIx 158 := by decide
  ihave Hsp := (Entails.of_eq (outBlocks_split m d L (gIx 158) (gIx 159) hne 158)) $$ Hout
  icases Hsp with ⟨Hblk, Hout⟩
  have hset159 : ((outW).slice (Rect.unit (s := S532480x128) (k0_off14 L 16536#32) S104x128.size (k0_off14_inb L 1)) (fun _ => rfl)).view.set
      = outSet (chunkIx (widL L) (gIx 159)) := set_out_off14_159 L _
  have e159 : (outLoc d ↦[outSet (chunkIx (widL L) (gIx 159))]{fullShare} (if (gIx 159).val < 158 then outArr m d else out0Arr m d) : sProp 𝕄)
      = (((outW).slice (Rect.unit (s := S532480x128) (k0_off14 L 16536#32) S104x128.size (k0_off14_inb L 1)) (fun _ => rfl)).view.loc (thrL d L)
          ↦[((outW).slice (Rect.unit (s := S532480x128) (k0_off14 L 16536#32) S104x128.size (k0_off14_inb L 1)) (fun _ => rfl)).view.set]{fullShare} out0Arr m d) := by
    rw [hset159, if_neg (by decide)]
  ihave Hblk := (Entails.of_eq e159) $$ Hblk
  sl_exec
  -- block 158 has arrived at the call's result
  ihave Hb158 := (Entails.of_eq (pointsTo_congr hWr)) $$ Hf4_dst
  -- block 159 has been written from the repacked buffer and has arrived: its rows are the call's result
  have hG6 : ∀ (r : Fin 104) (c : Fin 128),
      G6' (ix2 (⟨r.val, Nat.lt_trans r.isLt (by decide)⟩ : Fin 416) c) = outArr m d (ix2 (chunkRow (widL L) (gIx 159) r) c) :=
    chunk_value m hpre d (widL L) (gIx 159) _ _ I4 S2 G6 G6' (chunkEnts_eq m d L _) hOf hg6.1 hg6.2 hrep6
  ihave Hblk := (Entails.of_eq (pointsTo_congr (g := outArr m d) ?hv159)) $$ Hblk
  case hv159 =>
    exact block_written_payload m d L (gIx 159) _ (off14_eq_159 L) _
      (fun x => by
        unfold tile_body.sl.dma0_3
        exact (read_g6Sl G6' x).trans (hG6 ⟨(x 0).val, idx2_lt0 x⟩ ⟨(x 1).val, idx2_lt1 x⟩)) _
  have e159' : (((outW).slice (Rect.unit (s := S532480x128) (k0_off14 L 16536#32) S104x128.size (k0_off14_inb L 1)) (fun _ => rfl)).view.loc (thrL d L)
          ↦[((outW).slice (Rect.unit (s := S532480x128) (k0_off14 L 16536#32) S104x128.size (k0_off14_inb L 1)) (fun _ => rfl)).view.set]{fullShare} outArr m d : sProp 𝕄)
      = (outLoc d ↦[outSet (chunkIx (widL L) (gIx 159))]{fullShare} outArr m d) := by
    rw [hset159]
  ihave Hblk := (Entails.of_eq e159') $$ Hblk
  -- all 160 blocks are written
  ihave Hall := (blocks_close2 m d L (gIx 158) (gIx 159) hne 158 ?hall) $$ [Hb158 Hblk Hout]
  case hall =>
    intro g hb hc
    have h1 : g.val ≠ 158 := fun e => hb (Fin.ext (e.trans (gIx_val (by decide)).symm))
    have h2 : g.val ≠ 159 := fun e => hc (Fin.ext (e.trans (gIx_val (by decide)).symm))
    have := g.isLt
    omega
  · isplitl [Hb158]; · iexact Hb158
    isplitl [Hblk]; · iexact Hblk
    iexact Hout
  -- the read tokens joined back
  ihave Hi0 := (Entails.of_eq (pts_idx (F := F) d L _ _)) $$ Hi0
  ihave Hi1 := (Entails.of_eq (pts_idx (F := F) d L _ _)) $$ Hi1
  ihave Hidx := (toks2_join (F := F) _ _) $$ [HidxR Hi0 Hi1]
  · isplitl [HidxR]; · iexact HidxR
    isplitl [Hi0]; · iexact Hi0
    iexact Hi1
  ihave Ht2 := (Entails.of_eq (pts_tab (F := F) d L _ _)) $$ Ht2
  ihave Ht3 := (Entails.of_eq (pts_tab (F := F) d L _ _)) $$ Ht3
  ihave Htab := (toks4_join (F := F) _ _) $$ [HtabR Htab0 Htab1 Ht2 Ht3]
  · isplitl [HtabR]; · iexact HtabR
    isplitl [Htab0]; · iexact Htab0
    isplitl [Htab1]; · iexact Htab1
    isplitl [Ht2]; · iexact Ht2
    iexact Ht3
  ihave Hoff := (Entails.of_eq (pts_off (F := F) d L _ _)) $$ Hoff'
  -- the tile's part, its own buffers and semaphores, and what it owes
  sl_step
  isplitl [Hidx Hoff Htab Hall]
  · isplitl [Hidx]; · iexact Hidx
    isplitl [Hoff]; · iexact Hoff
    isplitl [Htab]; · iexact Htab
    iexact Hall
  isplitl [Hb0 Hb1 Hb2 Hb3 Hf3_dst_and Hb5r Hb6 Hbufs]
  · isplitl [Hb0]; · iexists _; iexact Hb0
    isplitl [Hb1]; · iexists _; iexact Hb1
    isplitl [Hb2]; · iexists _; iexact Hb2
    isplitl [Hb3]; · iexists _; iexact Hb3
    isplitl [Hf3_dst_and]; · iexists _; iexact Hf3_dst_and
    isplitl [Hb5r]; · iexists _; iexact Hb5r
    isplitl [Hb6]; · iexists _; iexact Hb6
    iexact Hbufs
  isplitl [Hs7 Hs8 Hs9 Hf3 Hf4 Hs12 Hsc0 Hsems]
  · isplitl [Hs7]; · iexact Hs7
    isplitl [Hs8]; · iexact Hs8
    isplitl [Hs9]; · iexact Hs9
    isplitl [Hf3]; · iexact Hf3
    isplitl [Hf4]; · iexact Hf4
    isplitl [Hs12]; · iexact Hs12
    isplitl [Hsc0]; · iexact Hsc0
    iexact Hsems
  iexists insert ((SemLoc.dma cc0_scratch12.sem : SemLoc sig), (default : HIx 1))
    (insert ((SemLoc.dma cc0_scratch11.sem : SemLoc sig), (default : HIx 1)) (insert ((SemLoc.dma cc0_scratch10.sem : SemLoc sig), (default : HIx 1)) W'))
  isplitr
  · ipureintro
    intro p hp
    simp only [Finset.mem_insert] at hp
    rcases hp with rfl | rfl | rfl | hp
    · exact .inr rfl
    · exact .inr rfl
    · exact .inr rfl
    · exact hW' p hp
  · iexact HO

end Cert.Proof.KB

end
-- ==== Proof.KBObl.lean ====
/-
  The tile obligation of the launch theorem from the tile's body: the label table's row for a vector subcore is the
  kernel's function at that subcore's coordinates.
-/
import proofs.«204936_g5145370820905_cont_8to1_c_618_18_alg».proof.Proof.KBBody

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

def coordsV (c : Fin (grid0.bound 0)) (s : Fin (grid0.bound 1)) : grid0.Coords :=
  fun | 0 => c | 1 => s | ⟨_ + 2, h⟩ => absurd h (Nat.not_lt.2 (Nat.le_add_left _ _))

variable [FloatOps F]

theorem defs₀_vector (c : Fin τ.nSC) (s : Fin τ.nSub) :
    defs₀ (F := F) (.scVector c s) 0 ()
      = SparseCore.onTile hcore0 hsub0 (fun c s => cc0__embed_body (coordsV c s)
          (Memref.whole main_v2_scv) (Memref.isWhole_whole _) (Memref.whole main_v8_scv) (Memref.isWhole_whole _) (Memref.whole main_v12_scv) (Memref.isWhole_whole _) (Memref.whole main_v13_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) facts hpre O W hO).trans (wp_mono frame _ _ fun _ => obl_post)

end Cert.Proof.KB

end
-- ==== Proof.KBLaunch1.lean ====
/-
  The call's four arrays among the 32 tiles, and back.

  The index list, the offsets and the grouped table, which every tile reads whole, go out as one read share a tile, the
  remainder of the full share staying with the TensorCore until the tiles' shares come back. The result array is cut
  along its first axis into 5120 blocks of 104 rows, tile w holding blocks 160 w … 160 w + 159. Tile numbers are read
  as pairs (SparseCore c, subcore i) through w = 2 i + c, block numbers as pairs (tile w, chunk g) through
  k = 160 w + g; both match pairs with numbers one to one.
-/
import proofs.«204936_g5145370820905_cont_8to1_c_618_18_alg».proof.Proof.KBCommon

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sub_split held_congr held_sdiff_result wp_hlo_within wp_seq seq after)

variable {F : FTy → Type}

local notation "𝕄" => MT nD τ sig (HIx 1) (Elt F) ℕ UU ℕ

/-! ## The blocks of the result -/

theorem outSet_eq (k : Fin 5120) : outSet k = (outPart k).set := by
  show ((View.whole (main_v13_scv : Ref sig .scVector)).slice (outPart k)).set = _
  rw [View.set_slice]; exact Finset.map_refl

theorem out_disjoint : ∀ i ∈ (Finset.univ : Finset (Fin 5120)), ∀ j ∈ (Finset.univ : Finset (Fin 5120)), i ≠ j → Disjoint (outSet i) (outSet j) :=
  fun i _ j _ h => by rw [outSet_eq, outSet_eq]; exact Rect.part_disjoint hdivO h
theorem out_cover : (Finset.univ : Finset (Fin 5120)).biUnion outSet = Finset.univ :=
  (Finset.biUnion_congr rfl fun i _ => outSet_eq i).trans (Rect.biUnion_part hdivO)

/-- The result array whole is its 5120 blocks. -/
theorem out_parts (d : Dev nD) (f : Buf (Elt F) (outLoc d)) :
    (outLoc d ↦{fullShare} f : sProp 𝕄) = bigSep Finset.univ fun k : Fin 5120 => outLoc d ↦[outSet k]{fullShare} f := by
  rw [← pointsTo_biUnion Finset.univ (ℓ := outLoc d) outSet out_disjoint, out_cover]; try rfl

/-! ## Tile numbers and block numbers as pairs -/

/-- (SparseCore, subcore) pairs and tile numbers, through w = 2 i + c. -/
def widE : Fin 2 × Fin 16 ≃ Fin 32 where
  toFun p := wid p.1 p.2
  invFun w := (⟨w.val % 2, Nat.mod_lt _ (by decide)⟩, ⟨w.val / 2, by have := w.isLt; omega⟩)
  left_inv p := by
    obtain ⟨c, i⟩ := p
    have hc := c.isLt; have hi := i.isLt
    refine Prod.ext (Fin.ext ?_) (Fin.ext ?_)
    · show (2 * i.val + c.val) % 2 = c.val; omega
    · show (2 * i.val + c.val) / 2 = i.val; omega
  right_inv w := by
    refine Fin.ext ?_
    show 2 * (w.val / 2) + w.val % 2 = w.val; omega

/-- (tile, chunk) pairs and block numbers, through k = 160 w + g. -/
def chunkE : Fin 32 × Fin 160 ≃ Fin 5120 where
  toFun p := chunkIx p.1 p.2
  invFun k := (⟨k.val / 160, by have := k.isLt; omega⟩, ⟨k.val % 160, Nat.mod_lt _ (by decide)⟩)
  left_inv p := by
    obtain ⟨w, g⟩ := p
    have hw := w.isLt; have hg := g.isLt
    refine Prod.ext (Fin.ext ?_) (Fin.ext ?_)
    · show (160 * w.val + g.val) / 160 = w.val; omega
    · show (160 * w.val + g.val) % 160 = g.val; omega
  right_inv k := by
    refine Fin.ext ?_
    show 160 * (k.val / 160) + k.val % 160 = k.val; omega

/-- A family over the 32 tiles, regrouped by SparseCore and subcore. -/
theorem bigSep_wid (Φ : Fin 32 → sProp 𝕄) :
    bigSep Finset.univ Φ = bigSep Finset.univ fun c : Fin 2 => bigSep Finset.univ fun i : Fin 16 => Φ (wid c i) := by
  rw [bigSep_univ_equiv widE Φ, bigSep_univ_prod]; rfl

/-- A family over the 5120 blocks, regrouped by tile and chunk. -/
theorem bigSep_chunk (Φ : Fin 5120 → sProp 𝕄) :
    bigSep Finset.univ Φ = bigSep Finset.univ fun w : Fin 32 => bigSep Finset.univ fun g : Fin 160 => Φ (chunkIx w g) := by
  rw [bigSep_univ_equiv chunkE Φ, bigSep_univ_prod]; rfl

/-! ## The four arrays out to the tiles and back -/

/-- The TensorCore's remainder of the three arrays every tile reads. -/
def tcKeep (m : (ℓ : Loc nD τ sig) → Buf (Elt F) ℓ) [FloatOps F] (d : Dev nD) : sProp 𝕄 :=
  iprop((idxLoc d ↦{Transfers.shareDrop fullShare 32} idxArr m d) ∗ (offLoc d ↦{Transfers.shareDrop fullShare 32} offArr m d)
    ∗ (tabLoc d ↦{Transfers.shareDrop fullShare 32} tabArr m d))

variable (m : (ℓ : Loc nD τ sig) → Buf (Elt F) ℓ) [FloatOps F]

/-- The index list, the offsets, the grouped table and the result array, each whole, are the TensorCore's remainder
    and the 32 tiles' parts. -/
theorem arrays_tiles (d : Dev nD) (fo : Buf (Elt F) (outLoc d)) :
    (iprop((idxLoc d ↦{fullShare} idxArr m d) ∗ (offLoc d ↦{fullShare} offArr m d) ∗ (tabLoc d ↦{fullShare} tabArr m d) ∗ (outLoc d ↦{fullShare} fo)) : sProp 𝕄)
      ⊣⊢ iprop(tcKeep m d ∗ bigSep Finset.univ fun c : Fin 2 => bigSep Finset.univ fun i : Fin 16 => tileP m d (wid c i) fo) := by
  rw [← bigSep_wid (F := F) (fun w => tileP m d w fo)]
  unfold tileP tcKeep
  rw [bigSep_sep', bigSep_sep', bigSep_sep', out_parts, bigSep_chunk (F := F) (fun k => outLoc d ↦[outSet k]{fullShare} fo)]
  constructor
  · iintro ⟨Hi, Ho, Ht, Hr⟩
    ihave Hi' := (Transfers.pointsTo_toks_split fullShare 32) $$ Hi
    ihave Ho' := (Transfers.pointsTo_toks_split fullShare 32) $$ Ho
    ihave Ht' := (Transfers.pointsTo_toks_split fullShare 32) $$ Ht
    icases Hi' with ⟨Hik, His⟩
    icases Ho' with ⟨Hok, Hos⟩
    icases Ht' with ⟨Htk, Hts⟩
    isplitl [Hik Hok Htk]
    · isplitl [Hik]; · iexact Hik
      isplitl [Hok]; · iexact Hok
      iexact Htk
    isplitl [His]; · iexact His
    isplitl [Hos]; · iexact Hos
    isplitl [Hts]; · iexact Hts
    iexact Hr
  · iintro ⟨⟨Hik, Hok, Htk⟩, His, Hos, Hts, Hr⟩
    isplitl [Hik His]
    · iapply (Transfers.pointsTo_toks_join fullShare 32)
      isplitl [Hik]; · iexact Hik
      iexact His
    isplitl [Hok Hos]
    · iapply (Transfers.pointsTo_toks_join fullShare 32)
      isplitl [Hok]; · iexact Hok
      iexact Hos
    isplitl [Htk Hts]
    · iapply (Transfers.pointsTo_toks_join fullShare 32)
      isplitl [Htk]; · iexact Htk
      iexact Hts
    iexact Hr

end Cert.Proof.KB

end
-- ==== Proof.KBLaunch2.lean ====
/-
  The TensorCore's side of the program: its nineteen arrays held whole, the operations before the call run as one
  straight line from the launch contents to the contents at the call, the call's four arrays taken out of the nineteen
  and put back with the result array at what the tiles left, and the one operation after the call, whose result is the
  call's result array read at the shape [4096, 20, 832]; the two arguments are written by no operation.
-/
import proofs.«204936_g5145370820905_cont_8to1_c_618_18_alg».proof.Proof.KBCommon

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sub_split held_congr held_sdiff_result wp_hlo_within wp_seq seq after)

variable {F : FTy → Type}

local notation "𝕄" => MT nD τ sig (HIx 1) (Elt F) ℕ UU ℕ

variable (m : (ℓ : Loc nD τ sig) → Buf (Elt F) ℓ)

/-! ## The TensorCore's arrays -/

/-- None of the TensorCore's references is scoped: all are @main's arrays. -/
theorem tc_unscoped : (Finset.univ.filter fun b : Ref sig .tc => ¬ b.isScoped) = Finset.univ := by decide

/-- The TensorCore's arrays; the call's four; the three the claim speaks of. -/
abbrev S19 : Finset (DevRef τ sig) := StableHlo.tcRefs τ sig
abbrev S4 : Finset (DevRef τ sig) := {idx', off', tab', out'}
abbrev S3 : Finset (DevRef τ sig) := {res', a0', a1'}

theorem S4_sub : S4 ⊆ S19 := by
  intro b hb; simp only [S4, Finset.mem_insert, Finset.mem_singleton] at hb
  rcases hb with rfl | rfl | rfl | rfl <;> exact StableHlo.devRef_mem_tcRefs _
theorem S3_sub : S3 ⊆ S19 := by
  intro b hb; simp only [S3, Finset.mem_insert, Finset.mem_singleton] at hb
  rcases hb with rfl | rfl | rfl <;> exact StableHlo.devRef_mem_tcRefs _

theorem unscoped_held (d : Dev nD) : (unscopedBufs d (fun b => m ((SparseCore.T d).loc b)) : sProp 𝕄) = held (T d) S19 (V0 m d) := by
  unfold unscopedBufs held
  rw [tc_unscoped]
  show _ = bigSep (Finset.univ.map ⟨Proc.devRef (sig := sig) (.tc : Proc τ), Proc.devRef_injective _⟩) _
  rw [bigSep_map]; rfl

theorem held_S4 (d : Dev nD) (W : Valuation τ sig (Elt F)) :
    (held (T d) S4 W : sProp 𝕄)
      = iprop((idxLoc d ↦{fullShare} W idx') ∗ (offLoc d ↦{fullShare} W off') ∗ (tabLoc d ↦{fullShare} W tab') ∗ (outLoc d ↦{fullShare} W out')) := by
  unfold held S4
  rw [SparseCore.bigSep_insert' (by decide), SparseCore.bigSep_insert' (by decide), SparseCore.bigSep_insert' (by decide), bigSep_singleton]

theorem held_S3 (d : Dev nD) (W : Valuation τ sig (Elt F)) :
    (held (T d) S3 W : sProp 𝕄) = iprop((resLoc d ↦{fullShare} W res') ∗ (a0Loc d ↦{fullShare} W a0') ∗ (a1Loc d ↦{fullShare} W a1')) := by
  unfold held S3
  rw [SparseCore.bigSep_insert' (by decide), SparseCore.bigSep_insert' (by decide), bigSep_singleton]

variable [FloatOps F]

/-! ## The operations as straight lines -/

theorem preOps_bufs : ∀ op ∈ preOps (F := F), op.bufs ⊆ S19 := by
  intro op h
  repeat (cases h with
    | head => first | exact StableHlo.reshape_bufs_sub .. | exact StableHlo.unary_bufs_sub .. | exact StableHlo.nullary_bufs_sub .. | exact StableHlo.binary_bufs_sub ..
    | tail _ h => ?_)
  exact nomatch h
theorem preOps_fresh : ∀ op ∈ preOps (F := F), op.fresh = ∅ := by
  intro op h
  repeat (cases h with | head => rfl | tail _ h => ?_)
  exact nomatch h
theorem postOp_bufs : ∀ op ∈ [postOp (F := F)], op.bufs ⊆ S19 := by
  intro op h
  cases h with
  | head => exact StableHlo.reshape_bufs_sub ..
  | tail _ h => exact nomatch h
theorem postOp_fresh : ∀ op ∈ [postOp (F := F)], op.fresh = ∅ := by
  intro op h
  cases h with
  | head => rfl
  | tail _ h => exact nomatch h

/-- @main is the operations before the call, the call, the operation after it. -/
theorem main_eq (d : Dev nD) :
    main (F := F) d = (seq (preOps (F := F)) >>= fun _ => (K (F := F)).run d 0 >>= fun _ => seq [postOp (F := F)] >>= fun u => pure u) := by
  rfl

/-! ## The contents after the call -/

/-- The arrays' contents when the call has returned: the result array at what the tiles left, the rest as at the call. -/
def Vpost (d : Dev nD) : Valuation τ sig (Elt F) := Function.update (Vpre m d) out' (outArr m d)

theorem Vpost_idx (d : Dev nD) : Vpost m d idx' = idxArr m d := Function.update_of_ne (show idx' ≠ out' by decide) _ _
theorem Vpost_off (d : Dev nD) : Vpost m d off' = offArr m d := Function.update_of_ne (show off' ≠ out' by decide) _ _
theorem Vpost_tab (d : Dev nD) : Vpost m d tab' = tabArr m d := Function.update_of_ne (show tab' ≠ out' by decide) _ _
theorem Vpost_out (d : Dev nD) : Vpost m d out' = outArr m d := Function.update_self _ _ _

/-- At the call: the four arrays out of the nineteen. -/
theorem held_pre (d : Dev nD) :
    (held (T d) S19 (after (preOps (F := F)) (V0 m d)) : sProp 𝕄)
      = iprop(((idxLoc d ↦{fullShare} idxArr m d) ∗ (offLoc d ↦{fullShare} offArr m d) ∗ (tabLoc d ↦{fullShare} tabArr m d) ∗ (outLoc d ↦{fullShare} out0Arr m d))
          ∗ held (T d) (S19 \ S4) (Vpre m d)) := by
  show (held (T d) S19 (Vpre m d) : sProp 𝕄) = _
  rw [held_sub_split (T d) S4_sub, held_S4]

/-- The other fifteen arrays are as at the call. -/
theorem held_rest (d : Dev nD) : (held (T d) (S19 \ S4) (Vpost m d) : sProp 𝕄) = held (T d) (S19 \ S4) (Vpre m d) :=
  held_congr (T d) fun b hb => Function.update_of_ne (fun e => (Finset.mem_sdiff.mp hb).2 (by subst e; decide)) _ _

/-- After the call: the four arrays back among the nineteen, the result array at what the tiles left. -/
theorem held_post (d : Dev nD) :
    (iprop(((idxLoc d ↦{fullShare} idxArr m d) ∗ (offLoc d ↦{fullShare} offArr m d) ∗ (tabLoc d ↦{fullShare} tabArr m d) ∗ (outLoc d ↦{fullShare} outArr m d))
          ∗ held (T d) (S19 \ S4) (Vpre m d)) : sProp 𝕄)
      = held (T d) S19 (Vpost m d) := by
  rw [held_sub_split (T d) S4_sub (Vpost m d), held_S4, Vpost_idx, Vpost_off, Vpost_tab, Vpost_out, held_rest]

/-! ## The contents at the end -/

theorem Vfin_res (d : Dev nD) : after [postOp (F := F)] (Vpost m d) res' = resArr m d := by
  simp only [StableHlo.after_cons, StableHlo.after_nil]
  rw [StableHlo.reshape_result, Vpost_out]
  rfl

theorem Vpre_a0 (d : Dev nD) : Vpre m d a0' = m (a0Loc d) := by
  unfold Vpre
  after_results
  rfl
theorem Vpre_a1 (d : Dev nD) : Vpre m d a1' = m (a1Loc d) := by
  unfold Vpre
  after_results
  rfl

theorem Vfin_a0 (d : Dev nD) : after [postOp (F := F)] (Vpost m d) a0' = m (a0Loc d) := by
  simp only [StableHlo.after_cons, StableHlo.after_nil]
  rw [StableHlo.reshape_result_ne (h := show main_arg0 ≠ main_v14 by decide)]
  exact (Function.update_of_ne (show a0' ≠ out' by decide) _ _).trans (Vpre_a0 m d)
theorem Vfin_a1 (d : Dev nD) : after [postOp (F := F)] (Vpost m d) a1' = m (a1Loc d) := by
  simp only [StableHlo.after_cons, StableHlo.after_nil]
  rw [StableHlo.reshape_result_ne (h := show main_arg1 ≠ main_v14 by decide)]
  exact (Function.update_of_ne (show a1' ≠ out' by decide) _ _).trans (Vpre_a1 m d)

/-- What @main leaves the claim: the result at the call's result array read at its shape, the arguments as launched. -/
abbrev FIN (d : Dev nD) : sProp 𝕄 :=
  iprop((resLoc d ↦{fullShare} resArr m d) ∗ (a0Loc d ↦{fullShare} m (a0Loc d)) ∗ (a1Loc d ↦{fullShare} m (a1Loc d)))

theorem held_fin (d : Dev nD) : (held (T d) S19 (after [postOp (F := F)] (Vpost m d)) : sProp 𝕄) ⊢ FIN m d := by
  rw [held_sub_split (T d) S3_sub, held_S3, Vfin_res, Vfin_a0, Vfin_a1]
  exact sep_elim_left

end Cert.Proof.KB

end
-- ==== Proof.KBLaunch.lean ====
/-
  The launch: from one tile's body (taken as given) to the run of the whole program, its result named.

  A SparseCore's part of the call is its sixteen tiles' parts, so the sequencer's split is a regrouping; the ghost state
  is the handshakes' rounds beside the transfers' counters, of which the launch keeps only the rounds. @main on the
  TensorCore runs the operations before the call as one line, deals the call's four arrays to the 32 tiles, makes the
  call, takes them back with the result array at what the tiles left, and runs the one operation after it; the final
  memory is read off the three arrays the claim speaks of.
-/
import proofs.«204936_g5145370820905_cont_8to1_c_618_18_alg».proof.Proof.KBCommon
import proofs.«204936_g5145370820905_cont_8to1_c_618_18_alg».proof.Proof.KBLaunch1
import proofs.«204936_g5145370820905_cont_8to1_c_618_18_alg».proof.Proof.KBLaunch2

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sub_split held_congr held_sdiff_result wp_hlo_within wp_seq seq after)

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## A SparseCore's part among its sixteen tiles -/

/-- What the call's handshakes carry, as equations. -/
theorem P_st (d : Dev nD) (c : Fin ((K (F := F)).nCore 0)) :
    (P m).st 0 d c = bigSep Finset.univ fun i : Fin 16 => tileP m d (wid (Fin.cast nCore_zero c) i) (out0Arr m d) := by
  unfold P; dsimp only
theorem P_dn (d : Dev nD) (c : Fin ((K (F := F)).nCore 0)) :
    (P m).dn 0 d c = bigSep Finset.univ fun i : Fin 16 => tileP m d (wid (Fin.cast nCore_zero c) i) (outArr m d) := by
  unfold P; dsimp only
theorem P_go (d : Dev nD) (c : Fin ((K (F := F)).nCore 0)) (i : Fin ((K (F := F)).nSub 0)) :
    (P m).go 0 d c i = tileP m d (wid (Fin.cast nCore_zero c) (Fin.cast nSub_zero i)) (out0Arr m d) := by
  unfold P; rfl
theorem P_td (d : Dev nD) (c : Fin ((K (F := F)).nCore 0)) (i : Fin ((K (F := F)).nSub 0)) :
    (P m).td 0 d c i = tileP m d (wid (Fin.cast nCore_zero c) (Fin.cast nSub_zero i)) (outArr m d) := by
  unfold P; rfl

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's part IS its sixteen tiles' parts: the sequencer hands them out and takes them back as they are. -/
theorem vecSplit : (K (F := F)).VecSplit' (P m) 0 := by
  unfold SparseCore.Cfg.VecSplit'
  intro d c
  rw [P_st, P_dn]
  simp only [P_go, P_td]
  rw [bigSep_tasks (F := F) (fun i => tileP m d (wid (Fin.cast nCore_zero c) i) (out0Arr m d)),
    bigSep_tasks (F := F) (fun i => tileP m d (wid (Fin.cast nCore_zero c) i) (outArr m d))]
  iintro H; imodintro
  isplitl [H]; · iexact H
  iintro H; iexact H

/-! ## The launch element: the handshakes' rounds; the counters dropped -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- What the call takes for the two SparseCores, and what it hands back: the 32 tiles' parts. -/
theorem st0_eq (d : Dev nD) :
    (bigSep Finset.univ fun c : Fin ((K (F := F)).nCore 0) => (P m).st 0 d c)
      = bigSep Finset.univ fun c : Fin 2 => bigSep Finset.univ fun i : Fin 16 => tileP m d (wid c i) (out0Arr m d) := by
  simp only [P_st]
  exact bigSep_cores (F := F) (fun c => bigSep Finset.univ fun i : Fin 16 => tileP m d (wid c i) (out0Arr m d))
theorem dn0_eq (d : Dev nD) :
    (bigSep Finset.univ fun c : Fin ((K (F := F)).nCore 0) => (P m).dn 0 d c)
      = bigSep Finset.univ fun c : Fin 2 => bigSep Finset.univ fun i : Fin 16 => tileP m d (wid c i) (outArr m d) := by
  simp only [P_dn]
  exact bigSep_cores (F := F) (fun c => bigSep Finset.univ fun i : Fin 16 => tileP m d (wid c i) (outArr m d))

set_option backward.isDefEq.respectTransparency.types false in
/-- @main on device `d`'s TensorCore: the operations before the call, the call over the 32 tiles' parts of its four
    arrays, the operation after it; the result and the two arguments kept. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, main_eq]
  iintro ⟨#Hctx, Hst, ⟨Hb, Hheld, -, -⟩, -⟩
  -- the operations before the call
  iapply (wp_seq 𝒱 none Set.univ d S19 _ (preOps (F := F)) preOps_bufs preOps_fresh (V0 m d)) $$ [Hb Hheld]
  · isplitl [Hb]; · iexact Hb
    iexact Hheld
  iintro ⟨Hb, Hheld⟩
  ihave Hh := (Entails.of_eq (held_pre m d)) $$ Hheld
  icases Hh with ⟨H4, Hrest⟩
  ihave Ht := (arrays_tiles m d (out0Arr m d)).1 $$ H4
  icases Ht with ⟨Hkeep, Htiles⟩
  -- the call
  rw [wp_bind]
  iapply ((K (F := F)).wp_run (D (F := F)) 𝒱 (EH := EH) (P := P m) κ d 0) $$ [Hst Htiles Hb Hkeep Hrest]
  isplitr; · iexact Hctx
  isplitl [Hst]; · iexact Hst
  isplitl [Htiles]
  · rw [st0_eq]; iexact Htiles
  iintro ⟨Hst, Hdn⟩
  ihave Htiles := (Entails.of_eq (dn0_eq m d)) $$ Hdn
  ihave H4 := (arrays_tiles m d (outArr m d)).2 $$ [Hkeep Htiles]
  · isplitl [Hkeep]; · iexact Hkeep
    iexact Htiles
  ihave Hheld := (Entails.of_eq (held_post m d)) $$ [H4 Hrest]
  · isplitl [H4]; · iexact H4
    iexact Hrest
  -- the operation after the call
  iapply (wp_seq 𝒱 none Set.univ d S19 _ [postOp (F := F)] postOp_bufs postOp_fresh (Vpost m d)) $$ [Hb Hheld]
  · isplitl [Hb]; · iexact Hb
    iexact Hheld
  iintro ⟨-, Hheld⟩
  rw [wp_pure]; imodintro
  isplitl [Hst]; · iexact Hst
  iapply (held_fin m d); iexact Hheld

/-! ## The final memory -/

def fq (d : Dev nD) (s' : Phys nD τ sig (Elt F)) : Prop :=
  s'.mem.mem (resLoc d) = resArr m d ∧ s'.mem.mem (a0Loc d) = m (a0Loc d) ∧ s'.mem.mem (a1Loc d) = m (a1Loc d)

theorem hfin (d : Dev nD) (s' : Phys nD τ sig (Elt F)) : iprop(FIN m d ∗ SI s') ⊢ (⌜fq m d s'⌝ : sProp 𝕄) := by
  iintro ⟨⟨Hr, H0, H1⟩, HSI⟩
  ihave H := (persistent_entails_right (SI_pointsTo_agree (st := s') (ℓ := resLoc d) (I := Finset.univ) (q := fullShare) (f := resArr m d))) $$ [HSI Hr]
  · isplitl [HSI] <;> iassumption
  icases H with ⟨%h1, HSI, -⟩
  ihave H := (persistent_entails_right (SI_pointsTo_agree (st := s') (ℓ := a0Loc d) (I := Finset.univ) (q := fullShare) (f := m (a0Loc d)))) $$ [HSI H0]
  · isplitl [HSI] <;> iassumption
  icases H with ⟨%h2, HSI, -⟩
  ihave H := (SI_pointsTo_agree (st := s') (ℓ := a1Loc d) (I := Finset.univ) (q := fullShare) (f := m (a1Loc d))) $$ [HSI H1]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

def QC : PUnit × MemSt nD τ sig (Elt F) → Prop :=
  fun r => ∀ c : Dev nD, r.2.mem (resLoc c) = resArr m c ∧ r.2.mem (a0Loc c) = m (a0Loc c) ∧ r.2.mem (a1Loc c) = m (a1Loc c)

/-- From one tile's body: every weakly fair execution of the device's threads terminates, the result at the call's
    result array read at the shape [4096, 20, 832], the two arguments unchanged. -/
theorem run_main [∀ e, Nonempty (Elt F e)] (m : (ℓ : Loc nD τ sig) → Buf (Elt F) ℓ) (ρ : Dev nD → PrngReg)
    (htile : (K (F := F)).TileObl (D (F := F)) 𝒱 (P m) v₀ 0) :
    θ_run (Cert.Kernel.defs (F := F)) (Cert.Kernel.threads (F := F)) ⟨m, fun _ => 0, ρ⟩
      (fun r => ∀ c : Dev nD, r.2.mem (resLoc c) = resArr m c ∧ r.2.mem (a0Loc c) = m (a0Loc c) ∧ r.2.mem (a1Loc c) = m (a1Loc c)) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KB

end
-- ==== Proof.RefLib.lean ====
/-
  Typed reads of a valuation through host operations, and the fold of a concatenated line.

  A host operation built over typed references writes one buffer: read back at that reference it is the operation's
  function of the operands' typed reads; read at any other reference it is what was there. A line run after another
  is the fold of the second over the fold of the first.
-/
import proofs.«204936_g5145370820905_cont_8to1_c_618_18_alg».proof.Proof.Gen.ReferenceIdeal
import Idealize.ShloMosaic.Lib.StableHlo.Run

noncomputable section

namespace Cert.Proof.Ref

open Idealize.ShloMosaic Idealize.ShloMosaic.StableHlo Idealize.SL.Sem

variable {τ : Topo} {sig : RefSig} {Val : EltTy → Type}

/-- The fold of a concatenation is the fold of the second line over the fold of the first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A buffer none of the line's operations writes keeps its contents, for a concatenation. -/
theorem forall_not_mem_append {b : DevRef τ sig} {l₁ l₂ : List (HloOp τ sig Val)}
    (h₁ : ∀ op ∈ l₁, b ∉ op.writes) (h₂ : ∀ op ∈ l₂, b ∉ op.writes) : ∀ op ∈ l₁ ++ l₂, b ∉ op.writes := by
  intro op hop
  rcases List.mem_append.mp hop with h | h
  · exact h₁ op h
  · exact h₂ op h

variable {T Tx Ta Tb Tc Ty : BufTy}

/-- The contents a valuation holds at a typed reference, at the reference's carried type. -/
def rd (V : Valuation τ sig Val) (x : TRef sig T) : T.Contents Val := x.ofBuf (V (Proc.devRef .tc x.ref))

theorem rd_of_eq {V W : Valuation τ sig Val} (x : TRef sig T)
    (h : W (Proc.devRef .tc x.ref) = V (Proc.devRef .tc x.ref)) : rd W x = rd V x := by
  unfold rd; rw [h]

theorem rd_nullary (y : TRef sig Ty) (v : Ty.Contents Val) (V : Valuation τ sig Val) :
    rd ((TRef.nullary (τ := τ) y v).result V) y = v := by
  obtain ⟨r, rfl, h1, h2⟩ := y
  exact nullary_result r v _ V

theorem rd_unary (x : TRef sig Tx) (y : TRef sig Ty) (f : Tx.Contents Val → Ty.Contents Val) (V : Valuation τ sig Val) :
    rd ((TRef.unary (τ := τ) x y f).result V) y = f (rd V x) := by
  obtain ⟨r, rfl, h1, h2⟩ := y
  obtain ⟨xr, rfl, g1, g2⟩ := x
  exact unary_result xr r _ _ _ V

theorem rd_binary (a : TRef sig Ta) (b : TRef sig Tb) (y : TRef sig Ty)
    (f : Ta.Contents Val → Tb.Contents Val → Ty.Contents Val) (V : Valuation τ sig Val) :
    rd ((TRef.binary (τ := τ) a b y f).result V) y = f (rd V a) (rd V b) := by
  obtain ⟨r, rfl, h1, h2⟩ := y
  obtain ⟨ar, rfl, g1, g2⟩ := a
  obtain ⟨br, rfl, k1, k2⟩ := b
  exact binary_result ar br r _ _ _ _ V

theorem rd_ternary (c : TRef sig Tc) (a : TRef sig Ta) (b : TRef sig Tb) (y : TRef sig Ty)
    (f : Tc.Contents Val → Ta.Contents Val → Tb.Contents Val → Ty.Contents Val) (V : Valuation τ sig Val) :
    rd ((TRef.ternary (τ := τ) c a b y f).result V) y = f (rd V c) (rd V a) (rd V b) := by
  obtain ⟨r, rfl, h1, h2⟩ := y
  obtain ⟨cr, rfl, l1, l2⟩ := c
  obtain ⟨ar, rfl, g1, g2⟩ := a
  obtain ⟨br, rfl, k1, k2⟩ := b
  exact ternary_result cr ar br r _ _ _ _ _ V

theorem rd_reshape (x : TRef sig Tx) (y : TRef sig Ty) (he : Tx.elt = Ty.elt) (hn : Tx.shape.ShapeCasts Ty.shape)
    (V : Valuation τ sig Val) :
    rd ((TRef.reshape (τ := τ) (Val := Val) x y he hn).result V) y = fun i => he ▸ shapeCast Ty.shape (rd V x) hn i := by
  obtain ⟨r, rfl, h1, h2⟩ := y
  obtain ⟨xr, rfl, g1, g2⟩ := x
  exact reshape_result xr r _ _ _ _ V

/-- Read at a reference the operation does not write: what was there. -/
theorem rd_result_ne (op : HloOp τ sig Val) (V : Valuation τ sig Val) (z : TRef sig T)
    (h : Proc.devRef .tc z.ref ∉ op.writes) : rd (op.result V) z = rd V z :=
  rd_of_eq z (op.result_of_not_mem V h)

theorem rd_nullary_ne (y : TRef sig Ty) (v : Ty.Contents Val) (V : Valuation τ sig Val) (z : TRef sig T)
    (h : z.ref ≠ y.ref) : rd ((TRef.nullary (τ := τ) y v).result V) z = rd V z :=
  rd_of_eq z (nullary_result_ne _ _ _ V h)

theorem rd_unary_ne (x : TRef sig Tx) (y : TRef sig Ty) (f : Tx.Contents Val → Ty.Contents Val) (V : Valuation τ sig Val)
    (z : TRef sig T) (h : z.ref ≠ y.ref) : rd ((TRef.unary (τ := τ) x y f).result V) z = rd V z :=
  rd_of_eq z (unary_result_ne _ _ _ _ _ V h)

theorem rd_binary_ne (a : TRef sig Ta) (b : TRef sig Tb) (y : TRef sig Ty)
    (f : Ta.Contents Val → Tb.Contents Val → Ty.Contents Val) (V : Valuation τ sig Val)
    (z : TRef sig T) (h : z.ref ≠ y.ref) : rd ((TRef.binary (τ := τ) a b y f).result V) z = rd V z :=
  rd_of_eq z (binary_result_ne _ _ _ _ _ _ _ V h)

theorem rd_ternary_ne (c : TRef sig Tc) (a : TRef sig Ta) (b : TRef sig Tb) (y : TRef sig Ty)
    (f : Tc.Contents Val → Ta.Contents Val → Tb.Contents Val → Ty.Contents Val) (V : Valuation τ sig Val)
    (z : TRef sig T) (h : z.ref ≠ y.ref) : rd ((TRef.ternary (τ := τ) c a b y f).result V) z = rd V z :=
  rd_of_eq z (ternary_result_ne _ _ _ _ _ _ _ _ _ V h)

theorem rd_reshape_ne (x : TRef sig Tx) (y : TRef sig Ty) (he : Tx.elt = Ty.elt) (hn : Tx.shape.ShapeCasts Ty.shape)
    (V : Valuation τ sig Val) (z : TRef sig T) (h : z.ref ≠ y.ref) :
    rd ((TRef.reshape (τ := τ) (Val := Val) x y he hn).result V) z = rd V z :=
  rd_of_eq z (reshape_result_ne _ _ _ _ _ _ V h)

end Cert.Proof.Ref

end
-- ==== Proof.RefTake.lean ====
/-
  One call of the row lookup, as a line of host operations, and what it computes.

  The lookup of rows `idx` of a table `x`: a negative row number is first moved up by the table's height; the rows are
  then gathered (each start clamped into the table), and a position whose row number is outside the table is filled
  with the not-a-number constant. Stated once over the typed references of any call.
-/
import proofs.«204936_g5145370820905_cont_8to1_c_618_18_alg».proof.Proof.RefLib

noncomputable section

namespace Cert.Proof.Ref

open Idealize.ShloMosaic Idealize.ShloMosaic.StableHlo Idealize.SL.Sem
open Cert.ReferenceIdeal Cert.ReferenceIdeal.Facts₀ Cert.ReferenceIdeal.Facts

variable {F : FTy → Type} [FloatOps F] [Cert.ReferenceIdeal.Facts]

/-- The operations of one call of the lookup, over the call's argument references and its own buffers. -/
def takeOps (arg0 : TRef sig ⟨S100001x32, .f32⟩) (arg1 : TRef sig ⟨S4096x20, .i32⟩) (φ : fn_take.Bufs) :
    List (HloOp τ sig (Elt F)) :=
  [ TRef.nullary φ.c (constantI S_ 32 0#32),
    TRef.unary φ.c φ.v0 (broadcastInDim S4096x20 ![] bcast_S_S4096x20),
    TRef.binary arg1 φ.v0 φ.v1 (cmpi .slt),
    TRef.nullary φ.c_0 (constantI S_ 32 100001#32),
    TRef.unary φ.c_0 φ.v2 (broadcastInDim S4096x20 ![] bcast_S_S4096x20),
    TRef.binary arg1 φ.v2 φ.v3 addi,
    TRef.ternary φ.v1 φ.v3 arg1 φ.call0.v0 select,
    TRef.unary φ.call0.v0 φ.v5 (broadcastInDim S4096x20x1 ![0, 1] bcast_S4096x20_S4096x20x1_0_1),
    TRef.nullary φ.c_1 (constantI S1 32 100000#32),
    TRef.nullary φ.c_2 (constantI S_ 32 0#32),
    TRef.unary φ.c_2 φ.v6 (broadcastInDim S4096x20x1 ![] bcast_S_S4096x20x1),
    TRef.binary φ.v5 φ.v6 φ.v7 (cmpi .sge),
    TRef.unary φ.c_1 φ.v8 (broadcastInDim S1x1x1 ![2] bcast_S1_S1x1x1_2),
    TRef.unary φ.v8 φ.v9 (broadcastInDim S4096x20x1 ![0, 1, 2] bcast_S1x1x1_S4096x20x1_0_1_2),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S4096x20x1_S4096x20_d2 h_S_),
    TRef.binary arg0 φ.v5 φ.v13 (fun x i => Host.gather gather_S100001x32_S4096x20x1_S4096x20x32_2_0_n_n_0_2_132 x i),
    TRef.unary φ.v12 φ.v14 (broadcastInDim S4096x20x32 ![0, 1] bcast_S4096x20_S4096x20x32_0_1),
    TRef.nullary φ.cst (constant S_ .f32 0x7FC00000#32),
    TRef.unary φ.cst φ.v15 (broadcastInDim S4096x20x32 ![] bcast_S_S4096x20x32),
    TRef.ternary φ.v14 φ.v13 φ.v15 φ.v16 select ]

/-- The call's body is that line. -/
theorem take_eq (arg0 : TRef sig ⟨S100001x32, .f32⟩) (arg1 : TRef sig ⟨S4096x20, .i32⟩) (φ : fn_take.Bufs) :
    fn_take.body (F := F) arg0 arg1 φ = seq (takeOps arg0 arg1 φ) := by
  simp only [fn_take.body, fn_where.body, takeOps, seq, bind_assoc, pure_bind]

/-! ## What the call computes -/

/-- The row numbers as the gather reads them: a negative one moved up by the table's height, on a trailing unit axis. -/
def takeIdx (idx : (⟨S4096x20, .i32⟩ : BufTy).Contents (Elt F)) : (⟨S4096x20x1, .i32⟩ : BufTy).Contents (Elt F) :=
  broadcastInDim S4096x20x1 ![0, 1] bcast_S4096x20_S4096x20x1_0_1
    (select (cmpi .slt idx (broadcastInDim S4096x20 ![] bcast_S_S4096x20 (constantI S_ 32 0#32)))
      (addi idx (broadcastInDim S4096x20 ![] bcast_S_S4096x20 (constantI S_ 32 100001#32))) idx)

/-- Which positions have their row number inside the table: `0 ≤ i ≤ 100000`, all-reduced over the unit axis. -/
def takeMask (i5 : (⟨S4096x20x1, .i32⟩ : BufTy).Contents (Elt F)) : (⟨S4096x20, .i1⟩ : BufTy).Contents (Elt F) :=
  Host.reduce IntOp.andi
    (andi (cmpi .sge i5 (broadcastInDim S4096x20x1 ![] bcast_S_S4096x20x1 (constantI S_ 32 0#32)))
      (cmpi .sle i5 (broadcastInDim S4096x20x1 ![0, 1, 2] bcast_S1x1x1_S4096x20x1_0_1_2
        (broadcastInDim S1x1x1 ![2] bcast_S1_S1x1x1_2 (constantI S1 32 100000#32)))))
    (constantI S_ 1 1#1) reducesTo_S4096x20x1_S4096x20_d2 h_S_

/-- The lookup of rows `idx` of `x`: the gathered rows where the row number is inside the table, the
    not-a-number constant elsewhere. -/
def takeVal (x : (⟨S100001x32, .f32⟩ : BufTy).Contents (Elt F)) (idx : (⟨S4096x20, .i32⟩ : BufTy).Contents (Elt F)) :
    (⟨S4096x20x32, .f32⟩ : BufTy).Contents (Elt F) :=
  select (broadcastInDim S4096x20x32 ![0, 1] bcast_S4096x20_S4096x20x32_0_1 (takeMask (F := F) (takeIdx (F := F) idx)))
    (Host.gather gather_S100001x32_S4096x20x1_S4096x20x32_2_0_n_n_0_2_132 x (takeIdx (F := F) idx))
    (broadcastInDim S4096x20x32 ![] bcast_S_S4096x20x32 (constant S_ .f32 0x7FC00000#32))

/-- The buffers a call writes, in the order it writes them. -/
def takeRefs (φ : fn_take.Bufs) : List (Ref sig .tc) :=
  [φ.c.ref, φ.v0.ref, φ.v1.ref, φ.c_0.ref, φ.v2.ref, φ.v3.ref, φ.call0.v0.ref, φ.v5.ref, φ.c_1.ref, φ.c_2.ref,
   φ.v6.ref, φ.v7.ref, φ.v8.ref, φ.v9.ref, φ.v10.ref, φ.v11.ref, φ.c_3.ref, φ.v12.ref, φ.v13.ref, φ.v14.ref,
   φ.cst.ref, φ.v15.ref, φ.v16.ref]

set_option maxRecDepth 4096 in
/-- Run from any contents, with the call's buffers pairwise distinct and distinct from its arguments', the call leaves
    its result buffer at the lookup of the second argument's rows in the first. -/
theorem rd_take (arg0 : TRef sig ⟨S100001x32, .f32⟩) (arg1 : TRef sig ⟨S4096x20, .i32⟩) (φ : fn_take.Bufs)
    (V : Valuation τ sig (Elt F)) (hnd : (arg0.ref :: arg1.ref :: takeRefs φ).Pairwise (· ≠ ·)) :
    rd (after (takeOps arg0 arg1 φ) V) φ.v16 = takeVal (F := F) (rd V arg0) (rd V arg1) := by
  simp only [takeRefs, List.pairwise_cons, List.mem_cons, List.not_mem_nil, or_false, forall_eq_or_imp, forall_eq,
    ne_eq, List.Pairwise.nil, and_true] at hnd
  simp only [takeOps, after_cons, after_nil, rd_nullary, rd_unary, rd_binary, rd_ternary,
    rd_nullary_ne, rd_unary_ne, rd_binary_ne, rd_ternary_ne, ne_eq, hnd, not_false_eq_true]
  rfl

/-- Every operation of the call writes one of the call's buffers. -/
theorem takeOps_writes (arg0 : TRef sig ⟨S100001x32, .f32⟩) (arg1 : TRef sig ⟨S4096x20, .i32⟩) (φ : fn_take.Bufs) :
    (takeOps (F := F) arg0 arg1 φ).Forall fun op => op.writes ⊆ ((takeRefs φ).map (Proc.devRef (τ := τ) .tc)).toFinset := by
  simp [takeOps, takeRefs, List.Forall]

/-- Every buffer the call's operations touch is a TensorCore reference. -/
theorem takeOps_sub (arg0 : TRef sig ⟨S100001x32, .f32⟩) (arg1 : TRef sig ⟨S4096x20, .i32⟩) (φ : fn_take.Bufs) :
    (takeOps (F := F) arg0 arg1 φ).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- Every operation of the call determines what it writes. -/
theorem takeOps_fresh (arg0 : TRef sig ⟨S100001x32, .f32⟩) (arg1 : TRef sig ⟨S4096x20, .i32⟩) (φ : fn_take.Bufs) :
    ∀ op ∈ takeOps (F := F) arg0 arg1 φ, op.fresh = ∅ := by
  intro op h
  unfold takeOps at h
  repeat (cases h with | head => rfl | tail _ h => ?_)
  exact nomatch h

end Cert.Proof.Ref

end
-- ==== Proof.RefField.lean ====
/-
  One field of the reference — the slice of the field's table and of its row numbers, the two reshapes, the call of
  the lookup — as a line of host operations over that field's buffers, what it computes, and a sequence of fields.

  A field writes its own buffers only and reads the two arguments besides: run from any contents it leaves its result
  buffer at the lookup of the field's rows in the field's table, both cut out of the arguments' contents, and every
  other buffer as it was. Fields whose buffers are disjoint, run one after the other, therefore each leave their own
  result, a function of the arguments' launch contents alone.
-/
import proofs.«204936_g5145370820905_cont_8to1_c_618_18_alg».proof.Proof.RefTake

noncomputable section

namespace Cert.Proof.Ref

open Idealize.ShloMosaic Idealize.ShloMosaic.StableHlo Idealize.SL.Sem
open Cert.ReferenceIdeal Cert.ReferenceIdeal.Facts₀ Cert.ReferenceIdeal.Facts

variable {F : FTy → Type} [FloatOps F] [Cert.ReferenceIdeal.Facts]

/-- The two arguments, typed. -/
abbrev A0 : TRef sig ⟨S26x4096x20, .i32⟩ := .of main_arg0
abbrev A1 : TRef sig ⟨S26x100001x32, .f32⟩ := .of main_arg1

/-- A field: its number (the slices' start along the leading axis) and its buffers. -/
structure FieldRefs where
  k : Nat
  hs1 : S26x100001x32.Slices ![k, 0, 0] S1x100001x32
  hs0 : S26x4096x20.Slices ![k, 0, 0] S1x4096x20
  t0 : TRef sig ⟨S1x100001x32, .f32⟩
  t1 : TRef sig ⟨S100001x32, .f32⟩
  f0 : TRef sig ⟨S1x4096x20, .i32⟩
  f1 : TRef sig ⟨S4096x20, .i32⟩
  φ : fn_take.Bufs

/-- The field's operations. -/
def fieldOps (R : FieldRefs) : List (HloOp τ sig (Elt F)) :=
  TRef.unary A1 R.t0 (fun x => extractStridedSlice S1x100001x32 ![R.k, 0, 0] x R.hs1) ::
  TRef.reshape R.t0 R.t1 rfl shapeCasts_S1x100001x32_S100001x32 ::
  TRef.unary A0 R.f0 (fun x => extractStridedSlice S1x4096x20 ![R.k, 0, 0] x R.hs0) ::
  TRef.reshape R.f0 R.f1 rfl shapeCasts_S1x4096x20_S4096x20 ::
  takeOps R.t1 R.f1 R.φ

/-- The buffers the field writes, in order. -/
def fieldRefs (R : FieldRefs) : List (Ref sig .tc) :=
  R.t0.ref :: R.t1.ref :: R.f0.ref :: R.f1.ref :: takeRefs R.φ

/-- The field's buffers are pairwise distinct and none is an argument's. -/
def FieldRefs.WF (R : FieldRefs) : Prop := (main_arg0 :: main_arg1 :: fieldRefs R).Pairwise (· ≠ ·)

/-- What field `k` computes from the arguments' contents: the lookup of rows `feat[k]` in table `tab[k]`. -/
def fieldVal (k : Nat) (hs1 : S26x100001x32.Slices ![k, 0, 0] S1x100001x32) (hs0 : S26x4096x20.Slices ![k, 0, 0] S1x4096x20)
    (tab : (⟨S26x100001x32, .f32⟩ : BufTy).Contents (Elt F)) (feat : (⟨S26x4096x20, .i32⟩ : BufTy).Contents (Elt F)) :
    (⟨S4096x20x32, .f32⟩ : BufTy).Contents (Elt F) :=
  takeVal (F := F)
    (shapeCast S100001x32 (extractStridedSlice S1x100001x32 ![k, 0, 0] tab hs1) shapeCasts_S1x100001x32_S100001x32)
    (shapeCast S4096x20 (extractStridedSlice S1x4096x20 ![k, 0, 0] feat hs0) shapeCasts_S1x4096x20_S4096x20)

theorem FieldRefs.WF.arg0 {R : FieldRefs} (h : R.WF) : main_arg0 ∉ fieldRefs R :=
  fun hm => (List.pairwise_cons.mp h).1 _ (List.mem_cons_of_mem _ hm) rfl

theorem FieldRefs.WF.arg1 {R : FieldRefs} (h : R.WF) : main_arg1 ∉ fieldRefs R :=
  fun hm => (List.pairwise_cons.mp (List.pairwise_cons.mp h).2).1 _ hm rfl

set_option maxRecDepth 4096 in
/-- Run from any contents, the field leaves its result buffer at `fieldVal` of the arguments' contents. -/
theorem rd_field (R : FieldRefs) (V : Valuation τ sig (Elt F)) (h : R.WF) :
    rd (after (fieldOps R) V) R.φ.v16 = fieldVal (F := F) R.k R.hs1 R.hs0 (rd V A1) (rd V A0) := by
  have htake : (R.t1.ref :: R.f1.ref :: takeRefs R.φ).Pairwise (· ≠ ·) :=
    List.Pairwise.sublist (.cons _ (.cons _ (.cons _ (.cons₂ _ (.cons _ (.cons₂ _ (List.Sublist.refl _))))))) h
  unfold FieldRefs.WF fieldRefs at h
  simp only [takeRefs, List.pairwise_cons, List.mem_cons, List.not_mem_nil, or_false, forall_eq_or_imp, forall_eq,
    ne_eq, List.Pairwise.nil, and_true] at h
  simp only [fieldOps, after_cons]
  rw [rd_take _ _ _ _ htake]
  simp only [rd_reshape, rd_unary, rd_reshape_ne, rd_unary_ne, ne_eq, h, not_false_eq_true]
  rfl

/-- Every operation of the field writes one of the field's buffers. -/
theorem fieldOps_writes (R : FieldRefs) :
    (fieldOps (F := F) R).Forall fun op => op.writes ⊆ ((fieldRefs R).map (Proc.devRef (τ := τ) .tc)).toFinset := by
  simp [fieldOps, fieldRefs, takeOps, takeRefs, List.Forall]

/-- A buffer that is not the field's keeps its contents. -/
theorem field_frame (R : FieldRefs) (V : Valuation τ sig (Elt F)) {r : Ref sig .tc} (hr : r ∉ fieldRefs R) :
    after (fieldOps R) V (Proc.devRef .tc r) = V (Proc.devRef .tc r) :=
  after_of_writes_sub _ V (fieldOps_writes R) hr

theorem fieldOps_sub (R : FieldRefs) : (fieldOps (F := F) R).Forall fun op => op.bufs ⊆ tcRefs τ sig :=
  ⟨unary_bufs_sub .., reshape_bufs_sub .., unary_bufs_sub .., reshape_bufs_sub .., takeOps_sub ..⟩

theorem fieldOps_fresh (R : FieldRefs) : ∀ op ∈ fieldOps (F := F) R, op.fresh = ∅ := by
  intro op h
  unfold fieldOps at h
  cases h with
  | head => rfl
  | tail _ h =>
  cases h with
  | head => rfl
  | tail _ h =>
  cases h with
  | head => rfl
  | tail _ h =>
  cases h with
  | head => rfl
  | tail _ h => exact takeOps_fresh _ _ _ op h

/-! ## A sequence of fields -/

/-- The fields' operations, field after field. -/
def fieldsOps (Rs : List FieldRefs) : List (HloOp τ sig (Elt F)) := Rs.flatMap fieldOps

theorem fieldsOps_cons (R : FieldRefs) (Rs : List FieldRefs) :
    fieldsOps (F := F) (R :: Rs) = fieldOps R ++ fieldsOps Rs := List.flatMap_cons ..

/-- A buffer that is none of the fields' keeps its contents. -/
theorem fields_frame (Rs : List FieldRefs) (V : Valuation τ sig (Elt F)) {r : Ref sig .tc} (hr : ∀ R ∈ Rs, r ∉ fieldRefs R) :
    after (fieldsOps Rs) V (Proc.devRef .tc r) = V (Proc.devRef .tc r) := by
  induction Rs generalizing V with
  | nil => rfl
  | cons R Rs ih =>
    rw [fieldsOps_cons, after_append, ih _ (fun R' h' => hr R' (List.mem_cons_of_mem _ h')),
      field_frame R V (hr R List.mem_cons_self)]

/-- Fields with distinct buffers, none written by a later field, run in order: each field's result buffer ends at
    that field's value of the arguments' launch contents. -/
theorem rd_fields (Rs : List FieldRefs) (V : Valuation τ sig (Elt F)) (hwf : ∀ R ∈ Rs, R.WF)
    (hpw : Rs.Pairwise fun R R' => R.φ.v16.ref ∉ fieldRefs R') :
    ∀ R ∈ Rs, rd (after (fieldsOps Rs) V) R.φ.v16 = fieldVal (F := F) R.k R.hs1 R.hs0 (rd V A1) (rd V A0) := by
  induction Rs generalizing V with
  | nil => intro R h; exact absurd h List.not_mem_nil
  | cons R Rs ih =>
    intro R' hR'
    rw [fieldsOps_cons, after_append]
    obtain ⟨hhead, htail⟩ := List.pairwise_cons.mp hpw
    rcases List.mem_cons.mp hR' with rfl | hmem
    · rw [rd_of_eq _ (fields_frame Rs _ hhead), rd_field R' V (hwf R' List.mem_cons_self)]
    · rw [ih _ (fun R'' h'' => hwf R'' (List.mem_cons_of_mem _ h'')) htail R' hmem,
        rd_of_eq A1 (field_frame R V (hwf R List.mem_cons_self).arg1),
        rd_of_eq A0 (field_frame R V (hwf R List.mem_cons_self).arg0)]

theorem fieldsOps_sub (Rs : List FieldRefs) : (fieldsOps (F := F) Rs).Forall fun op => op.bufs ⊆ tcRefs τ sig := by
  refine List.forall_iff_forall_mem.mpr fun op hop => ?_
  obtain ⟨R, -, hR⟩ := List.mem_flatMap.mp hop
  exact List.forall_iff_forall_mem.mp (fieldOps_sub R) op hR

theorem fieldsOps_fresh (Rs : List FieldRefs) : ∀ op ∈ fieldsOps (F := F) Rs, op.fresh = ∅ := by
  intro op hop
  obtain ⟨R, -, hR⟩ := List.mem_flatMap.mp hop
  exact fieldOps_fresh R op hR

end Cert.Proof.Ref

end
-- ==== Proof.RefMain.lean ====
/-
  The reference's @main as a line of host operations: twenty-six fields, one per table, then three concatenations of
  their results.
-/
import proofs.«204936_g5145370820905_cont_8to1_c_618_18_alg».proof.Proof.RefField

noncomputable section

namespace Cert.Proof.Ref

open Idealize.ShloMosaic Idealize.ShloMosaic.StableHlo Idealize.ShloMosaic.TcCoe Idealize.SL.Sem
open Cert.ReferenceIdeal Cert.ReferenceIdeal.Facts₀ Cert.ReferenceIdeal.Facts

variable {F : FTy → Type} [FloatOps F] [Cert.ReferenceIdeal.Facts]

/-! ## The twenty-six fields and the tail -/

abbrev R0 : FieldRefs := ⟨0, slices_S26x100001x32_S1x100001x32_0_0_0, slices_S26x4096x20_S1x4096x20_0_0_0, .of main_v0, .of main_v1, .of main_v2, .of main_v3, main_call0⟩
abbrev R1 : FieldRefs := ⟨1, slices_S26x100001x32_S1x100001x32_1_0_0, slices_S26x4096x20_S1x4096x20_1_0_0, .of main_v5, .of main_v6, .of main_v7, .of main_v8, main_call1⟩
abbrev R2 : FieldRefs := ⟨2, slices_S26x100001x32_S1x100001x32_2_0_0, slices_S26x4096x20_S1x4096x20_2_0_0, .of main_v10, .of main_v11, .of main_v12, .of main_v13, main_call2⟩
abbrev R3 : FieldRefs := ⟨3, slices_S26x100001x32_S1x100001x32_3_0_0, slices_S26x4096x20_S1x4096x20_3_0_0, .of main_v15, .of main_v16, .of main_v17, .of main_v18, main_call3⟩
abbrev R4 : FieldRefs := ⟨4, slices_S26x100001x32_S1x100001x32_4_0_0, slices_S26x4096x20_S1x4096x20_4_0_0, .of main_v20, .of main_v21, .of main_v22, .of main_v23, main_call4⟩
abbrev R5 : FieldRefs := ⟨5, slices_S26x100001x32_S1x100001x32_5_0_0, slices_S26x4096x20_S1x4096x20_5_0_0, .of main_v25, .of main_v26, .of main_v27, .of main_v28, main_call5⟩
abbrev R6 : FieldRefs := ⟨6, slices_S26x100001x32_S1x100001x32_6_0_0, slices_S26x4096x20_S1x4096x20_6_0_0, .of main_v30, .of main_v31, .of main_v32, .of main_v33, main_call6⟩
abbrev R7 : FieldRefs := ⟨7, slices_S26x100001x32_S1x100001x32_7_0_0, slices_S26x4096x20_S1x4096x20_7_0_0, .of main_v35, .of main_v36, .of main_v37, .of main_v38, main_call7⟩
abbrev R8 : FieldRefs := ⟨8, slices_S26x100001x32_S1x100001x32_8_0_0, slices_S26x4096x20_S1x4096x20_8_0_0, .of main_v40, .of main_v41, .of main_v42, .of main_v43, main_call8⟩
abbrev R9 : FieldRefs := ⟨9, slices_S26x100001x32_S1x100001x32_9_0_0, slices_S26x4096x20_S1x4096x20_9_0_0, .of main_v45, .of main_v46, .of main_v47, .of main_v48, main_call9⟩
abbrev R10 : FieldRefs := ⟨10, slices_S26x100001x32_S1x100001x32_10_0_0, slices_S26x4096x20_S1x4096x20_10_0_0, .of main_v50, .of main_v51, .of main_v52, .of main_v53, main_call10⟩
abbrev R11 : FieldRefs := ⟨11, slices_S26x100001x32_S1x100001x32_11_0_0, slices_S26x4096x20_S1x4096x20_11_0_0, .of main_v55, .of main_v56, .of main_v57, .of main_v58, main_call11⟩
abbrev R12 : FieldRefs := ⟨12, slices_S26x100001x32_S1x100001x32_12_0_0, slices_S26x4096x20_S1x4096x20_12_0_0, .of main_v60, .of main_v61, .of main_v62, .of main_v63, main_call12⟩
abbrev R13 : FieldRefs := ⟨13, slices_S26x100001x32_S1x100001x32_13_0_0, slices_S26x4096x20_S1x4096x20_13_0_0, .of main_v65, .of main_v66, .of main_v67, .of main_v68, main_call13⟩
abbrev R14 : FieldRefs := ⟨14, slices_S26x100001x32_S1x100001x32_14_0_0, slices_S26x4096x20_S1x4096x20_14_0_0, .of main_v70, .of main_v71, .of main_v72, .of main_v73, main_call14⟩
abbrev R15 : FieldRefs := ⟨15, slices_S26x100001x32_S1x100001x32_15_0_0, slices_S26x4096x20_S1x4096x20_15_0_0, .of main_v75, .of main_v76, .of main_v77, .of main_v78, main_call15⟩
abbrev R16 : FieldRefs := ⟨16, slices_S26x100001x32_S1x100001x32_16_0_0, slices_S26x4096x20_S1x4096x20_16_0_0, .of main_v80, .of main_v81, .of main_v82, .of main_v83, main_call16⟩
abbrev R17 : FieldRefs := ⟨17, slices_S26x100001x32_S1x100001x32_17_0_0, slices_S26x4096x20_S1x4096x20_17_0_0, .of main_v85, .of main_v86, .of main_v87, .of main_v88, main_call17⟩
abbrev R18 : FieldRefs := ⟨18, slices_S26x100001x32_S1x100001x32_18_0_0, slices_S26x4096x20_S1x4096x20_18_0_0, .of main_v90, .of main_v91, .of main_v92, .of main_v93, main_call18⟩
abbrev R19 : FieldRefs := ⟨19, slices_S26x100001x32_S1x100001x32_19_0_0, slices_S26x4096x20_S1x4096x20_19_0_0, .of main_v95, .of main_v96, .of main_v97, .of main_v98, main_call19⟩
abbrev R20 : FieldRefs := ⟨20, slices_S26x100001x32_S1x100001x32_20_0_0, slices_S26x4096x20_S1x4096x20_20_0_0, .of main_v100, .of main_v101, .of main_v102, .of main_v103, main_call20⟩
abbrev R21 : FieldRefs := ⟨21, slices_S26x100001x32_S1x100001x32_21_0_0, slices_S26x4096x20_S1x4096x20_21_0_0, .of main_v105, .of main_v106, .of main_v107, .of main_v108, main_call21⟩
abbrev R22 : FieldRefs := ⟨22, slices_S26x100001x32_S1x100001x32_22_0_0, slices_S26x4096x20_S1x4096x20_22_0_0, .of main_v110, .of main_v111, .of main_v112, .of main_v113, main_call22⟩
abbrev R23 : FieldRefs := ⟨23, slices_S26x100001x32_S1x100001x32_23_0_0, slices_S26x4096x20_S1x4096x20_23_0_0, .of main_v115, .of main_v116, .of main_v117, .of main_v118, main_call23⟩
abbrev R24 : FieldRefs := ⟨24, slices_S26x100001x32_S1x100001x32_24_0_0, slices_S26x4096x20_S1x4096x20_24_0_0, .of main_v120, .of main_v121, .of main_v122, .of main_v123, main_call24⟩
abbrev R25 : FieldRefs := ⟨25, slices_S26x100001x32_S1x100001x32_25_0_0, slices_S26x4096x20_S1x4096x20_25_0_0, .of main_v125, .of main_v126, .of main_v127, .of main_v128, main_call25⟩

/-- The fields, in the order @main runs them. -/
abbrev Rs : List FieldRefs := [R0, R1, R2, R3, R4, R5, R6, R7, R8, R9, R10, R11, R12, R13, R14, R15, R16, R17, R18, R19, R20, R21, R22, R23, R24, R25]

/-- The three concatenations after the fields: sixteen results, the other ten, the two halves. -/
def tailOps : List (HloOp τ sig (Elt F)) :=
  [ StableHlo.nary ![main_v4, main_v9, main_v14, main_v19, main_v24, main_v29, main_v34, main_v39, main_v44, main_v49, main_v54, main_v59, main_v64, main_v69, main_v74, main_v79] main_v130 (fun u => concatenate S4096x20x512 2 [⟨S4096x20x32, u 0⟩, ⟨S4096x20x32, u 1⟩, ⟨S4096x20x32, u 2⟩, ⟨S4096x20x32, u 3⟩, ⟨S4096x20x32, u 4⟩, ⟨S4096x20x32, u 5⟩, ⟨S4096x20x32, u 6⟩, ⟨S4096x20x32, u 7⟩, ⟨S4096x20x32, u 8⟩, ⟨S4096x20x32, u 9⟩, ⟨S4096x20x32, u 10⟩, ⟨S4096x20x32, u 11⟩, ⟨S4096x20x32, u 12⟩, ⟨S4096x20x32, u 13⟩, ⟨S4096x20x32, u 14⟩, ⟨S4096x20x32, u 15⟩] concatenates_S4096x20x32_S4096x20x32_S4096x20x32_S4096x20x32_S4096x20x32_S4096x20x32_S4096x20x32_S4096x20x32_S4096x20x32_S4096x20x32_S4096x20x32_S4096x20x32_S4096x20x32_S4096x20x32_S4096x20x32_S4096x20x32_S4096x20x512_d2),
    StableHlo.nary ![main_v84, main_v89, main_v94, main_v99, main_v104, main_v109, main_v114, main_v119, main_v124, main_v129] main_v131 (fun u => concatenate S4096x20x320 2 [⟨S4096x20x32, u 0⟩, ⟨S4096x20x32, u 1⟩, ⟨S4096x20x32, u 2⟩, ⟨S4096x20x32, u 3⟩, ⟨S4096x20x32, u 4⟩, ⟨S4096x20x32, u 5⟩, ⟨S4096x20x32, u 6⟩, ⟨S4096x20x32, u 7⟩, ⟨S4096x20x32, u 8⟩, ⟨S4096x20x32, u 9⟩] concatenates_S4096x20x32_S4096x20x32_S4096x20x32_S4096x20x32_S4096x20x32_S4096x20x32_S4096x20x32_S4096x20x32_S4096x20x32_S4096x20x32_S4096x20x320_d2),
    StableHlo.binary main_v130 main_v131 main_v132 ((fun a b => concatenate S4096x20x832 2 [⟨S4096x20x512, a⟩, ⟨S4096x20x320, b⟩] concatenates_S4096x20x512_S4096x20x320_S4096x20x832_d2) : (⟨S4096x20x512, .f32⟩ : BufTy).Contents (Elt F) → (⟨S4096x20x320, .f32⟩ : BufTy).Contents (Elt F) → (⟨S4096x20x832, .f32⟩ : BufTy).Contents (Elt F)) ]

/-- @main's operations: the fields', then the tail. -/
def ops : List (HloOp τ sig (Elt F)) := fieldsOps Rs ++ tailOps

set_option maxRecDepth 8192 in
set_option maxHeartbeats 4000000 in
/-- @main is that line: each call's body is its line (`take_eq`), and sequencing reassociates. -/
theorem main_eq (d : Dev nD) : main (F := F) d = seq ops := by
  simp only [main, main_part0, main_part1, main_part2, take_eq, ops, fieldsOps, Rs, List.flatMap_cons, List.flatMap_nil,
    fieldOps, List.cons_append, List.append_assoc, List.nil_append, List.append_nil, seq, seq_append, tailOps,
    bind_assoc, pure_bind]
  rfl

end Cert.Proof.Ref

end
-- ==== Proof.RefRun.lean ====
/-
  The reference's run: @main is twenty-six fields, one per table, and three concatenations of their results; every
  weakly fair execution ends with the result buffer at the concatenation, along the last axis, of the fields' lookups
  of the arguments' launch contents, and the arguments unchanged.
-/
import proofs.«204936_g5145370820905_cont_8to1_c_618_18_alg».proof.Proof.RefMain

noncomputable section

namespace Cert.Proof.Ref

open Idealize.ShloMosaic Idealize.ShloMosaic.StableHlo Idealize.ShloMosaic.TcCoe Idealize.SL.Sem
open Cert.ReferenceIdeal Cert.ReferenceIdeal.Facts₀ Cert.ReferenceIdeal.Facts

variable {F : FTy → Type} [FloatOps F] [Cert.ReferenceIdeal.Facts]

/-! ## The fields' buffers are distinct -/

theorem Rs_wf : ∀ R ∈ Rs, R.WF := by
  intro R hR
  simp only [Rs, List.mem_cons, List.not_mem_nil, or_false] at hR
  rcases hR with rfl | rfl | rfl | rfl | rfl | rfl | rfl | rfl | rfl | rfl | rfl | rfl | rfl | rfl | rfl | rfl | rfl | rfl | rfl | rfl | rfl | rfl | rfl | rfl | rfl | rfl <;>
    (unfold FieldRefs.WF; decide)

theorem Rs_pw : Rs.Pairwise fun R R' => R.φ.v16.ref ∉ fieldRefs R' := by
  unfold Rs; decide

/-! ## The result as a term of the arguments -/

/-- What a field computes from the arguments' contents. -/
def fv (R : FieldRefs) (tab : (⟨S26x100001x32, .f32⟩ : BufTy).Contents (Elt F)) (feat : (⟨S26x4096x20, .i32⟩ : BufTy).Contents (Elt F)) :
    (⟨S4096x20x32, .f32⟩ : BufTy).Contents (Elt F) :=
  fieldVal (F := F) R.k R.hs1 R.hs0 tab feat

/-- The three concatenations of twenty-six pieces `X 0 … X 25` along the last axis. -/
def outVal (X : Fin 26 → (⟨S4096x20x32, .f32⟩ : BufTy).Contents (Elt F)) : (⟨S4096x20x832, .f32⟩ : BufTy).Contents (Elt F) :=
  concatenate S4096x20x832 2
    [⟨S4096x20x512, concatenate S4096x20x512 2 [⟨S4096x20x32, X 0⟩, ⟨S4096x20x32, X 1⟩, ⟨S4096x20x32, X 2⟩, ⟨S4096x20x32, X 3⟩, ⟨S4096x20x32, X 4⟩, ⟨S4096x20x32, X 5⟩, ⟨S4096x20x32, X 6⟩, ⟨S4096x20x32, X 7⟩, ⟨S4096x20x32, X 8⟩, ⟨S4096x20x32, X 9⟩, ⟨S4096x20x32, X 10⟩, ⟨S4096x20x32, X 11⟩, ⟨S4096x20x32, X 12⟩, ⟨S4096x20x32, X 13⟩, ⟨S4096x20x32, X 14⟩, ⟨S4096x20x32, X 15⟩] concatenates_S4096x20x32_S4096x20x32_S4096x20x32_S4096x20x32_S4096x20x32_S4096x20x32_S4096x20x32_S4096x20x32_S4096x20x32_S4096x20x32_S4096x20x32_S4096x20x32_S4096x20x32_S4096x20x32_S4096x20x32_S4096x20x32_S4096x20x512_d2⟩,
     ⟨S4096x20x320, concatenate S4096x20x320 2 [⟨S4096x20x32, X 16⟩, ⟨S4096x20x32, X 17⟩, ⟨S4096x20x32, X 18⟩, ⟨S4096x20x32, X 19⟩, ⟨S4096x20x32, X 20⟩, ⟨S4096x20x32, X 21⟩, ⟨S4096x20x32, X 22⟩, ⟨S4096x20x32, X 23⟩, ⟨S4096x20x32, X 24⟩, ⟨S4096x20x32, X 25⟩] concatenates_S4096x20x32_S4096x20x32_S4096x20x32_S4096x20x32_S4096x20x32_S4096x20x32_S4096x20x32_S4096x20x32_S4096x20x32_S4096x20x32_S4096x20x320_d2⟩]
    concatenates_S4096x20x512_S4096x20x320_S4096x20x832_d2

/-- The fields' values of the arguments' contents. -/
def fieldsVal (tab : (⟨S26x100001x32, .f32⟩ : BufTy).Contents (Elt F)) (feat : (⟨S26x4096x20, .i32⟩ : BufTy).Contents (Elt F)) :
    Fin 26 → (⟨S4096x20x32, .f32⟩ : BufTy).Contents (Elt F) :=
  ![fv R0 tab feat, fv R1 tab feat, fv R2 tab feat, fv R3 tab feat, fv R4 tab feat, fv R5 tab feat, fv R6 tab feat, fv R7 tab feat, fv R8 tab feat, fv R9 tab feat, fv R10 tab feat, fv R11 tab feat, fv R12 tab feat, fv R13 tab feat, fv R14 tab feat, fv R15 tab feat, fv R16 tab feat, fv R17 tab feat, fv R18 tab feat, fv R19 tab feat, fv R20 tab feat, fv R21 tab feat, fv R22 tab feat, fv R23 tab feat, fv R24 tab feat, fv R25 tab feat]

/-- The tail leaves the result buffer at the concatenation of the fields' result buffers. -/
theorem tail_out (W : Valuation τ sig (Elt F)) :
    after tailOps W (Proc.devRef .tc main_v132) = outVal (F := F) ![rd W R0.φ.v16, rd W R1.φ.v16, rd W R2.φ.v16, rd W R3.φ.v16, rd W R4.φ.v16, rd W R5.φ.v16, rd W R6.φ.v16, rd W R7.φ.v16, rd W R8.φ.v16, rd W R9.φ.v16, rd W R10.φ.v16, rd W R11.φ.v16, rd W R12.φ.v16, rd W R13.φ.v16, rd W R14.φ.v16, rd W R15.φ.v16, rd W R16.φ.v16, rd W R17.φ.v16, rd W R18.φ.v16, rd W R19.φ.v16, rd W R20.φ.v16, rd W R21.φ.v16, rd W R22.φ.v16, rd W R23.φ.v16, rd W R24.φ.v16, rd W R25.φ.v16] := by
  have h10 : ∀ k : Fin 10, (![main_v84, main_v89, main_v94, main_v99, main_v104, main_v109, main_v114, main_v119, main_v124, main_v129] : Fin 10 → Ref sig .tc) k ≠ main_v130 := by decide
  unfold tailOps
  simp only [after_cons, after_nil]
  rw [binary_result, nary_result, nary_result_ne _ _ _ _ _ _ (show main_v130 ≠ main_v131 by decide), nary_result]
  have e : (fun k : Fin 10 => (StableHlo.nary (τ := τ) ![main_v4, main_v9, main_v14, main_v19, main_v24, main_v29, main_v34, main_v39, main_v44, main_v49, main_v54, main_v59, main_v64, main_v69, main_v74, main_v79] main_v130 (fun u => concatenate S4096x20x512 2 [⟨S4096x20x32, u 0⟩, ⟨S4096x20x32, u 1⟩, ⟨S4096x20x32, u 2⟩, ⟨S4096x20x32, u 3⟩, ⟨S4096x20x32, u 4⟩, ⟨S4096x20x32, u 5⟩, ⟨S4096x20x32, u 6⟩, ⟨S4096x20x32, u 7⟩, ⟨S4096x20x32, u 8⟩, ⟨S4096x20x32, u 9⟩, ⟨S4096x20x32, u 10⟩, ⟨S4096x20x32, u 11⟩, ⟨S4096x20x32, u 12⟩, ⟨S4096x20x32, u 13⟩, ⟨S4096x20x32, u 14⟩, ⟨S4096x20x32, u 15⟩] concatenates_S4096x20x32_S4096x20x32_S4096x20x32_S4096x20x32_S4096x20x32_S4096x20x32_S4096x20x32_S4096x20x32_S4096x20x32_S4096x20x32_S4096x20x32_S4096x20x32_S4096x20x32_S4096x20x32_S4096x20x32_S4096x20x32_S4096x20x512_d2)).result W
      (Proc.devRef .tc ((![main_v84, main_v89, main_v94, main_v99, main_v104, main_v109, main_v114, main_v119, main_v124, main_v129] : Fin 10 → Ref sig .tc) k)))
      = fun k : Fin 10 => W (Proc.devRef .tc ((![main_v84, main_v89, main_v94, main_v99, main_v104, main_v109, main_v114, main_v119, main_v124, main_v129] : Fin 10 → Ref sig .tc) k)) :=
    funext fun k => nary_result_ne _ _ _ _ _ W (h10 k)
  rw [e]
  rfl

theorem tail_frame (W : Valuation τ sig (Elt F)) {r : Ref sig .tc} (h0 : r ≠ main_v130) (h1 : r ≠ main_v131) (h2 : r ≠ main_v132) :
    after tailOps W (Proc.devRef .tc r) = W (Proc.devRef .tc r) := by
  unfold tailOps
  simp only [after_cons, after_nil]
  rw [binary_result_ne _ _ _ _ _ _ _ _ h2, nary_result_ne _ _ _ _ _ _ h1, nary_result_ne _ _ _ _ _ _ h0]

/-- The fold of @main's operations at the result buffer. -/
theorem after_ops_out (V : Valuation τ sig (Elt F)) :
    after ops V (Proc.devRef .tc main_v132)
      = outVal (F := F) (fieldsVal (F := F) (V (Proc.devRef .tc main_arg1)) (V (Proc.devRef .tc main_arg0))) := by
  unfold ops
  rw [after_append, tail_out]
  have hk := rd_fields Rs V Rs_wf Rs_pw
  rw [hk R0 List.mem_cons_self,
    hk R1 (List.mem_cons_of_mem _ List.mem_cons_self),
    hk R2 (List.mem_cons_of_mem _ (List.mem_cons_of_mem _ List.mem_cons_self)),
    hk R3 (List.mem_cons_of_mem _ (List.mem_cons_of_mem _ (List.mem_cons_of_mem _ List.mem_cons_self))),
    hk R4 (List.mem_cons_of_mem _ (List.mem_cons_of_mem _ (List.mem_cons_of_mem _ (List.mem_cons_of_mem _ List.mem_cons_self)))),
    hk R5 (List.mem_cons_of_mem _ (List.mem_cons_of_mem _ (List.mem_cons_of_mem _ (List.mem_cons_of_mem _ (List.mem_cons_of_mem _ List.mem_cons_self))))),
    hk R6 (List.mem_cons_of_mem _ (List.mem_cons_of_mem _ (List.mem_cons_of_mem _ (List.mem_cons_of_mem _ (List.mem_cons_of_mem _ (List.mem_cons_of_mem _ List.mem_cons_self)))))),
    hk R7 (List.mem_cons_of_mem _ (List.mem_cons_of_mem _ (List.mem_cons_of_mem _ (List.mem_cons_of_mem _ (List.mem_cons_of_mem _ (List.mem_cons_of_mem _ (List.mem_cons_of_mem _ List.mem_cons_self))))))),
    hk R8 (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))),
    hk R9 (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))),
    hk R10 (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))),
    hk R11 (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))),
    hk R12 (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))),
    hk R13 (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))),
    hk R14 (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))),
    hk R15 (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))),
    hk R16 (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))),
    hk R17 (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))),
    hk R18 (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))),
    hk R19 (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))),
    hk R20 (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))),
    hk R21 (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))),
    hk R22 (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))),
    hk R23 (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))),
    hk R24 (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))),
    hk R25 (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))))]
  rfl

theorem after_ops_arg0 (V : Valuation τ sig (Elt F)) :
    after ops V (Proc.devRef .tc main_arg0) = V (Proc.devRef .tc main_arg0) := by
  unfold ops
  rw [after_append, tail_frame _ (by decide) (by decide) (by decide), fields_frame Rs V (fun R hR => (Rs_wf R hR).arg0)]

theorem after_ops_arg1 (V : Valuation τ sig (Elt F)) :
    after ops V (Proc.devRef .tc main_arg1) = V (Proc.devRef .tc main_arg1) := by
  unfold ops
  rw [after_append, tail_frame _ (by decide) (by decide) (by decide), fields_frame Rs V (fun R hR => (Rs_wf R hR).arg1)]

/-! ## The run -/

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  refine List.forall_iff_forall_mem.mpr fun op hop => ?_
  rcases List.mem_append.mp hop with h | h
  · exact List.forall_iff_forall_mem.mp (fieldsOps_sub Rs) op h
  · exact List.forall_iff_forall_mem.mp
      (show (tailOps (F := F)).Forall fun op => op.bufs ⊆ tcRefs τ sig from ⟨nary_bufs_sub .., nary_bufs_sub .., binary_bufs_sub ..⟩) op h

theorem ops_fresh : ∀ op ∈ (ops : List (HloOp τ sig (Elt F))), op.fresh = ∅ := by
  intro op hop
  rcases List.mem_append.mp hop with h | h
  · exact fieldsOps_fresh Rs op h
  · unfold tailOps at h
    repeat (cases h with | head => rfl | tail _ h => ?_)
    exact nomatch h

/-- On every device, for any float values, from any memory with zero counters: every weakly fair execution of @main
    terminates with the result buffer at the concatenation of the fields' lookups of the arguments' launch contents,
    and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v132)
        = outVal (F := F) (fieldsVal (F := F) (m ((c.tc : Thread nD τ).loc main_arg1)) (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v132).trans (after_ops_out _),
      (h c main_arg0).trans (after_ops_arg0 _),
      (h c main_arg1).trans (after_ops_arg1 _)⟩)
    (run_seq scopedRefs_eq scopedSems_eq defs main (fun _ => ops) main_eq (fun _ => ops_sub) m ρ (fun _ => ops_fresh))

end Cert.Proof.Ref

end
-- ==== Proof.LibGatherRows3.lean ====
/-
  A gather of whole rows at a rank-3 column of row numbers, read at an index.

  Taking rows of a matrix `x : [N, D]` at an integer array of row numbers `idx : [R, C, 1]` is a gather that collapses
  the row axis, keeps the column axis as its one offset axis (slices of one row, `D` wide) and reads each start index
  off `idx`'s last axis. Its element `(r, c, d)` is `x` at row `idx[r, c, 0]` — read as a signed integer and clamped into
  `[0, N − 1]`, as every start index of a gather is — and column `d`.
-/
import Idealize.ShloMosaic.PureOps
import Idealize.ShloMosaic.Lib.ValueIdx

namespace Cert.Lib.GatherRows3

open Idealize.ShloMosaic Idealize.ShloMosaic.ValueIdx

variable {α : Type}

/-- A rank-3 index's first coordinate is below the first extent, stated with the extent `n0` itself. -/
theorem idx3_lt0 {n0 n1 n2 : Nat} (j : (⟨3, ![n0, n1, n2]⟩ : Shape).Idx) : (j 0).val < n0 := (j 0).isLt
/-- A rank-3 index's second coordinate is below the second extent. -/
theorem idx3_lt1 {n0 n1 n2 : Nat} (j : (⟨3, ![n0, n1, n2]⟩ : Shape).Idx) : (j 1).val < n1 := (j 1).isLt
/-- A rank-3 index's third coordinate is below the third extent. -/
theorem idx3_lt2 {n0 n1 n2 : Nat} (j : (⟨3, ![n0, n1, n2]⟩ : Shape).Idx) : (j 2).val < n2 := (j 2).isLt

/-- The dimension numbers of that gather for an operand `[N, D]`, start indices `[R, C, 1]` and a result `[R, C, D]`. -/
abbrev rows3Dims (N R C D : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- Where result index `(r, c, d)` reads its row number: `[r, c, 0]`. -/
abbrev rows3Idx {R C D : Nat} (y : (⟨3, ![R, C, D]⟩ : Shape).Idx) : (⟨3, ![R, C, 1]⟩ : Shape).Idx :=
  fun a => match a with
    | ⟨0, _⟩ => ⟨(y 0).val, idx3_lt0 y⟩
    | ⟨1, _⟩ => ⟨(y 1).val, idx3_lt1 y⟩
    | ⟨2, _⟩ => ⟨0, Nat.one_pos⟩

/-- THE GATHER READ AT `(r, c, d)`: the operand at the row `idx[r, c, 0]`, read signed and clamped into `[0, N − 1]`,
    and column `d`. -/
theorem gather_rows3_apply {N R C D w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (y : (⟨3, ![R, C, D]⟩ : Shape).Idx) :
    Host.gather (rows3Dims N R C D wf) x idx y
      = x (ix2 (⟨min (idx (rows3Idx y)).toInt.toNat (N - 1), by omega⟩ : Fin N) (⟨(y 2).val, idx3_lt2 y⟩ : Fin D)) := by
  unfold Host.gather
  congr 1
  funext a
  refine Fin.ext ?_
  show (rows3Dims N R C D wf).start y idx a + (rows3Dims N R C D wf).batchCoord y a + (rows3Dims N R C D wf).offCoord y a = _
  rw [GatherDims.batchCoord_eq_zero _ _ _ List.not_mem_nil, Nat.add_zero]
  -- the row axis: collapsed (no offset), its start the clamped row number
  have row : (rows3Dims N R C D wf).start y idx (0 : Fin 2) + (rows3Dims N R C D wf).offCoord y (0 : Fin 2)
      = min (idx (rows3Idx y)).toInt.toNat (N - 1) := by
    rw [GatherDims.offCoord_eq_zero _ _ _ (fun h => ((GatherDims.mem_sKept _ _).mp h).1 (List.mem_singleton.mpr rfl)),
      Nat.add_zero]
    unfold GatherDims.start
    rw [dif_pos (show (0 : Fin 2) ∈ (rows3Dims N R C D wf).startIndexMap from List.mem_singleton.mpr rfl)]
    have hsi : (rows3Dims N R C D wf).siIdx y ⟨List.idxOf (0 : Fin 2) (rows3Dims N R C D wf).startIndexMap,
        List.idxOf_lt_length_iff.2 (List.mem_singleton.mpr rfl)⟩ = rows3Idx y := by
      funext b; refine Fin.ext ?_
      match b with
      | ⟨0, _⟩ => rfl
      | ⟨1, _⟩ => rfl
      | ⟨2, _⟩ => rfl
    rw [hsi]
    rfl
  -- the column axis: not in the start index map (start 0), the result's offset axis
  have col : (rows3Dims N R C D wf).start y idx (1 : Fin 2) + (rows3Dims N R C D wf).offCoord y (1 : Fin 2) = (y 2).val := by
    have h1 : (1 : Fin 2) ∉ ([0] : List (Fin 2)) := by decide
    have hk : (1 : Fin 2) ∈ (rows3Dims N R C D wf).sKept := (GatherDims.mem_sKept _ _).mpr ⟨h1, List.not_mem_nil⟩
    unfold GatherDims.start GatherDims.offCoord
    rw [dif_neg h1, dif_pos hk, Nat.zero_add]
    rfl
  match a with
  | ⟨0, _⟩ => exact row
  | ⟨1, _⟩ => exact col

end Cert.Lib.GatherRows3
-- ==== Proof.RefValue.lean ====
/-
  What a field computes, index by index, where every row number is inside its table.

  With `0 ≤ feat ≤ 99999` everywhere: the sign fix-up leaves a row number as it is, the range mask is true at every
  position, the gather's clamp changes nothing, and the select keeps the gathered row. Field `k`'s entry `(b, s, d)`
  is then entry `d` of row `feat[k, b, s]` of table `k`.
-/
import proofs.«204936_g5145370820905_cont_8to1_c_618_18_alg».proof.Proof.RefField
import proofs.«204936_g5145370820905_cont_8to1_c_618_18_alg».proof.Proof.LibGatherRows3
import proofs.«204936_g5145370820905_cont_8to1_c_618_18_alg».proof.Proof.Spec
import Idealize.ShloMosaic.Lib.Pipeline.Value

noncomputable section

namespace Cert.Proof.Ref

open Idealize.ShloMosaic Idealize.ShloMosaic.StableHlo Idealize.ShloMosaic.ValueIdx Idealize.SL.Sem
open Cert.ReferenceIdeal Cert.ReferenceIdeal.Facts₀ Cert.ReferenceIdeal.Facts Cert.Proof.Spec

variable [Cert.ReferenceIdeal.Facts]

/-! ## Words in range -/

theorem toInt_of_le {w : BitVec 32} (h : w.toNat ≤ 100000) : w.toInt = (w.toNat : Int) :=
  BitVec.toInt_eq_toNat_of_lt (by omega)

/-- A word in range is not negative read signed. -/
theorem cmpi_slt_zero {w : BitVec 32} (h : w.toNat ≤ 100000) : IntOp.cmpi .slt w 0#32 = 0#1 := by
  have hs : w.slt 0#32 = false := by
    rw [BitVec.slt_eq_decide, toInt_of_le h, show (0#32 : BitVec 32).toInt = 0 from by decide]
    simp
  show BitVec.ofBool (w.slt 0#32) = 0#1
  rw [hs]; rfl

theorem cmpi_sge_zero {w : BitVec 32} (h : w.toNat ≤ 100000) : IntOp.cmpi .sge w 0#32 = 1#1 := by
  have hs : (0#32 : BitVec 32).sle w = true := by
    rw [BitVec.sle_eq_decide, toInt_of_le h, show (0#32 : BitVec 32).toInt = 0 from by decide]
    simp
  show BitVec.ofBool ((0#32 : BitVec 32).sle w) = 1#1
  rw [hs]; rfl

theorem cmpi_sle_top {w : BitVec 32} (h : w.toNat ≤ 100000) : IntOp.cmpi .sle w 100000#32 = 1#1 := by
  have hs : w.sle 100000#32 = true := by
    rw [BitVec.sle_eq_decide, toInt_of_le h, show (100000#32 : BitVec 32).toInt = 100000 from by decide]
    simp; omega
  show BitVec.ofBool (w.sle 100000#32) = 1#1
  rw [hs]; rfl

/-- An all-reduction by `and` of bits that are all one, from one, is one. -/
theorem foldl_andi_one {ι : Type} (x : ι → BitVec 1) (hx : ∀ n, x n = 1#1) (l : List ι) :
    l.foldl (fun r n => IntOp.andi r (x n)) 1#1 = 1#1 := by
  induction l with
  | nil => rfl
  | cons a l ih =>
    rw [List.foldl_cons, hx a, show IntOp.andi 1#1 1#1 = 1#1 from by decide]
    exact ih

/-! ## The lookup where the row numbers are in range -/

theorem takeIdx_apply (idx : IVec S4096x20 32) (j : S4096x20x1.Idx) (p : S4096x20.Idx)
    (hp0 : (p 0).val = (j 0).val) (hp1 : (p 1).val = (j 1).val) (h : (idx p).toNat ≤ 100000) :
    takeIdx (F := Ideal) idx j = idx p := by
  unfold takeIdx
  refine (broadcastInDim_apply _ _ _ j p (fun a => by
    match a with
    | ⟨0, _⟩ => exact hp0
    | ⟨1, _⟩ => exact hp1)).trans ?_
  have hc : cmpi .slt idx (broadcastInDim S4096x20 ![] bcast_S_S4096x20 (constantI S_ 32 0#32)) p = 0#1 :=
    cmpi_slt_zero h
  rw [select_apply, hc, select_zero]

theorem takeMask_one (i5 : IVec S4096x20x1 32) (h : ∀ j, (i5 j).toNat ≤ 100000) (p : S4096x20.Idx) :
    takeMask (F := Ideal) i5 p = 1#1 := by
  unfold takeMask Host.reduce
  refine foldl_andi_one (fun n => andi (cmpi .sge i5 (broadcastInDim S4096x20x1 ![] bcast_S_S4096x20x1 (constantI S_ 32 0#32)))
      (cmpi .sle i5 (broadcastInDim S4096x20x1 ![0, 1, 2] bcast_S1x1x1_S4096x20x1_0_1_2
        (broadcastInDim S1x1x1 ![2] bcast_S1_S1x1x1_2 (constantI S1 32 100000#32)))) (S4096x20x1.rowMajor.symm n)) (fun n => ?_) _
  show IntOp.andi (IntOp.cmpi .sge (i5 (S4096x20x1.rowMajor.symm n)) 0#32) (IntOp.cmpi .sle (i5 (S4096x20x1.rowMajor.symm n)) 100000#32) = 1#1
  rw [cmpi_sge_zero (h _), cmpi_sle_top (h _)]
  decide

theorem takeVal_apply (x : S100001x32.Idx → EReal) (idx : IVec S4096x20 32) (h : ∀ p, (idx p).toNat ≤ 99999)
    (b : Fin 4096) (s : Fin 20) (d : Fin 32) :
    takeVal (F := Ideal) x idx (ix3 b s d) = x (ix2 (rowOf (idx (ix2 b s))) d) := by
  have h' : ∀ p, (idx p).toNat ≤ 100000 := fun p => Nat.le_trans (h p) (by omega)
  have hm : ∀ j, (takeIdx (F := Ideal) idx j).toNat ≤ 100000 := fun j => by
    rw [takeIdx_apply idx j (ix2 ⟨(j 0).val, Cert.Lib.GatherRows3.idx3_lt0 j⟩ ⟨(j 1).val, Cert.Lib.GatherRows3.idx3_lt1 j⟩) rfl rfl (h' _)]
    exact h' _
  have hi : takeIdx (F := Ideal) idx (Cert.Lib.GatherRows3.rows3Idx (ix3 b s d)) = idx (ix2 b s) :=
    takeIdx_apply idx _ (ix2 b s) rfl rfl (h' _)
  unfold takeVal
  rw [select_apply]
  rw [broadcastInDim_apply _ _ _ (ix3 b s d) (ix2 b s) (fun a => by match a with | ⟨0, _⟩ => rfl | ⟨1, _⟩ => rfl)]
  rw [takeMask_one _ hm, select_one]
  have e : gather_S100001x32_S4096x20x1_S4096x20x32_2_0_n_n_0_2_132
      = Cert.Lib.GatherRows3.rows3Dims 100001 4096 20 32 gather_S100001x32_S4096x20x1_S4096x20x32_2_0_n_n_0_2_132_wf := rfl
  rw [e, Cert.Lib.GatherRows3.gather_rows3_apply (by omega)]
  refine congrArg x ?_
  have hv := h' (ix2 b s)
  funext a
  match a with
  | ⟨0, _⟩ =>
    refine Fin.ext ?_
    show min (takeIdx (F := Ideal) idx (Cert.Lib.GatherRows3.rows3Idx (ix3 b s d))).toInt.toNat (100001 - 1)
      = min (idx (ix2 b s)).toNat 100000
    rw [hi, toInt_of_le hv, Int.toNat_natCast]
  | ⟨1, _⟩ => rfl

/-- Field `k`'s entry `(b, s, d)`: entry `d` of row `feat[k, b, s]` of table `k`. -/
theorem fieldVal_apply (k : Nat) (hk : k < 26) (hs1 : S26x100001x32.Slices ![k, 0, 0] S1x100001x32)
    (hs0 : S26x4096x20.Slices ![k, 0, 0] S1x4096x20) (tab : STab.Idx → EReal) (feat : SFeat.Idx → BitVec 32)
    (h : ∀ i, (feat i).toNat ≤ 99999) (b : Fin 4096) (s : Fin 20) (d : Fin 32) :
    fieldVal (F := Ideal) k hs1 hs0 tab feat (ix3 b s d)
      = tab (ix3 (⟨k, hk⟩ : Fin 26) (rowOf (feat (ix3 (⟨k, hk⟩ : Fin 26) b s))) d) := by
  have hf : ∀ p : S4096x20.Idx,
      shapeCast S4096x20 (extractStridedSlice S1x4096x20 ![k, 0, 0] feat hs0) shapeCasts_S1x4096x20_S4096x20 p
        = feat (ix3 (⟨k, hk⟩ : Fin 26) (p 0) (p 1)) := fun p =>
    (shapeCast_apply _ _ p (ix3 (0 : Fin 1) (p 0) (p 1)) (by
        rw [Shape.rowMajor_val_three, Shape.rowMajor_val_two]
        show ((0 : Nat) * 4096 + (p 0).val) * 20 + (p 1).val = (p 0).val * 20 + (p 1).val
        omega)).trans
      (extractStridedSlice_apply _ _ _ _ (ix3 (⟨k, hk⟩ : Fin 26) (p 0) (p 1)) (fun a => by
        match a with
        | ⟨0, _⟩ => show k = k + 0; rfl
        | ⟨1, _⟩ => show (p 0).val = 0 + (p 0).val; omega
        | ⟨2, _⟩ => show (p 1).val = 0 + (p 1).val; omega))
  have ht : ∀ q : S100001x32.Idx,
      shapeCast S100001x32 (extractStridedSlice S1x100001x32 ![k, 0, 0] tab hs1) shapeCasts_S1x100001x32_S100001x32 q
        = tab (ix3 (⟨k, hk⟩ : Fin 26) (q 0) (q 1)) := fun q =>
    (shapeCast_apply _ _ q (ix3 (0 : Fin 1) (q 0) (q 1)) (by
        rw [Shape.rowMajor_val_three, Shape.rowMajor_val_two]
        show ((0 : Nat) * 100001 + (q 0).val) * 32 + (q 1).val = (q 0).val * 32 + (q 1).val
        omega)).trans
      (extractStridedSlice_apply _ _ _ _ (ix3 (⟨k, hk⟩ : Fin 26) (q 0) (q 1)) (fun a => by
        match a with
        | ⟨0, _⟩ => show k = k + 0; rfl
        | ⟨1, _⟩ => show (q 0).val = 0 + (q 0).val; omega
        | ⟨2, _⟩ => show (q 1).val = 0 + (q 1).val; omega))
  unfold fieldVal
  rw [takeVal_apply _ _ (fun p => by rw [hf]; exact h _), hf, ht]

end Cert.Proof.Ref

end
-- ==== Proof.RefFinal.lean ====
/-
  The reference computes the lookup: where every row number is inside its table, the run's result term is the
  specification's function of the two arguments.

  The result is the concatenation of twenty-six pieces of thirty-two columns: its column `c` is column `c % 32` of
  piece `c / 32`, and piece `k`'s entry `(b, s, d)` is entry `d` of row `feat[k, b, s]` of table `k`.
-/
import proofs.«204936_g5145370820905_cont_8to1_c_618_18_alg».proof.Proof.RefRun
import proofs.«204936_g5145370820905_cont_8to1_c_618_18_alg».proof.Proof.RefValue

noncomputable section

namespace Cert.Proof.Ref

open Idealize.ShloMosaic Idealize.ShloMosaic.StableHlo Idealize.ShloMosaic.TcCoe Idealize.ShloMosaic.ValueIdx Idealize.SL.Sem
open Cert.ReferenceIdeal Cert.ReferenceIdeal.Facts₀ Cert.ReferenceIdeal.Facts Cert.Proof.Spec

variable [Cert.ReferenceIdeal.Facts]

/-- The concatenation read at `(b, s, c)`: piece `c / 32` at `(b, s, c % 32)`. -/
theorem outVal_apply (X : Fin 26 → S4096x20x32.Idx → EReal) (b : Fin 4096) (s : Fin 20) (c : Fin 832) :
    outVal (F := Ideal) X (ix3 b s c) = X (fld c) (ix3 b s (col c)) := by
  unfold outVal
  by_cases hc : c.val < 512
  · refine (concatenate_pair_apply_left (t := S4096x20x832) (s₁ := S4096x20x512) (s₂ := S4096x20x320) _ _ _ _ (ix3 b s c) rfl (ix3 b s (⟨c.val, hc⟩ : Fin 512))
      (fun a => by match a with | ⟨0, _⟩ => rfl | ⟨1, _⟩ => rfl | ⟨2, _⟩ => rfl)).trans ?_
    show concatenate S4096x20x512 2
        (List.ofFn fun n : Fin 16 => (⟨S4096x20x32, X ⟨n.val, by omega⟩⟩ : (s : Shape) × (s.Idx → EReal)))
        concatenates_S4096x20x32_S4096x20x32_S4096x20x32_S4096x20x32_S4096x20x32_S4096x20x32_S4096x20x32_S4096x20x32_S4096x20x32_S4096x20x32_S4096x20x32_S4096x20x32_S4096x20x32_S4096x20x32_S4096x20x32_S4096x20x32_S4096x20x512_d2 (ix3 b s (⟨c.val, hc⟩ : Fin 512)) = _
    refine (concatenate_ofFn_apply (t := S4096x20x512) (s₁ := S4096x20x32) _ (fun n : Fin 16 => X ⟨n.val, by omega⟩) _ rfl 32 rfl
      (ix3 b s (⟨c.val, hc⟩ : Fin 512)) ⟨c.val / 32, by omega⟩ rfl (ix3 b s (col c)) rfl
      (fun a ha => by match a with | ⟨0, _⟩ => rfl | ⟨1, _⟩ => rfl | ⟨2, _⟩ => exact absurd rfl ha)).trans ?_
    rfl
  · have hc' : c.val - 512 < 320 := by have := c.isLt; omega
    refine (concatenate_pair_apply_right (t := S4096x20x832) (s₁ := S4096x20x512) (s₂ := S4096x20x320) _ _ _ _ (ix3 b s c) rfl rfl (ix3 b s (⟨c.val - 512, hc'⟩ : Fin 320))
      (fun a ha => by match a with | ⟨0, _⟩ => rfl | ⟨1, _⟩ => rfl | ⟨2, _⟩ => exact absurd rfl ha)
      (by show c.val - 512 + 512 = c.val; omega)).trans ?_
    show concatenate S4096x20x320 2
        (List.ofFn fun n : Fin 10 => (⟨S4096x20x32, X ⟨n.val + 16, by omega⟩⟩ : (s : Shape) × (s.Idx → EReal)))
        concatenates_S4096x20x32_S4096x20x32_S4096x20x32_S4096x20x32_S4096x20x32_S4096x20x32_S4096x20x32_S4096x20x32_S4096x20x32_S4096x20x32_S4096x20x320_d2 (ix3 b s (⟨c.val - 512, hc'⟩ : Fin 320)) = _
    refine (concatenate_ofFn_apply (t := S4096x20x320) (s₁ := S4096x20x32) _ (fun n : Fin 10 => X ⟨n.val + 16, by omega⟩) _ rfl 32 rfl
      (ix3 b s (⟨c.val - 512, hc'⟩ : Fin 320)) ⟨(c.val - 512) / 32, by omega⟩ rfl (ix3 b s (col c))
      (by show c.val % 32 = (c.val - 512) % 32; omega)
      (fun a ha => by match a with | ⟨0, _⟩ => rfl | ⟨1, _⟩ => rfl | ⟨2, _⟩ => exact absurd rfl ha)).trans ?_
    have e : (⟨(c.val - 512) / 32 + 16, by omega⟩ : Fin 26) = fld c := Fin.ext (by show (c.val - 512) / 32 + 16 = c.val / 32; omega)
    show X ⟨(c.val - 512) / 32 + 16, _⟩ _ = _
    rw [e]

set_option maxRecDepth 4096 in
/-- Piece `k`'s entry `(b, s, d)` where every row number is in range. -/
theorem fieldsVal_apply (tab : STab.Idx → EReal) (feat : SFeat.Idx → BitVec 32) (h : ∀ i, (feat i).toNat ≤ 99999)
    (k : Fin 26) (b : Fin 4096) (s : Fin 20) (d : Fin 32) :
    fieldsVal (F := Ideal) tab feat k (ix3 b s d) = tab (ix3 k (rowOf (feat (ix3 k b s))) d) := by
  have key : ∀ (R : FieldRefs) (hk : R.k < 26), fv (F := Ideal) R tab feat (ix3 b s d)
      = tab (ix3 (⟨R.k, hk⟩ : Fin 26) (rowOf (feat (ix3 (⟨R.k, hk⟩ : Fin 26) b s))) d) :=
    fun R hk => fieldVal_apply R.k hk R.hs1 R.hs0 tab feat h b s d
  obtain ⟨k, hk⟩ := k
  interval_cases k
  · simp only [fieldsVal, Matrix.cons_val_zero', Matrix.cons_val_succ']
    exact key R0 (by decide)
  · simp only [fieldsVal, Matrix.cons_val_zero', Matrix.cons_val_succ']
    exact key R1 (by decide)
  · simp only [fieldsVal, Matrix.cons_val_zero', Matrix.cons_val_succ']
    exact key R2 (by decide)
  · simp only [fieldsVal, Matrix.cons_val_zero', Matrix.cons_val_succ']
    exact key R3 (by decide)
  · simp only [fieldsVal, Matrix.cons_val_zero', Matrix.cons_val_succ']
    exact key R4 (by decide)
  · simp only [fieldsVal, Matrix.cons_val_zero', Matrix.cons_val_succ']
    exact key R5 (by decide)
  · simp only [fieldsVal, Matrix.cons_val_zero', Matrix.cons_val_succ']
    exact key R6 (by decide)
  · simp only [fieldsVal, Matrix.cons_val_zero', Matrix.cons_val_succ']
    exact key R7 (by decide)
  · simp only [fieldsVal, Matrix.cons_val_zero', Matrix.cons_val_succ']
    exact key R8 (by decide)
  · simp only [fieldsVal, Matrix.cons_val_zero', Matrix.cons_val_succ']
    exact key R9 (by decide)
  · simp only [fieldsVal, Matrix.cons_val_zero', Matrix.cons_val_succ']
    exact key R10 (by decide)
  · simp only [fieldsVal, Matrix.cons_val_zero', Matrix.cons_val_succ']
    exact key R11 (by decide)
  · simp only [fieldsVal, Matrix.cons_val_zero', Matrix.cons_val_succ']
    exact key R12 (by decide)
  · simp only [fieldsVal, Matrix.cons_val_zero', Matrix.cons_val_succ']
    exact key R13 (by decide)
  · simp only [fieldsVal, Matrix.cons_val_zero', Matrix.cons_val_succ']
    exact key R14 (by decide)
  · simp only [fieldsVal, Matrix.cons_val_zero', Matrix.cons_val_succ']
    exact key R15 (by decide)
  · simp only [fieldsVal, Matrix.cons_val_zero', Matrix.cons_val_succ']
    exact key R16 (by decide)
  · simp only [fieldsVal, Matrix.cons_val_zero', Matrix.cons_val_succ']
    exact key R17 (by decide)
  · simp only [fieldsVal, Matrix.cons_val_zero', Matrix.cons_val_succ']
    exact key R18 (by decide)
  · simp only [fieldsVal, Matrix.cons_val_zero', Matrix.cons_val_succ']
    exact key R19 (by decide)
  · simp only [fieldsVal, Matrix.cons_val_zero', Matrix.cons_val_succ']
    exact key R20 (by decide)
  · simp only [fieldsVal, Matrix.cons_val_zero', Matrix.cons_val_succ']
    exact key R21 (by decide)
  · simp only [fieldsVal, Matrix.cons_val_zero', Matrix.cons_val_succ']
    exact key R22 (by decide)
  · simp only [fieldsVal, Matrix.cons_val_zero', Matrix.cons_val_succ']
    exact key R23 (by decide)
  · simp only [fieldsVal, Matrix.cons_val_zero', Matrix.cons_val_succ']
    exact key R24 (by decide)
  · simp only [fieldsVal, Matrix.cons_val_zero', Matrix.cons_val_succ']
    exact key R25 (by decide)

/-- The run's result term is the specification's lookup. -/
theorem out_eq_G (tab : STab.Idx → EReal) (feat : SFeat.Idx → BitVec 32) (h : ∀ i, (feat i).toNat ≤ 99999) :
    outVal (F := Ideal) (fieldsVal (F := Ideal) tab feat) = G feat tab := by
  funext i
  obtain ⟨b, s, c, rfl⟩ : ∃ (b : Fin 4096) (s : Fin 20) (c : Fin 832), i = ix3 b s c := ⟨i 0, i 1, i 2, eq_ix3 i⟩
  exact (outVal_apply _ b s c).trans (fieldsVal_apply tab feat h (fld c) b s (col c))

/-- The reference's run, its result the specification's lookup of the arguments' launch contents: from any memory
    with zero counters whose row numbers are all inside their tables, every weakly fair execution of @main ends with
    the result buffer at `G` of the two arguments and the arguments unchanged. -/
theorem run_G (m : (ℓ : Loc nD τ sig) → Buf (Elt Ideal) ℓ) (ρ : Dev nD → PrngReg)
    (hrange : ∀ (c : Dev nD) i, (m ((c.tc : Thread nD τ).loc main_arg0) i).toNat ≤ 99999) :
    θ_run (defs (F := Ideal)) (onTc (τ := τ) (main (F := Ideal))) ⟨m, fun _ => 0, ρ⟩ (fun r => ∀ c : Dev nD,
      r.2.mem ((c.tc : Thread nD τ).loc main_v132)
        = Spec.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := Ideal)) _ _).mono (fun _ h c => ⟨(h c).1.trans (out_eq_G _ _ (hrange c)), (h c).2.1, (h c).2.2⟩)
    (run (F := Ideal) m ρ)

end Cert.Proof.Ref

end
-- ==== Proof.lean ====
/-
  The certificate's claim: the SparseCore embedding lookup and its reference compute the same function.

  Both programs end with the lookup `Spec.G` of the two arguments: result (b, s, k) is entry k % 32 of row
  features[k / 32, b, s] of table k / 32. The kernel's side: every tile leaves, in its rows of the call's result, the table
  rows its index entries name (the tile's body, under the launch theorem), and the call's result read at the shape
  [4096, 20, 832] is `G` (`resArr_eq_G`); the reference's side: its twenty-six `take`s side by side are `G` wherever
  every row number is inside its table, which the precondition 0 <= features <= 99999 says. The three frames are the
  same runs with the value dropped; the ideal pass rewrote nothing, so `preserves` asks nothing.
-/
import proofs.«204936_g5145370820905_cont_8to1_c_618_18_alg».proof.Defs
import proofs.«204936_g5145370820905_cont_8to1_c_618_18_alg».proof.Proof.Gen.Kernel
import proofs.«204936_g5145370820905_cont_8to1_c_618_18_alg».proof.Proof.Gen.Kernel.Skeleton
import proofs.«204936_g5145370820905_cont_8to1_c_618_18_alg».proof.Proof.Gen.KernelIdeal
import proofs.«204936_g5145370820905_cont_8to1_c_618_18_alg».proof.Proof.Gen.KernelIdeal.Skeleton
import proofs.«204936_g5145370820905_cont_8to1_c_618_18_alg».proof.Proof.Gen.ReferenceIdeal
import proofs.«204936_g5145370820905_cont_8to1_c_618_18_alg».proof.Proof.Gen.Pre_input_domain
import proofs.«204936_g5145370820905_cont_8to1_c_618_18_alg».proof.Proof.PreRange
import proofs.«204936_g5145370820905_cont_8to1_c_618_18_alg».proof.Proof.KIObl
import proofs.«204936_g5145370820905_cont_8to1_c_618_18_alg».proof.Proof.KILaunch
import proofs.«204936_g5145370820905_cont_8to1_c_618_18_alg».proof.Proof.KIValueBridge
import proofs.«204936_g5145370820905_cont_8to1_c_618_18_alg».proof.Proof.KBObl
import proofs.«204936_g5145370820905_cont_8to1_c_618_18_alg».proof.Proof.KBLaunch
import proofs.«204936_g5145370820905_cont_8to1_c_618_18_alg».proof.Proof.KBValueBridge
import proofs.«204936_g5145370820905_cont_8to1_c_618_18_alg».proof.Proof.RefFinal
import Idealize.ShloMosaic.Adequacy
import Idealize.ShloMosaic.Init

noncomputable section

namespace Cert.Proof

open Idealize.ShloMosaic Idealize.SL.Sem

/-- The precondition's integer conjunct, at either kernel program and at the reference: every feature word is a row
    number of its table. -/
theorem rangeKI (m : (ℓ : Loc Cert.KernelIdeal.nD Cert.KernelIdeal.τ Cert.KernelIdeal.sig) → Buf (Elt Ideal) ℓ) (h : Cert.Pre_KernelIdeal m) :
    ∀ d i, (m (KI.a0Loc d) i).toNat ≤ 99999 :=
  fun d => PreRange.range_of_pre (F := Ideal) (m (KI.a0Loc d)) (m (KI.a1Loc d)) (h d)
theorem rangeKB (m : (ℓ : Loc Cert.Kernel.nD Cert.Kernel.τ Cert.Kernel.sig) → Buf (Elt Bits) ℓ) (h : Cert.Pre_Kernel m) :
    ∀ d i, (m (KB.a0Loc d) i).toNat ≤ 99999 :=
  fun d => PreRange.range_of_pre (F := Bits) (m (KB.a0Loc d)) (m (KB.a1Loc d)) (h d)

theorem frame_Kernel : Cert.frame_Kernel := fun m ρ hpre =>
  (θ_run Cert.Kernel.defs _ _).mono (fun _ h c => ⟨(h c).2.1, (h c).2.2⟩)
    (KB.run_main (F := Bits) m ρ (KB.tileObl m (KB.preOK_of_range m (rangeKB m hpre))))

theorem frame_KernelIdeal : Cert.frame_KernelIdeal := fun m ρ hpre =>
  (θ_run Cert.KernelIdeal.defs _ _).mono (fun _ h c => ⟨(h c).2.1, (h c).2.2⟩)
    (KI.run_main (F := Ideal) m ρ (KI.tileObl m (KI.preOK_of_range m (rangeKI m hpre))))

theorem frame_ReferenceIdeal : Cert.frame_ReferenceIdeal := fun m ρ hpre =>
  (θ_run Cert.ReferenceIdeal.defs _ _).mono (fun _ h c => ⟨(h c).2.1, (h c).2.2⟩)
    (Ref.run_G m ρ fun c => PreRange.range_of_pre (F := Ideal) _ _ (hpre c))

theorem algebraic : Cert.algebraic_KernelIdeal_ReferenceIdeal := fun m g m' g' hpre hagree =>
  ⟨fun c => Spec.G (m (KI.a0Loc c)) (m (KI.a1Loc c)),
    (θ_run Cert.KernelIdeal.defs _ _).mono
      (fun _ h c => ⟨(h c).1.trans (KI.resArr_eq_G m (rangeKI m hpre) c), (h c).2.1, (h c).2.2⟩)
      (KI.run_main (F := Ideal) m g (KI.tileObl m (KI.preOK_of_range m (rangeKI m hpre)))),
    (θ_run Cert.ReferenceIdeal.defs _ _).mono
      (fun _ h c => ⟨by rw [(h c).1, (hagree c).1, (hagree c).2], (h c).2.1, (h c).2.2⟩)
      (Ref.run_G m' g' fun c i => by rw [(hagree c).1]; exact rangeKI m hpre c i)⟩

theorem claim : Cert.Claim :=
  ⟨Cert.Kernel.Gen.facts, Cert.KernelIdeal.Gen.facts, Cert.ReferenceIdeal.Gen.facts, Cert.Pre_input_domain.Gen.facts,
    frame_Kernel, frame_KernelIdeal, frame_ReferenceIdeal, trivial, algebraic⟩

end Cert.Proof

end
